-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v346)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v346) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v378) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x200000x20 : Shape := ⟨3, ![4, 200000, 20]⟩
abbrev S4x2x3200000 : Shape := ⟨3, ![4, 2, 3200000]⟩
abbrev S4 : Shape := ⟨1, ![4]⟩
abbrev S4x20x32 : Shape := ⟨3, ![4, 20, 32]⟩
abbrev S4x32 : Shape := ⟨2, ![4, 32]⟩
abbrev S4x32x32 : Shape := ⟨3, ![4, 32, 32]⟩
abbrev S32x64 : Shape := ⟨2, ![32, 64]⟩
abbrev S64 : Shape := ⟨1, ![64]⟩
abbrev S64x32 : Shape := ⟨2, ![64, 32]⟩
abbrev S32 : Shape := ⟨1, ![32]⟩
abbrev S_ : Shape := ⟨0, ![]⟩
abbrev S3 : Shape := ⟨1, ![3]⟩

class Facts : Prop where
  bcast_S_S4x200000x20 : S_.BroadcastsInDim S4x200000x20 (![] : Fin 0 → Fin S4x200000x20.rank)
  reducesTo_S4x200000x20_S_d0_1_2 : S4x200000x20.ReducesTo [0, 1, 2] S_
  h_S_ : 0 < S_.numel
  bcast_S_S4 : S_.BroadcastsInDim S4 (![] : Fin 0 → Fin S4.rank)
  reducesTo_S4_S_d0 : S4.ReducesTo [0] S_
  bcast_S_S4x20x32 : S_.BroadcastsInDim S4x20x32 (![] : Fin 0 → Fin S4x20x32.rank)
  reducesTo_S4x20x32_S_d0_1_2 : S4x20x32.ReducesTo [0, 1, 2] S_
  bcast_S_S4x32 : S_.BroadcastsInDim S4x32 (![] : Fin 0 → Fin S4x32.rank)
  reducesTo_S4x32_S_d0_1 : S4x32.ReducesTo [0, 1] S_
  bcast_S_S4x32x32 : S_.BroadcastsInDim S4x32x32 (![] : Fin 0 → Fin S4x32x32.rank)
  reducesTo_S4x32x32_S_d0_1_2 : S4x32x32.ReducesTo [0, 1, 2] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  slices_S4_S3_1 : S4.Slices ![1] S3
  bcast_S_S3 : S_.BroadcastsInDim S3 (![] : Fin 0 → Fin S3.rank)
  reducesTo_S3_S_d0 : S3.ReducesTo [0] S_

variable [Facts]

def fn_part3 {F : FTy → Type} [FloatOps F] (main_v48 : IVec S_ 1) (main_v49 : FVec F S3 .f32) (main_v50 : FVec F S3 .f32) : IVec S_ 1 :=
  let main_v51 : IVec S3 1 := cmpf .une main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  main_v53

def fn_part2 {F : FTy → Type} [FloatOps F] (main_arg3 : FVec F S4 .f32) (main_arg9 : FVec F S64 .f32) (main_arg10 : FVec F S64x32 .f32) (main_arg11 : FVec F S32 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x32 .f32 := Host.absf main_arg10
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S3 .f32 := (extractStridedSlice S3 ![1] · slices_S4_S3_1) main_arg3
  let main_cst_18 : FVec F S_ .f32 := constant S_ .f32 0x00000000#32
  let main_v50 : FVec F S3 .f32 := broadcastInDim S3 ![] bcast_S_S3 main_cst_18
  fn_part3 (F := F) main_v48 main_v49 main_v50

def fn_part1 {F : FTy → Type} [FloatOps F] (main_arg3 : FVec F S4 .f32) (main_arg6 : FVec F S4x32x32 .f32) (main_arg7 : FVec F S4x32 .f32) (main_arg8 : FVec F S32x64 .f32) (main_arg9 : FVec F S64 .f32) (main_arg10 : FVec F S64x32 .f32) (main_arg11 : FVec F S32 .f32) (main_v13 : IVec S_ 1) (main_v16 : IVec S4x32 1) : IVec S_ 1 :=
  let main_c_5 : IVec S_ 1 := constantI S_ 1 1#1
  let main_v17 : IVec S_ 1 := (fun x v => Host.reduce IntOp.andi x v reducesTo_S4x32_S_d0_1 h_S_) main_v16 main_c_5
  let main_v18 : IVec S_ 1 := andi main_v13 main_v17
  let main_v19 : FVec F S4x32x32 .f32 := Host.absf main_arg6
  let main_cst_6 : FVec F S_ .f32 := constant S_ .f32 0x7F800000#32
  let main_v20 : FVec F S4x32x32 .f32 := broadcastInDim S4x32x32 ![] bcast_S_S4x32x32 main_cst_6
  let main_v21 : IVec S4x32x32 1 := cmpf .olt main_v19 main_v20
  let main_c_7 : IVec S_ 1 := constantI S_ 1 1#1
  let main_v22 : IVec S_ 1 := (fun x v => Host.reduce IntOp.andi x v reducesTo_S4x32x32_S_d0_1_2 h_S_) main_v21 main_c_7
  let main_v23 : IVec S_ 1 := andi main_v18 main_v22
  let main_v24 : FVec F S4x32 .f32 := Host.absf main_arg7
  let main_cst_8 : FVec F S_ .f32 := constant S_ .f32 0x7F800000#32
  let main_v25 : FVec F S4x32 .f32 := broadcastInDim S4x32 ![] bcast_S_S4x32 main_cst_8
  let main_v26 : IVec S4x32 1 := cmpf .olt main_v24 main_v25
  let main_c_9 : IVec S_ 1 := constantI S_ 1 1#1
  let main_v27 : IVec S_ 1 := (fun x v => Host.reduce IntOp.andi x v reducesTo_S4x32_S_d0_1 h_S_) main_v26 main_c_9
  let main_v28 : IVec S_ 1 := andi main_v23 main_v27
  let main_v29 : FVec F S32x64 .f32 := Host.absf main_arg8
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg3 main_arg9 main_arg10 main_arg11 main_v33

def fn {F : FTy → Type} [FloatOps F] (main_arg0 : FVec F S4x200000x20 .f32) (main_arg1 : IVec S4x2x3200000 32) (main_arg2 : IVec S4x2x3200000 32) (main_arg3 : FVec F S4 .f32) (main_arg4 : FVec F S4x20x32 .f32) (main_arg5 : FVec F S4x32 .f32) (main_arg6 : FVec F S4x32x32 .f32) (main_arg7 : FVec F S4x32 .f32) (main_arg8 : FVec F S32x64 .f32) (main_arg9 : FVec F S64 .f32) (main_arg10 : FVec F S64x32 .f32) (main_arg11 : FVec F S32 .f32) : IVec S_ 1 :=
  let main_v0 : FVec F S4x200000x20 .f32 := Host.absf main_arg0
  let main_cst : FVec F S_ .f32 := constant S_ .f32 0x7F800000#32
  let main_v1 : FVec F S4x200000x20 .f32 := broadcastInDim S4x200000x20 ![] bcast_S_S4x200000x20 main_cst
  let main_v2 : IVec S4x200000x20 1 := cmpf .olt main_v0 main_v1
  let main_c : IVec S_ 1 := constantI S_ 1 1#1
  let main_v3 : IVec S_ 1 := (fun x v => Host.reduce IntOp.andi x v reducesTo_S4x200000x20_S_d0_1_2 h_S_) main_v2 main_c
  let main_v4 : FVec F S4 .f32 := Host.absf main_arg3
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  let main_c_1 : IVec S_ 1 := constantI S_ 1 1#1
  let main_v7 : IVec S_ 1 := (fun x v => Host.reduce IntOp.andi x v reducesTo_S4_S_d0 h_S_) main_v6 main_c_1
  let main_v8 : IVec S_ 1 := andi main_v3 main_v7
  let main_v9 : FVec F S4x20x32 .f32 := Host.absf main_arg4
  let main_cst_2 : FVec F S_ .f32 := constant S_ .f32 0x7F800000#32
  let main_v10 : FVec F S4x20x32 .f32 := broadcastInDim S4x20x32 ![] bcast_S_S4x20x32 main_cst_2
  let main_v11 : IVec S4x20x32 1 := cmpf .olt main_v9 main_v10
  let main_c_3 : IVec S_ 1 := constantI S_ 1 1#1
  let main_v12 : IVec S_ 1 := (fun x v => Host.reduce IntOp.andi x v reducesTo_S4x20x32_S_d0_1_2 h_S_) main_v11 main_c_3
  let main_v13 : IVec S_ 1 := andi main_v8 main_v12
  let main_v14 : FVec F S4x32 .f32 := Host.absf main_arg5
  let main_cst_4 : FVec F S_ .f32 := constant S_ .f32 0x7F800000#32
  let main_v15 : FVec F S4x32 .f32 := broadcastInDim S4x32 ![] bcast_S_S4x32 main_cst_4
  let main_v16 : IVec S4x32 1 := cmpf .olt main_v14 main_v15
  fn_part1 (F := F) main_arg3 main_arg6 main_arg7 main_arg8 main_arg9 main_arg10 main_arg11 main_v13 main_v16
-- ==== Kernel.lean ====
abbrev S4x200000x20 : Shape := ⟨3, ![4, 200000, 20]⟩
abbrev S4x2x3200000 : Shape := ⟨3, ![4, 2, 3200000]⟩
abbrev S4 : Shape := ⟨1, ![4]⟩
abbrev S4x20x32 : Shape := ⟨3, ![4, 20, 32]⟩
abbrev S4x32 : Shape := ⟨2, ![4, 32]⟩
abbrev S4x32x32 : Shape := ⟨3, ![4, 32, 32]⟩
abbrev S32x64 : Shape := ⟨2, ![32, 64]⟩
abbrev S64 : Shape := ⟨1, ![64]⟩
abbrev S64x32 : Shape := ⟨2, ![64, 32]⟩
abbrev S32 : Shape := ⟨1, ![32]⟩
abbrev S1x200000x20 : Shape := ⟨3, ![1, 200000, 20]⟩
abbrev S200000x20 : Shape := ⟨2, ![200000, 20]⟩
abbrev S1x1x3200000 : Shape := ⟨3, ![1, 1, 3200000]⟩
abbrev S3200000 : Shape := ⟨1, ![3200000]⟩
abbrev S_ : Shape := ⟨0, ![]⟩
abbrev S200000 : Shape := ⟨1, ![200000]⟩
abbrev S3200000x1 : Shape := ⟨2, ![3200000, 1]⟩
abbrev S200000x1 : Shape := ⟨2, ![200000, 1]⟩
abbrev S1x20x32 : Shape := ⟨3, ![1, 20, 32]⟩
abbrev S20x32 : Shape := ⟨2, ![20, 32]⟩
abbrev S1x32 : Shape := ⟨2, ![1, 32]⟩
abbrev S1x32x32 : Shape := ⟨3, ![1, 32, 32]⟩
abbrev S32x32 : Shape := ⟨2, ![32, 32]⟩
abbrev S200000x32 : Shape := ⟨2, ![200000, 32]⟩
abbrev S10000x20 : Shape := ⟨2, ![10000, 20]⟩
abbrev S10000x32 : Shape := ⟨2, ![10000, 32]⟩
abbrev S3200000x32 : Shape := ⟨2, ![3200000, 32]⟩
abbrev S1x1 : Shape := ⟨2, ![1, 1]⟩
abbrev S1 : Shape := ⟨1, ![1]⟩
abbrev S1x64 : Shape := ⟨2, ![1, 64]⟩
abbrev S10000x64 : Shape := ⟨2, ![10000, 64]⟩

abbrev nBuf : Space → Nat
  | .hbm => 425
  | .vmem => 100
  | .smem => 0
  | _ => 0

abbrev hbmTy0_0 (i : Nat) : BufTy := match i % 128 with
  | 0 => ⟨S4x200000x20, .f32⟩
  | 1 => ⟨S4x2x3200000, .i32⟩
  | 2 => ⟨S4x2x3200000, .i32⟩
  | 3 => ⟨S4, .f32⟩
  | 4 => ⟨S4x20x32, .f32⟩
  | 5 => ⟨S4x32, .f32⟩
  | 6 => ⟨S4x32x32, .f32⟩
  | 7 => ⟨S4x32, .f32⟩
  | 8 => ⟨S32x64, .f32⟩
  | 9 => ⟨S64, .f32⟩
  | 10 => ⟨S64x32, .f32⟩
  | 11 => ⟨S32, .f32⟩
  | 12 => ⟨S1x200000x20, .f32⟩
  | 13 => ⟨S200000x20, .f32⟩
  | 14 => ⟨S1x1x3200000, .i32⟩
  | 15 => ⟨S3200000, .i32⟩
  | 16 => ⟨S1x1x3200000, .i32⟩
  | 17 => ⟨S3200000, .i32⟩
  | 18 => ⟨S_, .f32⟩
  | 19 => ⟨S3200000, .f32⟩
  | 20 => ⟨S_, .f32⟩
  | 21 => ⟨S200000, .f32⟩
  | 22 => ⟨S3200000x1, .i32⟩
  | 23 => ⟨S200000, .f32⟩
  | 24 => ⟨S_, .f32⟩
  | 25 => ⟨S200000, .f32⟩
  | 26 => ⟨S200000, .f32⟩
  | 27 => ⟨S200000, .f32⟩
  | 28 => ⟨S_, .i32⟩
  | 29 => ⟨S3200000, .i32⟩
  | 30 => ⟨S3200000, .i1⟩
  | 31 => ⟨S_, .i32⟩
  | 32 => ⟨S3200000, .i32⟩
  | 33 => ⟨S3200000, .i32⟩
  | 34 => ⟨S3200000, .i32⟩
  | 35 => ⟨S3200000x1, .i32⟩
  | 36 => ⟨S3200000, .f32⟩
  | 37 => ⟨S_, .i32⟩
  | 38 => ⟨S3200000, .i32⟩
  | 39 => ⟨S3200000, .i1⟩
  | 40 => ⟨S_, .i32⟩
  | 41 => ⟨S3200000, .i32⟩
  | 42 => ⟨S3200000, .i32⟩
  | 43 => ⟨S3200000, .i32⟩
  | 44 => ⟨S3200000x1, .i32⟩
  | 45 => ⟨S3200000, .f32⟩
  | 46 => ⟨S3200000, .f32⟩
  | 47 => ⟨S3200000x1, .f32⟩
  | 48 => ⟨S200000, .f32⟩
  | 49 => ⟨S200000x1, .f32⟩
  | 50 => ⟨S1x20x32, .f32⟩
  | 51 => ⟨S20x32, .f32⟩
  | 52 => ⟨S1x32, .f32⟩
  | 53 => ⟨S32, .f32⟩
  | 54 => ⟨S1x32, .f32⟩
  | 55 => ⟨S1x32x32, .f32⟩
  | 56 => ⟨S32x32, .f32⟩
  | 57 => ⟨S1x32, .f32⟩
  | 58 => ⟨S32, .f32⟩
  | 59 => ⟨S1x32, .f32⟩
  | 60 => ⟨S200000x32, .f32⟩
  | 61 => ⟨S_, .i32⟩
  | 62 => ⟨S3200000, .i32⟩
  | 63 => ⟨S3200000, .i1⟩
  | 64 => ⟨S_, .i32⟩
  | 65 => ⟨S3200000, .i32⟩
  | 66 => ⟨S3200000, .i32⟩
  | 67 => ⟨S3200000, .i32⟩
  | 68 => ⟨S3200000x1, .i32⟩
  | 69 => ⟨S3200000x32, .f32⟩
  | 70 => ⟨S3200000x32, .f32⟩
  | 71 => ⟨S3200000x32, .f32⟩
  | 72 => ⟨S_, .f32⟩
  | 73 => ⟨S200000x32, .f32⟩
  | 74 => ⟨S3200000x1, .i32⟩
  | 75 => ⟨S200000x32, .f32⟩
  | 76 => ⟨S200000x32, .f32⟩
  | 77 => ⟨S200000x32, .f32⟩
  | 78 => ⟨S200000x32, .f32⟩
  | 79 => ⟨S_, .i32⟩
  | 80 => ⟨S3200000, .i32⟩
  | 81 => ⟨S3200000, .i1⟩
  | 82 => ⟨S_, .i32⟩
  | 83 => ⟨S3200000, .i32⟩
  | 84 => ⟨S3200000, .i32⟩
  | 85 => ⟨S3200000, .i32⟩
  | 86 => ⟨S3200000x1, .i32⟩
  | 87 => ⟨S3200000x32, .f32⟩
  | 88 => ⟨S3200000x32, .f32⟩
  | 89 => ⟨S3200000x32, .f32⟩
  | 90 => ⟨S_, .f32⟩
  | 91 => ⟨S200000x32, .f32⟩
  | 92 => ⟨S3200000x1, .i32⟩
  | 93 => ⟨S200000x32, .f32⟩
  | 94 => ⟨S200000x32, .f32⟩
  | 95 => ⟨S200000x32, .f32⟩
  | 96 => ⟨S_, .f32⟩
  | 97 => ⟨S200000x32, .f32⟩
  | 98 => ⟨S_, .f32⟩
  | 99 => ⟨S1x1, .f32⟩
  | 100 => ⟨S200000x32, .f32⟩
  | 101 => ⟨S1x200000x20, .f32⟩
  | 102 => ⟨S200000x20, .f32⟩
  | 103 => ⟨S1x1x3200000, .i32⟩
  | 104 => ⟨S3200000, .i32⟩
  | 105 => ⟨S1x1x3200000, .i32⟩
  | 106 => ⟨S3200000, .i32⟩
  | 107 => ⟨S_, .f32⟩
  | 108 => ⟨S3200000, .f32⟩
  | 109 => ⟨S_, .f32⟩
  | 110 => ⟨S200000, .f32⟩
  | 111 => ⟨S3200000x1, .i32⟩
  | 112 => ⟨S200000, .f32⟩
  | 113 => ⟨S_, .f32⟩
  | 114 => ⟨S200000, .f32⟩
  | 115 => ⟨S200000, .f32⟩
  | 116 => ⟨S200000, .f32⟩
  | 117 => ⟨S_, .i32⟩
  | 118 => ⟨S3200000, .i32⟩
  | 119 => ⟨S3200000, .i1⟩
  | 120 => ⟨S_, .i32⟩
  | 121 => ⟨S3200000, .i32⟩
  | 122 => ⟨S3200000, .i32⟩
  | 123 => ⟨S3200000, .i32⟩
  | 124 => ⟨S3200000x1, .i32⟩
  | 125 => ⟨S3200000, .f32⟩
  | 126 => ⟨S_, .i32⟩
  | 127 => ⟨S3200000, .i32⟩
  | _ => ⟨S4x200000x20, .f32⟩

abbrev hbmTy0_1 (i : Nat) : BufTy := match i % 128 with
  | 0 => ⟨S3200000, .i1⟩
  | 1 => ⟨S_, .i32⟩
  | 2 => ⟨S3200000, .i32⟩
  | 3 => ⟨S3200000, .i32⟩
  | 4 => ⟨S3200000, .i32⟩
  | 5 => ⟨S3200000x1, .i32⟩
  | 6 => ⟨S3200000, .f32⟩
  | 7 => ⟨S3200000, .f32⟩
  | 8 => ⟨S3200000x1, .f32⟩
  | 9 => ⟨S200000, .f32⟩
  | 10 => ⟨S200000x1, .f32⟩
  | 11 => ⟨S1x20x32, .f32⟩
  | 12 => ⟨S20x32, .f32⟩
  | 13 => ⟨S1x32, .f32⟩
  | 14 => ⟨S32, .f32⟩
  | 15 => ⟨S1x32, .f32⟩
  | 16 => ⟨S1x32x32, .f32⟩
  | 17 => ⟨S32x32, .f32⟩
  | 18 => ⟨S1x32, .f32⟩
  | 19 => ⟨S32, .f32⟩
  | 20 => ⟨S1x32, .f32⟩
  | 21 => ⟨S200000x32, .f32⟩
  | 22 => ⟨S_, .i32⟩
  | 23 => ⟨S3200000, .i32⟩
  | 24 => ⟨S3200000, .i1⟩
  | 25 => ⟨S_, .i32⟩
  | 26 => ⟨S3200000, .i32⟩
  | 27 => ⟨S3200000, .i32⟩
  | 28 => ⟨S3200000, .i32⟩
  | 29 => ⟨S3200000x1, .i32⟩
  | 30 => ⟨S3200000x32, .f32⟩
  | 31 => ⟨S3200000x32, .f32⟩
  | 32 => ⟨S3200000x32, .f32⟩
  | 33 => ⟨S_, .f32⟩
  | 34 => ⟨S200000x32, .f32⟩
  | 35 => ⟨S3200000x1, .i32⟩
  | 36 => ⟨S200000x32, .f32⟩
  | 37 => ⟨S200000x32, .f32⟩
  | 38 => ⟨S200000x32, .f32⟩
  | 39 => ⟨S200000x32, .f32⟩
  | 40 => ⟨S_, .i32⟩
  | 41 => ⟨S3200000, .i32⟩
  | 42 => ⟨S3200000, .i1⟩
  | 43 => ⟨S_, .i32⟩
  | 44 => ⟨S3200000, .i32⟩
  | 45 => ⟨S3200000, .i32⟩
  | 46 => ⟨S3200000, .i32⟩
  | 47 => ⟨S3200000x1, .i32⟩
  | 48 => ⟨S3200000x32, .f32⟩
  | 49 => ⟨S3200000x32, .f32⟩
  | 50 => ⟨S3200000x32, .f32⟩
  | 51 => ⟨S_, .f32⟩
  | 52 => ⟨S200000x32, .f32⟩
  | 53 => ⟨S3200000x1, .i32⟩
  | 54 => ⟨S200000x32, .f32⟩
  | 55 => ⟨S200000x32, .f32⟩
  | 56 => ⟨S200000x32, .f32⟩
  | 57 => ⟨S1x1x3200000, .i32⟩
  | 58 => ⟨S3200000, .i32⟩
  | 59 => ⟨S1x1x3200000, .i32⟩
  | 60 => ⟨S3200000, .i32⟩
  | 61 => ⟨S_, .i32⟩
  | 62 => ⟨S3200000, .i32⟩
  | 63 => ⟨S3200000, .i1⟩
  | 64 => ⟨S_, .i32⟩
  | 65 => ⟨S3200000, .i32⟩
  | 66 => ⟨S3200000, .i32⟩
  | 67 => ⟨S3200000, .i32⟩
  | 68 => ⟨S3200000x1, .i32⟩
  | 69 => ⟨S3200000x32, .f32⟩
  | 70 => ⟨S_, .f32⟩
  | 71 => ⟨S200000x32, .f32⟩
  | 72 => ⟨S3200000x1, .i32⟩
  | 73 => ⟨S200000x32, .f32⟩
  | 74 => ⟨S1, .f32⟩
  | 75 => ⟨S_, .f32⟩
  | 76 => ⟨S_, .f32⟩
  | 77 => ⟨S_, .f32⟩
  | 78 => ⟨S1x1, .f32⟩
  | 79 => ⟨S200000x32, .f32⟩
  | 80 => ⟨S1x200000x20, .f32⟩
  | 81 => ⟨S200000x20, .f32⟩
  | 82 => ⟨S1x1x3200000, .i32⟩
  | 83 => ⟨S3200000, .i32⟩
  | 84 => ⟨S1x1x3200000, .i32⟩
  | 85 => ⟨S3200000, .i32⟩
  | 86 => ⟨S_, .f32⟩
  | 87 => ⟨S3200000, .f32⟩
  | 88 => ⟨S_, .f32⟩
  | 89 => ⟨S200000, .f32⟩
  | 90 => ⟨S3200000x1, .i32⟩
  | 91 => ⟨S200000, .f32⟩
  | 92 => ⟨S_, .f32⟩
  | 93 => ⟨S200000, .f32⟩
  | 94 => ⟨S200000, .f32⟩
  | 95 => ⟨S200000, .f32⟩
  | 96 => ⟨S_, .i32⟩
  | 97 => ⟨S3200000, .i32⟩
  | 98 => ⟨S3200000, .i1⟩
  | 99 => ⟨S_, .i32⟩
  | 100 => ⟨S3200000, .i32⟩
  | 101 => ⟨S3200000, .i32⟩
  | 102 => ⟨S3200000, .i32⟩
  | 103 => ⟨S3200000x1, .i32⟩
  | 104 => ⟨S3200000, .f32⟩
  | 105 => ⟨S_, .i32⟩
  | 106 => ⟨S3200000, .i32⟩
  | 107 => ⟨S3200000, .i1⟩
  | 108 => ⟨S_, .i32⟩
  | 109 => ⟨S3200000, .i32⟩
  | 110 => ⟨S3200000, .i32⟩
  | 111 => ⟨S3200000, .i32⟩
  | 112 => ⟨S3200000x1, .i32⟩
  | 113 => ⟨S3200000, .f32⟩
  | 114 => ⟨S3200000, .f32⟩
  | 115 => ⟨S3200000x1, .f32⟩
  | 116 => ⟨S200000, .f32⟩
  | 117 => ⟨S200000x1, .f32⟩
  | 118 => ⟨S1x20x32, .f32⟩
  | 119 => ⟨S20x32, .f32⟩
  | 120 => ⟨S1x32, .f32⟩
  | 121 => ⟨S32, .f32⟩
  | 122 => ⟨S1x32, .f32⟩
  | 123 => ⟨S1x32x32, .f32⟩
  | 124 => ⟨S32x32, .f32⟩
  | 125 => ⟨S1x32, .f32⟩
  | 126 => ⟨S32, .f32⟩
  | 127 => ⟨S1x32, .f32⟩
  | _ => ⟨S4x200000x20, .f32⟩

abbrev hbmTy0_2 (i : Nat) : BufTy := match i % 128 with
  | 0 => ⟨S200000x32, .f32⟩
  | 1 => ⟨S_, .i32⟩
  | 2 => ⟨S3200000, .i32⟩
  | 3 => ⟨S3200000, .i1⟩
  | 4 => ⟨S_, .i32⟩
  | 5 => ⟨S3200000, .i32⟩
  | 6 => ⟨S3200000, .i32⟩
  | 7 => ⟨S3200000, .i32⟩
  | 8 => ⟨S3200000x1, .i32⟩
  | 9 => ⟨S3200000x32, .f32⟩
  | 10 => ⟨S3200000x32, .f32⟩
  | 11 => ⟨S3200000x32, .f32⟩
  | 12 => ⟨S_, .f32⟩
  | 13 => ⟨S200000x32, .f32⟩
  | 14 => ⟨S3200000x1, .i32⟩
  | 15 => ⟨S200000x32, .f32⟩
  | 16 => ⟨S200000x32, .f32⟩
  | 17 => ⟨S200000x32, .f32⟩
  | 18 => ⟨S200000x32, .f32⟩
  | 19 => ⟨S_, .i32⟩
  | 20 => ⟨S3200000, .i32⟩
  | 21 => ⟨S3200000, .i1⟩
  | 22 => ⟨S_, .i32⟩
  | 23 => ⟨S3200000, .i32⟩
  | 24 => ⟨S3200000, .i32⟩
  | 25 => ⟨S3200000, .i32⟩
  | 26 => ⟨S3200000x1, .i32⟩
  | 27 => ⟨S3200000x32, .f32⟩
  | 28 => ⟨S3200000x32, .f32⟩
  | 29 => ⟨S3200000x32, .f32⟩
  | 30 => ⟨S_, .f32⟩
  | 31 => ⟨S200000x32, .f32⟩
  | 32 => ⟨S3200000x1, .i32⟩
  | 33 => ⟨S200000x32, .f32⟩
  | 34 => ⟨S200000x32, .f32⟩
  | 35 => ⟨S200000x32, .f32⟩
  | 36 => ⟨S1x1x3200000, .i32⟩
  | 37 => ⟨S3200000, .i32⟩
  | 38 => ⟨S1x1x3200000, .i32⟩
  | 39 => ⟨S3200000, .i32⟩
  | 40 => ⟨S_, .i32⟩
  | 41 => ⟨S3200000, .i32⟩
  | 42 => ⟨S3200000, .i1⟩
  | 43 => ⟨S_, .i32⟩
  | 44 => ⟨S3200000, .i32⟩
  | 45 => ⟨S3200000, .i32⟩
  | 46 => ⟨S3200000, .i32⟩
  | 47 => ⟨S3200000x1, .i32⟩
  | 48 => ⟨S3200000x32, .f32⟩
  | 49 => ⟨S_, .f32⟩
  | 50 => ⟨S200000x32, .f32⟩
  | 51 => ⟨S3200000x1, .i32⟩
  | 52 => ⟨S200000x32, .f32⟩
  | 53 => ⟨S1, .f32⟩
  | 54 => ⟨S_, .f32⟩
  | 55 => ⟨S_, .f32⟩
  | 56 => ⟨S_, .f32⟩
  | 57 => ⟨S1x1, .f32⟩
  | 58 => ⟨S200000x32, .f32⟩
  | 59 => ⟨S1x200000x20, .f32⟩
  | 60 => ⟨S200000x20, .f32⟩
  | 61 => ⟨S1x1x3200000, .i32⟩
  | 62 => ⟨S3200000, .i32⟩
  | 63 => ⟨S1x1x3200000, .i32⟩
  | 64 => ⟨S3200000, .i32⟩
  | 65 => ⟨S_, .f32⟩
  | 66 => ⟨S3200000, .f32⟩
  | 67 => ⟨S_, .f32⟩
  | 68 => ⟨S200000, .f32⟩
  | 69 => ⟨S3200000x1, .i32⟩
  | 70 => ⟨S200000, .f32⟩
  | 71 => ⟨S_, .f32⟩
  | 72 => ⟨S200000, .f32⟩
  | 73 => ⟨S200000, .f32⟩
  | 74 => ⟨S200000, .f32⟩
  | 75 => ⟨S_, .i32⟩
  | 76 => ⟨S3200000, .i32⟩
  | 77 => ⟨S3200000, .i1⟩
  | 78 => ⟨S_, .i32⟩
  | 79 => ⟨S3200000, .i32⟩
  | 80 => ⟨S3200000, .i32⟩
  | 81 => ⟨S3200000, .i32⟩
  | 82 => ⟨S3200000x1, .i32⟩
  | 83 => ⟨S3200000, .f32⟩
  | 84 => ⟨S_, .i32⟩
  | 85 => ⟨S3200000, .i32⟩
  | 86 => ⟨S3200000, .i1⟩
  | 87 => ⟨S_, .i32⟩
  | 88 => ⟨S3200000, .i32⟩
  | 89 => ⟨S3200000, .i32⟩
  | 90 => ⟨S3200000, .i32⟩
  | 91 => ⟨S3200000x1, .i32⟩
  | 92 => ⟨S3200000, .f32⟩
  | 93 => ⟨S3200000, .f32⟩
  | 94 => ⟨S3200000x1, .f32⟩
  | 95 => ⟨S200000, .f32⟩
  | 96 => ⟨S200000x1, .f32⟩
  | 97 => ⟨S1x20x32, .f32⟩
  | 98 => ⟨S20x32, .f32⟩
  | 99 => ⟨S1x32, .f32⟩
  | 100 => ⟨S32, .f32⟩
  | 101 => ⟨S1x32, .f32⟩
  | 102 => ⟨S1x32x32, .f32⟩
  | 103 => ⟨S32x32, .f32⟩
  | 104 => ⟨S1x32, .f32⟩
  | 105 => ⟨S32, .f32⟩
  | 106 => ⟨S1x32, .f32⟩
  | 107 => ⟨S200000x32, .f32⟩
  | 108 => ⟨S_, .i32⟩
  | 109 => ⟨S3200000, .i32⟩
  | 110 => ⟨S3200000, .i1⟩
  | 111 => ⟨S_, .i32⟩
  | 112 => ⟨S3200000, .i32⟩
  | 113 => ⟨S3200000, .i32⟩
  | 114 => ⟨S3200000, .i32⟩
  | 115 => ⟨S3200000x1, .i32⟩
  | 116 => ⟨S3200000x32, .f32⟩
  | 117 => ⟨S3200000x32, .f32⟩
  | 118 => ⟨S3200000x32, .f32⟩
  | 119 => ⟨S_, .f32⟩
  | 120 => ⟨S200000x32, .f32⟩
  | 121 => ⟨S3200000x1, .i32⟩
  | 122 => ⟨S200000x32, .f32⟩
  | 123 => ⟨S200000x32, .f32⟩
  | 124 => ⟨S200000x32, .f32⟩
  | 125 => ⟨S200000x32, .f32⟩
  | 126 => ⟨S_, .i32⟩
  | 127 => ⟨S3200000, .i32⟩
  | _ => ⟨S4x200000x20, .f32⟩

abbrev hbmTy0_3 (i : Nat) : BufTy := match i % 128 with
  | 0 => ⟨S3200000, .i1⟩
  | 1 => ⟨S_, .i32⟩
  | 2 => ⟨S3200000, .i32⟩
  | 3 => ⟨S3200000, .i32⟩
  | 4 => ⟨S3200000, .i32⟩
  | 5 => ⟨S3200000x1, .i32⟩
  | 6 => ⟨S3200000x32, .f32⟩
  | 7 => ⟨S3200000x32, .f32⟩
  | 8 => ⟨S3200000x32, .f32⟩
  | 9 => ⟨S_, .f32⟩
  | 10 => ⟨S200000x32, .f32⟩
  | 11 => ⟨S3200000x1, .i32⟩
  | 12 => ⟨S200000x32, .f32⟩
  | 13 => ⟨S200000x32, .f32⟩
  | 14 => ⟨S200000x32, .f32⟩
  | 15 => ⟨S1x1x3200000, .i32⟩
  | 16 => ⟨S3200000, .i32⟩
  | 17 => ⟨S1x1x3200000, .i32⟩
  | 18 => ⟨S3200000, .i32⟩
  | 19 => ⟨S_, .i32⟩
  | 20 => ⟨S3200000, .i32⟩
  | 21 => ⟨S3200000, .i1⟩
  | 22 => ⟨S_, .i32⟩
  | 23 => ⟨S3200000, .i32⟩
  | 24 => ⟨S3200000, .i32⟩
  | 25 => ⟨S3200000, .i32⟩
  | 26 => ⟨S3200000x1, .i32⟩
  | 27 => ⟨S3200000x32, .f32⟩
  | 28 => ⟨S_, .f32⟩
  | 29 => ⟨S200000x32, .f32⟩
  | 30 => ⟨S3200000x1, .i32⟩
  | 31 => ⟨S200000x32, .f32⟩
  | 32 => ⟨S1, .f32⟩
  | 33 => ⟨S_, .f32⟩
  | 34 => ⟨S_, .f32⟩
  | 35 => ⟨S_, .f32⟩
  | 36 => ⟨S1x1, .f32⟩
  | 37 => ⟨S200000x32, .f32⟩
  | 38 => ⟨S1x64, .f32⟩
  | 39 => ⟨S1x32, .f32⟩
  | 40 => ⟨S200000x32, .f32⟩
  | _ => ⟨S4x200000x20, .f32⟩

abbrev hbmTy (i : Nat) : BufTy := match i / 128 with
  | 0 => hbmTy0_0 i
  | 1 => hbmTy0_1 i
  | 2 => hbmTy0_2 i
  | 3 => hbmTy0_3 i
  | _ => ⟨S4x200000x20, .f32⟩

abbrev bufTy : (tb : Table) → Fin (tcTables nBuf tb) → BufTy
  | .hbm, ⟨i, _⟩ => hbmTy i
  | .local _ .vmem, ⟨0, _⟩ => ⟨S10000x20, .f32⟩
  | .local _ .vmem, ⟨1, _⟩ => ⟨S10000x20, .f32⟩
  | .local _ .vmem, ⟨2, _⟩ => ⟨S20x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S10000x32, .f32⟩
  | .local _ .vmem, ⟨8, _⟩ => ⟨S10000x32, .f32⟩
  | .local _ .vmem, ⟨9, _⟩ => ⟨S1x32, .f32⟩
  | .local _ .vmem, ⟨10, _⟩ => ⟨S32x32, .f32⟩
  | .local _ .vmem, ⟨11, _⟩ => ⟨S10000x32, .f32⟩
  | .local _ .vmem, ⟨12, _⟩ => ⟨S10000x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S1x32, .f32⟩
  | .local _ .vmem, ⟨18, _⟩ => ⟨S10000x32, .f32⟩
  | .local _ .vmem, ⟨19, _⟩ => ⟨S10000x32, .f32⟩
  | .local _ .vmem, ⟨20, _⟩ => ⟨S1x1, .f32⟩
  | .local _ .vmem, ⟨21, _⟩ => ⟨S10000x32, .f32⟩
  | .local _ .vmem, ⟨22, _⟩ => ⟨S10000x32, .f32⟩
  | .local _ .vmem, ⟨23, _⟩ => ⟨S10000x20, .f32⟩
  | .local _ .vmem, ⟨24, _⟩ => ⟨S10000x20, .f32⟩
  | .local _ .vmem, ⟨25, _⟩ => ⟨S20x32, .f32⟩
  | .local _ .vmem, ⟨26, _⟩ => ⟨S10000x32, .f32⟩
  | .local _ .vmem, ⟨27, _⟩ => ⟨S10000x32, .f32⟩
  | .local _ .vmem, ⟨28, _⟩ => ⟨S10000x32, .f32⟩
  | .local _ .vmem, ⟨29, _⟩ => ⟨S10000x32, .f32⟩
  | .local _ .vmem, ⟨30, _⟩ => ⟨S10000x32, .f32⟩
  | .local _ .vmem, ⟨31, _⟩ => ⟨S10000x32, .f32⟩
  | .local _ .vmem, ⟨32, _⟩ => ⟨S1x32, .f32⟩
  | .local _ .vmem, ⟨33, _⟩ => ⟨S32x32, .f32⟩
  | .local _ .vmem, ⟨34, _⟩ => ⟨S10000x32, .f32⟩
  | .local _ .vmem, ⟨35, _⟩ => ⟨S10000x32, .f32⟩
  | .local _ .vmem, ⟨36, _⟩ => ⟨S10000x32, .f32⟩
  | .local _ .vmem, ⟨37, _⟩ => ⟨S10000x32, .f32⟩
  | .local _ .vmem, ⟨38, _⟩ => ⟨S10000x32, .f32⟩
  | .local _ .vmem, ⟨39, _⟩ => ⟨S10000x32, .f32⟩
  | .local _ .vmem, ⟨40, _⟩ => ⟨S1x32, .f32⟩
  | .local _ .vmem, ⟨41, _⟩ => ⟨S10000x32, .f32⟩
  | .local _ .vmem, ⟨42, _⟩ => ⟨S10000x32, .f32⟩
  | .local _ .vmem, ⟨43, _⟩ => ⟨S1x1, .f32⟩
  | .local _ .vmem, ⟨44, _⟩ => ⟨S10000x32, .f32⟩
  | .local _ .vmem, ⟨45, _⟩ => ⟨S10000x32, .f32⟩
  | .local _ .vmem, ⟨46, _⟩ => ⟨S10000x20, .f32⟩
  | .local _ .vmem, ⟨47, _⟩ => ⟨S10000x20, .f32⟩
  | .local _ .vmem, ⟨48, _⟩ => ⟨S20x32, .f32⟩
  | .local _ .vmem, ⟨49, _⟩ => ⟨S10000x32, .f32⟩
  | .local _ .vmem, ⟨50, _⟩ => ⟨S10000x32, .f32⟩
  | .local _ .vmem, ⟨51, _⟩ => ⟨S10000x32, .f32⟩
  | .local _ .vmem, ⟨52, _⟩ => ⟨S10000x32, .f32⟩
  | .local _ .vmem, ⟨53, _⟩ => ⟨S10000x32, .f32⟩
  | .local _ .vmem, ⟨54, _⟩ => ⟨S10000x32, .f32⟩
  | .local _ .vmem, ⟨55, _⟩ => ⟨S1x32, .f32⟩
  | .local _ .vmem, ⟨56, _⟩ => ⟨S32x32, .f32⟩
  | .local _ .vmem, ⟨57, _⟩ => ⟨S10000x32, .f32⟩
  | .local _ .vmem, ⟨58, _⟩ => ⟨S10000x32, .f32⟩
  | .local _ .vmem, ⟨59, _⟩ => ⟨S10000x32, .f32⟩
  | .local _ .vmem, ⟨60, _⟩ => ⟨S10000x32, .f32⟩
  | .local _ .vmem, ⟨61, _⟩ => ⟨S10000x32, .f32⟩
  | .local _ .vmem, ⟨62, _⟩ => ⟨S10000x32, .f32⟩
  | .local _ .vmem, ⟨63, _⟩ => ⟨S1x32, .f32⟩
  | .local _ .vmem, ⟨64, _⟩ => ⟨S10000x32, .f32⟩
  | .local _ .vmem, ⟨65, _⟩ => ⟨S10000x32, .f32⟩
  | .local _ .vmem, ⟨66, _⟩ => ⟨S1x1, .f32⟩
  | .local _ .vmem, ⟨67, _⟩ => ⟨S10000x32, .f32⟩
  | .local _ .vmem, ⟨68, _⟩ => ⟨S10000x32, .f32⟩
  | .local _ .vmem, ⟨69, _⟩ => ⟨S10000x20, .f32⟩
  | .local _ .vmem, ⟨70, _⟩ => ⟨S10000x20, .f32⟩
  | .local _ .vmem, ⟨71, _⟩ => ⟨S20x32, .f32⟩
  | .local _ .vmem, ⟨72, _⟩ => ⟨S10000x32, .f32⟩
  | .local _ .vmem, ⟨73, _⟩ => ⟨S10000x32, .f32⟩
  | .local _ .vmem, ⟨74, _⟩ => ⟨S10000x32, .f32⟩
  | .local _ .vmem, ⟨75, _⟩ => ⟨S10000x32, .f32⟩
  | .local _ .vmem, ⟨76, _⟩ => ⟨S10000x32, .f32⟩
  | .local _ .vmem, ⟨77, _⟩ => ⟨S10000x32, .f32⟩
  | .local _ .vmem, ⟨78, _⟩ => ⟨S1x32, .f32⟩
  | .local _ .vmem, ⟨79, _⟩ => ⟨S32x32, .f32⟩
  | .local _ .vmem, ⟨80, _⟩ => ⟨S10000x32, .f32⟩
  | .local _ .vmem, ⟨81, _⟩ => ⟨S10000x32, .f32⟩
  | .local _ .vmem, ⟨82, _⟩ => ⟨S10000x32, .f32⟩
  | .local _ .vmem, ⟨83, _⟩ => ⟨S10000x32, .f32⟩
  | .local _ .vmem, ⟨84, _⟩ => ⟨S10000x32, .f32⟩
  | .local _ .vmem, ⟨85, _⟩ => ⟨S10000x32, .f32⟩
  | .local _ .vmem, ⟨86, _⟩ => ⟨S1x32, .f32⟩
  | .local _ .vmem, ⟨87, _⟩ => ⟨S10000x32, .f32⟩
  | .local _ .vmem, ⟨88, _⟩ => ⟨S10000x32, .f32⟩
  | .local _ .vmem, ⟨89, _⟩ => ⟨S1x1, .f32⟩
  | .local _ .vmem, ⟨90, _⟩ => ⟨S10000x32, .f32⟩
  | .local _ .vmem, ⟨91, _⟩ => ⟨S10000x32, .f32⟩
  | .local _ .vmem, ⟨92, _⟩ => ⟨S10000x32, .f32⟩
  | .local _ .vmem, ⟨93, _⟩ => ⟨S10000x32, .f32⟩
  | .local _ .vmem, ⟨94, _⟩ => ⟨S32x64, .f32⟩
  | .local _ .vmem, ⟨95, _⟩ => ⟨S1x64, .f32⟩
  | .local _ .vmem, ⟨96, _⟩ => ⟨S64x32, .f32⟩
  | .local _ .vmem, ⟨97, _⟩ => ⟨S1x32, .f32⟩
  | .local _ .vmem, ⟨98, _⟩ => ⟨S10000x32, .f32⟩
  | .local _ .vmem, ⟨99, _⟩ => ⟨S10000x32, .f32⟩
  | _, _ => ⟨S4x200000x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | _, _ => false

abbrev semScoped : Fin 0 → Bool
  | ⟨_, h⟩ => absurd h (Nat.not_lt_zero _)

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  ofTc nBuf bufTy 0 100 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_5 : Ref sig .tc := ⟨.hbm, 61, rfl⟩
abbrev main_v42 : Ref sig .tc := ⟨.hbm, 62, rfl⟩
abbrev main_v43 : Ref sig .tc := ⟨.hbm, 63, rfl⟩
abbrev main_c_6 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_7 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_8 : Ref sig .tc := ⟨.hbm, 79, rfl⟩
abbrev main_v57 : Ref sig .tc := ⟨.hbm, 80, rfl⟩
abbrev main_v58 : Ref sig .tc := ⟨.hbm, 81, rfl⟩
abbrev main_c_9 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_10 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_11 : Ref sig .tc := ⟨.hbm, 96, rfl⟩
abbrev main_v71 : Ref sig .tc := ⟨.hbm, 97, rfl⟩
abbrev main_cst_12 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_13 : Ref sig .tc := ⟨.hbm, 107, rfl⟩
abbrev main_v80 : Ref sig .tc := ⟨.hbm, 108, rfl⟩
abbrev main_cst_14 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_15 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_c_16 : Ref sig .tc := ⟨.hbm, 117, rfl⟩
abbrev main_v87 : Ref sig .tc := ⟨.hbm, 118, rfl⟩
abbrev main_v88 : Ref sig .tc := ⟨.hbm, 119, rfl⟩
abbrev main_c_17 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_c_18 : Ref sig .tc := ⟨.hbm, 126, rfl⟩
abbrev main_v94 : Ref sig .tc := ⟨.hbm, 127, rfl⟩
abbrev main_v95 : Ref sig .tc := ⟨.hbm, 128, rfl⟩
abbrev main_c_19 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_c_20 : Ref sig .tc := ⟨.hbm, 150, rfl⟩
abbrev main_v116 : Ref sig .tc := ⟨.hbm, 151, rfl⟩
abbrev main_v117 : Ref sig .tc := ⟨.hbm, 152, rfl⟩
abbrev main_c_21 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_cst_22 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_c_23 : Ref sig .tc := ⟨.hbm, 168, rfl⟩
abbrev main_v131 : Ref sig .tc := ⟨.hbm, 169, rfl⟩
abbrev main_v132 : Ref sig .tc := ⟨.hbm, 170, rfl⟩
abbrev main_c_24 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_cst_25 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_c_26 : Ref sig .tc := ⟨.hbm, 189, rfl⟩
abbrev main_v149 : Ref sig .tc := ⟨.hbm, 190, rfl⟩
abbrev main_v150 : Ref sig .tc := ⟨.hbm, 191, rfl⟩
abbrev main_c_27 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_cst_28 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_cst_29 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_cst_30 : Ref sig .tc := ⟨.hbm, 214, rfl⟩
abbrev main_v170 : Ref sig .tc := ⟨.hbm, 215, rfl⟩
abbrev main_cst_31 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_cst_32 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_c_33 : Ref sig .tc := ⟨.hbm, 224, rfl⟩
abbrev main_v177 : Ref sig .tc := ⟨.hbm, 225, rfl⟩
abbrev main_v178 : Ref sig .tc := ⟨.hbm, 226, rfl⟩
abbrev main_c_34 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_c_35 : Ref sig .tc := ⟨.hbm, 233, rfl⟩
abbrev main_v184 : Ref sig .tc := ⟨.hbm, 234, rfl⟩
abbrev main_v185 : Ref sig .tc := ⟨.hbm, 235, rfl⟩
abbrev main_c_36 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_c_37 : Ref sig .tc := ⟨.hbm, 257, rfl⟩
abbrev main_v206 : Ref sig .tc := ⟨.hbm, 258, rfl⟩
abbrev main_v207 : Ref sig .tc := ⟨.hbm, 259, rfl⟩
abbrev main_c_38 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_cst_39 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_c_40 : Ref sig .tc := ⟨.hbm, 275, rfl⟩
abbrev main_v221 : Ref sig .tc := ⟨.hbm, 276, rfl⟩
abbrev main_v222 : Ref sig .tc := ⟨.hbm, 277, rfl⟩
abbrev main_c_41 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_cst_42 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_c_43 : Ref sig .tc := ⟨.hbm, 296, rfl⟩
abbrev main_v239 : Ref sig .tc := ⟨.hbm, 297, rfl⟩
abbrev main_v240 : Ref sig .tc := ⟨.hbm, 298, rfl⟩
abbrev main_c_44 : Ref sig .tc := ⟨.hbm, 299, rfl⟩
abbrev main_v241 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩
abbrev main_v245 : Ref sig .tc := ⟨.hbm, 304, rfl⟩
abbrev main_cst_45 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_v250 : Ref sig .tc := ⟨.hbm, 310, rfl⟩
abbrev main_cst_46 : Ref sig .tc := ⟨.hbm, 311, rfl⟩
abbrev main_v251 : Ref sig .tc := ⟨.hbm, 312, rfl⟩
abbrev main_v252 : Ref sig .tc := ⟨.hbm, 313, rfl⟩
abbrev main_v253 : Ref sig .tc := ⟨.hbm, 314, rfl⟩
abbrev main_v254 : Ref sig .tc := ⟨.hbm, 315, rfl⟩
abbrev main_v255 : Ref sig .tc := ⟨.hbm, 316, rfl⟩
abbrev main_v256 : Ref sig .tc := ⟨.hbm, 317, rfl⟩
abbrev main_v257 : Ref sig .tc := ⟨.hbm, 318, rfl⟩
abbrev main_v258 : Ref sig .tc := ⟨.hbm, 319, rfl⟩
abbrev main_v259 : Ref sig .tc := ⟨.hbm, 320, rfl⟩
abbrev main_cst_47 : Ref sig .tc := ⟨.hbm, 321, rfl⟩
abbrev main_v260 : Ref sig .tc := ⟨.hbm, 322, rfl⟩
abbrev main_cst_48 : Ref sig .tc := ⟨.hbm, 323, rfl⟩
abbrev main_v261 : Ref sig .tc := ⟨.hbm, 324, rfl⟩
abbrev main_v262 : Ref sig .tc := ⟨.hbm, 325, rfl⟩
abbrev main_v263 : Ref sig .tc := ⟨.hbm, 326, rfl⟩
abbrev main_cst_49 : Ref sig .tc := ⟨.hbm, 327, rfl⟩
abbrev main_v264 : Ref sig .tc := ⟨.hbm, 328, rfl⟩
abbrev main_v265 : Ref sig .tc := ⟨.hbm, 329, rfl⟩
abbrev main_v266 : Ref sig .tc := ⟨.hbm, 330, rfl⟩
abbrev main_c_50 : Ref sig .tc := ⟨.hbm, 331, rfl⟩
abbrev main_v267 : Ref sig .tc := ⟨.hbm, 332, rfl⟩
abbrev main_v268 : Ref sig .tc := ⟨.hbm, 333, rfl⟩
abbrev main_c_51 : Ref sig .tc := ⟨.hbm, 334, rfl⟩
abbrev main_v269 : Ref sig .tc := ⟨.hbm, 335, rfl⟩
abbrev main_v270 : Ref sig .tc := ⟨.hbm, 336, rfl⟩
abbrev main_v271 : Ref sig .tc := ⟨.hbm, 337, rfl⟩
abbrev main_v272 : Ref sig .tc := ⟨.hbm, 338, rfl⟩
abbrev main_v273 : Ref sig .tc := ⟨.hbm, 339, rfl⟩
abbrev main_c_52 : Ref sig .tc := ⟨.hbm, 340, rfl⟩
abbrev main_v274 : Ref sig .tc := ⟨.hbm, 341, rfl⟩
abbrev main_v275 : Ref sig .tc := ⟨.hbm, 342, rfl⟩
abbrev main_c_53 : Ref sig .tc := ⟨.hbm, 343, rfl⟩
abbrev main_v276 : Ref sig .tc := ⟨.hbm, 344, rfl⟩
abbrev main_v277 : Ref sig .tc := ⟨.hbm, 345, rfl⟩
abbrev main_v278 : Ref sig .tc := ⟨.hbm, 346, rfl⟩
abbrev main_v279 : Ref sig .tc := ⟨.hbm, 347, rfl⟩
abbrev main_v280 : Ref sig .tc := ⟨.hbm, 348, rfl⟩
abbrev main_v281 : Ref sig .tc := ⟨.hbm, 349, rfl⟩
abbrev main_v282 : Ref sig .tc := ⟨.hbm, 350, rfl⟩
abbrev main_v283 : Ref sig .tc := ⟨.hbm, 351, rfl⟩
abbrev main_v284 : Ref sig .tc := ⟨.hbm, 352, rfl⟩
abbrev main_v285 : Ref sig .tc := ⟨.hbm, 353, rfl⟩
abbrev main_v286 : Ref sig .tc := ⟨.hbm, 354, rfl⟩
abbrev main_v287 : Ref sig .tc := ⟨.hbm, 355, rfl⟩
abbrev main_v288 : Ref sig .tc := ⟨.hbm, 356, rfl⟩
abbrev main_v289 : Ref sig .tc := ⟨.hbm, 357, rfl⟩
abbrev main_v290 : Ref sig .tc := ⟨.hbm, 358, rfl⟩
abbrev main_v291 : Ref sig .tc := ⟨.hbm, 359, rfl⟩
abbrev main_v292 : Ref sig .tc := ⟨.hbm, 360, rfl⟩
abbrev main_v293 : Ref sig .tc := ⟨.hbm, 361, rfl⟩
abbrev main_v294 : Ref sig .tc := ⟨.hbm, 362, rfl⟩
abbrev main_v295 : Ref sig .tc := ⟨.hbm, 363, rfl⟩
abbrev main_c_54 : Ref sig .tc := ⟨.hbm, 364, rfl⟩
abbrev main_v296 : Ref sig .tc := ⟨.hbm, 365, rfl⟩
abbrev main_v297 : Ref sig .tc := ⟨.hbm, 366, rfl⟩
abbrev main_c_55 : Ref sig .tc := ⟨.hbm, 367, rfl⟩
abbrev main_v298 : Ref sig .tc := ⟨.hbm, 368, rfl⟩
abbrev main_v299 : Ref sig .tc := ⟨.hbm, 369, rfl⟩
abbrev main_v300 : Ref sig .tc := ⟨.hbm, 370, rfl⟩
abbrev main_v301 : Ref sig .tc := ⟨.hbm, 371, rfl⟩
abbrev main_v302 : Ref sig .tc := ⟨.hbm, 372, rfl⟩
abbrev main_v303 : Ref sig .tc := ⟨.hbm, 373, rfl⟩
abbrev main_v304 : Ref sig .tc := ⟨.hbm, 374, rfl⟩
abbrev main_cst_56 : Ref sig .tc := ⟨.hbm, 375, rfl⟩
abbrev main_v305 : Ref sig .tc := ⟨.hbm, 376, rfl⟩
abbrev main_v306 : Ref sig .tc := ⟨.hbm, 377, rfl⟩
abbrev main_v307 : Ref sig .tc := ⟨.hbm, 378, rfl⟩
abbrev main_v308 : Ref sig .tc := ⟨.hbm, 379, rfl⟩
abbrev main_v309 : Ref sig .tc := ⟨.hbm, 380, rfl⟩
abbrev main_v310 : Ref sig .tc := ⟨.hbm, 381, rfl⟩
abbrev main_c_57 : Ref sig .tc := ⟨.hbm, 382, rfl⟩
abbrev main_v311 : Ref sig .tc := ⟨.hbm, 383, rfl⟩
abbrev main_v312 : Ref sig .tc := ⟨.hbm, 384, rfl⟩
abbrev main_c_58 : Ref sig .tc := ⟨.hbm, 385, rfl⟩
abbrev main_v313 : Ref sig .tc := ⟨.hbm, 386, rfl⟩
abbrev main_v314 : Ref sig .tc := ⟨.hbm, 387, rfl⟩
abbrev main_v315 : Ref sig .tc := ⟨.hbm, 388, rfl⟩
abbrev main_v316 : Ref sig .tc := ⟨.hbm, 389, rfl⟩
abbrev main_v317 : Ref sig .tc := ⟨.hbm, 390, rfl⟩
abbrev main_v318 : Ref sig .tc := ⟨.hbm, 391, rfl⟩
abbrev main_v319 : Ref sig .tc := ⟨.hbm, 392, rfl⟩
abbrev main_cst_59 : Ref sig .tc := ⟨.hbm, 393, rfl⟩
abbrev main_v320 : Ref sig .tc := ⟨.hbm, 394, rfl⟩
abbrev main_v321 : Ref sig .tc := ⟨.hbm, 395, rfl⟩
abbrev main_v322 : Ref sig .tc := ⟨.hbm, 396, rfl⟩
abbrev main_v323 : Ref sig .tc := ⟨.hbm, 397, rfl⟩
abbrev main_v324 : Ref sig .tc := ⟨.hbm, 398, rfl⟩
abbrev main_v325 : Ref sig .tc := ⟨.hbm, 399, rfl⟩
abbrev main_v326 : Ref sig .tc := ⟨.hbm, 400, rfl⟩
abbrev main_v327 : Ref sig .tc := ⟨.hbm, 401, rfl⟩
abbrev main_v328 : Ref sig .tc := ⟨.hbm, 402, rfl⟩
abbrev main_c_60 : Ref sig .tc := ⟨.hbm, 403, rfl⟩
abbrev main_v329 : Ref sig .tc := ⟨.hbm, 404, rfl⟩
abbrev main_v330 : Ref sig .tc := ⟨.hbm, 405, rfl⟩
abbrev main_c_61 : Ref sig .tc := ⟨.hbm, 406, rfl⟩
abbrev main_v331 : Ref sig .tc := ⟨.hbm, 407, rfl⟩
abbrev main_v332 : Ref sig .tc := ⟨.hbm, 408, rfl⟩
abbrev main_v333 : Ref sig .tc := ⟨.hbm, 409, rfl⟩
abbrev main_v334 : Ref sig .tc := ⟨.hbm, 410, rfl⟩
abbrev main_v335 : Ref sig .tc := ⟨.hbm, 411, rfl⟩
abbrev main_cst_62 : Ref sig .tc := ⟨.hbm, 412, rfl⟩
abbrev main_v336 : Ref sig .tc := ⟨.hbm, 413, rfl⟩
abbrev main_v337 : Ref sig .tc := ⟨.hbm, 414, rfl⟩
abbrev main_v338 : Ref sig .tc := ⟨.hbm, 415, rfl⟩
abbrev main_v339 : Ref sig .tc := ⟨.hbm, 416, rfl⟩
abbrev main_v340 : Ref sig .tc := ⟨.hbm, 417, rfl⟩
abbrev main_cst_63 : Ref sig .tc := ⟨.hbm, 418, rfl⟩
abbrev main_v341 : Ref sig .tc := ⟨.hbm, 419, rfl⟩
abbrev main_v342 : Ref sig .tc := ⟨.hbm, 420, rfl⟩
abbrev main_v343 : Ref sig .tc := ⟨.hbm, 421, rfl⟩
abbrev main_v344 : Ref sig .tc := ⟨.hbm, 422, rfl⟩
abbrev main_v345 : Ref sig .tc := ⟨.hbm, 423, rfl⟩
abbrev main_v346 : Ref sig .tc := ⟨.hbm, 424, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg3_1 : Ref sig .tc := ⟨.vmem, 42, rfl⟩
abbrev cc5_stg4_0 : Ref sig .tc := ⟨.vmem, 43, rfl⟩
abbrev cc5_stg5_0 : Ref sig .tc := ⟨.vmem, 44, rfl⟩
abbrev cc5_stg5_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg2_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg1_1 : Ref sig .tc := ⟨.vmem, 54, rfl⟩
abbrev cc7_stg2_0 : Ref sig .tc := ⟨.vmem, 55, rfl⟩
abbrev cc7_stg3_0 : Ref sig .tc := ⟨.vmem, 56, rfl⟩
abbrev cc7_stg4_0 : Ref sig .tc := ⟨.vmem, 57, rfl⟩
abbrev cc7_stg4_1 : Ref sig .tc := ⟨.vmem, 58, rfl⟩
abbrev cc8_stg0_0 : Ref sig .tc := ⟨.vmem, 59, rfl⟩
abbrev cc8_stg0_1 : Ref sig .tc := ⟨.vmem, 60, rfl⟩
abbrev cc8_stg1_0 : Ref sig .tc := ⟨.vmem, 61, rfl⟩
abbrev cc8_stg1_1 : Ref sig .tc := ⟨.vmem, 62, rfl⟩
abbrev cc8_stg2_0 : Ref sig .tc := ⟨.vmem, 63, rfl⟩
abbrev cc8_stg3_0 : Ref sig .tc := ⟨.vmem, 64, rfl⟩
abbrev cc8_stg3_1 : Ref sig .tc := ⟨.vmem, 65, rfl⟩
abbrev cc8_stg4_0 : Ref sig .tc := ⟨.vmem, 66, rfl⟩
abbrev cc8_stg5_0 : Ref sig .tc := ⟨.vmem, 67, rfl⟩
abbrev cc8_stg5_1 : Ref sig .tc := ⟨.vmem, 68, rfl⟩
abbrev cc9_stg0_0 : Ref sig .tc := ⟨.vmem, 69, rfl⟩
abbrev cc9_stg0_1 : Ref sig .tc := ⟨.vmem, 70, rfl⟩
abbrev cc9_stg1_0 : Ref sig .tc := ⟨.vmem, 71, rfl⟩
abbrev cc9_stg2_0 : Ref sig .tc := ⟨.vmem, 72, rfl⟩
abbrev cc9_stg2_1 : Ref sig .tc := ⟨.vmem, 73, rfl⟩
abbrev cc10_stg0_0 : Ref sig .tc := ⟨.vmem, 74, rfl⟩
abbrev cc10_stg0_1 : Ref sig .tc := ⟨.vmem, 75, rfl⟩
abbrev cc10_stg1_0 : Ref sig .tc := ⟨.vmem, 76, rfl⟩
abbrev cc10_stg1_1 : Ref sig .tc := ⟨.vmem, 77, rfl⟩
abbrev cc10_stg2_0 : Ref sig .tc := ⟨.vmem, 78, rfl⟩
abbrev cc10_stg3_0 : Ref sig .tc := ⟨.vmem, 79, rfl⟩
abbrev cc10_stg4_0 : Ref sig .tc := ⟨.vmem, 80, rfl⟩
abbrev cc10_stg4_1 : Ref sig .tc := ⟨.vmem, 81, rfl⟩
abbrev cc11_stg0_0 : Ref sig .tc := ⟨.vmem, 82, rfl⟩
abbrev cc11_stg0_1 : Ref sig .tc := ⟨.vmem, 83, rfl⟩
abbrev cc11_stg1_0 : Ref sig .tc := ⟨.vmem, 84, rfl⟩
abbrev cc11_stg1_1 : Ref sig .tc := ⟨.vmem, 85, rfl⟩
abbrev cc11_stg2_0 : Ref sig .tc := ⟨.vmem, 86, rfl⟩
abbrev cc11_stg3_0 : Ref sig .tc := ⟨.vmem, 87, rfl⟩
abbrev cc11_stg3_1 : Ref sig .tc := ⟨.vmem, 88, rfl⟩
abbrev cc11_stg4_0 : Ref sig .tc := ⟨.vmem, 89, rfl⟩
abbrev cc11_stg5_0 : Ref sig .tc := ⟨.vmem, 90, rfl⟩
abbrev cc11_stg5_1 : Ref sig .tc := ⟨.vmem, 91, rfl⟩
abbrev cc12_stg0_0 : Ref sig .tc := ⟨.vmem, 92, rfl⟩
abbrev cc12_stg0_1 : Ref sig .tc := ⟨.vmem, 93, rfl⟩
abbrev cc12_stg1_0 : Ref sig .tc := ⟨.vmem, 94, rfl⟩
abbrev cc12_stg2_0 : Ref sig .tc := ⟨.vmem, 95, rfl⟩
abbrev cc12_stg3_0 : Ref sig .tc := ⟨.vmem, 96, rfl⟩
abbrev cc12_stg4_0 : Ref sig .tc := ⟨.vmem, 97, rfl⟩
abbrev cc12_stg5_0 : Ref sig .tc := ⟨.vmem, 98, rfl⟩
abbrev cc12_stg5_1 : Ref sig .tc := ⟨.vmem, 99, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem4_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem3_0 : DmaSem sig := 41
abbrev cc5_sem3_1 : DmaSem sig := 42
abbrev cc5_sem4_0 : DmaSem sig := 43
abbrev cc5_sem5_0 : DmaSem sig := 44
abbrev cc5_sem5_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem2_1 : DmaSem sig := 50
abbrev cc7_sem0_0 : DmaSem sig := 51
abbrev cc7_sem0_1 : DmaSem sig := 52
abbrev cc7_sem1_0 : DmaSem sig := 53
abbrev cc7_sem1_1 : DmaSem sig := 54
abbrev cc7_sem2_0 : DmaSem sig := 55
abbrev cc7_sem3_0 : DmaSem sig := 56
abbrev cc7_sem4_0 : DmaSem sig := 57
abbrev cc7_sem4_1 : DmaSem sig := 58
abbrev cc8_sem0_0 : DmaSem sig := 59
abbrev cc8_sem0_1 : DmaSem sig := 60
abbrev cc8_sem1_0 : DmaSem sig := 61
abbrev cc8_sem1_1 : DmaSem sig := 62
abbrev cc8_sem2_0 : DmaSem sig := 63
abbrev cc8_sem3_0 : DmaSem sig := 64
abbrev cc8_sem3_1 : DmaSem sig := 65
abbrev cc8_sem4_0 : DmaSem sig := 66
abbrev cc8_sem5_0 : DmaSem sig := 67
abbrev cc8_sem5_1 : DmaSem sig := 68
abbrev cc9_sem0_0 : DmaSem sig := 69
abbrev cc9_sem0_1 : DmaSem sig := 70
abbrev cc9_sem1_0 : DmaSem sig := 71
abbrev cc9_sem2_0 : DmaSem sig := 72
abbrev cc9_sem2_1 : DmaSem sig := 73
abbrev cc10_sem0_0 : DmaSem sig := 74
abbrev cc10_sem0_1 : DmaSem sig := 75
abbrev cc10_sem1_0 : DmaSem sig := 76
abbrev cc10_sem1_1 : DmaSem sig := 77
abbrev cc10_sem2_0 : DmaSem sig := 78
abbrev cc10_sem3_0 : DmaSem sig := 79
abbrev cc10_sem4_0 : DmaSem sig := 80
abbrev cc10_sem4_1 : DmaSem sig := 81
abbrev cc11_sem0_0 : DmaSem sig := 82
abbrev cc11_sem0_1 : DmaSem sig := 83
abbrev cc11_sem1_0 : DmaSem sig := 84
abbrev cc11_sem1_1 : DmaSem sig := 85
abbrev cc11_sem2_0 : DmaSem sig := 86
abbrev cc11_sem3_0 : DmaSem sig := 87
abbrev cc11_sem3_1 : DmaSem sig := 88
abbrev cc11_sem4_0 : DmaSem sig := 89
abbrev cc11_sem5_0 : DmaSem sig := 90
abbrev cc11_sem5_1 : DmaSem sig := 91
abbrev cc12_sem0_0 : DmaSem sig := 92
abbrev cc12_sem0_1 : DmaSem sig := 93
abbrev cc12_sem1_0 : DmaSem sig := 94
abbrev cc12_sem2_0 : DmaSem sig := 95
abbrev cc12_sem3_0 : DmaSem sig := 96
abbrev cc12_sem4_0 : DmaSem sig := 97
abbrev cc12_sem5_0 : DmaSem sig := 98
abbrev cc12_sem5_1 : DmaSem sig := 99

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x20 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S20x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x32 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S1x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x32 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x20 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S20x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x32 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S32x32 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S10000x32 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x32 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x32 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S10000x32 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 1 → Memref sig .tc .vmem S1x1 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S10000x32 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x20 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S20x32 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S10000x32 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x32 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S10000x32 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S1x32 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S32x32 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S10000x32 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x32 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S10000x32 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S1x32 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S10000x32 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 1 → Memref sig .tc .vmem S1x1 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S10000x32 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x32 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S32x64 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S64x32 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x32 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S10000x32 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

class Facts₀ : Prop where
  slices_S4x200000x20_S1x200000x20_0_0_0 : S4x200000x20.Slices ![0, 0, 0] S1x200000x20
  shapeCasts_S1x200000x20_S200000x20 : S1x200000x20.ShapeCasts S200000x20
  slices_S4x2x3200000_S1x1x3200000_0_0_0 : S4x2x3200000.Slices ![0, 0, 0] S1x1x3200000
  shapeCasts_S1x1x3200000_S3200000 : S1x1x3200000.ShapeCasts S3200000
  slices_S4x2x3200000_S1x1x3200000_0_1_0 : S4x2x3200000.Slices ![0, 1, 0] S1x1x3200000
  bcast_S_S3200000 : S_.BroadcastsInDim S3200000 (![] : Fin 0 → Fin S3200000.rank)
  bcast_S_S200000 : S_.BroadcastsInDim S200000 (![] : Fin 0 → Fin S200000.rank)
  bcast_S3200000_S3200000x1_0 : S3200000.BroadcastsInDim S3200000x1 (![0] : Fin 1 → Fin S3200000x1.rank)
  bcast_S200000_S200000x1_0 : S200000.BroadcastsInDim S200000x1 (![0] : Fin 1 → Fin S200000x1.rank)
  slices_S4x20x32_S1x20x32_0_0_0 : S4x20x32.Slices ![0, 0, 0] S1x20x32
  shapeCasts_S1x20x32_S20x32 : S1x20x32.ShapeCasts S20x32
  slices_S4x32_S1x32_0_0 : S4x32.Slices ![0, 0] S1x32
  shapeCasts_S1x32_S32 : S1x32.ShapeCasts S32
  shapeCasts_S32_S1x32 : S32.ShapeCasts S1x32
  slices_S4x32x32_S1x32x32_0_0_0 : S4x32x32.Slices ![0, 0, 0] S1x32x32
  shapeCasts_S1x32x32_S32x32 : S1x32x32.ShapeCasts S32x32
  inb_S10000x20_S10000x20_0_0 : ∀ a, (![0, 0] : Fin 2 → Nat) a + S10000x20.size a ≤ S10000x20.size a
  h_S10000x20 : 0 < S10000x20.numel
  shapeCasts_S10000x20_S10000x20 : S10000x20.ShapeCasts S10000x20
  bitsLt_bf16_f32 : FTy.bits .bf16 < FTy.bits .f32
  inb_S20x32_S20x32_0_0 : ∀ a, (![0, 0] : Fin 2 → Nat) a + S20x32.size a ≤ S20x32.size a
  h_S20x32 : 0 < S20x32.numel
  shapeCasts_S20x32_S20x32 : S20x32.ShapeCasts S20x32
  inb_S10000x32_S10000x32_0_0 : ∀ a, (![0, 0] : Fin 2 → Nat) a + S10000x32.size a ≤ S10000x32.size a
  h_S10000x32 : 0 < S10000x32.numel
  bcast_S3200000x1_S3200000x32_0_1 : S3200000x1.BroadcastsInDim S3200000x32 (![0, 1] : Fin 2 → Fin S3200000x32.rank)
  bcast_S_S200000x32 : S_.BroadcastsInDim S200000x32 (![] : Fin 0 → Fin S200000x32.rank)
  bcast_S200000x1_S200000x32_0_1 : S200000x1.BroadcastsInDim S200000x32 (![0, 1] : Fin 2 → Fin S200000x32.rank)
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  bcast_S_S1x1 : S_.BroadcastsInDim S1x1 (![] : Fin 0 → Fin S1x1.rank)
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  slices_S4x200000x20_S1x200000x20_1_0_0 : S4x200000x20.Slices ![1, 0, 0] S1x200000x20
  slices_S4x2x3200000_S1x1x3200000_1_0_0 : S4x2x3200000.Slices ![1, 0, 0] S1x1x3200000
  slices_S4x2x3200000_S1x1x3200000_1_1_0 : S4x2x3200000.Slices ![1, 1, 0] S1x1x3200000
  slices_S4x20x32_S1x20x32_1_0_0 : S4x20x32.Slices ![1, 0, 0] S1x20x32
  slices_S4x32_S1x32_1_0 : S4x32.Slices ![1, 0] S1x32
  slices_S4x32x32_S1x32x32_1_0_0 : S4x32x32.Slices ![1, 0, 0] S1x32x32
  slices_S4_S1_1 : S4.Slices ![1] S1
  shapeCasts_S1_S_ : S1.ShapeCasts S_
  shapeCasts_S_S1x1 : S_.ShapeCasts S1x1
  slices_S4x200000x20_S1x200000x20_2_0_0 : S4x200000x20.Slices ![2, 0, 0] S1x200000x20
  slices_S4x2x3200000_S1x1x3200000_2_0_0 : S4x2x3200000.Slices ![2, 0, 0] S1x1x3200000
  slices_S4x2x3200000_S1x1x3200000_2_1_0 : S4x2x3200000.Slices ![2, 1, 0] S1x1x3200000
  slices_S4x20x32_S1x20x32_2_0_0 : S4x20x32.Slices ![2, 0, 0] S1x20x32
  slices_S4x32_S1x32_2_0 : S4x32.Slices ![2, 0] S1x32
  slices_S4x32x32_S1x32x32_2_0_0 : S4x32x32.Slices ![2, 0, 0] S1x32x32
  slices_S4_S1_2 : S4.Slices ![2] S1
  slices_S4x200000x20_S1x200000x20_3_0_0 : S4x200000x20.Slices ![3, 0, 0] S1x200000x20
  slices_S4x2x3200000_S1x1x3200000_3_0_0 : S4x2x3200000.Slices ![3, 0, 0] S1x1x3200000
  slices_S4x2x3200000_S1x1x3200000_3_1_0 : S4x2x3200000.Slices ![3, 1, 0] S1x1x3200000
  slices_S4x20x32_S1x20x32_3_0_0 : S4x20x32.Slices ![3, 0, 0] S1x20x32
  slices_S4x32_S1x32_3_0 : S4x32.Slices ![3, 0] S1x32
  slices_S4x32x32_S1x32x32_3_0_0 : S4x32x32.Slices ![3, 0, 0] S1x32x32
  slices_S4_S1_3 : S4.Slices ![3] S1
  shapeCasts_S64_S1x64 : S64.ShapeCasts S1x64
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  scatter_S200000_S3200000x1_S3200000_n_0_0_1_wf : ScatterDims.WF S200000 S3200000x1 S3200000 [] [0] [0] 1
  gather_S200000_S3200000x1_S3200000_n_0_n_n_0_1_1_wf : GatherDims.WF S200000 S3200000x1 S3200000 [] [0] [] [0] [] 1 ![1]
  dot_S10000x20_S20x32_S10000x32_1_0_0_1_n_n_wf : DotDims.WF S10000x20 S20x32 S10000x32 [1] [0] [0] [1] [] []
  gather_S200000x32_S3200000x1_S3200000x32_1_0_n_n_0_1_132_wf : GatherDims.WF S200000x32 S3200000x1 S3200000x32 [1] [0] [] [0] [] 1 ![1, 32]
  scatter_S200000x32_S3200000x1_S3200000x32_1_0_0_1_wf : ScatterDims.WF S200000x32 S3200000x1 S3200000x32 [1] [0] [0] 1
  dot_S10000x32_S32x32_S10000x32_1_0_0_1_n_n_wf : DotDims.WF S10000x32 S32x32 S10000x32 [1] [0] [0] [1] [] []
  dot_S10000x32_S32x64_S10000x64_1_0_0_1_n_n_wf : DotDims.WF S10000x32 S32x64 S10000x64 [1] [0] [0] [1] [] []
  dot_S10000x64_S64x32_S10000x32_1_0_0_1_n_n_wf : DotDims.WF S10000x64 S64x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x20.size a ≤ S200000x20.size a
  hwx0_0 : ∀ i : grid0.Coords, EltTy.bits .f32 = 32 ∨ (Rect.block (s := S200000x20) S10000x20.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x32.size a ≤ S20x32.size a
  hwx0_1 : ∀ i : grid0.Coords, EltTy.bits .f32 = 32 ∨ (Rect.block (s := S20x32) S20x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S200000x32.size a
  hwx0_2 : ∀ i : grid0.Coords, EltTy.bits .f32 = 32 ∨ (Rect.block (s := S200000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S200000x32.size a
  hwx1_0 : ∀ i : grid1.Coords, EltTy.bits .f32 = 32 ∨ (Rect.block (s := S200000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S200000x32.size a
  hwx1_1 : ∀ i : grid1.Coords, EltTy.bits .f32 = 32 ∨ (Rect.block (s := S200000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x32.size a ≤ S200000x32.size a
  hwx1_4 : ∀ i : grid1.Coords, EltTy.bits .f32 = 32 ∨ (Rect.block (s := S200000x32) S10000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S200000x32.size a
  hwx2_0 : ∀ i : grid2.Coords, EltTy.bits .f32 = 32 ∨ (Rect.block (s := S200000x32) S10000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S200000x32.size a
  hwx2_1 : ∀ i : grid2.Coords, EltTy.bits .f32 = 32 ∨ (Rect.block (s := S200000x32) S10000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x32.size a ≤ S200000x32.size a
  hwx2_3 : ∀ i : grid2.Coords, EltTy.bits .f32 = 32 ∨ (Rect.block (s := S200000x32) S10000x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x32.size a ≤ S200000x32.size a
  hwx2_5 : ∀ i : grid2.Coords, EltTy.bits .f32 = 32 ∨ (Rect.block (s := S200000x32) S10000x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x20.size a ≤ S200000x20.size a
  hwx3_0 : ∀ i : grid3.Coords, EltTy.bits .f32 = 32 ∨ (Rect.block (s := S200000x20) S10000x20.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S20x32.size a ≤ S20x32.size a
  hwx3_1 : ∀ i : grid3.Coords, EltTy.bits .f32 = 32 ∨ (Rect.block (s := S20x32) S20x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S200000x32.size a
  hwx3_2 : ∀ i : grid3.Coords, EltTy.bits .f32 = 32 ∨ (Rect.block (s := S200000x32) S10000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S200000x32.size a
  hwx4_0 : ∀ i : grid4.Coords, EltTy.bits .f32 = 32 ∨ (Rect.block (s := S200000x32) S10000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x32.size a ≤ S200000x32.size a
  hwx4_1 : ∀ i : grid4.Coords, EltTy.bits .f32 = 32 ∨ (Rect.block (s := S200000x32) S10000x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x32.size a ≤ S32x32.size a
  hwx4_3 : ∀ i : grid4.Coords, EltTy.bits .f32 = 32 ∨ (Rect.block (s := S32x32) S32x32.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x32.size a ≤ S200000x32.size a
  hwx4_4 : ∀ i : grid4.Coords, EltTy.bits .f32 = 32 ∨ (Rect.block (s := S200000x32) S10000x32.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S200000x32.size a
  hwx5_0 : ∀ i : grid5.Coords, EltTy.bits .f32 = 32 ∨ (Rect.block (s := S200000x32) S10000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x32.size a ≤ S200000x32.size a
  hwx5_1 : ∀ i : grid5.Coords, EltTy.bits .f32 = 32 ∨ (Rect.block (s := S200000x32) S10000x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x32.size a ≤ S200000x32.size a
  hwx5_3 : ∀ i : grid5.Coords, EltTy.bits .f32 = 32 ∨ (Rect.block (s := S200000x32) S10000x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1.size a ≤ S1x1.size a
  hwx5_4 : ∀ i : grid5.Coords, EltTy.bits .f32 = 32 ∨ (Rect.block (s := S1x1) S1x1.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x32.size a ≤ S200000x32.size a
  hwx5_5 : ∀ i : grid5.Coords, EltTy.bits .f32 = 32 ∨ (Rect.block (s := S200000x32) S10000x32.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x20.size a ≤ S200000x20.size a
  hwx6_0 : ∀ i : grid6.Coords, EltTy.bits .f32 = 32 ∨ (Rect.block (s := S200000x20) S10000x20.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S20x32.size a ≤ S20x32.size a
  hwx6_1 : ∀ i : grid6.Coords, EltTy.bits .f32 = 32 ∨ (Rect.block (s := S20x32) S20x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x32.size a ≤ S200000x32.size a
  hwx6_2 : ∀ i : grid6.Coords, EltTy.bits .f32 = 32 ∨ (Rect.block (s := S200000x32) S10000x32.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x32.size a ≤ S200000x32.size a
  hwx7_0 : ∀ i : grid7.Coords, EltTy.bits .f32 = 32 ∨ (Rect.block (s := S200000x32) S10000x32.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x32.size a ≤ S200000x32.size a
  hwx7_1 : ∀ i : grid7.Coords, EltTy.bits .f32 = 32 ∨ (Rect.block (s := S200000x32) S10000x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S32x32.size a ≤ S32x32.size a
  hwx7_3 : ∀ i : grid7.Coords, EltTy.bits .f32 = 32 ∨ (Rect.block (s := S32x32) S32x32.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S10000x32.size a ≤ S200000x32.size a
  hwx7_4 : ∀ i : grid7.Coords, EltTy.bits .f32 = 32 ∨ (Rect.block (s := S200000x32) S10000x32.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x32.size a ≤ S200000x32.size a
  hwx8_0 : ∀ i : grid8.Coords, EltTy.bits .f32 = 32 ∨ (Rect.block (s := S200000x32) S10000x32.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x32.size a ≤ S200000x32.size a
  hwx8_1 : ∀ i : grid8.Coords, EltTy.bits .f32 = 32 ∨ (Rect.block (s := S200000x32) S10000x32.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x32.size a ≤ S1x32.size a
  hwx8_2 : ∀ i : grid8.Coords, EltTy.bits .f32 = 32 ∨ (Rect.block (s := S1x32) S1x32.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S10000x32.size a ≤ S200000x32.size a
  hwx8_3 : ∀ i : grid8.Coords, EltTy.bits .f32 = 32 ∨ (Rect.block (s := S200000x32) S10000x32.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x1.size a ≤ S1x1.size a
  hwx8_4 : ∀ i : grid8.Coords, EltTy.bits .f32 = 32 ∨ (Rect.block (s := S1x1) S1x1.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x32.size a ≤ S200000x32.size a
  hwx8_5 : ∀ i : grid8.Coords, EltTy.bits .f32 = 32 ∨ (Rect.block (s := S200000x32) S10000x32.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x20.size a ≤ S200000x20.size a
  hwx9_0 : ∀ i : grid9.Coords, EltTy.bits .f32 = 32 ∨ (Rect.block (s := S200000x20) S10000x20.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S20x32.size a ≤ S20x32.size a
  hwx9_1 : ∀ i : grid9.Coords, EltTy.bits .f32 = 32 ∨ (Rect.block (s := S20x32) S20x32.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S10000x32.size a ≤ S200000x32.size a
  hwx9_2 : ∀ i : grid9.Coords, EltTy.bits .f32 = 32 ∨ (Rect.block (s := S200000x32) S10000x32.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x32.size a ≤ S200000x32.size a
  hwx10_0 : ∀ i : grid10.Coords, EltTy.bits .f32 = 32 ∨ (Rect.block (s := S200000x32) S10000x32.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S10000x32.size a ≤ S200000x32.size a
  hwx10_1 : ∀ i : grid10.Coords, EltTy.bits .f32 = 32 ∨ (Rect.block (s := S200000x32) S10000x32.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x32.size a ≤ S1x32.size a
  hwx10_2 : ∀ i : grid10.Coords, EltTy.bits .f32 = 32 ∨ (Rect.block (s := S1x32) S1x32.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S32x32.size a ≤ S32x32.size a
  hwx10_3 : ∀ i : grid10.Coords, EltTy.bits .f32 = 32 ∨ (Rect.block (s := S32x32) S32x32.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S10000x32.size a ≤ S200000x32.size a
  hwx10_4 : ∀ i : grid10.Coords, EltTy.bits .f32 = 32 ∨ (Rect.block (s := S200000x32) S10000x32.size (cc10_transform_4 i) (hinb10_4 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x32.size a ≤ S200000x32.size a
  hwx11_0 : ∀ i : grid11.Coords, EltTy.bits .f32 = 32 ∨ (Rect.block (s := S200000x32) S10000x32.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S10000x32.size a ≤ S200000x32.size a
  hwx11_1 : ∀ i : grid11.Coords, EltTy.bits .f32 = 32 ∨ (Rect.block (s := S200000x32) S10000x32.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x32.size a ≤ S1x32.size a
  hwx11_2 : ∀ i : grid11.Coords, EltTy.bits .f32 = 32 ∨ (Rect.block (s := S1x32) S1x32.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S10000x32.size a ≤ S200000x32.size a
  hwx11_3 : ∀ i : grid11.Coords, EltTy.bits .f32 = 32 ∨ (Rect.block (s := S200000x32) S10000x32.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x1.size a ≤ S1x1.size a
  hwx11_4 : ∀ i : grid11.Coords, EltTy.bits .f32 = 32 ∨ (Rect.block (s := S1x1) S1x1.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S10000x32.size a ≤ S200000x32.size a
  hwx11_5 : ∀ i : grid11.Coords, EltTy.bits .f32 = 32 ∨ (Rect.block (s := S200000x32) S10000x32.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x32.size a ≤ S200000x32.size a
  hwx12_0 : ∀ i : grid12.Coords, EltTy.bits .f32 = 32 ∨ (Rect.block (s := S200000x32) S10000x32.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S32x64.size a ≤ S32x64.size a
  hwx12_1 : ∀ i : grid12.Coords, EltTy.bits .f32 = 32 ∨ (Rect.block (s := S32x64) S32x64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x64.size a ≤ S1x64.size a
  hwx12_2 : ∀ i : grid12.Coords, EltTy.bits .f32 = 32 ∨ (Rect.block (s := S1x64) S1x64.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S64x32.size a ≤ S64x32.size a
  hwx12_3 : ∀ i : grid12.Coords, EltTy.bits .f32 = 32 ∨ (Rect.block (s := S64x32) S64x32.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x32.size a ≤ S1x32.size a
  hwx12_4 : ∀ i : grid12.Coords, EltTy.bits .f32 = 32 ∨ (Rect.block (s := S1x32) S1x32.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S10000x32.size a ≤ S200000x32.size a
  hwx12_5 : ∀ i : grid12.Coords, EltTy.bits .f32 = 32 ∨ (Rect.block (s := S200000x32) S10000x32.size (cc12_transform_5 i) (hinb12_5 i)).WholeWords (EltTy.packing .f32)

variable [Facts₀]

def scatter_S200000_S3200000x1_S3200000_n_0_0_1 : ScatterDims S200000 S3200000x1 S3200000 where
  updateWindowDims := []
  insertedWindowDims := [0]
  scatterDimsToOperandDims := [0]
  indexVectorDim := 1
  wf := scatter_S200000_S3200000x1_S3200000_n_0_0_1_wf
def gather_S200000_S3200000x1_S3200000_n_0_n_n_0_1_1 : GatherDims S200000 S3200000x1 S3200000 where
  offsetDims := []
  collapsedSliceDims := [0]
  operandBatchingDims := []
  startIndicesBatchingDims := []
  startIndexMap := [0]
  indexVectorDim := 1
  sliceSizes := ![1]
  wf := gather_S200000_S3200000x1_S3200000_n_0_n_n_0_1_1_wf
def dot_S10000x20_S20x32_S10000x32_1_0_0_1_n_n : DotDims S10000x20 S20x32 S10000x32 where
  lhsContracting := [1]
  rhsContracting := [0]
  lhsNonContracting := [0]
  rhsNonContracting := [1]
  lhsBatch := []
  rhsBatch := []
  wf := dot_S10000x20_S20x32_S10000x32_1_0_0_1_n_n_wf
def gather_S200000x32_S3200000x1_S3200000x32_1_0_n_n_0_1_132 : GatherDims S200000x32 S3200000x1 S3200000x32 where
  offsetDims := [1]
  collapsedSliceDims := [0]
  operandBatchingDims := []
  startIndicesBatchingDims := []
  startIndexMap := [0]
  indexVectorDim := 1
  sliceSizes := ![1, 32]
  wf := gather_S200000x32_S3200000x1_S3200000x32_1_0_n_n_0_1_132_wf
def scatter_S200000x32_S3200000x1_S3200000x32_1_0_0_1 : ScatterDims S200000x32 S3200000x1 S3200000x32 where
  updateWindowDims := [1]
  insertedWindowDims := [0]
  scatterDimsToOperandDims := [0]
  indexVectorDim := 1
  wf := scatter_S200000x32_S3200000x1_S3200000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf

abbrev win0_0 : Pipeline.Window sig grid0 :=
  Pipeline.Window.ofSpec (Memref.whole main_v1) S10000x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S20x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v41) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S10000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v68) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S10000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S10000x32.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v72) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v73) S10000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v75) S10000x20.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v106) S20x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v115) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v127) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v129) S10000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v109) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v111) S32x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v130) S10000x32.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v142) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v144) S10000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v114) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v158) S10000x32.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v162) S1x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v163) S10000x32.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v165) S10000x20.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v196) S20x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v205) S10000x32.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v217) S10000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v219) S10000x32.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v199) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v201) S32x32.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v220) S10000x32.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v232) S10000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v234) S10000x32.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v204) S1x32.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v248) S10000x32.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v252) S1x1.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v253) S10000x32.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v255) S10000x20.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v286) S20x32.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v295) S10000x32.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v307) S10000x32.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v309) S10000x32.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v289) S1x32.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v291) S32x32.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v310) S10000x32.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v322) S10000x32.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v324) S10000x32.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v294) S1x32.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v338) S10000x32.size cc11_transform_3 reads11_3 false false 2 stage11_3 sem11_3
    hrank11 hreads11_3 hinb11_3 nbuf11_3 (Memref.isWhole_whole _) hwx11_3 hstage11_3

abbrev win11_4 : Pipeline.Window sig grid11 :=
  Pipeline.Window.ofSpec (Memref.whole main_v342) S1x1.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v343) S10000x32.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v343) S10000x32.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg8) S32x64.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v344) S1x64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_arg10) S64x32.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v345) S1x32.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v346) S10000x32.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

class Facts : Prop extends Facts₀ where

variable [Facts]
-- ==== ReferenceIdeal.lean ====
abbrev S4x200000x20 : Shape := ⟨3, ![4, 200000, 20]⟩
abbrev S4x2x3200000 : Shape := ⟨3, ![4, 2, 3200000]⟩
abbrev S4 : Shape := ⟨1, ![4]⟩
abbrev S4x20x32 : Shape := ⟨3, ![4, 20, 32]⟩
abbrev S4x32 : Shape := ⟨2, ![4, 32]⟩
abbrev S4x32x32 : Shape := ⟨3, ![4, 32, 32]⟩
abbrev S32x64 : Shape := ⟨2, ![32, 64]⟩
abbrev S64 : Shape := ⟨1, ![64]⟩
abbrev S64x32 : Shape := ⟨2, ![64, 32]⟩
abbrev S32 : Shape := ⟨1, ![32]⟩
abbrev S1x200000x20 : Shape := ⟨3, ![1, 200000, 20]⟩
abbrev S200000x20 : Shape := ⟨2, ![200000, 20]⟩
abbrev S1x1x3200000 : Shape := ⟨3, ![1, 1, 3200000]⟩
abbrev S3200000 : Shape := ⟨1, ![3200000]⟩
abbrev S1x20x32 : Shape := ⟨3, ![1, 20, 32]⟩
abbrev S20x32 : Shape := ⟨2, ![20, 32]⟩
abbrev S1x32 : Shape := ⟨2, ![1, 32]⟩
abbrev S1x32x32 : Shape := ⟨3, ![1, 32, 32]⟩
abbrev S32x32 : Shape := ⟨2, ![32, 32]⟩
abbrev S_ : Shape := ⟨0, ![]⟩
abbrev S200000 : Shape := ⟨1, ![200000]⟩
abbrev S3200000x1 : Shape := ⟨2, ![3200000, 1]⟩
abbrev S200000x1 : Shape := ⟨2, ![200000, 1]⟩
abbrev S200000x32 : Shape := ⟨2, ![200000, 32]⟩
abbrev S3200000x32 : Shape := ⟨2, ![3200000, 32]⟩
abbrev S1 : Shape := ⟨1, ![1]⟩
abbrev S200000x64 : Shape := ⟨2, ![200000, 64]⟩
abbrev S1x64 : Shape := ⟨2, ![1, 64]⟩

abbrev nBuf : Space → Nat
  | .hbm => 464
  | .vmem => 0
  | .smem => 0
  | _ => 0

abbrev hbmTy0_0 (i : Nat) : BufTy := match i % 128 with
  | 0 => ⟨S4x200000x20, .f32⟩
  | 1 => ⟨S4x2x3200000, .i32⟩
  | 2 => ⟨S4x2x3200000, .i32⟩
  | 3 => ⟨S4, .f32⟩
  | 4 => ⟨S4x20x32, .f32⟩
  | 5 => ⟨S4x32, .f32⟩
  | 6 => ⟨S4x32x32, .f32⟩
  | 7 => ⟨S4x32, .f32⟩
  | 8 => ⟨S32x64, .f32⟩
  | 9 => ⟨S64, .f32⟩
  | 10 => ⟨S64x32, .f32⟩
  | 11 => ⟨S32, .f32⟩
  | 12 => ⟨S1x200000x20, .f32⟩
  | 13 => ⟨S200000x20, .f32⟩
  | 14 => ⟨S1x1x3200000, .i32⟩
  | 15 => ⟨S3200000, .i32⟩
  | 16 => ⟨S1x1x3200000, .i32⟩
  | 17 => ⟨S3200000, .i32⟩
  | 18 => ⟨S1x20x32, .f32⟩
  | 19 => ⟨S20x32, .f32⟩
  | 20 => ⟨S1x32, .f32⟩
  | 21 => ⟨S32, .f32⟩
  | 22 => ⟨S1x32x32, .f32⟩
  | 23 => ⟨S32x32, .f32⟩
  | 24 => ⟨S1x32, .f32⟩
  | 25 => ⟨S32, .f32⟩
  | 26 => ⟨S_, .f32⟩
  | 27 => ⟨S3200000, .f32⟩
  | 28 => ⟨S_, .f32⟩
  | 29 => ⟨S200000, .f32⟩
  | 30 => ⟨S3200000x1, .i32⟩
  | 31 => ⟨S200000, .f32⟩
  | 32 => ⟨S_, .f32⟩
  | 33 => ⟨S200000, .f32⟩
  | 34 => ⟨S200000, .f32⟩
  | 35 => ⟨S200000, .f32⟩
  | 36 => ⟨S_, .i32⟩
  | 37 => ⟨S3200000, .i32⟩
  | 38 => ⟨S3200000, .i1⟩
  | 39 => ⟨S_, .i32⟩
  | 40 => ⟨S3200000, .i32⟩
  | 41 => ⟨S3200000, .i32⟩
  | 42 => ⟨S3200000, .i32⟩
  | 43 => ⟨S3200000x1, .i32⟩
  | 44 => ⟨S3200000, .f32⟩
  | 45 => ⟨S_, .i32⟩
  | 46 => ⟨S3200000, .i32⟩
  | 47 => ⟨S3200000, .i1⟩
  | 48 => ⟨S_, .i32⟩
  | 49 => ⟨S3200000, .i32⟩
  | 50 => ⟨S3200000, .i32⟩
  | 51 => ⟨S3200000, .i32⟩
  | 52 => ⟨S3200000x1, .i32⟩
  | 53 => ⟨S3200000, .f32⟩
  | 54 => ⟨S3200000, .f32⟩
  | 55 => ⟨S3200000x1, .f32⟩
  | 56 => ⟨S200000, .f32⟩
  | 57 => ⟨S200000x1, .f32⟩
  | 58 => ⟨S200000x32, .f32⟩
  | 59 => ⟨S_, .i32⟩
  | 60 => ⟨S3200000, .i32⟩
  | 61 => ⟨S3200000, .i1⟩
  | 62 => ⟨S_, .i32⟩
  | 63 => ⟨S3200000, .i32⟩
  | 64 => ⟨S3200000, .i32⟩
  | 65 => ⟨S3200000, .i32⟩
  | 66 => ⟨S3200000x1, .i32⟩
  | 67 => ⟨S3200000x32, .f32⟩
  | 68 => ⟨S3200000x32, .f32⟩
  | 69 => ⟨S3200000x32, .f32⟩
  | 70 => ⟨S_, .f32⟩
  | 71 => ⟨S200000x32, .f32⟩
  | 72 => ⟨S3200000x1, .i32⟩
  | 73 => ⟨S200000x32, .f32⟩
  | 74 => ⟨S200000x32, .f32⟩
  | 75 => ⟨S200000x32, .f32⟩
  | 76 => ⟨S200000x32, .f32⟩
  | 77 => ⟨S1x32, .f32⟩
  | 78 => ⟨S200000x32, .f32⟩
  | 79 => ⟨S200000x32, .f32⟩
  | 80 => ⟨S_, .f32⟩
  | 81 => ⟨S200000x32, .f32⟩
  | 82 => ⟨S200000x32, .f32⟩
  | 83 => ⟨S200000x32, .f32⟩
  | 84 => ⟨S_, .i32⟩
  | 85 => ⟨S3200000, .i32⟩
  | 86 => ⟨S3200000, .i1⟩
  | 87 => ⟨S_, .i32⟩
  | 88 => ⟨S3200000, .i32⟩
  | 89 => ⟨S3200000, .i32⟩
  | 90 => ⟨S3200000, .i32⟩
  | 91 => ⟨S3200000x1, .i32⟩
  | 92 => ⟨S3200000x32, .f32⟩
  | 93 => ⟨S3200000x32, .f32⟩
  | 94 => ⟨S3200000x32, .f32⟩
  | 95 => ⟨S_, .f32⟩
  | 96 => ⟨S200000x32, .f32⟩
  | 97 => ⟨S3200000x1, .i32⟩
  | 98 => ⟨S200000x32, .f32⟩
  | 99 => ⟨S200000x32, .f32⟩
  | 100 => ⟨S200000x32, .f32⟩
  | 101 => ⟨S200000x32, .f32⟩
  | 102 => ⟨S1x32, .f32⟩
  | 103 => ⟨S200000x32, .f32⟩
  | 104 => ⟨S200000x32, .f32⟩
  | 105 => ⟨S1x200000x20, .f32⟩
  | 106 => ⟨S200000x20, .f32⟩
  | 107 => ⟨S1x1x3200000, .i32⟩
  | 108 => ⟨S3200000, .i32⟩
  | 109 => ⟨S1x1x3200000, .i32⟩
  | 110 => ⟨S3200000, .i32⟩
  | 111 => ⟨S1x20x32, .f32⟩
  | 112 => ⟨S20x32, .f32⟩
  | 113 => ⟨S1x32, .f32⟩
  | 114 => ⟨S32, .f32⟩
  | 115 => ⟨S1x32x32, .f32⟩
  | 116 => ⟨S32x32, .f32⟩
  | 117 => ⟨S1x32, .f32⟩
  | 118 => ⟨S32, .f32⟩
  | 119 => ⟨S_, .f32⟩
  | 120 => ⟨S3200000, .f32⟩
  | 121 => ⟨S_, .f32⟩
  | 122 => ⟨S200000, .f32⟩
  | 123 => ⟨S3200000x1, .i32⟩
  | 124 => ⟨S200000, .f32⟩
  | 125 => ⟨S_, .f32⟩
  | 126 => ⟨S200000, .f32⟩
  | 127 => ⟨S200000, .f32⟩
  | _ => ⟨S4x200000x20, .f32⟩

abbrev hbmTy0_1 (i : Nat) : BufTy := match i % 128 with
  | 0 => ⟨S200000, .f32⟩
  | 1 => ⟨S_, .i32⟩
  | 2 => ⟨S3200000, .i32⟩
  | 3 => ⟨S3200000, .i1⟩
  | 4 => ⟨S_, .i32⟩
  | 5 => ⟨S3200000, .i32⟩
  | 6 => ⟨S3200000, .i32⟩
  | 7 => ⟨S3200000, .i32⟩
  | 8 => ⟨S3200000x1, .i32⟩
  | 9 => ⟨S3200000, .f32⟩
  | 10 => ⟨S_, .i32⟩
  | 11 => ⟨S3200000, .i32⟩
  | 12 => ⟨S3200000, .i1⟩
  | 13 => ⟨S_, .i32⟩
  | 14 => ⟨S3200000, .i32⟩
  | 15 => ⟨S3200000, .i32⟩
  | 16 => ⟨S3200000, .i32⟩
  | 17 => ⟨S3200000x1, .i32⟩
  | 18 => ⟨S3200000, .f32⟩
  | 19 => ⟨S3200000, .f32⟩
  | 20 => ⟨S3200000x1, .f32⟩
  | 21 => ⟨S200000, .f32⟩
  | 22 => ⟨S200000x1, .f32⟩
  | 23 => ⟨S200000x32, .f32⟩
  | 24 => ⟨S_, .i32⟩
  | 25 => ⟨S3200000, .i32⟩
  | 26 => ⟨S3200000, .i1⟩
  | 27 => ⟨S_, .i32⟩
  | 28 => ⟨S3200000, .i32⟩
  | 29 => ⟨S3200000, .i32⟩
  | 30 => ⟨S3200000, .i32⟩
  | 31 => ⟨S3200000x1, .i32⟩
  | 32 => ⟨S3200000x32, .f32⟩
  | 33 => ⟨S3200000x32, .f32⟩
  | 34 => ⟨S3200000x32, .f32⟩
  | 35 => ⟨S_, .f32⟩
  | 36 => ⟨S200000x32, .f32⟩
  | 37 => ⟨S3200000x1, .i32⟩
  | 38 => ⟨S200000x32, .f32⟩
  | 39 => ⟨S200000x32, .f32⟩
  | 40 => ⟨S200000x32, .f32⟩
  | 41 => ⟨S200000x32, .f32⟩
  | 42 => ⟨S1x32, .f32⟩
  | 43 => ⟨S200000x32, .f32⟩
  | 44 => ⟨S200000x32, .f32⟩
  | 45 => ⟨S_, .f32⟩
  | 46 => ⟨S200000x32, .f32⟩
  | 47 => ⟨S200000x32, .f32⟩
  | 48 => ⟨S200000x32, .f32⟩
  | 49 => ⟨S_, .i32⟩
  | 50 => ⟨S3200000, .i32⟩
  | 51 => ⟨S3200000, .i1⟩
  | 52 => ⟨S_, .i32⟩
  | 53 => ⟨S3200000, .i32⟩
  | 54 => ⟨S3200000, .i32⟩
  | 55 => ⟨S3200000, .i32⟩
  | 56 => ⟨S3200000x1, .i32⟩
  | 57 => ⟨S3200000x32, .f32⟩
  | 58 => ⟨S3200000x32, .f32⟩
  | 59 => ⟨S3200000x32, .f32⟩
  | 60 => ⟨S_, .f32⟩
  | 61 => ⟨S200000x32, .f32⟩
  | 62 => ⟨S3200000x1, .i32⟩
  | 63 => ⟨S200000x32, .f32⟩
  | 64 => ⟨S200000x32, .f32⟩
  | 65 => ⟨S200000x32, .f32⟩
  | 66 => ⟨S200000x32, .f32⟩
  | 67 => ⟨S1x32, .f32⟩
  | 68 => ⟨S200000x32, .f32⟩
  | 69 => ⟨S200000x32, .f32⟩
  | 70 => ⟨S1x1x3200000, .i32⟩
  | 71 => ⟨S3200000, .i32⟩
  | 72 => ⟨S1x1x3200000, .i32⟩
  | 73 => ⟨S3200000, .i32⟩
  | 74 => ⟨S_, .i32⟩
  | 75 => ⟨S3200000, .i32⟩
  | 76 => ⟨S3200000, .i1⟩
  | 77 => ⟨S_, .i32⟩
  | 78 => ⟨S3200000, .i32⟩
  | 79 => ⟨S3200000, .i32⟩
  | 80 => ⟨S3200000, .i32⟩
  | 81 => ⟨S3200000x1, .i32⟩
  | 82 => ⟨S3200000x32, .f32⟩
  | 83 => ⟨S_, .f32⟩
  | 84 => ⟨S200000x32, .f32⟩
  | 85 => ⟨S3200000x1, .i32⟩
  | 86 => ⟨S200000x32, .f32⟩
  | 87 => ⟨S200000x32, .f32⟩
  | 88 => ⟨S1, .f32⟩
  | 89 => ⟨S_, .f32⟩
  | 90 => ⟨S200000x32, .f32⟩
  | 91 => ⟨S200000x32, .f32⟩
  | 92 => ⟨S1x200000x20, .f32⟩
  | 93 => ⟨S200000x20, .f32⟩
  | 94 => ⟨S1x1x3200000, .i32⟩
  | 95 => ⟨S3200000, .i32⟩
  | 96 => ⟨S1x1x3200000, .i32⟩
  | 97 => ⟨S3200000, .i32⟩
  | 98 => ⟨S1x20x32, .f32⟩
  | 99 => ⟨S20x32, .f32⟩
  | 100 => ⟨S1x32, .f32⟩
  | 101 => ⟨S32, .f32⟩
  | 102 => ⟨S1x32x32, .f32⟩
  | 103 => ⟨S32x32, .f32⟩
  | 104 => ⟨S1x32, .f32⟩
  | 105 => ⟨S32, .f32⟩
  | 106 => ⟨S_, .f32⟩
  | 107 => ⟨S3200000, .f32⟩
  | 108 => ⟨S_, .f32⟩
  | 109 => ⟨S200000, .f32⟩
  | 110 => ⟨S3200000x1, .i32⟩
  | 111 => ⟨S200000, .f32⟩
  | 112 => ⟨S_, .f32⟩
  | 113 => ⟨S200000, .f32⟩
  | 114 => ⟨S200000, .f32⟩
  | 115 => ⟨S200000, .f32⟩
  | 116 => ⟨S_, .i32⟩
  | 117 => ⟨S3200000, .i32⟩
  | 118 => ⟨S3200000, .i1⟩
  | 119 => ⟨S_, .i32⟩
  | 120 => ⟨S3200000, .i32⟩
  | 121 => ⟨S3200000, .i32⟩
  | 122 => ⟨S3200000, .i32⟩
  | 123 => ⟨S3200000x1, .i32⟩
  | 124 => ⟨S3200000, .f32⟩
  | 125 => ⟨S_, .i32⟩
  | 126 => ⟨S3200000, .i32⟩
  | 127 => ⟨S3200000, .i1⟩
  | _ => ⟨S4x200000x20, .f32⟩

abbrev hbmTy0_2 (i : Nat) : BufTy := match i % 128 with
  | 0 => ⟨S_, .i32⟩
  | 1 => ⟨S3200000, .i32⟩
  | 2 => ⟨S3200000, .i32⟩
  | 3 => ⟨S3200000, .i32⟩
  | 4 => ⟨S3200000x1, .i32⟩
  | 5 => ⟨S3200000, .f32⟩
  | 6 => ⟨S3200000, .f32⟩
  | 7 => ⟨S3200000x1, .f32⟩
  | 8 => ⟨S200000, .f32⟩
  | 9 => ⟨S200000x1, .f32⟩
  | 10 => ⟨S200000x32, .f32⟩
  | 11 => ⟨S_, .i32⟩
  | 12 => ⟨S3200000, .i32⟩
  | 13 => ⟨S3200000, .i1⟩
  | 14 => ⟨S_, .i32⟩
  | 15 => ⟨S3200000, .i32⟩
  | 16 => ⟨S3200000, .i32⟩
  | 17 => ⟨S3200000, .i32⟩
  | 18 => ⟨S3200000x1, .i32⟩
  | 19 => ⟨S3200000x32, .f32⟩
  | 20 => ⟨S3200000x32, .f32⟩
  | 21 => ⟨S3200000x32, .f32⟩
  | 22 => ⟨S_, .f32⟩
  | 23 => ⟨S200000x32, .f32⟩
  | 24 => ⟨S3200000x1, .i32⟩
  | 25 => ⟨S200000x32, .f32⟩
  | 26 => ⟨S200000x32, .f32⟩
  | 27 => ⟨S200000x32, .f32⟩
  | 28 => ⟨S200000x32, .f32⟩
  | 29 => ⟨S1x32, .f32⟩
  | 30 => ⟨S200000x32, .f32⟩
  | 31 => ⟨S200000x32, .f32⟩
  | 32 => ⟨S_, .f32⟩
  | 33 => ⟨S200000x32, .f32⟩
  | 34 => ⟨S200000x32, .f32⟩
  | 35 => ⟨S200000x32, .f32⟩
  | 36 => ⟨S_, .i32⟩
  | 37 => ⟨S3200000, .i32⟩
  | 38 => ⟨S3200000, .i1⟩
  | 39 => ⟨S_, .i32⟩
  | 40 => ⟨S3200000, .i32⟩
  | 41 => ⟨S3200000, .i32⟩
  | 42 => ⟨S3200000, .i32⟩
  | 43 => ⟨S3200000x1, .i32⟩
  | 44 => ⟨S3200000x32, .f32⟩
  | 45 => ⟨S3200000x32, .f32⟩
  | 46 => ⟨S3200000x32, .f32⟩
  | 47 => ⟨S_, .f32⟩
  | 48 => ⟨S200000x32, .f32⟩
  | 49 => ⟨S3200000x1, .i32⟩
  | 50 => ⟨S200000x32, .f32⟩
  | 51 => ⟨S200000x32, .f32⟩
  | 52 => ⟨S200000x32, .f32⟩
  | 53 => ⟨S200000x32, .f32⟩
  | 54 => ⟨S1x32, .f32⟩
  | 55 => ⟨S200000x32, .f32⟩
  | 56 => ⟨S200000x32, .f32⟩
  | 57 => ⟨S1x1x3200000, .i32⟩
  | 58 => ⟨S3200000, .i32⟩
  | 59 => ⟨S1x1x3200000, .i32⟩
  | 60 => ⟨S3200000, .i32⟩
  | 61 => ⟨S_, .i32⟩
  | 62 => ⟨S3200000, .i32⟩
  | 63 => ⟨S3200000, .i1⟩
  | 64 => ⟨S_, .i32⟩
  | 65 => ⟨S3200000, .i32⟩
  | 66 => ⟨S3200000, .i32⟩
  | 67 => ⟨S3200000, .i32⟩
  | 68 => ⟨S3200000x1, .i32⟩
  | 69 => ⟨S3200000x32, .f32⟩
  | 70 => ⟨S_, .f32⟩
  | 71 => ⟨S200000x32, .f32⟩
  | 72 => ⟨S3200000x1, .i32⟩
  | 73 => ⟨S200000x32, .f32⟩
  | 74 => ⟨S200000x32, .f32⟩
  | 75 => ⟨S1, .f32⟩
  | 76 => ⟨S_, .f32⟩
  | 77 => ⟨S200000x32, .f32⟩
  | 78 => ⟨S200000x32, .f32⟩
  | 79 => ⟨S1x200000x20, .f32⟩
  | 80 => ⟨S200000x20, .f32⟩
  | 81 => ⟨S1x1x3200000, .i32⟩
  | 82 => ⟨S3200000, .i32⟩
  | 83 => ⟨S1x1x3200000, .i32⟩
  | 84 => ⟨S3200000, .i32⟩
  | 85 => ⟨S1x20x32, .f32⟩
  | 86 => ⟨S20x32, .f32⟩
  | 87 => ⟨S1x32, .f32⟩
  | 88 => ⟨S32, .f32⟩
  | 89 => ⟨S1x32x32, .f32⟩
  | 90 => ⟨S32x32, .f32⟩
  | 91 => ⟨S1x32, .f32⟩
  | 92 => ⟨S32, .f32⟩
  | 93 => ⟨S_, .f32⟩
  | 94 => ⟨S3200000, .f32⟩
  | 95 => ⟨S_, .f32⟩
  | 96 => ⟨S200000, .f32⟩
  | 97 => ⟨S3200000x1, .i32⟩
  | 98 => ⟨S200000, .f32⟩
  | 99 => ⟨S_, .f32⟩
  | 100 => ⟨S200000, .f32⟩
  | 101 => ⟨S200000, .f32⟩
  | 102 => ⟨S200000, .f32⟩
  | 103 => ⟨S_, .i32⟩
  | 104 => ⟨S3200000, .i32⟩
  | 105 => ⟨S3200000, .i1⟩
  | 106 => ⟨S_, .i32⟩
  | 107 => ⟨S3200000, .i32⟩
  | 108 => ⟨S3200000, .i32⟩
  | 109 => ⟨S3200000, .i32⟩
  | 110 => ⟨S3200000x1, .i32⟩
  | 111 => ⟨S3200000, .f32⟩
  | 112 => ⟨S_, .i32⟩
  | 113 => ⟨S3200000, .i32⟩
  | 114 => ⟨S3200000, .i1⟩
  | 115 => ⟨S_, .i32⟩
  | 116 => ⟨S3200000, .i32⟩
  | 117 => ⟨S3200000, .i32⟩
  | 118 => ⟨S3200000, .i32⟩
  | 119 => ⟨S3200000x1, .i32⟩
  | 120 => ⟨S3200000, .f32⟩
  | 121 => ⟨S3200000, .f32⟩
  | 122 => ⟨S3200000x1, .f32⟩
  | 123 => ⟨S200000, .f32⟩
  | 124 => ⟨S200000x1, .f32⟩
  | 125 => ⟨S200000x32, .f32⟩
  | 126 => ⟨S_, .i32⟩
  | 127 => ⟨S3200000, .i32⟩
  | _ => ⟨S4x200000x20, .f32⟩

abbrev hbmTy0_3 (i : Nat) : BufTy := match i % 128 with
  | 0 => ⟨S3200000, .i1⟩
  | 1 => ⟨S_, .i32⟩
  | 2 => ⟨S3200000, .i32⟩
  | 3 => ⟨S3200000, .i32⟩
  | 4 => ⟨S3200000, .i32⟩
  | 5 => ⟨S3200000x1, .i32⟩
  | 6 => ⟨S3200000x32, .f32⟩
  | 7 => ⟨S3200000x32, .f32⟩
  | 8 => ⟨S3200000x32, .f32⟩
  | 9 => ⟨S_, .f32⟩
  | 10 => ⟨S200000x32, .f32⟩
  | 11 => ⟨S3200000x1, .i32⟩
  | 12 => ⟨S200000x32, .f32⟩
  | 13 => ⟨S200000x32, .f32⟩
  | 14 => ⟨S200000x32, .f32⟩
  | 15 => ⟨S200000x32, .f32⟩
  | 16 => ⟨S1x32, .f32⟩
  | 17 => ⟨S200000x32, .f32⟩
  | 18 => ⟨S200000x32, .f32⟩
  | 19 => ⟨S_, .f32⟩
  | 20 => ⟨S200000x32, .f32⟩
  | 21 => ⟨S200000x32, .f32⟩
  | 22 => ⟨S200000x32, .f32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S3200000x32, .f32⟩
  | 32 => ⟨S3200000x32, .f32⟩
  | 33 => ⟨S3200000x32, .f32⟩
  | 34 => ⟨S_, .f32⟩
  | 35 => ⟨S200000x32, .f32⟩
  | 36 => ⟨S3200000x1, .i32⟩
  | 37 => ⟨S200000x32, .f32⟩
  | 38 => ⟨S200000x32, .f32⟩
  | 39 => ⟨S200000x32, .f32⟩
  | 40 => ⟨S200000x32, .f32⟩
  | 41 => ⟨S1x32, .f32⟩
  | 42 => ⟨S200000x32, .f32⟩
  | 43 => ⟨S200000x32, .f32⟩
  | 44 => ⟨S1x1x3200000, .i32⟩
  | 45 => ⟨S3200000, .i32⟩
  | 46 => ⟨S1x1x3200000, .i32⟩
  | 47 => ⟨S3200000, .i32⟩
  | 48 => ⟨S_, .i32⟩
  | 49 => ⟨S3200000, .i32⟩
  | 50 => ⟨S3200000, .i1⟩
  | 51 => ⟨S_, .i32⟩
  | 52 => ⟨S3200000, .i32⟩
  | 53 => ⟨S3200000, .i32⟩
  | 54 => ⟨S3200000, .i32⟩
  | 55 => ⟨S3200000x1, .i32⟩
  | 56 => ⟨S3200000x32, .f32⟩
  | 57 => ⟨S_, .f32⟩
  | 58 => ⟨S200000x32, .f32⟩
  | 59 => ⟨S3200000x1, .i32⟩
  | 60 => ⟨S200000x32, .f32⟩
  | 61 => ⟨S200000x32, .f32⟩
  | 62 => ⟨S1, .f32⟩
  | 63 => ⟨S_, .f32⟩
  | 64 => ⟨S200000x32, .f32⟩
  | 65 => ⟨S200000x32, .f32⟩
  | 66 => ⟨S200000x64, .f32⟩
  | 67 => ⟨S1x64, .f32⟩
  | 68 => ⟨S200000x64, .f32⟩
  | 69 => ⟨S200000x64, .f32⟩
  | 70 => ⟨S_, .f32⟩
  | 71 => ⟨S200000x64, .f32⟩
  | 72 => ⟨S200000x64, .f32⟩
  | 73 => ⟨S200000x32, .f32⟩
  | 74 => ⟨S1x32, .f32⟩
  | 75 => ⟨S200000x32, .f32⟩
  | 76 => ⟨S200000x32, .f32⟩
  | 77 => ⟨S_, .f32⟩
  | 78 => ⟨S200000x32, .f32⟩
  | 79 => ⟨S200000x32, .f32⟩
  | _ => ⟨S4x200000x20, .f32⟩

abbrev hbmTy (i : Nat) : BufTy := match i / 128 with
  | 0 => hbmTy0_0 i
  | 1 => hbmTy0_1 i
  | 2 => hbmTy0_2 i
  | 3 => hbmTy0_3 i
  | _ => ⟨S4x200000x20, .f32⟩

abbrev bufTy : (tb : Table) → Fin (tcTables nBuf tb) → BufTy
  | .hbm, ⟨i, _⟩ => hbmTy i
  | _, _ => ⟨S4x200000x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_3 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_5 : Ref sig .tc := ⟨.hbm, 59, rfl⟩
abbrev main_v40 : Ref sig .tc := ⟨.hbm, 60, rfl⟩
abbrev main_v41 : Ref sig .tc := ⟨.hbm, 61, rfl⟩
abbrev main_c_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_call0_cst : Ref sig .tc := ⟨.hbm, 80, rfl⟩
abbrev main_call0_v0 : Ref sig .tc := ⟨.hbm, 81, rfl⟩
abbrev main_v58 : Ref sig .tc := ⟨.hbm, 82, rfl⟩
abbrev main_v59 : Ref sig .tc := ⟨.hbm, 83, rfl⟩
abbrev main_c_8 : Ref sig .tc := ⟨.hbm, 84, rfl⟩
abbrev main_v60 : Ref sig .tc := ⟨.hbm, 85, rfl⟩
abbrev main_v61 : Ref sig .tc := ⟨.hbm, 86, rfl⟩
abbrev main_c_9 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_10 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_11 : Ref sig .tc := ⟨.hbm, 119, rfl⟩
abbrev main_v92 : Ref sig .tc := ⟨.hbm, 120, rfl⟩
abbrev main_cst_12 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_13 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_c_14 : Ref sig .tc := ⟨.hbm, 129, rfl⟩
abbrev main_v99 : Ref sig .tc := ⟨.hbm, 130, rfl⟩
abbrev main_v100 : Ref sig .tc := ⟨.hbm, 131, rfl⟩
abbrev main_c_15 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_c_16 : Ref sig .tc := ⟨.hbm, 138, rfl⟩
abbrev main_v106 : Ref sig .tc := ⟨.hbm, 139, rfl⟩
abbrev main_v107 : Ref sig .tc := ⟨.hbm, 140, rfl⟩
abbrev main_c_17 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_c_18 : Ref sig .tc := ⟨.hbm, 152, rfl⟩
abbrev main_v118 : Ref sig .tc := ⟨.hbm, 153, rfl⟩
abbrev main_v119 : Ref sig .tc := ⟨.hbm, 154, rfl⟩
abbrev main_c_19 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_cst_20 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_call1_cst : Ref sig .tc := ⟨.hbm, 173, rfl⟩
abbrev main_call1_v0 : Ref sig .tc := ⟨.hbm, 174, rfl⟩
abbrev main_v136 : Ref sig .tc := ⟨.hbm, 175, rfl⟩
abbrev main_v137 : Ref sig .tc := ⟨.hbm, 176, rfl⟩
abbrev main_c_21 : Ref sig .tc := ⟨.hbm, 177, rfl⟩
abbrev main_v138 : Ref sig .tc := ⟨.hbm, 178, rfl⟩
abbrev main_v139 : Ref sig .tc := ⟨.hbm, 179, rfl⟩
abbrev main_c_22 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_cst_23 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_c_24 : Ref sig .tc := ⟨.hbm, 202, rfl⟩
abbrev main_v160 : Ref sig .tc := ⟨.hbm, 203, rfl⟩
abbrev main_v161 : Ref sig .tc := ⟨.hbm, 204, rfl⟩
abbrev main_c_25 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_cst_26 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_cst_27 : Ref sig .tc := ⟨.hbm, 234, rfl⟩
abbrev main_v189 : Ref sig .tc := ⟨.hbm, 235, rfl⟩
abbrev main_cst_28 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_cst_29 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_c_30 : Ref sig .tc := ⟨.hbm, 244, rfl⟩
abbrev main_v196 : Ref sig .tc := ⟨.hbm, 245, rfl⟩
abbrev main_v197 : Ref sig .tc := ⟨.hbm, 246, rfl⟩
abbrev main_c_31 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_c_32 : Ref sig .tc := ⟨.hbm, 253, rfl⟩
abbrev main_v203 : Ref sig .tc := ⟨.hbm, 254, rfl⟩
abbrev main_v204 : Ref sig .tc := ⟨.hbm, 255, rfl⟩
abbrev main_c_33 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_c_34 : Ref sig .tc := ⟨.hbm, 267, rfl⟩
abbrev main_v215 : Ref sig .tc := ⟨.hbm, 268, rfl⟩
abbrev main_v216 : Ref sig .tc := ⟨.hbm, 269, rfl⟩
abbrev main_c_35 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_cst_36 : Ref sig .tc := ⟨.hbm, 278, rfl⟩
abbrev main_v224 : Ref sig .tc := ⟨.hbm, 279, rfl⟩
abbrev main_v225 : Ref sig .tc := ⟨.hbm, 280, rfl⟩
abbrev main_v226 : Ref sig .tc := ⟨.hbm, 281, rfl⟩
abbrev main_v227 : Ref sig .tc := ⟨.hbm, 282, rfl⟩
abbrev main_v228 : Ref sig .tc := ⟨.hbm, 283, rfl⟩
abbrev main_v229 : Ref sig .tc := ⟨.hbm, 284, rfl⟩
abbrev main_v230 : Ref sig .tc := ⟨.hbm, 285, rfl⟩
abbrev main_v231 : Ref sig .tc := ⟨.hbm, 286, rfl⟩
abbrev main_v232 : Ref sig .tc := ⟨.hbm, 287, rfl⟩
abbrev main_call2_cst : Ref sig .tc := ⟨.hbm, 288, rfl⟩
abbrev main_call2_v0 : Ref sig .tc := ⟨.hbm, 289, rfl⟩
abbrev main_v233 : Ref sig .tc := ⟨.hbm, 290, rfl⟩
abbrev main_v234 : Ref sig .tc := ⟨.hbm, 291, rfl⟩
abbrev main_c_37 : Ref sig .tc := ⟨.hbm, 292, rfl⟩
abbrev main_v235 : Ref sig .tc := ⟨.hbm, 293, rfl⟩
abbrev main_v236 : Ref sig .tc := ⟨.hbm, 294, rfl⟩
abbrev main_c_38 : Ref sig .tc := ⟨.hbm, 295, rfl⟩
abbrev main_v237 : Ref sig .tc := ⟨.hbm, 296, rfl⟩
abbrev main_v238 : Ref sig .tc := ⟨.hbm, 297, rfl⟩
abbrev main_v239 : Ref sig .tc := ⟨.hbm, 298, rfl⟩
abbrev main_v240 : Ref sig .tc := ⟨.hbm, 299, rfl⟩
abbrev main_v241 : Ref sig .tc := ⟨.hbm, 300, rfl⟩
abbrev main_v242 : Ref sig .tc := ⟨.hbm, 301, rfl⟩
abbrev main_v243 : Ref sig .tc := ⟨.hbm, 302, rfl⟩
abbrev main_cst_39 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_v250 : Ref sig .tc := ⟨.hbm, 310, rfl⟩
abbrev main_v251 : Ref sig .tc := ⟨.hbm, 311, rfl⟩
abbrev main_v252 : Ref sig .tc := ⟨.hbm, 312, rfl⟩
abbrev main_v253 : Ref sig .tc := ⟨.hbm, 313, rfl⟩
abbrev main_v254 : Ref sig .tc := ⟨.hbm, 314, rfl⟩
abbrev main_v255 : Ref sig .tc := ⟨.hbm, 315, rfl⟩
abbrev main_v256 : Ref sig .tc := ⟨.hbm, 316, rfl⟩
abbrev main_c_40 : Ref sig .tc := ⟨.hbm, 317, rfl⟩
abbrev main_v257 : Ref sig .tc := ⟨.hbm, 318, rfl⟩
abbrev main_v258 : Ref sig .tc := ⟨.hbm, 319, rfl⟩
abbrev main_c_41 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_v262 : Ref sig .tc := ⟨.hbm, 324, rfl⟩
abbrev main_v263 : Ref sig .tc := ⟨.hbm, 325, rfl⟩
abbrev main_cst_42 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_v267 : Ref sig .tc := ⟨.hbm, 330, rfl⟩
abbrev main_v268 : Ref sig .tc := ⟨.hbm, 331, rfl⟩
abbrev main_v269 : Ref sig .tc := ⟨.hbm, 332, rfl⟩
abbrev main_v270 : Ref sig .tc := ⟨.hbm, 333, rfl⟩
abbrev main_v271 : Ref sig .tc := ⟨.hbm, 334, rfl⟩
abbrev main_v272 : Ref sig .tc := ⟨.hbm, 335, rfl⟩
abbrev main_v273 : Ref sig .tc := ⟨.hbm, 336, rfl⟩
abbrev main_v274 : Ref sig .tc := ⟨.hbm, 337, rfl⟩
abbrev main_v275 : Ref sig .tc := ⟨.hbm, 338, rfl⟩
abbrev main_v276 : Ref sig .tc := ⟨.hbm, 339, rfl⟩
abbrev main_v277 : Ref sig .tc := ⟨.hbm, 340, rfl⟩
abbrev main_v278 : Ref sig .tc := ⟨.hbm, 341, rfl⟩
abbrev main_v279 : Ref sig .tc := ⟨.hbm, 342, rfl⟩
abbrev main_v280 : Ref sig .tc := ⟨.hbm, 343, rfl⟩
abbrev main_v281 : Ref sig .tc := ⟨.hbm, 344, rfl⟩
abbrev main_v282 : Ref sig .tc := ⟨.hbm, 345, rfl⟩
abbrev main_v283 : Ref sig .tc := ⟨.hbm, 346, rfl⟩
abbrev main_v284 : Ref sig .tc := ⟨.hbm, 347, rfl⟩
abbrev main_v285 : Ref sig .tc := ⟨.hbm, 348, rfl⟩
abbrev main_cst_43 : Ref sig .tc := ⟨.hbm, 349, rfl⟩
abbrev main_v286 : Ref sig .tc := ⟨.hbm, 350, rfl⟩
abbrev main_cst_44 : Ref sig .tc := ⟨.hbm, 351, rfl⟩
abbrev main_v287 : Ref sig .tc := ⟨.hbm, 352, rfl⟩
abbrev main_v288 : Ref sig .tc := ⟨.hbm, 353, rfl⟩
abbrev main_v289 : Ref sig .tc := ⟨.hbm, 354, rfl⟩
abbrev main_cst_45 : Ref sig .tc := ⟨.hbm, 355, rfl⟩
abbrev main_v290 : Ref sig .tc := ⟨.hbm, 356, rfl⟩
abbrev main_v291 : Ref sig .tc := ⟨.hbm, 357, rfl⟩
abbrev main_v292 : Ref sig .tc := ⟨.hbm, 358, rfl⟩
abbrev main_c_46 : Ref sig .tc := ⟨.hbm, 359, rfl⟩
abbrev main_v293 : Ref sig .tc := ⟨.hbm, 360, rfl⟩
abbrev main_v294 : Ref sig .tc := ⟨.hbm, 361, rfl⟩
abbrev main_c_47 : Ref sig .tc := ⟨.hbm, 362, rfl⟩
abbrev main_v295 : Ref sig .tc := ⟨.hbm, 363, rfl⟩
abbrev main_v296 : Ref sig .tc := ⟨.hbm, 364, rfl⟩
abbrev main_v297 : Ref sig .tc := ⟨.hbm, 365, rfl⟩
abbrev main_v298 : Ref sig .tc := ⟨.hbm, 366, rfl⟩
abbrev main_v299 : Ref sig .tc := ⟨.hbm, 367, rfl⟩
abbrev main_c_48 : Ref sig .tc := ⟨.hbm, 368, rfl⟩
abbrev main_v300 : Ref sig .tc := ⟨.hbm, 369, rfl⟩
abbrev main_v301 : Ref sig .tc := ⟨.hbm, 370, rfl⟩
abbrev main_c_49 : Ref sig .tc := ⟨.hbm, 371, rfl⟩
abbrev main_v302 : Ref sig .tc := ⟨.hbm, 372, rfl⟩
abbrev main_v303 : Ref sig .tc := ⟨.hbm, 373, rfl⟩
abbrev main_v304 : Ref sig .tc := ⟨.hbm, 374, rfl⟩
abbrev main_v305 : Ref sig .tc := ⟨.hbm, 375, rfl⟩
abbrev main_v306 : Ref sig .tc := ⟨.hbm, 376, rfl⟩
abbrev main_v307 : Ref sig .tc := ⟨.hbm, 377, rfl⟩
abbrev main_v308 : Ref sig .tc := ⟨.hbm, 378, rfl⟩
abbrev main_v309 : Ref sig .tc := ⟨.hbm, 379, rfl⟩
abbrev main_v310 : Ref sig .tc := ⟨.hbm, 380, rfl⟩
abbrev main_v311 : Ref sig .tc := ⟨.hbm, 381, rfl⟩
abbrev main_c_50 : Ref sig .tc := ⟨.hbm, 382, rfl⟩
abbrev main_v312 : Ref sig .tc := ⟨.hbm, 383, rfl⟩
abbrev main_v313 : Ref sig .tc := ⟨.hbm, 384, rfl⟩
abbrev main_c_51 : Ref sig .tc := ⟨.hbm, 385, rfl⟩
abbrev main_v314 : Ref sig .tc := ⟨.hbm, 386, rfl⟩
abbrev main_v315 : Ref sig .tc := ⟨.hbm, 387, rfl⟩
abbrev main_v316 : Ref sig .tc := ⟨.hbm, 388, rfl⟩
abbrev main_v317 : Ref sig .tc := ⟨.hbm, 389, rfl⟩
abbrev main_v318 : Ref sig .tc := ⟨.hbm, 390, rfl⟩
abbrev main_v319 : Ref sig .tc := ⟨.hbm, 391, rfl⟩
abbrev main_v320 : Ref sig .tc := ⟨.hbm, 392, rfl⟩
abbrev main_cst_52 : Ref sig .tc := ⟨.hbm, 393, rfl⟩
abbrev main_v321 : Ref sig .tc := ⟨.hbm, 394, rfl⟩
abbrev main_v322 : Ref sig .tc := ⟨.hbm, 395, rfl⟩
abbrev main_v323 : Ref sig .tc := ⟨.hbm, 396, rfl⟩
abbrev main_v324 : Ref sig .tc := ⟨.hbm, 397, rfl⟩
abbrev main_v325 : Ref sig .tc := ⟨.hbm, 398, rfl⟩
abbrev main_v326 : Ref sig .tc := ⟨.hbm, 399, rfl⟩
abbrev main_v327 : Ref sig .tc := ⟨.hbm, 400, rfl⟩
abbrev main_v328 : Ref sig .tc := ⟨.hbm, 401, rfl⟩
abbrev main_v329 : Ref sig .tc := ⟨.hbm, 402, rfl⟩
abbrev main_call3_cst : Ref sig .tc := ⟨.hbm, 403, rfl⟩
abbrev main_call3_v0 : Ref sig .tc := ⟨.hbm, 404, rfl⟩
abbrev main_v330 : Ref sig .tc := ⟨.hbm, 405, rfl⟩
abbrev main_v331 : Ref sig .tc := ⟨.hbm, 406, rfl⟩
abbrev main_c_53 : Ref sig .tc := ⟨.hbm, 407, rfl⟩
abbrev main_v332 : Ref sig .tc := ⟨.hbm, 408, rfl⟩
abbrev main_v333 : Ref sig .tc := ⟨.hbm, 409, rfl⟩
abbrev main_c_54 : Ref sig .tc := ⟨.hbm, 410, rfl⟩
abbrev main_v334 : Ref sig .tc := ⟨.hbm, 411, rfl⟩
abbrev main_v335 : Ref sig .tc := ⟨.hbm, 412, rfl⟩
abbrev main_v336 : Ref sig .tc := ⟨.hbm, 413, rfl⟩
abbrev main_v337 : Ref sig .tc := ⟨.hbm, 414, rfl⟩
abbrev main_v338 : Ref sig .tc := ⟨.hbm, 415, rfl⟩
abbrev main_v339 : Ref sig .tc := ⟨.hbm, 416, rfl⟩
abbrev main_v340 : Ref sig .tc := ⟨.hbm, 417, rfl⟩
abbrev main_cst_55 : Ref sig .tc := ⟨.hbm, 418, rfl⟩
abbrev main_v341 : Ref sig .tc := ⟨.hbm, 419, rfl⟩
abbrev main_v342 : Ref sig .tc := ⟨.hbm, 420, rfl⟩
abbrev main_v343 : Ref sig .tc := ⟨.hbm, 421, rfl⟩
abbrev main_v344 : Ref sig .tc := ⟨.hbm, 422, rfl⟩
abbrev main_v345 : Ref sig .tc := ⟨.hbm, 423, rfl⟩
abbrev main_v346 : Ref sig .tc := ⟨.hbm, 424, rfl⟩
abbrev main_v347 : Ref sig .tc := ⟨.hbm, 425, rfl⟩
abbrev main_v348 : Ref sig .tc := ⟨.hbm, 426, rfl⟩
abbrev main_v349 : Ref sig .tc := ⟨.hbm, 427, rfl⟩
abbrev main_v350 : Ref sig .tc := ⟨.hbm, 428, rfl⟩
abbrev main_v351 : Ref sig .tc := ⟨.hbm, 429, rfl⟩
abbrev main_v352 : Ref sig .tc := ⟨.hbm, 430, rfl⟩
abbrev main_v353 : Ref sig .tc := ⟨.hbm, 431, rfl⟩
abbrev main_c_56 : Ref sig .tc := ⟨.hbm, 432, rfl⟩
abbrev main_v354 : Ref sig .tc := ⟨.hbm, 433, rfl⟩
abbrev main_v355 : Ref sig .tc := ⟨.hbm, 434, rfl⟩
abbrev main_c_57 : Ref sig .tc := ⟨.hbm, 435, rfl⟩
abbrev main_v356 : Ref sig .tc := ⟨.hbm, 436, rfl⟩
abbrev main_v357 : Ref sig .tc := ⟨.hbm, 437, rfl⟩
abbrev main_v358 : Ref sig .tc := ⟨.hbm, 438, rfl⟩
abbrev main_v359 : Ref sig .tc := ⟨.hbm, 439, rfl⟩
abbrev main_v360 : Ref sig .tc := ⟨.hbm, 440, rfl⟩
abbrev main_cst_58 : Ref sig .tc := ⟨.hbm, 441, rfl⟩
abbrev main_v361 : Ref sig .tc := ⟨.hbm, 442, rfl⟩
abbrev main_v362 : Ref sig .tc := ⟨.hbm, 443, rfl⟩
abbrev main_v363 : Ref sig .tc := ⟨.hbm, 444, rfl⟩
abbrev main_v364 : Ref sig .tc := ⟨.hbm, 445, rfl⟩
abbrev main_v365 : Ref sig .tc := ⟨.hbm, 446, rfl⟩
abbrev main_v366 : Ref sig .tc := ⟨.hbm, 447, rfl⟩
abbrev main_v367 : Ref sig .tc := ⟨.hbm, 448, rfl⟩
abbrev main_v368 : Ref sig .tc := ⟨.hbm, 449, rfl⟩
abbrev main_v369 : Ref sig .tc := ⟨.hbm, 450, rfl⟩
abbrev main_v370 : Ref sig .tc := ⟨.hbm, 451, rfl⟩
abbrev main_v371 : Ref sig .tc := ⟨.hbm, 452, rfl⟩
abbrev main_v372 : Ref sig .tc := ⟨.hbm, 453, rfl⟩
abbrev main_call4_cst : Ref sig .tc := ⟨.hbm, 454, rfl⟩
abbrev main_call4_v0 : Ref sig .tc := ⟨.hbm, 455, rfl⟩
abbrev main_v373 : Ref sig .tc := ⟨.hbm, 456, rfl⟩
abbrev main_v374 : Ref sig .tc := ⟨.hbm, 457, rfl⟩
abbrev main_v375 : Ref sig .tc := ⟨.hbm, 458, rfl⟩
abbrev main_v376 : Ref sig .tc := ⟨.hbm, 459, rfl⟩
abbrev main_v377 : Ref sig .tc := ⟨.hbm, 460, rfl⟩
abbrev main_call5_cst : Ref sig .tc := ⟨.hbm, 461, rfl⟩
abbrev main_call5_v0 : Ref sig .tc := ⟨.hbm, 462, rfl⟩
abbrev main_v378 : Ref sig .tc := ⟨.hbm, 463, rfl⟩

abbrev nD : Nat := 1
abbrev τ : Topo := Topo.v7x

variable {F : FTy → Type} [FloatOps F]

class Facts₀ : Prop where
  slices_S4x200000x20_S1x200000x20_0_0_0 : S4x200000x20.Slices ![0, 0, 0] S1x200000x20
  shapeCasts_S1x200000x20_S200000x20 : S1x200000x20.ShapeCasts S200000x20
  slices_S4x2x3200000_S1x1x3200000_0_1_0 : S4x2x3200000.Slices ![0, 1, 0] S1x1x3200000
  shapeCasts_S1x1x3200000_S3200000 : S1x1x3200000.ShapeCasts S3200000
  slices_S4x2x3200000_S1x1x3200000_0_0_0 : S4x2x3200000.Slices ![0, 0, 0] S1x1x3200000
  slices_S4x20x32_S1x20x32_0_0_0 : S4x20x32.Slices ![0, 0, 0] S1x20x32
  shapeCasts_S1x20x32_S20x32 : S1x20x32.ShapeCasts S20x32
  slices_S4x32_S1x32_0_0 : S4x32.Slices ![0, 0] S1x32
  shapeCasts_S1x32_S32 : S1x32.ShapeCasts S32
  slices_S4x32x32_S1x32x32_0_0_0 : S4x32x32.Slices ![0, 0, 0] S1x32x32
  shapeCasts_S1x32x32_S32x32 : S1x32x32.ShapeCasts S32x32
  bcast_S_S3200000 : S_.BroadcastsInDim S3200000 (![] : Fin 0 → Fin S3200000.rank)
  bcast_S_S200000 : S_.BroadcastsInDim S200000 (![] : Fin 0 → Fin S200000.rank)
  bcast_S3200000_S3200000x1_0 : S3200000.BroadcastsInDim S3200000x1 (![0] : Fin 1 → Fin S3200000x1.rank)
  bcast_S200000_S200000x1_0 : S200000.BroadcastsInDim S200000x1 (![0] : Fin 1 → Fin S200000x1.rank)
  bcast_S3200000x1_S3200000x32_0_1 : S3200000x1.BroadcastsInDim S3200000x32 (![0, 1] : Fin 2 → Fin S3200000x32.rank)
  bcast_S_S200000x32 : S_.BroadcastsInDim S200000x32 (![] : Fin 0 → Fin S200000x32.rank)
  bcast_S200000x1_S200000x32_0_1 : S200000x1.BroadcastsInDim S200000x32 (![0, 1] : Fin 2 → Fin S200000x32.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  slices_S4x200000x20_S1x200000x20_1_0_0 : S4x200000x20.Slices ![1, 0, 0] S1x200000x20
  slices_S4x2x3200000_S1x1x3200000_1_1_0 : S4x2x3200000.Slices ![1, 1, 0] S1x1x3200000
  slices_S4x2x3200000_S1x1x3200000_1_0_0 : S4x2x3200000.Slices ![1, 0, 0] S1x1x3200000
  slices_S4x20x32_S1x20x32_1_0_0 : S4x20x32.Slices ![1, 0, 0] S1x20x32
  slices_S4x32_S1x32_1_0 : S4x32.Slices ![1, 0] S1x32
  slices_S4x32x32_S1x32x32_1_0_0 : S4x32x32.Slices ![1, 0, 0] S1x32x32
  slices_S4_S1_1 : S4.Slices ![1] S1
  shapeCasts_S1_S_ : S1.ShapeCasts S_
  slices_S4x200000x20_S1x200000x20_2_0_0 : S4x200000x20.Slices ![2, 0, 0] S1x200000x20
  slices_S4x2x3200000_S1x1x3200000_2_1_0 : S4x2x3200000.Slices ![2, 1, 0] S1x1x3200000
  slices_S4x2x3200000_S1x1x3200000_2_0_0 : S4x2x3200000.Slices ![2, 0, 0] S1x1x3200000
  slices_S4x20x32_S1x20x32_2_0_0 : S4x20x32.Slices ![2, 0, 0] S1x20x32
  slices_S4x32_S1x32_2_0 : S4x32.Slices ![2, 0] S1x32
  slices_S4x32x32_S1x32x32_2_0_0 : S4x32x32.Slices ![2, 0, 0] S1x32x32
  slices_S4_S1_2 : S4.Slices ![2] S1
  slices_S4x200000x20_S1x200000x20_3_0_0 : S4x200000x20.Slices ![3, 0, 0] S1x200000x20
  slices_S4x2x3200000_S1x1x3200000_3_1_0 : S4x2x3200000.Slices ![3, 1, 0] S1x1x3200000
  slices_S4x2x3200000_S1x1x3200000_3_0_0 : S4x2x3200000.Slices ![3, 0, 0] S1x1x3200000
  slices_S4x20x32_S1x20x32_3_0_0 : S4x20x32.Slices ![3, 0, 0] S1x20x32
  slices_S4x32_S1x32_3_0 : S4x32.Slices ![3, 0] S1x32
  slices_S4x32x32_S1x32x32_3_0_0 : S4x32x32.Slices ![3, 0, 0] S1x32x32
  slices_S4_S1_3 : S4.Slices ![3] S1
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  scatter_S200000_S3200000x1_S3200000_n_0_0_1_wf : ScatterDims.WF S200000 S3200000x1 S3200000 [] [0] [0] 1
  gather_S200000_S3200000x1_S3200000_n_0_n_n_0_1_1_wf : GatherDims.WF S200000 S3200000x1 S3200000 [] [0] [] [0] [] 1 ![1]
  dot_S200000x20_S20x32_S200000x32_1_0_0_1_n_n_wf : DotDims.WF S200000x20 S20x32 S200000x32 [1] [0] [0] [1] [] []
  gather_S200000x32_S3200000x1_S3200000x32_1_0_n_n_0_1_132_wf : GatherDims.WF S200000x32 S3200000x1 S3200000x32 [1] [0] [] [0] [] 1 ![1, 32]
  scatter_S200000x32_S3200000x1_S3200000x32_1_0_0_1_wf : ScatterDims.WF S200000x32 S3200000x1 S3200000x32 [1] [0] [0] 1
  dot_S200000x32_S32x32_S200000x32_1_0_0_1_n_n_wf : DotDims.WF S200000x32 S32x32 S200000x32 [1] [0] [0] [1] [] []
  dot_S200000x32_S32x64_S200000x64_1_0_0_1_n_n_wf : DotDims.WF S200000x32 S32x64 S200000x64 [1] [0] [0] [1] [] []
  dot_S200000x64_S64x32_S200000x32_1_0_0_1_n_n_wf : DotDims.WF S200000x64 S64x32 S200000x32 [1] [0] [0] [1] [] []

variable [Facts₀]

def scatter_S200000_S3200000x1_S3200000_n_0_0_1 : ScatterDims S200000 S3200000x1 S3200000 where
  updateWindowDims := []
  insertedWindowDims := [0]
  scatterDimsToOperandDims := [0]
  indexVectorDim := 1
  wf := scatter_S200000_S3200000x1_S3200000_n_0_0_1_wf
def gather_S200000_S3200000x1_S3200000_n_0_n_n_0_1_1 : GatherDims S200000 S3200000x1 S3200000 where
  offsetDims := []
  collapsedSliceDims := [0]
  operandBatchingDims := []
  startIndicesBatchingDims := []
  startIndexMap := [0]
  indexVectorDim := 1
  sliceSizes := ![1]
  wf := gather_S200000_S3200000x1_S3200000_n_0_n_n_0_1_1_wf
def dot_S200000x20_S20x32_S200000x32_1_0_0_1_n_n : DotDims S200000x20 S20x32 S200000x32 where
  lhsContracting := [1]
  rhsContracting := [0]
  lhsNonContracting := [0]
  rhsNonContracting := [1]
  lhsBatch := []
  rhsBatch := []
  wf := dot_S200000x20_S20x32_S200000x32_1_0_0_1_n_n_wf
def gather_S200000x32_S3200000x1_S3200000x32_1_0_n_n_0_1_132 : GatherDims S200000x32 S3200000x1 S3200000x32 where
  offsetDims := [1]
  collapsedSliceDims := [0]
  operandBatchingDims := []
  startIndicesBatchingDims := []
  startIndexMap := [0]
  indexVectorDim := 1
  sliceSizes := ![1, 32]
  wf := gather_S200000x32_S3200000x1_S3200000x32_1_0_n_n_0_1_132_wf
def scatter_S200000x32_S3200000x1_S3200000x32_1_0_0_1 : ScatterDims S200000x32 S3200000x1 S3200000x32 where
  updateWindowDims := [1]
  insertedWindowDims := [0]
  scatterDimsToOperandDims := [0]
  indexVectorDim := 1
  wf := scatter_S200000x32_S3200000x1_S3200000x32_1_0_0_1_wf
def dot_S200000x32_S32x32_S200000x32_1_0_0_1_n_n : DotDims S200000x32 S32x32 S200000x32 where
  lhsContracting := [1]
  rhsContracting := [0]
  lhsNonContracting := [0]
  rhsNonContracting := [1]
  lhsBatch := []
  rhsBatch := []
  wf := dot_S200000x32_S32x32_S200000x32_1_0_0_1_n_n_wf
def dot_S200000x32_S32x64_S200000x64_1_0_0_1_n_n : DotDims S200000x32 S32x64 S200000x64 where
  lhsContracting := [1]
  rhsContracting := [0]
  lhsNonContracting := [0]
  rhsNonContracting := [1]
  lhsBatch := []
  rhsBatch := []
  wf := dot_S200000x32_S32x64_S200000x64_1_0_0_1_n_n_wf
def dot_S200000x64_S64x32_S200000x32_1_0_0_1_n_n : DotDims S200000x64 S64x32 S200000x32 where
  lhsContracting := [1]
  rhsContracting := [0]
  lhsNonContracting := [0]
  rhsNonContracting := [1]
  lhsBatch := []
  rhsBatch := []
  wf := dot_S200000x64_S64x32_S200000x32_1_0_0_1_n_n_wf

class Facts : Prop extends Facts₀ where

variable [Facts]
-- ==== Proof.RefChunks.lean ====
import proofs.«135273_j69758858821831_1_alg».proof.Proof.RefReadP
import Idealize.ShloMosaic.Lib.StableHlo.Run

/-!
# The reference's host operations, chunk by chunk

The reference is one straight line of 452 host operations, printed as eight parts of about sixty. Read as ONE term of the
arguments its result opens every shared intermediate (a degree vector, a coefficient, a layer's features) into a tree.
Chunk by chunk it stays a graph: each part is cut into short lists (a called rectifier's three operations a chunk of
their own, a dense product the last operation of its chunk), a part is the concatenation of its chunks and the whole the
concatenation of the parts, `U j` is the buffers' contents before chunk `j`, and a buffer that crosses a boundary is
named by its stage. A chunk leaves alone every buffer that is not the result of one of its operations.
-/

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Running two lines one after the other is running their concatenation. -/
theorem after_append {τ' : Topo} {sig' : RefSig} {Val : EltTy → Type} (A B : List (HloOp τ' sig' Val)) (V : Valuation τ' sig' Val) :
    after (A ++ B) V = after B (after A V) := by
  induction A generalizing V with
  | nil => rfl
  | cons op A ih => exact ih _

/-- Chunk 0: operations 0 … 7. -/
abbrev Q0 : List (HloOp τ sig (Elt F)) :=
  [ unary main_arg0 main_v0 ((extractStridedSlice S1x200000x20 ![0, 0, 0] · slices_S4x200000x20_S1x200000x20_0_0_0) : (⟨S4x200000x20, .f32⟩ : BufTy).Contents (Elt F) → (⟨S1x200000x20, .f32⟩ : BufTy).Contents (Elt F)),
    reshape main_v0 main_v1 rfl shapeCasts_S1x200000x20_S200000x20,
    unary main_arg1 main_v2 ((extractStridedSlice S1x1x3200000 ![0, 1, 0] · slices_S4x2x3200000_S1x1x3200000_0_1_0) : (⟨S4x2x3200000, .i32⟩ : BufTy).Contents (Elt F) → (⟨S1x1x3200000, .i32⟩ : BufTy).Contents (Elt F)),
    reshape main_v2 main_v3 rfl shapeCasts_S1x1x3200000_S3200000,
    unary main_arg1 main_v4 ((extractStridedSlice S1x1x3200000 ![0, 0, 0] · slices_S4x2x3200000_S1x1x3200000_0_0_0) : (⟨S4x2x3200000, .i32⟩ : BufTy).Contents (Elt F) → (⟨S1x1x3200000, .i32⟩ : BufTy).Contents (Elt F)),
    reshape main_v4 main_v5 rfl shapeCasts_S1x1x3200000_S3200000,
    unary main_arg4 main_v6 ((extractStridedSlice S1x20x32 ![0, 0, 0] · slices_S4x20x32_S1x20x32_0_0_0) : (⟨S4x20x32, .f32⟩ : BufTy).Contents (Elt F) → (⟨S1x20x32, .f32⟩ : BufTy).Contents (Elt F)),
    reshape main_v6 main_v7 rfl shapeCasts_S1x20x32_S20x32 ]
set_option maxRecDepth 8192 in
theorem Q0_sub : (Q0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub ..⟩
theorem Q0_fresh : (Q0 : List (HloOp τ sig (Elt F))).Forall fun op => op.fresh = ∅ := by
  simp only [List.Forall]; repeat' constructor
/-- The chunk writes only its operations' result buffers. -/
theorem Q0_untouched (V : Valuation τ sig (Elt F)) (b : Ref sig .tc)
    (hb : b ∉ ([main_v0, main_v1, main_v2, main_v3, main_v4, main_v5, main_v6, main_v7] : List (Ref sig .tc))) :
    after (Q0 (F := F)) V (Proc.devRef .tc b) = V (Proc.devRef .tc b) :=
  StableHlo.after_of_forall_not_mem (b := Proc.devRef .tc b) _ _ (List.forall_iff_forall_mem.mp (by
    simp only [Q0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 1: operations 8 … 23. -/
abbrev Q1 : List (HloOp τ sig (Elt F)) :=
  [ unary main_arg5 main_v8 ((extractStridedSlice S1x32 ![0, 0] · slices_S4x32_S1x32_0_0) : (⟨S4x32, .f32⟩ : BufTy).Contents (Elt F) → (⟨S1x32, .f32⟩ : BufTy).Contents (Elt F)),
    reshape main_v8 main_v9 rfl shapeCasts_S1x32_S32,
    unary main_arg6 main_v10 ((extractStridedSlice S1x32x32 ![0, 0, 0] · slices_S4x32x32_S1x32x32_0_0_0) : (⟨S4x32x32, .f32⟩ : BufTy).Contents (Elt F) → (⟨S1x32x32, .f32⟩ : BufTy).Contents (Elt F)),
    reshape main_v10 main_v11 rfl shapeCasts_S1x32x32_S32x32,
    unary main_arg7 main_v12 ((extractStridedSlice S1x32 ![0, 0] · slices_S4x32_S1x32_0_0) : (⟨S4x32, .f32⟩ : BufTy).Contents (Elt F) → (⟨S1x32, .f32⟩ : BufTy).Contents (Elt F)),
    reshape main_v12 main_v13 rfl shapeCasts_S1x32_S32,
    nullary main_cst (constant S_ .f32 0x3F800000#32),
    unary main_cst main_v14 (broadcastInDim S3200000 ![] bcast_S_S3200000 : (⟨S_, .f32⟩ : BufTy).Contents (Elt F) → (⟨S3200000, .f32⟩ : BufTy).Contents (Elt F)),
    nullary main_cst_0 (constant S_ .f32 0x00000000#32),
    unary main_cst_0 main_v15 (broadcastInDim S200000 ![] bcast_S_S200000 : (⟨S_, .f32⟩ : BufTy).Contents (Elt F) → (⟨S200000, .f32⟩ : BufTy).Contents (Elt F)),
    unary main_v5 main_v16 (broadcastInDim S3200000x1 ![0] bcast_S3200000_S3200000x1_0 : (⟨S3200000, .i32⟩ : BufTy).Contents (Elt F) → (⟨S3200000x1, .i32⟩ : BufTy).Contents (Elt F)),
    ternary main_v15 main_v16 main_v14 main_v17 ((fun x i u => Host.scatterAdd scatter_S200000_S3200000x1_S3200000_n_0_0_1 x i u) : (⟨S200000, .f32⟩ : BufTy).Contents (Elt F) → (⟨S3200000x1, .i32⟩ : BufTy).Contents (Elt F) → (⟨S3200000, .f32⟩ : BufTy).Contents (Elt F) → (⟨S200000, .f32⟩ : BufTy).Contents (Elt F)),
    nullary main_cst_1 (constant S_ .f32 0x3F800000#32),
    unary main_cst_1 main_v18 (broadcastInDim S200000 ![] bcast_S_S200000 : (⟨S_, .f32⟩ : BufTy).Contents (Elt F) → (⟨S200000, .f32⟩ : BufTy).Contents (Elt F)),
    binary main_v17 main_v18 main_v19 (addf : (⟨S200000, .f32⟩ : BufTy).Contents (Elt F) → (⟨S200000, .f32⟩ : BufTy).Contents (Elt F) → (⟨S200000, .f32⟩ : BufTy).Contents (Elt F)),
    unary main_v19 main_v20 (Host.rsqrt : (⟨S200000, .f32⟩ : BufTy).Contents (Elt F) → (⟨S200000, .f32⟩ : BufTy).Contents (Elt F)) ]
set_option maxRecDepth 8192 in
theorem Q1_sub : (Q1 : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub ..⟩
theorem Q1_fresh : (Q1 : List (HloOp τ sig (Elt F))).Forall fun op => op.fresh = ∅ := by
  simp only [List.Forall]; repeat' constructor
/-- The chunk writes only its operations' result buffers. -/
theorem Q1_untouched (V : Valuation τ sig (Elt F)) (b : Ref sig .tc)
    (hb : b ∉ ([main_v8, main_v9, main_v10, main_v11, main_v12, main_v13, main_cst, main_v14, main_cst_0, main_v15, main_v16, main_v17, main_cst_1, main_v18, main_v19, main_v20] : List (Ref sig .tc))) :
    after (Q1 (F := F)) V (Proc.devRef .tc b) = V (Proc.devRef .tc b) :=
  StableHlo.after_of_forall_not_mem (b := Proc.devRef .tc b) _ _ (List.forall_iff_forall_mem.mp (by
    simp only [Q1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 2: operations 24 … 32. -/
abbrev Q2 : List (HloOp τ sig (Elt F)) :=
  [ nullary main_c (constantI S_ 32 0#32),
    unary main_c main_v21 (broadcastInDim S3200000 ![] bcast_S_S3200000 : (⟨S_, .i32⟩ : BufTy).Contents (Elt F) → (⟨S3200000, .i32⟩ : BufTy).Contents (Elt F)),
    binary main_v3 main_v21 main_v22 (cmpi .slt : (⟨S3200000, .i32⟩ : BufTy).Contents (Elt F) → (⟨S3200000, .i32⟩ : BufTy).Contents (Elt F) → (⟨S3200000, .i1⟩ : BufTy).Contents (Elt F)),
    nullary main_c_2 (constantI S_ 32 200000#32),
    unary main_c_2 main_v23 (broadcastInDim S3200000 ![] bcast_S_S3200000 : (⟨S_, .i32⟩ : BufTy).Contents (Elt F) → (⟨S3200000, .i32⟩ : BufTy).Contents (Elt F)),
    binary main_v3 main_v23 main_v24 (addi : (⟨S3200000, .i32⟩ : BufTy).Contents (Elt F) → (⟨S3200000, .i32⟩ : BufTy).Contents (Elt F) → (⟨S3200000, .i32⟩ : BufTy).Contents (Elt F)),
    ternary main_v22 main_v24 main_v3 main_v25 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v25 main_v26 (broadcastInDim S3200000x1 ![0] bcast_S3200000_S3200000x1_0 : (⟨S3200000, .i32⟩ : BufTy).Contents (Elt F) → (⟨S3200000x1, .i32⟩ : BufTy).Contents (Elt F)),
    binary main_v20 main_v26 main_v27 ((fun x i => Host.gather gather_S200000_S3200000x1_S3200000_n_0_n_n_0_1_1 x i) : (⟨S200000, .f32⟩ : BufTy).Contents (Elt F) → (⟨S3200000x1, .i32⟩ : BufTy).Contents (Elt F) → (⟨S3200000, .f32⟩ : BufTy).Contents (Elt F)) ]
set_option maxRecDepth 8192 in
theorem Q2_sub : (Q2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem Q2_fresh : (Q2 : List (HloOp τ sig (Elt F))).Forall fun op => op.fresh = ∅ := by
  simp only [List.Forall]; repeat' constructor
/-- The chunk writes only its operations' result buffers. -/
theorem Q2_untouched (V : Valuation τ sig (Elt F)) (b : Ref sig .tc)
    (hb : b ∉ ([main_c, main_v21, main_v22, main_c_2, main_v23, main_v24, main_v25, main_v26, main_v27] : List (Ref sig .tc))) :
    after (Q2 (F := F)) V (Proc.devRef .tc b) = V (Proc.devRef .tc b) :=
  StableHlo.after_of_forall_not_mem (b := Proc.devRef .tc b) _ _ (List.forall_iff_forall_mem.mp (by
    simp only [Q2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 3: operations 33 … 45. -/
abbrev Q3 : List (HloOp τ sig (Elt F)) :=
  [ nullary main_c_3 (constantI S_ 32 0#32),
    unary main_c_3 main_v28 (broadcastInDim S3200000 ![] bcast_S_S3200000 : (⟨S_, .i32⟩ : BufTy).Contents (Elt F) → (⟨S3200000, .i32⟩ : BufTy).Contents (Elt F)),
    binary main_v5 main_v28 main_v29 (cmpi .slt : (⟨S3200000, .i32⟩ : BufTy).Contents (Elt F) → (⟨S3200000, .i32⟩ : BufTy).Contents (Elt F) → (⟨S3200000, .i1⟩ : BufTy).Contents (Elt F)),
    nullary main_c_4 (constantI S_ 32 200000#32),
    unary main_c_4 main_v30 (broadcastInDim S3200000 ![] bcast_S_S3200000 : (⟨S_, .i32⟩ : BufTy).Contents (Elt F) → (⟨S3200000, .i32⟩ : BufTy).Contents (Elt F)),
    binary main_v5 main_v30 main_v31 (addi : (⟨S3200000, .i32⟩ : BufTy).Contents (Elt F) → (⟨S3200000, .i32⟩ : BufTy).Contents (Elt F) → (⟨S3200000, .i32⟩ : BufTy).Contents (Elt F)),
    ternary main_v29 main_v31 main_v5 main_v32 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v32 main_v33 (broadcastInDim S3200000x1 ![0] bcast_S3200000_S3200000x1_0 : (⟨S3200000, .i32⟩ : BufTy).Contents (Elt F) → (⟨S3200000x1, .i32⟩ : BufTy).Contents (Elt F)),
    binary main_v20 main_v33 main_v34 ((fun x i => Host.gather gather_S200000_S3200000x1_S3200000_n_0_n_n_0_1_1 x i) : (⟨S200000, .f32⟩ : BufTy).Contents (Elt F) → (⟨S3200000x1, .i32⟩ : BufTy).Contents (Elt F) → (⟨S3200000, .f32⟩ : BufTy).Contents (Elt F)),
    binary main_v27 main_v34 main_v35 (mulf : (⟨S3200000, .f32⟩ : BufTy).Contents (Elt F) → (⟨S3200000, .f32⟩ : BufTy).Contents (Elt F) → (⟨S3200000, .f32⟩ : BufTy).Contents (Elt F)),
    unary main_v35 main_v36 (broadcastInDim S3200000x1 ![0] bcast_S3200000_S3200000x1_0 : (⟨S3200000, .f32⟩ : BufTy).Contents (Elt F) → (⟨S3200000x1, .f32⟩ : BufTy).Contents (Elt F)),
    binary main_v20 main_v20 main_v37 (mulf : (⟨S200000, .f32⟩ : BufTy).Contents (Elt F) → (⟨S200000, .f32⟩ : BufTy).Contents (Elt F) → (⟨S200000, .f32⟩ : BufTy).Contents (Elt F)),
    unary main_v37 main_v38 (broadcastInDim S200000x1 ![0] bcast_S200000_S200000x1_0 : (⟨S200000, .f32⟩ : BufTy).Contents (Elt F) → (⟨S200000x1, .f32⟩ : BufTy).Contents (Elt F)) ]
set_option maxRecDepth 8192 in
theorem Q3_sub : (Q3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub ..⟩
theorem Q3_fresh : (Q3 : List (HloOp τ sig (Elt F))).Forall fun op => op.fresh = ∅ := by
  simp only [List.Forall]; repeat' constructor
/-- The chunk writes only its operations' result buffers. -/
theorem Q3_untouched (V : Valuation τ sig (Elt F)) (b : Ref sig .tc)
    (hb : b ∉ ([main_c_3, main_v28, main_v29, main_c_4, main_v30, main_v31, main_v32, main_v33, main_v34, main_v35, main_v36, main_v37, main_v38] : List (Ref sig .tc))) :
    after (Q3 (F := F)) V (Proc.devRef .tc b) = V (Proc.devRef .tc b) :=
  StableHlo.after_of_forall_not_mem (b := Proc.devRef .tc b) _ _ (List.forall_iff_forall_mem.mp (by
    simp only [Q3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 4: operations 46 … 46. -/
abbrev Q4 : List (HloOp τ sig (Elt F)) :=
  [ binary main_v1 main_v7 main_v39 ((fun l r => Host.dotGeneral dot_S200000x20_S20x32_S200000x32_1_0_0_1_n_n none l r) : (⟨S200000x20, .f32⟩ : BufTy).Contents (Elt F) → (⟨S20x32, .f32⟩ : BufTy).Contents (Elt F) → (⟨S200000x32, .f32⟩ : BufTy).Contents (Elt F)) ]
set_option maxRecDepth 8192 in
theorem Q4_sub : (Q4 : List (HloOp τ sig (Elt F))).Forall fun op => op.bufs ⊆ tcRefs τ sig :=
  binary_bufs_sub ..
theorem Q4_fresh : (Q4 : List (HloOp τ sig (Elt F))).Forall fun op => op.fresh = ∅ := by
  simp only [List.Forall]; repeat' constructor
/-- The chunk writes only its operations' result buffers. -/
theorem Q4_untouched (V : Valuation τ sig (Elt F)) (b : Ref sig .tc)
    (hb : b ∉ ([main_v39] : List (Ref sig .tc))) :
    after (Q4 (F := F)) V (Proc.devRef .tc b) = V (Proc.devRef .tc b) :=
  StableHlo.after_of_forall_not_mem (b := Proc.devRef .tc b) _ _ (List.forall_iff_forall_mem.mp (by
    simp only [Q4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 5: operations 47 … 59. -/
abbrev Q5 : List (HloOp τ sig (Elt F)) :=
  [ nullary main_c_5 (constantI S_ 32 0#32),
    unary main_c_5 main_v40 (broadcastInDim S3200000 ![] bcast_S_S3200000 : (⟨S_, .i32⟩ : BufTy).Contents (Elt F) → (⟨S3200000, .i32⟩ : BufTy).Contents (Elt F)),
    binary main_v3 main_v40 main_v41 (cmpi .slt : (⟨S3200000, .i32⟩ : BufTy).Contents (Elt F) → (⟨S3200000, .i32⟩ : BufTy).Contents (Elt F) → (⟨S3200000, .i1⟩ : BufTy).Contents (Elt F)),
    nullary main_c_6 (constantI S_ 32 200000#32),
    unary main_c_6 main_v42 (broadcastInDim S3200000 ![] bcast_S_S3200000 : (⟨S_, .i32⟩ : BufTy).Contents (Elt F) → (⟨S3200000, .i32⟩ : BufTy).Contents (Elt F)),
    binary main_v3 main_v42 main_v43 (addi : (⟨S3200000, .i32⟩ : BufTy).Contents (Elt F) → (⟨S3200000, .i32⟩ : BufTy).Contents (Elt F) → (⟨S3200000, .i32⟩ : BufTy).Contents (Elt F)),
    ternary main_v41 main_v43 main_v3 main_v44 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v44 main_v45 (broadcastInDim S3200000x1 ![0] bcast_S3200000_S3200000x1_0 : (⟨S3200000, .i32⟩ : BufTy).Contents (Elt F) → (⟨S3200000x1, .i32⟩ : BufTy).Contents (Elt F)),
    binary main_v39 main_v45 main_v46 ((fun x i => Host.gather gather_S200000x32_S3200000x1_S3200000x32_1_0_n_n_0_1_132 x i) : (⟨S200000x32, .f32⟩ : BufTy).Contents (Elt F) → (⟨S3200000x1, .i32⟩ : BufTy).Contents (Elt F) → (⟨S3200000x32, .f32⟩ : BufTy).Contents (Elt F)),
    unary main_v36 main_v47 (broadcastInDim S3200000x32 ![0, 1] bcast_S3200000x1_S3200000x32_0_1 : (⟨S3200000x1, .f32⟩ : BufTy).Contents (Elt F) → (⟨S3200000x32, .f32⟩ : BufTy).Contents (Elt F)),
    binary main_v46 main_v47 main_v48 (mulf : (⟨S3200000x32, .f32⟩ : BufTy).Contents (Elt F) → (⟨S3200000x32, .f32⟩ : BufTy).Contents (Elt F) → (⟨S3200000x32, .f32⟩ : BufTy).Contents (Elt F)),
    nullary main_cst_7 (constant S_ .f32 0x00000000#32),
    unary main_cst_7 main_v49 (broadcastInDim S200000x32 ![] bcast_S_S200000x32 : (⟨S_, .f32⟩ : BufTy).Contents (Elt F) → (⟨S200000x32, .f32⟩ : BufTy).Contents (Elt F)) ]
set_option maxRecDepth 8192 in
theorem Q5_sub : (Q5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub ..⟩
theorem Q5_fresh : (Q5 : List (HloOp τ sig (Elt F))).Forall fun op => op.fresh = ∅ := by
  simp only [List.Forall]; repeat' constructor
/-- The chunk writes only its operations' result buffers. -/
theorem Q5_untouched (V : Valuation τ sig (Elt F)) (b : Ref sig .tc)
    (hb : b ∉ ([main_c_5, main_v40, main_v41, main_c_6, main_v42, main_v43, main_v44, main_v45, main_v46, main_v47, main_v48, main_cst_7, main_v49] : List (Ref sig .tc))) :
    after (Q5 (F := F)) V (Proc.devRef .tc b) = V (Proc.devRef .tc b) :=
  StableHlo.after_of_forall_not_mem (b := Proc.devRef .tc b) _ _ (List.forall_iff_forall_mem.mp (by
    simp only [Q5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 6: operations 60 … 67. -/
abbrev Q6 : List (HloOp τ sig (Elt F)) :=
  [ unary main_v5 main_v50 (broadcastInDim S3200000x1 ![0] bcast_S3200000_S3200000x1_0 : (⟨S3200000, .i32⟩ : BufTy).Contents (Elt F) → (⟨S3200000x1, .i32⟩ : BufTy).Contents (Elt F)),
    ternary main_v49 main_v50 main_v48 main_v51 ((fun x i u => Host.scatterAdd scatter_S200000x32_S3200000x1_S3200000x32_1_0_0_1 x i u) : (⟨S200000x32, .f32⟩ : BufTy).Contents (Elt F) → (⟨S3200000x1, .i32⟩ : BufTy).Contents (Elt F) → (⟨S3200000x32, .f32⟩ : BufTy).Contents (Elt F) → (⟨S200000x32, .f32⟩ : BufTy).Contents (Elt F)),
    unary main_v38 main_v52 (broadcastInDim S200000x32 ![0, 1] bcast_S200000x1_S200000x32_0_1 : (⟨S200000x1, .f32⟩ : BufTy).Contents (Elt F) → (⟨S200000x32, .f32⟩ : BufTy).Contents (Elt F)),
    binary main_v39 main_v52 main_v53 (mulf : (⟨S200000x32, .f32⟩ : BufTy).Contents (Elt F) → (⟨S200000x32, .f32⟩ : BufTy).Contents (Elt F) → (⟨S200000x32, .f32⟩ : BufTy).Contents (Elt F)),
    binary main_v51 main_v53 main_v54 (addf : (⟨S200000x32, .f32⟩ : BufTy).Contents (Elt F) → (⟨S200000x32, .f32⟩ : BufTy).Contents (Elt F) → (⟨S200000x32, .f32⟩ : BufTy).Contents (Elt F)),
    unary main_v9 main_v55 (broadcastInDim S1x32 ![1] bcast_S32_S1x32_1 : (⟨S32, .f32⟩ : BufTy).Contents (Elt F) → (⟨S1x32, .f32⟩ : BufTy).Contents (Elt F)),
    unary main_v55 main_v56 (broadcastInDim S200000x32 ![0, 1] bcast_S1x32_S200000x32_0_1 : (⟨S1x32, .f32⟩ : BufTy).Contents (Elt F) → (⟨S200000x32, .f32⟩ : BufTy).Contents (Elt F)),
    binary main_v54 main_v56 main_v57 (addf : (⟨S200000x32, .f32⟩ : BufTy).Contents (Elt F) → (⟨S200000x32, .f32⟩ : BufTy).Contents (Elt F) → (⟨S200000x32, .f32⟩ : BufTy).Contents (Elt F)) ]
set_option maxRecDepth 8192 in
theorem Q6_sub : (Q6 : List (HloOp τ sig (Elt F))).Forall fun op => op.bufs ⊆ tcRefs τ sig :=
  ⟨unary_bufs_sub .., ternary_bufs_sub .., unary_bufs_sub .., binary_bufs_sub .., binary_bufs_sub .., unary_bufs_sub .., unary_bufs_sub .., binary_bufs_sub ..⟩
theorem Q6_fresh : (Q6 : List (HloOp τ sig (Elt F))).Forall fun op => op.fresh = ∅ := by
  simp only [List.Forall]; repeat' constructor
/-- The chunk writes only its operations' result buffers. -/
theorem Q6_untouched (V : Valuation τ sig (Elt F)) (b : Ref sig .tc)
    (hb : b ∉ ([main_v50, main_v51, main_v52, main_v53, main_v54, main_v55, main_v56, main_v57] : List (Ref sig .tc))) :
    after (Q6 (F := F)) V (Proc.devRef .tc b) = V (Proc.devRef .tc b) :=
  StableHlo.after_of_forall_not_mem (b := Proc.devRef .tc b) _ _ (List.forall_iff_forall_mem.mp (by
    simp only [Q6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 7: operations 68 … 70. -/
abbrev Q7 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S200000x32, .f32⟩) main_call0_v0) (broadcastInDim S200000x32 ![] bcast_S_S200000x32),
    TRef.binary (TRef.of (T := ⟨S200000x32, .f32⟩) main_v57) (TRef.of (T := ⟨S200000x32, .f32⟩) main_call0_v0) (TRef.of (T := ⟨S200000x32, .f32⟩) main_v58) maximumf ]
set_option maxRecDepth 8192 in
theorem Q7_sub : (Q7 : List (HloOp τ sig (Elt F))).Forall fun op => op.bufs ⊆ tcRefs τ sig :=
  ⟨nullary_bufs_sub .., unary_bufs_sub .., binary_bufs_sub ..⟩
theorem Q7_fresh : (Q7 : List (HloOp τ sig (Elt F))).Forall fun op => op.fresh = ∅ := by
  simp only [List.Forall]; repeat' constructor
/-- The chunk writes only its operations' result buffers. -/
theorem Q7_untouched (V : Valuation τ sig (Elt F)) (b : Ref sig .tc)
    (hb : b ∉ ([main_call0_cst, main_call0_v0, main_v58] : List (Ref sig .tc))) :
    after (Q7 (F := F)) V (Proc.devRef .tc b) = V (Proc.devRef .tc b) :=
  StableHlo.after_of_forall_not_mem (b := Proc.devRef .tc b) _ _ (List.forall_iff_forall_mem.mp (by
    simp only [Q7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 8: operations 71 … 71. -/
abbrev Q8 : List (HloOp τ sig (Elt F)) :=
  [ binary main_v58 main_v11 main_v59 ((fun l r => Host.dotGeneral dot_S200000x32_S32x32_S200000x32_1_0_0_1_n_n none l r) : (⟨S200000x32, .f32⟩ : BufTy).Contents (Elt F) → (⟨S32x32, .f32⟩ : BufTy).Contents (Elt F) → (⟨S200000x32, .f32⟩ : BufTy).Contents (Elt F)) ]
set_option maxRecDepth 8192 in
theorem Q8_sub : (Q8 : List (HloOp τ sig (Elt F))).Forall fun op => op.bufs ⊆ tcRefs τ sig :=
  binary_bufs_sub ..
theorem Q8_fresh : (Q8 : List (HloOp τ sig (Elt F))).Forall fun op => op.fresh = ∅ := by
  simp only [List.Forall]; repeat' constructor
/-- The chunk writes only its operations' result buffers. -/
theorem Q8_untouched (V : Valuation τ sig (Elt F)) (b : Ref sig .tc)
    (hb : b ∉ ([main_v59] : List (Ref sig .tc))) :
    after (Q8 (F := F)) V (Proc.devRef .tc b) = V (Proc.devRef .tc b) :=
  StableHlo.after_of_forall_not_mem (b := Proc.devRef .tc b) _ _ (List.forall_iff_forall_mem.mp (by
    simp only [Q8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 9: operations 72 … 87. -/
abbrev Q9 : List (HloOp τ sig (Elt F)) :=
  [ nullary main_c_8 (constantI S_ 32 0#32),
    unary main_c_8 main_v60 (broadcastInDim S3200000 ![] bcast_S_S3200000 : (⟨S_, .i32⟩ : BufTy).Contents (Elt F) → (⟨S3200000, .i32⟩ : BufTy).Contents (Elt F)),
    binary main_v3 main_v60 main_v61 (cmpi .slt : (⟨S3200000, .i32⟩ : BufTy).Contents (Elt F) → (⟨S3200000, .i32⟩ : BufTy).Contents (Elt F) → (⟨S3200000, .i1⟩ : BufTy).Contents (Elt F)),
    nullary main_c_9 (constantI S_ 32 200000#32),
    unary main_c_9 main_v62 (broadcastInDim S3200000 ![] bcast_S_S3200000 : (⟨S_, .i32⟩ : BufTy).Contents (Elt F) → (⟨S3200000, .i32⟩ : BufTy).Contents (Elt F)),
    binary main_v3 main_v62 main_v63 (addi : (⟨S3200000, .i32⟩ : BufTy).Contents (Elt F) → (⟨S3200000, .i32⟩ : BufTy).Contents (Elt F) → (⟨S3200000, .i32⟩ : BufTy).Contents (Elt F)),
    ternary main_v61 main_v63 main_v3 main_v64 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v64 main_v65 (broadcastInDim S3200000x1 ![0] bcast_S3200000_S3200000x1_0 : (⟨S3200000, .i32⟩ : BufTy).Contents (Elt F) → (⟨S3200000x1, .i32⟩ : BufTy).Contents (Elt F)),
    binary main_v59 main_v65 main_v66 ((fun x i => Host.gather gather_S200000x32_S3200000x1_S3200000x32_1_0_n_n_0_1_132 x i) : (⟨S200000x32, .f32⟩ : BufTy).Contents (Elt F) → (⟨S3200000x1, .i32⟩ : BufTy).Contents (Elt F) → (⟨S3200000x32, .f32⟩ : BufTy).Contents (Elt F)),
    unary main_v36 main_v67 (broadcastInDim S3200000x32 ![0, 1] bcast_S3200000x1_S3200000x32_0_1 : (⟨S3200000x1, .f32⟩ : BufTy).Contents (Elt F) → (⟨S3200000x32, .f32⟩ : BufTy).Contents (Elt F)),
    binary main_v66 main_v67 main_v68 (mulf : (⟨S3200000x32, .f32⟩ : BufTy).Contents (Elt F) → (⟨S3200000x32, .f32⟩ : BufTy).Contents (Elt F) → (⟨S3200000x32, .f32⟩ : BufTy).Contents (Elt F)),
    nullary main_cst_10 (constant S_ .f32 0x00000000#32),
    unary main_cst_10 main_v69 (broadcastInDim S200000x32 ![] bcast_S_S200000x32 : (⟨S_, .f32⟩ : BufTy).Contents (Elt F) → (⟨S200000x32, .f32⟩ : BufTy).Contents (Elt F)),
    unary main_v5 main_v70 (broadcastInDim S3200000x1 ![0] bcast_S3200000_S3200000x1_0 : (⟨S3200000, .i32⟩ : BufTy).Contents (Elt F) → (⟨S3200000x1, .i32⟩ : BufTy).Contents (Elt F)),
    ternary main_v69 main_v70 main_v68 main_v71 ((fun x i u => Host.scatterAdd scatter_S200000x32_S3200000x1_S3200000x32_1_0_0_1 x i u) : (⟨S200000x32, .f32⟩ : BufTy).Contents (Elt F) → (⟨S3200000x1, .i32⟩ : BufTy).Contents (Elt F) → (⟨S3200000x32, .f32⟩ : BufTy).Contents (Elt F) → (⟨S200000x32, .f32⟩ : BufTy).Contents (Elt F)),
    unary main_v38 main_v72 (broadcastInDim S200000x32 ![0, 1] bcast_S200000x1_S200000x32_0_1 : (⟨S200000x1, .f32⟩ : BufTy).Contents (Elt F) → (⟨S200000x32, .f32⟩ : BufTy).Contents (Elt F)) ]
set_option maxRecDepth 8192 in
theorem Q9_sub : (Q9 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub ..⟩
theorem Q9_fresh : (Q9 : List (HloOp τ sig (Elt F))).Forall fun op => op.fresh = ∅ := by
  simp only [List.Forall]; repeat' constructor
/-- The chunk writes only its operations' result buffers. -/
theorem Q9_untouched (V : Valuation τ sig (Elt F)) (b : Ref sig .tc)
    (hb : b ∉ ([main_c_8, main_v60, main_v61, main_c_9, main_v62, main_v63, main_v64, main_v65, main_v66, main_v67, main_v68, main_cst_10, main_v69, main_v70, main_v71, main_v72] : List (Ref sig .tc))) :
    after (Q9 (F := F)) V (Proc.devRef .tc b) = V (Proc.devRef .tc b) :=
  StableHlo.after_of_forall_not_mem (b := Proc.devRef .tc b) _ _ (List.forall_iff_forall_mem.mp (by
    simp only [Q9, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 10: operations 88 … 96. -/
abbrev Q10 : List (HloOp τ sig (Elt F)) :=
  [ binary main_v59 main_v72 main_v73 (mulf : (⟨S200000x32, .f32⟩ : BufTy).Contents (Elt F) → (⟨S200000x32, .f32⟩ : BufTy).Contents (Elt F) → (⟨S200000x32, .f32⟩ : BufTy).Contents (Elt F)),
    binary main_v71 main_v73 main_v74 (addf : (⟨S200000x32, .f32⟩ : BufTy).Contents (Elt F) → (⟨S200000x32, .f32⟩ : BufTy).Contents (Elt F) → (⟨S200000x32, .f32⟩ : BufTy).Contents (Elt F)),
    unary main_v13 main_v75 (broadcastInDim S1x32 ![1] bcast_S32_S1x32_1 : (⟨S32, .f32⟩ : BufTy).Contents (Elt F) → (⟨S1x32, .f32⟩ : BufTy).Contents (Elt F)),
    unary main_v75 main_v76 (broadcastInDim S200000x32 ![0, 1] bcast_S1x32_S200000x32_0_1 : (⟨S1x32, .f32⟩ : BufTy).Contents (Elt F) → (⟨S200000x32, .f32⟩ : BufTy).Contents (Elt F)),
    binary main_v74 main_v76 main_v77 (addf : (⟨S200000x32, .f32⟩ : BufTy).Contents (Elt F) → (⟨S200000x32, .f32⟩ : BufTy).Contents (Elt F) → (⟨S200000x32, .f32⟩ : BufTy).Contents (Elt F)),
    unary main_arg0 main_v78 ((extractStridedSlice S1x200000x20 ![1, 0, 0] · slices_S4x200000x20_S1x200000x20_1_0_0) : (⟨S4x200000x20, .f32⟩ : BufTy).Contents (Elt F) → (⟨S1x200000x20, .f32⟩ : BufTy).Contents (Elt F)),
    reshape main_v78 main_v79 rfl shapeCasts_S1x200000x20_S200000x20,
    unary main_arg1 main_v80 ((extractStridedSlice S1x1x3200000 ![1, 1, 0] · slices_S4x2x3200000_S1x1x3200000_1_1_0) : (⟨S4x2x3200000, .i32⟩ : BufTy).Contents (Elt F) → (⟨S1x1x3200000, .i32⟩ : BufTy).Contents (Elt F)),
    reshape main_v80 main_v81 rfl shapeCasts_S1x1x3200000_S3200000 ]
set_option maxRecDepth 8192 in
theorem Q10_sub : (Q10 : List (HloOp τ sig (Elt F))).Forall fun op => op.bufs ⊆ tcRefs τ sig :=
  ⟨binary_bufs_sub .., binary_bufs_sub .., unary_bufs_sub .., unary_bufs_sub .., binary_bufs_sub .., unary_bufs_sub .., reshape_bufs_sub .., unary_bufs_sub .., reshape_bufs_sub ..⟩
theorem Q10_fresh : (Q10 : List (HloOp τ sig (Elt F))).Forall fun op => op.fresh = ∅ := by
  simp only [List.Forall]; repeat' constructor
/-- The chunk writes only its operations' result buffers. -/
theorem Q10_untouched (V : Valuation τ sig (Elt F)) (b : Ref sig .tc)
    (hb : b ∉ ([main_v73, main_v74, main_v75, main_v76, main_v77, main_v78, main_v79, main_v80, main_v81] : List (Ref sig .tc))) :
    after (Q10 (F := F)) V (Proc.devRef .tc b) = V (Proc.devRef .tc b) :=
  StableHlo.after_of_forall_not_mem (b := Proc.devRef .tc b) _ _ (List.forall_iff_forall_mem.mp (by
    simp only [Q10, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 11: operations 97 … 104. -/
abbrev Q11 : List (HloOp τ sig (Elt F)) :=
  [ unary main_arg1 main_v82 ((extractStridedSlice S1x1x3200000 ![1, 0, 0] · slices_S4x2x3200000_S1x1x3200000_1_0_0) : (⟨S4x2x3200000, .i32⟩ : BufTy).Contents (Elt F) → (⟨S1x1x3200000, .i32⟩ : BufTy).Contents (Elt F)),
    reshape main_v82 main_v83 rfl shapeCasts_S1x1x3200000_S3200000,
    unary main_arg4 main_v84 ((extractStridedSlice S1x20x32 ![1, 0, 0] · slices_S4x20x32_S1x20x32_1_0_0) : (⟨S4x20x32, .f32⟩ : BufTy).Contents (Elt F) → (⟨S1x20x32, .f32⟩ : BufTy).Contents (Elt F)),
    reshape main_v84 main_v85 rfl shapeCasts_S1x20x32_S20x32,
    unary main_arg5 main_v86 ((extractStridedSlice S1x32 ![1, 0] · slices_S4x32_S1x32_1_0) : (⟨S4x32, .f32⟩ : BufTy).Contents (Elt F) → (⟨S1x32, .f32⟩ : BufTy).Contents (Elt F)),
    reshape main_v86 main_v87 rfl shapeCasts_S1x32_S32,
    unary main_arg6 main_v88 ((extractStridedSlice S1x32x32 ![1, 0, 0] · slices_S4x32x32_S1x32x32_1_0_0) : (⟨S4x32x32, .f32⟩ : BufTy).Contents (Elt F) → (⟨S1x32x32, .f32⟩ : BufTy).Contents (Elt F)),
    reshape main_v88 main_v89 rfl shapeCasts_S1x32x32_S32x32 ]
set_option maxRecDepth 8192 in
theorem Q11_sub : (Q11 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub ..⟩
theorem Q11_fresh : (Q11 : List (HloOp τ sig (Elt F))).Forall fun op => op.fresh = ∅ := by
  simp only [List.Forall]; repeat' constructor
/-- The chunk writes only its operations' result buffers. -/
theorem Q11_untouched (V : Valuation τ sig (Elt F)) (b : Ref sig .tc)
    (hb : b ∉ ([main_v82, main_v83, main_v84, main_v85, main_v86, main_v87, main_v88, main_v89] : List (Ref sig .tc))) :
    after (Q11 (F := F)) V (Proc.devRef .tc b) = V (Proc.devRef .tc b) :=
  StableHlo.after_of_forall_not_mem (b := Proc.devRef .tc b) _ _ (List.forall_iff_forall_mem.mp (by
    simp only [Q11, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 12: operations 105 … 116. -/
abbrev Q12 : List (HloOp τ sig (Elt F)) :=
  [ unary main_arg7 main_v90 ((extractStridedSlice S1x32 ![1, 0] · slices_S4x32_S1x32_1_0) : (⟨S4x32, .f32⟩ : BufTy).Contents (Elt F) → (⟨S1x32, .f32⟩ : BufTy).Contents (Elt F)),
    reshape main_v90 main_v91 rfl shapeCasts_S1x32_S32,
    nullary main_cst_11 (constant S_ .f32 0x3F800000#32),
    unary main_cst_11 main_v92 (broadcastInDim S3200000 ![] bcast_S_S3200000 : (⟨S_, .f32⟩ : BufTy).Contents (Elt F) → (⟨S3200000, .f32⟩ : BufTy).Contents (Elt F)),
    nullary main_cst_12 (constant S_ .f32 0x00000000#32),
    unary main_cst_12 main_v93 (broadcastInDim S200000 ![] bcast_S_S200000 : (⟨S_, .f32⟩ : BufTy).Contents (Elt F) → (⟨S200000, .f32⟩ : BufTy).Contents (Elt F)),
    unary main_v83 main_v94 (broadcastInDim S3200000x1 ![0] bcast_S3200000_S3200000x1_0 : (⟨S3200000, .i32⟩ : BufTy).Contents (Elt F) → (⟨S3200000x1, .i32⟩ : BufTy).Contents (Elt F)),
    ternary main_v93 main_v94 main_v92 main_v95 ((fun x i u => Host.scatterAdd scatter_S200000_S3200000x1_S3200000_n_0_0_1 x i u) : (⟨S200000, .f32⟩ : BufTy).Contents (Elt F) → (⟨S3200000x1, .i32⟩ : BufTy).Contents (Elt F) → (⟨S3200000, .f32⟩ : BufTy).Contents (Elt F) → (⟨S200000, .f32⟩ : BufTy).Contents (Elt F)),
    nullary main_cst_13 (constant S_ .f32 0x3F800000#32),
    unary main_cst_13 main_v96 (broadcastInDim S200000 ![] bcast_S_S200000 : (⟨S_, .f32⟩ : BufTy).Contents (Elt F) → (⟨S200000, .f32⟩ : BufTy).Contents (Elt F)),
    binary main_v95 main_v96 main_v97 (addf : (⟨S200000, .f32⟩ : BufTy).Contents (Elt F) → (⟨S200000, .f32⟩ : BufTy).Contents (Elt F) → (⟨S200000, .f32⟩ : BufTy).Contents (Elt F)),
    unary main_v97 main_v98 (Host.rsqrt : (⟨S200000, .f32⟩ : BufTy).Contents (Elt F) → (⟨S200000, .f32⟩ : BufTy).Contents (Elt F)) ]
set_option maxRecDepth 8192 in
theorem Q12_sub : (Q12 : List (HloOp τ sig (Elt F))).Forall fun op => op.bufs ⊆ tcRefs τ sig :=
  ⟨unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub ..⟩
theorem Q12_fresh : (Q12 : List (HloOp τ sig (Elt F))).Forall fun op => op.fresh = ∅ := by
  simp only [List.Forall]; repeat' constructor
/-- The chunk writes only its operations' result buffers. -/
theorem Q12_untouched (V : Valuation τ sig (Elt F)) (b : Ref sig .tc)
    (hb : b ∉ ([main_v90, main_v91, main_cst_11, main_v92, main_cst_12, main_v93, main_v94, main_v95, main_cst_13, main_v96, main_v97, main_v98] : List (Ref sig .tc))) :
    after (Q12 (F := F)) V (Proc.devRef .tc b) = V (Proc.devRef .tc b) :=
  StableHlo.after_of_forall_not_mem (b := Proc.devRef .tc b) _ _ (List.forall_iff_forall_mem.mp (by
    simp only [Q12, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 13: operations 117 … 121. -/
abbrev Q13 : List (HloOp τ sig (Elt F)) :=
  [ nullary main_c_14 (constantI S_ 32 0#32),
    unary main_c_14 main_v99 (broadcastInDim S3200000 ![] bcast_S_S3200000 : (⟨S_, .i32⟩ : BufTy).Contents (Elt F) → (⟨S3200000, .i32⟩ : BufTy).Contents (Elt F)),
    binary main_v81 main_v99 main_v100 (cmpi .slt : (⟨S3200000, .i32⟩ : BufTy).Contents (Elt F) → (⟨S3200000, .i32⟩ : BufTy).Contents (Elt F) → (⟨S3200000, .i1⟩ : BufTy).Contents (Elt F)),
    nullary main_c_15 (constantI S_ 32 200000#32),
    unary main_c_15 main_v101 (broadcastInDim S3200000 ![] bcast_S_S3200000 : (⟨S_, .i32⟩ : BufTy).Contents (Elt F) → (⟨S3200000, .i32⟩ : BufTy).Contents (Elt F)) ]
set_option maxRecDepth 8192 in
theorem Q13_sub : (Q13 : List (HloOp τ sig (Elt F))).Forall fun op => op.bufs ⊆ tcRefs τ sig :=
  ⟨nullary_bufs_sub .., unary_bufs_sub .., binary_bufs_sub .., nullary_bufs_sub .., unary_bufs_sub ..⟩
theorem Q13_fresh : (Q13 : List (HloOp τ sig (Elt F))).Forall fun op => op.fresh = ∅ := by
  simp only [List.Forall]; repeat' constructor
/-- The chunk writes only its operations' result buffers. -/
theorem Q13_untouched (V : Valuation τ sig (Elt F)) (b : Ref sig .tc)
    (hb : b ∉ ([main_c_14, main_v99, main_v100, main_c_15, main_v101] : List (Ref sig .tc))) :
    after (Q13 (F := F)) V (Proc.devRef .tc b) = V (Proc.devRef .tc b) :=
  StableHlo.after_of_forall_not_mem (b := Proc.devRef .tc b) _ _ (List.forall_iff_forall_mem.mp (by
    simp only [Q13, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 14: operations 122 … 137. -/
abbrev Q14 : List (HloOp τ sig (Elt F)) :=
  [ binary main_v81 main_v101 main_v102 (addi : (⟨S3200000, .i32⟩ : BufTy).Contents (Elt F) → (⟨S3200000, .i32⟩ : BufTy).Contents (Elt F) → (⟨S3200000, .i32⟩ : BufTy).Contents (Elt F)),
    ternary main_v100 main_v102 main_v81 main_v103 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v103 main_v104 (broadcastInDim S3200000x1 ![0] bcast_S3200000_S3200000x1_0 : (⟨S3200000, .i32⟩ : BufTy).Contents (Elt F) → (⟨S3200000x1, .i32⟩ : BufTy).Contents (Elt F)),
    binary main_v98 main_v104 main_v105 ((fun x i => Host.gather gather_S200000_S3200000x1_S3200000_n_0_n_n_0_1_1 x i) : (⟨S200000, .f32⟩ : BufTy).Contents (Elt F) → (⟨S3200000x1, .i32⟩ : BufTy).Contents (Elt F) → (⟨S3200000, .f32⟩ : BufTy).Contents (Elt F)),
    nullary main_c_16 (constantI S_ 32 0#32),
    unary main_c_16 main_v106 (broadcastInDim S3200000 ![] bcast_S_S3200000 : (⟨S_, .i32⟩ : BufTy).Contents (Elt F) → (⟨S3200000, .i32⟩ : BufTy).Contents (Elt F)),
    binary main_v83 main_v106 main_v107 (cmpi .slt : (⟨S3200000, .i32⟩ : BufTy).Contents (Elt F) → (⟨S3200000, .i32⟩ : BufTy).Contents (Elt F) → (⟨S3200000, .i1⟩ : BufTy).Contents (Elt F)),
    nullary main_c_17 (constantI S_ 32 200000#32),
    unary main_c_17 main_v108 (broadcastInDim S3200000 ![] bcast_S_S3200000 : (⟨S_, .i32⟩ : BufTy).Contents (Elt F) → (⟨S3200000, .i32⟩ : BufTy).Contents (Elt F)),
    binary main_v83 main_v108 main_v109 (addi : (⟨S3200000, .i32⟩ : BufTy).Contents (Elt F) → (⟨S3200000, .i32⟩ : BufTy).Contents (Elt F) → (⟨S3200000, .i32⟩ : BufTy).Contents (Elt F)),
    ternary main_v107 main_v109 main_v83 main_v110 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v110 main_v111 (broadcastInDim S3200000x1 ![0] bcast_S3200000_S3200000x1_0 : (⟨S3200000, .i32⟩ : BufTy).Contents (Elt F) → (⟨S3200000x1, .i32⟩ : BufTy).Contents (Elt F)),
    binary main_v98 main_v111 main_v112 ((fun x i => Host.gather gather_S200000_S3200000x1_S3200000_n_0_n_n_0_1_1 x i) : (⟨S200000, .f32⟩ : BufTy).Contents (Elt F) → (⟨S3200000x1, .i32⟩ : BufTy).Contents (Elt F) → (⟨S3200000, .f32⟩ : BufTy).Contents (Elt F)),
    binary main_v105 main_v112 main_v113 (mulf : (⟨S3200000, .f32⟩ : BufTy).Contents (Elt F) → (⟨S3200000, .f32⟩ : BufTy).Contents (Elt F) → (⟨S3200000, .f32⟩ : BufTy).Contents (Elt F)),
    unary main_v113 main_v114 (broadcastInDim S3200000x1 ![0] bcast_S3200000_S3200000x1_0 : (⟨S3200000, .f32⟩ : BufTy).Contents (Elt F) → (⟨S3200000x1, .f32⟩ : BufTy).Contents (Elt F)),
    binary main_v98 main_v98 main_v115 (mulf : (⟨S200000, .f32⟩ : BufTy).Contents (Elt F) → (⟨S200000, .f32⟩ : BufTy).Contents (Elt F) → (⟨S200000, .f32⟩ : BufTy).Contents (Elt F)) ]
set_option maxRecDepth 8192 in
theorem Q14_sub : (Q14 : List (HloOp τ sig (Elt F))).Forall fun op => op.bufs ⊆ tcRefs τ sig :=
  ⟨binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub ..⟩
theorem Q14_fresh : (Q14 : List (HloOp τ sig (Elt F))).Forall fun op => op.fresh = ∅ := by
  simp only [List.Forall]; repeat' constructor
/-- The chunk writes only its operations' result buffers. -/
theorem Q14_untouched (V : Valuation τ sig (Elt F)) (b : Ref sig .tc)
    (hb : b ∉ ([main_v102, main_v103, main_v104, main_v105, main_c_16, main_v106, main_v107, main_c_17, main_v108, main_v109, main_v110, main_v111, main_v112, main_v113, main_v114, main_v115] : List (Ref sig .tc))) :
    after (Q14 (F := F)) V (Proc.devRef .tc b) = V (Proc.devRef .tc b) :=
  StableHlo.after_of_forall_not_mem (b := Proc.devRef .tc b) _ _ (List.forall_iff_forall_mem.mp (by
    simp only [Q14, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 15: operations 138 … 138. -/
abbrev Q15 : List (HloOp τ sig (Elt F)) :=
  [ unary main_v115 main_v116 (broadcastInDim S200000x1 ![0] bcast_S200000_S200000x1_0 : (⟨S200000, .f32⟩ : BufTy).Contents (Elt F) → (⟨S200000x1, .f32⟩ : BufTy).Contents (Elt F)) ]
set_option maxRecDepth 8192 in
theorem Q15_sub : (Q15 : List (HloOp τ sig (Elt F))).Forall fun op => op.bufs ⊆ tcRefs τ sig :=
  unary_bufs_sub ..
theorem Q15_fresh : (Q15 : List (HloOp τ sig (Elt F))).Forall fun op => op.fresh = ∅ := by
  simp only [List.Forall]; repeat' constructor
/-- The chunk writes only its operations' result buffers. -/
theorem Q15_untouched (V : Valuation τ sig (Elt F)) (b : Ref sig .tc)
    (hb : b ∉ ([main_v116] : List (Ref sig .tc))) :
    after (Q15 (F := F)) V (Proc.devRef .tc b) = V (Proc.devRef .tc b) :=
  StableHlo.after_of_forall_not_mem (b := Proc.devRef .tc b) _ _ (List.forall_iff_forall_mem.mp (by
    simp only [Q15, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 16: operations 139 … 139. -/
abbrev Q16 : List (HloOp τ sig (Elt F)) :=
  [ binary main_v79 main_v85 main_v117 ((fun l r => Host.dotGeneral dot_S200000x20_S20x32_S200000x32_1_0_0_1_n_n none l r) : (⟨S200000x20, .f32⟩ : BufTy).Contents (Elt F) → (⟨S20x32, .f32⟩ : BufTy).Contents (Elt F) → (⟨S200000x32, .f32⟩ : BufTy).Contents (Elt F)) ]
set_option maxRecDepth 8192 in
theorem Q16_sub : (Q16 : List (HloOp τ sig (Elt F))).Forall fun op => op.bufs ⊆ tcRefs τ sig :=
  binary_bufs_sub ..
theorem Q16_fresh : (Q16 : List (HloOp τ sig (Elt F))).Forall fun op => op.fresh = ∅ := by
  simp only [List.Forall]; repeat' constructor
/-- The chunk writes only its operations' result buffers. -/
theorem Q16_untouched (V : Valuation τ sig (Elt F)) (b : Ref sig .tc)
    (hb : b ∉ ([main_v117] : List (Ref sig .tc))) :
    after (Q16 (F := F)) V (Proc.devRef .tc b) = V (Proc.devRef .tc b) :=
  StableHlo.after_of_forall_not_mem (b := Proc.devRef .tc b) _ _ (List.forall_iff_forall_mem.mp (by
    simp only [Q16, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 17: operations 140 … 154. -/
abbrev Q17 : List (HloOp τ sig (Elt F)) :=
  [ nullary main_c_18 (constantI S_ 32 0#32),
    unary main_c_18 main_v118 (broadcastInDim S3200000 ![] bcast_S_S3200000 : (⟨S_, .i32⟩ : BufTy).Contents (Elt F) → (⟨S3200000, .i32⟩ : BufTy).Contents (Elt F)),
    binary main_v81 main_v118 main_v119 (cmpi .slt : (⟨S3200000, .i32⟩ : BufTy).Contents (Elt F) → (⟨S3200000, .i32⟩ : BufTy).Contents (Elt F) → (⟨S3200000, .i1⟩ : BufTy).Contents (Elt F)),
    nullary main_c_19 (constantI S_ 32 200000#32),
    unary main_c_19 main_v120 (broadcastInDim S3200000 ![] bcast_S_S3200000 : (⟨S_, .i32⟩ : BufTy).Contents (Elt F) → (⟨S3200000, .i32⟩ : BufTy).Contents (Elt F)),
    binary main_v81 main_v120 main_v121 (addi : (⟨S3200000, .i32⟩ : BufTy).Contents (Elt F) → (⟨S3200000, .i32⟩ : BufTy).Contents (Elt F) → (⟨S3200000, .i32⟩ : BufTy).Contents (Elt F)),
    ternary main_v119 main_v121 main_v81 main_v122 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v122 main_v123 (broadcastInDim S3200000x1 ![0] bcast_S3200000_S3200000x1_0 : (⟨S3200000, .i32⟩ : BufTy).Contents (Elt F) → (⟨S3200000x1, .i32⟩ : BufTy).Contents (Elt F)),
    binary main_v117 main_v123 main_v124 ((fun x i => Host.gather gather_S200000x32_S3200000x1_S3200000x32_1_0_n_n_0_1_132 x i) : (⟨S200000x32, .f32⟩ : BufTy).Contents (Elt F) → (⟨S3200000x1, .i32⟩ : BufTy).Contents (Elt F) → (⟨S3200000x32, .f32⟩ : BufTy).Contents (Elt F)),
    unary main_v114 main_v125 (broadcastInDim S3200000x32 ![0, 1] bcast_S3200000x1_S3200000x32_0_1 : (⟨S3200000x1, .f32⟩ : BufTy).Contents (Elt F) → (⟨S3200000x32, .f32⟩ : BufTy).Contents (Elt F)),
    binary main_v124 main_v125 main_v126 (mulf : (⟨S3200000x32, .f32⟩ : BufTy).Contents (Elt F) → (⟨S3200000x32, .f32⟩ : BufTy).Contents (Elt F) → (⟨S3200000x32, .f32⟩ : BufTy).Contents (Elt F)),
    nullary main_cst_20 (constant S_ .f32 0x00000000#32),
    unary main_cst_20 main_v127 (broadcastInDim S200000x32 ![] bcast_S_S200000x32 : (⟨S_, .f32⟩ : BufTy).Contents (Elt F) → (⟨S200000x32, .f32⟩ : BufTy).Contents (Elt F)),
    unary main_v83 main_v128 (broadcastInDim S3200000x1 ![0] bcast_S3200000_S3200000x1_0 : (⟨S3200000, .i32⟩ : BufTy).Contents (Elt F) → (⟨S3200000x1, .i32⟩ : BufTy).Contents (Elt F)),
    ternary main_v127 main_v128 main_v126 main_v129 ((fun x i u => Host.scatterAdd scatter_S200000x32_S3200000x1_S3200000x32_1_0_0_1 x i u) : (⟨S200000x32, .f32⟩ : BufTy).Contents (Elt F) → (⟨S3200000x1, .i32⟩ : BufTy).Contents (Elt F) → (⟨S3200000x32, .f32⟩ : BufTy).Contents (Elt F) → (⟨S200000x32, .f32⟩ : BufTy).Contents (Elt F)) ]
set_option maxRecDepth 8192 in
theorem Q17_sub : (Q17 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem Q17_fresh : (Q17 : List (HloOp τ sig (Elt F))).Forall fun op => op.fresh = ∅ := by
  simp only [List.Forall]; repeat' constructor
/-- The chunk writes only its operations' result buffers. -/
theorem Q17_untouched (V : Valuation τ sig (Elt F)) (b : Ref sig .tc)
    (hb : b ∉ ([main_c_18, main_v118, main_v119, main_c_19, main_v120, main_v121, main_v122, main_v123, main_v124, main_v125, main_v126, main_cst_20, main_v127, main_v128, main_v129] : List (Ref sig .tc))) :
    after (Q17 (F := F)) V (Proc.devRef .tc b) = V (Proc.devRef .tc b) :=
  StableHlo.after_of_forall_not_mem (b := Proc.devRef .tc b) _ _ (List.forall_iff_forall_mem.mp (by
    simp only [Q17, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 18: operations 155 … 160. -/
abbrev Q18 : List (HloOp τ sig (Elt F)) :=
  [ unary main_v116 main_v130 (broadcastInDim S200000x32 ![0, 1] bcast_S200000x1_S200000x32_0_1 : (⟨S200000x1, .f32⟩ : BufTy).Contents (Elt F) → (⟨S200000x32, .f32⟩ : BufTy).Contents (Elt F)),
    binary main_v117 main_v130 main_v131 (mulf : (⟨S200000x32, .f32⟩ : BufTy).Contents (Elt F) → (⟨S200000x32, .f32⟩ : BufTy).Contents (Elt F) → (⟨S200000x32, .f32⟩ : BufTy).Contents (Elt F)),
    binary main_v129 main_v131 main_v132 (addf : (⟨S200000x32, .f32⟩ : BufTy).Contents (Elt F) → (⟨S200000x32, .f32⟩ : BufTy).Contents (Elt F) → (⟨S200000x32, .f32⟩ : BufTy).Contents (Elt F)),
    unary main_v87 main_v133 (broadcastInDim S1x32 ![1] bcast_S32_S1x32_1 : (⟨S32, .f32⟩ : BufTy).Contents (Elt F) → (⟨S1x32, .f32⟩ : BufTy).Contents (Elt F)),
    unary main_v133 main_v134 (broadcastInDim S200000x32 ![0, 1] bcast_S1x32_S200000x32_0_1 : (⟨S1x32, .f32⟩ : BufTy).Contents (Elt F) → (⟨S200000x32, .f32⟩ : BufTy).Contents (Elt F)),
    binary main_v132 main_v134 main_v135 (addf : (⟨S200000x32, .f32⟩ : BufTy).Contents (Elt F) → (⟨S200000x32, .f32⟩ : BufTy).Contents (Elt F) → (⟨S200000x32, .f32⟩ : BufTy).Contents (Elt F)) ]
set_option maxRecDepth 8192 in
theorem Q18_sub : (Q18 : List (HloOp τ sig (Elt F))).Forall fun op => op.bufs ⊆ tcRefs τ sig :=
  ⟨unary_bufs_sub .., binary_bufs_sub .., binary_bufs_sub .., unary_bufs_sub .., unary_bufs_sub .., binary_bufs_sub ..⟩
theorem Q18_fresh : (Q18 : List (HloOp τ sig (Elt F))).Forall fun op => op.fresh = ∅ := by
  simp only [List.Forall]; repeat' constructor
/-- The chunk writes only its operations' result buffers. -/
theorem Q18_untouched (V : Valuation τ sig (Elt F)) (b : Ref sig .tc)
    (hb : b ∉ ([main_v130, main_v131, main_v132, main_v133, main_v134, main_v135] : List (Ref sig .tc))) :
    after (Q18 (F := F)) V (Proc.devRef .tc b) = V (Proc.devRef .tc b) :=
  StableHlo.after_of_forall_not_mem (b := Proc.devRef .tc b) _ _ (List.forall_iff_forall_mem.mp (by
    simp only [Q18, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 19: operations 161 … 163. -/
abbrev Q19 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S200000x32, .f32⟩) main_call1_v0) (broadcastInDim S200000x32 ![] bcast_S_S200000x32),
    TRef.binary (TRef.of (T := ⟨S200000x32, .f32⟩) main_v135) (TRef.of (T := ⟨S200000x32, .f32⟩) main_call1_v0) (TRef.of (T := ⟨S200000x32, .f32⟩) main_v136) maximumf ]
set_option maxRecDepth 8192 in
theorem Q19_sub : (Q19 : List (HloOp τ sig (Elt F))).Forall fun op => op.bufs ⊆ tcRefs τ sig :=
  ⟨nullary_bufs_sub .., unary_bufs_sub .., binary_bufs_sub ..⟩
theorem Q19_fresh : (Q19 : List (HloOp τ sig (Elt F))).Forall fun op => op.fresh = ∅ := by
  simp only [List.Forall]; repeat' constructor
/-- The chunk writes only its operations' result buffers. -/
theorem Q19_untouched (V : Valuation τ sig (Elt F)) (b : Ref sig .tc)
    (hb : b ∉ ([main_call1_cst, main_call1_v0, main_v136] : List (Ref sig .tc))) :
    after (Q19 (F := F)) V (Proc.devRef .tc b) = V (Proc.devRef .tc b) :=
  StableHlo.after_of_forall_not_mem (b := Proc.devRef .tc b) _ _ (List.forall_iff_forall_mem.mp (by
    simp only [Q19, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 20: operations 164 … 164. -/
abbrev Q20 : List (HloOp τ sig (Elt F)) :=
  [ binary main_v136 main_v89 main_v137 ((fun l r => Host.dotGeneral dot_S200000x32_S32x32_S200000x32_1_0_0_1_n_n none l r) : (⟨S200000x32, .f32⟩ : BufTy).Contents (Elt F) → (⟨S32x32, .f32⟩ : BufTy).Contents (Elt F) → (⟨S200000x32, .f32⟩ : BufTy).Contents (Elt F)) ]
set_option maxRecDepth 8192 in
theorem Q20_sub : (Q20 : List (HloOp τ sig (Elt F))).Forall fun op => op.bufs ⊆ tcRefs τ sig :=
  binary_bufs_sub ..
theorem Q20_fresh : (Q20 : List (HloOp τ sig (Elt F))).Forall fun op => op.fresh = ∅ := by
  simp only [List.Forall]; repeat' constructor
/-- The chunk writes only its operations' result buffers. -/
theorem Q20_untouched (V : Valuation τ sig (Elt F)) (b : Ref sig .tc)
    (hb : b ∉ ([main_v137] : List (Ref sig .tc))) :
    after (Q20 (F := F)) V (Proc.devRef .tc b) = V (Proc.devRef .tc b) :=
  StableHlo.after_of_forall_not_mem (b := Proc.devRef .tc b) _ _ (List.forall_iff_forall_mem.mp (by
    simp only [Q20, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 21: operations 165 … 180. -/
abbrev Q21 : List (HloOp τ sig (Elt F)) :=
  [ nullary main_c_21 (constantI S_ 32 0#32),
    unary main_c_21 main_v138 (broadcastInDim S3200000 ![] bcast_S_S3200000 : (⟨S_, .i32⟩ : BufTy).Contents (Elt F) → (⟨S3200000, .i32⟩ : BufTy).Contents (Elt F)),
    binary main_v81 main_v138 main_v139 (cmpi .slt : (⟨S3200000, .i32⟩ : BufTy).Contents (Elt F) → (⟨S3200000, .i32⟩ : BufTy).Contents (Elt F) → (⟨S3200000, .i1⟩ : BufTy).Contents (Elt F)),
    nullary main_c_22 (constantI S_ 32 200000#32),
    unary main_c_22 main_v140 (broadcastInDim S3200000 ![] bcast_S_S3200000 : (⟨S_, .i32⟩ : BufTy).Contents (Elt F) → (⟨S3200000, .i32⟩ : BufTy).Contents (Elt F)),
    binary main_v81 main_v140 main_v141 (addi : (⟨S3200000, .i32⟩ : BufTy).Contents (Elt F) → (⟨S3200000, .i32⟩ : BufTy).Contents (Elt F) → (⟨S3200000, .i32⟩ : BufTy).Contents (Elt F)),
    ternary main_v139 main_v141 main_v81 main_v142 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v142 main_v143 (broadcastInDim S3200000x1 ![0] bcast_S3200000_S3200000x1_0 : (⟨S3200000, .i32⟩ : BufTy).Contents (Elt F) → (⟨S3200000x1, .i32⟩ : BufTy).Contents (Elt F)),
    binary main_v137 main_v143 main_v144 ((fun x i => Host.gather gather_S200000x32_S3200000x1_S3200000x32_1_0_n_n_0_1_132 x i) : (⟨S200000x32, .f32⟩ : BufTy).Contents (Elt F) → (⟨S3200000x1, .i32⟩ : BufTy).Contents (Elt F) → (⟨S3200000x32, .f32⟩ : BufTy).Contents (Elt F)),
    unary main_v114 main_v145 (broadcastInDim S3200000x32 ![0, 1] bcast_S3200000x1_S3200000x32_0_1 : (⟨S3200000x1, .f32⟩ : BufTy).Contents (Elt F) → (⟨S3200000x32, .f32⟩ : BufTy).Contents (Elt F)),
    binary main_v144 main_v145 main_v146 (mulf : (⟨S3200000x32, .f32⟩ : BufTy).Contents (Elt F) → (⟨S3200000x32, .f32⟩ : BufTy).Contents (Elt F) → (⟨S3200000x32, .f32⟩ : BufTy).Contents (Elt F)),
    nullary main_cst_23 (constant S_ .f32 0x00000000#32),
    unary main_cst_23 main_v147 (broadcastInDim S200000x32 ![] bcast_S_S200000x32 : (⟨S_, .f32⟩ : BufTy).Contents (Elt F) → (⟨S200000x32, .f32⟩ : BufTy).Contents (Elt F)),
    unary main_v83 main_v148 (broadcastInDim S3200000x1 ![0] bcast_S3200000_S3200000x1_0 : (⟨S3200000, .i32⟩ : BufTy).Contents (Elt F) → (⟨S3200000x1, .i32⟩ : BufTy).Contents (Elt F)),
    ternary main_v147 main_v148 main_v146 main_v149 ((fun x i u => Host.scatterAdd scatter_S200000x32_S3200000x1_S3200000x32_1_0_0_1 x i u) : (⟨S200000x32, .f32⟩ : BufTy).Contents (Elt F) → (⟨S3200000x1, .i32⟩ : BufTy).Contents (Elt F) → (⟨S3200000x32, .f32⟩ : BufTy).Contents (Elt F) → (⟨S200000x32, .f32⟩ : BufTy).Contents (Elt F)),
    unary main_v116 main_v150 (broadcastInDim S200000x32 ![0, 1] bcast_S200000x1_S200000x32_0_1 : (⟨S200000x1, .f32⟩ : BufTy).Contents (Elt F) → (⟨S200000x32, .f32⟩ : BufTy).Contents (Elt F)) ]
set_option maxRecDepth 8192 in
theorem Q21_sub : (Q21 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub ..⟩
theorem Q21_fresh : (Q21 : List (HloOp τ sig (Elt F))).Forall fun op => op.fresh = ∅ := by
  simp only [List.Forall]; repeat' constructor
/-- The chunk writes only its operations' result buffers. -/
theorem Q21_untouched (V : Valuation τ sig (Elt F)) (b : Ref sig .tc)
    (hb : b ∉ ([main_c_21, main_v138, main_v139, main_c_22, main_v140, main_v141, main_v142, main_v143, main_v144, main_v145, main_v146, main_cst_23, main_v147, main_v148, main_v149, main_v150] : List (Ref sig .tc))) :
    after (Q21 (F := F)) V (Proc.devRef .tc b) = V (Proc.devRef .tc b) :=
  StableHlo.after_of_forall_not_mem (b := Proc.devRef .tc b) _ _ (List.forall_iff_forall_mem.mp (by
    simp only [Q21, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 22: operations 181 … 183. -/
abbrev Q22 : List (HloOp τ sig (Elt F)) :=
  [ binary main_v137 main_v150 main_v151 (mulf : (⟨S200000x32, .f32⟩ : BufTy).Contents (Elt F) → (⟨S200000x32, .f32⟩ : BufTy).Contents (Elt F) → (⟨S200000x32, .f32⟩ : BufTy).Contents (Elt F)),
    binary main_v149 main_v151 main_v152 (addf : (⟨S200000x32, .f32⟩ : BufTy).Contents (Elt F) → (⟨S200000x32, .f32⟩ : BufTy).Contents (Elt F) → (⟨S200000x32, .f32⟩ : BufTy).Contents (Elt F)),
    unary main_v91 main_v153 (broadcastInDim S1x32 ![1] bcast_S32_S1x32_1 : (⟨S32, .f32⟩ : BufTy).Contents (Elt F) → (⟨S1x32, .f32⟩ : BufTy).Contents (Elt F)) ]
set_option maxRecDepth 8192 in
theorem Q22_sub : (Q22 : List (HloOp τ sig (Elt F))).Forall fun op => op.bufs ⊆ tcRefs τ sig :=
  ⟨binary_bufs_sub .., binary_bufs_sub .., unary_bufs_sub ..⟩
theorem Q22_fresh : (Q22 : List (HloOp τ sig (Elt F))).Forall fun op => op.fresh = ∅ := by
  simp only [List.Forall]; repeat' constructor
/-- The chunk writes only its operations' result buffers. -/
theorem Q22_untouched (V : Valuation τ sig (Elt F)) (b : Ref sig .tc)
    (hb : b ∉ ([main_v151, main_v152, main_v153] : List (Ref sig .tc))) :
    after (Q22 (F := F)) V (Proc.devRef .tc b) = V (Proc.devRef .tc b) :=
  StableHlo.after_of_forall_not_mem (b := Proc.devRef .tc b) _ _ (List.forall_iff_forall_mem.mp (by
    simp only [Q22, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 23: operations 184 … 198. -/
abbrev Q23 : List (HloOp τ sig (Elt F)) :=
  [ unary main_v153 main_v154 (broadcastInDim S200000x32 ![0, 1] bcast_S1x32_S200000x32_0_1 : (⟨S1x32, .f32⟩ : BufTy).Contents (Elt F) → (⟨S200000x32, .f32⟩ : BufTy).Contents (Elt F)),
    binary main_v152 main_v154 main_v155 (addf : (⟨S200000x32, .f32⟩ : BufTy).Contents (Elt F) → (⟨S200000x32, .f32⟩ : BufTy).Contents (Elt F) → (⟨S200000x32, .f32⟩ : BufTy).Contents (Elt F)),
    unary main_arg2 main_v156 ((extractStridedSlice S1x1x3200000 ![1, 0, 0] · slices_S4x2x3200000_S1x1x3200000_1_0_0) : (⟨S4x2x3200000, .i32⟩ : BufTy).Contents (Elt F) → (⟨S1x1x3200000, .i32⟩ : BufTy).Contents (Elt F)),
    reshape main_v156 main_v157 rfl shapeCasts_S1x1x3200000_S3200000,
    unary main_arg2 main_v158 ((extractStridedSlice S1x1x3200000 ![1, 1, 0] · slices_S4x2x3200000_S1x1x3200000_1_1_0) : (⟨S4x2x3200000, .i32⟩ : BufTy).Contents (Elt F) → (⟨S1x1x3200000, .i32⟩ : BufTy).Contents (Elt F)),
    reshape main_v158 main_v159 rfl shapeCasts_S1x1x3200000_S3200000,
    nullary main_c_24 (constantI S_ 32 0#32),
    unary main_c_24 main_v160 (broadcastInDim S3200000 ![] bcast_S_S3200000 : (⟨S_, .i32⟩ : BufTy).Contents (Elt F) → (⟨S3200000, .i32⟩ : BufTy).Contents (Elt F)),
    binary main_v159 main_v160 main_v161 (cmpi .slt : (⟨S3200000, .i32⟩ : BufTy).Contents (Elt F) → (⟨S3200000, .i32⟩ : BufTy).Contents (Elt F) → (⟨S3200000, .i1⟩ : BufTy).Contents (Elt F)),
    nullary main_c_25 (constantI S_ 32 200000#32),
    unary main_c_25 main_v162 (broadcastInDim S3200000 ![] bcast_S_S3200000 : (⟨S_, .i32⟩ : BufTy).Contents (Elt F) → (⟨S3200000, .i32⟩ : BufTy).Contents (Elt F)),
    binary main_v159 main_v162 main_v163 (addi : (⟨S3200000, .i32⟩ : BufTy).Contents (Elt F) → (⟨S3200000, .i32⟩ : BufTy).Contents (Elt F) → (⟨S3200000, .i32⟩ : BufTy).Contents (Elt F)),
    ternary main_v161 main_v163 main_v159 main_v164 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v164 main_v165 (broadcastInDim S3200000x1 ![0] bcast_S3200000_S3200000x1_0 : (⟨S3200000, .i32⟩ : BufTy).Contents (Elt F) → (⟨S3200000x1, .i32⟩ : BufTy).Contents (Elt F)),
    binary main_v77 main_v165 main_v166 ((fun x i => Host.gather gather_S200000x32_S3200000x1_S3200000x32_1_0_n_n_0_1_132 x i) : (⟨S200000x32, .f32⟩ : BufTy).Contents (Elt F) → (⟨S3200000x1, .i32⟩ : BufTy).Contents (Elt F) → (⟨S3200000x32, .f32⟩ : BufTy).Contents (Elt F)) ]
set_option maxRecDepth 8192 in
theorem Q23_sub : (Q23 : List (HloOp τ sig (Elt F))).Forall fun op => op.bufs ⊆ tcRefs τ sig :=
  ⟨unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩
theorem Q23_fresh : (Q23 : List (HloOp τ sig (Elt F))).Forall fun op => op.fresh = ∅ := by
  simp only [List.Forall]; repeat' constructor
/-- The chunk writes only its operations' result buffers. -/
theorem Q23_untouched (V : Valuation τ sig (Elt F)) (b : Ref sig .tc)
    (hb : b ∉ ([main_v154, main_v155, main_v156, main_v157, main_v158, main_v159, main_c_24, main_v160, main_v161, main_c_25, main_v162, main_v163, main_v164, main_v165, main_v166] : List (Ref sig .tc))) :
    after (Q23 (F := F)) V (Proc.devRef .tc b) = V (Proc.devRef .tc b) :=
  StableHlo.after_of_forall_not_mem (b := Proc.devRef .tc b) _ _ (List.forall_iff_forall_mem.mp (by
    simp only [Q23, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 24: operations 199 … 207. -/
abbrev Q24 : List (HloOp τ sig (Elt F)) :=
  [ nullary main_cst_26 (constant S_ .f32 0x00000000#32),
    unary main_cst_26 main_v167 (broadcastInDim S200000x32 ![] bcast_S_S200000x32 : (⟨S_, .f32⟩ : BufTy).Contents (Elt F) → (⟨S200000x32, .f32⟩ : BufTy).Contents (Elt F)),
    unary main_v157 main_v168 (broadcastInDim S3200000x1 ![0] bcast_S3200000_S3200000x1_0 : (⟨S3200000, .i32⟩ : BufTy).Contents (Elt F) → (⟨S3200000x1, .i32⟩ : BufTy).Contents (Elt F)),
    ternary main_v167 main_v168 main_v166 main_v169 ((fun x i u => Host.scatterAdd scatter_S200000x32_S3200000x1_S3200000x32_1_0_0_1 x i u) : (⟨S200000x32, .f32⟩ : BufTy).Contents (Elt F) → (⟨S3200000x1, .i32⟩ : BufTy).Contents (Elt F) → (⟨S3200000x32, .f32⟩ : BufTy).Contents (Elt F) → (⟨S200000x32, .f32⟩ : BufTy).Contents (Elt F)),
    binary main_v155 main_v169 main_v170 (addf : (⟨S200000x32, .f32⟩ : BufTy).Contents (Elt F) → (⟨S200000x32, .f32⟩ : BufTy).Contents (Elt F) → (⟨S200000x32, .f32⟩ : BufTy).Contents (Elt F)),
    unary main_arg3 main_v171 ((extractStridedSlice S1 ![1] · slices_S4_S1_1) : (⟨S4, .f32⟩ : BufTy).Contents (Elt F) → (⟨S1, .f32⟩ : BufTy).Contents (Elt F)),
    reshape main_v171 main_v172 rfl shapeCasts_S1_S_,
    unary main_v172 main_v173 (broadcastInDim S200000x32 ![] bcast_S_S200000x32 : (⟨S_, .f32⟩ : BufTy).Contents (Elt F) → (⟨S200000x32, .f32⟩ : BufTy).Contents (Elt F)),
    binary main_v170 main_v173 main_v174 (Host.divf : (⟨S200000x32, .f32⟩ : BufTy).Contents (Elt F) → (⟨S200000x32, .f32⟩ : BufTy).Contents (Elt F) → (⟨S200000x32, .f32⟩ : BufTy).Contents (Elt F)) ]
set_option maxRecDepth 8192 in
theorem Q24_sub : (Q24 : List (HloOp τ sig (Elt F))).Forall fun op => op.bufs ⊆ tcRefs τ sig :=
  ⟨nullary_bufs_sub .., unary_bufs_sub .., unary_bufs_sub .., ternary_bufs_sub .., binary_bufs_sub .., unary_bufs_sub .., reshape_bufs_sub .., unary_bufs_sub .., binary_bufs_sub ..⟩
theorem Q24_fresh : (Q24 : List (HloOp τ sig (Elt F))).Forall fun op => op.fresh = ∅ := by
  simp only [List.Forall]; repeat' constructor
/-- The chunk writes only its operations' result buffers. -/
theorem Q24_untouched (V : Valuation τ sig (Elt F)) (b : Ref sig .tc)
    (hb : b ∉ ([main_cst_26, main_v167, main_v168, main_v169, main_v170, main_v171, main_v172, main_v173, main_v174] : List (Ref sig .tc))) :
    after (Q24 (F := F)) V (Proc.devRef .tc b) = V (Proc.devRef .tc b) :=
  StableHlo.after_of_forall_not_mem (b := Proc.devRef .tc b) _ _ (List.forall_iff_forall_mem.mp (by
    simp only [Q24, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 25: operations 208 … 215. -/
abbrev Q25 : List (HloOp τ sig (Elt F)) :=
  [ unary main_arg0 main_v175 ((extractStridedSlice S1x200000x20 ![2, 0, 0] · slices_S4x200000x20_S1x200000x20_2_0_0) : (⟨S4x200000x20, .f32⟩ : BufTy).Contents (Elt F) → (⟨S1x200000x20, .f32⟩ : BufTy).Contents (Elt F)),
    reshape main_v175 main_v176 rfl shapeCasts_S1x200000x20_S200000x20,
    unary main_arg1 main_v177 ((extractStridedSlice S1x1x3200000 ![2, 1, 0] · slices_S4x2x3200000_S1x1x3200000_2_1_0) : (⟨S4x2x3200000, .i32⟩ : BufTy).Contents (Elt F) → (⟨S1x1x3200000, .i32⟩ : BufTy).Contents (Elt F)),
    reshape main_v177 main_v178 rfl shapeCasts_S1x1x3200000_S3200000,
    unary main_arg1 main_v179 ((extractStridedSlice S1x1x3200000 ![2, 0, 0] · slices_S4x2x3200000_S1x1x3200000_2_0_0) : (⟨S4x2x3200000, .i32⟩ : BufTy).Contents (Elt F) → (⟨S1x1x3200000, .i32⟩ : BufTy).Contents (Elt F)),
    reshape main_v179 main_v180 rfl shapeCasts_S1x1x3200000_S3200000,
    unary main_arg4 main_v181 ((extractStridedSlice S1x20x32 ![2, 0, 0] · slices_S4x20x32_S1x20x32_2_0_0) : (⟨S4x20x32, .f32⟩ : BufTy).Contents (Elt F) → (⟨S1x20x32, .f32⟩ : BufTy).Contents (Elt F)),
    reshape main_v181 main_v182 rfl shapeCasts_S1x20x32_S20x32 ]
set_option maxRecDepth 8192 in
theorem Q25_sub : (Q25 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub ..⟩
theorem Q25_fresh : (Q25 : List (HloOp τ sig (Elt F))).Forall fun op => op.fresh = ∅ := by
  simp only [List.Forall]; repeat' constructor
/-- The chunk writes only its operations' result buffers. -/
theorem Q25_untouched (V : Valuation τ sig (Elt F)) (b : Ref sig .tc)
    (hb : b ∉ ([main_v175, main_v176, main_v177, main_v178, main_v179, main_v180, main_v181, main_v182] : List (Ref sig .tc))) :
    after (Q25 (F := F)) V (Proc.devRef .tc b) = V (Proc.devRef .tc b) :=
  StableHlo.after_of_forall_not_mem (b := Proc.devRef .tc b) _ _ (List.forall_iff_forall_mem.mp (by
    simp only [Q25, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 26: operations 216 … 231. -/
abbrev Q26 : List (HloOp τ sig (Elt F)) :=
  [ unary main_arg5 main_v183 ((extractStridedSlice S1x32 ![2, 0] · slices_S4x32_S1x32_2_0) : (⟨S4x32, .f32⟩ : BufTy).Contents (Elt F) → (⟨S1x32, .f32⟩ : BufTy).Contents (Elt F)),
    reshape main_v183 main_v184 rfl shapeCasts_S1x32_S32,
    unary main_arg6 main_v185 ((extractStridedSlice S1x32x32 ![2, 0, 0] · slices_S4x32x32_S1x32x32_2_0_0) : (⟨S4x32x32, .f32⟩ : BufTy).Contents (Elt F) → (⟨S1x32x32, .f32⟩ : BufTy).Contents (Elt F)),
    reshape main_v185 main_v186 rfl shapeCasts_S1x32x32_S32x32,
    unary main_arg7 main_v187 ((extractStridedSlice S1x32 ![2, 0] · slices_S4x32_S1x32_2_0) : (⟨S4x32, .f32⟩ : BufTy).Contents (Elt F) → (⟨S1x32, .f32⟩ : BufTy).Contents (Elt F)),
    reshape main_v187 main_v188 rfl shapeCasts_S1x32_S32,
    nullary main_cst_27 (constant S_ .f32 0x3F800000#32),
    unary main_cst_27 main_v189 (broadcastInDim S3200000 ![] bcast_S_S3200000 : (⟨S_, .f32⟩ : BufTy).Contents (Elt F) → (⟨S3200000, .f32⟩ : BufTy).Contents (Elt F)),
    nullary main_cst_28 (constant S_ .f32 0x00000000#32),
    unary main_cst_28 main_v190 (broadcastInDim S200000 ![] bcast_S_S200000 : (⟨S_, .f32⟩ : BufTy).Contents (Elt F) → (⟨S200000, .f32⟩ : BufTy).Contents (Elt F)),
    unary main_v180 main_v191 (broadcastInDim S3200000x1 ![0] bcast_S3200000_S3200000x1_0 : (⟨S3200000, .i32⟩ : BufTy).Contents (Elt F) → (⟨S3200000x1, .i32⟩ : BufTy).Contents (Elt F)),
    ternary main_v190 main_v191 main_v189 main_v192 ((fun x i u => Host.scatterAdd scatter_S200000_S3200000x1_S3200000_n_0_0_1 x i u) : (⟨S200000, .f32⟩ : BufTy).Contents (Elt F) → (⟨S3200000x1, .i32⟩ : BufTy).Contents (Elt F) → (⟨S3200000, .f32⟩ : BufTy).Contents (Elt F) → (⟨S200000, .f32⟩ : BufTy).Contents (Elt F)),
    nullary main_cst_29 (constant S_ .f32 0x3F800000#32),
    unary main_cst_29 main_v193 (broadcastInDim S200000 ![] bcast_S_S200000 : (⟨S_, .f32⟩ : BufTy).Contents (Elt F) → (⟨S200000, .f32⟩ : BufTy).Contents (Elt F)),
    binary main_v192 main_v193 main_v194 (addf : (⟨S200000, .f32⟩ : BufTy).Contents (Elt F) → (⟨S200000, .f32⟩ : BufTy).Contents (Elt F) → (⟨S200000, .f32⟩ : BufTy).Contents (Elt F)),
    unary main_v194 main_v195 (Host.rsqrt : (⟨S200000, .f32⟩ : BufTy).Contents (Elt F) → (⟨S200000, .f32⟩ : BufTy).Contents (Elt F)) ]
set_option maxRecDepth 8192 in
theorem Q26_sub : (Q26 : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub ..⟩
theorem Q26_fresh : (Q26 : List (HloOp τ sig (Elt F))).Forall fun op => op.fresh = ∅ := by
  simp only [List.Forall]; repeat' constructor
/-- The chunk writes only its operations' result buffers. -/
theorem Q26_untouched (V : Valuation τ sig (Elt F)) (b : Ref sig .tc)
    (hb : b ∉ ([main_v183, main_v184, main_v185, main_v186, main_v187, main_v188, main_cst_27, main_v189, main_cst_28, main_v190, main_v191, main_v192, main_cst_29, main_v193, main_v194, main_v195] : List (Ref sig .tc))) :
    after (Q26 (F := F)) V (Proc.devRef .tc b) = V (Proc.devRef .tc b) :=
  StableHlo.after_of_forall_not_mem (b := Proc.devRef .tc b) _ _ (List.forall_iff_forall_mem.mp (by
    simp only [Q26, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 27: operations 232 … 243. -/
abbrev Q27 : List (HloOp τ sig (Elt F)) :=
  [ nullary main_c_30 (constantI S_ 32 0#32),
    unary main_c_30 main_v196 (broadcastInDim S3200000 ![] bcast_S_S3200000 : (⟨S_, .i32⟩ : BufTy).Contents (Elt F) → (⟨S3200000, .i32⟩ : BufTy).Contents (Elt F)),
    binary main_v178 main_v196 main_v197 (cmpi .slt : (⟨S3200000, .i32⟩ : BufTy).Contents (Elt F) → (⟨S3200000, .i32⟩ : BufTy).Contents (Elt F) → (⟨S3200000, .i1⟩ : BufTy).Contents (Elt F)),
    nullary main_c_31 (constantI S_ 32 200000#32),
    unary main_c_31 main_v198 (broadcastInDim S3200000 ![] bcast_S_S3200000 : (⟨S_, .i32⟩ : BufTy).Contents (Elt F) → (⟨S3200000, .i32⟩ : BufTy).Contents (Elt F)),
    binary main_v178 main_v198 main_v199 (addi : (⟨S3200000, .i32⟩ : BufTy).Contents (Elt F) → (⟨S3200000, .i32⟩ : BufTy).Contents (Elt F) → (⟨S3200000, .i32⟩ : BufTy).Contents (Elt F)),
    ternary main_v197 main_v199 main_v178 main_v200 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v200 main_v201 (broadcastInDim S3200000x1 ![0] bcast_S3200000_S3200000x1_0 : (⟨S3200000, .i32⟩ : BufTy).Contents (Elt F) → (⟨S3200000x1, .i32⟩ : BufTy).Contents (Elt F)),
    binary main_v195 main_v201 main_v202 ((fun x i => Host.gather gather_S200000_S3200000x1_S3200000_n_0_n_n_0_1_1 x i) : (⟨S200000, .f32⟩ : BufTy).Contents (Elt F) → (⟨S3200000x1, .i32⟩ : BufTy).Contents (Elt F) → (⟨S3200000, .f32⟩ : BufTy).Contents (Elt F)),
    nullary main_c_32 (constantI S_ 32 0#32),
    unary main_c_32 main_v203 (broadcastInDim S3200000 ![] bcast_S_S3200000 : (⟨S_, .i32⟩ : BufTy).Contents (Elt F) → (⟨S3200000, .i32⟩ : BufTy).Contents (Elt F)),
    binary main_v180 main_v203 main_v204 (cmpi .slt : (⟨S3200000, .i32⟩ : BufTy).Contents (Elt F) → (⟨S3200000, .i32⟩ : BufTy).Contents (Elt F) → (⟨S3200000, .i1⟩ : BufTy).Contents (Elt F)) ]
set_option maxRecDepth 8192 in
theorem Q27_sub : (Q27 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub ..⟩
theorem Q27_fresh : (Q27 : List (HloOp τ sig (Elt F))).Forall fun op => op.fresh = ∅ := by
  simp only [List.Forall]; repeat' constructor
/-- The chunk writes only its operations' result buffers. -/
theorem Q27_untouched (V : Valuation τ sig (Elt F)) (b : Ref sig .tc)
    (hb : b ∉ ([main_c_30, main_v196, main_v197, main_c_31, main_v198, main_v199, main_v200, main_v201, main_v202, main_c_32, main_v203, main_v204] : List (Ref sig .tc))) :
    after (Q27 (F := F)) V (Proc.devRef .tc b) = V (Proc.devRef .tc b) :=
  StableHlo.after_of_forall_not_mem (b := Proc.devRef .tc b) _ _ (List.forall_iff_forall_mem.mp (by
    simp only [Q27, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 28: operations 244 … 253. -/
abbrev Q28 : List (HloOp τ sig (Elt F)) :=
  [ nullary main_c_33 (constantI S_ 32 200000#32),
    unary main_c_33 main_v205 (broadcastInDim S3200000 ![] bcast_S_S3200000 : (⟨S_, .i32⟩ : BufTy).Contents (Elt F) → (⟨S3200000, .i32⟩ : BufTy).Contents (Elt F)),
    binary main_v180 main_v205 main_v206 (addi : (⟨S3200000, .i32⟩ : BufTy).Contents (Elt F) → (⟨S3200000, .i32⟩ : BufTy).Contents (Elt F) → (⟨S3200000, .i32⟩ : BufTy).Contents (Elt F)),
    ternary main_v204 main_v206 main_v180 main_v207 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v207 main_v208 (broadcastInDim S3200000x1 ![0] bcast_S3200000_S3200000x1_0 : (⟨S3200000, .i32⟩ : BufTy).Contents (Elt F) → (⟨S3200000x1, .i32⟩ : BufTy).Contents (Elt F)),
    binary main_v195 main_v208 main_v209 ((fun x i => Host.gather gather_S200000_S3200000x1_S3200000_n_0_n_n_0_1_1 x i) : (⟨S200000, .f32⟩ : BufTy).Contents (Elt F) → (⟨S3200000x1, .i32⟩ : BufTy).Contents (Elt F) → (⟨S3200000, .f32⟩ : BufTy).Contents (Elt F)),
    binary main_v202 main_v209 main_v210 (mulf : (⟨S3200000, .f32⟩ : BufTy).Contents (Elt F) → (⟨S3200000, .f32⟩ : BufTy).Contents (Elt F) → (⟨S3200000, .f32⟩ : BufTy).Contents (Elt F)),
    unary main_v210 main_v211 (broadcastInDim S3200000x1 ![0] bcast_S3200000_S3200000x1_0 : (⟨S3200000, .f32⟩ : BufTy).Contents (Elt F) → (⟨S3200000x1, .f32⟩ : BufTy).Contents (Elt F)),
    binary main_v195 main_v195 main_v212 (mulf : (⟨S200000, .f32⟩ : BufTy).Contents (Elt F) → (⟨S200000, .f32⟩ : BufTy).Contents (Elt F) → (⟨S200000, .f32⟩ : BufTy).Contents (Elt F)),
    unary main_v212 main_v213 (broadcastInDim S200000x1 ![0] bcast_S200000_S200000x1_0 : (⟨S200000, .f32⟩ : BufTy).Contents (Elt F) → (⟨S200000x1, .f32⟩ : BufTy).Contents (Elt F)) ]
set_option maxRecDepth 8192 in
theorem Q28_sub : (Q28 : List (HloOp τ sig (Elt F))).Forall fun op => op.bufs ⊆ tcRefs τ sig :=
  ⟨nullary_bufs_sub .., unary_bufs_sub .., binary_bufs_sub .., ternary_bufs_sub .., unary_bufs_sub .., binary_bufs_sub .., binary_bufs_sub .., unary_bufs_sub .., binary_bufs_sub .., unary_bufs_sub ..⟩
theorem Q28_fresh : (Q28 : List (HloOp τ sig (Elt F))).Forall fun op => op.fresh = ∅ := by
  simp only [List.Forall]; repeat' constructor
/-- The chunk writes only its operations' result buffers. -/
theorem Q28_untouched (V : Valuation τ sig (Elt F)) (b : Ref sig .tc)
    (hb : b ∉ ([main_c_33, main_v205, main_v206, main_v207, main_v208, main_v209, main_v210, main_v211, main_v212, main_v213] : List (Ref sig .tc))) :
    after (Q28 (F := F)) V (Proc.devRef .tc b) = V (Proc.devRef .tc b) :=
  StableHlo.after_of_forall_not_mem (b := Proc.devRef .tc b) _ _ (List.forall_iff_forall_mem.mp (by
    simp only [Q28, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 29: operations 254 … 254. -/
abbrev Q29 : List (HloOp τ sig (Elt F)) :=
  [ binary main_v176 main_v182 main_v214 ((fun l r => Host.dotGeneral dot_S200000x20_S20x32_S200000x32_1_0_0_1_n_n none l r) : (⟨S200000x20, .f32⟩ : BufTy).Contents (Elt F) → (⟨S20x32, .f32⟩ : BufTy).Contents (Elt F) → (⟨S200000x32, .f32⟩ : BufTy).Contents (Elt F)) ]
set_option maxRecDepth 8192 in
theorem Q29_sub : (Q29 : List (HloOp τ sig (Elt F))).Forall fun op => op.bufs ⊆ tcRefs τ sig :=
  binary_bufs_sub ..
theorem Q29_fresh : (Q29 : List (HloOp τ sig (Elt F))).Forall fun op => op.fresh = ∅ := by
  simp only [List.Forall]; repeat' constructor
/-- The chunk writes only its operations' result buffers. -/
theorem Q29_untouched (V : Valuation τ sig (Elt F)) (b : Ref sig .tc)
    (hb : b ∉ ([main_v214] : List (Ref sig .tc))) :
    after (Q29 (F := F)) V (Proc.devRef .tc b) = V (Proc.devRef .tc b) :=
  StableHlo.after_of_forall_not_mem (b := Proc.devRef .tc b) _ _ (List.forall_iff_forall_mem.mp (by
    simp only [Q29, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 30: operations 255 … 269. -/
abbrev Q30 : List (HloOp τ sig (Elt F)) :=
  [ nullary main_c_34 (constantI S_ 32 0#32),
    unary main_c_34 main_v215 (broadcastInDim S3200000 ![] bcast_S_S3200000 : (⟨S_, .i32⟩ : BufTy).Contents (Elt F) → (⟨S3200000, .i32⟩ : BufTy).Contents (Elt F)),
    binary main_v178 main_v215 main_v216 (cmpi .slt : (⟨S3200000, .i32⟩ : BufTy).Contents (Elt F) → (⟨S3200000, .i32⟩ : BufTy).Contents (Elt F) → (⟨S3200000, .i1⟩ : BufTy).Contents (Elt F)),
    nullary main_c_35 (constantI S_ 32 200000#32),
    unary main_c_35 main_v217 (broadcastInDim S3200000 ![] bcast_S_S3200000 : (⟨S_, .i32⟩ : BufTy).Contents (Elt F) → (⟨S3200000, .i32⟩ : BufTy).Contents (Elt F)),
    binary main_v178 main_v217 main_v218 (addi : (⟨S3200000, .i32⟩ : BufTy).Contents (Elt F) → (⟨S3200000, .i32⟩ : BufTy).Contents (Elt F) → (⟨S3200000, .i32⟩ : BufTy).Contents (Elt F)),
    ternary main_v216 main_v218 main_v178 main_v219 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v219 main_v220 (broadcastInDim S3200000x1 ![0] bcast_S3200000_S3200000x1_0 : (⟨S3200000, .i32⟩ : BufTy).Contents (Elt F) → (⟨S3200000x1, .i32⟩ : BufTy).Contents (Elt F)),
    binary main_v214 main_v220 main_v221 ((fun x i => Host.gather gather_S200000x32_S3200000x1_S3200000x32_1_0_n_n_0_1_132 x i) : (⟨S200000x32, .f32⟩ : BufTy).Contents (Elt F) → (⟨S3200000x1, .i32⟩ : BufTy).Contents (Elt F) → (⟨S3200000x32, .f32⟩ : BufTy).Contents (Elt F)),
    unary main_v211 main_v222 (broadcastInDim S3200000x32 ![0, 1] bcast_S3200000x1_S3200000x32_0_1 : (⟨S3200000x1, .f32⟩ : BufTy).Contents (Elt F) → (⟨S3200000x32, .f32⟩ : BufTy).Contents (Elt F)),
    binary main_v221 main_v222 main_v223 (mulf : (⟨S3200000x32, .f32⟩ : BufTy).Contents (Elt F) → (⟨S3200000x32, .f32⟩ : BufTy).Contents (Elt F) → (⟨S3200000x32, .f32⟩ : BufTy).Contents (Elt F)),
    nullary main_cst_36 (constant S_ .f32 0x00000000#32),
    unary main_cst_36 main_v224 (broadcastInDim S200000x32 ![] bcast_S_S200000x32 : (⟨S_, .f32⟩ : BufTy).Contents (Elt F) → (⟨S200000x32, .f32⟩ : BufTy).Contents (Elt F)),
    unary main_v180 main_v225 (broadcastInDim S3200000x1 ![0] bcast_S3200000_S3200000x1_0 : (⟨S3200000, .i32⟩ : BufTy).Contents (Elt F) → (⟨S3200000x1, .i32⟩ : BufTy).Contents (Elt F)),
    ternary main_v224 main_v225 main_v223 main_v226 ((fun x i u => Host.scatterAdd scatter_S200000x32_S3200000x1_S3200000x32_1_0_0_1 x i u) : (⟨S200000x32, .f32⟩ : BufTy).Contents (Elt F) → (⟨S3200000x1, .i32⟩ : BufTy).Contents (Elt F) → (⟨S3200000x32, .f32⟩ : BufTy).Contents (Elt F) → (⟨S200000x32, .f32⟩ : BufTy).Contents (Elt F)) ]
set_option maxRecDepth 8192 in
theorem Q30_sub : (Q30 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem Q30_fresh : (Q30 : List (HloOp τ sig (Elt F))).Forall fun op => op.fresh = ∅ := by
  simp only [List.Forall]; repeat' constructor
/-- The chunk writes only its operations' result buffers. -/
theorem Q30_untouched (V : Valuation τ sig (Elt F)) (b : Ref sig .tc)
    (hb : b ∉ ([main_c_34, main_v215, main_v216, main_c_35, main_v217, main_v218, main_v219, main_v220, main_v221, main_v222, main_v223, main_cst_36, main_v224, main_v225, main_v226] : List (Ref sig .tc))) :
    after (Q30 (F := F)) V (Proc.devRef .tc b) = V (Proc.devRef .tc b) :=
  StableHlo.after_of_forall_not_mem (b := Proc.devRef .tc b) _ _ (List.forall_iff_forall_mem.mp (by
    simp only [Q30, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 31: operations 270 … 275. -/
abbrev Q31 : List (HloOp τ sig (Elt F)) :=
  [ unary main_v213 main_v227 (broadcastInDim S200000x32 ![0, 1] bcast_S200000x1_S200000x32_0_1 : (⟨S200000x1, .f32⟩ : BufTy).Contents (Elt F) → (⟨S200000x32, .f32⟩ : BufTy).Contents (Elt F)),
    binary main_v214 main_v227 main_v228 (mulf : (⟨S200000x32, .f32⟩ : BufTy).Contents (Elt F) → (⟨S200000x32, .f32⟩ : BufTy).Contents (Elt F) → (⟨S200000x32, .f32⟩ : BufTy).Contents (Elt F)),
    binary main_v226 main_v228 main_v229 (addf : (⟨S200000x32, .f32⟩ : BufTy).Contents (Elt F) → (⟨S200000x32, .f32⟩ : BufTy).Contents (Elt F) → (⟨S200000x32, .f32⟩ : BufTy).Contents (Elt F)),
    unary main_v184 main_v230 (broadcastInDim S1x32 ![1] bcast_S32_S1x32_1 : (⟨S32, .f32⟩ : BufTy).Contents (Elt F) → (⟨S1x32, .f32⟩ : BufTy).Contents (Elt F)),
    unary main_v230 main_v231 (broadcastInDim S200000x32 ![0, 1] bcast_S1x32_S200000x32_0_1 : (⟨S1x32, .f32⟩ : BufTy).Contents (Elt F) → (⟨S200000x32, .f32⟩ : BufTy).Contents (Elt F)),
    binary main_v229 main_v231 main_v232 (addf : (⟨S200000x32, .f32⟩ : BufTy).Contents (Elt F) → (⟨S200000x32, .f32⟩ : BufTy).Contents (Elt F) → (⟨S200000x32, .f32⟩ : BufTy).Contents (Elt F)) ]
set_option maxRecDepth 8192 in
theorem Q31_sub : (Q31 : List (HloOp τ sig (Elt F))).Forall fun op => op.bufs ⊆ tcRefs τ sig :=
  ⟨unary_bufs_sub .., binary_bufs_sub .., binary_bufs_sub .., unary_bufs_sub .., unary_bufs_sub .., binary_bufs_sub ..⟩
theorem Q31_fresh : (Q31 : List (HloOp τ sig (Elt F))).Forall fun op => op.fresh = ∅ := by
  simp only [List.Forall]; repeat' constructor
/-- The chunk writes only its operations' result buffers. -/
theorem Q31_untouched (V : Valuation τ sig (Elt F)) (b : Ref sig .tc)
    (hb : b ∉ ([main_v227, main_v228, main_v229, main_v230, main_v231, main_v232] : List (Ref sig .tc))) :
    after (Q31 (F := F)) V (Proc.devRef .tc b) = V (Proc.devRef .tc b) :=
  StableHlo.after_of_forall_not_mem (b := Proc.devRef .tc b) _ _ (List.forall_iff_forall_mem.mp (by
    simp only [Q31, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 32: operations 276 … 278. -/
abbrev Q32 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S200000x32, .f32⟩) main_call2_v0) (broadcastInDim S200000x32 ![] bcast_S_S200000x32),
    TRef.binary (TRef.of (T := ⟨S200000x32, .f32⟩) main_v232) (TRef.of (T := ⟨S200000x32, .f32⟩) main_call2_v0) (TRef.of (T := ⟨S200000x32, .f32⟩) main_v233) maximumf ]
set_option maxRecDepth 8192 in
theorem Q32_sub : (Q32 : List (HloOp τ sig (Elt F))).Forall fun op => op.bufs ⊆ tcRefs τ sig :=
  ⟨nullary_bufs_sub .., unary_bufs_sub .., binary_bufs_sub ..⟩
theorem Q32_fresh : (Q32 : List (HloOp τ sig (Elt F))).Forall fun op => op.fresh = ∅ := by
  simp only [List.Forall]; repeat' constructor
/-- The chunk writes only its operations' result buffers. -/
theorem Q32_untouched (V : Valuation τ sig (Elt F)) (b : Ref sig .tc)
    (hb : b ∉ ([main_call2_cst, main_call2_v0, main_v233] : List (Ref sig .tc))) :
    after (Q32 (F := F)) V (Proc.devRef .tc b) = V (Proc.devRef .tc b) :=
  StableHlo.after_of_forall_not_mem (b := Proc.devRef .tc b) _ _ (List.forall_iff_forall_mem.mp (by
    simp only [Q32, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 33: operations 279 … 279. -/
abbrev Q33 : List (HloOp τ sig (Elt F)) :=
  [ binary main_v233 main_v186 main_v234 ((fun l r => Host.dotGeneral dot_S200000x32_S32x32_S200000x32_1_0_0_1_n_n none l r) : (⟨S200000x32, .f32⟩ : BufTy).Contents (Elt F) → (⟨S32x32, .f32⟩ : BufTy).Contents (Elt F) → (⟨S200000x32, .f32⟩ : BufTy).Contents (Elt F)) ]
set_option maxRecDepth 8192 in
theorem Q33_sub : (Q33 : List (HloOp τ sig (Elt F))).Forall fun op => op.bufs ⊆ tcRefs τ sig :=
  binary_bufs_sub ..
theorem Q33_fresh : (Q33 : List (HloOp τ sig (Elt F))).Forall fun op => op.fresh = ∅ := by
  simp only [List.Forall]; repeat' constructor
/-- The chunk writes only its operations' result buffers. -/
theorem Q33_untouched (V : Valuation τ sig (Elt F)) (b : Ref sig .tc)
    (hb : b ∉ ([main_v234] : List (Ref sig .tc))) :
    after (Q33 (F := F)) V (Proc.devRef .tc b) = V (Proc.devRef .tc b) :=
  StableHlo.after_of_forall_not_mem (b := Proc.devRef .tc b) _ _ (List.forall_iff_forall_mem.mp (by
    simp only [Q33, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 34: operations 280 … 295. -/
abbrev Q34 : List (HloOp τ sig (Elt F)) :=
  [ nullary main_c_37 (constantI S_ 32 0#32),
    unary main_c_37 main_v235 (broadcastInDim S3200000 ![] bcast_S_S3200000 : (⟨S_, .i32⟩ : BufTy).Contents (Elt F) → (⟨S3200000, .i32⟩ : BufTy).Contents (Elt F)),
    binary main_v178 main_v235 main_v236 (cmpi .slt : (⟨S3200000, .i32⟩ : BufTy).Contents (Elt F) → (⟨S3200000, .i32⟩ : BufTy).Contents (Elt F) → (⟨S3200000, .i1⟩ : BufTy).Contents (Elt F)),
    nullary main_c_38 (constantI S_ 32 200000#32),
    unary main_c_38 main_v237 (broadcastInDim S3200000 ![] bcast_S_S3200000 : (⟨S_, .i32⟩ : BufTy).Contents (Elt F) → (⟨S3200000, .i32⟩ : BufTy).Contents (Elt F)),
    binary main_v178 main_v237 main_v238 (addi : (⟨S3200000, .i32⟩ : BufTy).Contents (Elt F) → (⟨S3200000, .i32⟩ : BufTy).Contents (Elt F) → (⟨S3200000, .i32⟩ : BufTy).Contents (Elt F)),
    ternary main_v236 main_v238 main_v178 main_v239 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v239 main_v240 (broadcastInDim S3200000x1 ![0] bcast_S3200000_S3200000x1_0 : (⟨S3200000, .i32⟩ : BufTy).Contents (Elt F) → (⟨S3200000x1, .i32⟩ : BufTy).Contents (Elt F)),
    binary main_v234 main_v240 main_v241 ((fun x i => Host.gather gather_S200000x32_S3200000x1_S3200000x32_1_0_n_n_0_1_132 x i) : (⟨S200000x32, .f32⟩ : BufTy).Contents (Elt F) → (⟨S3200000x1, .i32⟩ : BufTy).Contents (Elt F) → (⟨S3200000x32, .f32⟩ : BufTy).Contents (Elt F)),
    unary main_v211 main_v242 (broadcastInDim S3200000x32 ![0, 1] bcast_S3200000x1_S3200000x32_0_1 : (⟨S3200000x1, .f32⟩ : BufTy).Contents (Elt F) → (⟨S3200000x32, .f32⟩ : BufTy).Contents (Elt F)),
    binary main_v241 main_v242 main_v243 (mulf : (⟨S3200000x32, .f32⟩ : BufTy).Contents (Elt F) → (⟨S3200000x32, .f32⟩ : BufTy).Contents (Elt F) → (⟨S3200000x32, .f32⟩ : BufTy).Contents (Elt F)),
    nullary main_cst_39 (constant S_ .f32 0x00000000#32),
    unary main_cst_39 main_v244 (broadcastInDim S200000x32 ![] bcast_S_S200000x32 : (⟨S_, .f32⟩ : BufTy).Contents (Elt F) → (⟨S200000x32, .f32⟩ : BufTy).Contents (Elt F)),
    unary main_v180 main_v245 (broadcastInDim S3200000x1 ![0] bcast_S3200000_S3200000x1_0 : (⟨S3200000, .i32⟩ : BufTy).Contents (Elt F) → (⟨S3200000x1, .i32⟩ : BufTy).Contents (Elt F)),
    ternary main_v244 main_v245 main_v243 main_v246 ((fun x i u => Host.scatterAdd scatter_S200000x32_S3200000x1_S3200000x32_1_0_0_1 x i u) : (⟨S200000x32, .f32⟩ : BufTy).Contents (Elt F) → (⟨S3200000x1, .i32⟩ : BufTy).Contents (Elt F) → (⟨S3200000x32, .f32⟩ : BufTy).Contents (Elt F) → (⟨S200000x32, .f32⟩ : BufTy).Contents (Elt F)),
    unary main_v213 main_v247 (broadcastInDim S200000x32 ![0, 1] bcast_S200000x1_S200000x32_0_1 : (⟨S200000x1, .f32⟩ : BufTy).Contents (Elt F) → (⟨S200000x32, .f32⟩ : BufTy).Contents (Elt F)) ]
set_option maxRecDepth 8192 in
theorem Q34_sub : (Q34 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub ..⟩
theorem Q34_fresh : (Q34 : List (HloOp τ sig (Elt F))).Forall fun op => op.fresh = ∅ := by
  simp only [List.Forall]; repeat' constructor
/-- The chunk writes only its operations' result buffers. -/
theorem Q34_untouched (V : Valuation τ sig (Elt F)) (b : Ref sig .tc)
    (hb : b ∉ ([main_c_37, main_v235, main_v236, main_c_38, main_v237, main_v238, main_v239, main_v240, main_v241, main_v242, main_v243, main_cst_39, main_v244, main_v245, main_v246, main_v247] : List (Ref sig .tc))) :
    after (Q34 (F := F)) V (Proc.devRef .tc b) = V (Proc.devRef .tc b) :=
  StableHlo.after_of_forall_not_mem (b := Proc.devRef .tc b) _ _ (List.forall_iff_forall_mem.mp (by
    simp only [Q34, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 35: operations 296 … 305. -/
abbrev Q35 : List (HloOp τ sig (Elt F)) :=
  [ binary main_v234 main_v247 main_v248 (mulf : (⟨S200000x32, .f32⟩ : BufTy).Contents (Elt F) → (⟨S200000x32, .f32⟩ : BufTy).Contents (Elt F) → (⟨S200000x32, .f32⟩ : BufTy).Contents (Elt F)),
    binary main_v246 main_v248 main_v249 (addf : (⟨S200000x32, .f32⟩ : BufTy).Contents (Elt F) → (⟨S200000x32, .f32⟩ : BufTy).Contents (Elt F) → (⟨S200000x32, .f32⟩ : BufTy).Contents (Elt F)),
    unary main_v188 main_v250 (broadcastInDim S1x32 ![1] bcast_S32_S1x32_1 : (⟨S32, .f32⟩ : BufTy).Contents (Elt F) → (⟨S1x32, .f32⟩ : BufTy).Contents (Elt F)),
    unary main_v250 main_v251 (broadcastInDim S200000x32 ![0, 1] bcast_S1x32_S200000x32_0_1 : (⟨S1x32, .f32⟩ : BufTy).Contents (Elt F) → (⟨S200000x32, .f32⟩ : BufTy).Contents (Elt F)),
    binary main_v249 main_v251 main_v252 (addf : (⟨S200000x32, .f32⟩ : BufTy).Contents (Elt F) → (⟨S200000x32, .f32⟩ : BufTy).Contents (Elt F) → (⟨S200000x32, .f32⟩ : BufTy).Contents (Elt F)),
    unary main_arg2 main_v253 ((extractStridedSlice S1x1x3200000 ![2, 0, 0] · slices_S4x2x3200000_S1x1x3200000_2_0_0) : (⟨S4x2x3200000, .i32⟩ : BufTy).Contents (Elt F) → (⟨S1x1x3200000, .i32⟩ : BufTy).Contents (Elt F)),
    reshape main_v253 main_v254 rfl shapeCasts_S1x1x3200000_S3200000,
    unary main_arg2 main_v255 ((extractStridedSlice S1x1x3200000 ![2, 1, 0] · slices_S4x2x3200000_S1x1x3200000_2_1_0) : (⟨S4x2x3200000, .i32⟩ : BufTy).Contents (Elt F) → (⟨S1x1x3200000, .i32⟩ : BufTy).Contents (Elt F)),
    reshape main_v255 main_v256 rfl shapeCasts_S1x1x3200000_S3200000,
    nullary main_c_40 (constantI S_ 32 0#32) ]
set_option maxRecDepth 8192 in
theorem Q35_sub : (Q35 : List (HloOp τ sig (Elt F))).Forall fun op => op.bufs ⊆ tcRefs τ sig :=
  ⟨binary_bufs_sub .., binary_bufs_sub .., unary_bufs_sub .., unary_bufs_sub .., binary_bufs_sub .., unary_bufs_sub .., reshape_bufs_sub .., unary_bufs_sub .., reshape_bufs_sub .., nullary_bufs_sub ..⟩
theorem Q35_fresh : (Q35 : List (HloOp τ sig (Elt F))).Forall fun op => op.fresh = ∅ := by
  simp only [List.Forall]; repeat' constructor
/-- The chunk writes only its operations' result buffers. -/
theorem Q35_untouched (V : Valuation τ sig (Elt F)) (b : Ref sig .tc)
    (hb : b ∉ ([main_v248, main_v249, main_v250, main_v251, main_v252, main_v253, main_v254, main_v255, main_v256, main_c_40] : List (Ref sig .tc))) :
    after (Q35 (F := F)) V (Proc.devRef .tc b) = V (Proc.devRef .tc b) :=
  StableHlo.after_of_forall_not_mem (b := Proc.devRef .tc b) _ _ (List.forall_iff_forall_mem.mp (by
    simp only [Q35, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 36: operations 306 … 318. -/
abbrev Q36 : List (HloOp τ sig (Elt F)) :=
  [ unary main_c_40 main_v257 (broadcastInDim S3200000 ![] bcast_S_S3200000 : (⟨S_, .i32⟩ : BufTy).Contents (Elt F) → (⟨S3200000, .i32⟩ : BufTy).Contents (Elt F)),
    binary main_v256 main_v257 main_v258 (cmpi .slt : (⟨S3200000, .i32⟩ : BufTy).Contents (Elt F) → (⟨S3200000, .i32⟩ : BufTy).Contents (Elt F) → (⟨S3200000, .i1⟩ : BufTy).Contents (Elt F)),
    nullary main_c_41 (constantI S_ 32 200000#32),
    unary main_c_41 main_v259 (broadcastInDim S3200000 ![] bcast_S_S3200000 : (⟨S_, .i32⟩ : BufTy).Contents (Elt F) → (⟨S3200000, .i32⟩ : BufTy).Contents (Elt F)),
    binary main_v256 main_v259 main_v260 (addi : (⟨S3200000, .i32⟩ : BufTy).Contents (Elt F) → (⟨S3200000, .i32⟩ : BufTy).Contents (Elt F) → (⟨S3200000, .i32⟩ : BufTy).Contents (Elt F)),
    ternary main_v258 main_v260 main_v256 main_v261 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v261 main_v262 (broadcastInDim S3200000x1 ![0] bcast_S3200000_S3200000x1_0 : (⟨S3200000, .i32⟩ : BufTy).Contents (Elt F) → (⟨S3200000x1, .i32⟩ : BufTy).Contents (Elt F)),
    binary main_v174 main_v262 main_v263 ((fun x i => Host.gather gather_S200000x32_S3200000x1_S3200000x32_1_0_n_n_0_1_132 x i) : (⟨S200000x32, .f32⟩ : BufTy).Contents (Elt F) → (⟨S3200000x1, .i32⟩ : BufTy).Contents (Elt F) → (⟨S3200000x32, .f32⟩ : BufTy).Contents (Elt F)),
    nullary main_cst_42 (constant S_ .f32 0x00000000#32),
    unary main_cst_42 main_v264 (broadcastInDim S200000x32 ![] bcast_S_S200000x32 : (⟨S_, .f32⟩ : BufTy).Contents (Elt F) → (⟨S200000x32, .f32⟩ : BufTy).Contents (Elt F)),
    unary main_v254 main_v265 (broadcastInDim S3200000x1 ![0] bcast_S3200000_S3200000x1_0 : (⟨S3200000, .i32⟩ : BufTy).Contents (Elt F) → (⟨S3200000x1, .i32⟩ : BufTy).Contents (Elt F)),
    ternary main_v264 main_v265 main_v263 main_v266 ((fun x i u => Host.scatterAdd scatter_S200000x32_S3200000x1_S3200000x32_1_0_0_1 x i u) : (⟨S200000x32, .f32⟩ : BufTy).Contents (Elt F) → (⟨S3200000x1, .i32⟩ : BufTy).Contents (Elt F) → (⟨S3200000x32, .f32⟩ : BufTy).Contents (Elt F) → (⟨S200000x32, .f32⟩ : BufTy).Contents (Elt F)),
    binary main_v252 main_v266 main_v267 (addf : (⟨S200000x32, .f32⟩ : BufTy).Contents (Elt F) → (⟨S200000x32, .f32⟩ : BufTy).Contents (Elt F) → (⟨S200000x32, .f32⟩ : BufTy).Contents (Elt F)) ]
set_option maxRecDepth 8192 in
theorem Q36_sub : (Q36 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub ..⟩
theorem Q36_fresh : (Q36 : List (HloOp τ sig (Elt F))).Forall fun op => op.fresh = ∅ := by
  simp only [List.Forall]; repeat' constructor
/-- The chunk writes only its operations' result buffers. -/
theorem Q36_untouched (V : Valuation τ sig (Elt F)) (b : Ref sig .tc)
    (hb : b ∉ ([main_v257, main_v258, main_c_41, main_v259, main_v260, main_v261, main_v262, main_v263, main_cst_42, main_v264, main_v265, main_v266, main_v267] : List (Ref sig .tc))) :
    after (Q36 (F := F)) V (Proc.devRef .tc b) = V (Proc.devRef .tc b) :=
  StableHlo.after_of_forall_not_mem (b := Proc.devRef .tc b) _ _ (List.forall_iff_forall_mem.mp (by
    simp only [Q36, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 37: operations 319 … 326. -/
abbrev Q37 : List (HloOp τ sig (Elt F)) :=
  [ unary main_arg3 main_v268 ((extractStridedSlice S1 ![2] · slices_S4_S1_2) : (⟨S4, .f32⟩ : BufTy).Contents (Elt F) → (⟨S1, .f32⟩ : BufTy).Contents (Elt F)),
    reshape main_v268 main_v269 rfl shapeCasts_S1_S_,
    unary main_v269 main_v270 (broadcastInDim S200000x32 ![] bcast_S_S200000x32 : (⟨S_, .f32⟩ : BufTy).Contents (Elt F) → (⟨S200000x32, .f32⟩ : BufTy).Contents (Elt F)),
    binary main_v267 main_v270 main_v271 (Host.divf : (⟨S200000x32, .f32⟩ : BufTy).Contents (Elt F) → (⟨S200000x32, .f32⟩ : BufTy).Contents (Elt F) → (⟨S200000x32, .f32⟩ : BufTy).Contents (Elt F)),
    unary main_arg0 main_v272 ((extractStridedSlice S1x200000x20 ![3, 0, 0] · slices_S4x200000x20_S1x200000x20_3_0_0) : (⟨S4x200000x20, .f32⟩ : BufTy).Contents (Elt F) → (⟨S1x200000x20, .f32⟩ : BufTy).Contents (Elt F)),
    reshape main_v272 main_v273 rfl shapeCasts_S1x200000x20_S200000x20,
    unary main_arg1 main_v274 ((extractStridedSlice S1x1x3200000 ![3, 1, 0] · slices_S4x2x3200000_S1x1x3200000_3_1_0) : (⟨S4x2x3200000, .i32⟩ : BufTy).Contents (Elt F) → (⟨S1x1x3200000, .i32⟩ : BufTy).Contents (Elt F)),
    reshape main_v274 main_v275 rfl shapeCasts_S1x1x3200000_S3200000 ]
set_option maxRecDepth 8192 in
theorem Q37_sub : (Q37 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., reshape_bufs_sub ..⟩
theorem Q37_fresh : (Q37 : List (HloOp τ sig (Elt F))).Forall fun op => op.fresh = ∅ := by
  simp only [List.Forall]; repeat' constructor
/-- The chunk writes only its operations' result buffers. -/
theorem Q37_untouched (V : Valuation τ sig (Elt F)) (b : Ref sig .tc)
    (hb : b ∉ ([main_v268, main_v269, main_v270, main_v271, main_v272, main_v273, main_v274, main_v275] : List (Ref sig .tc))) :
    after (Q37 (F := F)) V (Proc.devRef .tc b) = V (Proc.devRef .tc b) :=
  StableHlo.after_of_forall_not_mem (b := Proc.devRef .tc b) _ _ (List.forall_iff_forall_mem.mp (by
    simp only [Q37, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 38: operations 327 … 334. -/
abbrev Q38 : List (HloOp τ sig (Elt F)) :=
  [ unary main_arg1 main_v276 ((extractStridedSlice S1x1x3200000 ![3, 0, 0] · slices_S4x2x3200000_S1x1x3200000_3_0_0) : (⟨S4x2x3200000, .i32⟩ : BufTy).Contents (Elt F) → (⟨S1x1x3200000, .i32⟩ : BufTy).Contents (Elt F)),
    reshape main_v276 main_v277 rfl shapeCasts_S1x1x3200000_S3200000,
    unary main_arg4 main_v278 ((extractStridedSlice S1x20x32 ![3, 0, 0] · slices_S4x20x32_S1x20x32_3_0_0) : (⟨S4x20x32, .f32⟩ : BufTy).Contents (Elt F) → (⟨S1x20x32, .f32⟩ : BufTy).Contents (Elt F)),
    reshape main_v278 main_v279 rfl shapeCasts_S1x20x32_S20x32,
    unary main_arg5 main_v280 ((extractStridedSlice S1x32 ![3, 0] · slices_S4x32_S1x32_3_0) : (⟨S4x32, .f32⟩ : BufTy).Contents (Elt F) → (⟨S1x32, .f32⟩ : BufTy).Contents (Elt F)),
    reshape main_v280 main_v281 rfl shapeCasts_S1x32_S32,
    unary main_arg6 main_v282 ((extractStridedSlice S1x32x32 ![3, 0, 0] · slices_S4x32x32_S1x32x32_3_0_0) : (⟨S4x32x32, .f32⟩ : BufTy).Contents (Elt F) → (⟨S1x32x32, .f32⟩ : BufTy).Contents (Elt F)),
    reshape main_v282 main_v283 rfl shapeCasts_S1x32x32_S32x32 ]
set_option maxRecDepth 8192 in
theorem Q38_sub : (Q38 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub ..⟩
theorem Q38_fresh : (Q38 : List (HloOp τ sig (Elt F))).Forall fun op => op.fresh = ∅ := by
  simp only [List.Forall]; repeat' constructor
/-- The chunk writes only its operations' result buffers. -/
theorem Q38_untouched (V : Valuation τ sig (Elt F)) (b : Ref sig .tc)
    (hb : b ∉ ([main_v276, main_v277, main_v278, main_v279, main_v280, main_v281, main_v282, main_v283] : List (Ref sig .tc))) :
    after (Q38 (F := F)) V (Proc.devRef .tc b) = V (Proc.devRef .tc b) :=
  StableHlo.after_of_forall_not_mem (b := Proc.devRef .tc b) _ _ (List.forall_iff_forall_mem.mp (by
    simp only [Q38, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 39: operations 335 … 346. -/
abbrev Q39 : List (HloOp τ sig (Elt F)) :=
  [ unary main_arg7 main_v284 ((extractStridedSlice S1x32 ![3, 0] · slices_S4x32_S1x32_3_0) : (⟨S4x32, .f32⟩ : BufTy).Contents (Elt F) → (⟨S1x32, .f32⟩ : BufTy).Contents (Elt F)),
    reshape main_v284 main_v285 rfl shapeCasts_S1x32_S32,
    nullary main_cst_43 (constant S_ .f32 0x3F800000#32),
    unary main_cst_43 main_v286 (broadcastInDim S3200000 ![] bcast_S_S3200000 : (⟨S_, .f32⟩ : BufTy).Contents (Elt F) → (⟨S3200000, .f32⟩ : BufTy).Contents (Elt F)),
    nullary main_cst_44 (constant S_ .f32 0x00000000#32),
    unary main_cst_44 main_v287 (broadcastInDim S200000 ![] bcast_S_S200000 : (⟨S_, .f32⟩ : BufTy).Contents (Elt F) → (⟨S200000, .f32⟩ : BufTy).Contents (Elt F)),
    unary main_v277 main_v288 (broadcastInDim S3200000x1 ![0] bcast_S3200000_S3200000x1_0 : (⟨S3200000, .i32⟩ : BufTy).Contents (Elt F) → (⟨S3200000x1, .i32⟩ : BufTy).Contents (Elt F)),
    ternary main_v287 main_v288 main_v286 main_v289 ((fun x i u => Host.scatterAdd scatter_S200000_S3200000x1_S3200000_n_0_0_1 x i u) : (⟨S200000, .f32⟩ : BufTy).Contents (Elt F) → (⟨S3200000x1, .i32⟩ : BufTy).Contents (Elt F) → (⟨S3200000, .f32⟩ : BufTy).Contents (Elt F) → (⟨S200000, .f32⟩ : BufTy).Contents (Elt F)),
    nullary main_cst_45 (constant S_ .f32 0x3F800000#32),
    unary main_cst_45 main_v290 (broadcastInDim S200000 ![] bcast_S_S200000 : (⟨S_, .f32⟩ : BufTy).Contents (Elt F) → (⟨S200000, .f32⟩ : BufTy).Contents (Elt F)),
    binary main_v289 main_v290 main_v291 (addf : (⟨S200000, .f32⟩ : BufTy).Contents (Elt F) → (⟨S200000, .f32⟩ : BufTy).Contents (Elt F) → (⟨S200000, .f32⟩ : BufTy).Contents (Elt F)),
    unary main_v291 main_v292 (Host.rsqrt : (⟨S200000, .f32⟩ : BufTy).Contents (Elt F) → (⟨S200000, .f32⟩ : BufTy).Contents (Elt F)) ]
set_option maxRecDepth 8192 in
theorem Q39_sub : (Q39 : List (HloOp τ sig (Elt F))).Forall fun op => op.bufs ⊆ tcRefs τ sig :=
  ⟨unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub ..⟩
theorem Q39_fresh : (Q39 : List (HloOp τ sig (Elt F))).Forall fun op => op.fresh = ∅ := by
  simp only [List.Forall]; repeat' constructor
/-- The chunk writes only its operations' result buffers. -/
theorem Q39_untouched (V : Valuation τ sig (Elt F)) (b : Ref sig .tc)
    (hb : b ∉ ([main_v284, main_v285, main_cst_43, main_v286, main_cst_44, main_v287, main_v288, main_v289, main_cst_45, main_v290, main_v291, main_v292] : List (Ref sig .tc))) :
    after (Q39 (F := F)) V (Proc.devRef .tc b) = V (Proc.devRef .tc b) :=
  StableHlo.after_of_forall_not_mem (b := Proc.devRef .tc b) _ _ (List.forall_iff_forall_mem.mp (by
    simp only [Q39, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 40: operations 347 … 355. -/
abbrev Q40 : List (HloOp τ sig (Elt F)) :=
  [ nullary main_c_46 (constantI S_ 32 0#32),
    unary main_c_46 main_v293 (broadcastInDim S3200000 ![] bcast_S_S3200000 : (⟨S_, .i32⟩ : BufTy).Contents (Elt F) → (⟨S3200000, .i32⟩ : BufTy).Contents (Elt F)),
    binary main_v275 main_v293 main_v294 (cmpi .slt : (⟨S3200000, .i32⟩ : BufTy).Contents (Elt F) → (⟨S3200000, .i32⟩ : BufTy).Contents (Elt F) → (⟨S3200000, .i1⟩ : BufTy).Contents (Elt F)),
    nullary main_c_47 (constantI S_ 32 200000#32),
    unary main_c_47 main_v295 (broadcastInDim S3200000 ![] bcast_S_S3200000 : (⟨S_, .i32⟩ : BufTy).Contents (Elt F) → (⟨S3200000, .i32⟩ : BufTy).Contents (Elt F)),
    binary main_v275 main_v295 main_v296 (addi : (⟨S3200000, .i32⟩ : BufTy).Contents (Elt F) → (⟨S3200000, .i32⟩ : BufTy).Contents (Elt F) → (⟨S3200000, .i32⟩ : BufTy).Contents (Elt F)),
    ternary main_v294 main_v296 main_v275 main_v297 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v297 main_v298 (broadcastInDim S3200000x1 ![0] bcast_S3200000_S3200000x1_0 : (⟨S3200000, .i32⟩ : BufTy).Contents (Elt F) → (⟨S3200000x1, .i32⟩ : BufTy).Contents (Elt F)),
    binary main_v292 main_v298 main_v299 ((fun x i => Host.gather gather_S200000_S3200000x1_S3200000_n_0_n_n_0_1_1 x i) : (⟨S200000, .f32⟩ : BufTy).Contents (Elt F) → (⟨S3200000x1, .i32⟩ : BufTy).Contents (Elt F) → (⟨S3200000, .f32⟩ : BufTy).Contents (Elt F)) ]
set_option maxRecDepth 8192 in
theorem Q40_sub : (Q40 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem Q40_fresh : (Q40 : List (HloOp τ sig (Elt F))).Forall fun op => op.fresh = ∅ := by
  simp only [List.Forall]; repeat' constructor
/-- The chunk writes only its operations' result buffers. -/
theorem Q40_untouched (V : Valuation τ sig (Elt F)) (b : Ref sig .tc)
    (hb : b ∉ ([main_c_46, main_v293, main_v294, main_c_47, main_v295, main_v296, main_v297, main_v298, main_v299] : List (Ref sig .tc))) :
    after (Q40 (F := F)) V (Proc.devRef .tc b) = V (Proc.devRef .tc b) :=
  StableHlo.after_of_forall_not_mem (b := Proc.devRef .tc b) _ _ (List.forall_iff_forall_mem.mp (by
    simp only [Q40, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 41: operations 356 … 365. -/
abbrev Q41 : List (HloOp τ sig (Elt F)) :=
  [ nullary main_c_48 (constantI S_ 32 0#32),
    unary main_c_48 main_v300 (broadcastInDim S3200000 ![] bcast_S_S3200000 : (⟨S_, .i32⟩ : BufTy).Contents (Elt F) → (⟨S3200000, .i32⟩ : BufTy).Contents (Elt F)),
    binary main_v277 main_v300 main_v301 (cmpi .slt : (⟨S3200000, .i32⟩ : BufTy).Contents (Elt F) → (⟨S3200000, .i32⟩ : BufTy).Contents (Elt F) → (⟨S3200000, .i1⟩ : BufTy).Contents (Elt F)),
    nullary main_c_49 (constantI S_ 32 200000#32),
    unary main_c_49 main_v302 (broadcastInDim S3200000 ![] bcast_S_S3200000 : (⟨S_, .i32⟩ : BufTy).Contents (Elt F) → (⟨S3200000, .i32⟩ : BufTy).Contents (Elt F)),
    binary main_v277 main_v302 main_v303 (addi : (⟨S3200000, .i32⟩ : BufTy).Contents (Elt F) → (⟨S3200000, .i32⟩ : BufTy).Contents (Elt F) → (⟨S3200000, .i32⟩ : BufTy).Contents (Elt F)),
    ternary main_v301 main_v303 main_v277 main_v304 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v304 main_v305 (broadcastInDim S3200000x1 ![0] bcast_S3200000_S3200000x1_0 : (⟨S3200000, .i32⟩ : BufTy).Contents (Elt F) → (⟨S3200000x1, .i32⟩ : BufTy).Contents (Elt F)),
    binary main_v292 main_v305 main_v306 ((fun x i => Host.gather gather_S200000_S3200000x1_S3200000_n_0_n_n_0_1_1 x i) : (⟨S200000, .f32⟩ : BufTy).Contents (Elt F) → (⟨S3200000x1, .i32⟩ : BufTy).Contents (Elt F) → (⟨S3200000, .f32⟩ : BufTy).Contents (Elt F)),
    binary main_v299 main_v306 main_v307 (mulf : (⟨S3200000, .f32⟩ : BufTy).Contents (Elt F) → (⟨S3200000, .f32⟩ : BufTy).Contents (Elt F) → (⟨S3200000, .f32⟩ : BufTy).Contents (Elt F)) ]
set_option maxRecDepth 8192 in
theorem Q41_sub : (Q41 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub ..⟩
theorem Q41_fresh : (Q41 : List (HloOp τ sig (Elt F))).Forall fun op => op.fresh = ∅ := by
  simp only [List.Forall]; repeat' constructor
/-- The chunk writes only its operations' result buffers. -/
theorem Q41_untouched (V : Valuation τ sig (Elt F)) (b : Ref sig .tc)
    (hb : b ∉ ([main_c_48, main_v300, main_v301, main_c_49, main_v302, main_v303, main_v304, main_v305, main_v306, main_v307] : List (Ref sig .tc))) :
    after (Q41 (F := F)) V (Proc.devRef .tc b) = V (Proc.devRef .tc b) :=
  StableHlo.after_of_forall_not_mem (b := Proc.devRef .tc b) _ _ (List.forall_iff_forall_mem.mp (by
    simp only [Q41, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 42: operations 366 … 368. -/
abbrev Q42 : List (HloOp τ sig (Elt F)) :=
  [ unary main_v307 main_v308 (broadcastInDim S3200000x1 ![0] bcast_S3200000_S3200000x1_0 : (⟨S3200000, .f32⟩ : BufTy).Contents (Elt F) → (⟨S3200000x1, .f32⟩ : BufTy).Contents (Elt F)),
    binary main_v292 main_v292 main_v309 (mulf : (⟨S200000, .f32⟩ : BufTy).Contents (Elt F) → (⟨S200000, .f32⟩ : BufTy).Contents (Elt F) → (⟨S200000, .f32⟩ : BufTy).Contents (Elt F)),
    unary main_v309 main_v310 (broadcastInDim S200000x1 ![0] bcast_S200000_S200000x1_0 : (⟨S200000, .f32⟩ : BufTy).Contents (Elt F) → (⟨S200000x1, .f32⟩ : BufTy).Contents (Elt F)) ]
set_option maxRecDepth 8192 in
theorem Q42_sub : (Q42 : List (HloOp τ sig (Elt F))).Forall fun op => op.bufs ⊆ tcRefs τ sig :=
  ⟨unary_bufs_sub .., binary_bufs_sub .., unary_bufs_sub ..⟩
theorem Q42_fresh : (Q42 : List (HloOp τ sig (Elt F))).Forall fun op => op.fresh = ∅ := by
  simp only [List.Forall]; repeat' constructor
/-- The chunk writes only its operations' result buffers. -/
theorem Q42_untouched (V : Valuation τ sig (Elt F)) (b : Ref sig .tc)
    (hb : b ∉ ([main_v308, main_v309, main_v310] : List (Ref sig .tc))) :
    after (Q42 (F := F)) V (Proc.devRef .tc b) = V (Proc.devRef .tc b) :=
  StableHlo.after_of_forall_not_mem (b := Proc.devRef .tc b) _ _ (List.forall_iff_forall_mem.mp (by
    simp only [Q42, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 43: operations 369 … 369. -/
abbrev Q43 : List (HloOp τ sig (Elt F)) :=
  [ binary main_v273 main_v279 main_v311 ((fun l r => Host.dotGeneral dot_S200000x20_S20x32_S200000x32_1_0_0_1_n_n none l r) : (⟨S200000x20, .f32⟩ : BufTy).Contents (Elt F) → (⟨S20x32, .f32⟩ : BufTy).Contents (Elt F) → (⟨S200000x32, .f32⟩ : BufTy).Contents (Elt F)) ]
set_option maxRecDepth 8192 in
theorem Q43_sub : (Q43 : List (HloOp τ sig (Elt F))).Forall fun op => op.bufs ⊆ tcRefs τ sig :=
  binary_bufs_sub ..
theorem Q43_fresh : (Q43 : List (HloOp τ sig (Elt F))).Forall fun op => op.fresh = ∅ := by
  simp only [List.Forall]; repeat' constructor
/-- The chunk writes only its operations' result buffers. -/
theorem Q43_untouched (V : Valuation τ sig (Elt F)) (b : Ref sig .tc)
    (hb : b ∉ ([main_v311] : List (Ref sig .tc))) :
    after (Q43 (F := F)) V (Proc.devRef .tc b) = V (Proc.devRef .tc b) :=
  StableHlo.after_of_forall_not_mem (b := Proc.devRef .tc b) _ _ (List.forall_iff_forall_mem.mp (by
    simp only [Q43, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 44: operations 370 … 384. -/
abbrev Q44 : List (HloOp τ sig (Elt F)) :=
  [ nullary main_c_50 (constantI S_ 32 0#32),
    unary main_c_50 main_v312 (broadcastInDim S3200000 ![] bcast_S_S3200000 : (⟨S_, .i32⟩ : BufTy).Contents (Elt F) → (⟨S3200000, .i32⟩ : BufTy).Contents (Elt F)),
    binary main_v275 main_v312 main_v313 (cmpi .slt : (⟨S3200000, .i32⟩ : BufTy).Contents (Elt F) → (⟨S3200000, .i32⟩ : BufTy).Contents (Elt F) → (⟨S3200000, .i1⟩ : BufTy).Contents (Elt F)),
    nullary main_c_51 (constantI S_ 32 200000#32),
    unary main_c_51 main_v314 (broadcastInDim S3200000 ![] bcast_S_S3200000 : (⟨S_, .i32⟩ : BufTy).Contents (Elt F) → (⟨S3200000, .i32⟩ : BufTy).Contents (Elt F)),
    binary main_v275 main_v314 main_v315 (addi : (⟨S3200000, .i32⟩ : BufTy).Contents (Elt F) → (⟨S3200000, .i32⟩ : BufTy).Contents (Elt F) → (⟨S3200000, .i32⟩ : BufTy).Contents (Elt F)),
    ternary main_v313 main_v315 main_v275 main_v316 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v316 main_v317 (broadcastInDim S3200000x1 ![0] bcast_S3200000_S3200000x1_0 : (⟨S3200000, .i32⟩ : BufTy).Contents (Elt F) → (⟨S3200000x1, .i32⟩ : BufTy).Contents (Elt F)),
    binary main_v311 main_v317 main_v318 ((fun x i => Host.gather gather_S200000x32_S3200000x1_S3200000x32_1_0_n_n_0_1_132 x i) : (⟨S200000x32, .f32⟩ : BufTy).Contents (Elt F) → (⟨S3200000x1, .i32⟩ : BufTy).Contents (Elt F) → (⟨S3200000x32, .f32⟩ : BufTy).Contents (Elt F)),
    unary main_v308 main_v319 (broadcastInDim S3200000x32 ![0, 1] bcast_S3200000x1_S3200000x32_0_1 : (⟨S3200000x1, .f32⟩ : BufTy).Contents (Elt F) → (⟨S3200000x32, .f32⟩ : BufTy).Contents (Elt F)),
    binary main_v318 main_v319 main_v320 (mulf : (⟨S3200000x32, .f32⟩ : BufTy).Contents (Elt F) → (⟨S3200000x32, .f32⟩ : BufTy).Contents (Elt F) → (⟨S3200000x32, .f32⟩ : BufTy).Contents (Elt F)),
    nullary main_cst_52 (constant S_ .f32 0x00000000#32),
    unary main_cst_52 main_v321 (broadcastInDim S200000x32 ![] bcast_S_S200000x32 : (⟨S_, .f32⟩ : BufTy).Contents (Elt F) → (⟨S200000x32, .f32⟩ : BufTy).Contents (Elt F)),
    unary main_v277 main_v322 (broadcastInDim S3200000x1 ![0] bcast_S3200000_S3200000x1_0 : (⟨S3200000, .i32⟩ : BufTy).Contents (Elt F) → (⟨S3200000x1, .i32⟩ : BufTy).Contents (Elt F)),
    ternary main_v321 main_v322 main_v320 main_v323 ((fun x i u => Host.scatterAdd scatter_S200000x32_S3200000x1_S3200000x32_1_0_0_1 x i u) : (⟨S200000x32, .f32⟩ : BufTy).Contents (Elt F) → (⟨S3200000x1, .i32⟩ : BufTy).Contents (Elt F) → (⟨S3200000x32, .f32⟩ : BufTy).Contents (Elt F) → (⟨S200000x32, .f32⟩ : BufTy).Contents (Elt F)) ]
set_option maxRecDepth 8192 in
theorem Q44_sub : (Q44 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem Q44_fresh : (Q44 : List (HloOp τ sig (Elt F))).Forall fun op => op.fresh = ∅ := by
  simp only [List.Forall]; repeat' constructor
/-- The chunk writes only its operations' result buffers. -/
theorem Q44_untouched (V : Valuation τ sig (Elt F)) (b : Ref sig .tc)
    (hb : b ∉ ([main_c_50, main_v312, main_v313, main_c_51, main_v314, main_v315, main_v316, main_v317, main_v318, main_v319, main_v320, main_cst_52, main_v321, main_v322, main_v323] : List (Ref sig .tc))) :
    after (Q44 (F := F)) V (Proc.devRef .tc b) = V (Proc.devRef .tc b) :=
  StableHlo.after_of_forall_not_mem (b := Proc.devRef .tc b) _ _ (List.forall_iff_forall_mem.mp (by
    simp only [Q44, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 45: operations 385 … 390. -/
abbrev Q45 : List (HloOp τ sig (Elt F)) :=
  [ unary main_v310 main_v324 (broadcastInDim S200000x32 ![0, 1] bcast_S200000x1_S200000x32_0_1 : (⟨S200000x1, .f32⟩ : BufTy).Contents (Elt F) → (⟨S200000x32, .f32⟩ : BufTy).Contents (Elt F)),
    binary main_v311 main_v324 main_v325 (mulf : (⟨S200000x32, .f32⟩ : BufTy).Contents (Elt F) → (⟨S200000x32, .f32⟩ : BufTy).Contents (Elt F) → (⟨S200000x32, .f32⟩ : BufTy).Contents (Elt F)),
    binary main_v323 main_v325 main_v326 (addf : (⟨S200000x32, .f32⟩ : BufTy).Contents (Elt F) → (⟨S200000x32, .f32⟩ : BufTy).Contents (Elt F) → (⟨S200000x32, .f32⟩ : BufTy).Contents (Elt F)),
    unary main_v281 main_v327 (broadcastInDim S1x32 ![1] bcast_S32_S1x32_1 : (⟨S32, .f32⟩ : BufTy).Contents (Elt F) → (⟨S1x32, .f32⟩ : BufTy).Contents (Elt F)),
    unary main_v327 main_v328 (broadcastInDim S200000x32 ![0, 1] bcast_S1x32_S200000x32_0_1 : (⟨S1x32, .f32⟩ : BufTy).Contents (Elt F) → (⟨S200000x32, .f32⟩ : BufTy).Contents (Elt F)),
    binary main_v326 main_v328 main_v329 (addf : (⟨S200000x32, .f32⟩ : BufTy).Contents (Elt F) → (⟨S200000x32, .f32⟩ : BufTy).Contents (Elt F) → (⟨S200000x32, .f32⟩ : BufTy).Contents (Elt F)) ]
set_option maxRecDepth 8192 in
theorem Q45_sub : (Q45 : List (HloOp τ sig (Elt F))).Forall fun op => op.bufs ⊆ tcRefs τ sig :=
  ⟨unary_bufs_sub .., binary_bufs_sub .., binary_bufs_sub .., unary_bufs_sub .., unary_bufs_sub .., binary_bufs_sub ..⟩
theorem Q45_fresh : (Q45 : List (HloOp τ sig (Elt F))).Forall fun op => op.fresh = ∅ := by
  simp only [List.Forall]; repeat' constructor
/-- The chunk writes only its operations' result buffers. -/
theorem Q45_untouched (V : Valuation τ sig (Elt F)) (b : Ref sig .tc)
    (hb : b ∉ ([main_v324, main_v325, main_v326, main_v327, main_v328, main_v329] : List (Ref sig .tc))) :
    after (Q45 (F := F)) V (Proc.devRef .tc b) = V (Proc.devRef .tc b) :=
  StableHlo.after_of_forall_not_mem (b := Proc.devRef .tc b) _ _ (List.forall_iff_forall_mem.mp (by
    simp only [Q45, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 46: operations 391 … 393. -/
abbrev Q46 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S200000x32, .f32⟩) main_call3_v0) (broadcastInDim S200000x32 ![] bcast_S_S200000x32),
    TRef.binary (TRef.of (T := ⟨S200000x32, .f32⟩) main_v329) (TRef.of (T := ⟨S200000x32, .f32⟩) main_call3_v0) (TRef.of (T := ⟨S200000x32, .f32⟩) main_v330) maximumf ]
set_option maxRecDepth 8192 in
theorem Q46_sub : (Q46 : List (HloOp τ sig (Elt F))).Forall fun op => op.bufs ⊆ tcRefs τ sig :=
  ⟨nullary_bufs_sub .., unary_bufs_sub .., binary_bufs_sub ..⟩
theorem Q46_fresh : (Q46 : List (HloOp τ sig (Elt F))).Forall fun op => op.fresh = ∅ := by
  simp only [List.Forall]; repeat' constructor
/-- The chunk writes only its operations' result buffers. -/
theorem Q46_untouched (V : Valuation τ sig (Elt F)) (b : Ref sig .tc)
    (hb : b ∉ ([main_call3_cst, main_call3_v0, main_v330] : List (Ref sig .tc))) :
    after (Q46 (F := F)) V (Proc.devRef .tc b) = V (Proc.devRef .tc b) :=
  StableHlo.after_of_forall_not_mem (b := Proc.devRef .tc b) _ _ (List.forall_iff_forall_mem.mp (by
    simp only [Q46, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 47: operations 394 … 394. -/
abbrev Q47 : List (HloOp τ sig (Elt F)) :=
  [ binary main_v330 main_v283 main_v331 ((fun l r => Host.dotGeneral dot_S200000x32_S32x32_S200000x32_1_0_0_1_n_n none l r) : (⟨S200000x32, .f32⟩ : BufTy).Contents (Elt F) → (⟨S32x32, .f32⟩ : BufTy).Contents (Elt F) → (⟨S200000x32, .f32⟩ : BufTy).Contents (Elt F)) ]
set_option maxRecDepth 8192 in
theorem Q47_sub : (Q47 : List (HloOp τ sig (Elt F))).Forall fun op => op.bufs ⊆ tcRefs τ sig :=
  binary_bufs_sub ..
theorem Q47_fresh : (Q47 : List (HloOp τ sig (Elt F))).Forall fun op => op.fresh = ∅ := by
  simp only [List.Forall]; repeat' constructor
/-- The chunk writes only its operations' result buffers. -/
theorem Q47_untouched (V : Valuation τ sig (Elt F)) (b : Ref sig .tc)
    (hb : b ∉ ([main_v331] : List (Ref sig .tc))) :
    after (Q47 (F := F)) V (Proc.devRef .tc b) = V (Proc.devRef .tc b) :=
  StableHlo.after_of_forall_not_mem (b := Proc.devRef .tc b) _ _ (List.forall_iff_forall_mem.mp (by
    simp only [Q47, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 48: operations 395 … 410. -/
abbrev Q48 : List (HloOp τ sig (Elt F)) :=
  [ nullary main_c_53 (constantI S_ 32 0#32),
    unary main_c_53 main_v332 (broadcastInDim S3200000 ![] bcast_S_S3200000 : (⟨S_, .i32⟩ : BufTy).Contents (Elt F) → (⟨S3200000, .i32⟩ : BufTy).Contents (Elt F)),
    binary main_v275 main_v332 main_v333 (cmpi .slt : (⟨S3200000, .i32⟩ : BufTy).Contents (Elt F) → (⟨S3200000, .i32⟩ : BufTy).Contents (Elt F) → (⟨S3200000, .i1⟩ : BufTy).Contents (Elt F)),
    nullary main_c_54 (constantI S_ 32 200000#32),
    unary main_c_54 main_v334 (broadcastInDim S3200000 ![] bcast_S_S3200000 : (⟨S_, .i32⟩ : BufTy).Contents (Elt F) → (⟨S3200000, .i32⟩ : BufTy).Contents (Elt F)),
    binary main_v275 main_v334 main_v335 (addi : (⟨S3200000, .i32⟩ : BufTy).Contents (Elt F) → (⟨S3200000, .i32⟩ : BufTy).Contents (Elt F) → (⟨S3200000, .i32⟩ : BufTy).Contents (Elt F)),
    ternary main_v333 main_v335 main_v275 main_v336 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v336 main_v337 (broadcastInDim S3200000x1 ![0] bcast_S3200000_S3200000x1_0 : (⟨S3200000, .i32⟩ : BufTy).Contents (Elt F) → (⟨S3200000x1, .i32⟩ : BufTy).Contents (Elt F)),
    binary main_v331 main_v337 main_v338 ((fun x i => Host.gather gather_S200000x32_S3200000x1_S3200000x32_1_0_n_n_0_1_132 x i) : (⟨S200000x32, .f32⟩ : BufTy).Contents (Elt F) → (⟨S3200000x1, .i32⟩ : BufTy).Contents (Elt F) → (⟨S3200000x32, .f32⟩ : BufTy).Contents (Elt F)),
    unary main_v308 main_v339 (broadcastInDim S3200000x32 ![0, 1] bcast_S3200000x1_S3200000x32_0_1 : (⟨S3200000x1, .f32⟩ : BufTy).Contents (Elt F) → (⟨S3200000x32, .f32⟩ : BufTy).Contents (Elt F)),
    binary main_v338 main_v339 main_v340 (mulf : (⟨S3200000x32, .f32⟩ : BufTy).Contents (Elt F) → (⟨S3200000x32, .f32⟩ : BufTy).Contents (Elt F) → (⟨S3200000x32, .f32⟩ : BufTy).Contents (Elt F)),
    nullary main_cst_55 (constant S_ .f32 0x00000000#32),
    unary main_cst_55 main_v341 (broadcastInDim S200000x32 ![] bcast_S_S200000x32 : (⟨S_, .f32⟩ : BufTy).Contents (Elt F) → (⟨S200000x32, .f32⟩ : BufTy).Contents (Elt F)),
    unary main_v277 main_v342 (broadcastInDim S3200000x1 ![0] bcast_S3200000_S3200000x1_0 : (⟨S3200000, .i32⟩ : BufTy).Contents (Elt F) → (⟨S3200000x1, .i32⟩ : BufTy).Contents (Elt F)),
    ternary main_v341 main_v342 main_v340 main_v343 ((fun x i u => Host.scatterAdd scatter_S200000x32_S3200000x1_S3200000x32_1_0_0_1 x i u) : (⟨S200000x32, .f32⟩ : BufTy).Contents (Elt F) → (⟨S3200000x1, .i32⟩ : BufTy).Contents (Elt F) → (⟨S3200000x32, .f32⟩ : BufTy).Contents (Elt F) → (⟨S200000x32, .f32⟩ : BufTy).Contents (Elt F)),
    unary main_v310 main_v344 (broadcastInDim S200000x32 ![0, 1] bcast_S200000x1_S200000x32_0_1 : (⟨S200000x1, .f32⟩ : BufTy).Contents (Elt F) → (⟨S200000x32, .f32⟩ : BufTy).Contents (Elt F)) ]
set_option maxRecDepth 8192 in
theorem Q48_sub : (Q48 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub ..⟩
theorem Q48_fresh : (Q48 : List (HloOp τ sig (Elt F))).Forall fun op => op.fresh = ∅ := by
  simp only [List.Forall]; repeat' constructor
/-- The chunk writes only its operations' result buffers. -/
theorem Q48_untouched (V : Valuation τ sig (Elt F)) (b : Ref sig .tc)
    (hb : b ∉ ([main_c_53, main_v332, main_v333, main_c_54, main_v334, main_v335, main_v336, main_v337, main_v338, main_v339, main_v340, main_cst_55, main_v341, main_v342, main_v343, main_v344] : List (Ref sig .tc))) :
    after (Q48 (F := F)) V (Proc.devRef .tc b) = V (Proc.devRef .tc b) :=
  StableHlo.after_of_forall_not_mem (b := Proc.devRef .tc b) _ _ (List.forall_iff_forall_mem.mp (by
    simp only [Q48, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 49: operations 411 … 426. -/
abbrev Q49 : List (HloOp τ sig (Elt F)) :=
  [ binary main_v331 main_v344 main_v345 (mulf : (⟨S200000x32, .f32⟩ : BufTy).Contents (Elt F) → (⟨S200000x32, .f32⟩ : BufTy).Contents (Elt F) → (⟨S200000x32, .f32⟩ : BufTy).Contents (Elt F)),
    binary main_v343 main_v345 main_v346 (addf : (⟨S200000x32, .f32⟩ : BufTy).Contents (Elt F) → (⟨S200000x32, .f32⟩ : BufTy).Contents (Elt F) → (⟨S200000x32, .f32⟩ : BufTy).Contents (Elt F)),
    unary main_v285 main_v347 (broadcastInDim S1x32 ![1] bcast_S32_S1x32_1 : (⟨S32, .f32⟩ : BufTy).Contents (Elt F) → (⟨S1x32, .f32⟩ : BufTy).Contents (Elt F)),
    unary main_v347 main_v348 (broadcastInDim S200000x32 ![0, 1] bcast_S1x32_S200000x32_0_1 : (⟨S1x32, .f32⟩ : BufTy).Contents (Elt F) → (⟨S200000x32, .f32⟩ : BufTy).Contents (Elt F)),
    binary main_v346 main_v348 main_v349 (addf : (⟨S200000x32, .f32⟩ : BufTy).Contents (Elt F) → (⟨S200000x32, .f32⟩ : BufTy).Contents (Elt F) → (⟨S200000x32, .f32⟩ : BufTy).Contents (Elt F)),
    unary main_arg2 main_v350 ((extractStridedSlice S1x1x3200000 ![3, 0, 0] · slices_S4x2x3200000_S1x1x3200000_3_0_0) : (⟨S4x2x3200000, .i32⟩ : BufTy).Contents (Elt F) → (⟨S1x1x3200000, .i32⟩ : BufTy).Contents (Elt F)),
    reshape main_v350 main_v351 rfl shapeCasts_S1x1x3200000_S3200000,
    unary main_arg2 main_v352 ((extractStridedSlice S1x1x3200000 ![3, 1, 0] · slices_S4x2x3200000_S1x1x3200000_3_1_0) : (⟨S4x2x3200000, .i32⟩ : BufTy).Contents (Elt F) → (⟨S1x1x3200000, .i32⟩ : BufTy).Contents (Elt F)),
    reshape main_v352 main_v353 rfl shapeCasts_S1x1x3200000_S3200000,
    nullary main_c_56 (constantI S_ 32 0#32),
    unary main_c_56 main_v354 (broadcastInDim S3200000 ![] bcast_S_S3200000 : (⟨S_, .i32⟩ : BufTy).Contents (Elt F) → (⟨S3200000, .i32⟩ : BufTy).Contents (Elt F)),
    binary main_v353 main_v354 main_v355 (cmpi .slt : (⟨S3200000, .i32⟩ : BufTy).Contents (Elt F) → (⟨S3200000, .i32⟩ : BufTy).Contents (Elt F) → (⟨S3200000, .i1⟩ : BufTy).Contents (Elt F)),
    nullary main_c_57 (constantI S_ 32 200000#32),
    unary main_c_57 main_v356 (broadcastInDim S3200000 ![] bcast_S_S3200000 : (⟨S_, .i32⟩ : BufTy).Contents (Elt F) → (⟨S3200000, .i32⟩ : BufTy).Contents (Elt F)),
    binary main_v353 main_v356 main_v357 (addi : (⟨S3200000, .i32⟩ : BufTy).Contents (Elt F) → (⟨S3200000, .i32⟩ : BufTy).Contents (Elt F) → (⟨S3200000, .i32⟩ : BufTy).Contents (Elt F)),
    ternary main_v355 main_v357 main_v353 main_v358 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)) ]
set_option maxRecDepth 8192 in
theorem Q49_sub : (Q49 : List (HloOp τ sig (Elt F))).Forall fun op => op.bufs ⊆ tcRefs τ sig :=
  ⟨binary_bufs_sub .., binary_bufs_sub .., unary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub ..⟩
theorem Q49_fresh : (Q49 : List (HloOp τ sig (Elt F))).Forall fun op => op.fresh = ∅ := by
  simp only [List.Forall]; repeat' constructor
/-- The chunk writes only its operations' result buffers. -/
theorem Q49_untouched (V : Valuation τ sig (Elt F)) (b : Ref sig .tc)
    (hb : b ∉ ([main_v345, main_v346, main_v347, main_v348, main_v349, main_v350, main_v351, main_v352, main_v353, main_c_56, main_v354, main_v355, main_c_57, main_v356, main_v357, main_v358] : List (Ref sig .tc))) :
    after (Q49 (F := F)) V (Proc.devRef .tc b) = V (Proc.devRef .tc b) :=
  StableHlo.after_of_forall_not_mem (b := Proc.devRef .tc b) _ _ (List.forall_iff_forall_mem.mp (by
    simp only [Q49, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 50: operations 427 … 427. -/
abbrev Q50 : List (HloOp τ sig (Elt F)) :=
  [ unary main_v358 main_v359 (broadcastInDim S3200000x1 ![0] bcast_S3200000_S3200000x1_0 : (⟨S3200000, .i32⟩ : BufTy).Contents (Elt F) → (⟨S3200000x1, .i32⟩ : BufTy).Contents (Elt F)) ]
set_option maxRecDepth 8192 in
theorem Q50_sub : (Q50 : List (HloOp τ sig (Elt F))).Forall fun op => op.bufs ⊆ tcRefs τ sig :=
  unary_bufs_sub ..
theorem Q50_fresh : (Q50 : List (HloOp τ sig (Elt F))).Forall fun op => op.fresh = ∅ := by
  simp only [List.Forall]; repeat' constructor
/-- The chunk writes only its operations' result buffers. -/
theorem Q50_untouched (V : Valuation τ sig (Elt F)) (b : Ref sig .tc)
    (hb : b ∉ ([main_v359] : List (Ref sig .tc))) :
    after (Q50 (F := F)) V (Proc.devRef .tc b) = V (Proc.devRef .tc b) :=
  StableHlo.after_of_forall_not_mem (b := Proc.devRef .tc b) _ _ (List.forall_iff_forall_mem.mp (by
    simp only [Q50, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 51: operations 428 … 437. -/
abbrev Q51 : List (HloOp τ sig (Elt F)) :=
  [ binary main_v271 main_v359 main_v360 ((fun x i => Host.gather gather_S200000x32_S3200000x1_S3200000x32_1_0_n_n_0_1_132 x i) : (⟨S200000x32, .f32⟩ : BufTy).Contents (Elt F) → (⟨S3200000x1, .i32⟩ : BufTy).Contents (Elt F) → (⟨S3200000x32, .f32⟩ : BufTy).Contents (Elt F)),
    nullary main_cst_58 (constant S_ .f32 0x00000000#32),
    unary main_cst_58 main_v361 (broadcastInDim S200000x32 ![] bcast_S_S200000x32 : (⟨S_, .f32⟩ : BufTy).Contents (Elt F) → (⟨S200000x32, .f32⟩ : BufTy).Contents (Elt F)),
    unary main_v351 main_v362 (broadcastInDim S3200000x1 ![0] bcast_S3200000_S3200000x1_0 : (⟨S3200000, .i32⟩ : BufTy).Contents (Elt F) → (⟨S3200000x1, .i32⟩ : BufTy).Contents (Elt F)),
    ternary main_v361 main_v362 main_v360 main_v363 ((fun x i u => Host.scatterAdd scatter_S200000x32_S3200000x1_S3200000x32_1_0_0_1 x i u) : (⟨S200000x32, .f32⟩ : BufTy).Contents (Elt F) → (⟨S3200000x1, .i32⟩ : BufTy).Contents (Elt F) → (⟨S3200000x32, .f32⟩ : BufTy).Contents (Elt F) → (⟨S200000x32, .f32⟩ : BufTy).Contents (Elt F)),
    binary main_v349 main_v363 main_v364 (addf : (⟨S200000x32, .f32⟩ : BufTy).Contents (Elt F) → (⟨S200000x32, .f32⟩ : BufTy).Contents (Elt F) → (⟨S200000x32, .f32⟩ : BufTy).Contents (Elt F)),
    unary main_arg3 main_v365 ((extractStridedSlice S1 ![3] · slices_S4_S1_3) : (⟨S4, .f32⟩ : BufTy).Contents (Elt F) → (⟨S1, .f32⟩ : BufTy).Contents (Elt F)),
    reshape main_v365 main_v366 rfl shapeCasts_S1_S_,
    unary main_v366 main_v367 (broadcastInDim S200000x32 ![] bcast_S_S200000x32 : (⟨S_, .f32⟩ : BufTy).Contents (Elt F) → (⟨S200000x32, .f32⟩ : BufTy).Contents (Elt F)),
    binary main_v364 main_v367 main_v368 (Host.divf : (⟨S200000x32, .f32⟩ : BufTy).Contents (Elt F) → (⟨S200000x32, .f32⟩ : BufTy).Contents (Elt F) → (⟨S200000x32, .f32⟩ : BufTy).Contents (Elt F)) ]
set_option maxRecDepth 8192 in
theorem Q51_sub : (Q51 : List (HloOp τ sig (Elt F))).Forall fun op => op.bufs ⊆ tcRefs τ sig :=
  ⟨binary_bufs_sub .., nullary_bufs_sub .., unary_bufs_sub .., unary_bufs_sub .., ternary_bufs_sub .., binary_bufs_sub .., unary_bufs_sub .., reshape_bufs_sub .., unary_bufs_sub .., binary_bufs_sub ..⟩
theorem Q51_fresh : (Q51 : List (HloOp τ sig (Elt F))).Forall fun op => op.fresh = ∅ := by
  simp only [List.Forall]; repeat' constructor
/-- The chunk writes only its operations' result buffers. -/
theorem Q51_untouched (V : Valuation τ sig (Elt F)) (b : Ref sig .tc)
    (hb : b ∉ ([main_v360, main_cst_58, main_v361, main_v362, main_v363, main_v364, main_v365, main_v366, main_v367, main_v368] : List (Ref sig .tc))) :
    after (Q51 (F := F)) V (Proc.devRef .tc b) = V (Proc.devRef .tc b) :=
  StableHlo.after_of_forall_not_mem (b := Proc.devRef .tc b) _ _ (List.forall_iff_forall_mem.mp (by
    simp only [Q51, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 52: operations 438 … 438. -/
abbrev Q52 : List (HloOp τ sig (Elt F)) :=
  [ binary main_v368 main_arg8 main_v369 ((fun l r => Host.dotGeneral dot_S200000x32_S32x64_S200000x64_1_0_0_1_n_n none l r) : (⟨S200000x32, .f32⟩ : BufTy).Contents (Elt F) → (⟨S32x64, .f32⟩ : BufTy).Contents (Elt F) → (⟨S200000x64, .f32⟩ : BufTy).Contents (Elt F)) ]
set_option maxRecDepth 8192 in
theorem Q52_sub : (Q52 : List (HloOp τ sig (Elt F))).Forall fun op => op.bufs ⊆ tcRefs τ sig :=
  binary_bufs_sub ..
theorem Q52_fresh : (Q52 : List (HloOp τ sig (Elt F))).Forall fun op => op.fresh = ∅ := by
  simp only [List.Forall]; repeat' constructor
/-- The chunk writes only its operations' result buffers. -/
theorem Q52_untouched (V : Valuation τ sig (Elt F)) (b : Ref sig .tc)
    (hb : b ∉ ([main_v369] : List (Ref sig .tc))) :
    after (Q52 (F := F)) V (Proc.devRef .tc b) = V (Proc.devRef .tc b) :=
  StableHlo.after_of_forall_not_mem (b := Proc.devRef .tc b) _ _ (List.forall_iff_forall_mem.mp (by
    simp only [Q52, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 53: operations 439 … 441. -/
abbrev Q53 : List (HloOp τ sig (Elt F)) :=
  [ unary main_arg9 main_v370 (broadcastInDim S1x64 ![1] bcast_S64_S1x64_1 : (⟨S64, .f32⟩ : BufTy).Contents (Elt F) → (⟨S1x64, .f32⟩ : BufTy).Contents (Elt F)),
    unary main_v370 main_v371 (broadcastInDim S200000x64 ![0, 1] bcast_S1x64_S200000x64_0_1 : (⟨S1x64, .f32⟩ : BufTy).Contents (Elt F) → (⟨S200000x64, .f32⟩ : BufTy).Contents (Elt F)),
    binary main_v369 main_v371 main_v372 (addf : (⟨S200000x64, .f32⟩ : BufTy).Contents (Elt F) → (⟨S200000x64, .f32⟩ : BufTy).Contents (Elt F) → (⟨S200000x64, .f32⟩ : BufTy).Contents (Elt F)) ]
set_option maxRecDepth 8192 in
theorem Q53_sub : (Q53 : List (HloOp τ sig (Elt F))).Forall fun op => op.bufs ⊆ tcRefs τ sig :=
  ⟨unary_bufs_sub .., unary_bufs_sub .., binary_bufs_sub ..⟩
theorem Q53_fresh : (Q53 : List (HloOp τ sig (Elt F))).Forall fun op => op.fresh = ∅ := by
  simp only [List.Forall]; repeat' constructor
/-- The chunk writes only its operations' result buffers. -/
theorem Q53_untouched (V : Valuation τ sig (Elt F)) (b : Ref sig .tc)
    (hb : b ∉ ([main_v370, main_v371, main_v372] : List (Ref sig .tc))) :
    after (Q53 (F := F)) V (Proc.devRef .tc b) = V (Proc.devRef .tc b) :=
  StableHlo.after_of_forall_not_mem (b := Proc.devRef .tc b) _ _ (List.forall_iff_forall_mem.mp (by
    simp only [Q53, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 54: operations 442 … 444. -/
abbrev Q54 : List (HloOp τ sig (Elt F)) :=
  [ TRef.nullary (TRef.of (T := ⟨S_, .f32⟩) main_call4_cst) (constant S_ .f32 0x00000000#32),
    TRef.unary (TRef.of (T := ⟨S_, .f32⟩) main_call4_cst) (TRef.of (T := ⟨S200000x64, .f32⟩) main_call4_v0) (broadcastInDim S200000x64 ![] bcast_S_S200000x64),
    TRef.binary (TRef.of (T := ⟨S200000x64, .f32⟩) main_v372) (TRef.of (T := ⟨S200000x64, .f32⟩) main_call4_v0) (TRef.of (T := ⟨S200000x64, .f32⟩) main_v373) maximumf ]
set_option maxRecDepth 8192 in
theorem Q54_sub : (Q54 : List (HloOp τ sig (Elt F))).Forall fun op => op.bufs ⊆ tcRefs τ sig :=
  ⟨nullary_bufs_sub .., unary_bufs_sub .., binary_bufs_sub ..⟩
theorem Q54_fresh : (Q54 : List (HloOp τ sig (Elt F))).Forall fun op => op.fresh = ∅ := by
  simp only [List.Forall]; repeat' constructor
/-- The chunk writes only its operations' result buffers. -/
theorem Q54_untouched (V : Valuation τ sig (Elt F)) (b : Ref sig .tc)
    (hb : b ∉ ([main_call4_cst, main_call4_v0, main_v373] : List (Ref sig .tc))) :
    after (Q54 (F := F)) V (Proc.devRef .tc b) = V (Proc.devRef .tc b) :=
  StableHlo.after_of_forall_not_mem (b := Proc.devRef .tc b) _ _ (List.forall_iff_forall_mem.mp (by
    simp only [Q54, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 55: operations 445 … 445. -/
abbrev Q55 : List (HloOp τ sig (Elt F)) :=
  [ binary main_v373 main_arg10 main_v374 ((fun l r => Host.dotGeneral dot_S200000x64_S64x32_S200000x32_1_0_0_1_n_n none l r) : (⟨S200000x64, .f32⟩ : BufTy).Contents (Elt F) → (⟨S64x32, .f32⟩ : BufTy).Contents (Elt F) → (⟨S200000x32, .f32⟩ : BufTy).Contents (Elt F)) ]
set_option maxRecDepth 8192 in
theorem Q55_sub : (Q55 : List (HloOp τ sig (Elt F))).Forall fun op => op.bufs ⊆ tcRefs τ sig :=
  binary_bufs_sub ..
theorem Q55_fresh : (Q55 : List (HloOp τ sig (Elt F))).Forall fun op => op.fresh = ∅ := by
  simp only [List.Forall]; repeat' constructor
/-- The chunk writes only its operations' result buffers. -/
theorem Q55_untouched (V : Valuation τ sig (Elt F)) (b : Ref sig .tc)
    (hb : b ∉ ([main_v374] : List (Ref sig .tc))) :
    after (Q55 (F := F)) V (Proc.devRef .tc b) = V (Proc.devRef .tc b) :=
  StableHlo.after_of_forall_not_mem (b := Proc.devRef .tc b) _ _ (List.forall_iff_forall_mem.mp (by
    simp only [Q55, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 56: operations 446 … 448. -/
abbrev Q56 : List (HloOp τ sig (Elt F)) :=
  [ unary main_arg11 main_v375 (broadcastInDim S1x32 ![1] bcast_S32_S1x32_1 : (⟨S32, .f32⟩ : BufTy).Contents (Elt F) → (⟨S1x32, .f32⟩ : BufTy).Contents (Elt F)),
    unary main_v375 main_v376 (broadcastInDim S200000x32 ![0, 1] bcast_S1x32_S200000x32_0_1 : (⟨S1x32, .f32⟩ : BufTy).Contents (Elt F) → (⟨S200000x32, .f32⟩ : BufTy).Contents (Elt F)),
    binary main_v374 main_v376 main_v377 (addf : (⟨S200000x32, .f32⟩ : BufTy).Contents (Elt F) → (⟨S200000x32, .f32⟩ : BufTy).Contents (Elt F) → (⟨S200000x32, .f32⟩ : BufTy).Contents (Elt F)) ]
set_option maxRecDepth 8192 in
theorem Q56_sub : (Q56 : List (HloOp τ sig (Elt F))).Forall fun op => op.bufs ⊆ tcRefs τ sig :=
  ⟨unary_bufs_sub .., unary_bufs_sub .., binary_bufs_sub ..⟩
theorem Q56_fresh : (Q56 : List (HloOp τ sig (Elt F))).Forall fun op => op.fresh = ∅ := by
  simp only [List.Forall]; repeat' constructor
/-- The chunk writes only its operations' result buffers. -/
theorem Q56_untouched (V : Valuation τ sig (Elt F)) (b : Ref sig .tc)
    (hb : b ∉ ([main_v375, main_v376, main_v377] : List (Ref sig .tc))) :
    after (Q56 (F := F)) V (Proc.devRef .tc b) = V (Proc.devRef .tc b) :=
  StableHlo.after_of_forall_not_mem (b := Proc.devRef .tc b) _ _ (List.forall_iff_forall_mem.mp (by
    simp only [Q56, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Chunk 57: operations 449 … 451. -/
abbrev Q57 : List (HloOp τ sig (Elt F)) :=
  [ TRef.nullary (TRef.of (T := ⟨S_, .f32⟩) main_call5_cst) (constant S_ .f32 0x00000000#32),
    TRef.unary (TRef.of (T := ⟨S_, .f32⟩) main_call5_cst) (TRef.of (T := ⟨S200000x32, .f32⟩) main_call5_v0) (broadcastInDim S200000x32 ![] bcast_S_S200000x32),
    TRef.binary (TRef.of (T := ⟨S200000x32, .f32⟩) main_v377) (TRef.of (T := ⟨S200000x32, .f32⟩) main_call5_v0) (TRef.of (T := ⟨S200000x32, .f32⟩) main_v378) maximumf ]
set_option maxRecDepth 8192 in
theorem Q57_sub : (Q57 : List (HloOp τ sig (Elt F))).Forall fun op => op.bufs ⊆ tcRefs τ sig :=
  ⟨nullary_bufs_sub .., unary_bufs_sub .., binary_bufs_sub ..⟩
theorem Q57_fresh : (Q57 : List (HloOp τ sig (Elt F))).Forall fun op => op.fresh = ∅ := by
  simp only [List.Forall]; repeat' constructor
/-- The chunk writes only its operations' result buffers. -/
theorem Q57_untouched (V : Valuation τ sig (Elt F)) (b : Ref sig .tc)
    (hb : b ∉ ([main_call5_cst, main_call5_v0, main_v378] : List (Ref sig .tc))) :
    after (Q57 (F := F)) V (Proc.devRef .tc b) = V (Proc.devRef .tc b) :=
  StableHlo.after_of_forall_not_mem (b := Proc.devRef .tc b) _ _ (List.forall_iff_forall_mem.mp (by
    simp only [Q57, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem_of_not_mem (by decide) hb).symm))

/-- Part 0 of the printed program: its chunks in order. -/
def P0 : List (HloOp τ sig (Elt F)) := Q0 ++ (Q1 ++ (Q2 ++ (Q3 ++ (Q4 ++ (Q5)))))
set_option maxRecDepth 8192 in
set_option maxHeartbeats 4000000 in
theorem part0_eq (d : Dev nD) : main_part0 (F := F) d = seq P0 := rfl

/-- Part 1 of the printed program: its chunks in order. -/
def P1 : List (HloOp τ sig (Elt F)) := Q6 ++ (Q7 ++ (Q8 ++ (Q9 ++ (Q10 ++ (Q11 ++ (Q12 ++ (Q13)))))))
set_option maxRecDepth 8192 in
set_option maxHeartbeats 4000000 in
theorem part1_eq (d : Dev nD) : main_part1 (F := F) d = seq P1 := rfl

/-- Part 2 of the printed program: its chunks in order. -/
def P2 : List (HloOp τ sig (Elt F)) := Q14 ++ (Q15 ++ (Q16 ++ (Q17 ++ (Q18 ++ (Q19 ++ (Q20 ++ (Q21 ++ (Q22))))))))
set_option maxRecDepth 8192 in
set_option maxHeartbeats 4000000 in
theorem part2_eq (d : Dev nD) : main_part2 (F := F) d = seq P2 := rfl

/-- Part 3 of the printed program: its chunks in order. -/
def P3 : List (HloOp τ sig (Elt F)) := Q23 ++ (Q24 ++ (Q25 ++ (Q26 ++ (Q27))))
set_option maxRecDepth 8192 in
set_option maxHeartbeats 4000000 in
theorem part3_eq (d : Dev nD) : main_part3 (F := F) d = seq P3 := rfl

/-- Part 4 of the printed program: its chunks in order. -/
def P4 : List (HloOp τ sig (Elt F)) := Q28 ++ (Q29 ++ (Q30 ++ (Q31 ++ (Q32 ++ (Q33 ++ (Q34 ++ (Q35)))))))
set_option maxRecDepth 8192 in
set_option maxHeartbeats 4000000 in
theorem part4_eq (d : Dev nD) : main_part4 (F := F) d = seq P4 := rfl

/-- Part 5 of the printed program: its chunks in order. -/
def P5 : List (HloOp τ sig (Elt F)) := Q36 ++ (Q37 ++ (Q38 ++ (Q39 ++ (Q40 ++ (Q41)))))
set_option maxRecDepth 8192 in
set_option maxHeartbeats 4000000 in
theorem part5_eq (d : Dev nD) : main_part5 (F := F) d = seq P5 := rfl

/-- Part 6 of the printed program: its chunks in order. -/
def P6 : List (HloOp τ sig (Elt F)) := Q42 ++ (Q43 ++ (Q44 ++ (Q45 ++ (Q46 ++ (Q47 ++ (Q48 ++ (Q49 ++ (Q50))))))))
set_option maxRecDepth 8192 in
set_option maxHeartbeats 4000000 in
theorem part6_eq (d : Dev nD) : main_part6 (F := F) d = seq P6 := rfl

/-- Part 7 of the printed program: its chunks in order. -/
def P7 : List (HloOp τ sig (Elt F)) := Q51 ++ (Q52 ++ (Q53 ++ (Q54 ++ (Q55 ++ (Q56 ++ (Q57))))))
set_option maxRecDepth 8192 in
set_option maxHeartbeats 4000000 in
theorem part7_eq (d : Dev nD) : main_part7 (F := F) d = seq P7 := rfl

/-- All 452 operations: the parts in order. -/
abbrev allOps : List (HloOp τ sig (Elt F)) := P0 ++ (P1 ++ (P2 ++ (P3 ++ (P4 ++ (P5 ++ (P6 ++ (P7)))))))

/-- The reference's @main is the line of all its operations. -/
theorem main_eq (d : Dev nD) : main (F := F) d = seq allOps := by
  simp only [allOps, seq_append]
  rw [← part0_eq d, ← part1_eq d, ← part2_eq d, ← part3_eq d, ← part4_eq d, ← part5_eq d, ← part6_eq d, ← part7_eq d]
  rfl

theorem allOps_sub : (allOps : List (HloOp τ sig (Elt F))).Forall fun op => op.bufs ⊆ tcRefs τ sig := by
  refine List.forall_iff_forall_mem.mpr fun op h => ?_
  simp only [allOps, P0, P1, P2, P3, P4, P5, P6, P7, List.mem_append, or_assoc] at h
  rcases h with h | h
  · exact (List.forall_iff_forall_mem.mp Q0_sub) op h
  rcases h with h | h
  · exact (List.forall_iff_forall_mem.mp Q1_sub) op h
  rcases h with h | h
  · exact (List.forall_iff_forall_mem.mp Q2_sub) op h
  rcases h with h | h
  · exact (List.forall_iff_forall_mem.mp Q3_sub) op h
  rcases h with h | h
  · exact (List.forall_iff_forall_mem.mp Q4_sub) op h
  rcases h with h | h
  · exact (List.forall_iff_forall_mem.mp Q5_sub) op h
  rcases h with h | h
  · exact (List.forall_iff_forall_mem.mp Q6_sub) op h
  rcases h with h | h
  · exact (List.forall_iff_forall_mem.mp Q7_sub) op h
  rcases h with h | h
  · exact (List.forall_iff_forall_mem.mp Q8_sub) op h
  rcases h with h | h
  · exact (List.forall_iff_forall_mem.mp Q9_sub) op h
  rcases h with h | h
  · exact (List.forall_iff_forall_mem.mp Q10_sub) op h
  rcases h with h | h
  · exact (List.forall_iff_forall_mem.mp Q11_sub) op h
  rcases h with h | h
  · exact (List.forall_iff_forall_mem.mp Q12_sub) op h
  rcases h with h | h
  · exact (List.forall_iff_forall_mem.mp Q13_sub) op h
  rcases h with h | h
  · exact (List.forall_iff_forall_mem.mp Q14_sub) op h
  rcases h with h | h
  · exact (List.forall_iff_forall_mem.mp Q15_sub) op h
  rcases h with h | h
  · exact (List.forall_iff_forall_mem.mp Q16_sub) op h
  rcases h with h | h
  · exact (List.forall_iff_forall_mem.mp Q17_sub) op h
  rcases h with h | h
  · exact (List.forall_iff_forall_mem.mp Q18_sub) op h
  rcases h with h | h
  · exact (List.forall_iff_forall_mem.mp Q19_sub) op h
  rcases h with h | h
  · exact (List.forall_iff_forall_mem.mp Q20_sub) op h
  rcases h with h | h
  · exact (List.forall_iff_forall_mem.mp Q21_sub) op h
  rcases h with h | h
  · exact (List.forall_iff_forall_mem.mp Q22_sub) op h
  rcases h with h | h
  · exact (List.forall_iff_forall_mem.mp Q23_sub) op h
  rcases h with h | h
  · exact (List.forall_iff_forall_mem.mp Q24_sub) op h
  rcases h with h | h
  · exact (List.forall_iff_forall_mem.mp Q25_sub) op h
  rcases h with h | h
  · exact (List.forall_iff_forall_mem.mp Q26_sub) op h
  rcases h with h | h
  · exact (List.forall_iff_forall_mem.mp Q27_sub) op h
  rcases h with h | h
  · exact (List.forall_iff_forall_mem.mp Q28_sub) op h
  rcases h with h | h
  · exact (List.forall_iff_forall_mem.mp Q29_sub) op h
  rcases h with h | h
  · exact (List.forall_iff_forall_mem.mp Q30_sub) op h
  rcases h with h | h
  · exact (List.forall_iff_forall_mem.mp Q31_sub) op h
  rcases h with h | h
  · exact (List.forall_iff_forall_mem.mp Q32_sub) op h
  rcases h with h | h
  · exact (List.forall_iff_forall_mem.mp Q33_sub) op h
  rcases h with h | h
  · exact (List.forall_iff_forall_mem.mp Q34_sub) op h
  rcases h with h | h
  · exact (List.forall_iff_forall_mem.mp Q35_sub) op h
  rcases h with h | h
  · exact (List.forall_iff_forall_mem.mp Q36_sub) op h
  rcases h with h | h
  · exact (List.forall_iff_forall_mem.mp Q37_sub) op h
  rcases h with h | h
  · exact (List.forall_iff_forall_mem.mp Q38_sub) op h
  rcases h with h | h
  · exact (List.forall_iff_forall_mem.mp Q39_sub) op h
  rcases h with h | h
  · exact (List.forall_iff_forall_mem.mp Q40_sub) op h
  rcases h with h | h
  · exact (List.forall_iff_forall_mem.mp Q41_sub) op h
  rcases h with h | h
  · exact (List.forall_iff_forall_mem.mp Q42_sub) op h
  rcases h with h | h
  · exact (List.forall_iff_forall_mem.mp Q43_sub) op h
  rcases h with h | h
  · exact (List.forall_iff_forall_mem.mp Q44_sub) op h
  rcases h with h | h
  · exact (List.forall_iff_forall_mem.mp Q45_sub) op h
  rcases h with h | h
  · exact (List.forall_iff_forall_mem.mp Q46_sub) op h
  rcases h with h | h
  · exact (List.forall_iff_forall_mem.mp Q47_sub) op h
  rcases h with h | h
  · exact (List.forall_iff_forall_mem.mp Q48_sub) op h
  rcases h with h | h
  · exact (List.forall_iff_forall_mem.mp Q49_sub) op h
  rcases h with h | h
  · exact (List.forall_iff_forall_mem.mp Q50_sub) op h
  rcases h with h | h
  · exact (List.forall_iff_forall_mem.mp Q51_sub) op h
  rcases h with h | h
  · exact (List.forall_iff_forall_mem.mp Q52_sub) op h
  rcases h with h | h
  · exact (List.forall_iff_forall_mem.mp Q53_sub) op h
  rcases h with h | h
  · exact (List.forall_iff_forall_mem.mp Q54_sub) op h
  rcases h with h | h
  · exact (List.forall_iff_forall_mem.mp Q55_sub) op h
  rcases h with h | h
  · exact (List.forall_iff_forall_mem.mp Q56_sub) op h
  exact (List.forall_iff_forall_mem.mp Q57_sub) op h

theorem allOps_fresh : ∀ op ∈ (allOps : List (HloOp τ sig (Elt F))), op.fresh = ∅ := by
  intro op h
  simp only [allOps, P0, P1, P2, P3, P4, P5, P6, P7, List.mem_append, or_assoc] at h
  rcases h with h | h
  · exact (List.forall_iff_forall_mem.mp Q0_fresh) op h
  rcases h with h | h
  · exact (List.forall_iff_forall_mem.mp Q1_fresh) op h
  rcases h with h | h
  · exact (List.forall_iff_forall_mem.mp Q2_fresh) op h
  rcases h with h | h
  · exact (List.forall_iff_forall_mem.mp Q3_fresh) op h
  rcases h with h | h
  · exact (List.forall_iff_forall_mem.mp Q4_fresh) op h
  rcases h with h | h
  · exact (List.forall_iff_forall_mem.mp Q5_fresh) op h
  rcases h with h | h
  · exact (List.forall_iff_forall_mem.mp Q6_fresh) op h
  rcases h with h | h
  · exact (List.forall_iff_forall_mem.mp Q7_fresh) op h
  rcases h with h | h
  · exact (List.forall_iff_forall_mem.mp Q8_fresh) op h
  rcases h with h | h
  · exact (List.forall_iff_forall_mem.mp Q9_fresh) op h
  rcases h with h | h
  · exact (List.forall_iff_forall_mem.mp Q10_fresh) op h
  rcases h with h | h
  · exact (List.forall_iff_forall_mem.mp Q11_fresh) op h
  rcases h with h | h
  · exact (List.forall_iff_forall_mem.mp Q12_fresh) op h
  rcases h with h | h
  · exact (List.forall_iff_forall_mem.mp Q13_fresh) op h
  rcases h with h | h
  · exact (List.forall_iff_forall_mem.mp Q14_fresh) op h
  rcases h with h | h
  · exact (List.forall_iff_forall_mem.mp Q15_fresh) op h
  rcases h with h | h
  · exact (List.forall_iff_forall_mem.mp Q16_fresh) op h
  rcases h with h | h
  · exact (List.forall_iff_forall_mem.mp Q17_fresh) op h
  rcases h with h | h
  · exact (List.forall_iff_forall_mem.mp Q18_fresh) op h
  rcases h with h | h
  · exact (List.forall_iff_forall_mem.mp Q19_fresh) op h
  rcases h with h | h
  · exact (List.forall_iff_forall_mem.mp Q20_fresh) op h
  rcases h with h | h
  · exact (List.forall_iff_forall_mem.mp Q21_fresh) op h
  rcases h with h | h
  · exact (List.forall_iff_forall_mem.mp Q22_fresh) op h
  rcases h with h | h
  · exact (List.forall_iff_forall_mem.mp Q23_fresh) op h
  rcases h with h | h
  · exact (List.forall_iff_forall_mem.mp Q24_fresh) op h
  rcases h with h | h
  · exact (List.forall_iff_forall_mem.mp Q25_fresh) op h
  rcases h with h | h
  · exact (List.forall_iff_forall_mem.mp Q26_fresh) op h
  rcases h with h | h
  · exact (List.forall_iff_forall_mem.mp Q27_fresh) op h
  rcases h with h | h
  · exact (List.forall_iff_forall_mem.mp Q28_fresh) op h
  rcases h with h | h
  · exact (List.forall_iff_forall_mem.mp Q29_fresh) op h
  rcases h with h | h
  · exact (List.forall_iff_forall_mem.mp Q30_fresh) op h
  rcases h with h | h
  · exact (List.forall_iff_forall_mem.mp Q31_fresh) op h
  rcases h with h | h
  · exact (List.forall_iff_forall_mem.mp Q32_fresh) op h
  rcases h with h | h
  · exact (List.forall_iff_forall_mem.mp Q33_fresh) op h
  rcases h with h | h
  · exact (List.forall_iff_forall_mem.mp Q34_fresh) op h
  rcases h with h | h
  · exact (List.forall_iff_forall_mem.mp Q35_fresh) op h
  rcases h with h | h
  · exact (List.forall_iff_forall_mem.mp Q36_fresh) op h
  rcases h with h | h
  · exact (List.forall_iff_forall_mem.mp Q37_fresh) op h
  rcases h with h | h
  · exact (List.forall_iff_forall_mem.mp Q38_fresh) op h
  rcases h with h | h
  · exact (List.forall_iff_forall_mem.mp Q39_fresh) op h
  rcases h with h | h
  · exact (List.forall_iff_forall_mem.mp Q40_fresh) op h
  rcases h with h | h
  · exact (List.forall_iff_forall_mem.mp Q41_fresh) op h
  rcases h with h | h
  · exact (List.forall_iff_forall_mem.mp Q42_fresh) op h
  rcases h with h | h
  · exact (List.forall_iff_forall_mem.mp Q43_fresh) op h
  rcases h with h | h
  · exact (List.forall_iff_forall_mem.mp Q44_fresh) op h
  rcases h with h | h
  · exact (List.forall_iff_forall_mem.mp Q45_fresh) op h
  rcases h with h | h
  · exact (List.forall_iff_forall_mem.mp Q46_fresh) op h
  rcases h with h | h
  · exact (List.forall_iff_forall_mem.mp Q47_fresh) op h
  rcases h with h | h
  · exact (List.forall_iff_forall_mem.mp Q48_fresh) op h
  rcases h with h | h
  · exact (List.forall_iff_forall_mem.mp Q49_fresh) op h
  rcases h with h | h
  · exact (List.forall_iff_forall_mem.mp Q50_fresh) op h
  rcases h with h | h
  · exact (List.forall_iff_forall_mem.mp Q51_fresh) op h
  rcases h with h | h
  · exact (List.forall_iff_forall_mem.mp Q52_fresh) op h
  rcases h with h | h
  · exact (List.forall_iff_forall_mem.mp Q53_fresh) op h
  rcases h with h | h
  · exact (List.forall_iff_forall_mem.mp Q54_fresh) op h
  rcases h with h | h
  · exact (List.forall_iff_forall_mem.mp Q55_fresh) op h
  rcases h with h | h
  · exact (List.forall_iff_forall_mem.mp Q56_fresh) op h
  exact (List.forall_iff_forall_mem.mp Q57_fresh) op h

/-! ## A called rectifier, from any contents

Its three operations write the zero constant, its broadcast, and the maximum of the operand with it. -/

theorem rect_v58 (V : Valuation τ sig (Elt Ideal)) (y : (⟨S200000x32, .f32⟩ : BufTy).Contents (Elt Ideal))
    (hy : V (Proc.devRef .tc main_v57) = y) :
    after (Q7 (F := Ideal)) V (Proc.devRef .tc main_v58)
      = (maximumf (F := Ideal) (φ := .f32) y (ReadP.val_main_call0_v0 (F := Ideal)) : (⟨S200000x32, .f32⟩ : BufTy).Contents (Elt Ideal)) := by
  after_results_simp; rw [hy]; rfl

theorem rect_v136 (V : Valuation τ sig (Elt Ideal)) (y : (⟨S200000x32, .f32⟩ : BufTy).Contents (Elt Ideal))
    (hy : V (Proc.devRef .tc main_v135) = y) :
    after (Q19 (F := Ideal)) V (Proc.devRef .tc main_v136)
      = (maximumf (F := Ideal) (φ := .f32) y (ReadP.val_main_call1_v0 (F := Ideal)) : (⟨S200000x32, .f32⟩ : BufTy).Contents (Elt Ideal)) := by
  after_results_simp; rw [hy]; rfl

theorem rect_v233 (V : Valuation τ sig (Elt Ideal)) (y : (⟨S200000x32, .f32⟩ : BufTy).Contents (Elt Ideal))
    (hy : V (Proc.devRef .tc main_v232) = y) :
    after (Q32 (F := Ideal)) V (Proc.devRef .tc main_v233)
      = (maximumf (F := Ideal) (φ := .f32) y (ReadP.val_main_call2_v0 (F := Ideal)) : (⟨S200000x32, .f32⟩ : BufTy).Contents (Elt Ideal)) := by
  after_results_simp; rw [hy]; rfl

theorem rect_v330 (V : Valuation τ sig (Elt Ideal)) (y : (⟨S200000x32, .f32⟩ : BufTy).Contents (Elt Ideal))
    (hy : V (Proc.devRef .tc main_v329) = y) :
    after (Q46 (F := Ideal)) V (Proc.devRef .tc main_v330)
      = (maximumf (F := Ideal) (φ := .f32) y (ReadP.val_main_call3_v0 (F := Ideal)) : (⟨S200000x32, .f32⟩ : BufTy).Contents (Elt Ideal)) := by
  after_results_simp; rw [hy]; rfl

theorem rect_v373 (V : Valuation τ sig (Elt Ideal)) (y : (⟨S200000x64, .f32⟩ : BufTy).Contents (Elt Ideal))
    (hy : V (Proc.devRef .tc main_v372) = y) :
    after (Q54 (F := Ideal)) V (Proc.devRef .tc main_v373)
      = (maximumf (F := Ideal) (φ := .f32) y (ReadP.val_main_call4_v0 (F := Ideal)) : (⟨S200000x64, .f32⟩ : BufTy).Contents (Elt Ideal)) := by
  after_results_simp; rw [hy]; rfl

theorem rect_v378 (V : Valuation τ sig (Elt Ideal)) (y : (⟨S200000x32, .f32⟩ : BufTy).Contents (Elt Ideal))
    (hy : V (Proc.devRef .tc main_v377) = y) :
    after (Q57 (F := Ideal)) V (Proc.devRef .tc main_v378)
      = (maximumf (F := Ideal) (φ := .f32) y (ReadP.val_main_call5_v0 (F := Ideal)) : (⟨S200000x32, .f32⟩ : BufTy).Contents (Elt Ideal)) := by
  after_results_simp; rw [hy]; rfl

theorem scopedRefs_eq : (Finset.univ.filter fun b : Ref sig .tc => b.isScoped) = ∅ := by decide
theorem scopedSems_eq : (Finset.univ.filter fun sm : SemLoc sig => sm.isScoped .tc) = ∅ := by decide

variable (m : (ℓ : Loc nD τ sig) → Buf (Elt Ideal) ℓ) (c : Dev nD)

/-- The buffers' contents at launch. -/
abbrev U0 : Valuation τ sig (Elt Ideal) := launchContents m c
def U1 : Valuation τ sig (Elt Ideal) := after (Q0 (F := Ideal)) (U0 m c)
def U2 : Valuation τ sig (Elt Ideal) := after (Q1 (F := Ideal)) (U1 m c)
def U3 : Valuation τ sig (Elt Ideal) := after (Q2 (F := Ideal)) (U2 m c)
def U4 : Valuation τ sig (Elt Ideal) := after (Q3 (F := Ideal)) (U3 m c)
def U5 : Valuation τ sig (Elt Ideal) := after (Q4 (F := Ideal)) (U4 m c)
def U6 : Valuation τ sig (Elt Ideal) := after (Q5 (F := Ideal)) (U5 m c)
def U7 : Valuation τ sig (Elt Ideal) := after (Q6 (F := Ideal)) (U6 m c)
def U8 : Valuation τ sig (Elt Ideal) := after (Q7 (F := Ideal)) (U7 m c)
def U9 : Valuation τ sig (Elt Ideal) := after (Q8 (F := Ideal)) (U8 m c)
def U10 : Valuation τ sig (Elt Ideal) := after (Q9 (F := Ideal)) (U9 m c)
def U11 : Valuation τ sig (Elt Ideal) := after (Q10 (F := Ideal)) (U10 m c)
def U12 : Valuation τ sig (Elt Ideal) := after (Q11 (F := Ideal)) (U11 m c)
def U13 : Valuation τ sig (Elt Ideal) := after (Q12 (F := Ideal)) (U12 m c)
def U14 : Valuation τ sig (Elt Ideal) := after (Q13 (F := Ideal)) (U13 m c)
def U15 : Valuation τ sig (Elt Ideal) := after (Q14 (F := Ideal)) (U14 m c)
def U16 : Valuation τ sig (Elt Ideal) := after (Q15 (F := Ideal)) (U15 m c)
def U17 : Valuation τ sig (Elt Ideal) := after (Q16 (F := Ideal)) (U16 m c)
def U18 : Valuation τ sig (Elt Ideal) := after (Q17 (F := Ideal)) (U17 m c)
def U19 : Valuation τ sig (Elt Ideal) := after (Q18 (F := Ideal)) (U18 m c)
def U20 : Valuation τ sig (Elt Ideal) := after (Q19 (F := Ideal)) (U19 m c)
def U21 : Valuation τ sig (Elt Ideal) := after (Q20 (F := Ideal)) (U20 m c)
def U22 : Valuation τ sig (Elt Ideal) := after (Q21 (F := Ideal)) (U21 m c)
def U23 : Valuation τ sig (Elt Ideal) := after (Q22 (F := Ideal)) (U22 m c)
def U24 : Valuation τ sig (Elt Ideal) := after (Q23 (F := Ideal)) (U23 m c)
def U25 : Valuation τ sig (Elt Ideal) := after (Q24 (F := Ideal)) (U24 m c)
def U26 : Valuation τ sig (Elt Ideal) := after (Q25 (F := Ideal)) (U25 m c)
def U27 : Valuation τ sig (Elt Ideal) := after (Q26 (F := Ideal)) (U26 m c)
def U28 : Valuation τ sig (Elt Ideal) := after (Q27 (F := Ideal)) (U27 m c)
def U29 : Valuation τ sig (Elt Ideal) := after (Q28 (F := Ideal)) (U28 m c)
def U30 : Valuation τ sig (Elt Ideal) := after (Q29 (F := Ideal)) (U29 m c)
def U31 : Valuation τ sig (Elt Ideal) := after (Q30 (F := Ideal)) (U30 m c)
def U32 : Valuation τ sig (Elt Ideal) := after (Q31 (F := Ideal)) (U31 m c)
def U33 : Valuation τ sig (Elt Ideal) := after (Q32 (F := Ideal)) (U32 m c)
def U34 : Valuation τ sig (Elt Ideal) := after (Q33 (F := Ideal)) (U33 m c)
def U35 : Valuation τ sig (Elt Ideal) := after (Q34 (F := Ideal)) (U34 m c)
def U36 : Valuation τ sig (Elt Ideal) := after (Q35 (F := Ideal)) (U35 m c)
def U37 : Valuation τ sig (Elt Ideal) := after (Q36 (F := Ideal)) (U36 m c)
def U38 : Valuation τ sig (Elt Ideal) := after (Q37 (F := Ideal)) (U37 m c)
def U39 : Valuation τ sig (Elt Ideal) := after (Q38 (F := Ideal)) (U38 m c)
def U40 : Valuation τ sig (Elt Ideal) := after (Q39 (F := Ideal)) (U39 m c)
def U41 : Valuation τ sig (Elt Ideal) := after (Q40 (F := Ideal)) (U40 m c)
def U42 : Valuation τ sig (Elt Ideal) := after (Q41 (F := Ideal)) (U41 m c)
def U43 : Valuation τ sig (Elt Ideal) := after (Q42 (F := Ideal)) (U42 m c)
def U44 : Valuation τ sig (Elt Ideal) := after (Q43 (F := Ideal)) (U43 m c)
def U45 : Valuation τ sig (Elt Ideal) := after (Q44 (F := Ideal)) (U44 m c)
def U46 : Valuation τ sig (Elt Ideal) := after (Q45 (F := Ideal)) (U45 m c)
def U47 : Valuation τ sig (Elt Ideal) := after (Q46 (F := Ideal)) (U46 m c)
def U48 : Valuation τ sig (Elt Ideal) := after (Q47 (F := Ideal)) (U47 m c)
def U49 : Valuation τ sig (Elt Ideal) := after (Q48 (F := Ideal)) (U48 m c)
def U50 : Valuation τ sig (Elt Ideal) := after (Q49 (F := Ideal)) (U49 m c)
def U51 : Valuation τ sig (Elt Ideal) := after (Q50 (F := Ideal)) (U50 m c)
def U52 : Valuation τ sig (Elt Ideal) := after (Q51 (F := Ideal)) (U51 m c)
def U53 : Valuation τ sig (Elt Ideal) := after (Q52 (F := Ideal)) (U52 m c)
def U54 : Valuation τ sig (Elt Ideal) := after (Q53 (F := Ideal)) (U53 m c)
def U55 : Valuation τ sig (Elt Ideal) := after (Q54 (F := Ideal)) (U54 m c)
def U56 : Valuation τ sig (Elt Ideal) := after (Q55 (F := Ideal)) (U55 m c)
def U57 : Valuation τ sig (Elt Ideal) := after (Q56 (F := Ideal)) (U56 m c)
def U58 : Valuation τ sig (Elt Ideal) := after (Q57 (F := Ideal)) (U57 m c)

/-! ## A chunk leaves the other buffers alone, stated at the boundaries -/

theorem U1_untouched (b : Ref sig .tc)
    (hb : b ∉ ([main_v0, main_v1, main_v2, main_v3, main_v4, main_v5, main_v6, main_v7] : List (Ref sig .tc))) :
    U1 m c (Proc.devRef .tc b) = U0 m c (Proc.devRef .tc b) := by
  show after (Q0 (F := Ideal)) (U0 m c) (Proc.devRef .tc b) = _
  exact Q0_untouched (U0 m c) b hb
theorem U2_untouched (b : Ref sig .tc)
    (hb : b ∉ ([main_v8, main_v9, main_v10, main_v11, main_v12, main_v13, main_cst, main_v14, main_cst_0, main_v15, main_v16, main_v17, main_cst_1, main_v18, main_v19, main_v20] : List (Ref sig .tc))) :
    U2 m c (Proc.devRef .tc b) = U1 m c (Proc.devRef .tc b) := by
  show after (Q1 (F := Ideal)) (U1 m c) (Proc.devRef .tc b) = _
  exact Q1_untouched (U1 m c) b hb
theorem U3_untouched (b : Ref sig .tc)
    (hb : b ∉ ([main_c, main_v21, main_v22, main_c_2, main_v23, main_v24, main_v25, main_v26, main_v27] : List (Ref sig .tc))) :
    U3 m c (Proc.devRef .tc b) = U2 m c (Proc.devRef .tc b) := by
  show after (Q2 (F := Ideal)) (U2 m c) (Proc.devRef .tc b) = _
  exact Q2_untouched (U2 m c) b hb
theorem U4_untouched (b : Ref sig .tc)
    (hb : b ∉ ([main_c_3, main_v28, main_v29, main_c_4, main_v30, main_v31, main_v32, main_v33, main_v34, main_v35, main_v36, main_v37, main_v38] : List (Ref sig .tc))) :
    U4 m c (Proc.devRef .tc b) = U3 m c (Proc.devRef .tc b) := by
  show after (Q3 (F := Ideal)) (U3 m c) (Proc.devRef .tc b) = _
  exact Q3_untouched (U3 m c) b hb
theorem U5_untouched (b : Ref sig .tc)
    (hb : b ∉ ([main_v39] : List (Ref sig .tc))) :
    U5 m c (Proc.devRef .tc b) = U4 m c (Proc.devRef .tc b) := by
  show after (Q4 (F := Ideal)) (U4 m c) (Proc.devRef .tc b) = _
  exact Q4_untouched (U4 m c) b hb
theorem U6_untouched (b : Ref sig .tc)
    (hb : b ∉ ([main_c_5, main_v40, main_v41, main_c_6, main_v42, main_v43, main_v44, main_v45, main_v46, main_v47, main_v48, main_cst_7, main_v49] : List (Ref sig .tc))) :
    U6 m c (Proc.devRef .tc b) = U5 m c (Proc.devRef .tc b) := by
  show after (Q5 (F := Ideal)) (U5 m c) (Proc.devRef .tc b) = _
  exact Q5_untouched (U5 m c) b hb
theorem U7_untouched (b : Ref sig .tc)
    (hb : b ∉ ([main_v50, main_v51, main_v52, main_v53, main_v54, main_v55, main_v56, main_v57] : List (Ref sig .tc))) :
    U7 m c (Proc.devRef .tc b) = U6 m c (Proc.devRef .tc b) := by
  show after (Q6 (F := Ideal)) (U6 m c) (Proc.devRef .tc b) = _
  exact Q6_untouched (U6 m c) b hb
theorem U8_untouched (b : Ref sig .tc)
    (hb : b ∉ ([main_call0_cst, main_call0_v0, main_v58] : List (Ref sig .tc))) :
    U8 m c (Proc.devRef .tc b) = U7 m c (Proc.devRef .tc b) := by
  show after (Q7 (F := Ideal)) (U7 m c) (Proc.devRef .tc b) = _
  exact Q7_untouched (U7 m c) b hb
theorem U9_untouched (b : Ref sig .tc)
    (hb : b ∉ ([main_v59] : List (Ref sig .tc))) :
    U9 m c (Proc.devRef .tc b) = U8 m c (Proc.devRef .tc b) := by
  show after (Q8 (F := Ideal)) (U8 m c) (Proc.devRef .tc b) = _
  exact Q8_untouched (U8 m c) b hb
theorem U10_untouched (b : Ref sig .tc)
    (hb : b ∉ ([main_c_8, main_v60, main_v61, main_c_9, main_v62, main_v63, main_v64, main_v65, main_v66, main_v67, main_v68, main_cst_10, main_v69, main_v70, main_v71, main_v72] : List (Ref sig .tc))) :
    U10 m c (Proc.devRef .tc b) = U9 m c (Proc.devRef .tc b) := by
  show after (Q9 (F := Ideal)) (U9 m c) (Proc.devRef .tc b) = _
  exact Q9_untouched (U9 m c) b hb
theorem U11_untouched (b : Ref sig .tc)
    (hb : b ∉ ([main_v73, main_v74, main_v75, main_v76, main_v77, main_v78, main_v79, main_v80, main_v81] : List (Ref sig .tc))) :
    U11 m c (Proc.devRef .tc b) = U10 m c (Proc.devRef .tc b) := by
  show after (Q10 (F := Ideal)) (U10 m c) (Proc.devRef .tc b) = _
  exact Q10_untouched (U10 m c) b hb
theorem U12_untouched (b : Ref sig .tc)
    (hb : b ∉ ([main_v82, main_v83, main_v84, main_v85, main_v86, main_v87, main_v88, main_v89] : List (Ref sig .tc))) :
    U12 m c (Proc.devRef .tc b) = U11 m c (Proc.devRef .tc b) := by
  show after (Q11 (F := Ideal)) (U11 m c) (Proc.devRef .tc b) = _
  exact Q11_untouched (U11 m c) b hb
theorem U13_untouched (b : Ref sig .tc)
    (hb : b ∉ ([main_v90, main_v91, main_cst_11, main_v92, main_cst_12, main_v93, main_v94, main_v95, main_cst_13, main_v96, main_v97, main_v98] : List (Ref sig .tc))) :
    U13 m c (Proc.devRef .tc b) = U12 m c (Proc.devRef .tc b) := by
  show after (Q12 (F := Ideal)) (U12 m c) (Proc.devRef .tc b) = _
  exact Q12_untouched (U12 m c) b hb
theorem U14_untouched (b : Ref sig .tc)
    (hb : b ∉ ([main_c_14, main_v99, main_v100, main_c_15, main_v101] : List (Ref sig .tc))) :
    U14 m c (Proc.devRef .tc b) = U13 m c (Proc.devRef .tc b) := by
  show after (Q13 (F := Ideal)) (U13 m c) (Proc.devRef .tc b) = _
  exact Q13_untouched (U13 m c) b hb
theorem U15_untouched (b : Ref sig .tc)
    (hb : b ∉ ([main_v102, main_v103, main_v104, main_v105, main_c_16, main_v106, main_v107, main_c_17, main_v108, main_v109, main_v110, main_v111, main_v112, main_v113, main_v114, main_v115] : List (Ref sig .tc))) :
    U15 m c (Proc.devRef .tc b) = U14 m c (Proc.devRef .tc b) := by
  show after (Q14 (F := Ideal)) (U14 m c) (Proc.devRef .tc b) = _
  exact Q14_untouched (U14 m c) b hb
theorem U16_untouched (b : Ref sig .tc)
    (hb : b ∉ ([main_v116] : List (Ref sig .tc))) :
    U16 m c (Proc.devRef .tc b) = U15 m c (Proc.devRef .tc b) := by
  show after (Q15 (F := Ideal)) (U15 m c) (Proc.devRef .tc b) = _
  exact Q15_untouched (U15 m c) b hb
theorem U17_untouched (b : Ref sig .tc)
    (hb : b ∉ ([main_v117] : List (Ref sig .tc))) :
    U17 m c (Proc.devRef .tc b) = U16 m c (Proc.devRef .tc b) := by
  show after (Q16 (F := Ideal)) (U16 m c) (Proc.devRef .tc b) = _
  exact Q16_untouched (U16 m c) b hb
theorem U18_untouched (b : Ref sig .tc)
    (hb : b ∉ ([main_c_18, main_v118, main_v119, main_c_19, main_v120, main_v121, main_v122, main_v123, main_v124, main_v125, main_v126, main_cst_20, main_v127, main_v128, main_v129] : List (Ref sig .tc))) :
    U18 m c (Proc.devRef .tc b) = U17 m c (Proc.devRef .tc b) := by
  show after (Q17 (F := Ideal)) (U17 m c) (Proc.devRef .tc b) = _
  exact Q17_untouched (U17 m c) b hb
theorem U19_untouched (b : Ref sig .tc)
    (hb : b ∉ ([main_v130, main_v131, main_v132, main_v133, main_v134, main_v135] : List (Ref sig .tc))) :
    U19 m c (Proc.devRef .tc b) = U18 m c (Proc.devRef .tc b) := by
  show after (Q18 (F := Ideal)) (U18 m c) (Proc.devRef .tc b) = _
  exact Q18_untouched (U18 m c) b hb
theorem U20_untouched (b : Ref sig .tc)
    (hb : b ∉ ([main_call1_cst, main_call1_v0, main_v136] : List (Ref sig .tc))) :
    U20 m c (Proc.devRef .tc b) = U19 m c (Proc.devRef .tc b) := by
  show after (Q19 (F := Ideal)) (U19 m c) (Proc.devRef .tc b) = _
  exact Q19_untouched (U19 m c) b hb
theorem U21_untouched (b : Ref sig .tc)
    (hb : b ∉ ([main_v137] : List (Ref sig .tc))) :
    U21 m c (Proc.devRef .tc b) = U20 m c (Proc.devRef .tc b) := by
  show after (Q20 (F := Ideal)) (U20 m c) (Proc.devRef .tc b) = _
  exact Q20_untouched (U20 m c) b hb
theorem U22_untouched (b : Ref sig .tc)
    (hb : b ∉ ([main_c_21, main_v138, main_v139, main_c_22, main_v140, main_v141, main_v142, main_v143, main_v144, main_v145, main_v146, main_cst_23, main_v147, main_v148, main_v149, main_v150] : List (Ref sig .tc))) :
    U22 m c (Proc.devRef .tc b) = U21 m c (Proc.devRef .tc b) := by
  show after (Q21 (F := Ideal)) (U21 m c) (Proc.devRef .tc b) = _
  exact Q21_untouched (U21 m c) b hb
theorem U23_untouched (b : Ref sig .tc)
    (hb : b ∉ ([main_v151, main_v152, main_v153] : List (Ref sig .tc))) :
    U23 m c (Proc.devRef .tc b) = U22 m c (Proc.devRef .tc b) := by
  show after (Q22 (F := Ideal)) (U22 m c) (Proc.devRef .tc b) = _
  exact Q22_untouched (U22 m c) b hb
theorem U24_untouched (b : Ref sig .tc)
    (hb : b ∉ ([main_v154, main_v155, main_v156, main_v157, main_v158, main_v159, main_c_24, main_v160, main_v161, main_c_25, main_v162, main_v163, main_v164, main_v165, main_v166] : List (Ref sig .tc))) :
    U24 m c (Proc.devRef .tc b) = U23 m c (Proc.devRef .tc b) := by
  show after (Q23 (F := Ideal)) (U23 m c) (Proc.devRef .tc b) = _
  exact Q23_untouched (U23 m c) b hb
theorem U25_untouched (b : Ref sig .tc)
    (hb : b ∉ ([main_cst_26, main_v167, main_v168, main_v169, main_v170, main_v171, main_v172, main_v173, main_v174] : List (Ref sig .tc))) :
    U25 m c (Proc.devRef .tc b) = U24 m c (Proc.devRef .tc b) := by
  show after (Q24 (F := Ideal)) (U24 m c) (Proc.devRef .tc b) = _
  exact Q24_untouched (U24 m c) b hb
theorem U26_untouched (b : Ref sig .tc)
    (hb : b ∉ ([main_v175, main_v176, main_v177, main_v178, main_v179, main_v180, main_v181, main_v182] : List (Ref sig .tc))) :
    U26 m c (Proc.devRef .tc b) = U25 m c (Proc.devRef .tc b) := by
  show after (Q25 (F := Ideal)) (U25 m c) (Proc.devRef .tc b) = _
  exact Q25_untouched (U25 m c) b hb
theorem U27_untouched (b : Ref sig .tc)
    (hb : b ∉ ([main_v183, main_v184, main_v185, main_v186, main_v187, main_v188, main_cst_27, main_v189, main_cst_28, main_v190, main_v191, main_v192, main_cst_29, main_v193, main_v194, main_v195] : List (Ref sig .tc))) :
    U27 m c (Proc.devRef .tc b) = U26 m c (Proc.devRef .tc b) := by
  show after (Q26 (F := Ideal)) (U26 m c) (Proc.devRef .tc b) = _
  exact Q26_untouched (U26 m c) b hb
theorem U28_untouched (b : Ref sig .tc)
    (hb : b ∉ ([main_c_30, main_v196, main_v197, main_c_31, main_v198, main_v199, main_v200, main_v201, main_v202, main_c_32, main_v203, main_v204] : List (Ref sig .tc))) :
    U28 m c (Proc.devRef .tc b) = U27 m c (Proc.devRef .tc b) := by
  show after (Q27 (F := Ideal)) (U27 m c) (Proc.devRef .tc b) = _
  exact Q27_untouched (U27 m c) b hb
theorem U29_untouched (b : Ref sig .tc)
    (hb : b ∉ ([main_c_33, main_v205, main_v206, main_v207, main_v208, main_v209, main_v210, main_v211, main_v212, main_v213] : List (Ref sig .tc))) :
    U29 m c (Proc.devRef .tc b) = U28 m c (Proc.devRef .tc b) := by
  show after (Q28 (F := Ideal)) (U28 m c) (Proc.devRef .tc b) = _
  exact Q28_untouched (U28 m c) b hb
theorem U30_untouched (b : Ref sig .tc)
    (hb : b ∉ ([main_v214] : List (Ref sig .tc))) :
    U30 m c (Proc.devRef .tc b) = U29 m c (Proc.devRef .tc b) := by
  show after (Q29 (F := Ideal)) (U29 m c) (Proc.devRef .tc b) = _
  exact Q29_untouched (U29 m c) b hb
theorem U31_untouched (b : Ref sig .tc)
    (hb : b ∉ ([main_c_34, main_v215, main_v216, main_c_35, main_v217, main_v218, main_v219, main_v220, main_v221, main_v222, main_v223, main_cst_36, main_v224, main_v225, main_v226] : List (Ref sig .tc))) :
    U31 m c (Proc.devRef .tc b) = U30 m c (Proc.devRef .tc b) := by
  show after (Q30 (F := Ideal)) (U30 m c) (Proc.devRef .tc b) = _
  exact Q30_untouched (U30 m c) b hb
theorem U32_untouched (b : Ref sig .tc)
    (hb : b ∉ ([main_v227, main_v228, main_v229, main_v230, main_v231, main_v232] : List (Ref sig .tc))) :
    U32 m c (Proc.devRef .tc b) = U31 m c (Proc.devRef .tc b) := by
  show after (Q31 (F := Ideal)) (U31 m c) (Proc.devRef .tc b) = _
  exact Q31_untouched (U31 m c) b hb
theorem U33_untouched (b : Ref sig .tc)
    (hb : b ∉ ([main_call2_cst, main_call2_v0, main_v233] : List (Ref sig .tc))) :
    U33 m c (Proc.devRef .tc b) = U32 m c (Proc.devRef .tc b) := by
  show after (Q32 (F := Ideal)) (U32 m c) (Proc.devRef .tc b) = _
  exact Q32_untouched (U32 m c) b hb
theorem U34_untouched (b : Ref sig .tc)
    (hb : b ∉ ([main_v234] : List (Ref sig .tc))) :
    U34 m c (Proc.devRef .tc b) = U33 m c (Proc.devRef .tc b) := by
  show after (Q33 (F := Ideal)) (U33 m c) (Proc.devRef .tc b) = _
  exact Q33_untouched (U33 m c) b hb
theorem U35_untouched (b : Ref sig .tc)
    (hb : b ∉ ([main_c_37, main_v235, main_v236, main_c_38, main_v237, main_v238, main_v239, main_v240, main_v241, main_v242, main_v243, main_cst_39, main_v244, main_v245, main_v246, main_v247] : List (Ref sig .tc))) :
    U35 m c (Proc.devRef .tc b) = U34 m c (Proc.devRef .tc b) := by
  show after (Q34 (F := Ideal)) (U34 m c) (Proc.devRef .tc b) = _
  exact Q34_untouched (U34 m c) b hb
theorem U36_untouched (b : Ref sig .tc)
    (hb : b ∉ ([main_v248, main_v249, main_v250, main_v251, main_v252, main_v253, main_v254, main_v255, main_v256, main_c_40] : List (Ref sig .tc))) :
    U36 m c (Proc.devRef .tc b) = U35 m c (Proc.devRef .tc b) := by
  show after (Q35 (F := Ideal)) (U35 m c) (Proc.devRef .tc b) = _
  exact Q35_untouched (U35 m c) b hb
theorem U37_untouched (b : Ref sig .tc)
    (hb : b ∉ ([main_v257, main_v258, main_c_41, main_v259, main_v260, main_v261, main_v262, main_v263, main_cst_42, main_v264, main_v265, main_v266, main_v267] : List (Ref sig .tc))) :
    U37 m c (Proc.devRef .tc b) = U36 m c (Proc.devRef .tc b) := by
  show after (Q36 (F := Ideal)) (U36 m c) (Proc.devRef .tc b) = _
  exact Q36_untouched (U36 m c) b hb
theorem U38_untouched (b : Ref sig .tc)
    (hb : b ∉ ([main_v268, main_v269, main_v270, main_v271, main_v272, main_v273, main_v274, main_v275] : List (Ref sig .tc))) :
    U38 m c (Proc.devRef .tc b) = U37 m c (Proc.devRef .tc b) := by
  show after (Q37 (F := Ideal)) (U37 m c) (Proc.devRef .tc b) = _
  exact Q37_untouched (U37 m c) b hb
theorem U39_untouched (b : Ref sig .tc)
    (hb : b ∉ ([main_v276, main_v277, main_v278, main_v279, main_v280, main_v281, main_v282, main_v283] : List (Ref sig .tc))) :
    U39 m c (Proc.devRef .tc b) = U38 m c (Proc.devRef .tc b) := by
  show after (Q38 (F := Ideal)) (U38 m c) (Proc.devRef .tc b) = _
  exact Q38_untouched (U38 m c) b hb
theorem U40_untouched (b : Ref sig .tc)
    (hb : b ∉ ([main_v284, main_v285, main_cst_43, main_v286, main_cst_44, main_v287, main_v288, main_v289, main_cst_45, main_v290, main_v291, main_v292] : List (Ref sig .tc))) :
    U40 m c (Proc.devRef .tc b) = U39 m c (Proc.devRef .tc b) := by
  show after (Q39 (F := Ideal)) (U39 m c) (Proc.devRef .tc b) = _
  exact Q39_untouched (U39 m c) b hb
theorem U41_untouched (b : Ref sig .tc)
    (hb : b ∉ ([main_c_46, main_v293, main_v294, main_c_47, main_v295, main_v296, main_v297, main_v298, main_v299] : List (Ref sig .tc))) :
    U41 m c (Proc.devRef .tc b) = U40 m c (Proc.devRef .tc b) := by
  show after (Q40 (F := Ideal)) (U40 m c) (Proc.devRef .tc b) = _
  exact Q40_untouched (U40 m c) b hb
theorem U42_untouched (b : Ref sig .tc)
    (hb : b ∉ ([main_c_48, main_v300, main_v301, main_c_49, main_v302, main_v303, main_v304, main_v305, main_v306, main_v307] : List (Ref sig .tc))) :
    U42 m c (Proc.devRef .tc b) = U41 m c (Proc.devRef .tc b) := by
  show after (Q41 (F := Ideal)) (U41 m c) (Proc.devRef .tc b) = _
  exact Q41_untouched (U41 m c) b hb
theorem U43_untouched (b : Ref sig .tc)
    (hb : b ∉ ([main_v308, main_v309, main_v310] : List (Ref sig .tc))) :
    U43 m c (Proc.devRef .tc b) = U42 m c (Proc.devRef .tc b) := by
  show after (Q42 (F := Ideal)) (U42 m c) (Proc.devRef .tc b) = _
  exact Q42_untouched (U42 m c) b hb
theorem U44_untouched (b : Ref sig .tc)
    (hb : b ∉ ([main_v311] : List (Ref sig .tc))) :
    U44 m c (Proc.devRef .tc b) = U43 m c (Proc.devRef .tc b) := by
  show after (Q43 (F := Ideal)) (U43 m c) (Proc.devRef .tc b) = _
  exact Q43_untouched (U43 m c) b hb
theorem U45_untouched (b : Ref sig .tc)
    (hb : b ∉ ([main_c_50, main_v312, main_v313, main_c_51, main_v314, main_v315, main_v316, main_v317, main_v318, main_v319, main_v320, main_cst_52, main_v321, main_v322, main_v323] : List (Ref sig .tc))) :
    U45 m c (Proc.devRef .tc b) = U44 m c (Proc.devRef .tc b) := by
  show after (Q44 (F := Ideal)) (U44 m c) (Proc.devRef .tc b) = _
  exact Q44_untouched (U44 m c) b hb
theorem U46_untouched (b : Ref sig .tc)
    (hb : b ∉ ([main_v324, main_v325, main_v326, main_v327, main_v328, main_v329] : List (Ref sig .tc))) :
    U46 m c (Proc.devRef .tc b) = U45 m c (Proc.devRef .tc b) := by
  show after (Q45 (F := Ideal)) (U45 m c) (Proc.devRef .tc b) = _
  exact Q45_untouched (U45 m c) b hb
theorem U47_untouched (b : Ref sig .tc)
    (hb : b ∉ ([main_call3_cst, main_call3_v0, main_v330] : List (Ref sig .tc))) :
    U47 m c (Proc.devRef .tc b) = U46 m c (Proc.devRef .tc b) := by
  show after (Q46 (F := Ideal)) (U46 m c) (Proc.devRef .tc b) = _
  exact Q46_untouched (U46 m c) b hb
theorem U48_untouched (b : Ref sig .tc)
    (hb : b ∉ ([main_v331] : List (Ref sig .tc))) :
    U48 m c (Proc.devRef .tc b) = U47 m c (Proc.devRef .tc b) := by
  show after (Q47 (F := Ideal)) (U47 m c) (Proc.devRef .tc b) = _
  exact Q47_untouched (U47 m c) b hb
theorem U49_untouched (b : Ref sig .tc)
    (hb : b ∉ ([main_c_53, main_v332, main_v333, main_c_54, main_v334, main_v335, main_v336, main_v337, main_v338, main_v339, main_v340, main_cst_55, main_v341, main_v342, main_v343, main_v344] : List (Ref sig .tc))) :
    U49 m c (Proc.devRef .tc b) = U48 m c (Proc.devRef .tc b) := by
  show after (Q48 (F := Ideal)) (U48 m c) (Proc.devRef .tc b) = _
  exact Q48_untouched (U48 m c) b hb
theorem U50_untouched (b : Ref sig .tc)
    (hb : b ∉ ([main_v345, main_v346, main_v347, main_v348, main_v349, main_v350, main_v351, main_v352, main_v353, main_c_56, main_v354, main_v355, main_c_57, main_v356, main_v357, main_v358] : List (Ref sig .tc))) :
    U50 m c (Proc.devRef .tc b) = U49 m c (Proc.devRef .tc b) := by
  show after (Q49 (F := Ideal)) (U49 m c) (Proc.devRef .tc b) = _
  exact Q49_untouched (U49 m c) b hb
theorem U51_untouched (b : Ref sig .tc)
    (hb : b ∉ ([main_v359] : List (Ref sig .tc))) :
    U51 m c (Proc.devRef .tc b) = U50 m c (Proc.devRef .tc b) := by
  show after (Q50 (F := Ideal)) (U50 m c) (Proc.devRef .tc b) = _
  exact Q50_untouched (U50 m c) b hb
theorem U52_untouched (b : Ref sig .tc)
    (hb : b ∉ ([main_v360, main_cst_58, main_v361, main_v362, main_v363, main_v364, main_v365, main_v366, main_v367, main_v368] : List (Ref sig .tc))) :
    U52 m c (Proc.devRef .tc b) = U51 m c (Proc.devRef .tc b) := by
  show after (Q51 (F := Ideal)) (U51 m c) (Proc.devRef .tc b) = _
  exact Q51_untouched (U51 m c) b hb
theorem U53_untouched (b : Ref sig .tc)
    (hb : b ∉ ([main_v369] : List (Ref sig .tc))) :
    U53 m c (Proc.devRef .tc b) = U52 m c (Proc.devRef .tc b) := by
  show after (Q52 (F := Ideal)) (U52 m c) (Proc.devRef .tc b) = _
  exact Q52_untouched (U52 m c) b hb
theorem U54_untouched (b : Ref sig .tc)
    (hb : b ∉ ([main_v370, main_v371, main_v372] : List (Ref sig .tc))) :
    U54 m c (Proc.devRef .tc b) = U53 m c (Proc.devRef .tc b) := by
  show after (Q53 (F := Ideal)) (U53 m c) (Proc.devRef .tc b) = _
  exact Q53_untouched (U53 m c) b hb
theorem U55_untouched (b : Ref sig .tc)
    (hb : b ∉ ([main_call4_cst, main_call4_v0, main_v373] : List (Ref sig .tc))) :
    U55 m c (Proc.devRef .tc b) = U54 m c (Proc.devRef .tc b) := by
  show after (Q54 (F := Ideal)) (U54 m c) (Proc.devRef .tc b) = _
  exact Q54_untouched (U54 m c) b hb
theorem U56_untouched (b : Ref sig .tc)
    (hb : b ∉ ([main_v374] : List (Ref sig .tc))) :
    U56 m c (Proc.devRef .tc b) = U55 m c (Proc.devRef .tc b) := by
  show after (Q55 (F := Ideal)) (U55 m c) (Proc.devRef .tc b) = _
  exact Q55_untouched (U55 m c) b hb
theorem U57_untouched (b : Ref sig .tc)
    (hb : b ∉ ([main_v375, main_v376, main_v377] : List (Ref sig .tc))) :
    U57 m c (Proc.devRef .tc b) = U56 m c (Proc.devRef .tc b) := by
  show after (Q56 (F := Ideal)) (U56 m c) (Proc.devRef .tc b) = _
  exact Q56_untouched (U56 m c) b hb
theorem U58_untouched (b : Ref sig .tc)
    (hb : b ∉ ([main_call5_cst, main_call5_v0, main_v378] : List (Ref sig .tc))) :
    U58 m c (Proc.devRef .tc b) = U57 m c (Proc.devRef .tc b) := by
  show after (Q57 (F := Ideal)) (U57 m c) (Proc.devRef .tc b) = _
  exact Q57_untouched (U57 m c) b hb

/-- The whole line's result is the last boundary's contents. -/
theorem after_all : after (allOps (F := Ideal)) (launchContents m c) = U58 m c := by
  simp only [allOps, P0, P1, P2, P3, P4, P5, P6, P7, after_append]
  rfl

end Cert.RefRun

end
-- ==== Proof.RefRun0.lean ====
import proofs.«135273_j69758858821831_1_alg».proof.Proof.RefChunks
import Idealize.ShloMosaic.Lib.StableHlo.Run

/-!
# Part 0 of the reference: operations 0 … 59

Each buffer a chunk defines and a later chunk reads holds its stage; each live buffer a chunk does not write keeps what it
held.
-/

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

theorem rat_arg0_0 : U0 m c (Proc.devRef .tc main_arg0) = (m ((c.tc : Thread nD τ).loc main_arg0)) := rfl
theorem rat_arg1_0 : U0 m c (Proc.devRef .tc main_arg1) = (m ((c.tc : Thread nD τ).loc main_arg1)) := rfl
theorem rat_arg2_0 : U0 m c (Proc.devRef .tc main_arg2) = (m ((c.tc : Thread nD τ).loc main_arg2)) := rfl
theorem rat_arg3_0 : U0 m c (Proc.devRef .tc main_arg3) = (m ((c.tc : Thread nD τ).loc main_arg3)) := rfl
theorem rat_arg4_0 : U0 m c (Proc.devRef .tc main_arg4) = (m ((c.tc : Thread nD τ).loc main_arg4)) := rfl
theorem rat_arg5_0 : U0 m c (Proc.devRef .tc main_arg5) = (m ((c.tc : Thread nD τ).loc main_arg5)) := rfl
theorem rat_arg6_0 : U0 m c (Proc.devRef .tc main_arg6) = (m ((c.tc : Thread nD τ).loc main_arg6)) := rfl
theorem rat_arg7_0 : U0 m c (Proc.devRef .tc main_arg7) = (m ((c.tc : Thread nD τ).loc main_arg7)) := rfl
theorem rat_arg8_0 : U0 m c (Proc.devRef .tc main_arg8) = (m ((c.tc : Thread nD τ).loc main_arg8)) := rfl
theorem rat_arg9_0 : U0 m c (Proc.devRef .tc main_arg9) = (m ((c.tc : Thread nD τ).loc main_arg9)) := rfl
theorem rat_arg10_0 : U0 m c (Proc.devRef .tc main_arg10) = (m ((c.tc : Thread nD τ).loc main_arg10)) := rfl
theorem rat_arg11_0 : U0 m c (Proc.devRef .tc main_arg11) = (m ((c.tc : Thread nD τ).loc main_arg11)) := rfl
theorem rat_v1_1 : U1 m c (Proc.devRef .tc main_v1) = (ReadP.val_main_v1 (F := Ideal) (m ((c.tc : Thread nD τ).loc main_arg0))) := by
  show after (Q0 (F := Ideal)) (U0 m c) (Proc.devRef .tc main_v1) = _
  after_results_simp
  rw [rat_arg0_0 m c]
  rfl
theorem rat_v3_1 : U1 m c (Proc.devRef .tc main_v3) = (ReadP.val_main_v3 (F := Ideal) (m ((c.tc : Thread nD τ).loc main_arg1))) := by
  show after (Q0 (F := Ideal)) (U0 m c) (Proc.devRef .tc main_v3) = _
  after_results_simp
  rw [rat_arg1_0 m c]
  rfl
theorem rat_v5_1 : U1 m c (Proc.devRef .tc main_v5) = (ReadP.val_main_v5 (F := Ideal) (m ((c.tc : Thread nD τ).loc main_arg1))) := by
  show after (Q0 (F := Ideal)) (U0 m c) (Proc.devRef .tc main_v5) = _
  after_results_simp
  rw [rat_arg1_0 m c]
  rfl
theorem rat_v7_1 : U1 m c (Proc.devRef .tc main_v7) = (ReadP.val_main_v7 (F := Ideal) (m ((c.tc : Thread nD τ).loc main_arg4))) := by
  show after (Q0 (F := Ideal)) (U0 m c) (Proc.devRef .tc main_v7) = _
  after_results_simp
  rw [rat_arg4_0 m c]
  rfl
theorem rat_arg0_1 : U1 m c (Proc.devRef .tc main_arg0) = (m ((c.tc : Thread nD τ).loc main_arg0)) :=
  (U1_untouched m c main_arg0 (by decide)).trans (rat_arg0_0 m c)
theorem rat_arg1_1 : U1 m c (Proc.devRef .tc main_arg1) = (m ((c.tc : Thread nD τ).loc main_arg1)) :=
  (U1_untouched m c main_arg1 (by decide)).trans (rat_arg1_0 m c)
theorem rat_arg4_1 : U1 m c (Proc.devRef .tc main_arg4) = (m ((c.tc : Thread nD τ).loc main_arg4)) :=
  (U1_untouched m c main_arg4 (by decide)).trans (rat_arg4_0 m c)
theorem rat_arg5_1 : U1 m c (Proc.devRef .tc main_arg5) = (m ((c.tc : Thread nD τ).loc main_arg5)) :=
  (U1_untouched m c main_arg5 (by decide)).trans (rat_arg5_0 m c)
theorem rat_arg6_1 : U1 m c (Proc.devRef .tc main_arg6) = (m ((c.tc : Thread nD τ).loc main_arg6)) :=
  (U1_untouched m c main_arg6 (by decide)).trans (rat_arg6_0 m c)
theorem rat_arg7_1 : U1 m c (Proc.devRef .tc main_arg7) = (m ((c.tc : Thread nD τ).loc main_arg7)) :=
  (U1_untouched m c main_arg7 (by decide)).trans (rat_arg7_0 m c)
theorem rat_arg2_1 : U1 m c (Proc.devRef .tc main_arg2) = (m ((c.tc : Thread nD τ).loc main_arg2)) :=
  (U1_untouched m c main_arg2 (by decide)).trans (rat_arg2_0 m c)
theorem rat_arg3_1 : U1 m c (Proc.devRef .tc main_arg3) = (m ((c.tc : Thread nD τ).loc main_arg3)) :=
  (U1_untouched m c main_arg3 (by decide)).trans (rat_arg3_0 m c)
theorem rat_arg8_1 : U1 m c (Proc.devRef .tc main_arg8) = (m ((c.tc : Thread nD τ).loc main_arg8)) :=
  (U1_untouched m c main_arg8 (by decide)).trans (rat_arg8_0 m c)
theorem rat_arg9_1 : U1 m c (Proc.devRef .tc main_arg9) = (m ((c.tc : Thread nD τ).loc main_arg9)) :=
  (U1_untouched m c main_arg9 (by decide)).trans (rat_arg9_0 m c)
theorem rat_arg10_1 : U1 m c (Proc.devRef .tc main_arg10) = (m ((c.tc : Thread nD τ).loc main_arg10)) :=
  (U1_untouched m c main_arg10 (by decide)).trans (rat_arg10_0 m c)
theorem rat_arg11_1 : U1 m c (Proc.devRef .tc main_arg11) = (m ((c.tc : Thread nD τ).loc main_arg11)) :=
  (U1_untouched m c main_arg11 (by decide)).trans (rat_arg11_0 m c)
theorem rat_v9_2 : U2 m c (Proc.devRef .tc main_v9) = (ReadP.val_main_v9 (F := Ideal) (m ((c.tc : Thread nD τ).loc main_arg5))) := by
  show after (Q1 (F := Ideal)) (U1 m c) (Proc.devRef .tc main_v9) = _
  after_results_simp
  rw [rat_arg5_1 m c]
  rfl
theorem rat_v11_2 : U2 m c (Proc.devRef .tc main_v11) = (ReadP.val_main_v11 (F := Ideal) (m ((c.tc : Thread nD τ).loc main_arg6))) := by
  show after (Q1 (F := Ideal)) (U1 m c) (Proc.devRef .tc main_v11) = _
  after_results_simp
  rw [rat_arg6_1 m c]
  rfl
theorem rat_v13_2 : U2 m c (Proc.devRef .tc main_v13) = (ReadP.val_main_v13 (F := Ideal) (m ((c.tc : Thread nD τ).loc main_arg7))) := by
  show after (Q1 (F := Ideal)) (U1 m c) (Proc.devRef .tc main_v13) = _
  after_results_simp
  rw [rat_arg7_1 m c]
  rfl
theorem rat_v20_2 : U2 m c (Proc.devRef .tc main_v20) = (ReadP.val_main_v20 (F := Ideal) (m ((c.tc : Thread nD τ).loc main_arg1))) := by
  show after (Q1 (F := Ideal)) (U1 m c) (Proc.devRef .tc main_v20) = _
  after_results_simp
  rw [rat_v5_1 m c]
  rfl
theorem rat_arg0_2 : U2 m c (Proc.devRef .tc main_arg0) = (m ((c.tc : Thread nD τ).loc main_arg0)) :=
  (U2_untouched m c main_arg0 (by decide)).trans (rat_arg0_1 m c)
theorem rat_arg1_2 : U2 m c (Proc.devRef .tc main_arg1) = (m ((c.tc : Thread nD τ).loc main_arg1)) :=
  (U2_untouched m c main_arg1 (by decide)).trans (rat_arg1_1 m c)
theorem rat_arg4_2 : U2 m c (Proc.devRef .tc main_arg4) = (m ((c.tc : Thread nD τ).loc main_arg4)) :=
  (U2_untouched m c main_arg4 (by decide)).trans (rat_arg4_1 m c)
theorem rat_arg5_2 : U2 m c (Proc.devRef .tc main_arg5) = (m ((c.tc : Thread nD τ).loc main_arg5)) :=
  (U2_untouched m c main_arg5 (by decide)).trans (rat_arg5_1 m c)
theorem rat_arg6_2 : U2 m c (Proc.devRef .tc main_arg6) = (m ((c.tc : Thread nD τ).loc main_arg6)) :=
  (U2_untouched m c main_arg6 (by decide)).trans (rat_arg6_1 m c)
theorem rat_arg7_2 : U2 m c (Proc.devRef .tc main_arg7) = (m ((c.tc : Thread nD τ).loc main_arg7)) :=
  (U2_untouched m c main_arg7 (by decide)).trans (rat_arg7_1 m c)
theorem rat_v5_2 : U2 m c (Proc.devRef .tc main_v5) = (ReadP.val_main_v5 (F := Ideal) (m ((c.tc : Thread nD τ).loc main_arg1))) :=
  (U2_untouched m c main_v5 (by decide)).trans (rat_v5_1 m c)
theorem rat_v3_2 : U2 m c (Proc.devRef .tc main_v3) = (ReadP.val_main_v3 (F := Ideal) (m ((c.tc : Thread nD τ).loc main_arg1))) :=
  (U2_untouched m c main_v3 (by decide)).trans (rat_v3_1 m c)
theorem rat_v1_2 : U2 m c (Proc.devRef .tc main_v1) = (ReadP.val_main_v1 (F := Ideal) (m ((c.tc : Thread nD τ).loc main_arg0))) :=
  (U2_untouched m c main_v1 (by decide)).trans (rat_v1_1 m c)
theorem rat_v7_2 : U2 m c (Proc.devRef .tc main_v7) = (ReadP.val_main_v7 (F := Ideal) (m ((c.tc : Thread nD τ).loc main_arg4))) :=
  (U2_untouched m c main_v7 (by decide)).trans (rat_v7_1 m c)
theorem rat_arg2_2 : U2 m c (Proc.devRef .tc main_arg2) = (m ((c.tc : Thread nD τ).loc main_arg2)) :=
  (U2_untouched m c main_arg2 (by decide)).trans (rat_arg2_1 m c)
theorem rat_arg3_2 : U2 m c (Proc.devRef .tc main_arg3) = (m ((c.tc : Thread nD τ).loc main_arg3)) :=
  (U2_untouched m c main_arg3 (by decide)).trans (rat_arg3_1 m c)
theorem rat_arg8_2 : U2 m c (Proc.devRef .tc main_arg8) = (m ((c.tc : Thread nD τ).loc main_arg8)) :=
  (U2_untouched m c main_arg8 (by decide)).trans (rat_arg8_1 m c)
theorem rat_arg9_2 : U2 m c (Proc.devRef .tc main_arg9) = (m ((c.tc : Thread nD τ).loc main_arg9)) :=
  (U2_untouched m c main_arg9 (by decide)).trans (rat_arg9_1 m c)
theorem rat_arg10_2 : U2 m c (Proc.devRef .tc main_arg10) = (m ((c.tc : Thread nD τ).loc main_arg10)) :=
  (U2_untouched m c main_arg10 (by decide)).trans (rat_arg10_1 m c)
theorem rat_arg11_2 : U2 m c (Proc.devRef .tc main_arg11) = (m ((c.tc : Thread nD τ).loc main_arg11)) :=
  (U2_untouched m c main_arg11 (by decide)).trans (rat_arg11_1 m c)
theorem rat_v27_3 : U3 m c (Proc.devRef .tc main_v27) = (ReadP.val_main_v27 (F := Ideal) (m ((c.tc : Thread nD τ).loc main_arg1))) := by
  show after (Q2 (F := Ideal)) (U2 m c) (Proc.devRef .tc main_v27) = _
  after_results_simp
  rw [rat_v20_2 m c, rat_v3_2 m c]
  rfl
theorem rat_arg0_3 : U3 m c (Proc.devRef .tc main_arg0) = (m ((c.tc : Thread nD τ).loc main_arg0)) :=
  (U3_untouched m c main_arg0 (by decide)).trans (rat_arg0_2 m c)
theorem rat_arg1_3 : U3 m c (Proc.devRef .tc main_arg1) = (m ((c.tc : Thread nD τ).loc main_arg1)) :=
  (U3_untouched m c main_arg1 (by decide)).trans (rat_arg1_2 m c)
theorem rat_arg4_3 : U3 m c (Proc.devRef .tc main_arg4) = (m ((c.tc : Thread nD τ).loc main_arg4)) :=
  (U3_untouched m c main_arg4 (by decide)).trans (rat_arg4_2 m c)
theorem rat_arg5_3 : U3 m c (Proc.devRef .tc main_arg5) = (m ((c.tc : Thread nD τ).loc main_arg5)) :=
  (U3_untouched m c main_arg5 (by decide)).trans (rat_arg5_2 m c)
theorem rat_arg6_3 : U3 m c (Proc.devRef .tc main_arg6) = (m ((c.tc : Thread nD τ).loc main_arg6)) :=
  (U3_untouched m c main_arg6 (by decide)).trans (rat_arg6_2 m c)
theorem rat_arg7_3 : U3 m c (Proc.devRef .tc main_arg7) = (m ((c.tc : Thread nD τ).loc main_arg7)) :=
  (U3_untouched m c main_arg7 (by decide)).trans (rat_arg7_2 m c)
theorem rat_v5_3 : U3 m c (Proc.devRef .tc main_v5) = (ReadP.val_main_v5 (F := Ideal) (m ((c.tc : Thread nD τ).loc main_arg1))) :=
  (U3_untouched m c main_v5 (by decide)).trans (rat_v5_2 m c)
theorem rat_v3_3 : U3 m c (Proc.devRef .tc main_v3) = (ReadP.val_main_v3 (F := Ideal) (m ((c.tc : Thread nD τ).loc main_arg1))) :=
  (U3_untouched m c main_v3 (by decide)).trans (rat_v3_2 m c)
theorem rat_v20_3 : U3 m c (Proc.devRef .tc main_v20) = (ReadP.val_main_v20 (F := Ideal) (m ((c.tc : Thread nD τ).loc main_arg1))) :=
  (U3_untouched m c main_v20 (by decide)).trans (rat_v20_2 m c)
theorem rat_v1_3 : U3 m c (Proc.devRef .tc main_v1) = (ReadP.val_main_v1 (F := Ideal) (m ((c.tc : Thread nD τ).loc main_arg0))) :=
  (U3_untouched m c main_v1 (by decide)).trans (rat_v1_2 m c)
theorem rat_v7_3 : U3 m c (Proc.devRef .tc main_v7) = (ReadP.val_main_v7 (F := Ideal) (m ((c.tc : Thread nD τ).loc main_arg4))) :=
  (U3_untouched m c main_v7 (by decide)).trans (rat_v7_2 m c)
theorem rat_v9_3 : U3 m c (Proc.devRef .tc main_v9) = (ReadP.val_main_v9 (F := Ideal) (m ((c.tc : Thread nD τ).loc main_arg5))) :=
  (U3_untouched m c main_v9 (by decide)).trans (rat_v9_2 m c)
theorem rat_v11_3 : U3 m c (Proc.devRef .tc main_v11) = (ReadP.val_main_v11 (F := Ideal) (m ((c.tc : Thread nD τ).loc main_arg6))) :=
  (U3_untouched m c main_v11 (by decide)).trans (rat_v11_2 m c)
theorem rat_v13_3 : U3 m c (Proc.devRef .tc main_v13) = (ReadP.val_main_v13 (F := Ideal) (m ((c.tc : Thread nD τ).loc main_arg7))) :=
  (U3_untouched m c main_v13 (by decide)).trans (rat_v13_2 m c)
theorem rat_arg2_3 : U3 m c (Proc.devRef .tc main_arg2) = (m ((c.tc : Thread nD τ).loc main_arg2)) :=
  (U3_untouched m c main_arg2 (by decide)).trans (rat_arg2_2 m c)
theorem rat_arg3_3 : U3 m c (Proc.devRef .tc main_arg3) = (m ((c.tc : Thread nD τ).loc main_arg3)) :=
  (U3_untouched m c main_arg3 (by decide)).trans (rat_arg3_2 m c)
theorem rat_arg8_3 : U3 m c (Proc.devRef .tc main_arg8) = (m ((c.tc : Thread nD τ).loc main_arg8)) :=
  (U3_untouched m c main_arg8 (by decide)).trans (rat_arg8_2 m c)
theorem rat_arg9_3 : U3 m c (Proc.devRef .tc main_arg9) = (m ((c.tc : Thread nD τ).loc main_arg9)) :=
  (U3_untouched m c main_arg9 (by decide)).trans (rat_arg9_2 m c)
theorem rat_arg10_3 : U3 m c (Proc.devRef .tc main_arg10) = (m ((c.tc : Thread nD τ).loc main_arg10)) :=
  (U3_untouched m c main_arg10 (by decide)).trans (rat_arg10_2 m c)
theorem rat_arg11_3 : U3 m c (Proc.devRef .tc main_arg11) = (m ((c.tc : Thread nD τ).loc main_arg11)) :=
  (U3_untouched m c main_arg11 (by decide)).trans (rat_arg11_2 m c)
theorem rat_v36_4 : U4 m c (Proc.devRef .tc main_v36) = (ReadP.val_main_v36 (F := Ideal) (m ((c.tc : Thread nD τ).loc main_arg1))) := by
  show after (Q3 (F := Ideal)) (U3 m c) (Proc.devRef .tc main_v36) = _
  after_results_simp
  rw [rat_v27_3 m c, rat_v20_3 m c, rat_v5_3 m c]
  rfl
theorem rat_v38_4 : U4 m c (Proc.devRef .tc main_v38) = (ReadP.val_main_v38 (F := Ideal) (m ((c.tc : Thread nD τ).loc main_arg1))) := by
  show after (Q3 (F := Ideal)) (U3 m c) (Proc.devRef .tc main_v38) = _
  after_results_simp
  rw [rat_v20_3 m c]
  rfl
theorem rat_arg0_4 : U4 m c (Proc.devRef .tc main_arg0) = (m ((c.tc : Thread nD τ).loc main_arg0)) :=
  (U4_untouched m c main_arg0 (by decide)).trans (rat_arg0_3 m c)
theorem rat_arg1_4 : U4 m c (Proc.devRef .tc main_arg1) = (m ((c.tc : Thread nD τ).loc main_arg1)) :=
  (U4_untouched m c main_arg1 (by decide)).trans (rat_arg1_3 m c)
theorem rat_arg4_4 : U4 m c (Proc.devRef .tc main_arg4) = (m ((c.tc : Thread nD τ).loc main_arg4)) :=
  (U4_untouched m c main_arg4 (by decide)).trans (rat_arg4_3 m c)
theorem rat_arg5_4 : U4 m c (Proc.devRef .tc main_arg5) = (m ((c.tc : Thread nD τ).loc main_arg5)) :=
  (U4_untouched m c main_arg5 (by decide)).trans (rat_arg5_3 m c)
theorem rat_arg6_4 : U4 m c (Proc.devRef .tc main_arg6) = (m ((c.tc : Thread nD τ).loc main_arg6)) :=
  (U4_untouched m c main_arg6 (by decide)).trans (rat_arg6_3 m c)
theorem rat_arg7_4 : U4 m c (Proc.devRef .tc main_arg7) = (m ((c.tc : Thread nD τ).loc main_arg7)) :=
  (U4_untouched m c main_arg7 (by decide)).trans (rat_arg7_3 m c)
theorem rat_v5_4 : U4 m c (Proc.devRef .tc main_v5) = (ReadP.val_main_v5 (F := Ideal) (m ((c.tc : Thread nD τ).loc main_arg1))) :=
  (U4_untouched m c main_v5 (by decide)).trans (rat_v5_3 m c)
theorem rat_v3_4 : U4 m c (Proc.devRef .tc main_v3) = (ReadP.val_main_v3 (F := Ideal) (m ((c.tc : Thread nD τ).loc main_arg1))) :=
  (U4_untouched m c main_v3 (by decide)).trans (rat_v3_3 m c)
theorem rat_v1_4 : U4 m c (Proc.devRef .tc main_v1) = (ReadP.val_main_v1 (F := Ideal) (m ((c.tc : Thread nD τ).loc main_arg0))) :=
  (U4_untouched m c main_v1 (by decide)).trans (rat_v1_3 m c)
theorem rat_v7_4 : U4 m c (Proc.devRef .tc main_v7) = (ReadP.val_main_v7 (F := Ideal) (m ((c.tc : Thread nD τ).loc main_arg4))) :=
  (U4_untouched m c main_v7 (by decide)).trans (rat_v7_3 m c)
theorem rat_v9_4 : U4 m c (Proc.devRef .tc main_v9) = (ReadP.val_main_v9 (F := Ideal) (m ((c.tc : Thread nD τ).loc main_arg5))) :=
  (U4_untouched m c main_v9 (by decide)).trans (rat_v9_3 m c)
theorem rat_v11_4 : U4 m c (Proc.devRef .tc main_v11) = (ReadP.val_main_v11 (F := Ideal) (m ((c.tc : Thread nD τ).loc main_arg6))) :=
  (U4_untouched m c main_v11 (by decide)).trans (rat_v11_3 m c)
theorem rat_v13_4 : U4 m c (Proc.devRef .tc main_v13) = (ReadP.val_main_v13 (F := Ideal) (m ((c.tc : Thread nD τ).loc main_arg7))) :=
  (U4_untouched m c main_v13 (by decide)).trans (rat_v13_3 m c)
theorem rat_arg2_4 : U4 m c (Proc.devRef .tc main_arg2) = (m ((c.tc : Thread nD τ).loc main_arg2)) :=
  (U4_untouched m c main_arg2 (by decide)).trans (rat_arg2_3 m c)
theorem rat_arg3_4 : U4 m c (Proc.devRef .tc main_arg3) = (m ((c.tc : Thread nD τ).loc main_arg3)) :=
  (U4_untouched m c main_arg3 (by decide)).trans (rat_arg3_3 m c)
theorem rat_arg8_4 : U4 m c (Proc.devRef .tc main_arg8) = (m ((c.tc : Thread nD τ).loc main_arg8)) :=
  (U4_untouched m c main_arg8 (by decide)).trans (rat_arg8_3 m c)
theorem rat_arg9_4 : U4 m c (Proc.devRef .tc main_arg9) = (m ((c.tc : Thread nD τ).loc main_arg9)) :=
  (U4_untouched m c main_arg9 (by decide)).trans (rat_arg9_3 m c)
theorem rat_arg10_4 : U4 m c (Proc.devRef .tc main_arg10) = (m ((c.tc : Thread nD τ).loc main_arg10)) :=
  (U4_untouched m c main_arg10 (by decide)).trans (rat_arg10_3 m c)
theorem rat_arg11_4 : U4 m c (Proc.devRef .tc main_arg11) = (m ((c.tc : Thread nD τ).loc main_arg11)) :=
  (U4_untouched m c main_arg11 (by decide)).trans (rat_arg11_3 m c)
theorem rat_v39_5 : U5 m c (Proc.devRef .tc main_v39) = (ReadP.val_main_v39 (F := Ideal) (m ((c.tc : Thread nD τ).loc main_arg0)) (m ((c.tc : Thread nD τ).loc main_arg4))) := by
  show after (Q4 (F := Ideal)) (U4 m c) (Proc.devRef .tc main_v39) = _
  after_results_simp
  rw [rat_v1_4 m c, rat_v7_4 m c]
  rfl
theorem rat_arg0_5 : U5 m c (Proc.devRef .tc main_arg0) = (m ((c.tc : Thread nD τ).loc main_arg0)) :=
  (U5_untouched m c main_arg0 (by decide)).trans (rat_arg0_4 m c)
theorem rat_arg1_5 : U5 m c (Proc.devRef .tc main_arg1) = (m ((c.tc : Thread nD τ).loc main_arg1)) :=
  (U5_untouched m c main_arg1 (by decide)).trans (rat_arg1_4 m c)
theorem rat_arg4_5 : U5 m c (Proc.devRef .tc main_arg4) = (m ((c.tc : Thread nD τ).loc main_arg4)) :=
  (U5_untouched m c main_arg4 (by decide)).trans (rat_arg4_4 m c)
theorem rat_arg5_5 : U5 m c (Proc.devRef .tc main_arg5) = (m ((c.tc : Thread nD τ).loc main_arg5)) :=
  (U5_untouched m c main_arg5 (by decide)).trans (rat_arg5_4 m c)
theorem rat_arg6_5 : U5 m c (Proc.devRef .tc main_arg6) = (m ((c.tc : Thread nD τ).loc main_arg6)) :=
  (U5_untouched m c main_arg6 (by decide)).trans (rat_arg6_4 m c)
theorem rat_arg7_5 : U5 m c (Proc.devRef .tc main_arg7) = (m ((c.tc : Thread nD τ).loc main_arg7)) :=
  (U5_untouched m c main_arg7 (by decide)).trans (rat_arg7_4 m c)
theorem rat_v5_5 : U5 m c (Proc.devRef .tc main_v5) = (ReadP.val_main_v5 (F := Ideal) (m ((c.tc : Thread nD τ).loc main_arg1))) :=
  (U5_untouched m c main_v5 (by decide)).trans (rat_v5_4 m c)
theorem rat_v3_5 : U5 m c (Proc.devRef .tc main_v3) = (ReadP.val_main_v3 (F := Ideal) (m ((c.tc : Thread nD τ).loc main_arg1))) :=
  (U5_untouched m c main_v3 (by decide)).trans (rat_v3_4 m c)
theorem rat_v36_5 : U5 m c (Proc.devRef .tc main_v36) = (ReadP.val_main_v36 (F := Ideal) (m ((c.tc : Thread nD τ).loc main_arg1))) :=
  (U5_untouched m c main_v36 (by decide)).trans (rat_v36_4 m c)
theorem rat_v38_5 : U5 m c (Proc.devRef .tc main_v38) = (ReadP.val_main_v38 (F := Ideal) (m ((c.tc : Thread nD τ).loc main_arg1))) :=
  (U5_untouched m c main_v38 (by decide)).trans (rat_v38_4 m c)
theorem rat_v9_5 : U5 m c (Proc.devRef .tc main_v9) = (ReadP.val_main_v9 (F := Ideal) (m ((c.tc : Thread nD τ).loc main_arg5))) :=
  (U5_untouched m c main_v9 (by decide)).trans (rat_v9_4 m c)
theorem rat_v11_5 : U5 m c (Proc.devRef .tc main_v11) = (ReadP.val_main_v11 (F := Ideal) (m ((c.tc : Thread nD τ).loc main_arg6))) :=
  (U5_untouched m c main_v11 (by decide)).trans (rat_v11_4 m c)
theorem rat_v13_5 : U5 m c (Proc.devRef .tc main_v13) = (ReadP.val_main_v13 (F := Ideal) (m ((c.tc : Thread nD τ).loc main_arg7))) :=
  (U5_untouched m c main_v13 (by decide)).trans (rat_v13_4 m c)
theorem rat_arg2_5 : U5 m c (Proc.devRef .tc main_arg2) = (m ((c.tc : Thread nD τ).loc main_arg2)) :=
  (U5_untouched m c main_arg2 (by decide)).trans (rat_arg2_4 m c)
theorem rat_arg3_5 : U5 m c (Proc.devRef .tc main_arg3) = (m ((c.tc : Thread nD τ).loc main_arg3)) :=
  (U5_untouched m c main_arg3 (by decide)).trans (rat_arg3_4 m c)
theorem rat_arg8_5 : U5 m c (Proc.devRef .tc main_arg8) = (m ((c.tc : Thread nD τ).loc main_arg8)) :=
  (U5_untouched m c main_arg8 (by decide)).trans (rat_arg8_4 m c)
theorem rat_arg9_5 : U5 m c (Proc.devRef .tc main_arg9) = (m ((c.tc : Thread nD τ).loc main_arg9)) :=
  (U5_untouched m c main_arg9 (by decide)).trans (rat_arg9_4 m c)
theorem rat_arg10_5 : U5 m c (Proc.devRef .tc main_arg10) = (m ((c.tc : Thread nD τ).loc main_arg10)) :=
  (U5_untouched m c main_arg10 (by decide)).trans (rat_arg10_4 m c)
theorem rat_arg11_5 : U5 m c (Proc.devRef .tc main_arg11) = (m ((c.tc : Thread nD τ).loc main_arg11)) :=
  (U5_untouched m c main_arg11 (by decide)).trans (rat_arg11_4 m c)
theorem rat_v48_6 : U6 m c (Proc.devRef .tc main_v48) = (ReadP.val_main_v48 (F := Ideal) (m ((c.tc : Thread nD τ).loc main_arg0)) (m ((c.tc : Thread nD τ).loc main_arg1)) (m ((c.tc : Thread nD τ).loc main_arg4))) := by
  show after (Q5 (F := Ideal)) (U5 m c) (Proc.devRef .tc main_v48) = _
  after_results_simp
  rw [rat_v39_5 m c, rat_v3_5 m c, rat_v36_5 m c]
  rfl
theorem rat_v49_6 : U6 m c (Proc.devRef .tc main_v49) = (ReadP.val_main_v49 (F := Ideal)) := by
  show after (Q5 (F := Ideal)) (U5 m c) (Proc.devRef .tc main_v49) = _
  after_results_simp
  rfl
theorem rat_arg0_6 : U6 m c (Proc.devRef .tc main_arg0) = (m ((c.tc : Thread nD τ).loc main_arg0)) :=
  (U6_untouched m c main_arg0 (by decide)).trans (rat_arg0_5 m c)
theorem rat_arg1_6 : U6 m c (Proc.devRef .tc main_arg1) = (m ((c.tc : Thread nD τ).loc main_arg1)) :=
  (U6_untouched m c main_arg1 (by decide)).trans (rat_arg1_5 m c)
theorem rat_arg4_6 : U6 m c (Proc.devRef .tc main_arg4) = (m ((c.tc : Thread nD τ).loc main_arg4)) :=
  (U6_untouched m c main_arg4 (by decide)).trans (rat_arg4_5 m c)
theorem rat_arg5_6 : U6 m c (Proc.devRef .tc main_arg5) = (m ((c.tc : Thread nD τ).loc main_arg5)) :=
  (U6_untouched m c main_arg5 (by decide)).trans (rat_arg5_5 m c)
theorem rat_arg6_6 : U6 m c (Proc.devRef .tc main_arg6) = (m ((c.tc : Thread nD τ).loc main_arg6)) :=
  (U6_untouched m c main_arg6 (by decide)).trans (rat_arg6_5 m c)
theorem rat_arg7_6 : U6 m c (Proc.devRef .tc main_arg7) = (m ((c.tc : Thread nD τ).loc main_arg7)) :=
  (U6_untouched m c main_arg7 (by decide)).trans (rat_arg7_5 m c)
theorem rat_v5_6 : U6 m c (Proc.devRef .tc main_v5) = (ReadP.val_main_v5 (F := Ideal) (m ((c.tc : Thread nD τ).loc main_arg1))) :=
  (U6_untouched m c main_v5 (by decide)).trans (rat_v5_5 m c)
theorem rat_v3_6 : U6 m c (Proc.devRef .tc main_v3) = (ReadP.val_main_v3 (F := Ideal) (m ((c.tc : Thread nD τ).loc main_arg1))) :=
  (U6_untouched m c main_v3 (by decide)).trans (rat_v3_5 m c)
theorem rat_v39_6 : U6 m c (Proc.devRef .tc main_v39) = (ReadP.val_main_v39 (F := Ideal) (m ((c.tc : Thread nD τ).loc main_arg0)) (m ((c.tc : Thread nD τ).loc main_arg4))) :=
  (U6_untouched m c main_v39 (by decide)).trans (rat_v39_5 m c)
theorem rat_v36_6 : U6 m c (Proc.devRef .tc main_v36) = (ReadP.val_main_v36 (F := Ideal) (m ((c.tc : Thread nD τ).loc main_arg1))) :=
  (U6_untouched m c main_v36 (by decide)).trans (rat_v36_5 m c)
theorem rat_v38_6 : U6 m c (Proc.devRef .tc main_v38) = (ReadP.val_main_v38 (F := Ideal) (m ((c.tc : Thread nD τ).loc main_arg1))) :=
  (U6_untouched m c main_v38 (by decide)).trans (rat_v38_5 m c)
theorem rat_v9_6 : U6 m c (Proc.devRef .tc main_v9) = (ReadP.val_main_v9 (F := Ideal) (m ((c.tc : Thread nD τ).loc main_arg5))) :=
  (U6_untouched m c main_v9 (by decide)).trans (rat_v9_5 m c)
theorem rat_v11_6 : U6 m c (Proc.devRef .tc main_v11) = (ReadP.val_main_v11 (F := Ideal) (m ((c.tc : Thread nD τ).loc main_arg6))) :=
  (U6_untouched m c main_v11 (by decide)).trans (rat_v11_5 m c)
theorem rat_v13_6 : U6 m c (Proc.devRef .tc main_v13) = (ReadP.val_main_v13 (F := Ideal) (m ((c.tc : Thread nD τ).loc main_arg7))) :=
  (U6_untouched m c main_v13 (by decide)).trans (rat_v13_5 m c)
theorem rat_arg2_6 : U6 m c (Proc.devRef .tc main_arg2) = (m ((c.tc : Thread nD τ).loc main_arg2)) :=
  (U6_untouched m c main_arg2 (by decide)).trans (rat_arg2_5 m c)
theorem rat_arg3_6 : U6 m c (Proc.devRef .tc main_arg3) = (m ((c.tc : Thread nD τ).loc main_arg3)) :=
  (U6_untouched m c main_arg3 (by decide)).trans (rat_arg3_5 m c)
theorem rat_arg8_6 : U6 m c (Proc.devRef .tc main_arg8) = (m ((c.tc : Thread nD τ).loc main_arg8)) :=
  (U6_untouched m c main_arg8 (by decide)).trans (rat_arg8_5 m c)
theorem rat_arg9_6 : U6 m c (Proc.devRef .tc main_arg9) = (m ((c.tc : Thread nD τ).loc main_arg9)) :=
  (U6_untouched m c main_arg9 (by decide)).trans (rat_arg9_5 m c)
theorem rat_arg10_6 : U6 m c (Proc.devRef .tc main_arg10) = (m ((c.tc : Thread nD τ).loc main_arg10)) :=
  (U6_untouched m c main_arg10 (by decide)).trans (rat_arg10_5 m c)
theorem rat_arg11_6 : U6 m c (Proc.devRef .tc main_arg11) = (m ((c.tc : Thread nD τ).loc main_arg11)) :=
  (U6_untouched m c main_arg11 (by decide)).trans (rat_arg11_5 m c)

end Cert.RefRun

end
-- ==== Proof.RefRun1.lean ====
import proofs.«135273_j69758858821831_1_alg».proof.Proof.RefRun0
import Idealize.ShloMosaic.Lib.StableHlo.Run

/-!
# Part 1 of the reference: operations 60 … 121

Each buffer a chunk defines and a later chunk reads holds its stage; each live buffer a chunk does not write keeps what it
held.
-/

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

theorem rat_v57_7 : U7 m c (Proc.devRef .tc main_v57) = (ReadP.val_main_v57 (F := Ideal) (m ((c.tc : Thread nD τ).loc main_arg0)) (m ((c.tc : Thread nD τ).loc main_arg1)) (m ((c.tc : Thread nD τ).loc main_arg4)) (m ((c.tc : Thread nD τ).loc main_arg5))) := by
  show after (Q6 (F := Ideal)) (U6 m c) (Proc.devRef .tc main_v57) = _
  after_results_simp
  rw [rat_v49_6 m c, rat_v5_6 m c, rat_v48_6 m c, rat_v39_6 m c, rat_v38_6 m c, rat_v9_6 m c]
  rfl
theorem rat_arg0_7 : U7 m c (Proc.devRef .tc main_arg0) = (m ((c.tc : Thread nD τ).loc main_arg0)) :=
  (U7_untouched m c main_arg0 (by decide)).trans (rat_arg0_6 m c)
theorem rat_arg1_7 : U7 m c (Proc.devRef .tc main_arg1) = (m ((c.tc : Thread nD τ).loc main_arg1)) :=
  (U7_untouched m c main_arg1 (by decide)).trans (rat_arg1_6 m c)
theorem rat_arg4_7 : U7 m c (Proc.devRef .tc main_arg4) = (m ((c.tc : Thread nD τ).loc main_arg4)) :=
  (U7_untouched m c main_arg4 (by decide)).trans (rat_arg4_6 m c)
theorem rat_arg5_7 : U7 m c (Proc.devRef .tc main_arg5) = (m ((c.tc : Thread nD τ).loc main_arg5)) :=
  (U7_untouched m c main_arg5 (by decide)).trans (rat_arg5_6 m c)
theorem rat_arg6_7 : U7 m c (Proc.devRef .tc main_arg6) = (m ((c.tc : Thread nD τ).loc main_arg6)) :=
  (U7_untouched m c main_arg6 (by decide)).trans (rat_arg6_6 m c)
theorem rat_arg7_7 : U7 m c (Proc.devRef .tc main_arg7) = (m ((c.tc : Thread nD τ).loc main_arg7)) :=
  (U7_untouched m c main_arg7 (by decide)).trans (rat_arg7_6 m c)
theorem rat_v5_7 : U7 m c (Proc.devRef .tc main_v5) = (ReadP.val_main_v5 (F := Ideal) (m ((c.tc : Thread nD τ).loc main_arg1))) :=
  (U7_untouched m c main_v5 (by decide)).trans (rat_v5_6 m c)
theorem rat_v3_7 : U7 m c (Proc.devRef .tc main_v3) = (ReadP.val_main_v3 (F := Ideal) (m ((c.tc : Thread nD τ).loc main_arg1))) :=
  (U7_untouched m c main_v3 (by decide)).trans (rat_v3_6 m c)
theorem rat_v36_7 : U7 m c (Proc.devRef .tc main_v36) = (ReadP.val_main_v36 (F := Ideal) (m ((c.tc : Thread nD τ).loc main_arg1))) :=
  (U7_untouched m c main_v36 (by decide)).trans (rat_v36_6 m c)
theorem rat_v38_7 : U7 m c (Proc.devRef .tc main_v38) = (ReadP.val_main_v38 (F := Ideal) (m ((c.tc : Thread nD τ).loc main_arg1))) :=
  (U7_untouched m c main_v38 (by decide)).trans (rat_v38_6 m c)
theorem rat_v11_7 : U7 m c (Proc.devRef .tc main_v11) = (ReadP.val_main_v11 (F := Ideal) (m ((c.tc : Thread nD τ).loc main_arg6))) :=
  (U7_untouched m c main_v11 (by decide)).trans (rat_v11_6 m c)
theorem rat_v13_7 : U7 m c (Proc.devRef .tc main_v13) = (ReadP.val_main_v13 (F := Ideal) (m ((c.tc : Thread nD τ).loc main_arg7))) :=
  (U7_untouched m c main_v13 (by decide)).trans (rat_v13_6 m c)
theorem rat_arg2_7 : U7 m c (Proc.devRef .tc main_arg2) = (m ((c.tc : Thread nD τ).loc main_arg2)) :=
  (U7_untouched m c main_arg2 (by decide)).trans (rat_arg2_6 m c)
theorem rat_arg3_7 : U7 m c (Proc.devRef .tc main_arg3) = (m ((c.tc : Thread nD τ).loc main_arg3)) :=
  (U7_untouched m c main_arg3 (by decide)).trans (rat_arg3_6 m c)
theorem rat_arg8_7 : U7 m c (Proc.devRef .tc main_arg8) = (m ((c.tc : Thread nD τ).loc main_arg8)) :=
  (U7_untouched m c main_arg8 (by decide)).trans (rat_arg8_6 m c)
theorem rat_arg9_7 : U7 m c (Proc.devRef .tc main_arg9) = (m ((c.tc : Thread nD τ).loc main_arg9)) :=
  (U7_untouched m c main_arg9 (by decide)).trans (rat_arg9_6 m c)
theorem rat_arg10_7 : U7 m c (Proc.devRef .tc main_arg10) = (m ((c.tc : Thread nD τ).loc main_arg10)) :=
  (U7_untouched m c main_arg10 (by decide)).trans (rat_arg10_6 m c)
theorem rat_arg11_7 : U7 m c (Proc.devRef .tc main_arg11) = (m ((c.tc : Thread nD τ).loc main_arg11)) :=
  (U7_untouched m c main_arg11 (by decide)).trans (rat_arg11_6 m c)
theorem rat_v58_8 : U8 m c (Proc.devRef .tc main_v58) = (ReadP.val_main_v58 (F := Ideal) (m ((c.tc : Thread nD τ).loc main_arg0)) (m ((c.tc : Thread nD τ).loc main_arg1)) (m ((c.tc : Thread nD τ).loc main_arg4)) (m ((c.tc : Thread nD τ).loc main_arg5))) :=
  (rect_v58 (U7 m c) _ (rat_v57_7 m c)).trans (by unfold ReadP.val_main_v58; rfl)
theorem rat_arg0_8 : U8 m c (Proc.devRef .tc main_arg0) = (m ((c.tc : Thread nD τ).loc main_arg0)) :=
  (U8_untouched m c main_arg0 (by decide)).trans (rat_arg0_7 m c)
theorem rat_arg1_8 : U8 m c (Proc.devRef .tc main_arg1) = (m ((c.tc : Thread nD τ).loc main_arg1)) :=
  (U8_untouched m c main_arg1 (by decide)).trans (rat_arg1_7 m c)
theorem rat_arg4_8 : U8 m c (Proc.devRef .tc main_arg4) = (m ((c.tc : Thread nD τ).loc main_arg4)) :=
  (U8_untouched m c main_arg4 (by decide)).trans (rat_arg4_7 m c)
theorem rat_arg5_8 : U8 m c (Proc.devRef .tc main_arg5) = (m ((c.tc : Thread nD τ).loc main_arg5)) :=
  (U8_untouched m c main_arg5 (by decide)).trans (rat_arg5_7 m c)
theorem rat_arg6_8 : U8 m c (Proc.devRef .tc main_arg6) = (m ((c.tc : Thread nD τ).loc main_arg6)) :=
  (U8_untouched m c main_arg6 (by decide)).trans (rat_arg6_7 m c)
theorem rat_arg7_8 : U8 m c (Proc.devRef .tc main_arg7) = (m ((c.tc : Thread nD τ).loc main_arg7)) :=
  (U8_untouched m c main_arg7 (by decide)).trans (rat_arg7_7 m c)
theorem rat_v5_8 : U8 m c (Proc.devRef .tc main_v5) = (ReadP.val_main_v5 (F := Ideal) (m ((c.tc : Thread nD τ).loc main_arg1))) :=
  (U8_untouched m c main_v5 (by decide)).trans (rat_v5_7 m c)
theorem rat_v3_8 : U8 m c (Proc.devRef .tc main_v3) = (ReadP.val_main_v3 (F := Ideal) (m ((c.tc : Thread nD τ).loc main_arg1))) :=
  (U8_untouched m c main_v3 (by decide)).trans (rat_v3_7 m c)
theorem rat_v36_8 : U8 m c (Proc.devRef .tc main_v36) = (ReadP.val_main_v36 (F := Ideal) (m ((c.tc : Thread nD τ).loc main_arg1))) :=
  (U8_untouched m c main_v36 (by decide)).trans (rat_v36_7 m c)
theorem rat_v38_8 : U8 m c (Proc.devRef .tc main_v38) = (ReadP.val_main_v38 (F := Ideal) (m ((c.tc : Thread nD τ).loc main_arg1))) :=
  (U8_untouched m c main_v38 (by decide)).trans (rat_v38_7 m c)
theorem rat_v11_8 : U8 m c (Proc.devRef .tc main_v11) = (ReadP.val_main_v11 (F := Ideal) (m ((c.tc : Thread nD τ).loc main_arg6))) :=
  (U8_untouched m c main_v11 (by decide)).trans (rat_v11_7 m c)
theorem rat_v13_8 : U8 m c (Proc.devRef .tc main_v13) = (ReadP.val_main_v13 (F := Ideal) (m ((c.tc : Thread nD τ).loc main_arg7))) :=
  (U8_untouched m c main_v13 (by decide)).trans (rat_v13_7 m c)
theorem rat_arg2_8 : U8 m c (Proc.devRef .tc main_arg2) = (m ((c.tc : Thread nD τ).loc main_arg2)) :=
  (U8_untouched m c main_arg2 (by decide)).trans (rat_arg2_7 m c)
theorem rat_arg3_8 : U8 m c (Proc.devRef .tc main_arg3) = (m ((c.tc : Thread nD τ).loc main_arg3)) :=
  (U8_untouched m c main_arg3 (by decide)).trans (rat_arg3_7 m c)
theorem rat_arg8_8 : U8 m c (Proc.devRef .tc main_arg8) = (m ((c.tc : Thread nD τ).loc main_arg8)) :=
  (U8_untouched m c main_arg8 (by decide)).trans (rat_arg8_7 m c)
theorem rat_arg9_8 : U8 m c (Proc.devRef .tc main_arg9) = (m ((c.tc : Thread nD τ).loc main_arg9)) :=
  (U8_untouched m c main_arg9 (by decide)).trans (rat_arg9_7 m c)
theorem rat_arg10_8 : U8 m c (Proc.devRef .tc main_arg10) = (m ((c.tc : Thread nD τ).loc main_arg10)) :=
  (U8_untouched m c main_arg10 (by decide)).trans (rat_arg10_7 m c)
theorem rat_arg11_8 : U8 m c (Proc.devRef .tc main_arg11) = (m ((c.tc : Thread nD τ).loc main_arg11)) :=
  (U8_untouched m c main_arg11 (by decide)).trans (rat_arg11_7 m c)
theorem rat_v59_9 : U9 m c (Proc.devRef .tc main_v59) = (ReadP.val_main_v59 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))) := by
  show after (Q8 (F := Ideal)) (U8 m c) (Proc.devRef .tc main_v59) = _
  after_results_simp
  rw [rat_v58_8 m c, rat_v11_8 m c]
  rfl
theorem rat_arg0_9 : U9 m c (Proc.devRef .tc main_arg0) = (m ((c.tc : Thread nD τ).loc main_arg0)) :=
  (U9_untouched m c main_arg0 (by decide)).trans (rat_arg0_8 m c)
theorem rat_arg1_9 : U9 m c (Proc.devRef .tc main_arg1) = (m ((c.tc : Thread nD τ).loc main_arg1)) :=
  (U9_untouched m c main_arg1 (by decide)).trans (rat_arg1_8 m c)
theorem rat_arg4_9 : U9 m c (Proc.devRef .tc main_arg4) = (m ((c.tc : Thread nD τ).loc main_arg4)) :=
  (U9_untouched m c main_arg4 (by decide)).trans (rat_arg4_8 m c)
theorem rat_arg5_9 : U9 m c (Proc.devRef .tc main_arg5) = (m ((c.tc : Thread nD τ).loc main_arg5)) :=
  (U9_untouched m c main_arg5 (by decide)).trans (rat_arg5_8 m c)
theorem rat_arg6_9 : U9 m c (Proc.devRef .tc main_arg6) = (m ((c.tc : Thread nD τ).loc main_arg6)) :=
  (U9_untouched m c main_arg6 (by decide)).trans (rat_arg6_8 m c)
theorem rat_arg7_9 : U9 m c (Proc.devRef .tc main_arg7) = (m ((c.tc : Thread nD τ).loc main_arg7)) :=
  (U9_untouched m c main_arg7 (by decide)).trans (rat_arg7_8 m c)
theorem rat_v5_9 : U9 m c (Proc.devRef .tc main_v5) = (ReadP.val_main_v5 (F := Ideal) (m ((c.tc : Thread nD τ).loc main_arg1))) :=
  (U9_untouched m c main_v5 (by decide)).trans (rat_v5_8 m c)
theorem rat_v3_9 : U9 m c (Proc.devRef .tc main_v3) = (ReadP.val_main_v3 (F := Ideal) (m ((c.tc : Thread nD τ).loc main_arg1))) :=
  (U9_untouched m c main_v3 (by decide)).trans (rat_v3_8 m c)
theorem rat_v36_9 : U9 m c (Proc.devRef .tc main_v36) = (ReadP.val_main_v36 (F := Ideal) (m ((c.tc : Thread nD τ).loc main_arg1))) :=
  (U9_untouched m c main_v36 (by decide)).trans (rat_v36_8 m c)
theorem rat_v38_9 : U9 m c (Proc.devRef .tc main_v38) = (ReadP.val_main_v38 (F := Ideal) (m ((c.tc : Thread nD τ).loc main_arg1))) :=
  (U9_untouched m c main_v38 (by decide)).trans (rat_v38_8 m c)
theorem rat_v13_9 : U9 m c (Proc.devRef .tc main_v13) = (ReadP.val_main_v13 (F := Ideal) (m ((c.tc : Thread nD τ).loc main_arg7))) :=
  (U9_untouched m c main_v13 (by decide)).trans (rat_v13_8 m c)
theorem rat_arg2_9 : U9 m c (Proc.devRef .tc main_arg2) = (m ((c.tc : Thread nD τ).loc main_arg2)) :=
  (U9_untouched m c main_arg2 (by decide)).trans (rat_arg2_8 m c)
theorem rat_arg3_9 : U9 m c (Proc.devRef .tc main_arg3) = (m ((c.tc : Thread nD τ).loc main_arg3)) :=
  (U9_untouched m c main_arg3 (by decide)).trans (rat_arg3_8 m c)
theorem rat_arg8_9 : U9 m c (Proc.devRef .tc main_arg8) = (m ((c.tc : Thread nD τ).loc main_arg8)) :=
  (U9_untouched m c main_arg8 (by decide)).trans (rat_arg8_8 m c)
theorem rat_arg9_9 : U9 m c (Proc.devRef .tc main_arg9) = (m ((c.tc : Thread nD τ).loc main_arg9)) :=
  (U9_untouched m c main_arg9 (by decide)).trans (rat_arg9_8 m c)
theorem rat_arg10_9 : U9 m c (Proc.devRef .tc main_arg10) = (m ((c.tc : Thread nD τ).loc main_arg10)) :=
  (U9_untouched m c main_arg10 (by decide)).trans (rat_arg10_8 m c)
theorem rat_arg11_9 : U9 m c (Proc.devRef .tc main_arg11) = (m ((c.tc : Thread nD τ).loc main_arg11)) :=
  (U9_untouched m c main_arg11 (by decide)).trans (rat_arg11_8 m c)
theorem rat_v71_10 : U10 m c (Proc.devRef .tc main_v71) = (ReadP.val_main_v71 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))) := by
  show after (Q9 (F := Ideal)) (U9 m c) (Proc.devRef .tc main_v71) = _
  after_results_simp
  rw [rat_v5_9 m c, rat_v59_9 m c, rat_v3_9 m c, rat_v36_9 m c]
  rfl
theorem rat_v72_10 : U10 m c (Proc.devRef .tc main_v72) = (ReadP.val_main_v72 (F := Ideal) (m ((c.tc : Thread nD τ).loc main_arg1))) := by
  show after (Q9 (F := Ideal)) (U9 m c) (Proc.devRef .tc main_v72) = _
  after_results_simp
  rw [rat_v38_9 m c]
  rfl
theorem rat_arg0_10 : U10 m c (Proc.devRef .tc main_arg0) = (m ((c.tc : Thread nD τ).loc main_arg0)) :=
  (U10_untouched m c main_arg0 (by decide)).trans (rat_arg0_9 m c)
theorem rat_arg1_10 : U10 m c (Proc.devRef .tc main_arg1) = (m ((c.tc : Thread nD τ).loc main_arg1)) :=
  (U10_untouched m c main_arg1 (by decide)).trans (rat_arg1_9 m c)
theorem rat_arg4_10 : U10 m c (Proc.devRef .tc main_arg4) = (m ((c.tc : Thread nD τ).loc main_arg4)) :=
  (U10_untouched m c main_arg4 (by decide)).trans (rat_arg4_9 m c)
theorem rat_arg5_10 : U10 m c (Proc.devRef .tc main_arg5) = (m ((c.tc : Thread nD τ).loc main_arg5)) :=
  (U10_untouched m c main_arg5 (by decide)).trans (rat_arg5_9 m c)
theorem rat_arg6_10 : U10 m c (Proc.devRef .tc main_arg6) = (m ((c.tc : Thread nD τ).loc main_arg6)) :=
  (U10_untouched m c main_arg6 (by decide)).trans (rat_arg6_9 m c)
theorem rat_arg7_10 : U10 m c (Proc.devRef .tc main_arg7) = (m ((c.tc : Thread nD τ).loc main_arg7)) :=
  (U10_untouched m c main_arg7 (by decide)).trans (rat_arg7_9 m c)
theorem rat_v59_10 : U10 m c (Proc.devRef .tc main_v59) = (ReadP.val_main_v59 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))) :=
  (U10_untouched m c main_v59 (by decide)).trans (rat_v59_9 m c)
theorem rat_v13_10 : U10 m c (Proc.devRef .tc main_v13) = (ReadP.val_main_v13 (F := Ideal) (m ((c.tc : Thread nD τ).loc main_arg7))) :=
  (U10_untouched m c main_v13 (by decide)).trans (rat_v13_9 m c)
theorem rat_arg2_10 : U10 m c (Proc.devRef .tc main_arg2) = (m ((c.tc : Thread nD τ).loc main_arg2)) :=
  (U10_untouched m c main_arg2 (by decide)).trans (rat_arg2_9 m c)
theorem rat_arg3_10 : U10 m c (Proc.devRef .tc main_arg3) = (m ((c.tc : Thread nD τ).loc main_arg3)) :=
  (U10_untouched m c main_arg3 (by decide)).trans (rat_arg3_9 m c)
theorem rat_arg8_10 : U10 m c (Proc.devRef .tc main_arg8) = (m ((c.tc : Thread nD τ).loc main_arg8)) :=
  (U10_untouched m c main_arg8 (by decide)).trans (rat_arg8_9 m c)
theorem rat_arg9_10 : U10 m c (Proc.devRef .tc main_arg9) = (m ((c.tc : Thread nD τ).loc main_arg9)) :=
  (U10_untouched m c main_arg9 (by decide)).trans (rat_arg9_9 m c)
theorem rat_arg10_10 : U10 m c (Proc.devRef .tc main_arg10) = (m ((c.tc : Thread nD τ).loc main_arg10)) :=
  (U10_untouched m c main_arg10 (by decide)).trans (rat_arg10_9 m c)
theorem rat_arg11_10 : U10 m c (Proc.devRef .tc main_arg11) = (m ((c.tc : Thread nD τ).loc main_arg11)) :=
  (U10_untouched m c main_arg11 (by decide)).trans (rat_arg11_9 m c)
theorem rat_v77_11 : U11 m c (Proc.devRef .tc main_v77) = (ReadP.val_main_v77 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) := by
  show after (Q10 (F := Ideal)) (U10 m c) (Proc.devRef .tc main_v77) = _
  after_results_simp
  rw [rat_v71_10 m c, rat_v59_10 m c, rat_v72_10 m c, rat_v13_10 m c]
  rfl
theorem rat_v79_11 : U11 m c (Proc.devRef .tc main_v79) = (ReadP.val_main_v79 (F := Ideal) (m ((c.tc : Thread nD τ).loc main_arg0))) := by
  show after (Q10 (F := Ideal)) (U10 m c) (Proc.devRef .tc main_v79) = _
  after_results_simp
  rw [rat_arg0_10 m c]
  rfl
theorem rat_v81_11 : U11 m c (Proc.devRef .tc main_v81) = (ReadP.val_main_v81 (F := Ideal) (m ((c.tc : Thread nD τ).loc main_arg1))) := by
  show after (Q10 (F := Ideal)) (U10 m c) (Proc.devRef .tc main_v81) = _
  after_results_simp
  rw [rat_arg1_10 m c]
  rfl
theorem rat_arg0_11 : U11 m c (Proc.devRef .tc main_arg0) = (m ((c.tc : Thread nD τ).loc main_arg0)) :=
  (U11_untouched m c main_arg0 (by decide)).trans (rat_arg0_10 m c)
theorem rat_arg1_11 : U11 m c (Proc.devRef .tc main_arg1) = (m ((c.tc : Thread nD τ).loc main_arg1)) :=
  (U11_untouched m c main_arg1 (by decide)).trans (rat_arg1_10 m c)
theorem rat_arg4_11 : U11 m c (Proc.devRef .tc main_arg4) = (m ((c.tc : Thread nD τ).loc main_arg4)) :=
  (U11_untouched m c main_arg4 (by decide)).trans (rat_arg4_10 m c)
theorem rat_arg5_11 : U11 m c (Proc.devRef .tc main_arg5) = (m ((c.tc : Thread nD τ).loc main_arg5)) :=
  (U11_untouched m c main_arg5 (by decide)).trans (rat_arg5_10 m c)
theorem rat_arg6_11 : U11 m c (Proc.devRef .tc main_arg6) = (m ((c.tc : Thread nD τ).loc main_arg6)) :=
  (U11_untouched m c main_arg6 (by decide)).trans (rat_arg6_10 m c)
theorem rat_arg7_11 : U11 m c (Proc.devRef .tc main_arg7) = (m ((c.tc : Thread nD τ).loc main_arg7)) :=
  (U11_untouched m c main_arg7 (by decide)).trans (rat_arg7_10 m c)
theorem rat_arg2_11 : U11 m c (Proc.devRef .tc main_arg2) = (m ((c.tc : Thread nD τ).loc main_arg2)) :=
  (U11_untouched m c main_arg2 (by decide)).trans (rat_arg2_10 m c)
theorem rat_arg3_11 : U11 m c (Proc.devRef .tc main_arg3) = (m ((c.tc : Thread nD τ).loc main_arg3)) :=
  (U11_untouched m c main_arg3 (by decide)).trans (rat_arg3_10 m c)
theorem rat_arg8_11 : U11 m c (Proc.devRef .tc main_arg8) = (m ((c.tc : Thread nD τ).loc main_arg8)) :=
  (U11_untouched m c main_arg8 (by decide)).trans (rat_arg8_10 m c)
theorem rat_arg9_11 : U11 m c (Proc.devRef .tc main_arg9) = (m ((c.tc : Thread nD τ).loc main_arg9)) :=
  (U11_untouched m c main_arg9 (by decide)).trans (rat_arg9_10 m c)
theorem rat_arg10_11 : U11 m c (Proc.devRef .tc main_arg10) = (m ((c.tc : Thread nD τ).loc main_arg10)) :=
  (U11_untouched m c main_arg10 (by decide)).trans (rat_arg10_10 m c)
theorem rat_arg11_11 : U11 m c (Proc.devRef .tc main_arg11) = (m ((c.tc : Thread nD τ).loc main_arg11)) :=
  (U11_untouched m c main_arg11 (by decide)).trans (rat_arg11_10 m c)
theorem rat_v83_12 : U12 m c (Proc.devRef .tc main_v83) = (ReadP.val_main_v83 (F := Ideal) (m ((c.tc : Thread nD τ).loc main_arg1))) := by
  show after (Q11 (F := Ideal)) (U11 m c) (Proc.devRef .tc main_v83) = _
  after_results_simp
  rw [rat_arg1_11 m c]
  rfl
theorem rat_v85_12 : U12 m c (Proc.devRef .tc main_v85) = (ReadP.val_main_v85 (F := Ideal) (m ((c.tc : Thread nD τ).loc main_arg4))) := by
  show after (Q11 (F := Ideal)) (U11 m c) (Proc.devRef .tc main_v85) = _
  after_results_simp
  rw [rat_arg4_11 m c]
  rfl
theorem rat_v87_12 : U12 m c (Proc.devRef .tc main_v87) = (ReadP.val_main_v87 (F := Ideal) (m ((c.tc : Thread nD τ).loc main_arg5))) := by
  show after (Q11 (F := Ideal)) (U11 m c) (Proc.devRef .tc main_v87) = _
  after_results_simp
  rw [rat_arg5_11 m c]
  rfl
theorem rat_v89_12 : U12 m c (Proc.devRef .tc main_v89) = (ReadP.val_main_v89 (F := Ideal) (m ((c.tc : Thread nD τ).loc main_arg6))) := by
  show after (Q11 (F := Ideal)) (U11 m c) (Proc.devRef .tc main_v89) = _
  after_results_simp
  rw [rat_arg6_11 m c]
  rfl
theorem rat_arg0_12 : U12 m c (Proc.devRef .tc main_arg0) = (m ((c.tc : Thread nD τ).loc main_arg0)) :=
  (U12_untouched m c main_arg0 (by decide)).trans (rat_arg0_11 m c)
theorem rat_arg1_12 : U12 m c (Proc.devRef .tc main_arg1) = (m ((c.tc : Thread nD τ).loc main_arg1)) :=
  (U12_untouched m c main_arg1 (by decide)).trans (rat_arg1_11 m c)
theorem rat_arg4_12 : U12 m c (Proc.devRef .tc main_arg4) = (m ((c.tc : Thread nD τ).loc main_arg4)) :=
  (U12_untouched m c main_arg4 (by decide)).trans (rat_arg4_11 m c)
theorem rat_arg5_12 : U12 m c (Proc.devRef .tc main_arg5) = (m ((c.tc : Thread nD τ).loc main_arg5)) :=
  (U12_untouched m c main_arg5 (by decide)).trans (rat_arg5_11 m c)
theorem rat_arg6_12 : U12 m c (Proc.devRef .tc main_arg6) = (m ((c.tc : Thread nD τ).loc main_arg6)) :=
  (U12_untouched m c main_arg6 (by decide)).trans (rat_arg6_11 m c)
theorem rat_arg7_12 : U12 m c (Proc.devRef .tc main_arg7) = (m ((c.tc : Thread nD τ).loc main_arg7)) :=
  (U12_untouched m c main_arg7 (by decide)).trans (rat_arg7_11 m c)
theorem rat_v81_12 : U12 m c (Proc.devRef .tc main_v81) = (ReadP.val_main_v81 (F := Ideal) (m ((c.tc : Thread nD τ).loc main_arg1))) :=
  (U12_untouched m c main_v81 (by decide)).trans (rat_v81_11 m c)
theorem rat_v79_12 : U12 m c (Proc.devRef .tc main_v79) = (ReadP.val_main_v79 (F := Ideal) (m ((c.tc : Thread nD τ).loc main_arg0))) :=
  (U12_untouched m c main_v79 (by decide)).trans (rat_v79_11 m c)
theorem rat_arg2_12 : U12 m c (Proc.devRef .tc main_arg2) = (m ((c.tc : Thread nD τ).loc main_arg2)) :=
  (U12_untouched m c main_arg2 (by decide)).trans (rat_arg2_11 m c)
theorem rat_v77_12 : U12 m c (Proc.devRef .tc main_v77) = (ReadP.val_main_v77 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) :=
  (U12_untouched m c main_v77 (by decide)).trans (rat_v77_11 m c)
theorem rat_arg3_12 : U12 m c (Proc.devRef .tc main_arg3) = (m ((c.tc : Thread nD τ).loc main_arg3)) :=
  (U12_untouched m c main_arg3 (by decide)).trans (rat_arg3_11 m c)
theorem rat_arg8_12 : U12 m c (Proc.devRef .tc main_arg8) = (m ((c.tc : Thread nD τ).loc main_arg8)) :=
  (U12_untouched m c main_arg8 (by decide)).trans (rat_arg8_11 m c)
theorem rat_arg9_12 : U12 m c (Proc.devRef .tc main_arg9) = (m ((c.tc : Thread nD τ).loc main_arg9)) :=
  (U12_untouched m c main_arg9 (by decide)).trans (rat_arg9_11 m c)
theorem rat_arg10_12 : U12 m c (Proc.devRef .tc main_arg10) = (m ((c.tc : Thread nD τ).loc main_arg10)) :=
  (U12_untouched m c main_arg10 (by decide)).trans (rat_arg10_11 m c)
theorem rat_arg11_12 : U12 m c (Proc.devRef .tc main_arg11) = (m ((c.tc : Thread nD τ).loc main_arg11)) :=
  (U12_untouched m c main_arg11 (by decide)).trans (rat_arg11_11 m c)
theorem rat_v91_13 : U13 m c (Proc.devRef .tc main_v91) = (ReadP.val_main_v91 (F := Ideal) (m ((c.tc : Thread nD τ).loc main_arg7))) := by
  show after (Q12 (F := Ideal)) (U12 m c) (Proc.devRef .tc main_v91) = _
  after_results_simp
  rw [rat_arg7_12 m c]
  rfl
theorem rat_v98_13 : U13 m c (Proc.devRef .tc main_v98) = (ReadP.val_main_v98 (F := Ideal) (m ((c.tc : Thread nD τ).loc main_arg1))) := by
  show after (Q12 (F := Ideal)) (U12 m c) (Proc.devRef .tc main_v98) = _
  after_results_simp
  rw [rat_v83_12 m c]
  rfl
theorem rat_arg0_13 : U13 m c (Proc.devRef .tc main_arg0) = (m ((c.tc : Thread nD τ).loc main_arg0)) :=
  (U13_untouched m c main_arg0 (by decide)).trans (rat_arg0_12 m c)
theorem rat_arg1_13 : U13 m c (Proc.devRef .tc main_arg1) = (m ((c.tc : Thread nD τ).loc main_arg1)) :=
  (U13_untouched m c main_arg1 (by decide)).trans (rat_arg1_12 m c)
theorem rat_arg4_13 : U13 m c (Proc.devRef .tc main_arg4) = (m ((c.tc : Thread nD τ).loc main_arg4)) :=
  (U13_untouched m c main_arg4 (by decide)).trans (rat_arg4_12 m c)
theorem rat_arg5_13 : U13 m c (Proc.devRef .tc main_arg5) = (m ((c.tc : Thread nD τ).loc main_arg5)) :=
  (U13_untouched m c main_arg5 (by decide)).trans (rat_arg5_12 m c)
theorem rat_arg6_13 : U13 m c (Proc.devRef .tc main_arg6) = (m ((c.tc : Thread nD τ).loc main_arg6)) :=
  (U13_untouched m c main_arg6 (by decide)).trans (rat_arg6_12 m c)
theorem rat_arg7_13 : U13 m c (Proc.devRef .tc main_arg7) = (m ((c.tc : Thread nD τ).loc main_arg7)) :=
  (U13_untouched m c main_arg7 (by decide)).trans (rat_arg7_12 m c)
theorem rat_v83_13 : U13 m c (Proc.devRef .tc main_v83) = (ReadP.val_main_v83 (F := Ideal) (m ((c.tc : Thread nD τ).loc main_arg1))) :=
  (U13_untouched m c main_v83 (by decide)).trans (rat_v83_12 m c)
theorem rat_v81_13 : U13 m c (Proc.devRef .tc main_v81) = (ReadP.val_main_v81 (F := Ideal) (m ((c.tc : Thread nD τ).loc main_arg1))) :=
  (U13_untouched m c main_v81 (by decide)).trans (rat_v81_12 m c)
theorem rat_v79_13 : U13 m c (Proc.devRef .tc main_v79) = (ReadP.val_main_v79 (F := Ideal) (m ((c.tc : Thread nD τ).loc main_arg0))) :=
  (U13_untouched m c main_v79 (by decide)).trans (rat_v79_12 m c)
theorem rat_v85_13 : U13 m c (Proc.devRef .tc main_v85) = (ReadP.val_main_v85 (F := Ideal) (m ((c.tc : Thread nD τ).loc main_arg4))) :=
  (U13_untouched m c main_v85 (by decide)).trans (rat_v85_12 m c)
theorem rat_v87_13 : U13 m c (Proc.devRef .tc main_v87) = (ReadP.val_main_v87 (F := Ideal) (m ((c.tc : Thread nD τ).loc main_arg5))) :=
  (U13_untouched m c main_v87 (by decide)).trans (rat_v87_12 m c)
theorem rat_v89_13 : U13 m c (Proc.devRef .tc main_v89) = (ReadP.val_main_v89 (F := Ideal) (m ((c.tc : Thread nD τ).loc main_arg6))) :=
  (U13_untouched m c main_v89 (by decide)).trans (rat_v89_12 m c)
theorem rat_arg2_13 : U13 m c (Proc.devRef .tc main_arg2) = (m ((c.tc : Thread nD τ).loc main_arg2)) :=
  (U13_untouched m c main_arg2 (by decide)).trans (rat_arg2_12 m c)
theorem rat_v77_13 : U13 m c (Proc.devRef .tc main_v77) = (ReadP.val_main_v77 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) :=
  (U13_untouched m c main_v77 (by decide)).trans (rat_v77_12 m c)
theorem rat_arg3_13 : U13 m c (Proc.devRef .tc main_arg3) = (m ((c.tc : Thread nD τ).loc main_arg3)) :=
  (U13_untouched m c main_arg3 (by decide)).trans (rat_arg3_12 m c)
theorem rat_arg8_13 : U13 m c (Proc.devRef .tc main_arg8) = (m ((c.tc : Thread nD τ).loc main_arg8)) :=
  (U13_untouched m c main_arg8 (by decide)).trans (rat_arg8_12 m c)
theorem rat_arg9_13 : U13 m c (Proc.devRef .tc main_arg9) = (m ((c.tc : Thread nD τ).loc main_arg9)) :=
  (U13_untouched m c main_arg9 (by decide)).trans (rat_arg9_12 m c)
theorem rat_arg10_13 : U13 m c (Proc.devRef .tc main_arg10) = (m ((c.tc : Thread nD τ).loc main_arg10)) :=
  (U13_untouched m c main_arg10 (by decide)).trans (rat_arg10_12 m c)
theorem rat_arg11_13 : U13 m c (Proc.devRef .tc main_arg11) = (m ((c.tc : Thread nD τ).loc main_arg11)) :=
  (U13_untouched m c main_arg11 (by decide)).trans (rat_arg11_12 m c)
theorem rat_v100_14 : U14 m c (Proc.devRef .tc main_v100) = (ReadP.val_main_v100 (F := Ideal) (m ((c.tc : Thread nD τ).loc main_arg1))) := by
  show after (Q13 (F := Ideal)) (U13 m c) (Proc.devRef .tc main_v100) = _
  after_results_simp
  rw [rat_v81_13 m c]
  rfl
theorem rat_v101_14 : U14 m c (Proc.devRef .tc main_v101) = (ReadP.val_main_v101 (F := Ideal)) := by
  show after (Q13 (F := Ideal)) (U13 m c) (Proc.devRef .tc main_v101) = _
  after_results_simp
  rfl
theorem rat_arg0_14 : U14 m c (Proc.devRef .tc main_arg0) = (m ((c.tc : Thread nD τ).loc main_arg0)) :=
  (U14_untouched m c main_arg0 (by decide)).trans (rat_arg0_13 m c)
theorem rat_arg1_14 : U14 m c (Proc.devRef .tc main_arg1) = (m ((c.tc : Thread nD τ).loc main_arg1)) :=
  (U14_untouched m c main_arg1 (by decide)).trans (rat_arg1_13 m c)
theorem rat_arg4_14 : U14 m c (Proc.devRef .tc main_arg4) = (m ((c.tc : Thread nD τ).loc main_arg4)) :=
  (U14_untouched m c main_arg4 (by decide)).trans (rat_arg4_13 m c)
theorem rat_arg5_14 : U14 m c (Proc.devRef .tc main_arg5) = (m ((c.tc : Thread nD τ).loc main_arg5)) :=
  (U14_untouched m c main_arg5 (by decide)).trans (rat_arg5_13 m c)
theorem rat_arg6_14 : U14 m c (Proc.devRef .tc main_arg6) = (m ((c.tc : Thread nD τ).loc main_arg6)) :=
  (U14_untouched m c main_arg6 (by decide)).trans (rat_arg6_13 m c)
theorem rat_arg7_14 : U14 m c (Proc.devRef .tc main_arg7) = (m ((c.tc : Thread nD τ).loc main_arg7)) :=
  (U14_untouched m c main_arg7 (by decide)).trans (rat_arg7_13 m c)
theorem rat_v83_14 : U14 m c (Proc.devRef .tc main_v83) = (ReadP.val_main_v83 (F := Ideal) (m ((c.tc : Thread nD τ).loc main_arg1))) :=
  (U14_untouched m c main_v83 (by decide)).trans (rat_v83_13 m c)
theorem rat_v81_14 : U14 m c (Proc.devRef .tc main_v81) = (ReadP.val_main_v81 (F := Ideal) (m ((c.tc : Thread nD τ).loc main_arg1))) :=
  (U14_untouched m c main_v81 (by decide)).trans (rat_v81_13 m c)
theorem rat_v98_14 : U14 m c (Proc.devRef .tc main_v98) = (ReadP.val_main_v98 (F := Ideal) (m ((c.tc : Thread nD τ).loc main_arg1))) :=
  (U14_untouched m c main_v98 (by decide)).trans (rat_v98_13 m c)
theorem rat_v79_14 : U14 m c (Proc.devRef .tc main_v79) = (ReadP.val_main_v79 (F := Ideal) (m ((c.tc : Thread nD τ).loc main_arg0))) :=
  (U14_untouched m c main_v79 (by decide)).trans (rat_v79_13 m c)
theorem rat_v85_14 : U14 m c (Proc.devRef .tc main_v85) = (ReadP.val_main_v85 (F := Ideal) (m ((c.tc : Thread nD τ).loc main_arg4))) :=
  (U14_untouched m c main_v85 (by decide)).trans (rat_v85_13 m c)
theorem rat_v87_14 : U14 m c (Proc.devRef .tc main_v87) = (ReadP.val_main_v87 (F := Ideal) (m ((c.tc : Thread nD τ).loc main_arg5))) :=
  (U14_untouched m c main_v87 (by decide)).trans (rat_v87_13 m c)
theorem rat_v89_14 : U14 m c (Proc.devRef .tc main_v89) = (ReadP.val_main_v89 (F := Ideal) (m ((c.tc : Thread nD τ).loc main_arg6))) :=
  (U14_untouched m c main_v89 (by decide)).trans (rat_v89_13 m c)
theorem rat_v91_14 : U14 m c (Proc.devRef .tc main_v91) = (ReadP.val_main_v91 (F := Ideal) (m ((c.tc : Thread nD τ).loc main_arg7))) :=
  (U14_untouched m c main_v91 (by decide)).trans (rat_v91_13 m c)
theorem rat_arg2_14 : U14 m c (Proc.devRef .tc main_arg2) = (m ((c.tc : Thread nD τ).loc main_arg2)) :=
  (U14_untouched m c main_arg2 (by decide)).trans (rat_arg2_13 m c)
theorem rat_v77_14 : U14 m c (Proc.devRef .tc main_v77) = (ReadP.val_main_v77 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) :=
  (U14_untouched m c main_v77 (by decide)).trans (rat_v77_13 m c)
theorem rat_arg3_14 : U14 m c (Proc.devRef .tc main_arg3) = (m ((c.tc : Thread nD τ).loc main_arg3)) :=
  (U14_untouched m c main_arg3 (by decide)).trans (rat_arg3_13 m c)
theorem rat_arg8_14 : U14 m c (Proc.devRef .tc main_arg8) = (m ((c.tc : Thread nD τ).loc main_arg8)) :=
  (U14_untouched m c main_arg8 (by decide)).trans (rat_arg8_13 m c)
theorem rat_arg9_14 : U14 m c (Proc.devRef .tc main_arg9) = (m ((c.tc : Thread nD τ).loc main_arg9)) :=
  (U14_untouched m c main_arg9 (by decide)).trans (rat_arg9_13 m c)
theorem rat_arg10_14 : U14 m c (Proc.devRef .tc main_arg10) = (m ((c.tc : Thread nD τ).loc main_arg10)) :=
  (U14_untouched m c main_arg10 (by decide)).trans (rat_arg10_13 m c)
theorem rat_arg11_14 : U14 m c (Proc.devRef .tc main_arg11) = (m ((c.tc : Thread nD τ).loc main_arg11)) :=
  (U14_untouched m c main_arg11 (by decide)).trans (rat_arg11_13 m c)

end Cert.RefRun

end
-- ==== Proof.RefRun2.lean ====
import proofs.«135273_j69758858821831_1_alg».proof.Proof.RefRun1
import Idealize.ShloMosaic.Lib.StableHlo.Run

/-!
# Part 2 of the reference: operations 122 … 183

Each buffer a chunk defines and a later chunk reads holds its stage; each live buffer a chunk does not write keeps what it
held.
-/

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

theorem rat_v114_15 : U15 m c (Proc.devRef .tc main_v114) = (ReadP.val_main_v114 (F := Ideal) (m ((c.tc : Thread nD τ).loc main_arg1))) := by
  show after (Q14 (F := Ideal)) (U14 m c) (Proc.devRef .tc main_v114) = _
  after_results_simp
  rw [rat_v98_14 m c, rat_v100_14 m c, rat_v81_14 m c, rat_v101_14 m c, rat_v83_14 m c]
  rfl
theorem rat_v115_15 : U15 m c (Proc.devRef .tc main_v115) = (ReadP.val_main_v115 (F := Ideal) (m ((c.tc : Thread nD τ).loc main_arg1))) := by
  show after (Q14 (F := Ideal)) (U14 m c) (Proc.devRef .tc main_v115) = _
  after_results_simp
  rw [rat_v98_14 m c]
  rfl
theorem rat_arg0_15 : U15 m c (Proc.devRef .tc main_arg0) = (m ((c.tc : Thread nD τ).loc main_arg0)) :=
  (U15_untouched m c main_arg0 (by decide)).trans (rat_arg0_14 m c)
theorem rat_arg1_15 : U15 m c (Proc.devRef .tc main_arg1) = (m ((c.tc : Thread nD τ).loc main_arg1)) :=
  (U15_untouched m c main_arg1 (by decide)).trans (rat_arg1_14 m c)
theorem rat_arg4_15 : U15 m c (Proc.devRef .tc main_arg4) = (m ((c.tc : Thread nD τ).loc main_arg4)) :=
  (U15_untouched m c main_arg4 (by decide)).trans (rat_arg4_14 m c)
theorem rat_arg5_15 : U15 m c (Proc.devRef .tc main_arg5) = (m ((c.tc : Thread nD τ).loc main_arg5)) :=
  (U15_untouched m c main_arg5 (by decide)).trans (rat_arg5_14 m c)
theorem rat_arg6_15 : U15 m c (Proc.devRef .tc main_arg6) = (m ((c.tc : Thread nD τ).loc main_arg6)) :=
  (U15_untouched m c main_arg6 (by decide)).trans (rat_arg6_14 m c)
theorem rat_arg7_15 : U15 m c (Proc.devRef .tc main_arg7) = (m ((c.tc : Thread nD τ).loc main_arg7)) :=
  (U15_untouched m c main_arg7 (by decide)).trans (rat_arg7_14 m c)
theorem rat_v83_15 : U15 m c (Proc.devRef .tc main_v83) = (ReadP.val_main_v83 (F := Ideal) (m ((c.tc : Thread nD τ).loc main_arg1))) :=
  (U15_untouched m c main_v83 (by decide)).trans (rat_v83_14 m c)
theorem rat_v81_15 : U15 m c (Proc.devRef .tc main_v81) = (ReadP.val_main_v81 (F := Ideal) (m ((c.tc : Thread nD τ).loc main_arg1))) :=
  (U15_untouched m c main_v81 (by decide)).trans (rat_v81_14 m c)
theorem rat_v79_15 : U15 m c (Proc.devRef .tc main_v79) = (ReadP.val_main_v79 (F := Ideal) (m ((c.tc : Thread nD τ).loc main_arg0))) :=
  (U15_untouched m c main_v79 (by decide)).trans (rat_v79_14 m c)
theorem rat_v85_15 : U15 m c (Proc.devRef .tc main_v85) = (ReadP.val_main_v85 (F := Ideal) (m ((c.tc : Thread nD τ).loc main_arg4))) :=
  (U15_untouched m c main_v85 (by decide)).trans (rat_v85_14 m c)
theorem rat_v87_15 : U15 m c (Proc.devRef .tc main_v87) = (ReadP.val_main_v87 (F := Ideal) (m ((c.tc : Thread nD τ).loc main_arg5))) :=
  (U15_untouched m c main_v87 (by decide)).trans (rat_v87_14 m c)
theorem rat_v89_15 : U15 m c (Proc.devRef .tc main_v89) = (ReadP.val_main_v89 (F := Ideal) (m ((c.tc : Thread nD τ).loc main_arg6))) :=
  (U15_untouched m c main_v89 (by decide)).trans (rat_v89_14 m c)
theorem rat_v91_15 : U15 m c (Proc.devRef .tc main_v91) = (ReadP.val_main_v91 (F := Ideal) (m ((c.tc : Thread nD τ).loc main_arg7))) :=
  (U15_untouched m c main_v91 (by decide)).trans (rat_v91_14 m c)
theorem rat_arg2_15 : U15 m c (Proc.devRef .tc main_arg2) = (m ((c.tc : Thread nD τ).loc main_arg2)) :=
  (U15_untouched m c main_arg2 (by decide)).trans (rat_arg2_14 m c)
theorem rat_v77_15 : U15 m c (Proc.devRef .tc main_v77) = (ReadP.val_main_v77 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) :=
  (U15_untouched m c main_v77 (by decide)).trans (rat_v77_14 m c)
theorem rat_arg3_15 : U15 m c (Proc.devRef .tc main_arg3) = (m ((c.tc : Thread nD τ).loc main_arg3)) :=
  (U15_untouched m c main_arg3 (by decide)).trans (rat_arg3_14 m c)
theorem rat_arg8_15 : U15 m c (Proc.devRef .tc main_arg8) = (m ((c.tc : Thread nD τ).loc main_arg8)) :=
  (U15_untouched m c main_arg8 (by decide)).trans (rat_arg8_14 m c)
theorem rat_arg9_15 : U15 m c (Proc.devRef .tc main_arg9) = (m ((c.tc : Thread nD τ).loc main_arg9)) :=
  (U15_untouched m c main_arg9 (by decide)).trans (rat_arg9_14 m c)
theorem rat_arg10_15 : U15 m c (Proc.devRef .tc main_arg10) = (m ((c.tc : Thread nD τ).loc main_arg10)) :=
  (U15_untouched m c main_arg10 (by decide)).trans (rat_arg10_14 m c)
theorem rat_arg11_15 : U15 m c (Proc.devRef .tc main_arg11) = (m ((c.tc : Thread nD τ).loc main_arg11)) :=
  (U15_untouched m c main_arg11 (by decide)).trans (rat_arg11_14 m c)
theorem rat_v116_16 : U16 m c (Proc.devRef .tc main_v116) = (ReadP.val_main_v116 (F := Ideal) (m ((c.tc : Thread nD τ).loc main_arg1))) := by
  show after (Q15 (F := Ideal)) (U15 m c) (Proc.devRef .tc main_v116) = _
  after_results_simp
  rw [rat_v115_15 m c]
  rfl
theorem rat_arg0_16 : U16 m c (Proc.devRef .tc main_arg0) = (m ((c.tc : Thread nD τ).loc main_arg0)) :=
  (U16_untouched m c main_arg0 (by decide)).trans (rat_arg0_15 m c)
theorem rat_arg1_16 : U16 m c (Proc.devRef .tc main_arg1) = (m ((c.tc : Thread nD τ).loc main_arg1)) :=
  (U16_untouched m c main_arg1 (by decide)).trans (rat_arg1_15 m c)
theorem rat_arg4_16 : U16 m c (Proc.devRef .tc main_arg4) = (m ((c.tc : Thread nD τ).loc main_arg4)) :=
  (U16_untouched m c main_arg4 (by decide)).trans (rat_arg4_15 m c)
theorem rat_arg5_16 : U16 m c (Proc.devRef .tc main_arg5) = (m ((c.tc : Thread nD τ).loc main_arg5)) :=
  (U16_untouched m c main_arg5 (by decide)).trans (rat_arg5_15 m c)
theorem rat_arg6_16 : U16 m c (Proc.devRef .tc main_arg6) = (m ((c.tc : Thread nD τ).loc main_arg6)) :=
  (U16_untouched m c main_arg6 (by decide)).trans (rat_arg6_15 m c)
theorem rat_arg7_16 : U16 m c (Proc.devRef .tc main_arg7) = (m ((c.tc : Thread nD τ).loc main_arg7)) :=
  (U16_untouched m c main_arg7 (by decide)).trans (rat_arg7_15 m c)
theorem rat_v83_16 : U16 m c (Proc.devRef .tc main_v83) = (ReadP.val_main_v83 (F := Ideal) (m ((c.tc : Thread nD τ).loc main_arg1))) :=
  (U16_untouched m c main_v83 (by decide)).trans (rat_v83_15 m c)
theorem rat_v81_16 : U16 m c (Proc.devRef .tc main_v81) = (ReadP.val_main_v81 (F := Ideal) (m ((c.tc : Thread nD τ).loc main_arg1))) :=
  (U16_untouched m c main_v81 (by decide)).trans (rat_v81_15 m c)
theorem rat_v79_16 : U16 m c (Proc.devRef .tc main_v79) = (ReadP.val_main_v79 (F := Ideal) (m ((c.tc : Thread nD τ).loc main_arg0))) :=
  (U16_untouched m c main_v79 (by decide)).trans (rat_v79_15 m c)
theorem rat_v85_16 : U16 m c (Proc.devRef .tc main_v85) = (ReadP.val_main_v85 (F := Ideal) (m ((c.tc : Thread nD τ).loc main_arg4))) :=
  (U16_untouched m c main_v85 (by decide)).trans (rat_v85_15 m c)
theorem rat_v114_16 : U16 m c (Proc.devRef .tc main_v114) = (ReadP.val_main_v114 (F := Ideal) (m ((c.tc : Thread nD τ).loc main_arg1))) :=
  (U16_untouched m c main_v114 (by decide)).trans (rat_v114_15 m c)
theorem rat_v87_16 : U16 m c (Proc.devRef .tc main_v87) = (ReadP.val_main_v87 (F := Ideal) (m ((c.tc : Thread nD τ).loc main_arg5))) :=
  (U16_untouched m c main_v87 (by decide)).trans (rat_v87_15 m c)
theorem rat_v89_16 : U16 m c (Proc.devRef .tc main_v89) = (ReadP.val_main_v89 (F := Ideal) (m ((c.tc : Thread nD τ).loc main_arg6))) :=
  (U16_untouched m c main_v89 (by decide)).trans (rat_v89_15 m c)
theorem rat_v91_16 : U16 m c (Proc.devRef .tc main_v91) = (ReadP.val_main_v91 (F := Ideal) (m ((c.tc : Thread nD τ).loc main_arg7))) :=
  (U16_untouched m c main_v91 (by decide)).trans (rat_v91_15 m c)
theorem rat_arg2_16 : U16 m c (Proc.devRef .tc main_arg2) = (m ((c.tc : Thread nD τ).loc main_arg2)) :=
  (U16_untouched m c main_arg2 (by decide)).trans (rat_arg2_15 m c)
theorem rat_v77_16 : U16 m c (Proc.devRef .tc main_v77) = (ReadP.val_main_v77 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) :=
  (U16_untouched m c main_v77 (by decide)).trans (rat_v77_15 m c)
theorem rat_arg3_16 : U16 m c (Proc.devRef .tc main_arg3) = (m ((c.tc : Thread nD τ).loc main_arg3)) :=
  (U16_untouched m c main_arg3 (by decide)).trans (rat_arg3_15 m c)
theorem rat_arg8_16 : U16 m c (Proc.devRef .tc main_arg8) = (m ((c.tc : Thread nD τ).loc main_arg8)) :=
  (U16_untouched m c main_arg8 (by decide)).trans (rat_arg8_15 m c)
theorem rat_arg9_16 : U16 m c (Proc.devRef .tc main_arg9) = (m ((c.tc : Thread nD τ).loc main_arg9)) :=
  (U16_untouched m c main_arg9 (by decide)).trans (rat_arg9_15 m c)
theorem rat_arg10_16 : U16 m c (Proc.devRef .tc main_arg10) = (m ((c.tc : Thread nD τ).loc main_arg10)) :=
  (U16_untouched m c main_arg10 (by decide)).trans (rat_arg10_15 m c)
theorem rat_arg11_16 : U16 m c (Proc.devRef .tc main_arg11) = (m ((c.tc : Thread nD τ).loc main_arg11)) :=
  (U16_untouched m c main_arg11 (by decide)).trans (rat_arg11_15 m c)
theorem rat_v117_17 : U17 m c (Proc.devRef .tc main_v117) = (ReadP.val_main_v117 (F := Ideal) (m ((c.tc : Thread nD τ).loc main_arg0)) (m ((c.tc : Thread nD τ).loc main_arg4))) := by
  show after (Q16 (F := Ideal)) (U16 m c) (Proc.devRef .tc main_v117) = _
  after_results_simp
  rw [rat_v79_16 m c, rat_v85_16 m c]
  rfl
theorem rat_arg0_17 : U17 m c (Proc.devRef .tc main_arg0) = (m ((c.tc : Thread nD τ).loc main_arg0)) :=
  (U17_untouched m c main_arg0 (by decide)).trans (rat_arg0_16 m c)
theorem rat_arg1_17 : U17 m c (Proc.devRef .tc main_arg1) = (m ((c.tc : Thread nD τ).loc main_arg1)) :=
  (U17_untouched m c main_arg1 (by decide)).trans (rat_arg1_16 m c)
theorem rat_arg4_17 : U17 m c (Proc.devRef .tc main_arg4) = (m ((c.tc : Thread nD τ).loc main_arg4)) :=
  (U17_untouched m c main_arg4 (by decide)).trans (rat_arg4_16 m c)
theorem rat_arg5_17 : U17 m c (Proc.devRef .tc main_arg5) = (m ((c.tc : Thread nD τ).loc main_arg5)) :=
  (U17_untouched m c main_arg5 (by decide)).trans (rat_arg5_16 m c)
theorem rat_arg6_17 : U17 m c (Proc.devRef .tc main_arg6) = (m ((c.tc : Thread nD τ).loc main_arg6)) :=
  (U17_untouched m c main_arg6 (by decide)).trans (rat_arg6_16 m c)
theorem rat_arg7_17 : U17 m c (Proc.devRef .tc main_arg7) = (m ((c.tc : Thread nD τ).loc main_arg7)) :=
  (U17_untouched m c main_arg7 (by decide)).trans (rat_arg7_16 m c)
theorem rat_v83_17 : U17 m c (Proc.devRef .tc main_v83) = (ReadP.val_main_v83 (F := Ideal) (m ((c.tc : Thread nD τ).loc main_arg1))) :=
  (U17_untouched m c main_v83 (by decide)).trans (rat_v83_16 m c)
theorem rat_v81_17 : U17 m c (Proc.devRef .tc main_v81) = (ReadP.val_main_v81 (F := Ideal) (m ((c.tc : Thread nD τ).loc main_arg1))) :=
  (U17_untouched m c main_v81 (by decide)).trans (rat_v81_16 m c)
theorem rat_v114_17 : U17 m c (Proc.devRef .tc main_v114) = (ReadP.val_main_v114 (F := Ideal) (m ((c.tc : Thread nD τ).loc main_arg1))) :=
  (U17_untouched m c main_v114 (by decide)).trans (rat_v114_16 m c)
theorem rat_v116_17 : U17 m c (Proc.devRef .tc main_v116) = (ReadP.val_main_v116 (F := Ideal) (m ((c.tc : Thread nD τ).loc main_arg1))) :=
  (U17_untouched m c main_v116 (by decide)).trans (rat_v116_16 m c)
theorem rat_v87_17 : U17 m c (Proc.devRef .tc main_v87) = (ReadP.val_main_v87 (F := Ideal) (m ((c.tc : Thread nD τ).loc main_arg5))) :=
  (U17_untouched m c main_v87 (by decide)).trans (rat_v87_16 m c)
theorem rat_v89_17 : U17 m c (Proc.devRef .tc main_v89) = (ReadP.val_main_v89 (F := Ideal) (m ((c.tc : Thread nD τ).loc main_arg6))) :=
  (U17_untouched m c main_v89 (by decide)).trans (rat_v89_16 m c)
theorem rat_v91_17 : U17 m c (Proc.devRef .tc main_v91) = (ReadP.val_main_v91 (F := Ideal) (m ((c.tc : Thread nD τ).loc main_arg7))) :=
  (U17_untouched m c main_v91 (by decide)).trans (rat_v91_16 m c)
theorem rat_arg2_17 : U17 m c (Proc.devRef .tc main_arg2) = (m ((c.tc : Thread nD τ).loc main_arg2)) :=
  (U17_untouched m c main_arg2 (by decide)).trans (rat_arg2_16 m c)
theorem rat_v77_17 : U17 m c (Proc.devRef .tc main_v77) = (ReadP.val_main_v77 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) :=
  (U17_untouched m c main_v77 (by decide)).trans (rat_v77_16 m c)
theorem rat_arg3_17 : U17 m c (Proc.devRef .tc main_arg3) = (m ((c.tc : Thread nD τ).loc main_arg3)) :=
  (U17_untouched m c main_arg3 (by decide)).trans (rat_arg3_16 m c)
theorem rat_arg8_17 : U17 m c (Proc.devRef .tc main_arg8) = (m ((c.tc : Thread nD τ).loc main_arg8)) :=
  (U17_untouched m c main_arg8 (by decide)).trans (rat_arg8_16 m c)
theorem rat_arg9_17 : U17 m c (Proc.devRef .tc main_arg9) = (m ((c.tc : Thread nD τ).loc main_arg9)) :=
  (U17_untouched m c main_arg9 (by decide)).trans (rat_arg9_16 m c)
theorem rat_arg10_17 : U17 m c (Proc.devRef .tc main_arg10) = (m ((c.tc : Thread nD τ).loc main_arg10)) :=
  (U17_untouched m c main_arg10 (by decide)).trans (rat_arg10_16 m c)
theorem rat_arg11_17 : U17 m c (Proc.devRef .tc main_arg11) = (m ((c.tc : Thread nD τ).loc main_arg11)) :=
  (U17_untouched m c main_arg11 (by decide)).trans (rat_arg11_16 m c)
theorem rat_v129_18 : U18 m c (Proc.devRef .tc main_v129) = (ReadP.val_main_v129 (F := Ideal) (m ((c.tc : Thread nD τ).loc main_arg0)) (m ((c.tc : Thread nD τ).loc main_arg1)) (m ((c.tc : Thread nD τ).loc main_arg4))) := by
  show after (Q17 (F := Ideal)) (U17 m c) (Proc.devRef .tc main_v129) = _
  after_results_simp
  rw [rat_v83_17 m c, rat_v117_17 m c, rat_v81_17 m c, rat_v114_17 m c]
  rfl
theorem rat_arg0_18 : U18 m c (Proc.devRef .tc main_arg0) = (m ((c.tc : Thread nD τ).loc main_arg0)) :=
  (U18_untouched m c main_arg0 (by decide)).trans (rat_arg0_17 m c)
theorem rat_arg1_18 : U18 m c (Proc.devRef .tc main_arg1) = (m ((c.tc : Thread nD τ).loc main_arg1)) :=
  (U18_untouched m c main_arg1 (by decide)).trans (rat_arg1_17 m c)
theorem rat_arg4_18 : U18 m c (Proc.devRef .tc main_arg4) = (m ((c.tc : Thread nD τ).loc main_arg4)) :=
  (U18_untouched m c main_arg4 (by decide)).trans (rat_arg4_17 m c)
theorem rat_arg5_18 : U18 m c (Proc.devRef .tc main_arg5) = (m ((c.tc : Thread nD τ).loc main_arg5)) :=
  (U18_untouched m c main_arg5 (by decide)).trans (rat_arg5_17 m c)
theorem rat_arg6_18 : U18 m c (Proc.devRef .tc main_arg6) = (m ((c.tc : Thread nD τ).loc main_arg6)) :=
  (U18_untouched m c main_arg6 (by decide)).trans (rat_arg6_17 m c)
theorem rat_arg7_18 : U18 m c (Proc.devRef .tc main_arg7) = (m ((c.tc : Thread nD τ).loc main_arg7)) :=
  (U18_untouched m c main_arg7 (by decide)).trans (rat_arg7_17 m c)
theorem rat_v83_18 : U18 m c (Proc.devRef .tc main_v83) = (ReadP.val_main_v83 (F := Ideal) (m ((c.tc : Thread nD τ).loc main_arg1))) :=
  (U18_untouched m c main_v83 (by decide)).trans (rat_v83_17 m c)
theorem rat_v81_18 : U18 m c (Proc.devRef .tc main_v81) = (ReadP.val_main_v81 (F := Ideal) (m ((c.tc : Thread nD τ).loc main_arg1))) :=
  (U18_untouched m c main_v81 (by decide)).trans (rat_v81_17 m c)
theorem rat_v117_18 : U18 m c (Proc.devRef .tc main_v117) = (ReadP.val_main_v117 (F := Ideal) (m ((c.tc : Thread nD τ).loc main_arg0)) (m ((c.tc : Thread nD τ).loc main_arg4))) :=
  (U18_untouched m c main_v117 (by decide)).trans (rat_v117_17 m c)
theorem rat_v114_18 : U18 m c (Proc.devRef .tc main_v114) = (ReadP.val_main_v114 (F := Ideal) (m ((c.tc : Thread nD τ).loc main_arg1))) :=
  (U18_untouched m c main_v114 (by decide)).trans (rat_v114_17 m c)
theorem rat_v116_18 : U18 m c (Proc.devRef .tc main_v116) = (ReadP.val_main_v116 (F := Ideal) (m ((c.tc : Thread nD τ).loc main_arg1))) :=
  (U18_untouched m c main_v116 (by decide)).trans (rat_v116_17 m c)
theorem rat_v87_18 : U18 m c (Proc.devRef .tc main_v87) = (ReadP.val_main_v87 (F := Ideal) (m ((c.tc : Thread nD τ).loc main_arg5))) :=
  (U18_untouched m c main_v87 (by decide)).trans (rat_v87_17 m c)
theorem rat_v89_18 : U18 m c (Proc.devRef .tc main_v89) = (ReadP.val_main_v89 (F := Ideal) (m ((c.tc : Thread nD τ).loc main_arg6))) :=
  (U18_untouched m c main_v89 (by decide)).trans (rat_v89_17 m c)
theorem rat_v91_18 : U18 m c (Proc.devRef .tc main_v91) = (ReadP.val_main_v91 (F := Ideal) (m ((c.tc : Thread nD τ).loc main_arg7))) :=
  (U18_untouched m c main_v91 (by decide)).trans (rat_v91_17 m c)
theorem rat_arg2_18 : U18 m c (Proc.devRef .tc main_arg2) = (m ((c.tc : Thread nD τ).loc main_arg2)) :=
  (U18_untouched m c main_arg2 (by decide)).trans (rat_arg2_17 m c)
theorem rat_v77_18 : U18 m c (Proc.devRef .tc main_v77) = (ReadP.val_main_v77 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) :=
  (U18_untouched m c main_v77 (by decide)).trans (rat_v77_17 m c)
theorem rat_arg3_18 : U18 m c (Proc.devRef .tc main_arg3) = (m ((c.tc : Thread nD τ).loc main_arg3)) :=
  (U18_untouched m c main_arg3 (by decide)).trans (rat_arg3_17 m c)
theorem rat_arg8_18 : U18 m c (Proc.devRef .tc main_arg8) = (m ((c.tc : Thread nD τ).loc main_arg8)) :=
  (U18_untouched m c main_arg8 (by decide)).trans (rat_arg8_17 m c)
theorem rat_arg9_18 : U18 m c (Proc.devRef .tc main_arg9) = (m ((c.tc : Thread nD τ).loc main_arg9)) :=
  (U18_untouched m c main_arg9 (by decide)).trans (rat_arg9_17 m c)
theorem rat_arg10_18 : U18 m c (Proc.devRef .tc main_arg10) = (m ((c.tc : Thread nD τ).loc main_arg10)) :=
  (U18_untouched m c main_arg10 (by decide)).trans (rat_arg10_17 m c)
theorem rat_arg11_18 : U18 m c (Proc.devRef .tc main_arg11) = (m ((c.tc : Thread nD τ).loc main_arg11)) :=
  (U18_untouched m c main_arg11 (by decide)).trans (rat_arg11_17 m c)
theorem rat_v135_19 : U19 m c (Proc.devRef .tc main_v135) = (ReadP.val_main_v135 (F := Ideal) (m ((c.tc : Thread nD τ).loc main_arg0)) (m ((c.tc : Thread nD τ).loc main_arg1)) (m ((c.tc : Thread nD τ).loc main_arg4)) (m ((c.tc : Thread nD τ).loc main_arg5))) := by
  show after (Q18 (F := Ideal)) (U18 m c) (Proc.devRef .tc main_v135) = _
  after_results_simp
  rw [rat_v129_18 m c, rat_v117_18 m c, rat_v116_18 m c, rat_v87_18 m c]
  rfl
theorem rat_arg0_19 : U19 m c (Proc.devRef .tc main_arg0) = (m ((c.tc : Thread nD τ).loc main_arg0)) :=
  (U19_untouched m c main_arg0 (by decide)).trans (rat_arg0_18 m c)
theorem rat_arg1_19 : U19 m c (Proc.devRef .tc main_arg1) = (m ((c.tc : Thread nD τ).loc main_arg1)) :=
  (U19_untouched m c main_arg1 (by decide)).trans (rat_arg1_18 m c)
theorem rat_arg4_19 : U19 m c (Proc.devRef .tc main_arg4) = (m ((c.tc : Thread nD τ).loc main_arg4)) :=
  (U19_untouched m c main_arg4 (by decide)).trans (rat_arg4_18 m c)
theorem rat_arg5_19 : U19 m c (Proc.devRef .tc main_arg5) = (m ((c.tc : Thread nD τ).loc main_arg5)) :=
  (U19_untouched m c main_arg5 (by decide)).trans (rat_arg5_18 m c)
theorem rat_arg6_19 : U19 m c (Proc.devRef .tc main_arg6) = (m ((c.tc : Thread nD τ).loc main_arg6)) :=
  (U19_untouched m c main_arg6 (by decide)).trans (rat_arg6_18 m c)
theorem rat_arg7_19 : U19 m c (Proc.devRef .tc main_arg7) = (m ((c.tc : Thread nD τ).loc main_arg7)) :=
  (U19_untouched m c main_arg7 (by decide)).trans (rat_arg7_18 m c)
theorem rat_v83_19 : U19 m c (Proc.devRef .tc main_v83) = (ReadP.val_main_v83 (F := Ideal) (m ((c.tc : Thread nD τ).loc main_arg1))) :=
  (U19_untouched m c main_v83 (by decide)).trans (rat_v83_18 m c)
theorem rat_v81_19 : U19 m c (Proc.devRef .tc main_v81) = (ReadP.val_main_v81 (F := Ideal) (m ((c.tc : Thread nD τ).loc main_arg1))) :=
  (U19_untouched m c main_v81 (by decide)).trans (rat_v81_18 m c)
theorem rat_v114_19 : U19 m c (Proc.devRef .tc main_v114) = (ReadP.val_main_v114 (F := Ideal) (m ((c.tc : Thread nD τ).loc main_arg1))) :=
  (U19_untouched m c main_v114 (by decide)).trans (rat_v114_18 m c)
theorem rat_v116_19 : U19 m c (Proc.devRef .tc main_v116) = (ReadP.val_main_v116 (F := Ideal) (m ((c.tc : Thread nD τ).loc main_arg1))) :=
  (U19_untouched m c main_v116 (by decide)).trans (rat_v116_18 m c)
theorem rat_v89_19 : U19 m c (Proc.devRef .tc main_v89) = (ReadP.val_main_v89 (F := Ideal) (m ((c.tc : Thread nD τ).loc main_arg6))) :=
  (U19_untouched m c main_v89 (by decide)).trans (rat_v89_18 m c)
theorem rat_v91_19 : U19 m c (Proc.devRef .tc main_v91) = (ReadP.val_main_v91 (F := Ideal) (m ((c.tc : Thread nD τ).loc main_arg7))) :=
  (U19_untouched m c main_v91 (by decide)).trans (rat_v91_18 m c)
theorem rat_arg2_19 : U19 m c (Proc.devRef .tc main_arg2) = (m ((c.tc : Thread nD τ).loc main_arg2)) :=
  (U19_untouched m c main_arg2 (by decide)).trans (rat_arg2_18 m c)
theorem rat_v77_19 : U19 m c (Proc.devRef .tc main_v77) = (ReadP.val_main_v77 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) :=
  (U19_untouched m c main_v77 (by decide)).trans (rat_v77_18 m c)
theorem rat_arg3_19 : U19 m c (Proc.devRef .tc main_arg3) = (m ((c.tc : Thread nD τ).loc main_arg3)) :=
  (U19_untouched m c main_arg3 (by decide)).trans (rat_arg3_18 m c)
theorem rat_arg8_19 : U19 m c (Proc.devRef .tc main_arg8) = (m ((c.tc : Thread nD τ).loc main_arg8)) :=
  (U19_untouched m c main_arg8 (by decide)).trans (rat_arg8_18 m c)
theorem rat_arg9_19 : U19 m c (Proc.devRef .tc main_arg9) = (m ((c.tc : Thread nD τ).loc main_arg9)) :=
  (U19_untouched m c main_arg9 (by decide)).trans (rat_arg9_18 m c)
theorem rat_arg10_19 : U19 m c (Proc.devRef .tc main_arg10) = (m ((c.tc : Thread nD τ).loc main_arg10)) :=
  (U19_untouched m c main_arg10 (by decide)).trans (rat_arg10_18 m c)
theorem rat_arg11_19 : U19 m c (Proc.devRef .tc main_arg11) = (m ((c.tc : Thread nD τ).loc main_arg11)) :=
  (U19_untouched m c main_arg11 (by decide)).trans (rat_arg11_18 m c)
theorem rat_v136_20 : U20 m c (Proc.devRef .tc main_v136) = (ReadP.val_main_v136 (F := Ideal) (m ((c.tc : Thread nD τ).loc main_arg0)) (m ((c.tc : Thread nD τ).loc main_arg1)) (m ((c.tc : Thread nD τ).loc main_arg4)) (m ((c.tc : Thread nD τ).loc main_arg5))) :=
  (rect_v136 (U19 m c) _ (rat_v135_19 m c)).trans (by unfold ReadP.val_main_v136; rfl)
theorem rat_arg0_20 : U20 m c (Proc.devRef .tc main_arg0) = (m ((c.tc : Thread nD τ).loc main_arg0)) :=
  (U20_untouched m c main_arg0 (by decide)).trans (rat_arg0_19 m c)
theorem rat_arg1_20 : U20 m c (Proc.devRef .tc main_arg1) = (m ((c.tc : Thread nD τ).loc main_arg1)) :=
  (U20_untouched m c main_arg1 (by decide)).trans (rat_arg1_19 m c)
theorem rat_arg4_20 : U20 m c (Proc.devRef .tc main_arg4) = (m ((c.tc : Thread nD τ).loc main_arg4)) :=
  (U20_untouched m c main_arg4 (by decide)).trans (rat_arg4_19 m c)
theorem rat_arg5_20 : U20 m c (Proc.devRef .tc main_arg5) = (m ((c.tc : Thread nD τ).loc main_arg5)) :=
  (U20_untouched m c main_arg5 (by decide)).trans (rat_arg5_19 m c)
theorem rat_arg6_20 : U20 m c (Proc.devRef .tc main_arg6) = (m ((c.tc : Thread nD τ).loc main_arg6)) :=
  (U20_untouched m c main_arg6 (by decide)).trans (rat_arg6_19 m c)
theorem rat_arg7_20 : U20 m c (Proc.devRef .tc main_arg7) = (m ((c.tc : Thread nD τ).loc main_arg7)) :=
  (U20_untouched m c main_arg7 (by decide)).trans (rat_arg7_19 m c)
theorem rat_v83_20 : U20 m c (Proc.devRef .tc main_v83) = (ReadP.val_main_v83 (F := Ideal) (m ((c.tc : Thread nD τ).loc main_arg1))) :=
  (U20_untouched m c main_v83 (by decide)).trans (rat_v83_19 m c)
theorem rat_v81_20 : U20 m c (Proc.devRef .tc main_v81) = (ReadP.val_main_v81 (F := Ideal) (m ((c.tc : Thread nD τ).loc main_arg1))) :=
  (U20_untouched m c main_v81 (by decide)).trans (rat_v81_19 m c)
theorem rat_v114_20 : U20 m c (Proc.devRef .tc main_v114) = (ReadP.val_main_v114 (F := Ideal) (m ((c.tc : Thread nD τ).loc main_arg1))) :=
  (U20_untouched m c main_v114 (by decide)).trans (rat_v114_19 m c)
theorem rat_v116_20 : U20 m c (Proc.devRef .tc main_v116) = (ReadP.val_main_v116 (F := Ideal) (m ((c.tc : Thread nD τ).loc main_arg1))) :=
  (U20_untouched m c main_v116 (by decide)).trans (rat_v116_19 m c)
theorem rat_v89_20 : U20 m c (Proc.devRef .tc main_v89) = (ReadP.val_main_v89 (F := Ideal) (m ((c.tc : Thread nD τ).loc main_arg6))) :=
  (U20_untouched m c main_v89 (by decide)).trans (rat_v89_19 m c)
theorem rat_v91_20 : U20 m c (Proc.devRef .tc main_v91) = (ReadP.val_main_v91 (F := Ideal) (m ((c.tc : Thread nD τ).loc main_arg7))) :=
  (U20_untouched m c main_v91 (by decide)).trans (rat_v91_19 m c)
theorem rat_arg2_20 : U20 m c (Proc.devRef .tc main_arg2) = (m ((c.tc : Thread nD τ).loc main_arg2)) :=
  (U20_untouched m c main_arg2 (by decide)).trans (rat_arg2_19 m c)
theorem rat_v77_20 : U20 m c (Proc.devRef .tc main_v77) = (ReadP.val_main_v77 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) :=
  (U20_untouched m c main_v77 (by decide)).trans (rat_v77_19 m c)
theorem rat_arg3_20 : U20 m c (Proc.devRef .tc main_arg3) = (m ((c.tc : Thread nD τ).loc main_arg3)) :=
  (U20_untouched m c main_arg3 (by decide)).trans (rat_arg3_19 m c)
theorem rat_arg8_20 : U20 m c (Proc.devRef .tc main_arg8) = (m ((c.tc : Thread nD τ).loc main_arg8)) :=
  (U20_untouched m c main_arg8 (by decide)).trans (rat_arg8_19 m c)
theorem rat_arg9_20 : U20 m c (Proc.devRef .tc main_arg9) = (m ((c.tc : Thread nD τ).loc main_arg9)) :=
  (U20_untouched m c main_arg9 (by decide)).trans (rat_arg9_19 m c)
theorem rat_arg10_20 : U20 m c (Proc.devRef .tc main_arg10) = (m ((c.tc : Thread nD τ).loc main_arg10)) :=
  (U20_untouched m c main_arg10 (by decide)).trans (rat_arg10_19 m c)
theorem rat_arg11_20 : U20 m c (Proc.devRef .tc main_arg11) = (m ((c.tc : Thread nD τ).loc main_arg11)) :=
  (U20_untouched m c main_arg11 (by decide)).trans (rat_arg11_19 m c)
theorem rat_v137_21 : U21 m c (Proc.devRef .tc main_v137) = (ReadP.val_main_v137 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))) := by
  show after (Q20 (F := Ideal)) (U20 m c) (Proc.devRef .tc main_v137) = _
  after_results_simp
  rw [rat_v136_20 m c, rat_v89_20 m c]
  rfl
theorem rat_arg0_21 : U21 m c (Proc.devRef .tc main_arg0) = (m ((c.tc : Thread nD τ).loc main_arg0)) :=
  (U21_untouched m c main_arg0 (by decide)).trans (rat_arg0_20 m c)
theorem rat_arg1_21 : U21 m c (Proc.devRef .tc main_arg1) = (m ((c.tc : Thread nD τ).loc main_arg1)) :=
  (U21_untouched m c main_arg1 (by decide)).trans (rat_arg1_20 m c)
theorem rat_arg4_21 : U21 m c (Proc.devRef .tc main_arg4) = (m ((c.tc : Thread nD τ).loc main_arg4)) :=
  (U21_untouched m c main_arg4 (by decide)).trans (rat_arg4_20 m c)
theorem rat_arg5_21 : U21 m c (Proc.devRef .tc main_arg5) = (m ((c.tc : Thread nD τ).loc main_arg5)) :=
  (U21_untouched m c main_arg5 (by decide)).trans (rat_arg5_20 m c)
theorem rat_arg6_21 : U21 m c (Proc.devRef .tc main_arg6) = (m ((c.tc : Thread nD τ).loc main_arg6)) :=
  (U21_untouched m c main_arg6 (by decide)).trans (rat_arg6_20 m c)
theorem rat_arg7_21 : U21 m c (Proc.devRef .tc main_arg7) = (m ((c.tc : Thread nD τ).loc main_arg7)) :=
  (U21_untouched m c main_arg7 (by decide)).trans (rat_arg7_20 m c)
theorem rat_v83_21 : U21 m c (Proc.devRef .tc main_v83) = (ReadP.val_main_v83 (F := Ideal) (m ((c.tc : Thread nD τ).loc main_arg1))) :=
  (U21_untouched m c main_v83 (by decide)).trans (rat_v83_20 m c)
theorem rat_v81_21 : U21 m c (Proc.devRef .tc main_v81) = (ReadP.val_main_v81 (F := Ideal) (m ((c.tc : Thread nD τ).loc main_arg1))) :=
  (U21_untouched m c main_v81 (by decide)).trans (rat_v81_20 m c)
theorem rat_v114_21 : U21 m c (Proc.devRef .tc main_v114) = (ReadP.val_main_v114 (F := Ideal) (m ((c.tc : Thread nD τ).loc main_arg1))) :=
  (U21_untouched m c main_v114 (by decide)).trans (rat_v114_20 m c)
theorem rat_v116_21 : U21 m c (Proc.devRef .tc main_v116) = (ReadP.val_main_v116 (F := Ideal) (m ((c.tc : Thread nD τ).loc main_arg1))) :=
  (U21_untouched m c main_v116 (by decide)).trans (rat_v116_20 m c)
theorem rat_v91_21 : U21 m c (Proc.devRef .tc main_v91) = (ReadP.val_main_v91 (F := Ideal) (m ((c.tc : Thread nD τ).loc main_arg7))) :=
  (U21_untouched m c main_v91 (by decide)).trans (rat_v91_20 m c)
theorem rat_arg2_21 : U21 m c (Proc.devRef .tc main_arg2) = (m ((c.tc : Thread nD τ).loc main_arg2)) :=
  (U21_untouched m c main_arg2 (by decide)).trans (rat_arg2_20 m c)
theorem rat_v77_21 : U21 m c (Proc.devRef .tc main_v77) = (ReadP.val_main_v77 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) :=
  (U21_untouched m c main_v77 (by decide)).trans (rat_v77_20 m c)
theorem rat_arg3_21 : U21 m c (Proc.devRef .tc main_arg3) = (m ((c.tc : Thread nD τ).loc main_arg3)) :=
  (U21_untouched m c main_arg3 (by decide)).trans (rat_arg3_20 m c)
theorem rat_arg8_21 : U21 m c (Proc.devRef .tc main_arg8) = (m ((c.tc : Thread nD τ).loc main_arg8)) :=
  (U21_untouched m c main_arg8 (by decide)).trans (rat_arg8_20 m c)
theorem rat_arg9_21 : U21 m c (Proc.devRef .tc main_arg9) = (m ((c.tc : Thread nD τ).loc main_arg9)) :=
  (U21_untouched m c main_arg9 (by decide)).trans (rat_arg9_20 m c)
theorem rat_arg10_21 : U21 m c (Proc.devRef .tc main_arg10) = (m ((c.tc : Thread nD τ).loc main_arg10)) :=
  (U21_untouched m c main_arg10 (by decide)).trans (rat_arg10_20 m c)
theorem rat_arg11_21 : U21 m c (Proc.devRef .tc main_arg11) = (m ((c.tc : Thread nD τ).loc main_arg11)) :=
  (U21_untouched m c main_arg11 (by decide)).trans (rat_arg11_20 m c)
theorem rat_v149_22 : U22 m c (Proc.devRef .tc main_v149) = (ReadP.val_main_v149 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))) := by
  show after (Q21 (F := Ideal)) (U21 m c) (Proc.devRef .tc main_v149) = _
  after_results_simp
  rw [rat_v83_21 m c, rat_v137_21 m c, rat_v81_21 m c, rat_v114_21 m c]
  rfl
theorem rat_v150_22 : U22 m c (Proc.devRef .tc main_v150) = (ReadP.val_main_v150 (F := Ideal) (m ((c.tc : Thread nD τ).loc main_arg1))) := by
  show after (Q21 (F := Ideal)) (U21 m c) (Proc.devRef .tc main_v150) = _
  after_results_simp
  rw [rat_v116_21 m c]
  rfl
theorem rat_arg0_22 : U22 m c (Proc.devRef .tc main_arg0) = (m ((c.tc : Thread nD τ).loc main_arg0)) :=
  (U22_untouched m c main_arg0 (by decide)).trans (rat_arg0_21 m c)
theorem rat_arg1_22 : U22 m c (Proc.devRef .tc main_arg1) = (m ((c.tc : Thread nD τ).loc main_arg1)) :=
  (U22_untouched m c main_arg1 (by decide)).trans (rat_arg1_21 m c)
theorem rat_arg4_22 : U22 m c (Proc.devRef .tc main_arg4) = (m ((c.tc : Thread nD τ).loc main_arg4)) :=
  (U22_untouched m c main_arg4 (by decide)).trans (rat_arg4_21 m c)
theorem rat_arg5_22 : U22 m c (Proc.devRef .tc main_arg5) = (m ((c.tc : Thread nD τ).loc main_arg5)) :=
  (U22_untouched m c main_arg5 (by decide)).trans (rat_arg5_21 m c)
theorem rat_arg6_22 : U22 m c (Proc.devRef .tc main_arg6) = (m ((c.tc : Thread nD τ).loc main_arg6)) :=
  (U22_untouched m c main_arg6 (by decide)).trans (rat_arg6_21 m c)
theorem rat_arg7_22 : U22 m c (Proc.devRef .tc main_arg7) = (m ((c.tc : Thread nD τ).loc main_arg7)) :=
  (U22_untouched m c main_arg7 (by decide)).trans (rat_arg7_21 m c)
theorem rat_v137_22 : U22 m c (Proc.devRef .tc main_v137) = (ReadP.val_main_v137 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))) :=
  (U22_untouched m c main_v137 (by decide)).trans (rat_v137_21 m c)
theorem rat_v91_22 : U22 m c (Proc.devRef .tc main_v91) = (ReadP.val_main_v91 (F := Ideal) (m ((c.tc : Thread nD τ).loc main_arg7))) :=
  (U22_untouched m c main_v91 (by decide)).trans (rat_v91_21 m c)
theorem rat_arg2_22 : U22 m c (Proc.devRef .tc main_arg2) = (m ((c.tc : Thread nD τ).loc main_arg2)) :=
  (U22_untouched m c main_arg2 (by decide)).trans (rat_arg2_21 m c)
theorem rat_v77_22 : U22 m c (Proc.devRef .tc main_v77) = (ReadP.val_main_v77 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) :=
  (U22_untouched m c main_v77 (by decide)).trans (rat_v77_21 m c)
theorem rat_arg3_22 : U22 m c (Proc.devRef .tc main_arg3) = (m ((c.tc : Thread nD τ).loc main_arg3)) :=
  (U22_untouched m c main_arg3 (by decide)).trans (rat_arg3_21 m c)
theorem rat_arg8_22 : U22 m c (Proc.devRef .tc main_arg8) = (m ((c.tc : Thread nD τ).loc main_arg8)) :=
  (U22_untouched m c main_arg8 (by decide)).trans (rat_arg8_21 m c)
theorem rat_arg9_22 : U22 m c (Proc.devRef .tc main_arg9) = (m ((c.tc : Thread nD τ).loc main_arg9)) :=
  (U22_untouched m c main_arg9 (by decide)).trans (rat_arg9_21 m c)
theorem rat_arg10_22 : U22 m c (Proc.devRef .tc main_arg10) = (m ((c.tc : Thread nD τ).loc main_arg10)) :=
  (U22_untouched m c main_arg10 (by decide)).trans (rat_arg10_21 m c)
theorem rat_arg11_22 : U22 m c (Proc.devRef .tc main_arg11) = (m ((c.tc : Thread nD τ).loc main_arg11)) :=
  (U22_untouched m c main_arg11 (by decide)).trans (rat_arg11_21 m c)
theorem rat_v152_23 : U23 m c (Proc.devRef .tc main_v152) = (ReadP.val_main_v152 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))) := by
  show after (Q22 (F := Ideal)) (U22 m c) (Proc.devRef .tc main_v152) = _
  after_results_simp
  rw [rat_v149_22 m c, rat_v137_22 m c, rat_v150_22 m c]
  rfl
theorem rat_v153_23 : U23 m c (Proc.devRef .tc main_v153) = (ReadP.val_main_v153 (F := Ideal) (m ((c.tc : Thread nD τ).loc main_arg7))) := by
  show after (Q22 (F := Ideal)) (U22 m c) (Proc.devRef .tc main_v153) = _
  after_results_simp
  rw [rat_v91_22 m c]
  rfl
theorem rat_arg0_23 : U23 m c (Proc.devRef .tc main_arg0) = (m ((c.tc : Thread nD τ).loc main_arg0)) :=
  (U23_untouched m c main_arg0 (by decide)).trans (rat_arg0_22 m c)
theorem rat_arg1_23 : U23 m c (Proc.devRef .tc main_arg1) = (m ((c.tc : Thread nD τ).loc main_arg1)) :=
  (U23_untouched m c main_arg1 (by decide)).trans (rat_arg1_22 m c)
theorem rat_arg4_23 : U23 m c (Proc.devRef .tc main_arg4) = (m ((c.tc : Thread nD τ).loc main_arg4)) :=
  (U23_untouched m c main_arg4 (by decide)).trans (rat_arg4_22 m c)
theorem rat_arg5_23 : U23 m c (Proc.devRef .tc main_arg5) = (m ((c.tc : Thread nD τ).loc main_arg5)) :=
  (U23_untouched m c main_arg5 (by decide)).trans (rat_arg5_22 m c)
theorem rat_arg6_23 : U23 m c (Proc.devRef .tc main_arg6) = (m ((c.tc : Thread nD τ).loc main_arg6)) :=
  (U23_untouched m c main_arg6 (by decide)).trans (rat_arg6_22 m c)
theorem rat_arg7_23 : U23 m c (Proc.devRef .tc main_arg7) = (m ((c.tc : Thread nD τ).loc main_arg7)) :=
  (U23_untouched m c main_arg7 (by decide)).trans (rat_arg7_22 m c)
theorem rat_arg2_23 : U23 m c (Proc.devRef .tc main_arg2) = (m ((c.tc : Thread nD τ).loc main_arg2)) :=
  (U23_untouched m c main_arg2 (by decide)).trans (rat_arg2_22 m c)
theorem rat_v77_23 : U23 m c (Proc.devRef .tc main_v77) = (ReadP.val_main_v77 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) :=
  (U23_untouched m c main_v77 (by decide)).trans (rat_v77_22 m c)
theorem rat_arg3_23 : U23 m c (Proc.devRef .tc main_arg3) = (m ((c.tc : Thread nD τ).loc main_arg3)) :=
  (U23_untouched m c main_arg3 (by decide)).trans (rat_arg3_22 m c)
theorem rat_arg8_23 : U23 m c (Proc.devRef .tc main_arg8) = (m ((c.tc : Thread nD τ).loc main_arg8)) :=
  (U23_untouched m c main_arg8 (by decide)).trans (rat_arg8_22 m c)
theorem rat_arg9_23 : U23 m c (Proc.devRef .tc main_arg9) = (m ((c.tc : Thread nD τ).loc main_arg9)) :=
  (U23_untouched m c main_arg9 (by decide)).trans (rat_arg9_22 m c)
theorem rat_arg10_23 : U23 m c (Proc.devRef .tc main_arg10) = (m ((c.tc : Thread nD τ).loc main_arg10)) :=
  (U23_untouched m c main_arg10 (by decide)).trans (rat_arg10_22 m c)
theorem rat_arg11_23 : U23 m c (Proc.devRef .tc main_arg11) = (m ((c.tc : Thread nD τ).loc main_arg11)) :=
  (U23_untouched m c main_arg11 (by decide)).trans (rat_arg11_22 m c)

end Cert.RefRun

end
-- ==== Proof.RefRun3.lean ====
import proofs.«135273_j69758858821831_1_alg».proof.Proof.RefRun2
import Idealize.ShloMosaic.Lib.StableHlo.Run

/-!
# Part 3 of the reference: operations 184 … 243

Each buffer a chunk defines and a later chunk reads holds its stage; each live buffer a chunk does not write keeps what it
held.
-/

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

theorem rat_v155_24 : U24 m c (Proc.devRef .tc main_v155) = (ReadP.val_main_v155 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) := by
  show after (Q23 (F := Ideal)) (U23 m c) (Proc.devRef .tc main_v155) = _
  after_results_simp
  rw [rat_v152_23 m c, rat_v153_23 m c]
  rfl
theorem rat_v157_24 : U24 m c (Proc.devRef .tc main_v157) = (ReadP.val_main_v157 (F := Ideal) (m ((c.tc : Thread nD τ).loc main_arg2))) := by
  show after (Q23 (F := Ideal)) (U23 m c) (Proc.devRef .tc main_v157) = _
  after_results_simp
  rw [rat_arg2_23 m c]
  rfl
theorem rat_v166_24 : U24 m c (Proc.devRef .tc main_v166) = (ReadP.val_main_v166 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))) := by
  show after (Q23 (F := Ideal)) (U23 m c) (Proc.devRef .tc main_v166) = _
  after_results_simp
  rw [rat_v77_23 m c, rat_arg2_23 m c]
  rfl
theorem rat_arg0_24 : U24 m c (Proc.devRef .tc main_arg0) = (m ((c.tc : Thread nD τ).loc main_arg0)) :=
  (U24_untouched m c main_arg0 (by decide)).trans (rat_arg0_23 m c)
theorem rat_arg1_24 : U24 m c (Proc.devRef .tc main_arg1) = (m ((c.tc : Thread nD τ).loc main_arg1)) :=
  (U24_untouched m c main_arg1 (by decide)).trans (rat_arg1_23 m c)
theorem rat_arg4_24 : U24 m c (Proc.devRef .tc main_arg4) = (m ((c.tc : Thread nD τ).loc main_arg4)) :=
  (U24_untouched m c main_arg4 (by decide)).trans (rat_arg4_23 m c)
theorem rat_arg5_24 : U24 m c (Proc.devRef .tc main_arg5) = (m ((c.tc : Thread nD τ).loc main_arg5)) :=
  (U24_untouched m c main_arg5 (by decide)).trans (rat_arg5_23 m c)
theorem rat_arg6_24 : U24 m c (Proc.devRef .tc main_arg6) = (m ((c.tc : Thread nD τ).loc main_arg6)) :=
  (U24_untouched m c main_arg6 (by decide)).trans (rat_arg6_23 m c)
theorem rat_arg7_24 : U24 m c (Proc.devRef .tc main_arg7) = (m ((c.tc : Thread nD τ).loc main_arg7)) :=
  (U24_untouched m c main_arg7 (by decide)).trans (rat_arg7_23 m c)
theorem rat_arg2_24 : U24 m c (Proc.devRef .tc main_arg2) = (m ((c.tc : Thread nD τ).loc main_arg2)) :=
  (U24_untouched m c main_arg2 (by decide)).trans (rat_arg2_23 m c)
theorem rat_arg3_24 : U24 m c (Proc.devRef .tc main_arg3) = (m ((c.tc : Thread nD τ).loc main_arg3)) :=
  (U24_untouched m c main_arg3 (by decide)).trans (rat_arg3_23 m c)
theorem rat_arg8_24 : U24 m c (Proc.devRef .tc main_arg8) = (m ((c.tc : Thread nD τ).loc main_arg8)) :=
  (U24_untouched m c main_arg8 (by decide)).trans (rat_arg8_23 m c)
theorem rat_arg9_24 : U24 m c (Proc.devRef .tc main_arg9) = (m ((c.tc : Thread nD τ).loc main_arg9)) :=
  (U24_untouched m c main_arg9 (by decide)).trans (rat_arg9_23 m c)
theorem rat_arg10_24 : U24 m c (Proc.devRef .tc main_arg10) = (m ((c.tc : Thread nD τ).loc main_arg10)) :=
  (U24_untouched m c main_arg10 (by decide)).trans (rat_arg10_23 m c)
theorem rat_arg11_24 : U24 m c (Proc.devRef .tc main_arg11) = (m ((c.tc : Thread nD τ).loc main_arg11)) :=
  (U24_untouched m c main_arg11 (by decide)).trans (rat_arg11_23 m c)
theorem rat_v174_25 : U25 m c (Proc.devRef .tc main_v174) = (ReadP.val_main_v174 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  show after (Q24 (F := Ideal)) (U24 m c) (Proc.devRef .tc main_v174) = _
  after_results_simp
  rw [rat_v155_24 m c, rat_v157_24 m c, rat_v166_24 m c, rat_arg3_24 m c]
  rfl
theorem rat_arg0_25 : U25 m c (Proc.devRef .tc main_arg0) = (m ((c.tc : Thread nD τ).loc main_arg0)) :=
  (U25_untouched m c main_arg0 (by decide)).trans (rat_arg0_24 m c)
theorem rat_arg1_25 : U25 m c (Proc.devRef .tc main_arg1) = (m ((c.tc : Thread nD τ).loc main_arg1)) :=
  (U25_untouched m c main_arg1 (by decide)).trans (rat_arg1_24 m c)
theorem rat_arg4_25 : U25 m c (Proc.devRef .tc main_arg4) = (m ((c.tc : Thread nD τ).loc main_arg4)) :=
  (U25_untouched m c main_arg4 (by decide)).trans (rat_arg4_24 m c)
theorem rat_arg5_25 : U25 m c (Proc.devRef .tc main_arg5) = (m ((c.tc : Thread nD τ).loc main_arg5)) :=
  (U25_untouched m c main_arg5 (by decide)).trans (rat_arg5_24 m c)
theorem rat_arg6_25 : U25 m c (Proc.devRef .tc main_arg6) = (m ((c.tc : Thread nD τ).loc main_arg6)) :=
  (U25_untouched m c main_arg6 (by decide)).trans (rat_arg6_24 m c)
theorem rat_arg7_25 : U25 m c (Proc.devRef .tc main_arg7) = (m ((c.tc : Thread nD τ).loc main_arg7)) :=
  (U25_untouched m c main_arg7 (by decide)).trans (rat_arg7_24 m c)
theorem rat_arg2_25 : U25 m c (Proc.devRef .tc main_arg2) = (m ((c.tc : Thread nD τ).loc main_arg2)) :=
  (U25_untouched m c main_arg2 (by decide)).trans (rat_arg2_24 m c)
theorem rat_arg3_25 : U25 m c (Proc.devRef .tc main_arg3) = (m ((c.tc : Thread nD τ).loc main_arg3)) :=
  (U25_untouched m c main_arg3 (by decide)).trans (rat_arg3_24 m c)
theorem rat_arg8_25 : U25 m c (Proc.devRef .tc main_arg8) = (m ((c.tc : Thread nD τ).loc main_arg8)) :=
  (U25_untouched m c main_arg8 (by decide)).trans (rat_arg8_24 m c)
theorem rat_arg9_25 : U25 m c (Proc.devRef .tc main_arg9) = (m ((c.tc : Thread nD τ).loc main_arg9)) :=
  (U25_untouched m c main_arg9 (by decide)).trans (rat_arg9_24 m c)
theorem rat_arg10_25 : U25 m c (Proc.devRef .tc main_arg10) = (m ((c.tc : Thread nD τ).loc main_arg10)) :=
  (U25_untouched m c main_arg10 (by decide)).trans (rat_arg10_24 m c)
theorem rat_arg11_25 : U25 m c (Proc.devRef .tc main_arg11) = (m ((c.tc : Thread nD τ).loc main_arg11)) :=
  (U25_untouched m c main_arg11 (by decide)).trans (rat_arg11_24 m c)
theorem rat_v176_26 : U26 m c (Proc.devRef .tc main_v176) = (ReadP.val_main_v176 (F := Ideal) (m ((c.tc : Thread nD τ).loc main_arg0))) := by
  show after (Q25 (F := Ideal)) (U25 m c) (Proc.devRef .tc main_v176) = _
  after_results_simp
  rw [rat_arg0_25 m c]
  rfl
theorem rat_v178_26 : U26 m c (Proc.devRef .tc main_v178) = (ReadP.val_main_v178 (F := Ideal) (m ((c.tc : Thread nD τ).loc main_arg1))) := by
  show after (Q25 (F := Ideal)) (U25 m c) (Proc.devRef .tc main_v178) = _
  after_results_simp
  rw [rat_arg1_25 m c]
  rfl
theorem rat_v180_26 : U26 m c (Proc.devRef .tc main_v180) = (ReadP.val_main_v180 (F := Ideal) (m ((c.tc : Thread nD τ).loc main_arg1))) := by
  show after (Q25 (F := Ideal)) (U25 m c) (Proc.devRef .tc main_v180) = _
  after_results_simp
  rw [rat_arg1_25 m c]
  rfl
theorem rat_v182_26 : U26 m c (Proc.devRef .tc main_v182) = (ReadP.val_main_v182 (F := Ideal) (m ((c.tc : Thread nD τ).loc main_arg4))) := by
  show after (Q25 (F := Ideal)) (U25 m c) (Proc.devRef .tc main_v182) = _
  after_results_simp
  rw [rat_arg4_25 m c]
  rfl
theorem rat_arg0_26 : U26 m c (Proc.devRef .tc main_arg0) = (m ((c.tc : Thread nD τ).loc main_arg0)) :=
  (U26_untouched m c main_arg0 (by decide)).trans (rat_arg0_25 m c)
theorem rat_arg1_26 : U26 m c (Proc.devRef .tc main_arg1) = (m ((c.tc : Thread nD τ).loc main_arg1)) :=
  (U26_untouched m c main_arg1 (by decide)).trans (rat_arg1_25 m c)
theorem rat_arg4_26 : U26 m c (Proc.devRef .tc main_arg4) = (m ((c.tc : Thread nD τ).loc main_arg4)) :=
  (U26_untouched m c main_arg4 (by decide)).trans (rat_arg4_25 m c)
theorem rat_arg5_26 : U26 m c (Proc.devRef .tc main_arg5) = (m ((c.tc : Thread nD τ).loc main_arg5)) :=
  (U26_untouched m c main_arg5 (by decide)).trans (rat_arg5_25 m c)
theorem rat_arg6_26 : U26 m c (Proc.devRef .tc main_arg6) = (m ((c.tc : Thread nD τ).loc main_arg6)) :=
  (U26_untouched m c main_arg6 (by decide)).trans (rat_arg6_25 m c)
theorem rat_arg7_26 : U26 m c (Proc.devRef .tc main_arg7) = (m ((c.tc : Thread nD τ).loc main_arg7)) :=
  (U26_untouched m c main_arg7 (by decide)).trans (rat_arg7_25 m c)
theorem rat_arg2_26 : U26 m c (Proc.devRef .tc main_arg2) = (m ((c.tc : Thread nD τ).loc main_arg2)) :=
  (U26_untouched m c main_arg2 (by decide)).trans (rat_arg2_25 m c)
theorem rat_arg3_26 : U26 m c (Proc.devRef .tc main_arg3) = (m ((c.tc : Thread nD τ).loc main_arg3)) :=
  (U26_untouched m c main_arg3 (by decide)).trans (rat_arg3_25 m c)
theorem rat_v174_26 : U26 m c (Proc.devRef .tc main_v174) = (ReadP.val_main_v174 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (U26_untouched m c main_v174 (by decide)).trans (rat_v174_25 m c)
theorem rat_arg8_26 : U26 m c (Proc.devRef .tc main_arg8) = (m ((c.tc : Thread nD τ).loc main_arg8)) :=
  (U26_untouched m c main_arg8 (by decide)).trans (rat_arg8_25 m c)
theorem rat_arg9_26 : U26 m c (Proc.devRef .tc main_arg9) = (m ((c.tc : Thread nD τ).loc main_arg9)) :=
  (U26_untouched m c main_arg9 (by decide)).trans (rat_arg9_25 m c)
theorem rat_arg10_26 : U26 m c (Proc.devRef .tc main_arg10) = (m ((c.tc : Thread nD τ).loc main_arg10)) :=
  (U26_untouched m c main_arg10 (by decide)).trans (rat_arg10_25 m c)
theorem rat_arg11_26 : U26 m c (Proc.devRef .tc main_arg11) = (m ((c.tc : Thread nD τ).loc main_arg11)) :=
  (U26_untouched m c main_arg11 (by decide)).trans (rat_arg11_25 m c)
theorem rat_v184_27 : U27 m c (Proc.devRef .tc main_v184) = (ReadP.val_main_v184 (F := Ideal) (m ((c.tc : Thread nD τ).loc main_arg5))) := by
  show after (Q26 (F := Ideal)) (U26 m c) (Proc.devRef .tc main_v184) = _
  after_results_simp
  rw [rat_arg5_26 m c]
  rfl
theorem rat_v186_27 : U27 m c (Proc.devRef .tc main_v186) = (ReadP.val_main_v186 (F := Ideal) (m ((c.tc : Thread nD τ).loc main_arg6))) := by
  show after (Q26 (F := Ideal)) (U26 m c) (Proc.devRef .tc main_v186) = _
  after_results_simp
  rw [rat_arg6_26 m c]
  rfl
theorem rat_v188_27 : U27 m c (Proc.devRef .tc main_v188) = (ReadP.val_main_v188 (F := Ideal) (m ((c.tc : Thread nD τ).loc main_arg7))) := by
  show after (Q26 (F := Ideal)) (U26 m c) (Proc.devRef .tc main_v188) = _
  after_results_simp
  rw [rat_arg7_26 m c]
  rfl
theorem rat_v195_27 : U27 m c (Proc.devRef .tc main_v195) = (ReadP.val_main_v195 (F := Ideal) (m ((c.tc : Thread nD τ).loc main_arg1))) := by
  show after (Q26 (F := Ideal)) (U26 m c) (Proc.devRef .tc main_v195) = _
  after_results_simp
  rw [rat_v180_26 m c]
  rfl
theorem rat_arg0_27 : U27 m c (Proc.devRef .tc main_arg0) = (m ((c.tc : Thread nD τ).loc main_arg0)) :=
  (U27_untouched m c main_arg0 (by decide)).trans (rat_arg0_26 m c)
theorem rat_arg1_27 : U27 m c (Proc.devRef .tc main_arg1) = (m ((c.tc : Thread nD τ).loc main_arg1)) :=
  (U27_untouched m c main_arg1 (by decide)).trans (rat_arg1_26 m c)
theorem rat_arg4_27 : U27 m c (Proc.devRef .tc main_arg4) = (m ((c.tc : Thread nD τ).loc main_arg4)) :=
  (U27_untouched m c main_arg4 (by decide)).trans (rat_arg4_26 m c)
theorem rat_arg5_27 : U27 m c (Proc.devRef .tc main_arg5) = (m ((c.tc : Thread nD τ).loc main_arg5)) :=
  (U27_untouched m c main_arg5 (by decide)).trans (rat_arg5_26 m c)
theorem rat_arg6_27 : U27 m c (Proc.devRef .tc main_arg6) = (m ((c.tc : Thread nD τ).loc main_arg6)) :=
  (U27_untouched m c main_arg6 (by decide)).trans (rat_arg6_26 m c)
theorem rat_arg7_27 : U27 m c (Proc.devRef .tc main_arg7) = (m ((c.tc : Thread nD τ).loc main_arg7)) :=
  (U27_untouched m c main_arg7 (by decide)).trans (rat_arg7_26 m c)
theorem rat_arg2_27 : U27 m c (Proc.devRef .tc main_arg2) = (m ((c.tc : Thread nD τ).loc main_arg2)) :=
  (U27_untouched m c main_arg2 (by decide)).trans (rat_arg2_26 m c)
theorem rat_arg3_27 : U27 m c (Proc.devRef .tc main_arg3) = (m ((c.tc : Thread nD τ).loc main_arg3)) :=
  (U27_untouched m c main_arg3 (by decide)).trans (rat_arg3_26 m c)
theorem rat_v180_27 : U27 m c (Proc.devRef .tc main_v180) = (ReadP.val_main_v180 (F := Ideal) (m ((c.tc : Thread nD τ).loc main_arg1))) :=
  (U27_untouched m c main_v180 (by decide)).trans (rat_v180_26 m c)
theorem rat_v178_27 : U27 m c (Proc.devRef .tc main_v178) = (ReadP.val_main_v178 (F := Ideal) (m ((c.tc : Thread nD τ).loc main_arg1))) :=
  (U27_untouched m c main_v178 (by decide)).trans (rat_v178_26 m c)
theorem rat_v176_27 : U27 m c (Proc.devRef .tc main_v176) = (ReadP.val_main_v176 (F := Ideal) (m ((c.tc : Thread nD τ).loc main_arg0))) :=
  (U27_untouched m c main_v176 (by decide)).trans (rat_v176_26 m c)
theorem rat_v182_27 : U27 m c (Proc.devRef .tc main_v182) = (ReadP.val_main_v182 (F := Ideal) (m ((c.tc : Thread nD τ).loc main_arg4))) :=
  (U27_untouched m c main_v182 (by decide)).trans (rat_v182_26 m c)
theorem rat_v174_27 : U27 m c (Proc.devRef .tc main_v174) = (ReadP.val_main_v174 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (U27_untouched m c main_v174 (by decide)).trans (rat_v174_26 m c)
theorem rat_arg8_27 : U27 m c (Proc.devRef .tc main_arg8) = (m ((c.tc : Thread nD τ).loc main_arg8)) :=
  (U27_untouched m c main_arg8 (by decide)).trans (rat_arg8_26 m c)
theorem rat_arg9_27 : U27 m c (Proc.devRef .tc main_arg9) = (m ((c.tc : Thread nD τ).loc main_arg9)) :=
  (U27_untouched m c main_arg9 (by decide)).trans (rat_arg9_26 m c)
theorem rat_arg10_27 : U27 m c (Proc.devRef .tc main_arg10) = (m ((c.tc : Thread nD τ).loc main_arg10)) :=
  (U27_untouched m c main_arg10 (by decide)).trans (rat_arg10_26 m c)
theorem rat_arg11_27 : U27 m c (Proc.devRef .tc main_arg11) = (m ((c.tc : Thread nD τ).loc main_arg11)) :=
  (U27_untouched m c main_arg11 (by decide)).trans (rat_arg11_26 m c)
theorem rat_v202_28 : U28 m c (Proc.devRef .tc main_v202) = (ReadP.val_main_v202 (F := Ideal) (m ((c.tc : Thread nD τ).loc main_arg1))) := by
  show after (Q27 (F := Ideal)) (U27 m c) (Proc.devRef .tc main_v202) = _
  after_results_simp
  rw [rat_v195_27 m c, rat_v178_27 m c]
  rfl
theorem rat_v204_28 : U28 m c (Proc.devRef .tc main_v204) = (ReadP.val_main_v204 (F := Ideal) (m ((c.tc : Thread nD τ).loc main_arg1))) := by
  show after (Q27 (F := Ideal)) (U27 m c) (Proc.devRef .tc main_v204) = _
  after_results_simp
  rw [rat_v180_27 m c]
  rfl
theorem rat_arg0_28 : U28 m c (Proc.devRef .tc main_arg0) = (m ((c.tc : Thread nD τ).loc main_arg0)) :=
  (U28_untouched m c main_arg0 (by decide)).trans (rat_arg0_27 m c)
theorem rat_arg1_28 : U28 m c (Proc.devRef .tc main_arg1) = (m ((c.tc : Thread nD τ).loc main_arg1)) :=
  (U28_untouched m c main_arg1 (by decide)).trans (rat_arg1_27 m c)
theorem rat_arg4_28 : U28 m c (Proc.devRef .tc main_arg4) = (m ((c.tc : Thread nD τ).loc main_arg4)) :=
  (U28_untouched m c main_arg4 (by decide)).trans (rat_arg4_27 m c)
theorem rat_arg5_28 : U28 m c (Proc.devRef .tc main_arg5) = (m ((c.tc : Thread nD τ).loc main_arg5)) :=
  (U28_untouched m c main_arg5 (by decide)).trans (rat_arg5_27 m c)
theorem rat_arg6_28 : U28 m c (Proc.devRef .tc main_arg6) = (m ((c.tc : Thread nD τ).loc main_arg6)) :=
  (U28_untouched m c main_arg6 (by decide)).trans (rat_arg6_27 m c)
theorem rat_arg7_28 : U28 m c (Proc.devRef .tc main_arg7) = (m ((c.tc : Thread nD τ).loc main_arg7)) :=
  (U28_untouched m c main_arg7 (by decide)).trans (rat_arg7_27 m c)
theorem rat_arg2_28 : U28 m c (Proc.devRef .tc main_arg2) = (m ((c.tc : Thread nD τ).loc main_arg2)) :=
  (U28_untouched m c main_arg2 (by decide)).trans (rat_arg2_27 m c)
theorem rat_arg3_28 : U28 m c (Proc.devRef .tc main_arg3) = (m ((c.tc : Thread nD τ).loc main_arg3)) :=
  (U28_untouched m c main_arg3 (by decide)).trans (rat_arg3_27 m c)
theorem rat_v180_28 : U28 m c (Proc.devRef .tc main_v180) = (ReadP.val_main_v180 (F := Ideal) (m ((c.tc : Thread nD τ).loc main_arg1))) :=
  (U28_untouched m c main_v180 (by decide)).trans (rat_v180_27 m c)
theorem rat_v178_28 : U28 m c (Proc.devRef .tc main_v178) = (ReadP.val_main_v178 (F := Ideal) (m ((c.tc : Thread nD τ).loc main_arg1))) :=
  (U28_untouched m c main_v178 (by decide)).trans (rat_v178_27 m c)
theorem rat_v195_28 : U28 m c (Proc.devRef .tc main_v195) = (ReadP.val_main_v195 (F := Ideal) (m ((c.tc : Thread nD τ).loc main_arg1))) :=
  (U28_untouched m c main_v195 (by decide)).trans (rat_v195_27 m c)
theorem rat_v176_28 : U28 m c (Proc.devRef .tc main_v176) = (ReadP.val_main_v176 (F := Ideal) (m ((c.tc : Thread nD τ).loc main_arg0))) :=
  (U28_untouched m c main_v176 (by decide)).trans (rat_v176_27 m c)
theorem rat_v182_28 : U28 m c (Proc.devRef .tc main_v182) = (ReadP.val_main_v182 (F := Ideal) (m ((c.tc : Thread nD τ).loc main_arg4))) :=
  (U28_untouched m c main_v182 (by decide)).trans (rat_v182_27 m c)
theorem rat_v184_28 : U28 m c (Proc.devRef .tc main_v184) = (ReadP.val_main_v184 (F := Ideal) (m ((c.tc : Thread nD τ).loc main_arg5))) :=
  (U28_untouched m c main_v184 (by decide)).trans (rat_v184_27 m c)
theorem rat_v186_28 : U28 m c (Proc.devRef .tc main_v186) = (ReadP.val_main_v186 (F := Ideal) (m ((c.tc : Thread nD τ).loc main_arg6))) :=
  (U28_untouched m c main_v186 (by decide)).trans (rat_v186_27 m c)
theorem rat_v188_28 : U28 m c (Proc.devRef .tc main_v188) = (ReadP.val_main_v188 (F := Ideal) (m ((c.tc : Thread nD τ).loc main_arg7))) :=
  (U28_untouched m c main_v188 (by decide)).trans (rat_v188_27 m c)
theorem rat_v174_28 : U28 m c (Proc.devRef .tc main_v174) = (ReadP.val_main_v174 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (U28_untouched m c main_v174 (by decide)).trans (rat_v174_27 m c)
theorem rat_arg8_28 : U28 m c (Proc.devRef .tc main_arg8) = (m ((c.tc : Thread nD τ).loc main_arg8)) :=
  (U28_untouched m c main_arg8 (by decide)).trans (rat_arg8_27 m c)
theorem rat_arg9_28 : U28 m c (Proc.devRef .tc main_arg9) = (m ((c.tc : Thread nD τ).loc main_arg9)) :=
  (U28_untouched m c main_arg9 (by decide)).trans (rat_arg9_27 m c)
theorem rat_arg10_28 : U28 m c (Proc.devRef .tc main_arg10) = (m ((c.tc : Thread nD τ).loc main_arg10)) :=
  (U28_untouched m c main_arg10 (by decide)).trans (rat_arg10_27 m c)
theorem rat_arg11_28 : U28 m c (Proc.devRef .tc main_arg11) = (m ((c.tc : Thread nD τ).loc main_arg11)) :=
  (U28_untouched m c main_arg11 (by decide)).trans (rat_arg11_27 m c)

end Cert.RefRun

end
-- ==== Proof.RefRun4.lean ====
import proofs.«135273_j69758858821831_1_alg».proof.Proof.RefRun3
import Idealize.ShloMosaic.Lib.StableHlo.Run

/-!
# Part 4 of the reference: operations 244 … 305

Each buffer a chunk defines and a later chunk reads holds its stage; each live buffer a chunk does not write keeps what it
held.
-/

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

theorem rat_v211_29 : U29 m c (Proc.devRef .tc main_v211) = (ReadP.val_main_v211 (F := Ideal) (m ((c.tc : Thread nD τ).loc main_arg1))) := by
  show after (Q28 (F := Ideal)) (U28 m c) (Proc.devRef .tc main_v211) = _
  after_results_simp
  rw [rat_v202_28 m c, rat_v195_28 m c, rat_v204_28 m c, rat_v180_28 m c]
  rfl
theorem rat_v213_29 : U29 m c (Proc.devRef .tc main_v213) = (ReadP.val_main_v213 (F := Ideal) (m ((c.tc : Thread nD τ).loc main_arg1))) := by
  show after (Q28 (F := Ideal)) (U28 m c) (Proc.devRef .tc main_v213) = _
  after_results_simp
  rw [rat_v195_28 m c]
  rfl
theorem rat_arg0_29 : U29 m c (Proc.devRef .tc main_arg0) = (m ((c.tc : Thread nD τ).loc main_arg0)) :=
  (U29_untouched m c main_arg0 (by decide)).trans (rat_arg0_28 m c)
theorem rat_arg1_29 : U29 m c (Proc.devRef .tc main_arg1) = (m ((c.tc : Thread nD τ).loc main_arg1)) :=
  (U29_untouched m c main_arg1 (by decide)).trans (rat_arg1_28 m c)
theorem rat_arg4_29 : U29 m c (Proc.devRef .tc main_arg4) = (m ((c.tc : Thread nD τ).loc main_arg4)) :=
  (U29_untouched m c main_arg4 (by decide)).trans (rat_arg4_28 m c)
theorem rat_arg5_29 : U29 m c (Proc.devRef .tc main_arg5) = (m ((c.tc : Thread nD τ).loc main_arg5)) :=
  (U29_untouched m c main_arg5 (by decide)).trans (rat_arg5_28 m c)
theorem rat_arg6_29 : U29 m c (Proc.devRef .tc main_arg6) = (m ((c.tc : Thread nD τ).loc main_arg6)) :=
  (U29_untouched m c main_arg6 (by decide)).trans (rat_arg6_28 m c)
theorem rat_arg7_29 : U29 m c (Proc.devRef .tc main_arg7) = (m ((c.tc : Thread nD τ).loc main_arg7)) :=
  (U29_untouched m c main_arg7 (by decide)).trans (rat_arg7_28 m c)
theorem rat_arg2_29 : U29 m c (Proc.devRef .tc main_arg2) = (m ((c.tc : Thread nD τ).loc main_arg2)) :=
  (U29_untouched m c main_arg2 (by decide)).trans (rat_arg2_28 m c)
theorem rat_arg3_29 : U29 m c (Proc.devRef .tc main_arg3) = (m ((c.tc : Thread nD τ).loc main_arg3)) :=
  (U29_untouched m c main_arg3 (by decide)).trans (rat_arg3_28 m c)
theorem rat_v180_29 : U29 m c (Proc.devRef .tc main_v180) = (ReadP.val_main_v180 (F := Ideal) (m ((c.tc : Thread nD τ).loc main_arg1))) :=
  (U29_untouched m c main_v180 (by decide)).trans (rat_v180_28 m c)
theorem rat_v178_29 : U29 m c (Proc.devRef .tc main_v178) = (ReadP.val_main_v178 (F := Ideal) (m ((c.tc : Thread nD τ).loc main_arg1))) :=
  (U29_untouched m c main_v178 (by decide)).trans (rat_v178_28 m c)
theorem rat_v176_29 : U29 m c (Proc.devRef .tc main_v176) = (ReadP.val_main_v176 (F := Ideal) (m ((c.tc : Thread nD τ).loc main_arg0))) :=
  (U29_untouched m c main_v176 (by decide)).trans (rat_v176_28 m c)
theorem rat_v182_29 : U29 m c (Proc.devRef .tc main_v182) = (ReadP.val_main_v182 (F := Ideal) (m ((c.tc : Thread nD τ).loc main_arg4))) :=
  (U29_untouched m c main_v182 (by decide)).trans (rat_v182_28 m c)
theorem rat_v184_29 : U29 m c (Proc.devRef .tc main_v184) = (ReadP.val_main_v184 (F := Ideal) (m ((c.tc : Thread nD τ).loc main_arg5))) :=
  (U29_untouched m c main_v184 (by decide)).trans (rat_v184_28 m c)
theorem rat_v186_29 : U29 m c (Proc.devRef .tc main_v186) = (ReadP.val_main_v186 (F := Ideal) (m ((c.tc : Thread nD τ).loc main_arg6))) :=
  (U29_untouched m c main_v186 (by decide)).trans (rat_v186_28 m c)
theorem rat_v188_29 : U29 m c (Proc.devRef .tc main_v188) = (ReadP.val_main_v188 (F := Ideal) (m ((c.tc : Thread nD τ).loc main_arg7))) :=
  (U29_untouched m c main_v188 (by decide)).trans (rat_v188_28 m c)
theorem rat_v174_29 : U29 m c (Proc.devRef .tc main_v174) = (ReadP.val_main_v174 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (U29_untouched m c main_v174 (by decide)).trans (rat_v174_28 m c)
theorem rat_arg8_29 : U29 m c (Proc.devRef .tc main_arg8) = (m ((c.tc : Thread nD τ).loc main_arg8)) :=
  (U29_untouched m c main_arg8 (by decide)).trans (rat_arg8_28 m c)
theorem rat_arg9_29 : U29 m c (Proc.devRef .tc main_arg9) = (m ((c.tc : Thread nD τ).loc main_arg9)) :=
  (U29_untouched m c main_arg9 (by decide)).trans (rat_arg9_28 m c)
theorem rat_arg10_29 : U29 m c (Proc.devRef .tc main_arg10) = (m ((c.tc : Thread nD τ).loc main_arg10)) :=
  (U29_untouched m c main_arg10 (by decide)).trans (rat_arg10_28 m c)
theorem rat_arg11_29 : U29 m c (Proc.devRef .tc main_arg11) = (m ((c.tc : Thread nD τ).loc main_arg11)) :=
  (U29_untouched m c main_arg11 (by decide)).trans (rat_arg11_28 m c)
theorem rat_v214_30 : U30 m c (Proc.devRef .tc main_v214) = (ReadP.val_main_v214 (F := Ideal) (m ((c.tc : Thread nD τ).loc main_arg0)) (m ((c.tc : Thread nD τ).loc main_arg4))) := by
  show after (Q29 (F := Ideal)) (U29 m c) (Proc.devRef .tc main_v214) = _
  after_results_simp
  rw [rat_v176_29 m c, rat_v182_29 m c]
  rfl
theorem rat_arg0_30 : U30 m c (Proc.devRef .tc main_arg0) = (m ((c.tc : Thread nD τ).loc main_arg0)) :=
  (U30_untouched m c main_arg0 (by decide)).trans (rat_arg0_29 m c)
theorem rat_arg1_30 : U30 m c (Proc.devRef .tc main_arg1) = (m ((c.tc : Thread nD τ).loc main_arg1)) :=
  (U30_untouched m c main_arg1 (by decide)).trans (rat_arg1_29 m c)
theorem rat_arg4_30 : U30 m c (Proc.devRef .tc main_arg4) = (m ((c.tc : Thread nD τ).loc main_arg4)) :=
  (U30_untouched m c main_arg4 (by decide)).trans (rat_arg4_29 m c)
theorem rat_arg5_30 : U30 m c (Proc.devRef .tc main_arg5) = (m ((c.tc : Thread nD τ).loc main_arg5)) :=
  (U30_untouched m c main_arg5 (by decide)).trans (rat_arg5_29 m c)
theorem rat_arg6_30 : U30 m c (Proc.devRef .tc main_arg6) = (m ((c.tc : Thread nD τ).loc main_arg6)) :=
  (U30_untouched m c main_arg6 (by decide)).trans (rat_arg6_29 m c)
theorem rat_arg7_30 : U30 m c (Proc.devRef .tc main_arg7) = (m ((c.tc : Thread nD τ).loc main_arg7)) :=
  (U30_untouched m c main_arg7 (by decide)).trans (rat_arg7_29 m c)
theorem rat_arg2_30 : U30 m c (Proc.devRef .tc main_arg2) = (m ((c.tc : Thread nD τ).loc main_arg2)) :=
  (U30_untouched m c main_arg2 (by decide)).trans (rat_arg2_29 m c)
theorem rat_arg3_30 : U30 m c (Proc.devRef .tc main_arg3) = (m ((c.tc : Thread nD τ).loc main_arg3)) :=
  (U30_untouched m c main_arg3 (by decide)).trans (rat_arg3_29 m c)
theorem rat_v180_30 : U30 m c (Proc.devRef .tc main_v180) = (ReadP.val_main_v180 (F := Ideal) (m ((c.tc : Thread nD τ).loc main_arg1))) :=
  (U30_untouched m c main_v180 (by decide)).trans (rat_v180_29 m c)
theorem rat_v178_30 : U30 m c (Proc.devRef .tc main_v178) = (ReadP.val_main_v178 (F := Ideal) (m ((c.tc : Thread nD τ).loc main_arg1))) :=
  (U30_untouched m c main_v178 (by decide)).trans (rat_v178_29 m c)
theorem rat_v211_30 : U30 m c (Proc.devRef .tc main_v211) = (ReadP.val_main_v211 (F := Ideal) (m ((c.tc : Thread nD τ).loc main_arg1))) :=
  (U30_untouched m c main_v211 (by decide)).trans (rat_v211_29 m c)
theorem rat_v213_30 : U30 m c (Proc.devRef .tc main_v213) = (ReadP.val_main_v213 (F := Ideal) (m ((c.tc : Thread nD τ).loc main_arg1))) :=
  (U30_untouched m c main_v213 (by decide)).trans (rat_v213_29 m c)
theorem rat_v184_30 : U30 m c (Proc.devRef .tc main_v184) = (ReadP.val_main_v184 (F := Ideal) (m ((c.tc : Thread nD τ).loc main_arg5))) :=
  (U30_untouched m c main_v184 (by decide)).trans (rat_v184_29 m c)
theorem rat_v186_30 : U30 m c (Proc.devRef .tc main_v186) = (ReadP.val_main_v186 (F := Ideal) (m ((c.tc : Thread nD τ).loc main_arg6))) :=
  (U30_untouched m c main_v186 (by decide)).trans (rat_v186_29 m c)
theorem rat_v188_30 : U30 m c (Proc.devRef .tc main_v188) = (ReadP.val_main_v188 (F := Ideal) (m ((c.tc : Thread nD τ).loc main_arg7))) :=
  (U30_untouched m c main_v188 (by decide)).trans (rat_v188_29 m c)
theorem rat_v174_30 : U30 m c (Proc.devRef .tc main_v174) = (ReadP.val_main_v174 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (U30_untouched m c main_v174 (by decide)).trans (rat_v174_29 m c)
theorem rat_arg8_30 : U30 m c (Proc.devRef .tc main_arg8) = (m ((c.tc : Thread nD τ).loc main_arg8)) :=
  (U30_untouched m c main_arg8 (by decide)).trans (rat_arg8_29 m c)
theorem rat_arg9_30 : U30 m c (Proc.devRef .tc main_arg9) = (m ((c.tc : Thread nD τ).loc main_arg9)) :=
  (U30_untouched m c main_arg9 (by decide)).trans (rat_arg9_29 m c)
theorem rat_arg10_30 : U30 m c (Proc.devRef .tc main_arg10) = (m ((c.tc : Thread nD τ).loc main_arg10)) :=
  (U30_untouched m c main_arg10 (by decide)).trans (rat_arg10_29 m c)
theorem rat_arg11_30 : U30 m c (Proc.devRef .tc main_arg11) = (m ((c.tc : Thread nD τ).loc main_arg11)) :=
  (U30_untouched m c main_arg11 (by decide)).trans (rat_arg11_29 m c)
theorem rat_v226_31 : U31 m c (Proc.devRef .tc main_v226) = (ReadP.val_main_v226 (F := Ideal) (m ((c.tc : Thread nD τ).loc main_arg0)) (m ((c.tc : Thread nD τ).loc main_arg1)) (m ((c.tc : Thread nD τ).loc main_arg4))) := by
  show after (Q30 (F := Ideal)) (U30 m c) (Proc.devRef .tc main_v226) = _
  after_results_simp
  rw [rat_v180_30 m c, rat_v214_30 m c, rat_v178_30 m c, rat_v211_30 m c]
  rfl
theorem rat_arg0_31 : U31 m c (Proc.devRef .tc main_arg0) = (m ((c.tc : Thread nD τ).loc main_arg0)) :=
  (U31_untouched m c main_arg0 (by decide)).trans (rat_arg0_30 m c)
theorem rat_arg1_31 : U31 m c (Proc.devRef .tc main_arg1) = (m ((c.tc : Thread nD τ).loc main_arg1)) :=
  (U31_untouched m c main_arg1 (by decide)).trans (rat_arg1_30 m c)
theorem rat_arg4_31 : U31 m c (Proc.devRef .tc main_arg4) = (m ((c.tc : Thread nD τ).loc main_arg4)) :=
  (U31_untouched m c main_arg4 (by decide)).trans (rat_arg4_30 m c)
theorem rat_arg5_31 : U31 m c (Proc.devRef .tc main_arg5) = (m ((c.tc : Thread nD τ).loc main_arg5)) :=
  (U31_untouched m c main_arg5 (by decide)).trans (rat_arg5_30 m c)
theorem rat_arg6_31 : U31 m c (Proc.devRef .tc main_arg6) = (m ((c.tc : Thread nD τ).loc main_arg6)) :=
  (U31_untouched m c main_arg6 (by decide)).trans (rat_arg6_30 m c)
theorem rat_arg7_31 : U31 m c (Proc.devRef .tc main_arg7) = (m ((c.tc : Thread nD τ).loc main_arg7)) :=
  (U31_untouched m c main_arg7 (by decide)).trans (rat_arg7_30 m c)
theorem rat_arg2_31 : U31 m c (Proc.devRef .tc main_arg2) = (m ((c.tc : Thread nD τ).loc main_arg2)) :=
  (U31_untouched m c main_arg2 (by decide)).trans (rat_arg2_30 m c)
theorem rat_arg3_31 : U31 m c (Proc.devRef .tc main_arg3) = (m ((c.tc : Thread nD τ).loc main_arg3)) :=
  (U31_untouched m c main_arg3 (by decide)).trans (rat_arg3_30 m c)
theorem rat_v180_31 : U31 m c (Proc.devRef .tc main_v180) = (ReadP.val_main_v180 (F := Ideal) (m ((c.tc : Thread nD τ).loc main_arg1))) :=
  (U31_untouched m c main_v180 (by decide)).trans (rat_v180_30 m c)
theorem rat_v178_31 : U31 m c (Proc.devRef .tc main_v178) = (ReadP.val_main_v178 (F := Ideal) (m ((c.tc : Thread nD τ).loc main_arg1))) :=
  (U31_untouched m c main_v178 (by decide)).trans (rat_v178_30 m c)
theorem rat_v214_31 : U31 m c (Proc.devRef .tc main_v214) = (ReadP.val_main_v214 (F := Ideal) (m ((c.tc : Thread nD τ).loc main_arg0)) (m ((c.tc : Thread nD τ).loc main_arg4))) :=
  (U31_untouched m c main_v214 (by decide)).trans (rat_v214_30 m c)
theorem rat_v211_31 : U31 m c (Proc.devRef .tc main_v211) = (ReadP.val_main_v211 (F := Ideal) (m ((c.tc : Thread nD τ).loc main_arg1))) :=
  (U31_untouched m c main_v211 (by decide)).trans (rat_v211_30 m c)
theorem rat_v213_31 : U31 m c (Proc.devRef .tc main_v213) = (ReadP.val_main_v213 (F := Ideal) (m ((c.tc : Thread nD τ).loc main_arg1))) :=
  (U31_untouched m c main_v213 (by decide)).trans (rat_v213_30 m c)
theorem rat_v184_31 : U31 m c (Proc.devRef .tc main_v184) = (ReadP.val_main_v184 (F := Ideal) (m ((c.tc : Thread nD τ).loc main_arg5))) :=
  (U31_untouched m c main_v184 (by decide)).trans (rat_v184_30 m c)
theorem rat_v186_31 : U31 m c (Proc.devRef .tc main_v186) = (ReadP.val_main_v186 (F := Ideal) (m ((c.tc : Thread nD τ).loc main_arg6))) :=
  (U31_untouched m c main_v186 (by decide)).trans (rat_v186_30 m c)
theorem rat_v188_31 : U31 m c (Proc.devRef .tc main_v188) = (ReadP.val_main_v188 (F := Ideal) (m ((c.tc : Thread nD τ).loc main_arg7))) :=
  (U31_untouched m c main_v188 (by decide)).trans (rat_v188_30 m c)
theorem rat_v174_31 : U31 m c (Proc.devRef .tc main_v174) = (ReadP.val_main_v174 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (U31_untouched m c main_v174 (by decide)).trans (rat_v174_30 m c)
theorem rat_arg8_31 : U31 m c (Proc.devRef .tc main_arg8) = (m ((c.tc : Thread nD τ).loc main_arg8)) :=
  (U31_untouched m c main_arg8 (by decide)).trans (rat_arg8_30 m c)
theorem rat_arg9_31 : U31 m c (Proc.devRef .tc main_arg9) = (m ((c.tc : Thread nD τ).loc main_arg9)) :=
  (U31_untouched m c main_arg9 (by decide)).trans (rat_arg9_30 m c)
theorem rat_arg10_31 : U31 m c (Proc.devRef .tc main_arg10) = (m ((c.tc : Thread nD τ).loc main_arg10)) :=
  (U31_untouched m c main_arg10 (by decide)).trans (rat_arg10_30 m c)
theorem rat_arg11_31 : U31 m c (Proc.devRef .tc main_arg11) = (m ((c.tc : Thread nD τ).loc main_arg11)) :=
  (U31_untouched m c main_arg11 (by decide)).trans (rat_arg11_30 m c)
theorem rat_v232_32 : U32 m c (Proc.devRef .tc main_v232) = (ReadP.val_main_v232 (F := Ideal) (m ((c.tc : Thread nD τ).loc main_arg0)) (m ((c.tc : Thread nD τ).loc main_arg1)) (m ((c.tc : Thread nD τ).loc main_arg4)) (m ((c.tc : Thread nD τ).loc main_arg5))) := by
  show after (Q31 (F := Ideal)) (U31 m c) (Proc.devRef .tc main_v232) = _
  after_results_simp
  rw [rat_v226_31 m c, rat_v214_31 m c, rat_v213_31 m c, rat_v184_31 m c]
  rfl
theorem rat_arg0_32 : U32 m c (Proc.devRef .tc main_arg0) = (m ((c.tc : Thread nD τ).loc main_arg0)) :=
  (U32_untouched m c main_arg0 (by decide)).trans (rat_arg0_31 m c)
theorem rat_arg1_32 : U32 m c (Proc.devRef .tc main_arg1) = (m ((c.tc : Thread nD τ).loc main_arg1)) :=
  (U32_untouched m c main_arg1 (by decide)).trans (rat_arg1_31 m c)
theorem rat_arg4_32 : U32 m c (Proc.devRef .tc main_arg4) = (m ((c.tc : Thread nD τ).loc main_arg4)) :=
  (U32_untouched m c main_arg4 (by decide)).trans (rat_arg4_31 m c)
theorem rat_arg5_32 : U32 m c (Proc.devRef .tc main_arg5) = (m ((c.tc : Thread nD τ).loc main_arg5)) :=
  (U32_untouched m c main_arg5 (by decide)).trans (rat_arg5_31 m c)
theorem rat_arg6_32 : U32 m c (Proc.devRef .tc main_arg6) = (m ((c.tc : Thread nD τ).loc main_arg6)) :=
  (U32_untouched m c main_arg6 (by decide)).trans (rat_arg6_31 m c)
theorem rat_arg7_32 : U32 m c (Proc.devRef .tc main_arg7) = (m ((c.tc : Thread nD τ).loc main_arg7)) :=
  (U32_untouched m c main_arg7 (by decide)).trans (rat_arg7_31 m c)
theorem rat_arg2_32 : U32 m c (Proc.devRef .tc main_arg2) = (m ((c.tc : Thread nD τ).loc main_arg2)) :=
  (U32_untouched m c main_arg2 (by decide)).trans (rat_arg2_31 m c)
theorem rat_arg3_32 : U32 m c (Proc.devRef .tc main_arg3) = (m ((c.tc : Thread nD τ).loc main_arg3)) :=
  (U32_untouched m c main_arg3 (by decide)).trans (rat_arg3_31 m c)
theorem rat_v180_32 : U32 m c (Proc.devRef .tc main_v180) = (ReadP.val_main_v180 (F := Ideal) (m ((c.tc : Thread nD τ).loc main_arg1))) :=
  (U32_untouched m c main_v180 (by decide)).trans (rat_v180_31 m c)
theorem rat_v178_32 : U32 m c (Proc.devRef .tc main_v178) = (ReadP.val_main_v178 (F := Ideal) (m ((c.tc : Thread nD τ).loc main_arg1))) :=
  (U32_untouched m c main_v178 (by decide)).trans (rat_v178_31 m c)
theorem rat_v211_32 : U32 m c (Proc.devRef .tc main_v211) = (ReadP.val_main_v211 (F := Ideal) (m ((c.tc : Thread nD τ).loc main_arg1))) :=
  (U32_untouched m c main_v211 (by decide)).trans (rat_v211_31 m c)
theorem rat_v213_32 : U32 m c (Proc.devRef .tc main_v213) = (ReadP.val_main_v213 (F := Ideal) (m ((c.tc : Thread nD τ).loc main_arg1))) :=
  (U32_untouched m c main_v213 (by decide)).trans (rat_v213_31 m c)
theorem rat_v186_32 : U32 m c (Proc.devRef .tc main_v186) = (ReadP.val_main_v186 (F := Ideal) (m ((c.tc : Thread nD τ).loc main_arg6))) :=
  (U32_untouched m c main_v186 (by decide)).trans (rat_v186_31 m c)
theorem rat_v188_32 : U32 m c (Proc.devRef .tc main_v188) = (ReadP.val_main_v188 (F := Ideal) (m ((c.tc : Thread nD τ).loc main_arg7))) :=
  (U32_untouched m c main_v188 (by decide)).trans (rat_v188_31 m c)
theorem rat_v174_32 : U32 m c (Proc.devRef .tc main_v174) = (ReadP.val_main_v174 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (U32_untouched m c main_v174 (by decide)).trans (rat_v174_31 m c)
theorem rat_arg8_32 : U32 m c (Proc.devRef .tc main_arg8) = (m ((c.tc : Thread nD τ).loc main_arg8)) :=
  (U32_untouched m c main_arg8 (by decide)).trans (rat_arg8_31 m c)
theorem rat_arg9_32 : U32 m c (Proc.devRef .tc main_arg9) = (m ((c.tc : Thread nD τ).loc main_arg9)) :=
  (U32_untouched m c main_arg9 (by decide)).trans (rat_arg9_31 m c)
theorem rat_arg10_32 : U32 m c (Proc.devRef .tc main_arg10) = (m ((c.tc : Thread nD τ).loc main_arg10)) :=
  (U32_untouched m c main_arg10 (by decide)).trans (rat_arg10_31 m c)
theorem rat_arg11_32 : U32 m c (Proc.devRef .tc main_arg11) = (m ((c.tc : Thread nD τ).loc main_arg11)) :=
  (U32_untouched m c main_arg11 (by decide)).trans (rat_arg11_31 m c)
theorem rat_v233_33 : U33 m c (Proc.devRef .tc main_v233) = (ReadP.val_main_v233 (F := Ideal) (m ((c.tc : Thread nD τ).loc main_arg0)) (m ((c.tc : Thread nD τ).loc main_arg1)) (m ((c.tc : Thread nD τ).loc main_arg4)) (m ((c.tc : Thread nD τ).loc main_arg5))) :=
  (rect_v233 (U32 m c) _ (rat_v232_32 m c)).trans (by unfold ReadP.val_main_v233; rfl)
theorem rat_arg0_33 : U33 m c (Proc.devRef .tc main_arg0) = (m ((c.tc : Thread nD τ).loc main_arg0)) :=
  (U33_untouched m c main_arg0 (by decide)).trans (rat_arg0_32 m c)
theorem rat_arg1_33 : U33 m c (Proc.devRef .tc main_arg1) = (m ((c.tc : Thread nD τ).loc main_arg1)) :=
  (U33_untouched m c main_arg1 (by decide)).trans (rat_arg1_32 m c)
theorem rat_arg4_33 : U33 m c (Proc.devRef .tc main_arg4) = (m ((c.tc : Thread nD τ).loc main_arg4)) :=
  (U33_untouched m c main_arg4 (by decide)).trans (rat_arg4_32 m c)
theorem rat_arg5_33 : U33 m c (Proc.devRef .tc main_arg5) = (m ((c.tc : Thread nD τ).loc main_arg5)) :=
  (U33_untouched m c main_arg5 (by decide)).trans (rat_arg5_32 m c)
theorem rat_arg6_33 : U33 m c (Proc.devRef .tc main_arg6) = (m ((c.tc : Thread nD τ).loc main_arg6)) :=
  (U33_untouched m c main_arg6 (by decide)).trans (rat_arg6_32 m c)
theorem rat_arg7_33 : U33 m c (Proc.devRef .tc main_arg7) = (m ((c.tc : Thread nD τ).loc main_arg7)) :=
  (U33_untouched m c main_arg7 (by decide)).trans (rat_arg7_32 m c)
theorem rat_arg2_33 : U33 m c (Proc.devRef .tc main_arg2) = (m ((c.tc : Thread nD τ).loc main_arg2)) :=
  (U33_untouched m c main_arg2 (by decide)).trans (rat_arg2_32 m c)
theorem rat_arg3_33 : U33 m c (Proc.devRef .tc main_arg3) = (m ((c.tc : Thread nD τ).loc main_arg3)) :=
  (U33_untouched m c main_arg3 (by decide)).trans (rat_arg3_32 m c)
theorem rat_v180_33 : U33 m c (Proc.devRef .tc main_v180) = (ReadP.val_main_v180 (F := Ideal) (m ((c.tc : Thread nD τ).loc main_arg1))) :=
  (U33_untouched m c main_v180 (by decide)).trans (rat_v180_32 m c)
theorem rat_v178_33 : U33 m c (Proc.devRef .tc main_v178) = (ReadP.val_main_v178 (F := Ideal) (m ((c.tc : Thread nD τ).loc main_arg1))) :=
  (U33_untouched m c main_v178 (by decide)).trans (rat_v178_32 m c)
theorem rat_v211_33 : U33 m c (Proc.devRef .tc main_v211) = (ReadP.val_main_v211 (F := Ideal) (m ((c.tc : Thread nD τ).loc main_arg1))) :=
  (U33_untouched m c main_v211 (by decide)).trans (rat_v211_32 m c)
theorem rat_v213_33 : U33 m c (Proc.devRef .tc main_v213) = (ReadP.val_main_v213 (F := Ideal) (m ((c.tc : Thread nD τ).loc main_arg1))) :=
  (U33_untouched m c main_v213 (by decide)).trans (rat_v213_32 m c)
theorem rat_v186_33 : U33 m c (Proc.devRef .tc main_v186) = (ReadP.val_main_v186 (F := Ideal) (m ((c.tc : Thread nD τ).loc main_arg6))) :=
  (U33_untouched m c main_v186 (by decide)).trans (rat_v186_32 m c)
theorem rat_v188_33 : U33 m c (Proc.devRef .tc main_v188) = (ReadP.val_main_v188 (F := Ideal) (m ((c.tc : Thread nD τ).loc main_arg7))) :=
  (U33_untouched m c main_v188 (by decide)).trans (rat_v188_32 m c)
theorem rat_v174_33 : U33 m c (Proc.devRef .tc main_v174) = (ReadP.val_main_v174 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (U33_untouched m c main_v174 (by decide)).trans (rat_v174_32 m c)
theorem rat_arg8_33 : U33 m c (Proc.devRef .tc main_arg8) = (m ((c.tc : Thread nD τ).loc main_arg8)) :=
  (U33_untouched m c main_arg8 (by decide)).trans (rat_arg8_32 m c)
theorem rat_arg9_33 : U33 m c (Proc.devRef .tc main_arg9) = (m ((c.tc : Thread nD τ).loc main_arg9)) :=
  (U33_untouched m c main_arg9 (by decide)).trans (rat_arg9_32 m c)
theorem rat_arg10_33 : U33 m c (Proc.devRef .tc main_arg10) = (m ((c.tc : Thread nD τ).loc main_arg10)) :=
  (U33_untouched m c main_arg10 (by decide)).trans (rat_arg10_32 m c)
theorem rat_arg11_33 : U33 m c (Proc.devRef .tc main_arg11) = (m ((c.tc : Thread nD τ).loc main_arg11)) :=
  (U33_untouched m c main_arg11 (by decide)).trans (rat_arg11_32 m c)
theorem rat_v234_34 : U34 m c (Proc.devRef .tc main_v234) = (ReadP.val_main_v234 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))) := by
  show after (Q33 (F := Ideal)) (U33 m c) (Proc.devRef .tc main_v234) = _
  after_results_simp
  rw [rat_v233_33 m c, rat_v186_33 m c]
  rfl
theorem rat_arg0_34 : U34 m c (Proc.devRef .tc main_arg0) = (m ((c.tc : Thread nD τ).loc main_arg0)) :=
  (U34_untouched m c main_arg0 (by decide)).trans (rat_arg0_33 m c)
theorem rat_arg1_34 : U34 m c (Proc.devRef .tc main_arg1) = (m ((c.tc : Thread nD τ).loc main_arg1)) :=
  (U34_untouched m c main_arg1 (by decide)).trans (rat_arg1_33 m c)
theorem rat_arg4_34 : U34 m c (Proc.devRef .tc main_arg4) = (m ((c.tc : Thread nD τ).loc main_arg4)) :=
  (U34_untouched m c main_arg4 (by decide)).trans (rat_arg4_33 m c)
theorem rat_arg5_34 : U34 m c (Proc.devRef .tc main_arg5) = (m ((c.tc : Thread nD τ).loc main_arg5)) :=
  (U34_untouched m c main_arg5 (by decide)).trans (rat_arg5_33 m c)
theorem rat_arg6_34 : U34 m c (Proc.devRef .tc main_arg6) = (m ((c.tc : Thread nD τ).loc main_arg6)) :=
  (U34_untouched m c main_arg6 (by decide)).trans (rat_arg6_33 m c)
theorem rat_arg7_34 : U34 m c (Proc.devRef .tc main_arg7) = (m ((c.tc : Thread nD τ).loc main_arg7)) :=
  (U34_untouched m c main_arg7 (by decide)).trans (rat_arg7_33 m c)
theorem rat_arg2_34 : U34 m c (Proc.devRef .tc main_arg2) = (m ((c.tc : Thread nD τ).loc main_arg2)) :=
  (U34_untouched m c main_arg2 (by decide)).trans (rat_arg2_33 m c)
theorem rat_arg3_34 : U34 m c (Proc.devRef .tc main_arg3) = (m ((c.tc : Thread nD τ).loc main_arg3)) :=
  (U34_untouched m c main_arg3 (by decide)).trans (rat_arg3_33 m c)
theorem rat_v180_34 : U34 m c (Proc.devRef .tc main_v180) = (ReadP.val_main_v180 (F := Ideal) (m ((c.tc : Thread nD τ).loc main_arg1))) :=
  (U34_untouched m c main_v180 (by decide)).trans (rat_v180_33 m c)
theorem rat_v178_34 : U34 m c (Proc.devRef .tc main_v178) = (ReadP.val_main_v178 (F := Ideal) (m ((c.tc : Thread nD τ).loc main_arg1))) :=
  (U34_untouched m c main_v178 (by decide)).trans (rat_v178_33 m c)
theorem rat_v211_34 : U34 m c (Proc.devRef .tc main_v211) = (ReadP.val_main_v211 (F := Ideal) (m ((c.tc : Thread nD τ).loc main_arg1))) :=
  (U34_untouched m c main_v211 (by decide)).trans (rat_v211_33 m c)
theorem rat_v213_34 : U34 m c (Proc.devRef .tc main_v213) = (ReadP.val_main_v213 (F := Ideal) (m ((c.tc : Thread nD τ).loc main_arg1))) :=
  (U34_untouched m c main_v213 (by decide)).trans (rat_v213_33 m c)
theorem rat_v188_34 : U34 m c (Proc.devRef .tc main_v188) = (ReadP.val_main_v188 (F := Ideal) (m ((c.tc : Thread nD τ).loc main_arg7))) :=
  (U34_untouched m c main_v188 (by decide)).trans (rat_v188_33 m c)
theorem rat_v174_34 : U34 m c (Proc.devRef .tc main_v174) = (ReadP.val_main_v174 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (U34_untouched m c main_v174 (by decide)).trans (rat_v174_33 m c)
theorem rat_arg8_34 : U34 m c (Proc.devRef .tc main_arg8) = (m ((c.tc : Thread nD τ).loc main_arg8)) :=
  (U34_untouched m c main_arg8 (by decide)).trans (rat_arg8_33 m c)
theorem rat_arg9_34 : U34 m c (Proc.devRef .tc main_arg9) = (m ((c.tc : Thread nD τ).loc main_arg9)) :=
  (U34_untouched m c main_arg9 (by decide)).trans (rat_arg9_33 m c)
theorem rat_arg10_34 : U34 m c (Proc.devRef .tc main_arg10) = (m ((c.tc : Thread nD τ).loc main_arg10)) :=
  (U34_untouched m c main_arg10 (by decide)).trans (rat_arg10_33 m c)
theorem rat_arg11_34 : U34 m c (Proc.devRef .tc main_arg11) = (m ((c.tc : Thread nD τ).loc main_arg11)) :=
  (U34_untouched m c main_arg11 (by decide)).trans (rat_arg11_33 m c)
theorem rat_v246_35 : U35 m c (Proc.devRef .tc main_v246) = (ReadP.val_main_v246 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))) := by
  show after (Q34 (F := Ideal)) (U34 m c) (Proc.devRef .tc main_v246) = _
  after_results_simp
  rw [rat_v180_34 m c, rat_v234_34 m c, rat_v178_34 m c, rat_v211_34 m c]
  rfl
theorem rat_v247_35 : U35 m c (Proc.devRef .tc main_v247) = (ReadP.val_main_v247 (F := Ideal) (m ((c.tc : Thread nD τ).loc main_arg1))) := by
  show after (Q34 (F := Ideal)) (U34 m c) (Proc.devRef .tc main_v247) = _
  after_results_simp
  rw [rat_v213_34 m c]
  rfl
theorem rat_arg0_35 : U35 m c (Proc.devRef .tc main_arg0) = (m ((c.tc : Thread nD τ).loc main_arg0)) :=
  (U35_untouched m c main_arg0 (by decide)).trans (rat_arg0_34 m c)
theorem rat_arg1_35 : U35 m c (Proc.devRef .tc main_arg1) = (m ((c.tc : Thread nD τ).loc main_arg1)) :=
  (U35_untouched m c main_arg1 (by decide)).trans (rat_arg1_34 m c)
theorem rat_arg4_35 : U35 m c (Proc.devRef .tc main_arg4) = (m ((c.tc : Thread nD τ).loc main_arg4)) :=
  (U35_untouched m c main_arg4 (by decide)).trans (rat_arg4_34 m c)
theorem rat_arg5_35 : U35 m c (Proc.devRef .tc main_arg5) = (m ((c.tc : Thread nD τ).loc main_arg5)) :=
  (U35_untouched m c main_arg5 (by decide)).trans (rat_arg5_34 m c)
theorem rat_arg6_35 : U35 m c (Proc.devRef .tc main_arg6) = (m ((c.tc : Thread nD τ).loc main_arg6)) :=
  (U35_untouched m c main_arg6 (by decide)).trans (rat_arg6_34 m c)
theorem rat_arg7_35 : U35 m c (Proc.devRef .tc main_arg7) = (m ((c.tc : Thread nD τ).loc main_arg7)) :=
  (U35_untouched m c main_arg7 (by decide)).trans (rat_arg7_34 m c)
theorem rat_arg2_35 : U35 m c (Proc.devRef .tc main_arg2) = (m ((c.tc : Thread nD τ).loc main_arg2)) :=
  (U35_untouched m c main_arg2 (by decide)).trans (rat_arg2_34 m c)
theorem rat_arg3_35 : U35 m c (Proc.devRef .tc main_arg3) = (m ((c.tc : Thread nD τ).loc main_arg3)) :=
  (U35_untouched m c main_arg3 (by decide)).trans (rat_arg3_34 m c)
theorem rat_v234_35 : U35 m c (Proc.devRef .tc main_v234) = (ReadP.val_main_v234 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))) :=
  (U35_untouched m c main_v234 (by decide)).trans (rat_v234_34 m c)
theorem rat_v188_35 : U35 m c (Proc.devRef .tc main_v188) = (ReadP.val_main_v188 (F := Ideal) (m ((c.tc : Thread nD τ).loc main_arg7))) :=
  (U35_untouched m c main_v188 (by decide)).trans (rat_v188_34 m c)
theorem rat_v174_35 : U35 m c (Proc.devRef .tc main_v174) = (ReadP.val_main_v174 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (U35_untouched m c main_v174 (by decide)).trans (rat_v174_34 m c)
theorem rat_arg8_35 : U35 m c (Proc.devRef .tc main_arg8) = (m ((c.tc : Thread nD τ).loc main_arg8)) :=
  (U35_untouched m c main_arg8 (by decide)).trans (rat_arg8_34 m c)
theorem rat_arg9_35 : U35 m c (Proc.devRef .tc main_arg9) = (m ((c.tc : Thread nD τ).loc main_arg9)) :=
  (U35_untouched m c main_arg9 (by decide)).trans (rat_arg9_34 m c)
theorem rat_arg10_35 : U35 m c (Proc.devRef .tc main_arg10) = (m ((c.tc : Thread nD τ).loc main_arg10)) :=
  (U35_untouched m c main_arg10 (by decide)).trans (rat_arg10_34 m c)
theorem rat_arg11_35 : U35 m c (Proc.devRef .tc main_arg11) = (m ((c.tc : Thread nD τ).loc main_arg11)) :=
  (U35_untouched m c main_arg11 (by decide)).trans (rat_arg11_34 m c)
theorem rat_v252_36 : U36 m c (Proc.devRef .tc main_v252) = (ReadP.val_main_v252 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) := by
  show after (Q35 (F := Ideal)) (U35 m c) (Proc.devRef .tc main_v252) = _
  after_results_simp
  rw [rat_v246_35 m c, rat_v234_35 m c, rat_v247_35 m c, rat_v188_35 m c]
  rfl
theorem rat_v254_36 : U36 m c (Proc.devRef .tc main_v254) = (ReadP.val_main_v254 (F := Ideal) (m ((c.tc : Thread nD τ).loc main_arg2))) := by
  show after (Q35 (F := Ideal)) (U35 m c) (Proc.devRef .tc main_v254) = _
  after_results_simp
  rw [rat_arg2_35 m c]
  rfl
theorem rat_v256_36 : U36 m c (Proc.devRef .tc main_v256) = (ReadP.val_main_v256 (F := Ideal) (m ((c.tc : Thread nD τ).loc main_arg2))) := by
  show after (Q35 (F := Ideal)) (U35 m c) (Proc.devRef .tc main_v256) = _
  after_results_simp
  rw [rat_arg2_35 m c]
  rfl
theorem rat_c_40_36 : U36 m c (Proc.devRef .tc main_c_40) = (ReadP.val_main_c_40 (F := Ideal)) := by
  show after (Q35 (F := Ideal)) (U35 m c) (Proc.devRef .tc main_c_40) = _
  after_results_simp
  rfl
theorem rat_arg0_36 : U36 m c (Proc.devRef .tc main_arg0) = (m ((c.tc : Thread nD τ).loc main_arg0)) :=
  (U36_untouched m c main_arg0 (by decide)).trans (rat_arg0_35 m c)
theorem rat_arg1_36 : U36 m c (Proc.devRef .tc main_arg1) = (m ((c.tc : Thread nD τ).loc main_arg1)) :=
  (U36_untouched m c main_arg1 (by decide)).trans (rat_arg1_35 m c)
theorem rat_arg4_36 : U36 m c (Proc.devRef .tc main_arg4) = (m ((c.tc : Thread nD τ).loc main_arg4)) :=
  (U36_untouched m c main_arg4 (by decide)).trans (rat_arg4_35 m c)
theorem rat_arg5_36 : U36 m c (Proc.devRef .tc main_arg5) = (m ((c.tc : Thread nD τ).loc main_arg5)) :=
  (U36_untouched m c main_arg5 (by decide)).trans (rat_arg5_35 m c)
theorem rat_arg6_36 : U36 m c (Proc.devRef .tc main_arg6) = (m ((c.tc : Thread nD τ).loc main_arg6)) :=
  (U36_untouched m c main_arg6 (by decide)).trans (rat_arg6_35 m c)
theorem rat_arg7_36 : U36 m c (Proc.devRef .tc main_arg7) = (m ((c.tc : Thread nD τ).loc main_arg7)) :=
  (U36_untouched m c main_arg7 (by decide)).trans (rat_arg7_35 m c)
theorem rat_arg2_36 : U36 m c (Proc.devRef .tc main_arg2) = (m ((c.tc : Thread nD τ).loc main_arg2)) :=
  (U36_untouched m c main_arg2 (by decide)).trans (rat_arg2_35 m c)
theorem rat_arg3_36 : U36 m c (Proc.devRef .tc main_arg3) = (m ((c.tc : Thread nD τ).loc main_arg3)) :=
  (U36_untouched m c main_arg3 (by decide)).trans (rat_arg3_35 m c)
theorem rat_v174_36 : U36 m c (Proc.devRef .tc main_v174) = (ReadP.val_main_v174 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (U36_untouched m c main_v174 (by decide)).trans (rat_v174_35 m c)
theorem rat_arg8_36 : U36 m c (Proc.devRef .tc main_arg8) = (m ((c.tc : Thread nD τ).loc main_arg8)) :=
  (U36_untouched m c main_arg8 (by decide)).trans (rat_arg8_35 m c)
theorem rat_arg9_36 : U36 m c (Proc.devRef .tc main_arg9) = (m ((c.tc : Thread nD τ).loc main_arg9)) :=
  (U36_untouched m c main_arg9 (by decide)).trans (rat_arg9_35 m c)
theorem rat_arg10_36 : U36 m c (Proc.devRef .tc main_arg10) = (m ((c.tc : Thread nD τ).loc main_arg10)) :=
  (U36_untouched m c main_arg10 (by decide)).trans (rat_arg10_35 m c)
theorem rat_arg11_36 : U36 m c (Proc.devRef .tc main_arg11) = (m ((c.tc : Thread nD τ).loc main_arg11)) :=
  (U36_untouched m c main_arg11 (by decide)).trans (rat_arg11_35 m c)

end Cert.RefRun

end
-- ==== Proof.RefRun5.lean ====
import proofs.«135273_j69758858821831_1_alg».proof.Proof.RefRun4
import Idealize.ShloMosaic.Lib.StableHlo.Run

/-!
# Part 5 of the reference: operations 306 … 365

Each buffer a chunk defines and a later chunk reads holds its stage; each live buffer a chunk does not write keeps what it
held.
-/

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

theorem rat_v267_37 : U37 m c (Proc.devRef .tc main_v267) = (ReadP.val_main_v267 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  show after (Q36 (F := Ideal)) (U36 m c) (Proc.devRef .tc main_v267) = _
  after_results_simp
  rw [rat_v252_36 m c, rat_v254_36 m c, rat_v174_36 m c, rat_v256_36 m c, rat_c_40_36 m c]
  rfl
theorem rat_arg0_37 : U37 m c (Proc.devRef .tc main_arg0) = (m ((c.tc : Thread nD τ).loc main_arg0)) :=
  (U37_untouched m c main_arg0 (by decide)).trans (rat_arg0_36 m c)
theorem rat_arg1_37 : U37 m c (Proc.devRef .tc main_arg1) = (m ((c.tc : Thread nD τ).loc main_arg1)) :=
  (U37_untouched m c main_arg1 (by decide)).trans (rat_arg1_36 m c)
theorem rat_arg4_37 : U37 m c (Proc.devRef .tc main_arg4) = (m ((c.tc : Thread nD τ).loc main_arg4)) :=
  (U37_untouched m c main_arg4 (by decide)).trans (rat_arg4_36 m c)
theorem rat_arg5_37 : U37 m c (Proc.devRef .tc main_arg5) = (m ((c.tc : Thread nD τ).loc main_arg5)) :=
  (U37_untouched m c main_arg5 (by decide)).trans (rat_arg5_36 m c)
theorem rat_arg6_37 : U37 m c (Proc.devRef .tc main_arg6) = (m ((c.tc : Thread nD τ).loc main_arg6)) :=
  (U37_untouched m c main_arg6 (by decide)).trans (rat_arg6_36 m c)
theorem rat_arg7_37 : U37 m c (Proc.devRef .tc main_arg7) = (m ((c.tc : Thread nD τ).loc main_arg7)) :=
  (U37_untouched m c main_arg7 (by decide)).trans (rat_arg7_36 m c)
theorem rat_arg2_37 : U37 m c (Proc.devRef .tc main_arg2) = (m ((c.tc : Thread nD τ).loc main_arg2)) :=
  (U37_untouched m c main_arg2 (by decide)).trans (rat_arg2_36 m c)
theorem rat_arg3_37 : U37 m c (Proc.devRef .tc main_arg3) = (m ((c.tc : Thread nD τ).loc main_arg3)) :=
  (U37_untouched m c main_arg3 (by decide)).trans (rat_arg3_36 m c)
theorem rat_arg8_37 : U37 m c (Proc.devRef .tc main_arg8) = (m ((c.tc : Thread nD τ).loc main_arg8)) :=
  (U37_untouched m c main_arg8 (by decide)).trans (rat_arg8_36 m c)
theorem rat_arg9_37 : U37 m c (Proc.devRef .tc main_arg9) = (m ((c.tc : Thread nD τ).loc main_arg9)) :=
  (U37_untouched m c main_arg9 (by decide)).trans (rat_arg9_36 m c)
theorem rat_arg10_37 : U37 m c (Proc.devRef .tc main_arg10) = (m ((c.tc : Thread nD τ).loc main_arg10)) :=
  (U37_untouched m c main_arg10 (by decide)).trans (rat_arg10_36 m c)
theorem rat_arg11_37 : U37 m c (Proc.devRef .tc main_arg11) = (m ((c.tc : Thread nD τ).loc main_arg11)) :=
  (U37_untouched m c main_arg11 (by decide)).trans (rat_arg11_36 m c)
theorem rat_v271_38 : U38 m c (Proc.devRef .tc main_v271) = (ReadP.val_main_v271 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  show after (Q37 (F := Ideal)) (U37 m c) (Proc.devRef .tc main_v271) = _
  after_results_simp
  rw [rat_v267_37 m c, rat_arg3_37 m c]
  rfl
theorem rat_v273_38 : U38 m c (Proc.devRef .tc main_v273) = (ReadP.val_main_v273 (F := Ideal) (m ((c.tc : Thread nD τ).loc main_arg0))) := by
  show after (Q37 (F := Ideal)) (U37 m c) (Proc.devRef .tc main_v273) = _
  after_results_simp
  rw [rat_arg0_37 m c]
  rfl
theorem rat_v275_38 : U38 m c (Proc.devRef .tc main_v275) = (ReadP.val_main_v275 (F := Ideal) (m ((c.tc : Thread nD τ).loc main_arg1))) := by
  show after (Q37 (F := Ideal)) (U37 m c) (Proc.devRef .tc main_v275) = _
  after_results_simp
  rw [rat_arg1_37 m c]
  rfl
theorem rat_arg0_38 : U38 m c (Proc.devRef .tc main_arg0) = (m ((c.tc : Thread nD τ).loc main_arg0)) :=
  (U38_untouched m c main_arg0 (by decide)).trans (rat_arg0_37 m c)
theorem rat_arg1_38 : U38 m c (Proc.devRef .tc main_arg1) = (m ((c.tc : Thread nD τ).loc main_arg1)) :=
  (U38_untouched m c main_arg1 (by decide)).trans (rat_arg1_37 m c)
theorem rat_arg4_38 : U38 m c (Proc.devRef .tc main_arg4) = (m ((c.tc : Thread nD τ).loc main_arg4)) :=
  (U38_untouched m c main_arg4 (by decide)).trans (rat_arg4_37 m c)
theorem rat_arg5_38 : U38 m c (Proc.devRef .tc main_arg5) = (m ((c.tc : Thread nD τ).loc main_arg5)) :=
  (U38_untouched m c main_arg5 (by decide)).trans (rat_arg5_37 m c)
theorem rat_arg6_38 : U38 m c (Proc.devRef .tc main_arg6) = (m ((c.tc : Thread nD τ).loc main_arg6)) :=
  (U38_untouched m c main_arg6 (by decide)).trans (rat_arg6_37 m c)
theorem rat_arg7_38 : U38 m c (Proc.devRef .tc main_arg7) = (m ((c.tc : Thread nD τ).loc main_arg7)) :=
  (U38_untouched m c main_arg7 (by decide)).trans (rat_arg7_37 m c)
theorem rat_arg2_38 : U38 m c (Proc.devRef .tc main_arg2) = (m ((c.tc : Thread nD τ).loc main_arg2)) :=
  (U38_untouched m c main_arg2 (by decide)).trans (rat_arg2_37 m c)
theorem rat_arg3_38 : U38 m c (Proc.devRef .tc main_arg3) = (m ((c.tc : Thread nD τ).loc main_arg3)) :=
  (U38_untouched m c main_arg3 (by decide)).trans (rat_arg3_37 m c)
theorem rat_arg8_38 : U38 m c (Proc.devRef .tc main_arg8) = (m ((c.tc : Thread nD τ).loc main_arg8)) :=
  (U38_untouched m c main_arg8 (by decide)).trans (rat_arg8_37 m c)
theorem rat_arg9_38 : U38 m c (Proc.devRef .tc main_arg9) = (m ((c.tc : Thread nD τ).loc main_arg9)) :=
  (U38_untouched m c main_arg9 (by decide)).trans (rat_arg9_37 m c)
theorem rat_arg10_38 : U38 m c (Proc.devRef .tc main_arg10) = (m ((c.tc : Thread nD τ).loc main_arg10)) :=
  (U38_untouched m c main_arg10 (by decide)).trans (rat_arg10_37 m c)
theorem rat_arg11_38 : U38 m c (Proc.devRef .tc main_arg11) = (m ((c.tc : Thread nD τ).loc main_arg11)) :=
  (U38_untouched m c main_arg11 (by decide)).trans (rat_arg11_37 m c)
theorem rat_v277_39 : U39 m c (Proc.devRef .tc main_v277) = (ReadP.val_main_v277 (F := Ideal) (m ((c.tc : Thread nD τ).loc main_arg1))) := by
  show after (Q38 (F := Ideal)) (U38 m c) (Proc.devRef .tc main_v277) = _
  after_results_simp
  rw [rat_arg1_38 m c]
  rfl
theorem rat_v279_39 : U39 m c (Proc.devRef .tc main_v279) = (ReadP.val_main_v279 (F := Ideal) (m ((c.tc : Thread nD τ).loc main_arg4))) := by
  show after (Q38 (F := Ideal)) (U38 m c) (Proc.devRef .tc main_v279) = _
  after_results_simp
  rw [rat_arg4_38 m c]
  rfl
theorem rat_v281_39 : U39 m c (Proc.devRef .tc main_v281) = (ReadP.val_main_v281 (F := Ideal) (m ((c.tc : Thread nD τ).loc main_arg5))) := by
  show after (Q38 (F := Ideal)) (U38 m c) (Proc.devRef .tc main_v281) = _
  after_results_simp
  rw [rat_arg5_38 m c]
  rfl
theorem rat_v283_39 : U39 m c (Proc.devRef .tc main_v283) = (ReadP.val_main_v283 (F := Ideal) (m ((c.tc : Thread nD τ).loc main_arg6))) := by
  show after (Q38 (F := Ideal)) (U38 m c) (Proc.devRef .tc main_v283) = _
  after_results_simp
  rw [rat_arg6_38 m c]
  rfl
theorem rat_arg0_39 : U39 m c (Proc.devRef .tc main_arg0) = (m ((c.tc : Thread nD τ).loc main_arg0)) :=
  (U39_untouched m c main_arg0 (by decide)).trans (rat_arg0_38 m c)
theorem rat_arg1_39 : U39 m c (Proc.devRef .tc main_arg1) = (m ((c.tc : Thread nD τ).loc main_arg1)) :=
  (U39_untouched m c main_arg1 (by decide)).trans (rat_arg1_38 m c)
theorem rat_arg4_39 : U39 m c (Proc.devRef .tc main_arg4) = (m ((c.tc : Thread nD τ).loc main_arg4)) :=
  (U39_untouched m c main_arg4 (by decide)).trans (rat_arg4_38 m c)
theorem rat_arg5_39 : U39 m c (Proc.devRef .tc main_arg5) = (m ((c.tc : Thread nD τ).loc main_arg5)) :=
  (U39_untouched m c main_arg5 (by decide)).trans (rat_arg5_38 m c)
theorem rat_arg6_39 : U39 m c (Proc.devRef .tc main_arg6) = (m ((c.tc : Thread nD τ).loc main_arg6)) :=
  (U39_untouched m c main_arg6 (by decide)).trans (rat_arg6_38 m c)
theorem rat_arg7_39 : U39 m c (Proc.devRef .tc main_arg7) = (m ((c.tc : Thread nD τ).loc main_arg7)) :=
  (U39_untouched m c main_arg7 (by decide)).trans (rat_arg7_38 m c)
theorem rat_arg2_39 : U39 m c (Proc.devRef .tc main_arg2) = (m ((c.tc : Thread nD τ).loc main_arg2)) :=
  (U39_untouched m c main_arg2 (by decide)).trans (rat_arg2_38 m c)
theorem rat_arg3_39 : U39 m c (Proc.devRef .tc main_arg3) = (m ((c.tc : Thread nD τ).loc main_arg3)) :=
  (U39_untouched m c main_arg3 (by decide)).trans (rat_arg3_38 m c)
theorem rat_v275_39 : U39 m c (Proc.devRef .tc main_v275) = (ReadP.val_main_v275 (F := Ideal) (m ((c.tc : Thread nD τ).loc main_arg1))) :=
  (U39_untouched m c main_v275 (by decide)).trans (rat_v275_38 m c)
theorem rat_v273_39 : U39 m c (Proc.devRef .tc main_v273) = (ReadP.val_main_v273 (F := Ideal) (m ((c.tc : Thread nD τ).loc main_arg0))) :=
  (U39_untouched m c main_v273 (by decide)).trans (rat_v273_38 m c)
theorem rat_v271_39 : U39 m c (Proc.devRef .tc main_v271) = (ReadP.val_main_v271 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (U39_untouched m c main_v271 (by decide)).trans (rat_v271_38 m c)
theorem rat_arg8_39 : U39 m c (Proc.devRef .tc main_arg8) = (m ((c.tc : Thread nD τ).loc main_arg8)) :=
  (U39_untouched m c main_arg8 (by decide)).trans (rat_arg8_38 m c)
theorem rat_arg9_39 : U39 m c (Proc.devRef .tc main_arg9) = (m ((c.tc : Thread nD τ).loc main_arg9)) :=
  (U39_untouched m c main_arg9 (by decide)).trans (rat_arg9_38 m c)
theorem rat_arg10_39 : U39 m c (Proc.devRef .tc main_arg10) = (m ((c.tc : Thread nD τ).loc main_arg10)) :=
  (U39_untouched m c main_arg10 (by decide)).trans (rat_arg10_38 m c)
theorem rat_arg11_39 : U39 m c (Proc.devRef .tc main_arg11) = (m ((c.tc : Thread nD τ).loc main_arg11)) :=
  (U39_untouched m c main_arg11 (by decide)).trans (rat_arg11_38 m c)
theorem rat_v285_40 : U40 m c (Proc.devRef .tc main_v285) = (ReadP.val_main_v285 (F := Ideal) (m ((c.tc : Thread nD τ).loc main_arg7))) := by
  show after (Q39 (F := Ideal)) (U39 m c) (Proc.devRef .tc main_v285) = _
  after_results_simp
  rw [rat_arg7_39 m c]
  rfl
theorem rat_v292_40 : U40 m c (Proc.devRef .tc main_v292) = (ReadP.val_main_v292 (F := Ideal) (m ((c.tc : Thread nD τ).loc main_arg1))) := by
  show after (Q39 (F := Ideal)) (U39 m c) (Proc.devRef .tc main_v292) = _
  after_results_simp
  rw [rat_v277_39 m c]
  rfl
theorem rat_arg0_40 : U40 m c (Proc.devRef .tc main_arg0) = (m ((c.tc : Thread nD τ).loc main_arg0)) :=
  (U40_untouched m c main_arg0 (by decide)).trans (rat_arg0_39 m c)
theorem rat_arg1_40 : U40 m c (Proc.devRef .tc main_arg1) = (m ((c.tc : Thread nD τ).loc main_arg1)) :=
  (U40_untouched m c main_arg1 (by decide)).trans (rat_arg1_39 m c)
theorem rat_arg4_40 : U40 m c (Proc.devRef .tc main_arg4) = (m ((c.tc : Thread nD τ).loc main_arg4)) :=
  (U40_untouched m c main_arg4 (by decide)).trans (rat_arg4_39 m c)
theorem rat_arg5_40 : U40 m c (Proc.devRef .tc main_arg5) = (m ((c.tc : Thread nD τ).loc main_arg5)) :=
  (U40_untouched m c main_arg5 (by decide)).trans (rat_arg5_39 m c)
theorem rat_arg6_40 : U40 m c (Proc.devRef .tc main_arg6) = (m ((c.tc : Thread nD τ).loc main_arg6)) :=
  (U40_untouched m c main_arg6 (by decide)).trans (rat_arg6_39 m c)
theorem rat_arg7_40 : U40 m c (Proc.devRef .tc main_arg7) = (m ((c.tc : Thread nD τ).loc main_arg7)) :=
  (U40_untouched m c main_arg7 (by decide)).trans (rat_arg7_39 m c)
theorem rat_arg2_40 : U40 m c (Proc.devRef .tc main_arg2) = (m ((c.tc : Thread nD τ).loc main_arg2)) :=
  (U40_untouched m c main_arg2 (by decide)).trans (rat_arg2_39 m c)
theorem rat_arg3_40 : U40 m c (Proc.devRef .tc main_arg3) = (m ((c.tc : Thread nD τ).loc main_arg3)) :=
  (U40_untouched m c main_arg3 (by decide)).trans (rat_arg3_39 m c)
theorem rat_v277_40 : U40 m c (Proc.devRef .tc main_v277) = (ReadP.val_main_v277 (F := Ideal) (m ((c.tc : Thread nD τ).loc main_arg1))) :=
  (U40_untouched m c main_v277 (by decide)).trans (rat_v277_39 m c)
theorem rat_v275_40 : U40 m c (Proc.devRef .tc main_v275) = (ReadP.val_main_v275 (F := Ideal) (m ((c.tc : Thread nD τ).loc main_arg1))) :=
  (U40_untouched m c main_v275 (by decide)).trans (rat_v275_39 m c)
theorem rat_v273_40 : U40 m c (Proc.devRef .tc main_v273) = (ReadP.val_main_v273 (F := Ideal) (m ((c.tc : Thread nD τ).loc main_arg0))) :=
  (U40_untouched m c main_v273 (by decide)).trans (rat_v273_39 m c)
theorem rat_v279_40 : U40 m c (Proc.devRef .tc main_v279) = (ReadP.val_main_v279 (F := Ideal) (m ((c.tc : Thread nD τ).loc main_arg4))) :=
  (U40_untouched m c main_v279 (by decide)).trans (rat_v279_39 m c)
theorem rat_v281_40 : U40 m c (Proc.devRef .tc main_v281) = (ReadP.val_main_v281 (F := Ideal) (m ((c.tc : Thread nD τ).loc main_arg5))) :=
  (U40_untouched m c main_v281 (by decide)).trans (rat_v281_39 m c)
theorem rat_v283_40 : U40 m c (Proc.devRef .tc main_v283) = (ReadP.val_main_v283 (F := Ideal) (m ((c.tc : Thread nD τ).loc main_arg6))) :=
  (U40_untouched m c main_v283 (by decide)).trans (rat_v283_39 m c)
theorem rat_v271_40 : U40 m c (Proc.devRef .tc main_v271) = (ReadP.val_main_v271 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (U40_untouched m c main_v271 (by decide)).trans (rat_v271_39 m c)
theorem rat_arg8_40 : U40 m c (Proc.devRef .tc main_arg8) = (m ((c.tc : Thread nD τ).loc main_arg8)) :=
  (U40_untouched m c main_arg8 (by decide)).trans (rat_arg8_39 m c)
theorem rat_arg9_40 : U40 m c (Proc.devRef .tc main_arg9) = (m ((c.tc : Thread nD τ).loc main_arg9)) :=
  (U40_untouched m c main_arg9 (by decide)).trans (rat_arg9_39 m c)
theorem rat_arg10_40 : U40 m c (Proc.devRef .tc main_arg10) = (m ((c.tc : Thread nD τ).loc main_arg10)) :=
  (U40_untouched m c main_arg10 (by decide)).trans (rat_arg10_39 m c)
theorem rat_arg11_40 : U40 m c (Proc.devRef .tc main_arg11) = (m ((c.tc : Thread nD τ).loc main_arg11)) :=
  (U40_untouched m c main_arg11 (by decide)).trans (rat_arg11_39 m c)
theorem rat_v299_41 : U41 m c (Proc.devRef .tc main_v299) = (ReadP.val_main_v299 (F := Ideal) (m ((c.tc : Thread nD τ).loc main_arg1))) := by
  show after (Q40 (F := Ideal)) (U40 m c) (Proc.devRef .tc main_v299) = _
  after_results_simp
  rw [rat_v292_40 m c, rat_v275_40 m c]
  rfl
theorem rat_arg0_41 : U41 m c (Proc.devRef .tc main_arg0) = (m ((c.tc : Thread nD τ).loc main_arg0)) :=
  (U41_untouched m c main_arg0 (by decide)).trans (rat_arg0_40 m c)
theorem rat_arg1_41 : U41 m c (Proc.devRef .tc main_arg1) = (m ((c.tc : Thread nD τ).loc main_arg1)) :=
  (U41_untouched m c main_arg1 (by decide)).trans (rat_arg1_40 m c)
theorem rat_arg4_41 : U41 m c (Proc.devRef .tc main_arg4) = (m ((c.tc : Thread nD τ).loc main_arg4)) :=
  (U41_untouched m c main_arg4 (by decide)).trans (rat_arg4_40 m c)
theorem rat_arg5_41 : U41 m c (Proc.devRef .tc main_arg5) = (m ((c.tc : Thread nD τ).loc main_arg5)) :=
  (U41_untouched m c main_arg5 (by decide)).trans (rat_arg5_40 m c)
theorem rat_arg6_41 : U41 m c (Proc.devRef .tc main_arg6) = (m ((c.tc : Thread nD τ).loc main_arg6)) :=
  (U41_untouched m c main_arg6 (by decide)).trans (rat_arg6_40 m c)
theorem rat_arg7_41 : U41 m c (Proc.devRef .tc main_arg7) = (m ((c.tc : Thread nD τ).loc main_arg7)) :=
  (U41_untouched m c main_arg7 (by decide)).trans (rat_arg7_40 m c)
theorem rat_arg2_41 : U41 m c (Proc.devRef .tc main_arg2) = (m ((c.tc : Thread nD τ).loc main_arg2)) :=
  (U41_untouched m c main_arg2 (by decide)).trans (rat_arg2_40 m c)
theorem rat_arg3_41 : U41 m c (Proc.devRef .tc main_arg3) = (m ((c.tc : Thread nD τ).loc main_arg3)) :=
  (U41_untouched m c main_arg3 (by decide)).trans (rat_arg3_40 m c)
theorem rat_v277_41 : U41 m c (Proc.devRef .tc main_v277) = (ReadP.val_main_v277 (F := Ideal) (m ((c.tc : Thread nD τ).loc main_arg1))) :=
  (U41_untouched m c main_v277 (by decide)).trans (rat_v277_40 m c)
theorem rat_v275_41 : U41 m c (Proc.devRef .tc main_v275) = (ReadP.val_main_v275 (F := Ideal) (m ((c.tc : Thread nD τ).loc main_arg1))) :=
  (U41_untouched m c main_v275 (by decide)).trans (rat_v275_40 m c)
theorem rat_v292_41 : U41 m c (Proc.devRef .tc main_v292) = (ReadP.val_main_v292 (F := Ideal) (m ((c.tc : Thread nD τ).loc main_arg1))) :=
  (U41_untouched m c main_v292 (by decide)).trans (rat_v292_40 m c)
theorem rat_v273_41 : U41 m c (Proc.devRef .tc main_v273) = (ReadP.val_main_v273 (F := Ideal) (m ((c.tc : Thread nD τ).loc main_arg0))) :=
  (U41_untouched m c main_v273 (by decide)).trans (rat_v273_40 m c)
theorem rat_v279_41 : U41 m c (Proc.devRef .tc main_v279) = (ReadP.val_main_v279 (F := Ideal) (m ((c.tc : Thread nD τ).loc main_arg4))) :=
  (U41_untouched m c main_v279 (by decide)).trans (rat_v279_40 m c)
theorem rat_v281_41 : U41 m c (Proc.devRef .tc main_v281) = (ReadP.val_main_v281 (F := Ideal) (m ((c.tc : Thread nD τ).loc main_arg5))) :=
  (U41_untouched m c main_v281 (by decide)).trans (rat_v281_40 m c)
theorem rat_v283_41 : U41 m c (Proc.devRef .tc main_v283) = (ReadP.val_main_v283 (F := Ideal) (m ((c.tc : Thread nD τ).loc main_arg6))) :=
  (U41_untouched m c main_v283 (by decide)).trans (rat_v283_40 m c)
theorem rat_v285_41 : U41 m c (Proc.devRef .tc main_v285) = (ReadP.val_main_v285 (F := Ideal) (m ((c.tc : Thread nD τ).loc main_arg7))) :=
  (U41_untouched m c main_v285 (by decide)).trans (rat_v285_40 m c)
theorem rat_v271_41 : U41 m c (Proc.devRef .tc main_v271) = (ReadP.val_main_v271 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (U41_untouched m c main_v271 (by decide)).trans (rat_v271_40 m c)
theorem rat_arg8_41 : U41 m c (Proc.devRef .tc main_arg8) = (m ((c.tc : Thread nD τ).loc main_arg8)) :=
  (U41_untouched m c main_arg8 (by decide)).trans (rat_arg8_40 m c)
theorem rat_arg9_41 : U41 m c (Proc.devRef .tc main_arg9) = (m ((c.tc : Thread nD τ).loc main_arg9)) :=
  (U41_untouched m c main_arg9 (by decide)).trans (rat_arg9_40 m c)
theorem rat_arg10_41 : U41 m c (Proc.devRef .tc main_arg10) = (m ((c.tc : Thread nD τ).loc main_arg10)) :=
  (U41_untouched m c main_arg10 (by decide)).trans (rat_arg10_40 m c)
theorem rat_arg11_41 : U41 m c (Proc.devRef .tc main_arg11) = (m ((c.tc : Thread nD τ).loc main_arg11)) :=
  (U41_untouched m c main_arg11 (by decide)).trans (rat_arg11_40 m c)
theorem rat_v307_42 : U42 m c (Proc.devRef .tc main_v307) = (ReadP.val_main_v307 (F := Ideal) (m ((c.tc : Thread nD τ).loc main_arg1))) := by
  show after (Q41 (F := Ideal)) (U41 m c) (Proc.devRef .tc main_v307) = _
  after_results_simp
  rw [rat_v299_41 m c, rat_v292_41 m c, rat_v277_41 m c]
  rfl
theorem rat_arg0_42 : U42 m c (Proc.devRef .tc main_arg0) = (m ((c.tc : Thread nD τ).loc main_arg0)) :=
  (U42_untouched m c main_arg0 (by decide)).trans (rat_arg0_41 m c)
theorem rat_arg1_42 : U42 m c (Proc.devRef .tc main_arg1) = (m ((c.tc : Thread nD τ).loc main_arg1)) :=
  (U42_untouched m c main_arg1 (by decide)).trans (rat_arg1_41 m c)
theorem rat_arg4_42 : U42 m c (Proc.devRef .tc main_arg4) = (m ((c.tc : Thread nD τ).loc main_arg4)) :=
  (U42_untouched m c main_arg4 (by decide)).trans (rat_arg4_41 m c)
theorem rat_arg5_42 : U42 m c (Proc.devRef .tc main_arg5) = (m ((c.tc : Thread nD τ).loc main_arg5)) :=
  (U42_untouched m c main_arg5 (by decide)).trans (rat_arg5_41 m c)
theorem rat_arg6_42 : U42 m c (Proc.devRef .tc main_arg6) = (m ((c.tc : Thread nD τ).loc main_arg6)) :=
  (U42_untouched m c main_arg6 (by decide)).trans (rat_arg6_41 m c)
theorem rat_arg7_42 : U42 m c (Proc.devRef .tc main_arg7) = (m ((c.tc : Thread nD τ).loc main_arg7)) :=
  (U42_untouched m c main_arg7 (by decide)).trans (rat_arg7_41 m c)
theorem rat_arg2_42 : U42 m c (Proc.devRef .tc main_arg2) = (m ((c.tc : Thread nD τ).loc main_arg2)) :=
  (U42_untouched m c main_arg2 (by decide)).trans (rat_arg2_41 m c)
theorem rat_arg3_42 : U42 m c (Proc.devRef .tc main_arg3) = (m ((c.tc : Thread nD τ).loc main_arg3)) :=
  (U42_untouched m c main_arg3 (by decide)).trans (rat_arg3_41 m c)
theorem rat_v277_42 : U42 m c (Proc.devRef .tc main_v277) = (ReadP.val_main_v277 (F := Ideal) (m ((c.tc : Thread nD τ).loc main_arg1))) :=
  (U42_untouched m c main_v277 (by decide)).trans (rat_v277_41 m c)
theorem rat_v275_42 : U42 m c (Proc.devRef .tc main_v275) = (ReadP.val_main_v275 (F := Ideal) (m ((c.tc : Thread nD τ).loc main_arg1))) :=
  (U42_untouched m c main_v275 (by decide)).trans (rat_v275_41 m c)
theorem rat_v292_42 : U42 m c (Proc.devRef .tc main_v292) = (ReadP.val_main_v292 (F := Ideal) (m ((c.tc : Thread nD τ).loc main_arg1))) :=
  (U42_untouched m c main_v292 (by decide)).trans (rat_v292_41 m c)
theorem rat_v273_42 : U42 m c (Proc.devRef .tc main_v273) = (ReadP.val_main_v273 (F := Ideal) (m ((c.tc : Thread nD τ).loc main_arg0))) :=
  (U42_untouched m c main_v273 (by decide)).trans (rat_v273_41 m c)
theorem rat_v279_42 : U42 m c (Proc.devRef .tc main_v279) = (ReadP.val_main_v279 (F := Ideal) (m ((c.tc : Thread nD τ).loc main_arg4))) :=
  (U42_untouched m c main_v279 (by decide)).trans (rat_v279_41 m c)
theorem rat_v281_42 : U42 m c (Proc.devRef .tc main_v281) = (ReadP.val_main_v281 (F := Ideal) (m ((c.tc : Thread nD τ).loc main_arg5))) :=
  (U42_untouched m c main_v281 (by decide)).trans (rat_v281_41 m c)
theorem rat_v283_42 : U42 m c (Proc.devRef .tc main_v283) = (ReadP.val_main_v283 (F := Ideal) (m ((c.tc : Thread nD τ).loc main_arg6))) :=
  (U42_untouched m c main_v283 (by decide)).trans (rat_v283_41 m c)
theorem rat_v285_42 : U42 m c (Proc.devRef .tc main_v285) = (ReadP.val_main_v285 (F := Ideal) (m ((c.tc : Thread nD τ).loc main_arg7))) :=
  (U42_untouched m c main_v285 (by decide)).trans (rat_v285_41 m c)
theorem rat_v271_42 : U42 m c (Proc.devRef .tc main_v271) = (ReadP.val_main_v271 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (U42_untouched m c main_v271 (by decide)).trans (rat_v271_41 m c)
theorem rat_arg8_42 : U42 m c (Proc.devRef .tc main_arg8) = (m ((c.tc : Thread nD τ).loc main_arg8)) :=
  (U42_untouched m c main_arg8 (by decide)).trans (rat_arg8_41 m c)
theorem rat_arg9_42 : U42 m c (Proc.devRef .tc main_arg9) = (m ((c.tc : Thread nD τ).loc main_arg9)) :=
  (U42_untouched m c main_arg9 (by decide)).trans (rat_arg9_41 m c)
theorem rat_arg10_42 : U42 m c (Proc.devRef .tc main_arg10) = (m ((c.tc : Thread nD τ).loc main_arg10)) :=
  (U42_untouched m c main_arg10 (by decide)).trans (rat_arg10_41 m c)
theorem rat_arg11_42 : U42 m c (Proc.devRef .tc main_arg11) = (m ((c.tc : Thread nD τ).loc main_arg11)) :=
  (U42_untouched m c main_arg11 (by decide)).trans (rat_arg11_41 m c)

end Cert.RefRun

end
-- ==== Proof.RefRun6.lean ====
import proofs.«135273_j69758858821831_1_alg».proof.Proof.RefRun5
import Idealize.ShloMosaic.Lib.StableHlo.Run

/-!
# Part 6 of the reference: operations 366 … 427

Each buffer a chunk defines and a later chunk reads holds its stage; each live buffer a chunk does not write keeps what it
held.
-/

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

theorem rat_v308_43 : U43 m c (Proc.devRef .tc main_v308) = (ReadP.val_main_v308 (F := Ideal) (m ((c.tc : Thread nD τ).loc main_arg1))) := by
  show after (Q42 (F := Ideal)) (U42 m c) (Proc.devRef .tc main_v308) = _
  after_results_simp
  rw [rat_v307_42 m c]
  rfl
theorem rat_v310_43 : U43 m c (Proc.devRef .tc main_v310) = (ReadP.val_main_v310 (F := Ideal) (m ((c.tc : Thread nD τ).loc main_arg1))) := by
  show after (Q42 (F := Ideal)) (U42 m c) (Proc.devRef .tc main_v310) = _
  after_results_simp
  rw [rat_v292_42 m c]
  rfl
theorem rat_arg0_43 : U43 m c (Proc.devRef .tc main_arg0) = (m ((c.tc : Thread nD τ).loc main_arg0)) :=
  (U43_untouched m c main_arg0 (by decide)).trans (rat_arg0_42 m c)
theorem rat_arg1_43 : U43 m c (Proc.devRef .tc main_arg1) = (m ((c.tc : Thread nD τ).loc main_arg1)) :=
  (U43_untouched m c main_arg1 (by decide)).trans (rat_arg1_42 m c)
theorem rat_arg4_43 : U43 m c (Proc.devRef .tc main_arg4) = (m ((c.tc : Thread nD τ).loc main_arg4)) :=
  (U43_untouched m c main_arg4 (by decide)).trans (rat_arg4_42 m c)
theorem rat_arg5_43 : U43 m c (Proc.devRef .tc main_arg5) = (m ((c.tc : Thread nD τ).loc main_arg5)) :=
  (U43_untouched m c main_arg5 (by decide)).trans (rat_arg5_42 m c)
theorem rat_arg6_43 : U43 m c (Proc.devRef .tc main_arg6) = (m ((c.tc : Thread nD τ).loc main_arg6)) :=
  (U43_untouched m c main_arg6 (by decide)).trans (rat_arg6_42 m c)
theorem rat_arg7_43 : U43 m c (Proc.devRef .tc main_arg7) = (m ((c.tc : Thread nD τ).loc main_arg7)) :=
  (U43_untouched m c main_arg7 (by decide)).trans (rat_arg7_42 m c)
theorem rat_arg2_43 : U43 m c (Proc.devRef .tc main_arg2) = (m ((c.tc : Thread nD τ).loc main_arg2)) :=
  (U43_untouched m c main_arg2 (by decide)).trans (rat_arg2_42 m c)
theorem rat_arg3_43 : U43 m c (Proc.devRef .tc main_arg3) = (m ((c.tc : Thread nD τ).loc main_arg3)) :=
  (U43_untouched m c main_arg3 (by decide)).trans (rat_arg3_42 m c)
theorem rat_v277_43 : U43 m c (Proc.devRef .tc main_v277) = (ReadP.val_main_v277 (F := Ideal) (m ((c.tc : Thread nD τ).loc main_arg1))) :=
  (U43_untouched m c main_v277 (by decide)).trans (rat_v277_42 m c)
theorem rat_v275_43 : U43 m c (Proc.devRef .tc main_v275) = (ReadP.val_main_v275 (F := Ideal) (m ((c.tc : Thread nD τ).loc main_arg1))) :=
  (U43_untouched m c main_v275 (by decide)).trans (rat_v275_42 m c)
theorem rat_v273_43 : U43 m c (Proc.devRef .tc main_v273) = (ReadP.val_main_v273 (F := Ideal) (m ((c.tc : Thread nD τ).loc main_arg0))) :=
  (U43_untouched m c main_v273 (by decide)).trans (rat_v273_42 m c)
theorem rat_v279_43 : U43 m c (Proc.devRef .tc main_v279) = (ReadP.val_main_v279 (F := Ideal) (m ((c.tc : Thread nD τ).loc main_arg4))) :=
  (U43_untouched m c main_v279 (by decide)).trans (rat_v279_42 m c)
theorem rat_v281_43 : U43 m c (Proc.devRef .tc main_v281) = (ReadP.val_main_v281 (F := Ideal) (m ((c.tc : Thread nD τ).loc main_arg5))) :=
  (U43_untouched m c main_v281 (by decide)).trans (rat_v281_42 m c)
theorem rat_v283_43 : U43 m c (Proc.devRef .tc main_v283) = (ReadP.val_main_v283 (F := Ideal) (m ((c.tc : Thread nD τ).loc main_arg6))) :=
  (U43_untouched m c main_v283 (by decide)).trans (rat_v283_42 m c)
theorem rat_v285_43 : U43 m c (Proc.devRef .tc main_v285) = (ReadP.val_main_v285 (F := Ideal) (m ((c.tc : Thread nD τ).loc main_arg7))) :=
  (U43_untouched m c main_v285 (by decide)).trans (rat_v285_42 m c)
theorem rat_v271_43 : U43 m c (Proc.devRef .tc main_v271) = (ReadP.val_main_v271 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (U43_untouched m c main_v271 (by decide)).trans (rat_v271_42 m c)
theorem rat_arg8_43 : U43 m c (Proc.devRef .tc main_arg8) = (m ((c.tc : Thread nD τ).loc main_arg8)) :=
  (U43_untouched m c main_arg8 (by decide)).trans (rat_arg8_42 m c)
theorem rat_arg9_43 : U43 m c (Proc.devRef .tc main_arg9) = (m ((c.tc : Thread nD τ).loc main_arg9)) :=
  (U43_untouched m c main_arg9 (by decide)).trans (rat_arg9_42 m c)
theorem rat_arg10_43 : U43 m c (Proc.devRef .tc main_arg10) = (m ((c.tc : Thread nD τ).loc main_arg10)) :=
  (U43_untouched m c main_arg10 (by decide)).trans (rat_arg10_42 m c)
theorem rat_arg11_43 : U43 m c (Proc.devRef .tc main_arg11) = (m ((c.tc : Thread nD τ).loc main_arg11)) :=
  (U43_untouched m c main_arg11 (by decide)).trans (rat_arg11_42 m c)
theorem rat_v311_44 : U44 m c (Proc.devRef .tc main_v311) = (ReadP.val_main_v311 (F := Ideal) (m ((c.tc : Thread nD τ).loc main_arg0)) (m ((c.tc : Thread nD τ).loc main_arg4))) := by
  show after (Q43 (F := Ideal)) (U43 m c) (Proc.devRef .tc main_v311) = _
  after_results_simp
  rw [rat_v273_43 m c, rat_v279_43 m c]
  rfl
theorem rat_arg0_44 : U44 m c (Proc.devRef .tc main_arg0) = (m ((c.tc : Thread nD τ).loc main_arg0)) :=
  (U44_untouched m c main_arg0 (by decide)).trans (rat_arg0_43 m c)
theorem rat_arg1_44 : U44 m c (Proc.devRef .tc main_arg1) = (m ((c.tc : Thread nD τ).loc main_arg1)) :=
  (U44_untouched m c main_arg1 (by decide)).trans (rat_arg1_43 m c)
theorem rat_arg4_44 : U44 m c (Proc.devRef .tc main_arg4) = (m ((c.tc : Thread nD τ).loc main_arg4)) :=
  (U44_untouched m c main_arg4 (by decide)).trans (rat_arg4_43 m c)
theorem rat_arg5_44 : U44 m c (Proc.devRef .tc main_arg5) = (m ((c.tc : Thread nD τ).loc main_arg5)) :=
  (U44_untouched m c main_arg5 (by decide)).trans (rat_arg5_43 m c)
theorem rat_arg6_44 : U44 m c (Proc.devRef .tc main_arg6) = (m ((c.tc : Thread nD τ).loc main_arg6)) :=
  (U44_untouched m c main_arg6 (by decide)).trans (rat_arg6_43 m c)
theorem rat_arg7_44 : U44 m c (Proc.devRef .tc main_arg7) = (m ((c.tc : Thread nD τ).loc main_arg7)) :=
  (U44_untouched m c main_arg7 (by decide)).trans (rat_arg7_43 m c)
theorem rat_arg2_44 : U44 m c (Proc.devRef .tc main_arg2) = (m ((c.tc : Thread nD τ).loc main_arg2)) :=
  (U44_untouched m c main_arg2 (by decide)).trans (rat_arg2_43 m c)
theorem rat_arg3_44 : U44 m c (Proc.devRef .tc main_arg3) = (m ((c.tc : Thread nD τ).loc main_arg3)) :=
  (U44_untouched m c main_arg3 (by decide)).trans (rat_arg3_43 m c)
theorem rat_v277_44 : U44 m c (Proc.devRef .tc main_v277) = (ReadP.val_main_v277 (F := Ideal) (m ((c.tc : Thread nD τ).loc main_arg1))) :=
  (U44_untouched m c main_v277 (by decide)).trans (rat_v277_43 m c)
theorem rat_v275_44 : U44 m c (Proc.devRef .tc main_v275) = (ReadP.val_main_v275 (F := Ideal) (m ((c.tc : Thread nD τ).loc main_arg1))) :=
  (U44_untouched m c main_v275 (by decide)).trans (rat_v275_43 m c)
theorem rat_v308_44 : U44 m c (Proc.devRef .tc main_v308) = (ReadP.val_main_v308 (F := Ideal) (m ((c.tc : Thread nD τ).loc main_arg1))) :=
  (U44_untouched m c main_v308 (by decide)).trans (rat_v308_43 m c)
theorem rat_v310_44 : U44 m c (Proc.devRef .tc main_v310) = (ReadP.val_main_v310 (F := Ideal) (m ((c.tc : Thread nD τ).loc main_arg1))) :=
  (U44_untouched m c main_v310 (by decide)).trans (rat_v310_43 m c)
theorem rat_v281_44 : U44 m c (Proc.devRef .tc main_v281) = (ReadP.val_main_v281 (F := Ideal) (m ((c.tc : Thread nD τ).loc main_arg5))) :=
  (U44_untouched m c main_v281 (by decide)).trans (rat_v281_43 m c)
theorem rat_v283_44 : U44 m c (Proc.devRef .tc main_v283) = (ReadP.val_main_v283 (F := Ideal) (m ((c.tc : Thread nD τ).loc main_arg6))) :=
  (U44_untouched m c main_v283 (by decide)).trans (rat_v283_43 m c)
theorem rat_v285_44 : U44 m c (Proc.devRef .tc main_v285) = (ReadP.val_main_v285 (F := Ideal) (m ((c.tc : Thread nD τ).loc main_arg7))) :=
  (U44_untouched m c main_v285 (by decide)).trans (rat_v285_43 m c)
theorem rat_v271_44 : U44 m c (Proc.devRef .tc main_v271) = (ReadP.val_main_v271 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (U44_untouched m c main_v271 (by decide)).trans (rat_v271_43 m c)
theorem rat_arg8_44 : U44 m c (Proc.devRef .tc main_arg8) = (m ((c.tc : Thread nD τ).loc main_arg8)) :=
  (U44_untouched m c main_arg8 (by decide)).trans (rat_arg8_43 m c)
theorem rat_arg9_44 : U44 m c (Proc.devRef .tc main_arg9) = (m ((c.tc : Thread nD τ).loc main_arg9)) :=
  (U44_untouched m c main_arg9 (by decide)).trans (rat_arg9_43 m c)
theorem rat_arg10_44 : U44 m c (Proc.devRef .tc main_arg10) = (m ((c.tc : Thread nD τ).loc main_arg10)) :=
  (U44_untouched m c main_arg10 (by decide)).trans (rat_arg10_43 m c)
theorem rat_arg11_44 : U44 m c (Proc.devRef .tc main_arg11) = (m ((c.tc : Thread nD τ).loc main_arg11)) :=
  (U44_untouched m c main_arg11 (by decide)).trans (rat_arg11_43 m c)
theorem rat_v323_45 : U45 m c (Proc.devRef .tc main_v323) = (ReadP.val_main_v323 (F := Ideal) (m ((c.tc : Thread nD τ).loc main_arg0)) (m ((c.tc : Thread nD τ).loc main_arg1)) (m ((c.tc : Thread nD τ).loc main_arg4))) := by
  show after (Q44 (F := Ideal)) (U44 m c) (Proc.devRef .tc main_v323) = _
  after_results_simp
  rw [rat_v277_44 m c, rat_v311_44 m c, rat_v275_44 m c, rat_v308_44 m c]
  rfl
theorem rat_arg0_45 : U45 m c (Proc.devRef .tc main_arg0) = (m ((c.tc : Thread nD τ).loc main_arg0)) :=
  (U45_untouched m c main_arg0 (by decide)).trans (rat_arg0_44 m c)
theorem rat_arg1_45 : U45 m c (Proc.devRef .tc main_arg1) = (m ((c.tc : Thread nD τ).loc main_arg1)) :=
  (U45_untouched m c main_arg1 (by decide)).trans (rat_arg1_44 m c)
theorem rat_arg4_45 : U45 m c (Proc.devRef .tc main_arg4) = (m ((c.tc : Thread nD τ).loc main_arg4)) :=
  (U45_untouched m c main_arg4 (by decide)).trans (rat_arg4_44 m c)
theorem rat_arg5_45 : U45 m c (Proc.devRef .tc main_arg5) = (m ((c.tc : Thread nD τ).loc main_arg5)) :=
  (U45_untouched m c main_arg5 (by decide)).trans (rat_arg5_44 m c)
theorem rat_arg6_45 : U45 m c (Proc.devRef .tc main_arg6) = (m ((c.tc : Thread nD τ).loc main_arg6)) :=
  (U45_untouched m c main_arg6 (by decide)).trans (rat_arg6_44 m c)
theorem rat_arg7_45 : U45 m c (Proc.devRef .tc main_arg7) = (m ((c.tc : Thread nD τ).loc main_arg7)) :=
  (U45_untouched m c main_arg7 (by decide)).trans (rat_arg7_44 m c)
theorem rat_arg2_45 : U45 m c (Proc.devRef .tc main_arg2) = (m ((c.tc : Thread nD τ).loc main_arg2)) :=
  (U45_untouched m c main_arg2 (by decide)).trans (rat_arg2_44 m c)
theorem rat_arg3_45 : U45 m c (Proc.devRef .tc main_arg3) = (m ((c.tc : Thread nD τ).loc main_arg3)) :=
  (U45_untouched m c main_arg3 (by decide)).trans (rat_arg3_44 m c)
theorem rat_v277_45 : U45 m c (Proc.devRef .tc main_v277) = (ReadP.val_main_v277 (F := Ideal) (m ((c.tc : Thread nD τ).loc main_arg1))) :=
  (U45_untouched m c main_v277 (by decide)).trans (rat_v277_44 m c)
theorem rat_v275_45 : U45 m c (Proc.devRef .tc main_v275) = (ReadP.val_main_v275 (F := Ideal) (m ((c.tc : Thread nD τ).loc main_arg1))) :=
  (U45_untouched m c main_v275 (by decide)).trans (rat_v275_44 m c)
theorem rat_v311_45 : U45 m c (Proc.devRef .tc main_v311) = (ReadP.val_main_v311 (F := Ideal) (m ((c.tc : Thread nD τ).loc main_arg0)) (m ((c.tc : Thread nD τ).loc main_arg4))) :=
  (U45_untouched m c main_v311 (by decide)).trans (rat_v311_44 m c)
theorem rat_v308_45 : U45 m c (Proc.devRef .tc main_v308) = (ReadP.val_main_v308 (F := Ideal) (m ((c.tc : Thread nD τ).loc main_arg1))) :=
  (U45_untouched m c main_v308 (by decide)).trans (rat_v308_44 m c)
theorem rat_v310_45 : U45 m c (Proc.devRef .tc main_v310) = (ReadP.val_main_v310 (F := Ideal) (m ((c.tc : Thread nD τ).loc main_arg1))) :=
  (U45_untouched m c main_v310 (by decide)).trans (rat_v310_44 m c)
theorem rat_v281_45 : U45 m c (Proc.devRef .tc main_v281) = (ReadP.val_main_v281 (F := Ideal) (m ((c.tc : Thread nD τ).loc main_arg5))) :=
  (U45_untouched m c main_v281 (by decide)).trans (rat_v281_44 m c)
theorem rat_v283_45 : U45 m c (Proc.devRef .tc main_v283) = (ReadP.val_main_v283 (F := Ideal) (m ((c.tc : Thread nD τ).loc main_arg6))) :=
  (U45_untouched m c main_v283 (by decide)).trans (rat_v283_44 m c)
theorem rat_v285_45 : U45 m c (Proc.devRef .tc main_v285) = (ReadP.val_main_v285 (F := Ideal) (m ((c.tc : Thread nD τ).loc main_arg7))) :=
  (U45_untouched m c main_v285 (by decide)).trans (rat_v285_44 m c)
theorem rat_v271_45 : U45 m c (Proc.devRef .tc main_v271) = (ReadP.val_main_v271 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (U45_untouched m c main_v271 (by decide)).trans (rat_v271_44 m c)
theorem rat_arg8_45 : U45 m c (Proc.devRef .tc main_arg8) = (m ((c.tc : Thread nD τ).loc main_arg8)) :=
  (U45_untouched m c main_arg8 (by decide)).trans (rat_arg8_44 m c)
theorem rat_arg9_45 : U45 m c (Proc.devRef .tc main_arg9) = (m ((c.tc : Thread nD τ).loc main_arg9)) :=
  (U45_untouched m c main_arg9 (by decide)).trans (rat_arg9_44 m c)
theorem rat_arg10_45 : U45 m c (Proc.devRef .tc main_arg10) = (m ((c.tc : Thread nD τ).loc main_arg10)) :=
  (U45_untouched m c main_arg10 (by decide)).trans (rat_arg10_44 m c)
theorem rat_arg11_45 : U45 m c (Proc.devRef .tc main_arg11) = (m ((c.tc : Thread nD τ).loc main_arg11)) :=
  (U45_untouched m c main_arg11 (by decide)).trans (rat_arg11_44 m c)
theorem rat_v329_46 : U46 m c (Proc.devRef .tc main_v329) = (ReadP.val_main_v329 (F := Ideal) (m ((c.tc : Thread nD τ).loc main_arg0)) (m ((c.tc : Thread nD τ).loc main_arg1)) (m ((c.tc : Thread nD τ).loc main_arg4)) (m ((c.tc : Thread nD τ).loc main_arg5))) := by
  show after (Q45 (F := Ideal)) (U45 m c) (Proc.devRef .tc main_v329) = _
  after_results_simp
  rw [rat_v323_45 m c, rat_v311_45 m c, rat_v310_45 m c, rat_v281_45 m c]
  rfl
theorem rat_arg0_46 : U46 m c (Proc.devRef .tc main_arg0) = (m ((c.tc : Thread nD τ).loc main_arg0)) :=
  (U46_untouched m c main_arg0 (by decide)).trans (rat_arg0_45 m c)
theorem rat_arg1_46 : U46 m c (Proc.devRef .tc main_arg1) = (m ((c.tc : Thread nD τ).loc main_arg1)) :=
  (U46_untouched m c main_arg1 (by decide)).trans (rat_arg1_45 m c)
theorem rat_arg4_46 : U46 m c (Proc.devRef .tc main_arg4) = (m ((c.tc : Thread nD τ).loc main_arg4)) :=
  (U46_untouched m c main_arg4 (by decide)).trans (rat_arg4_45 m c)
theorem rat_arg5_46 : U46 m c (Proc.devRef .tc main_arg5) = (m ((c.tc : Thread nD τ).loc main_arg5)) :=
  (U46_untouched m c main_arg5 (by decide)).trans (rat_arg5_45 m c)
theorem rat_arg6_46 : U46 m c (Proc.devRef .tc main_arg6) = (m ((c.tc : Thread nD τ).loc main_arg6)) :=
  (U46_untouched m c main_arg6 (by decide)).trans (rat_arg6_45 m c)
theorem rat_arg7_46 : U46 m c (Proc.devRef .tc main_arg7) = (m ((c.tc : Thread nD τ).loc main_arg7)) :=
  (U46_untouched m c main_arg7 (by decide)).trans (rat_arg7_45 m c)
theorem rat_arg2_46 : U46 m c (Proc.devRef .tc main_arg2) = (m ((c.tc : Thread nD τ).loc main_arg2)) :=
  (U46_untouched m c main_arg2 (by decide)).trans (rat_arg2_45 m c)
theorem rat_arg3_46 : U46 m c (Proc.devRef .tc main_arg3) = (m ((c.tc : Thread nD τ).loc main_arg3)) :=
  (U46_untouched m c main_arg3 (by decide)).trans (rat_arg3_45 m c)
theorem rat_v277_46 : U46 m c (Proc.devRef .tc main_v277) = (ReadP.val_main_v277 (F := Ideal) (m ((c.tc : Thread nD τ).loc main_arg1))) :=
  (U46_untouched m c main_v277 (by decide)).trans (rat_v277_45 m c)
theorem rat_v275_46 : U46 m c (Proc.devRef .tc main_v275) = (ReadP.val_main_v275 (F := Ideal) (m ((c.tc : Thread nD τ).loc main_arg1))) :=
  (U46_untouched m c main_v275 (by decide)).trans (rat_v275_45 m c)
theorem rat_v308_46 : U46 m c (Proc.devRef .tc main_v308) = (ReadP.val_main_v308 (F := Ideal) (m ((c.tc : Thread nD τ).loc main_arg1))) :=
  (U46_untouched m c main_v308 (by decide)).trans (rat_v308_45 m c)
theorem rat_v310_46 : U46 m c (Proc.devRef .tc main_v310) = (ReadP.val_main_v310 (F := Ideal) (m ((c.tc : Thread nD τ).loc main_arg1))) :=
  (U46_untouched m c main_v310 (by decide)).trans (rat_v310_45 m c)
theorem rat_v283_46 : U46 m c (Proc.devRef .tc main_v283) = (ReadP.val_main_v283 (F := Ideal) (m ((c.tc : Thread nD τ).loc main_arg6))) :=
  (U46_untouched m c main_v283 (by decide)).trans (rat_v283_45 m c)
theorem rat_v285_46 : U46 m c (Proc.devRef .tc main_v285) = (ReadP.val_main_v285 (F := Ideal) (m ((c.tc : Thread nD τ).loc main_arg7))) :=
  (U46_untouched m c main_v285 (by decide)).trans (rat_v285_45 m c)
theorem rat_v271_46 : U46 m c (Proc.devRef .tc main_v271) = (ReadP.val_main_v271 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (U46_untouched m c main_v271 (by decide)).trans (rat_v271_45 m c)
theorem rat_arg8_46 : U46 m c (Proc.devRef .tc main_arg8) = (m ((c.tc : Thread nD τ).loc main_arg8)) :=
  (U46_untouched m c main_arg8 (by decide)).trans (rat_arg8_45 m c)
theorem rat_arg9_46 : U46 m c (Proc.devRef .tc main_arg9) = (m ((c.tc : Thread nD τ).loc main_arg9)) :=
  (U46_untouched m c main_arg9 (by decide)).trans (rat_arg9_45 m c)
theorem rat_arg10_46 : U46 m c (Proc.devRef .tc main_arg10) = (m ((c.tc : Thread nD τ).loc main_arg10)) :=
  (U46_untouched m c main_arg10 (by decide)).trans (rat_arg10_45 m c)
theorem rat_arg11_46 : U46 m c (Proc.devRef .tc main_arg11) = (m ((c.tc : Thread nD τ).loc main_arg11)) :=
  (U46_untouched m c main_arg11 (by decide)).trans (rat_arg11_45 m c)
theorem rat_v330_47 : U47 m c (Proc.devRef .tc main_v330) = (ReadP.val_main_v330 (F := Ideal) (m ((c.tc : Thread nD τ).loc main_arg0)) (m ((c.tc : Thread nD τ).loc main_arg1)) (m ((c.tc : Thread nD τ).loc main_arg4)) (m ((c.tc : Thread nD τ).loc main_arg5))) :=
  (rect_v330 (U46 m c) _ (rat_v329_46 m c)).trans (by unfold ReadP.val_main_v330; rfl)
theorem rat_arg0_47 : U47 m c (Proc.devRef .tc main_arg0) = (m ((c.tc : Thread nD τ).loc main_arg0)) :=
  (U47_untouched m c main_arg0 (by decide)).trans (rat_arg0_46 m c)
theorem rat_arg1_47 : U47 m c (Proc.devRef .tc main_arg1) = (m ((c.tc : Thread nD τ).loc main_arg1)) :=
  (U47_untouched m c main_arg1 (by decide)).trans (rat_arg1_46 m c)
theorem rat_arg4_47 : U47 m c (Proc.devRef .tc main_arg4) = (m ((c.tc : Thread nD τ).loc main_arg4)) :=
  (U47_untouched m c main_arg4 (by decide)).trans (rat_arg4_46 m c)
theorem rat_arg5_47 : U47 m c (Proc.devRef .tc main_arg5) = (m ((c.tc : Thread nD τ).loc main_arg5)) :=
  (U47_untouched m c main_arg5 (by decide)).trans (rat_arg5_46 m c)
theorem rat_arg6_47 : U47 m c (Proc.devRef .tc main_arg6) = (m ((c.tc : Thread nD τ).loc main_arg6)) :=
  (U47_untouched m c main_arg6 (by decide)).trans (rat_arg6_46 m c)
theorem rat_arg7_47 : U47 m c (Proc.devRef .tc main_arg7) = (m ((c.tc : Thread nD τ).loc main_arg7)) :=
  (U47_untouched m c main_arg7 (by decide)).trans (rat_arg7_46 m c)
theorem rat_arg2_47 : U47 m c (Proc.devRef .tc main_arg2) = (m ((c.tc : Thread nD τ).loc main_arg2)) :=
  (U47_untouched m c main_arg2 (by decide)).trans (rat_arg2_46 m c)
theorem rat_arg3_47 : U47 m c (Proc.devRef .tc main_arg3) = (m ((c.tc : Thread nD τ).loc main_arg3)) :=
  (U47_untouched m c main_arg3 (by decide)).trans (rat_arg3_46 m c)
theorem rat_v277_47 : U47 m c (Proc.devRef .tc main_v277) = (ReadP.val_main_v277 (F := Ideal) (m ((c.tc : Thread nD τ).loc main_arg1))) :=
  (U47_untouched m c main_v277 (by decide)).trans (rat_v277_46 m c)
theorem rat_v275_47 : U47 m c (Proc.devRef .tc main_v275) = (ReadP.val_main_v275 (F := Ideal) (m ((c.tc : Thread nD τ).loc main_arg1))) :=
  (U47_untouched m c main_v275 (by decide)).trans (rat_v275_46 m c)
theorem rat_v308_47 : U47 m c (Proc.devRef .tc main_v308) = (ReadP.val_main_v308 (F := Ideal) (m ((c.tc : Thread nD τ).loc main_arg1))) :=
  (U47_untouched m c main_v308 (by decide)).trans (rat_v308_46 m c)
theorem rat_v310_47 : U47 m c (Proc.devRef .tc main_v310) = (ReadP.val_main_v310 (F := Ideal) (m ((c.tc : Thread nD τ).loc main_arg1))) :=
  (U47_untouched m c main_v310 (by decide)).trans (rat_v310_46 m c)
theorem rat_v283_47 : U47 m c (Proc.devRef .tc main_v283) = (ReadP.val_main_v283 (F := Ideal) (m ((c.tc : Thread nD τ).loc main_arg6))) :=
  (U47_untouched m c main_v283 (by decide)).trans (rat_v283_46 m c)
theorem rat_v285_47 : U47 m c (Proc.devRef .tc main_v285) = (ReadP.val_main_v285 (F := Ideal) (m ((c.tc : Thread nD τ).loc main_arg7))) :=
  (U47_untouched m c main_v285 (by decide)).trans (rat_v285_46 m c)
theorem rat_v271_47 : U47 m c (Proc.devRef .tc main_v271) = (ReadP.val_main_v271 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (U47_untouched m c main_v271 (by decide)).trans (rat_v271_46 m c)
theorem rat_arg8_47 : U47 m c (Proc.devRef .tc main_arg8) = (m ((c.tc : Thread nD τ).loc main_arg8)) :=
  (U47_untouched m c main_arg8 (by decide)).trans (rat_arg8_46 m c)
theorem rat_arg9_47 : U47 m c (Proc.devRef .tc main_arg9) = (m ((c.tc : Thread nD τ).loc main_arg9)) :=
  (U47_untouched m c main_arg9 (by decide)).trans (rat_arg9_46 m c)
theorem rat_arg10_47 : U47 m c (Proc.devRef .tc main_arg10) = (m ((c.tc : Thread nD τ).loc main_arg10)) :=
  (U47_untouched m c main_arg10 (by decide)).trans (rat_arg10_46 m c)
theorem rat_arg11_47 : U47 m c (Proc.devRef .tc main_arg11) = (m ((c.tc : Thread nD τ).loc main_arg11)) :=
  (U47_untouched m c main_arg11 (by decide)).trans (rat_arg11_46 m c)
theorem rat_v331_48 : U48 m c (Proc.devRef .tc main_v331) = (ReadP.val_main_v331 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))) := by
  show after (Q47 (F := Ideal)) (U47 m c) (Proc.devRef .tc main_v331) = _
  after_results_simp
  rw [rat_v330_47 m c, rat_v283_47 m c]
  rfl
theorem rat_arg0_48 : U48 m c (Proc.devRef .tc main_arg0) = (m ((c.tc : Thread nD τ).loc main_arg0)) :=
  (U48_untouched m c main_arg0 (by decide)).trans (rat_arg0_47 m c)
theorem rat_arg1_48 : U48 m c (Proc.devRef .tc main_arg1) = (m ((c.tc : Thread nD τ).loc main_arg1)) :=
  (U48_untouched m c main_arg1 (by decide)).trans (rat_arg1_47 m c)
theorem rat_arg4_48 : U48 m c (Proc.devRef .tc main_arg4) = (m ((c.tc : Thread nD τ).loc main_arg4)) :=
  (U48_untouched m c main_arg4 (by decide)).trans (rat_arg4_47 m c)
theorem rat_arg5_48 : U48 m c (Proc.devRef .tc main_arg5) = (m ((c.tc : Thread nD τ).loc main_arg5)) :=
  (U48_untouched m c main_arg5 (by decide)).trans (rat_arg5_47 m c)
theorem rat_arg6_48 : U48 m c (Proc.devRef .tc main_arg6) = (m ((c.tc : Thread nD τ).loc main_arg6)) :=
  (U48_untouched m c main_arg6 (by decide)).trans (rat_arg6_47 m c)
theorem rat_arg7_48 : U48 m c (Proc.devRef .tc main_arg7) = (m ((c.tc : Thread nD τ).loc main_arg7)) :=
  (U48_untouched m c main_arg7 (by decide)).trans (rat_arg7_47 m c)
theorem rat_arg2_48 : U48 m c (Proc.devRef .tc main_arg2) = (m ((c.tc : Thread nD τ).loc main_arg2)) :=
  (U48_untouched m c main_arg2 (by decide)).trans (rat_arg2_47 m c)
theorem rat_arg3_48 : U48 m c (Proc.devRef .tc main_arg3) = (m ((c.tc : Thread nD τ).loc main_arg3)) :=
  (U48_untouched m c main_arg3 (by decide)).trans (rat_arg3_47 m c)
theorem rat_v277_48 : U48 m c (Proc.devRef .tc main_v277) = (ReadP.val_main_v277 (F := Ideal) (m ((c.tc : Thread nD τ).loc main_arg1))) :=
  (U48_untouched m c main_v277 (by decide)).trans (rat_v277_47 m c)
theorem rat_v275_48 : U48 m c (Proc.devRef .tc main_v275) = (ReadP.val_main_v275 (F := Ideal) (m ((c.tc : Thread nD τ).loc main_arg1))) :=
  (U48_untouched m c main_v275 (by decide)).trans (rat_v275_47 m c)
theorem rat_v308_48 : U48 m c (Proc.devRef .tc main_v308) = (ReadP.val_main_v308 (F := Ideal) (m ((c.tc : Thread nD τ).loc main_arg1))) :=
  (U48_untouched m c main_v308 (by decide)).trans (rat_v308_47 m c)
theorem rat_v310_48 : U48 m c (Proc.devRef .tc main_v310) = (ReadP.val_main_v310 (F := Ideal) (m ((c.tc : Thread nD τ).loc main_arg1))) :=
  (U48_untouched m c main_v310 (by decide)).trans (rat_v310_47 m c)
theorem rat_v285_48 : U48 m c (Proc.devRef .tc main_v285) = (ReadP.val_main_v285 (F := Ideal) (m ((c.tc : Thread nD τ).loc main_arg7))) :=
  (U48_untouched m c main_v285 (by decide)).trans (rat_v285_47 m c)
theorem rat_v271_48 : U48 m c (Proc.devRef .tc main_v271) = (ReadP.val_main_v271 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (U48_untouched m c main_v271 (by decide)).trans (rat_v271_47 m c)
theorem rat_arg8_48 : U48 m c (Proc.devRef .tc main_arg8) = (m ((c.tc : Thread nD τ).loc main_arg8)) :=
  (U48_untouched m c main_arg8 (by decide)).trans (rat_arg8_47 m c)
theorem rat_arg9_48 : U48 m c (Proc.devRef .tc main_arg9) = (m ((c.tc : Thread nD τ).loc main_arg9)) :=
  (U48_untouched m c main_arg9 (by decide)).trans (rat_arg9_47 m c)
theorem rat_arg10_48 : U48 m c (Proc.devRef .tc main_arg10) = (m ((c.tc : Thread nD τ).loc main_arg10)) :=
  (U48_untouched m c main_arg10 (by decide)).trans (rat_arg10_47 m c)
theorem rat_arg11_48 : U48 m c (Proc.devRef .tc main_arg11) = (m ((c.tc : Thread nD τ).loc main_arg11)) :=
  (U48_untouched m c main_arg11 (by decide)).trans (rat_arg11_47 m c)
theorem rat_v343_49 : U49 m c (Proc.devRef .tc main_v343) = (ReadP.val_main_v343 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))) := by
  show after (Q48 (F := Ideal)) (U48 m c) (Proc.devRef .tc main_v343) = _
  after_results_simp
  rw [rat_v277_48 m c, rat_v331_48 m c, rat_v275_48 m c, rat_v308_48 m c]
  rfl
theorem rat_v344_49 : U49 m c (Proc.devRef .tc main_v344) = (ReadP.val_main_v344 (F := Ideal) (m ((c.tc : Thread nD τ).loc main_arg1))) := by
  show after (Q48 (F := Ideal)) (U48 m c) (Proc.devRef .tc main_v344) = _
  after_results_simp
  rw [rat_v310_48 m c]
  rfl
theorem rat_arg0_49 : U49 m c (Proc.devRef .tc main_arg0) = (m ((c.tc : Thread nD τ).loc main_arg0)) :=
  (U49_untouched m c main_arg0 (by decide)).trans (rat_arg0_48 m c)
theorem rat_arg1_49 : U49 m c (Proc.devRef .tc main_arg1) = (m ((c.tc : Thread nD τ).loc main_arg1)) :=
  (U49_untouched m c main_arg1 (by decide)).trans (rat_arg1_48 m c)
theorem rat_arg4_49 : U49 m c (Proc.devRef .tc main_arg4) = (m ((c.tc : Thread nD τ).loc main_arg4)) :=
  (U49_untouched m c main_arg4 (by decide)).trans (rat_arg4_48 m c)
theorem rat_arg5_49 : U49 m c (Proc.devRef .tc main_arg5) = (m ((c.tc : Thread nD τ).loc main_arg5)) :=
  (U49_untouched m c main_arg5 (by decide)).trans (rat_arg5_48 m c)
theorem rat_arg6_49 : U49 m c (Proc.devRef .tc main_arg6) = (m ((c.tc : Thread nD τ).loc main_arg6)) :=
  (U49_untouched m c main_arg6 (by decide)).trans (rat_arg6_48 m c)
theorem rat_arg7_49 : U49 m c (Proc.devRef .tc main_arg7) = (m ((c.tc : Thread nD τ).loc main_arg7)) :=
  (U49_untouched m c main_arg7 (by decide)).trans (rat_arg7_48 m c)
theorem rat_arg2_49 : U49 m c (Proc.devRef .tc main_arg2) = (m ((c.tc : Thread nD τ).loc main_arg2)) :=
  (U49_untouched m c main_arg2 (by decide)).trans (rat_arg2_48 m c)
theorem rat_arg3_49 : U49 m c (Proc.devRef .tc main_arg3) = (m ((c.tc : Thread nD τ).loc main_arg3)) :=
  (U49_untouched m c main_arg3 (by decide)).trans (rat_arg3_48 m c)
theorem rat_v331_49 : U49 m c (Proc.devRef .tc main_v331) = (ReadP.val_main_v331 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))) :=
  (U49_untouched m c main_v331 (by decide)).trans (rat_v331_48 m c)
theorem rat_v285_49 : U49 m c (Proc.devRef .tc main_v285) = (ReadP.val_main_v285 (F := Ideal) (m ((c.tc : Thread nD τ).loc main_arg7))) :=
  (U49_untouched m c main_v285 (by decide)).trans (rat_v285_48 m c)
theorem rat_v271_49 : U49 m c (Proc.devRef .tc main_v271) = (ReadP.val_main_v271 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (U49_untouched m c main_v271 (by decide)).trans (rat_v271_48 m c)
theorem rat_arg8_49 : U49 m c (Proc.devRef .tc main_arg8) = (m ((c.tc : Thread nD τ).loc main_arg8)) :=
  (U49_untouched m c main_arg8 (by decide)).trans (rat_arg8_48 m c)
theorem rat_arg9_49 : U49 m c (Proc.devRef .tc main_arg9) = (m ((c.tc : Thread nD τ).loc main_arg9)) :=
  (U49_untouched m c main_arg9 (by decide)).trans (rat_arg9_48 m c)
theorem rat_arg10_49 : U49 m c (Proc.devRef .tc main_arg10) = (m ((c.tc : Thread nD τ).loc main_arg10)) :=
  (U49_untouched m c main_arg10 (by decide)).trans (rat_arg10_48 m c)
theorem rat_arg11_49 : U49 m c (Proc.devRef .tc main_arg11) = (m ((c.tc : Thread nD τ).loc main_arg11)) :=
  (U49_untouched m c main_arg11 (by decide)).trans (rat_arg11_48 m c)
theorem rat_v349_50 : U50 m c (Proc.devRef .tc main_v349) = (ReadP.val_main_v349 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) := by
  show after (Q49 (F := Ideal)) (U49 m c) (Proc.devRef .tc main_v349) = _
  after_results_simp
  rw [rat_v343_49 m c, rat_v331_49 m c, rat_v344_49 m c, rat_v285_49 m c]
  rfl
theorem rat_v351_50 : U50 m c (Proc.devRef .tc main_v351) = (ReadP.val_main_v351 (F := Ideal) (m ((c.tc : Thread nD τ).loc main_arg2))) := by
  show after (Q49 (F := Ideal)) (U49 m c) (Proc.devRef .tc main_v351) = _
  after_results_simp
  rw [rat_arg2_49 m c]
  rfl
theorem rat_v358_50 : U50 m c (Proc.devRef .tc main_v358) = (ReadP.val_main_v358 (F := Ideal) (m ((c.tc : Thread nD τ).loc main_arg2))) := by
  show after (Q49 (F := Ideal)) (U49 m c) (Proc.devRef .tc main_v358) = _
  after_results_simp
  rw [rat_arg2_49 m c]
  rfl
theorem rat_arg0_50 : U50 m c (Proc.devRef .tc main_arg0) = (m ((c.tc : Thread nD τ).loc main_arg0)) :=
  (U50_untouched m c main_arg0 (by decide)).trans (rat_arg0_49 m c)
theorem rat_arg1_50 : U50 m c (Proc.devRef .tc main_arg1) = (m ((c.tc : Thread nD τ).loc main_arg1)) :=
  (U50_untouched m c main_arg1 (by decide)).trans (rat_arg1_49 m c)
theorem rat_arg4_50 : U50 m c (Proc.devRef .tc main_arg4) = (m ((c.tc : Thread nD τ).loc main_arg4)) :=
  (U50_untouched m c main_arg4 (by decide)).trans (rat_arg4_49 m c)
theorem rat_arg5_50 : U50 m c (Proc.devRef .tc main_arg5) = (m ((c.tc : Thread nD τ).loc main_arg5)) :=
  (U50_untouched m c main_arg5 (by decide)).trans (rat_arg5_49 m c)
theorem rat_arg6_50 : U50 m c (Proc.devRef .tc main_arg6) = (m ((c.tc : Thread nD τ).loc main_arg6)) :=
  (U50_untouched m c main_arg6 (by decide)).trans (rat_arg6_49 m c)
theorem rat_arg7_50 : U50 m c (Proc.devRef .tc main_arg7) = (m ((c.tc : Thread nD τ).loc main_arg7)) :=
  (U50_untouched m c main_arg7 (by decide)).trans (rat_arg7_49 m c)
theorem rat_arg2_50 : U50 m c (Proc.devRef .tc main_arg2) = (m ((c.tc : Thread nD τ).loc main_arg2)) :=
  (U50_untouched m c main_arg2 (by decide)).trans (rat_arg2_49 m c)
theorem rat_arg3_50 : U50 m c (Proc.devRef .tc main_arg3) = (m ((c.tc : Thread nD τ).loc main_arg3)) :=
  (U50_untouched m c main_arg3 (by decide)).trans (rat_arg3_49 m c)
theorem rat_v271_50 : U50 m c (Proc.devRef .tc main_v271) = (ReadP.val_main_v271 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (U50_untouched m c main_v271 (by decide)).trans (rat_v271_49 m c)
theorem rat_arg8_50 : U50 m c (Proc.devRef .tc main_arg8) = (m ((c.tc : Thread nD τ).loc main_arg8)) :=
  (U50_untouched m c main_arg8 (by decide)).trans (rat_arg8_49 m c)
theorem rat_arg9_50 : U50 m c (Proc.devRef .tc main_arg9) = (m ((c.tc : Thread nD τ).loc main_arg9)) :=
  (U50_untouched m c main_arg9 (by decide)).trans (rat_arg9_49 m c)
theorem rat_arg10_50 : U50 m c (Proc.devRef .tc main_arg10) = (m ((c.tc : Thread nD τ).loc main_arg10)) :=
  (U50_untouched m c main_arg10 (by decide)).trans (rat_arg10_49 m c)
theorem rat_arg11_50 : U50 m c (Proc.devRef .tc main_arg11) = (m ((c.tc : Thread nD τ).loc main_arg11)) :=
  (U50_untouched m c main_arg11 (by decide)).trans (rat_arg11_49 m c)
theorem rat_v359_51 : U51 m c (Proc.devRef .tc main_v359) = (ReadP.val_main_v359 (F := Ideal) (m ((c.tc : Thread nD τ).loc main_arg2))) := by
  show after (Q50 (F := Ideal)) (U50 m c) (Proc.devRef .tc main_v359) = _
  after_results_simp
  rw [rat_v358_50 m c]
  rfl
theorem rat_arg0_51 : U51 m c (Proc.devRef .tc main_arg0) = (m ((c.tc : Thread nD τ).loc main_arg0)) :=
  (U51_untouched m c main_arg0 (by decide)).trans (rat_arg0_50 m c)
theorem rat_arg1_51 : U51 m c (Proc.devRef .tc main_arg1) = (m ((c.tc : Thread nD τ).loc main_arg1)) :=
  (U51_untouched m c main_arg1 (by decide)).trans (rat_arg1_50 m c)
theorem rat_arg4_51 : U51 m c (Proc.devRef .tc main_arg4) = (m ((c.tc : Thread nD τ).loc main_arg4)) :=
  (U51_untouched m c main_arg4 (by decide)).trans (rat_arg4_50 m c)
theorem rat_arg5_51 : U51 m c (Proc.devRef .tc main_arg5) = (m ((c.tc : Thread nD τ).loc main_arg5)) :=
  (U51_untouched m c main_arg5 (by decide)).trans (rat_arg5_50 m c)
theorem rat_arg6_51 : U51 m c (Proc.devRef .tc main_arg6) = (m ((c.tc : Thread nD τ).loc main_arg6)) :=
  (U51_untouched m c main_arg6 (by decide)).trans (rat_arg6_50 m c)
theorem rat_arg7_51 : U51 m c (Proc.devRef .tc main_arg7) = (m ((c.tc : Thread nD τ).loc main_arg7)) :=
  (U51_untouched m c main_arg7 (by decide)).trans (rat_arg7_50 m c)
theorem rat_arg2_51 : U51 m c (Proc.devRef .tc main_arg2) = (m ((c.tc : Thread nD τ).loc main_arg2)) :=
  (U51_untouched m c main_arg2 (by decide)).trans (rat_arg2_50 m c)
theorem rat_arg3_51 : U51 m c (Proc.devRef .tc main_arg3) = (m ((c.tc : Thread nD τ).loc main_arg3)) :=
  (U51_untouched m c main_arg3 (by decide)).trans (rat_arg3_50 m c)
theorem rat_v271_51 : U51 m c (Proc.devRef .tc main_v271) = (ReadP.val_main_v271 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (U51_untouched m c main_v271 (by decide)).trans (rat_v271_50 m c)
theorem rat_v351_51 : U51 m c (Proc.devRef .tc main_v351) = (ReadP.val_main_v351 (F := Ideal) (m ((c.tc : Thread nD τ).loc main_arg2))) :=
  (U51_untouched m c main_v351 (by decide)).trans (rat_v351_50 m c)
theorem rat_v349_51 : U51 m c (Proc.devRef .tc main_v349) = (ReadP.val_main_v349 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) :=
  (U51_untouched m c main_v349 (by decide)).trans (rat_v349_50 m c)
theorem rat_arg8_51 : U51 m c (Proc.devRef .tc main_arg8) = (m ((c.tc : Thread nD τ).loc main_arg8)) :=
  (U51_untouched m c main_arg8 (by decide)).trans (rat_arg8_50 m c)
theorem rat_arg9_51 : U51 m c (Proc.devRef .tc main_arg9) = (m ((c.tc : Thread nD τ).loc main_arg9)) :=
  (U51_untouched m c main_arg9 (by decide)).trans (rat_arg9_50 m c)
theorem rat_arg10_51 : U51 m c (Proc.devRef .tc main_arg10) = (m ((c.tc : Thread nD τ).loc main_arg10)) :=
  (U51_untouched m c main_arg10 (by decide)).trans (rat_arg10_50 m c)
theorem rat_arg11_51 : U51 m c (Proc.devRef .tc main_arg11) = (m ((c.tc : Thread nD τ).loc main_arg11)) :=
  (U51_untouched m c main_arg11 (by decide)).trans (rat_arg11_50 m c)

end Cert.RefRun

end
-- ==== Proof.RefRun7.lean ====
import proofs.«135273_j69758858821831_1_alg».proof.Proof.RefRun6
import Idealize.ShloMosaic.Lib.StableHlo.Run

/-!
# Part 7 of the reference: operations 428 … 451

Each buffer a chunk defines and a later chunk reads holds its stage; each live buffer a chunk does not write keeps what it
held.
-/

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

theorem rat_v368_52 : U52 m c (Proc.devRef .tc main_v368) = (ReadP.val_main_v368 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  show after (Q51 (F := Ideal)) (U51 m c) (Proc.devRef .tc main_v368) = _
  after_results_simp
  rw [rat_v349_51 m c, rat_v351_51 m c, rat_v271_51 m c, rat_v359_51 m c, rat_arg3_51 m c]
  rfl
theorem rat_arg0_52 : U52 m c (Proc.devRef .tc main_arg0) = (m ((c.tc : Thread nD τ).loc main_arg0)) :=
  (U52_untouched m c main_arg0 (by decide)).trans (rat_arg0_51 m c)
theorem rat_arg1_52 : U52 m c (Proc.devRef .tc main_arg1) = (m ((c.tc : Thread nD τ).loc main_arg1)) :=
  (U52_untouched m c main_arg1 (by decide)).trans (rat_arg1_51 m c)
theorem rat_arg4_52 : U52 m c (Proc.devRef .tc main_arg4) = (m ((c.tc : Thread nD τ).loc main_arg4)) :=
  (U52_untouched m c main_arg4 (by decide)).trans (rat_arg4_51 m c)
theorem rat_arg5_52 : U52 m c (Proc.devRef .tc main_arg5) = (m ((c.tc : Thread nD τ).loc main_arg5)) :=
  (U52_untouched m c main_arg5 (by decide)).trans (rat_arg5_51 m c)
theorem rat_arg6_52 : U52 m c (Proc.devRef .tc main_arg6) = (m ((c.tc : Thread nD τ).loc main_arg6)) :=
  (U52_untouched m c main_arg6 (by decide)).trans (rat_arg6_51 m c)
theorem rat_arg7_52 : U52 m c (Proc.devRef .tc main_arg7) = (m ((c.tc : Thread nD τ).loc main_arg7)) :=
  (U52_untouched m c main_arg7 (by decide)).trans (rat_arg7_51 m c)
theorem rat_arg2_52 : U52 m c (Proc.devRef .tc main_arg2) = (m ((c.tc : Thread nD τ).loc main_arg2)) :=
  (U52_untouched m c main_arg2 (by decide)).trans (rat_arg2_51 m c)
theorem rat_arg3_52 : U52 m c (Proc.devRef .tc main_arg3) = (m ((c.tc : Thread nD τ).loc main_arg3)) :=
  (U52_untouched m c main_arg3 (by decide)).trans (rat_arg3_51 m c)
theorem rat_arg8_52 : U52 m c (Proc.devRef .tc main_arg8) = (m ((c.tc : Thread nD τ).loc main_arg8)) :=
  (U52_untouched m c main_arg8 (by decide)).trans (rat_arg8_51 m c)
theorem rat_arg9_52 : U52 m c (Proc.devRef .tc main_arg9) = (m ((c.tc : Thread nD τ).loc main_arg9)) :=
  (U52_untouched m c main_arg9 (by decide)).trans (rat_arg9_51 m c)
theorem rat_arg10_52 : U52 m c (Proc.devRef .tc main_arg10) = (m ((c.tc : Thread nD τ).loc main_arg10)) :=
  (U52_untouched m c main_arg10 (by decide)).trans (rat_arg10_51 m c)
theorem rat_arg11_52 : U52 m c (Proc.devRef .tc main_arg11) = (m ((c.tc : Thread nD τ).loc main_arg11)) :=
  (U52_untouched m c main_arg11 (by decide)).trans (rat_arg11_51 m c)
theorem rat_v369_53 : U53 m c (Proc.devRef .tc main_v369) = (ReadP.val_main_v369 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  show after (Q52 (F := Ideal)) (U52 m c) (Proc.devRef .tc main_v369) = _
  after_results_simp
  rw [rat_v368_52 m c, rat_arg8_52 m c]
  rfl
theorem rat_arg0_53 : U53 m c (Proc.devRef .tc main_arg0) = (m ((c.tc : Thread nD τ).loc main_arg0)) :=
  (U53_untouched m c main_arg0 (by decide)).trans (rat_arg0_52 m c)
theorem rat_arg1_53 : U53 m c (Proc.devRef .tc main_arg1) = (m ((c.tc : Thread nD τ).loc main_arg1)) :=
  (U53_untouched m c main_arg1 (by decide)).trans (rat_arg1_52 m c)
theorem rat_arg4_53 : U53 m c (Proc.devRef .tc main_arg4) = (m ((c.tc : Thread nD τ).loc main_arg4)) :=
  (U53_untouched m c main_arg4 (by decide)).trans (rat_arg4_52 m c)
theorem rat_arg5_53 : U53 m c (Proc.devRef .tc main_arg5) = (m ((c.tc : Thread nD τ).loc main_arg5)) :=
  (U53_untouched m c main_arg5 (by decide)).trans (rat_arg5_52 m c)
theorem rat_arg6_53 : U53 m c (Proc.devRef .tc main_arg6) = (m ((c.tc : Thread nD τ).loc main_arg6)) :=
  (U53_untouched m c main_arg6 (by decide)).trans (rat_arg6_52 m c)
theorem rat_arg7_53 : U53 m c (Proc.devRef .tc main_arg7) = (m ((c.tc : Thread nD τ).loc main_arg7)) :=
  (U53_untouched m c main_arg7 (by decide)).trans (rat_arg7_52 m c)
theorem rat_arg2_53 : U53 m c (Proc.devRef .tc main_arg2) = (m ((c.tc : Thread nD τ).loc main_arg2)) :=
  (U53_untouched m c main_arg2 (by decide)).trans (rat_arg2_52 m c)
theorem rat_arg3_53 : U53 m c (Proc.devRef .tc main_arg3) = (m ((c.tc : Thread nD τ).loc main_arg3)) :=
  (U53_untouched m c main_arg3 (by decide)).trans (rat_arg3_52 m c)
theorem rat_arg8_53 : U53 m c (Proc.devRef .tc main_arg8) = (m ((c.tc : Thread nD τ).loc main_arg8)) :=
  (U53_untouched m c main_arg8 (by decide)).trans (rat_arg8_52 m c)
theorem rat_arg9_53 : U53 m c (Proc.devRef .tc main_arg9) = (m ((c.tc : Thread nD τ).loc main_arg9)) :=
  (U53_untouched m c main_arg9 (by decide)).trans (rat_arg9_52 m c)
theorem rat_arg10_53 : U53 m c (Proc.devRef .tc main_arg10) = (m ((c.tc : Thread nD τ).loc main_arg10)) :=
  (U53_untouched m c main_arg10 (by decide)).trans (rat_arg10_52 m c)
theorem rat_arg11_53 : U53 m c (Proc.devRef .tc main_arg11) = (m ((c.tc : Thread nD τ).loc main_arg11)) :=
  (U53_untouched m c main_arg11 (by decide)).trans (rat_arg11_52 m c)
theorem rat_v372_54 : U54 m c (Proc.devRef .tc main_v372) = (ReadP.val_main_v372 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := by
  show after (Q53 (F := Ideal)) (U53 m c) (Proc.devRef .tc main_v372) = _
  after_results_simp
  rw [rat_v369_53 m c, rat_arg9_53 m c]
  rfl
theorem rat_arg0_54 : U54 m c (Proc.devRef .tc main_arg0) = (m ((c.tc : Thread nD τ).loc main_arg0)) :=
  (U54_untouched m c main_arg0 (by decide)).trans (rat_arg0_53 m c)
theorem rat_arg1_54 : U54 m c (Proc.devRef .tc main_arg1) = (m ((c.tc : Thread nD τ).loc main_arg1)) :=
  (U54_untouched m c main_arg1 (by decide)).trans (rat_arg1_53 m c)
theorem rat_arg4_54 : U54 m c (Proc.devRef .tc main_arg4) = (m ((c.tc : Thread nD τ).loc main_arg4)) :=
  (U54_untouched m c main_arg4 (by decide)).trans (rat_arg4_53 m c)
theorem rat_arg5_54 : U54 m c (Proc.devRef .tc main_arg5) = (m ((c.tc : Thread nD τ).loc main_arg5)) :=
  (U54_untouched m c main_arg5 (by decide)).trans (rat_arg5_53 m c)
theorem rat_arg6_54 : U54 m c (Proc.devRef .tc main_arg6) = (m ((c.tc : Thread nD τ).loc main_arg6)) :=
  (U54_untouched m c main_arg6 (by decide)).trans (rat_arg6_53 m c)
theorem rat_arg7_54 : U54 m c (Proc.devRef .tc main_arg7) = (m ((c.tc : Thread nD τ).loc main_arg7)) :=
  (U54_untouched m c main_arg7 (by decide)).trans (rat_arg7_53 m c)
theorem rat_arg2_54 : U54 m c (Proc.devRef .tc main_arg2) = (m ((c.tc : Thread nD τ).loc main_arg2)) :=
  (U54_untouched m c main_arg2 (by decide)).trans (rat_arg2_53 m c)
theorem rat_arg3_54 : U54 m c (Proc.devRef .tc main_arg3) = (m ((c.tc : Thread nD τ).loc main_arg3)) :=
  (U54_untouched m c main_arg3 (by decide)).trans (rat_arg3_53 m c)
theorem rat_arg8_54 : U54 m c (Proc.devRef .tc main_arg8) = (m ((c.tc : Thread nD τ).loc main_arg8)) :=
  (U54_untouched m c main_arg8 (by decide)).trans (rat_arg8_53 m c)
theorem rat_arg9_54 : U54 m c (Proc.devRef .tc main_arg9) = (m ((c.tc : Thread nD τ).loc main_arg9)) :=
  (U54_untouched m c main_arg9 (by decide)).trans (rat_arg9_53 m c)
theorem rat_arg10_54 : U54 m c (Proc.devRef .tc main_arg10) = (m ((c.tc : Thread nD τ).loc main_arg10)) :=
  (U54_untouched m c main_arg10 (by decide)).trans (rat_arg10_53 m c)
theorem rat_arg11_54 : U54 m c (Proc.devRef .tc main_arg11) = (m ((c.tc : Thread nD τ).loc main_arg11)) :=
  (U54_untouched m c main_arg11 (by decide)).trans (rat_arg11_53 m c)
theorem rat_v373_55 : U55 m c (Proc.devRef .tc main_v373) = (ReadP.val_main_v373 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) :=
  (rect_v373 (U54 m c) _ (rat_v372_54 m c)).trans (by unfold ReadP.val_main_v373; rfl)
theorem rat_arg0_55 : U55 m c (Proc.devRef .tc main_arg0) = (m ((c.tc : Thread nD τ).loc main_arg0)) :=
  (U55_untouched m c main_arg0 (by decide)).trans (rat_arg0_54 m c)
theorem rat_arg1_55 : U55 m c (Proc.devRef .tc main_arg1) = (m ((c.tc : Thread nD τ).loc main_arg1)) :=
  (U55_untouched m c main_arg1 (by decide)).trans (rat_arg1_54 m c)
theorem rat_arg4_55 : U55 m c (Proc.devRef .tc main_arg4) = (m ((c.tc : Thread nD τ).loc main_arg4)) :=
  (U55_untouched m c main_arg4 (by decide)).trans (rat_arg4_54 m c)
theorem rat_arg5_55 : U55 m c (Proc.devRef .tc main_arg5) = (m ((c.tc : Thread nD τ).loc main_arg5)) :=
  (U55_untouched m c main_arg5 (by decide)).trans (rat_arg5_54 m c)
theorem rat_arg6_55 : U55 m c (Proc.devRef .tc main_arg6) = (m ((c.tc : Thread nD τ).loc main_arg6)) :=
  (U55_untouched m c main_arg6 (by decide)).trans (rat_arg6_54 m c)
theorem rat_arg7_55 : U55 m c (Proc.devRef .tc main_arg7) = (m ((c.tc : Thread nD τ).loc main_arg7)) :=
  (U55_untouched m c main_arg7 (by decide)).trans (rat_arg7_54 m c)
theorem rat_arg2_55 : U55 m c (Proc.devRef .tc main_arg2) = (m ((c.tc : Thread nD τ).loc main_arg2)) :=
  (U55_untouched m c main_arg2 (by decide)).trans (rat_arg2_54 m c)
theorem rat_arg3_55 : U55 m c (Proc.devRef .tc main_arg3) = (m ((c.tc : Thread nD τ).loc main_arg3)) :=
  (U55_untouched m c main_arg3 (by decide)).trans (rat_arg3_54 m c)
theorem rat_arg8_55 : U55 m c (Proc.devRef .tc main_arg8) = (m ((c.tc : Thread nD τ).loc main_arg8)) :=
  (U55_untouched m c main_arg8 (by decide)).trans (rat_arg8_54 m c)
theorem rat_arg9_55 : U55 m c (Proc.devRef .tc main_arg9) = (m ((c.tc : Thread nD τ).loc main_arg9)) :=
  (U55_untouched m c main_arg9 (by decide)).trans (rat_arg9_54 m c)
theorem rat_arg10_55 : U55 m c (Proc.devRef .tc main_arg10) = (m ((c.tc : Thread nD τ).loc main_arg10)) :=
  (U55_untouched m c main_arg10 (by decide)).trans (rat_arg10_54 m c)
theorem rat_arg11_55 : U55 m c (Proc.devRef .tc main_arg11) = (m ((c.tc : Thread nD τ).loc main_arg11)) :=
  (U55_untouched m c main_arg11 (by decide)).trans (rat_arg11_54 m c)
theorem rat_v374_56 : U56 m c (Proc.devRef .tc main_v374) = (ReadP.val_main_v374 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := by
  show after (Q55 (F := Ideal)) (U55 m c) (Proc.devRef .tc main_v374) = _
  after_results_simp
  rw [rat_v373_55 m c, rat_arg10_55 m c]
  rfl
theorem rat_arg0_56 : U56 m c (Proc.devRef .tc main_arg0) = (m ((c.tc : Thread nD τ).loc main_arg0)) :=
  (U56_untouched m c main_arg0 (by decide)).trans (rat_arg0_55 m c)
theorem rat_arg1_56 : U56 m c (Proc.devRef .tc main_arg1) = (m ((c.tc : Thread nD τ).loc main_arg1)) :=
  (U56_untouched m c main_arg1 (by decide)).trans (rat_arg1_55 m c)
theorem rat_arg4_56 : U56 m c (Proc.devRef .tc main_arg4) = (m ((c.tc : Thread nD τ).loc main_arg4)) :=
  (U56_untouched m c main_arg4 (by decide)).trans (rat_arg4_55 m c)
theorem rat_arg5_56 : U56 m c (Proc.devRef .tc main_arg5) = (m ((c.tc : Thread nD τ).loc main_arg5)) :=
  (U56_untouched m c main_arg5 (by decide)).trans (rat_arg5_55 m c)
theorem rat_arg6_56 : U56 m c (Proc.devRef .tc main_arg6) = (m ((c.tc : Thread nD τ).loc main_arg6)) :=
  (U56_untouched m c main_arg6 (by decide)).trans (rat_arg6_55 m c)
theorem rat_arg7_56 : U56 m c (Proc.devRef .tc main_arg7) = (m ((c.tc : Thread nD τ).loc main_arg7)) :=
  (U56_untouched m c main_arg7 (by decide)).trans (rat_arg7_55 m c)
theorem rat_arg2_56 : U56 m c (Proc.devRef .tc main_arg2) = (m ((c.tc : Thread nD τ).loc main_arg2)) :=
  (U56_untouched m c main_arg2 (by decide)).trans (rat_arg2_55 m c)
theorem rat_arg3_56 : U56 m c (Proc.devRef .tc main_arg3) = (m ((c.tc : Thread nD τ).loc main_arg3)) :=
  (U56_untouched m c main_arg3 (by decide)).trans (rat_arg3_55 m c)
theorem rat_arg8_56 : U56 m c (Proc.devRef .tc main_arg8) = (m ((c.tc : Thread nD τ).loc main_arg8)) :=
  (U56_untouched m c main_arg8 (by decide)).trans (rat_arg8_55 m c)
theorem rat_arg9_56 : U56 m c (Proc.devRef .tc main_arg9) = (m ((c.tc : Thread nD τ).loc main_arg9)) :=
  (U56_untouched m c main_arg9 (by decide)).trans (rat_arg9_55 m c)
theorem rat_arg10_56 : U56 m c (Proc.devRef .tc main_arg10) = (m ((c.tc : Thread nD τ).loc main_arg10)) :=
  (U56_untouched m c main_arg10 (by decide)).trans (rat_arg10_55 m c)
theorem rat_arg11_56 : U56 m c (Proc.devRef .tc main_arg11) = (m ((c.tc : Thread nD τ).loc main_arg11)) :=
  (U56_untouched m c main_arg11 (by decide)).trans (rat_arg11_55 m c)
theorem rat_v377_57 : U57 m c (Proc.devRef .tc main_v377) = (ReadP.val_main_v377 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) := by
  show after (Q56 (F := Ideal)) (U56 m c) (Proc.devRef .tc main_v377) = _
  after_results_simp
  rw [rat_v374_56 m c, rat_arg11_56 m c]
  rfl
theorem rat_arg0_57 : U57 m c (Proc.devRef .tc main_arg0) = (m ((c.tc : Thread nD τ).loc main_arg0)) :=
  (U57_untouched m c main_arg0 (by decide)).trans (rat_arg0_56 m c)
theorem rat_arg1_57 : U57 m c (Proc.devRef .tc main_arg1) = (m ((c.tc : Thread nD τ).loc main_arg1)) :=
  (U57_untouched m c main_arg1 (by decide)).trans (rat_arg1_56 m c)
theorem rat_arg4_57 : U57 m c (Proc.devRef .tc main_arg4) = (m ((c.tc : Thread nD τ).loc main_arg4)) :=
  (U57_untouched m c main_arg4 (by decide)).trans (rat_arg4_56 m c)
theorem rat_arg5_57 : U57 m c (Proc.devRef .tc main_arg5) = (m ((c.tc : Thread nD τ).loc main_arg5)) :=
  (U57_untouched m c main_arg5 (by decide)).trans (rat_arg5_56 m c)
theorem rat_arg6_57 : U57 m c (Proc.devRef .tc main_arg6) = (m ((c.tc : Thread nD τ).loc main_arg6)) :=
  (U57_untouched m c main_arg6 (by decide)).trans (rat_arg6_56 m c)
theorem rat_arg7_57 : U57 m c (Proc.devRef .tc main_arg7) = (m ((c.tc : Thread nD τ).loc main_arg7)) :=
  (U57_untouched m c main_arg7 (by decide)).trans (rat_arg7_56 m c)
theorem rat_arg2_57 : U57 m c (Proc.devRef .tc main_arg2) = (m ((c.tc : Thread nD τ).loc main_arg2)) :=
  (U57_untouched m c main_arg2 (by decide)).trans (rat_arg2_56 m c)
theorem rat_arg3_57 : U57 m c (Proc.devRef .tc main_arg3) = (m ((c.tc : Thread nD τ).loc main_arg3)) :=
  (U57_untouched m c main_arg3 (by decide)).trans (rat_arg3_56 m c)
theorem rat_arg8_57 : U57 m c (Proc.devRef .tc main_arg8) = (m ((c.tc : Thread nD τ).loc main_arg8)) :=
  (U57_untouched m c main_arg8 (by decide)).trans (rat_arg8_56 m c)
theorem rat_arg9_57 : U57 m c (Proc.devRef .tc main_arg9) = (m ((c.tc : Thread nD τ).loc main_arg9)) :=
  (U57_untouched m c main_arg9 (by decide)).trans (rat_arg9_56 m c)
theorem rat_arg10_57 : U57 m c (Proc.devRef .tc main_arg10) = (m ((c.tc : Thread nD τ).loc main_arg10)) :=
  (U57_untouched m c main_arg10 (by decide)).trans (rat_arg10_56 m c)
theorem rat_arg11_57 : U57 m c (Proc.devRef .tc main_arg11) = (m ((c.tc : Thread nD τ).loc main_arg11)) :=
  (U57_untouched m c main_arg11 (by decide)).trans (rat_arg11_56 m c)
theorem rat_v378_58 : U58 m c (Proc.devRef .tc main_v378) = (ReadP.val_main_v378 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) :=
  (rect_v378 (U57 m c) _ (rat_v377_57 m c)).trans (by unfold ReadP.val_main_v378; rfl)
theorem rat_arg0_58 : U58 m c (Proc.devRef .tc main_arg0) = (m ((c.tc : Thread nD τ).loc main_arg0)) :=
  (U58_untouched m c main_arg0 (by decide)).trans (rat_arg0_57 m c)
theorem rat_arg1_58 : U58 m c (Proc.devRef .tc main_arg1) = (m ((c.tc : Thread nD τ).loc main_arg1)) :=
  (U58_untouched m c main_arg1 (by decide)).trans (rat_arg1_57 m c)
theorem rat_arg4_58 : U58 m c (Proc.devRef .tc main_arg4) = (m ((c.tc : Thread nD τ).loc main_arg4)) :=
  (U58_untouched m c main_arg4 (by decide)).trans (rat_arg4_57 m c)
theorem rat_arg5_58 : U58 m c (Proc.devRef .tc main_arg5) = (m ((c.tc : Thread nD τ).loc main_arg5)) :=
  (U58_untouched m c main_arg5 (by decide)).trans (rat_arg5_57 m c)
theorem rat_arg6_58 : U58 m c (Proc.devRef .tc main_arg6) = (m ((c.tc : Thread nD τ).loc main_arg6)) :=
  (U58_untouched m c main_arg6 (by decide)).trans (rat_arg6_57 m c)
theorem rat_arg7_58 : U58 m c (Proc.devRef .tc main_arg7) = (m ((c.tc : Thread nD τ).loc main_arg7)) :=
  (U58_untouched m c main_arg7 (by decide)).trans (rat_arg7_57 m c)
theorem rat_arg2_58 : U58 m c (Proc.devRef .tc main_arg2) = (m ((c.tc : Thread nD τ).loc main_arg2)) :=
  (U58_untouched m c main_arg2 (by decide)).trans (rat_arg2_57 m c)
theorem rat_arg3_58 : U58 m c (Proc.devRef .tc main_arg3) = (m ((c.tc : Thread nD τ).loc main_arg3)) :=
  (U58_untouched m c main_arg3 (by decide)).trans (rat_arg3_57 m c)
theorem rat_arg8_58 : U58 m c (Proc.devRef .tc main_arg8) = (m ((c.tc : Thread nD τ).loc main_arg8)) :=
  (U58_untouched m c main_arg8 (by decide)).trans (rat_arg8_57 m c)
theorem rat_arg9_58 : U58 m c (Proc.devRef .tc main_arg9) = (m ((c.tc : Thread nD τ).loc main_arg9)) :=
  (U58_untouched m c main_arg9 (by decide)).trans (rat_arg9_57 m c)
theorem rat_arg10_58 : U58 m c (Proc.devRef .tc main_arg10) = (m ((c.tc : Thread nD τ).loc main_arg10)) :=
  (U58_untouched m c main_arg10 (by decide)).trans (rat_arg10_57 m c)
theorem rat_arg11_58 : U58 m c (Proc.devRef .tc main_arg11) = (m ((c.tc : Thread nD τ).loc main_arg11)) :=
  (U58_untouched m c main_arg11 (by decide)).trans (rat_arg11_57 m c)

end Cert.RefRun

end
-- ==== Proof.RefRun.lean ====
import proofs.«135273_j69758858821831_1_alg».proof.Proof.RefRun7
import Idealize.ShloMosaic.Lib.StableHlo.Run

/-!
# The reference's run

Every weakly fair execution of the reference terminates, nothing faulting, with the result array at the reference's last
stage of the arguments and the argument arrays as launched: a straight line of host operations ends with every buffer at
the fold of the operations over the launch contents, and that fold, boundary by boundary, is the stages.
-/

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v378) = ReadP.val_main_v378 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
      ⟨(h c main_v378).trans ((congrFun (after_all m c) _).trans (rat_v378_58 m c)),
       (h c main_arg0).trans ((congrFun (after_all m c) _).trans (rat_arg0_58 m c)),
       (h c main_arg1).trans ((congrFun (after_all m c) _).trans (rat_arg1_58 m c)),
       (h c main_arg2).trans ((congrFun (after_all m c) _).trans (rat_arg2_58 m c)),
       (h c main_arg3).trans ((congrFun (after_all m c) _).trans (rat_arg3_58 m c)),
       (h c main_arg4).trans ((congrFun (after_all m c) _).trans (rat_arg4_58 m c)),
       (h c main_arg5).trans ((congrFun (after_all m c) _).trans (rat_arg5_58 m c)),
       (h c main_arg6).trans ((congrFun (after_all m c) _).trans (rat_arg6_58 m c)),
       (h c main_arg7).trans ((congrFun (after_all m c) _).trans (rat_arg7_58 m c)),
       (h c main_arg8).trans ((congrFun (after_all m c) _).trans (rat_arg8_58 m c)),
       (h c main_arg9).trans ((congrFun (after_all m c) _).trans (rat_arg9_58 m c)),
       (h c main_arg10).trans ((congrFun (after_all m c) _).trans (rat_arg10_58 m c)),
       (h c main_arg11).trans ((congrFun (after_all m c) _).trans (rat_arg11_58 m c))⟩)
    (run_seq scopedRefs_eq scopedSems_eq defs main (fun _ => allOps) main_eq (fun _ => allOps_sub) m ρ (fun _ => allOps_fresh))

end Cert.RefRun

end
-- ==== Proof.KernelRun.lean ====
import proofs.«135273_j69758858821831_1_alg».proof.Proof.KernelIdealFrameP

/-!
# The idealized kernel's run, keeping the result

The program is thirteen kernel regions among stretches of host operations. Every execution ends with each unscoped
buffer at the last boundary's contents `W26`; the frame keeps of this only the twelve argument arrays. Here the same
run is stated once more with the result array kept as well: it ends at `W26` read at the result buffer, which the
later modules open region by region.
-/

set_option maxRecDepth 16384

noncomputable section

namespace Cert.KernelIdeal.KRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates, nothing faulting, with the result array at the
    last boundary's contents and the argument arrays as launched. -/
theorem run_value : θ_run defs (onTc (τ := τ) (main (F := F))) ⟨m, fun _ => 0, ρ⟩ (fun r => ∀ c : Dev nD,
      r.2.mem ((c.tc : Thread nD τ).loc main_v346) = W26 m ρ c (Proc.devRef .tc main_v346)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h c =>
      ⟨h c _ (mem_uc main_v346 (by decide)),
       (h c _ (mem_uc main_arg0 (by decide))).trans (W26_main_arg0 m ρ c),
       (h c _ (mem_uc main_arg1 (by decide))).trans (W26_main_arg1 m ρ c),
       (h c _ (mem_uc main_arg2 (by decide))).trans (W26_main_arg2 m ρ c),
       (h c _ (mem_uc main_arg3 (by decide))).trans (W26_main_arg3 m ρ c),
       (h c _ (mem_uc main_arg4 (by decide))).trans (W26_main_arg4 m ρ c),
       (h c _ (mem_uc main_arg5 (by decide))).trans (W26_main_arg5 m ρ c),
       (h c _ (mem_uc main_arg6 (by decide))).trans (W26_main_arg6 m ρ c),
       (h c _ (mem_uc main_arg7 (by decide))).trans (W26_main_arg7 m ρ c),
       (h c _ (mem_uc main_arg8 (by decide))).trans (W26_main_arg8 m ρ c),
       (h c _ (mem_uc main_arg9 (by decide))).trans (W26_main_arg9 m ρ c),
       (h c _ (mem_uc main_arg10 (by decide))).trans (W26_main_arg10 m ρ c),
       (h c _ (mem_uc main_arg11 (by decide))).trans (W26_main_arg11 m ρ c)⟩)

end Cert.KernelIdeal.KRun

end
-- ==== Proof.Spec.lean ====
import Idealize.ShloMosaic.PureOps.Ideal
import Idealize.ShloMosaic.Lib.ValueIdx

/-!
# The four dense stages of the network, as functions of whole arrays

A graph-convolution layer over 200000 nodes mixes, per node, three dense stages with sparse gathers and
scatter-sums over the edges. The dense stages, and the closing two-layer perceptron, are stated here as functions of
whole arrays over the extended reals, index by index: `n` is a node (a row), `j` an output column.

* `mmG x w`: the row `x n` times the weight matrix, `∑ k, x[n,k] · w[k,j]`.
* `c1G a h b w`: the rectified sum `max (a + h + b) 0` of a row, times the weight matrix.
* `c2G a h b g s`: the sum `a + h + b + g` scaled by the one entry of `s`.
* `finG x w₁ b₁ w₂ b₂`: two rectified affine maps in a row.

The bias `b` is a one-row matrix read at row `0`; sums associate to the left, as the programs add.
-/

noncomputable section

open scoped BigOperators

namespace Cert.Spec

open Idealize.ShloMosaic Idealize.ShloMosaic.ValueIdx

/-- Arrays of extended reals over a literal two-axis shape. -/
abbrev Arr (n k : Nat) : Type := (⟨2, ![n, k]⟩ : Shape).Idx → EReal

/-- Rows of features times a `20 × 32` weight matrix. -/
def mmG (x : Arr 200000 20) (w : Arr 20 32) : Arr 200000 32 := fun i =>
  ∑ k : Fin 20, x (ix2 (i 0) k) * w (ix2 k (i 1))

/-- The rectified sum of the aggregate, the scaled self term and the bias, times a `32 × 32` weight matrix. -/
def c1G (a h : Arr 200000 32) (b : Arr 1 32) (w : Arr 32 32) : Arr 200000 32 := fun i =>
  ∑ k : Fin 32, max (a (ix2 (i 0) k) + h (ix2 (i 0) k) + b (ix2 0 k)) 0 * w (ix2 k (i 1))

/-- The aggregate, the scaled self term, the bias and the message from the previous layer, summed and scaled. -/
def c2G (a h : Arr 200000 32) (b : Arr 1 32) (g : Arr 200000 32) (s : Arr 1 1) : Arr 200000 32 := fun i =>
  (a i + h i + b (ix2 0 (i 1)) + g i) * s (ix2 0 0)

/-- The closing perceptron: `32 → 64 → 32`, rectified after each affine map. -/
def finG (x : Arr 200000 32) (w₁ : Arr 32 64) (b₁ : Arr 1 64) (w₂ : Arr 64 32) (b₂ : Arr 1 32) : Arr 200000 32 := fun i =>
  max ((∑ k : Fin 64, max ((∑ l : Fin 32, x (ix2 (i 0) l) * w₁ (ix2 l k)) + b₁ (ix2 0 k)) 0 * w₂ (ix2 k (i 1)))
    + b₂ (ix2 0 (i 1))) 0

end Cert.Spec

end
-- ==== Proof.RefStages.lean ====
import proofs.«135273_j69758858821831_1_alg».proof.Proof.RefReadP
import proofs.«135273_j69758858821831_1_alg».proof.Proof.Spec
import Idealize.ShloMosaic.Lib.Pipeline.Value
import Idealize.ShloMosaic.Lib.ValueIdx
import Idealize.ShloMosaic.PureOps.Ideal.Laws

/-!
# The reference's dense stages are the specification's functions

The reference computes each dense stage by host operations on whole arrays: a product of matrices, sums with a bias
broadcast along the rows, a maximum with the zero array, a quotient by a broadcast scalar. Read at an index, each is the
specification's function (`Cert.Spec`) of the stage's operands. The bias enters the specification as a one-row matrix:
the reshape of the bias vector. Only the quotient needs a hypothesis: dividing by the layer's scalar `d` and multiplying
by `1 / d` agree for `d ≠ 0`, where both are the product with `d⁻¹`.
-/

set_option maxRecDepth 16384

noncomputable section

open scoped BigOperators

namespace Cert.ReferenceIdeal.Stages

open Cert.ReferenceIdeal Cert.ReferenceIdeal.ReadP
open Idealize.ShloMosaic Idealize.ShloMosaic.ValueIdx

/-- The word `0x3F800000` is the extended real `1`. -/
theorem one_f32 : FloatOps.ofBits (F := Ideal) .f32 0x3F800000#32 = (1 : EReal) := by
  show Ideal.ofBits .f32 0x3F800000#32 = 1
  simp [Ideal.ofBits, Ideal.ieee, -EReal.coe_mul]; norm_num

variable (x0 : (⟨S4x200000x20, .f32⟩ : BufTy).Contents (Elt Ideal)) (x1 : (⟨S4x2x3200000, .i32⟩ : BufTy).Contents (Elt Ideal)) (x2 : (⟨S4x2x3200000, .i32⟩ : BufTy).Contents (Elt Ideal)) (x3 : (⟨S4, .f32⟩ : BufTy).Contents (Elt Ideal)) (x4 : (⟨S4x20x32, .f32⟩ : BufTy).Contents (Elt Ideal)) (x5 : (⟨S4x32, .f32⟩ : BufTy).Contents (Elt Ideal)) (x6 : (⟨S4x32x32, .f32⟩ : BufTy).Contents (Elt Ideal)) (x7 : (⟨S4x32, .f32⟩ : BufTy).Contents (Elt Ideal)) (x8 : (⟨S32x64, .f32⟩ : BufTy).Contents (Elt Ideal)) (x9 : (⟨S64, .f32⟩ : BufTy).Contents (Elt Ideal)) (x10 : (⟨S64x32, .f32⟩ : BufTy).Contents (Elt Ideal)) (x11 : (⟨S32, .f32⟩ : BufTy).Contents (Elt Ideal))

/-- Stage `main_v39`: rows times the weight matrix. -/
theorem stage_main_v39 : val_main_v39 (F := Ideal) x0 x4 = Cert.Spec.mmG (val_main_v1 (F := Ideal) x0) (val_main_v7 (F := Ideal) x4) := by
  funext i
  rw [val_main_v39_apply]
  unfold Cert.Spec.mmG
  refine Finset.sum_congr rfl fun k _ => ?_
  have e1 : lidx_main_v39 i k = (ix2 (i 0) k : S200000x20.Idx) := funext fun a => by match a with | ⟨0, _⟩ => rfl | ⟨1, _⟩ => rfl
  have e2 : ridx_main_v39 i k = (ix2 k (i 1) : S20x32.Idx) := funext fun a => by match a with | ⟨0, _⟩ => rfl | ⟨1, _⟩ => rfl
  rw [e1, e2]

/-- Stage `main_v59`: the rectified sum of aggregate, self term and bias, times the weight matrix. -/
theorem stage_main_v59 (h : (⟨1, ![32]⟩ : Shape).ShapeCasts ⟨2, ![1, 32]⟩) :
    val_main_v59 (F := Ideal) x0 x1 x4 x5 x6 = Cert.Spec.c1G (val_main_v51 (F := Ideal) x0 x1 x4) (val_main_v53 (F := Ideal) x0 x1 x4) (shapeCast (⟨2, ![1, 32]⟩ : Shape) (val_main_v9 (F := Ideal) x5) h) (val_main_v11 (F := Ideal) x6) := by
  funext i
  rw [val_main_v59_apply]
  unfold Cert.Spec.c1G
  refine Finset.sum_congr rfl fun k _ => ?_
  have e1 : lidx_main_v59 i k = (ix2 (i 0) k : S200000x32.Idx) := funext fun a => by match a with | ⟨0, _⟩ => rfl | ⟨1, _⟩ => rfl
  have e2 : ridx_main_v59 i k = (ix2 k (i 1) : S32x32.Idx) := funext fun a => by match a with | ⟨0, _⟩ => rfl | ⟨1, _⟩ => rfl
  have eb : val_main_v56 (F := Ideal) x5 (ix2 (i 0) k) = shapeCast (⟨2, ![1, 32]⟩ : Shape) (val_main_v9 (F := Ideal) x5) h (ix2 0 k) := by
    rw [val_main_v56_apply, val_main_v55_apply, shapeCast_addUnit_apply]
    exact congrArg _ (funext fun a => by match a with | ⟨0, _⟩ => rfl)
  rw [e1, e2, val_main_v58_apply, val_main_v57_apply, val_main_v54_apply, eb, val_main_call0_v0_apply, val_main_call0_cst_apply]
  simp only [Ideal.maximumf_def, Ideal.addf_def, Ideal.ofBits_def, Ideal.ofBits_zero_f32]

/-- Stage `main_v77`: in the first layer there is no message and no scaling — adding the zero array and multiplying by one
    change nothing over the extended reals. -/
theorem stage_main_v77 (h : (⟨1, ![32]⟩ : Shape).ShapeCasts ⟨2, ![1, 32]⟩) (hb : (⟨0, ![]⟩ : Shape).BroadcastsInDim ⟨2, ![1, 1]⟩ ![]) :
    val_main_v77 (F := Ideal) x0 x1 x4 x5 x6 x7 = Cert.Spec.c2G (val_main_v71 (F := Ideal) x0 x1 x4 x5 x6) (val_main_v73 (F := Ideal) x0 x1 x4 x5 x6) (shapeCast (⟨2, ![1, 32]⟩ : Shape) (val_main_v13 (F := Ideal) x7) h) (val_main_v49 (F := Ideal))
      (broadcastInDim (⟨2, ![1, 1]⟩ : Shape) ![] hb (val_main_cst (F := Ideal))) := by
  funext i
  unfold Cert.Spec.c2G
  have eb : val_main_v76 (F := Ideal) x7 (i) = shapeCast (⟨2, ![1, 32]⟩ : Shape) (val_main_v13 (F := Ideal) x7) h (ix2 0 (i 1)) := by
    rw [val_main_v76_apply, val_main_v75_apply, shapeCast_addUnit_apply]
    exact congrArg _ (funext fun a => by match a with | ⟨0, _⟩ => rfl)
  have e1 : broadcastInDim (⟨2, ![1, 1]⟩ : Shape) ![] hb (val_main_cst (F := Ideal)) (ix2 0 0) = (1 : EReal) :=
    (broadcastInDim_apply (s := (⟨0, ![]⟩ : Shape)) ![] hb (val_main_cst (F := Ideal)) (ix2 0 0) ix0 (fun a => a.elim0)).trans
      ((val_main_cst_apply (F := Ideal) ix0).trans one_f32)
  rw [val_main_v77_apply, val_main_v74_apply, eb, val_main_v49_apply, val_main_cst_7_apply, e1]
  simp only [Ideal.addf_def, Ideal.ofBits_def, Ideal.ofBits_zero_f32, add_zero, mul_one]

/-- Stage `main_v117`: rows times the weight matrix. -/
theorem stage_main_v117 : val_main_v117 (F := Ideal) x0 x4 = Cert.Spec.mmG (val_main_v79 (F := Ideal) x0) (val_main_v85 (F := Ideal) x4) := by
  funext i
  rw [val_main_v117_apply]
  unfold Cert.Spec.mmG
  refine Finset.sum_congr rfl fun k _ => ?_
  have e1 : lidx_main_v117 i k = (ix2 (i 0) k : S200000x20.Idx) := funext fun a => by match a with | ⟨0, _⟩ => rfl | ⟨1, _⟩ => rfl
  have e2 : ridx_main_v117 i k = (ix2 k (i 1) : S20x32.Idx) := funext fun a => by match a with | ⟨0, _⟩ => rfl | ⟨1, _⟩ => rfl
  rw [e1, e2]

/-- Stage `main_v137`: the rectified sum of aggregate, self term and bias, times the weight matrix. -/
theorem stage_main_v137 (h : (⟨1, ![32]⟩ : Shape).ShapeCasts ⟨2, ![1, 32]⟩) :
    val_main_v137 (F := Ideal) x0 x1 x4 x5 x6 = Cert.Spec.c1G (val_main_v129 (F := Ideal) x0 x1 x4) (val_main_v131 (F := Ideal) x0 x1 x4) (shapeCast (⟨2, ![1, 32]⟩ : Shape) (val_main_v87 (F := Ideal) x5) h) (val_main_v89 (F := Ideal) x6) := by
  funext i
  rw [val_main_v137_apply]
  unfold Cert.Spec.c1G
  refine Finset.sum_congr rfl fun k _ => ?_
  have e1 : lidx_main_v137 i k = (ix2 (i 0) k : S200000x32.Idx) := funext fun a => by match a with | ⟨0, _⟩ => rfl | ⟨1, _⟩ => rfl
  have e2 : ridx_main_v137 i k = (ix2 k (i 1) : S32x32.Idx) := funext fun a => by match a with | ⟨0, _⟩ => rfl | ⟨1, _⟩ => rfl
  have eb : val_main_v134 (F := Ideal) x5 (ix2 (i 0) k) = shapeCast (⟨2, ![1, 32]⟩ : Shape) (val_main_v87 (F := Ideal) x5) h (ix2 0 k) := by
    rw [val_main_v134_apply, val_main_v133_apply, shapeCast_addUnit_apply]
    exact congrArg _ (funext fun a => by match a with | ⟨0, _⟩ => rfl)
  rw [e1, e2, val_main_v136_apply, val_main_v135_apply, val_main_v132_apply, eb, val_main_call1_v0_apply, val_main_call1_cst_apply]
  simp only [Ideal.maximumf_def, Ideal.addf_def, Ideal.ofBits_def, Ideal.ofBits_zero_f32]

/-- Stage `main_v174`: the reference divides the sum by the layer's scalar `d`; the kernel multiplies it by `1 / d`. For
    `d ≠ 0` both are the product with `d⁻¹`, whatever the sum is. -/
theorem stage_main_v174 (h : (⟨1, ![32]⟩ : Shape).ShapeCasts ⟨2, ![1, 32]⟩) (hs : (⟨0, ![]⟩ : Shape).ShapeCasts ⟨2, ![1, 1]⟩)
    (hd : val_main_v172 (F := Ideal) x3 ix0 ≠ (0 : EReal)) :
    val_main_v174 (F := Ideal) x0 x1 x2 x3 x4 x5 x6 x7 = Cert.Spec.c2G (val_main_v149 (F := Ideal) x0 x1 x4 x5 x6) (val_main_v151 (F := Ideal) x0 x1 x4 x5 x6) (shapeCast (⟨2, ![1, 32]⟩ : Shape) (val_main_v91 (F := Ideal) x7) h) (val_main_v169 (F := Ideal) x0 x1 x2 x4 x5 x6 x7)
      (shapeCast (⟨2, ![1, 1]⟩ : Shape) (Host.divf (F := Ideal) (φ := .f32) (val_main_cst (F := Ideal)) (val_main_v172 (F := Ideal) x3)) hs) := by
  funext i
  unfold Cert.Spec.c2G
  have eb : val_main_v154 (F := Ideal) x7 (i) = shapeCast (⟨2, ![1, 32]⟩ : Shape) (val_main_v91 (F := Ideal) x7) h (ix2 0 (i 1)) := by
    rw [val_main_v154_apply, val_main_v153_apply, shapeCast_addUnit_apply]
    exact congrArg _ (funext fun a => by match a with | ⟨0, _⟩ => rfl)
  have es : shapeCast (⟨2, ![1, 1]⟩ : Shape) (Host.divf (F := Ideal) (φ := .f32) (val_main_cst (F := Ideal)) (val_main_v172 (F := Ideal) x3)) hs (ix2 0 0)
      = Ideal.div 1 (val_main_v172 (F := Ideal) x3 ix0) := by
    show Ideal.div (val_main_cst (F := Ideal) (Shape.reshapeEquiv hs (ix2 0 0))) (val_main_v172 (F := Ideal) x3 (Shape.reshapeEquiv hs (ix2 0 0))) = _
    rw [eq_ix0 (Shape.reshapeEquiv hs (ix2 0 0)), val_main_cst_apply, one_f32]
  have edb : val_main_v173 (F := Ideal) x3 i = val_main_v172 (F := Ideal) x3 ix0 :=
    (val_main_v173_apply (F := Ideal) x3 i).trans (congrArg (val_main_v172 (F := Ideal) x3) (funext fun a => a.elim0))
  rw [val_main_v174_apply, val_main_v170_apply, val_main_v155_apply, val_main_v152_apply, eb, edb, es]
  simp only [Ideal.addf_def, Ideal.hostDivf_def]
  unfold Ideal.div
  rw [if_neg hd, if_neg hd, one_mul]

/-- Stage `main_v214`: rows times the weight matrix. -/
theorem stage_main_v214 : val_main_v214 (F := Ideal) x0 x4 = Cert.Spec.mmG (val_main_v176 (F := Ideal) x0) (val_main_v182 (F := Ideal) x4) := by
  funext i
  rw [val_main_v214_apply]
  unfold Cert.Spec.mmG
  refine Finset.sum_congr rfl fun k _ => ?_
  have e1 : lidx_main_v214 i k = (ix2 (i 0) k : S200000x20.Idx) := funext fun a => by match a with | ⟨0, _⟩ => rfl | ⟨1, _⟩ => rfl
  have e2 : ridx_main_v214 i k = (ix2 k (i 1) : S20x32.Idx) := funext fun a => by match a with | ⟨0, _⟩ => rfl | ⟨1, _⟩ => rfl
  rw [e1, e2]

/-- Stage `main_v234`: the rectified sum of aggregate, self term and bias, times the weight matrix. -/
theorem stage_main_v234 (h : (⟨1, ![32]⟩ : Shape).ShapeCasts ⟨2, ![1, 32]⟩) :
    val_main_v234 (F := Ideal) x0 x1 x4 x5 x6 = Cert.Spec.c1G (val_main_v226 (F := Ideal) x0 x1 x4) (val_main_v228 (F := Ideal) x0 x1 x4) (shapeCast (⟨2, ![1, 32]⟩ : Shape) (val_main_v184 (F := Ideal) x5) h) (val_main_v186 (F := Ideal) x6) := by
  funext i
  rw [val_main_v234_apply]
  unfold Cert.Spec.c1G
  refine Finset.sum_congr rfl fun k _ => ?_
  have e1 : lidx_main_v234 i k = (ix2 (i 0) k : S200000x32.Idx) := funext fun a => by match a with | ⟨0, _⟩ => rfl | ⟨1, _⟩ => rfl
  have e2 : ridx_main_v234 i k = (ix2 k (i 1) : S32x32.Idx) := funext fun a => by match a with | ⟨0, _⟩ => rfl | ⟨1, _⟩ => rfl
  have eb : val_main_v231 (F := Ideal) x5 (ix2 (i 0) k) = shapeCast (⟨2, ![1, 32]⟩ : Shape) (val_main_v184 (F := Ideal) x5) h (ix2 0 k) := by
    rw [val_main_v231_apply, val_main_v230_apply, shapeCast_addUnit_apply]
    exact congrArg _ (funext fun a => by match a with | ⟨0, _⟩ => rfl)
  rw [e1, e2, val_main_v233_apply, val_main_v232_apply, val_main_v229_apply, eb, val_main_call2_v0_apply, val_main_call2_cst_apply]
  simp only [Ideal.maximumf_def, Ideal.addf_def, Ideal.ofBits_def, Ideal.ofBits_zero_f32]

/-- Stage `main_v271`: the reference divides the sum by the layer's scalar `d`; the kernel multiplies it by `1 / d`. For
    `d ≠ 0` both are the product with `d⁻¹`, whatever the sum is. -/
theorem stage_main_v271 (h : (⟨1, ![32]⟩ : Shape).ShapeCasts ⟨2, ![1, 32]⟩) (hs : (⟨0, ![]⟩ : Shape).ShapeCasts ⟨2, ![1, 1]⟩)
    (hd : val_main_v269 (F := Ideal) x3 ix0 ≠ (0 : EReal)) :
    val_main_v271 (F := Ideal) x0 x1 x2 x3 x4 x5 x6 x7 = Cert.Spec.c2G (val_main_v246 (F := Ideal) x0 x1 x4 x5 x6) (val_main_v248 (F := Ideal) x0 x1 x4 x5 x6) (shapeCast (⟨2, ![1, 32]⟩ : Shape) (val_main_v188 (F := Ideal) x7) h) (val_main_v266 (F := Ideal) x0 x1 x2 x3 x4 x5 x6 x7)
      (shapeCast (⟨2, ![1, 1]⟩ : Shape) (Host.divf (F := Ideal) (φ := .f32) (val_main_cst (F := Ideal)) (val_main_v269 (F := Ideal) x3)) hs) := by
  funext i
  unfold Cert.Spec.c2G
  have eb : val_main_v251 (F := Ideal) x7 (i) = shapeCast (⟨2, ![1, 32]⟩ : Shape) (val_main_v188 (F := Ideal) x7) h (ix2 0 (i 1)) := by
    rw [val_main_v251_apply, val_main_v250_apply, shapeCast_addUnit_apply]
    exact congrArg _ (funext fun a => by match a with | ⟨0, _⟩ => rfl)
  have es : shapeCast (⟨2, ![1, 1]⟩ : Shape) (Host.divf (F := Ideal) (φ := .f32) (val_main_cst (F := Ideal)) (val_main_v269 (F := Ideal) x3)) hs (ix2 0 0)
      = Ideal.div 1 (val_main_v269 (F := Ideal) x3 ix0) := by
    show Ideal.div (val_main_cst (F := Ideal) (Shape.reshapeEquiv hs (ix2 0 0))) (val_main_v269 (F := Ideal) x3 (Shape.reshapeEquiv hs (ix2 0 0))) = _
    rw [eq_ix0 (Shape.reshapeEquiv hs (ix2 0 0)), val_main_cst_apply, one_f32]
  have edb : val_main_v270 (F := Ideal) x3 i = val_main_v269 (F := Ideal) x3 ix0 :=
    (val_main_v270_apply (F := Ideal) x3 i).trans (congrArg (val_main_v269 (F := Ideal) x3) (funext fun a => a.elim0))
  rw [val_main_v271_apply, val_main_v267_apply, val_main_v252_apply, val_main_v249_apply, eb, edb, es]
  simp only [Ideal.addf_def, Ideal.hostDivf_def]
  unfold Ideal.div
  rw [if_neg hd, if_neg hd, one_mul]

/-- Stage `main_v311`: rows times the weight matrix. -/
theorem stage_main_v311 : val_main_v311 (F := Ideal) x0 x4 = Cert.Spec.mmG (val_main_v273 (F := Ideal) x0) (val_main_v279 (F := Ideal) x4) := by
  funext i
  rw [val_main_v311_apply]
  unfold Cert.Spec.mmG
  refine Finset.sum_congr rfl fun k _ => ?_
  have e1 : lidx_main_v311 i k = (ix2 (i 0) k : S200000x20.Idx) := funext fun a => by match a with | ⟨0, _⟩ => rfl | ⟨1, _⟩ => rfl
  have e2 : ridx_main_v311 i k = (ix2 k (i 1) : S20x32.Idx) := funext fun a => by match a with | ⟨0, _⟩ => rfl | ⟨1, _⟩ => rfl
  rw [e1, e2]

/-- Stage `main_v331`: the rectified sum of aggregate, self term and bias, times the weight matrix. -/
theorem stage_main_v331 (h : (⟨1, ![32]⟩ : Shape).ShapeCasts ⟨2, ![1, 32]⟩) :
    val_main_v331 (F := Ideal) x0 x1 x4 x5 x6 = Cert.Spec.c1G (val_main_v323 (F := Ideal) x0 x1 x4) (val_main_v325 (F := Ideal) x0 x1 x4) (shapeCast (⟨2, ![1, 32]⟩ : Shape) (val_main_v281 (F := Ideal) x5) h) (val_main_v283 (F := Ideal) x6) := by
  funext i
  rw [val_main_v331_apply]
  unfold Cert.Spec.c1G
  refine Finset.sum_congr rfl fun k _ => ?_
  have e1 : lidx_main_v331 i k = (ix2 (i 0) k : S200000x32.Idx) := funext fun a => by match a with | ⟨0, _⟩ => rfl | ⟨1, _⟩ => rfl
  have e2 : ridx_main_v331 i k = (ix2 k (i 1) : S32x32.Idx) := funext fun a => by match a with | ⟨0, _⟩ => rfl | ⟨1, _⟩ => rfl
  have eb : val_main_v328 (F := Ideal) x5 (ix2 (i 0) k) = shapeCast (⟨2, ![1, 32]⟩ : Shape) (val_main_v281 (F := Ideal) x5) h (ix2 0 k) := by
    rw [val_main_v328_apply, val_main_v327_apply, shapeCast_addUnit_apply]
    exact congrArg _ (funext fun a => by match a with | ⟨0, _⟩ => rfl)
  rw [e1, e2, val_main_v330_apply, val_main_v329_apply, val_main_v326_apply, eb, val_main_call3_v0_apply, val_main_call3_cst_apply]
  simp only [Ideal.maximumf_def, Ideal.addf_def, Ideal.ofBits_def, Ideal.ofBits_zero_f32]

/-- Stage `main_v368`: the reference divides the sum by the layer's scalar `d`; the kernel multiplies it by `1 / d`. For
    `d ≠ 0` both are the product with `d⁻¹`, whatever the sum is. -/
theorem stage_main_v368 (h : (⟨1, ![32]⟩ : Shape).ShapeCasts ⟨2, ![1, 32]⟩) (hs : (⟨0, ![]⟩ : Shape).ShapeCasts ⟨2, ![1, 1]⟩)
    (hd : val_main_v366 (F := Ideal) x3 ix0 ≠ (0 : EReal)) :
    val_main_v368 (F := Ideal) x0 x1 x2 x3 x4 x5 x6 x7 = Cert.Spec.c2G (val_main_v343 (F := Ideal) x0 x1 x4 x5 x6) (val_main_v345 (F := Ideal) x0 x1 x4 x5 x6) (shapeCast (⟨2, ![1, 32]⟩ : Shape) (val_main_v285 (F := Ideal) x7) h) (val_main_v363 (F := Ideal) x0 x1 x2 x3 x4 x5 x6 x7)
      (shapeCast (⟨2, ![1, 1]⟩ : Shape) (Host.divf (F := Ideal) (φ := .f32) (val_main_cst (F := Ideal)) (val_main_v366 (F := Ideal) x3)) hs) := by
  funext i
  unfold Cert.Spec.c2G
  have eb : val_main_v348 (F := Ideal) x7 (i) = shapeCast (⟨2, ![1, 32]⟩ : Shape) (val_main_v285 (F := Ideal) x7) h (ix2 0 (i 1)) := by
    rw [val_main_v348_apply, val_main_v347_apply, shapeCast_addUnit_apply]
    exact congrArg _ (funext fun a => by match a with | ⟨0, _⟩ => rfl)
  have es : shapeCast (⟨2, ![1, 1]⟩ : Shape) (Host.divf (F := Ideal) (φ := .f32) (val_main_cst (F := Ideal)) (val_main_v366 (F := Ideal) x3)) hs (ix2 0 0)
      = Ideal.div 1 (val_main_v366 (F := Ideal) x3 ix0) := by
    show Ideal.div (val_main_cst (F := Ideal) (Shape.reshapeEquiv hs (ix2 0 0))) (val_main_v366 (F := Ideal) x3 (Shape.reshapeEquiv hs (ix2 0 0))) = _
    rw [eq_ix0 (Shape.reshapeEquiv hs (ix2 0 0)), val_main_cst_apply, one_f32]
  have edb : val_main_v367 (F := Ideal) x3 i = val_main_v366 (F := Ideal) x3 ix0 :=
    (val_main_v367_apply (F := Ideal) x3 i).trans (congrArg (val_main_v366 (F := Ideal) x3) (funext fun a => a.elim0))
  rw [val_main_v368_apply, val_main_v364_apply, val_main_v349_apply, val_main_v346_apply, eb, edb, es]
  simp only [Ideal.addf_def, Ideal.hostDivf_def]
  unfold Ideal.div
  rw [if_neg hd, if_neg hd, one_mul]

/-- Stage `main_v378`: the closing perceptron, two rectified affine maps. -/
theorem stage_main_v378 (h₁ : (⟨1, ![64]⟩ : Shape).ShapeCasts ⟨2, ![1, 64]⟩) (h₂ : (⟨1, ![32]⟩ : Shape).ShapeCasts ⟨2, ![1, 32]⟩) :
    val_main_v378 (F := Ideal) x0 x1 x2 x3 x4 x5 x6 x7 x8 x9 x10 x11 = Cert.Spec.finG (val_main_v368 (F := Ideal) x0 x1 x2 x3 x4 x5 x6 x7) (x8) (shapeCast (⟨2, ![1, 64]⟩ : Shape) (x9) h₁) (x10)
      (shapeCast (⟨2, ![1, 32]⟩ : Shape) (x11) h₂) := by
  funext i
  unfold Cert.Spec.finG
  have eb2 : val_main_v376 (F := Ideal) x11 i = shapeCast (⟨2, ![1, 32]⟩ : Shape) (x11) h₂ (ix2 0 (i 1)) := by
    rw [val_main_v376_apply, val_main_v375_apply, shapeCast_addUnit_apply]
    exact congrArg _ (funext fun a => by match a with | ⟨0, _⟩ => rfl)
  rw [val_main_v378_apply, val_main_v377_apply, eb2, val_main_call5_v0_apply, val_main_call5_cst_apply, val_main_v374_apply]
  have inner : ∀ k : Fin 64, val_main_v373 (F := Ideal) x0 x1 x2 x3 x4 x5 x6 x7 x8 x9 (lidx_main_v374 i k) * x10 (ridx_main_v374 i k)
      = max ((∑ l : Fin 32, val_main_v368 (F := Ideal) x0 x1 x2 x3 x4 x5 x6 x7 (ix2 (i 0) l) * x8 (ix2 l k)) + shapeCast (⟨2, ![1, 64]⟩ : Shape) (x9) h₁ (ix2 0 k)) 0 * x10 (ix2 k (i 1)) := by
    intro k
    have e1 : lidx_main_v374 i k = (ix2 (i 0) k : S200000x64.Idx) := funext fun a => by match a with | ⟨0, _⟩ => rfl | ⟨1, _⟩ => rfl
    have e2 : ridx_main_v374 i k = (ix2 k (i 1) : S64x32.Idx) := funext fun a => by match a with | ⟨0, _⟩ => rfl | ⟨1, _⟩ => rfl
    have eb1 : val_main_v371 (F := Ideal) x9 (ix2 (i 0) k) = shapeCast (⟨2, ![1, 64]⟩ : Shape) (x9) h₁ (ix2 0 k) := by
      rw [val_main_v371_apply, val_main_v370_apply, shapeCast_addUnit_apply]
      exact congrArg _ (funext fun a => by match a with | ⟨0, _⟩ => rfl)
    rw [e1, e2, val_main_v373_apply, val_main_v372_apply, eb1, val_main_call4_v0_apply, val_main_call4_cst_apply, val_main_v369_apply]
    have e3 : ∀ l : Fin 32, lidx_main_v369 (ix2 (i 0) k) l = (ix2 (i 0) l : S200000x32.Idx) := fun l => funext fun a => by match a with | ⟨0, _⟩ => rfl | ⟨1, _⟩ => rfl
    have e4 : ∀ l : Fin 32, ridx_main_v369 (ix2 (i 0) k) l = (ix2 l k : S32x64.Idx) := fun l => funext fun a => by match a with | ⟨0, _⟩ => rfl | ⟨1, _⟩ => rfl
    have esum : (∑ l : Fin 32, val_main_v368 (F := Ideal) x0 x1 x2 x3 x4 x5 x6 x7 (lidx_main_v369 (ix2 (i 0) k) l) * x8 (ridx_main_v369 (ix2 (i 0) k) l))
        = ∑ l : Fin 32, val_main_v368 (F := Ideal) x0 x1 x2 x3 x4 x5 x6 x7 (ix2 (i 0) l) * x8 (ix2 l k) :=
      Finset.sum_congr rfl fun l _ => by rw [e3 l, e4 l]
    rw [esum]
    simp only [Ideal.maximumf_def, Ideal.addf_def, Ideal.ofBits_def, Ideal.ofBits_zero_f32]
  simp only [inner, Ideal.maximumf_def, Ideal.addf_def, Ideal.ofBits_def, Ideal.ofBits_zero_f32]

/-! ## The layers' scalars

Layer `i`'s scalar is entry `i` of the four-entry input: a one-entry slice, reshaped to a scalar. -/

theorem dsc_main_v172 : val_main_v172 (F := Ideal) x3 ix0 = x3 (ix1 1) := by
  unfold val_main_v172
  refine (shapeCast_dropUnit_apply (n := 0) ![] (val_main_v171 (F := Ideal) x3) _ ix0).trans ?_
  rw [val_main_v171_apply]
  exact congrArg _ (funext fun a => by match a with | ⟨0, _⟩ => rfl)

theorem dsc_main_v269 : val_main_v269 (F := Ideal) x3 ix0 = x3 (ix1 2) := by
  unfold val_main_v269
  refine (shapeCast_dropUnit_apply (n := 0) ![] (val_main_v268 (F := Ideal) x3) _ ix0).trans ?_
  rw [val_main_v268_apply]
  exact congrArg _ (funext fun a => by match a with | ⟨0, _⟩ => rfl)

theorem dsc_main_v366 : val_main_v366 (F := Ideal) x3 ix0 = x3 (ix1 3) := by
  unfold val_main_v366
  refine (shapeCast_dropUnit_apply (n := 0) ![] (val_main_v365 (F := Ideal) x3) _ ix0).trans ?_
  rw [val_main_v365_apply]
  exact congrArg _ (funext fun a => by match a with | ⟨0, _⟩ => rfl)

end Cert.ReferenceIdeal.Stages

end
-- ==== Proof.MatmulR0.lean ====
import proofs.«135273_j69758858821831_1_alg».proof.Proof.KernelIdealFrameP
import proofs.«135273_j69758858821831_1_alg».proof.Proof.Spec
import Idealize.ShloMosaic.Lib.Pipeline.Value
import Idealize.ShloMosaic.Lib.ValueIdx
import Idealize.ShloMosaic.PureOps.Ideal.Laws

/-!
# Region 0: rows of features times a weight matrix

The region walks the 200000 rows in 20 blocks of 10000. At block `t` it loads rows `10000·t … 10000·t + 9999` of
the features and the whole `20 × 32` weight matrix, and stores their product. An entry of the stored block is the row
of the loaded block times a column of the weights; the blocks tile the array; so the array the region leaves is the
product of the whole feature array with the weights, row by row.
-/

set_option maxRecDepth 16384

noncomputable section

open scoped BigOperators

namespace Cert.KernelIdeal.MatmulR0

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

/-! ## The product at an entry of a block -/

theorem lhs_row (i : S10000x32.Idx) (q : (dot_S10000x20_S20x32_S10000x32_1_0_0_1_n_n).contr.Idx) :
    ((dot_S10000x20_S20x32_S10000x32_1_0_0_1_n_n).lhsIdx i q 0).val = (i 0).val := by
  unfold DotDims.lhsIdx
  rw [dif_neg (show ¬(0 : Fin S10000x20.rank) ∈ (dot_S10000x20_S20x32_S10000x32_1_0_0_1_n_n).lhsBatch by decide), dif_pos (show (0 : Fin S10000x20.rank) ∈ (dot_S10000x20_S20x32_S10000x32_1_0_0_1_n_n).lhsNonContracting by decide)]
  rfl
theorem lhs_contr (i : S10000x32.Idx) (q : (dot_S10000x20_S20x32_S10000x32_1_0_0_1_n_n).contr.Idx) :
    ((dot_S10000x20_S20x32_S10000x32_1_0_0_1_n_n).lhsIdx i q 1).val = (q ⟨0, by decide⟩).val :=
  (dot_S10000x20_S20x32_S10000x32_1_0_0_1_n_n).lhsIdx_val_of_single rfl i q
theorem rhs_contr (i : S10000x32.Idx) (q : (dot_S10000x20_S20x32_S10000x32_1_0_0_1_n_n).contr.Idx) :
    ((dot_S10000x20_S20x32_S10000x32_1_0_0_1_n_n).rhsIdx i q 0).val = (q ⟨0, by decide⟩).val :=
  (dot_S10000x20_S20x32_S10000x32_1_0_0_1_n_n).rhsIdx_val_of_single rfl i q
theorem rhs_col (i : S10000x32.Idx) (q : (dot_S10000x20_S20x32_S10000x32_1_0_0_1_n_n).contr.Idx) :
    ((dot_S10000x20_S20x32_S10000x32_1_0_0_1_n_n).rhsIdx i q 1).val = (i 1).val := by
  unfold DotDims.rhsIdx
  rw [dif_neg (show ¬(1 : Fin S20x32.rank) ∈ (dot_S10000x20_S20x32_S10000x32_1_0_0_1_n_n).rhsBatch by decide), dif_pos (show (1 : Fin S20x32.rank) ∈ (dot_S10000x20_S20x32_S10000x32_1_0_0_1_n_n).rhsNonContracting by decide)]
  rfl

/-- The body's one store, at row `r` and column `j` of the block: the row of the feature block times the column of
    the weights (narrowing either operand changes nothing over the extended reals, and the accumulator is zero). -/
theorem pay_eq (x0 : Vec Ideal S10000x20 .f32) (x1 : Vec Ideal S20x32 .f32) (r : Fin 10000) (j : Fin 32) :
    k0_pay1 (F := Ideal) x0 x1 (ix2 r j) = ∑ k : Fin 20, x0 (ix2 r k) * x1 (ix2 k j) := by
  unfold k0_pay1
  refine (Ideal.matmul_constant_zero_apply dot_S10000x20_S20x32_S10000x32_1_0_0_1_n_n none _ _ (ix2 r j)).trans ?_
  rw [← Equiv.sum_comp (contrEquiv1 dot_S10000x20_S20x32_S10000x32_1_0_0_1_n_n 20 rfl rfl).symm]
  refine Finset.sum_congr rfl fun k _ => ?_
  have hk := contrEquiv1_symm_val dot_S10000x20_S20x32_S10000x32_1_0_0_1_n_n 20 rfl rfl k
  have el : (dot_S10000x20_S20x32_S10000x32_1_0_0_1_n_n).lhsIdx (ix2 r j) ((contrEquiv1 dot_S10000x20_S20x32_S10000x32_1_0_0_1_n_n 20 rfl rfl).symm k) = ix2 r k := funext fun a => Fin.ext (by
    match a with
    | ⟨0, _⟩ => exact lhs_row _ _
    | ⟨1, _⟩ => exact (lhs_contr _ _).trans hk)
  have er : (dot_S10000x20_S20x32_S10000x32_1_0_0_1_n_n).rhsIdx (ix2 r j) ((contrEquiv1 dot_S10000x20_S20x32_S10000x32_1_0_0_1_n_n 20 rfl rfl).symm k) = ix2 k j := funext fun a => Fin.ext (by
    match a with
    | ⟨0, _⟩ => exact (rhs_contr _ _).trans hk
    | ⟨1, _⟩ => exact rhs_col _ _)
  rw [el, er]
  simp only [truncf_apply, shapeCast_self]

/-! ## From blocks to the array -/

theorem hz : (![0, 0] : Fin 2 → Nat) = fun _ => 0 := funext fun a => by fin_cases a <;> rfl

/-- The index maps over the 20 grid points: the feature and output windows move down one block of rows per point, the
    weight window stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b)) (c : Dev nD)

set_option maxHeartbeats 1000000 in
/-- What point `t` writes back is block `t` of the product of the whole arrays. -/
theorem flushed_eq (t : Fin cfg0.N) :
    (dat0 (F := Ideal) V c).flushed 2 t = ((cfg0.win 2).blk t).view.read (Elt Ideal)
      (Cert.Spec.mmG (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S10000x20) hz, View.ld_unit_zero (S := S20x32) hz]
  obtain ⟨e0, e1, e2, e3, e4, e5⟩ := idx_facts t
  funext y
  obtain ⟨r, j, rfl⟩ : ∃ (r : Fin 10000) (j : Fin 32), y = ix2 r j := ⟨y 0, y 1, eq_ix2 y⟩
  refine (pay_eq (iblk0 V c 0 t) (iblk0 V c 1 t) r j).trans ?_
  show _ = Cert.Spec.mmG (V c (Pipeline.arrRef spec0 0)) (V c (Pipeline.arrRef spec0 1)) (((cfg0.win 2).blk t).view.emb (ix2 r j))
  unfold Cert.Spec.mmG
  refine Finset.sum_congr rfl fun k _ => ?_
  have hx : iblk0 V c 0 t (ix2 r k) = V c (Pipeline.arrRef spec0 0) (ix2 ((((cfg0.win 2).blk t).view.emb (ix2 r j)) 0) k) := by
    show V c (Pipeline.arrRef spec0 0) (((cfg0.win 0).blk t).view.emb (ix2 r k)) = _
    refine congrArg _ (funext fun a => Fin.ext ?_)
    match a with
    | ⟨0, _⟩ => show win0_0.index t (0 : Fin 2) * 10000 + 1 * r.val = win0_2.index t (0 : Fin 2) * 10000 + 1 * r.val; omega
    | ⟨1, _⟩ => show win0_0.index t (1 : Fin 2) * 20 + 1 * k.val = k.val; omega
  have hw : iblk0 V c 1 t (ix2 k j) = V c (Pipeline.arrRef spec0 1) (ix2 k ((((cfg0.win 2).blk t).view.emb (ix2 r j)) 1)) := by
    show V c (Pipeline.arrRef spec0 1) (((cfg0.win 1).blk t).view.emb (ix2 k j)) = _
    refine congrArg _ (funext fun a => Fin.ext ?_)
    match a with
    | ⟨0, _⟩ => show win0_1.index t (0 : Fin 2) * 20 + 1 * k.val = k.val; omega
    | ⟨1, _⟩ => show win0_1.index t (1 : Fin 2) * 32 + 1 * j.val = win0_2.index t (1 : Fin 2) * 32 + 1 * j.val; omega
  rw [hx, hw]

/-- An index of the array is in point `t`'s block iff each coordinate is in the block's range on its axis. -/
theorem mem_blk (t : Fin cfg0.N) (i : S200000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v41).slice (win0_2.rect t)).set ↔ _
  rw [View.set_slice_whole, Rect.mem_set_unit]
  exact Iff.rfl

/-- Row `n` lies in the block of point `n / 10000`: the 20 blocks tile the array. -/
theorem cover (i : S200000x32.Idx) :
    ∃ t : Fin cfg0.N, (cfg0.win 2).flush t = true ∧ i ∈ ((cfg0.win 2).blk t).view.set := by
  have h0 : (i 0).val < 200000 := (i 0).isLt
  have h1 : (i 1).val < 32 := (i 1).isLt
  have ht : (i 0).val / 10000 < 20 := by omega
  obtain ⟨e0, e1, e2, e3, e4, e5⟩ := idx_facts ⟨(i 0).val / 10000, ht⟩
  refine ⟨⟨(i 0).val / 10000, ht⟩, flush0_2 _, ?_⟩
  rw [mem_blk]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 32 ≤ (i 1).val ∧ (i 1).val < win0_2.index ⟨(i 0).val / 10000, ht⟩ (1 : Fin 2) * 32 + 32
    rw [e5]; omega

/-- After the region its output array is the product of the feature array and the weights, as the region found them. -/
theorem arr_eq :
    (dat0 (F := Ideal) V c).arrAt 2 cfg0.N
      = Cert.Spec.mmG (V c (Pipeline.arrRef spec0 0)) (V c (Pipeline.arrRef spec0 1)) :=
  (dat0 (F := Ideal) V c).arrAt_eq_of_cover 2 _ (fun t _ => flushed_eq V c t) (cover)

end Cert.KernelIdeal.MatmulR0

end
-- ==== Proof.Bridge0.lean ====
import proofs.«135273_j69758858821831_1_alg».proof.Proof.KernelIdealFrameP
import proofs.«135273_j69758858821831_1_alg».proof.Proof.RefReadP
import proofs.«135273_j69758858821831_1_alg».proof.Proof.MatmulR0
import proofs.«135273_j69758858821831_1_alg».proof.Proof.RefStages

/-!
# Boundary 0 to boundary 2: host stretch 0 and region 0

Each buffer the idealized kernel holds at a boundary is stated as the reference's stage of the same operation on the same
operands (or, for the few buffers only the kernel has — a bias as a one-row matrix, the reciprocal of a layer's scalar —
as that operation of reference stages). A buffer no operation of a stretch writes, and no window of a region names,
keeps its contents across it. The region's output is the specification's function of its input arrays, which is the
reference's stage.
-/

set_option maxRecDepth 16384

noncomputable section

namespace Cert.Bridge

open Cert.KernelIdeal Cert.KernelIdeal.Gen Cert.KernelIdeal.GenP
open Idealize.ShloMosaic Idealize.ShloMosaic.TcCoe Idealize.SL.Sem

variable (m : (ℓ : Loc nD τ sig) → Buf (Elt Ideal) ℓ) (ρ : Dev nD → PrngReg) (c : Dev nD)

theorem at_arg0_0 : W0 m ρ c (Proc.devRef .tc main_arg0) = (m ((c : Thread nD τ).loc main_arg0)) := rfl
theorem at_arg1_0 : W0 m ρ c (Proc.devRef .tc main_arg1) = (m ((c : Thread nD τ).loc main_arg1)) := rfl
theorem at_arg2_0 : W0 m ρ c (Proc.devRef .tc main_arg2) = (m ((c : Thread nD τ).loc main_arg2)) := rfl
theorem at_arg3_0 : W0 m ρ c (Proc.devRef .tc main_arg3) = (m ((c : Thread nD τ).loc main_arg3)) := rfl
theorem at_arg4_0 : W0 m ρ c (Proc.devRef .tc main_arg4) = (m ((c : Thread nD τ).loc main_arg4)) := rfl
theorem at_arg5_0 : W0 m ρ c (Proc.devRef .tc main_arg5) = (m ((c : Thread nD τ).loc main_arg5)) := rfl
theorem at_arg6_0 : W0 m ρ c (Proc.devRef .tc main_arg6) = (m ((c : Thread nD τ).loc main_arg6)) := rfl
theorem at_arg7_0 : W0 m ρ c (Proc.devRef .tc main_arg7) = (m ((c : Thread nD τ).loc main_arg7)) := rfl
theorem at_arg8_0 : W0 m ρ c (Proc.devRef .tc main_arg8) = (m ((c : Thread nD τ).loc main_arg8)) := rfl
theorem at_arg9_0 : W0 m ρ c (Proc.devRef .tc main_arg9) = (m ((c : Thread nD τ).loc main_arg9)) := rfl
theorem at_arg10_0 : W0 m ρ c (Proc.devRef .tc main_arg10) = (m ((c : Thread nD τ).loc main_arg10)) := rfl
theorem at_arg11_0 : W0 m ρ c (Proc.devRef .tc main_arg11) = (m ((c : Thread nD τ).loc main_arg11)) := rfl
theorem at_v1_1 : W1 m ρ c (Proc.devRef .tc main_v1) = (Cert.ReferenceIdeal.ReadP.val_main_v1 (F := Ideal) (m ((c : Thread nD τ).loc main_arg0))) := by
  show StableHlo.after hostOps0 (W0 m ρ c) (Proc.devRef .tc main_v1) = _
  after_results_simp
  rw [at_arg0_0 m ρ c]
  rfl
theorem at_v3_1 : W1 m ρ c (Proc.devRef .tc main_v3) = (Cert.ReferenceIdeal.ReadP.val_main_v5 (F := Ideal) (m ((c : Thread nD τ).loc main_arg1))) := by
  show StableHlo.after hostOps0 (W0 m ρ c) (Proc.devRef .tc main_v3) = _
  after_results_simp
  rw [at_arg1_0 m ρ c]
  rfl
theorem at_v5_1 : W1 m ρ c (Proc.devRef .tc main_v5) = (Cert.ReferenceIdeal.ReadP.val_main_v3 (F := Ideal) (m ((c : Thread nD τ).loc main_arg1))) := by
  show StableHlo.after hostOps0 (W0 m ρ c) (Proc.devRef .tc main_v5) = _
  after_results_simp
  rw [at_arg1_0 m ρ c]
  rfl
theorem at_v28_1 : W1 m ρ c (Proc.devRef .tc main_v28) = (Cert.ReferenceIdeal.ReadP.val_main_v36 (F := Ideal) (m ((c : Thread nD τ).loc main_arg1))) := by
  show StableHlo.after hostOps0 (W0 m ρ c) (Proc.devRef .tc main_v28) = _
  after_results_simp
  rw [at_arg1_0 m ρ c]
  rfl
theorem at_v30_1 : W1 m ρ c (Proc.devRef .tc main_v30) = (Cert.ReferenceIdeal.ReadP.val_main_v38 (F := Ideal) (m ((c : Thread nD τ).loc main_arg1))) := by
  show StableHlo.after hostOps0 (W0 m ρ c) (Proc.devRef .tc main_v30) = _
  after_results_simp
  rw [at_arg1_0 m ρ c]
  rfl
theorem at_v32_1 : W1 m ρ c (Proc.devRef .tc main_v32) = (Cert.ReferenceIdeal.ReadP.val_main_v7 (F := Ideal) (m ((c : Thread nD τ).loc main_arg4))) := by
  show StableHlo.after hostOps0 (W0 m ρ c) (Proc.devRef .tc main_v32) = _
  after_results_simp
  rw [at_arg4_0 m ρ c]
  rfl
theorem at_v35_1 : W1 m ρ c (Proc.devRef .tc main_v35) = (shapeCast _ (Cert.ReferenceIdeal.ReadP.val_main_v9 (F := Ideal) (m ((c : Thread nD τ).loc main_arg5))) shapeCasts_S32_S1x32) := by
  show StableHlo.after hostOps0 (W0 m ρ c) (Proc.devRef .tc main_v35) = _
  after_results_simp
  rw [at_arg5_0 m ρ c]
  rfl
theorem at_v37_1 : W1 m ρ c (Proc.devRef .tc main_v37) = (Cert.ReferenceIdeal.ReadP.val_main_v11 (F := Ideal) (m ((c : Thread nD τ).loc main_arg6))) := by
  show StableHlo.after hostOps0 (W0 m ρ c) (Proc.devRef .tc main_v37) = _
  after_results_simp
  rw [at_arg6_0 m ρ c]
  rfl
theorem at_v40_1 : W1 m ρ c (Proc.devRef .tc main_v40) = (shapeCast _ (Cert.ReferenceIdeal.ReadP.val_main_v13 (F := Ideal) (m ((c : Thread nD τ).loc main_arg7))) shapeCasts_S32_S1x32) := by
  show StableHlo.after hostOps0 (W0 m ρ c) (Proc.devRef .tc main_v40) = _
  after_results_simp
  rw [at_arg7_0 m ρ c]
  rfl
theorem at_arg0_1 : W1 m ρ c (Proc.devRef .tc main_arg0) = (m ((c : Thread nD τ).loc main_arg0)) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg0_0 m ρ c)
theorem at_arg1_1 : W1 m ρ c (Proc.devRef .tc main_arg1) = (m ((c : Thread nD τ).loc main_arg1)) :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg1_0 m ρ c)
theorem at_arg4_1 : W1 m ρ c (Proc.devRef .tc main_arg4) = (m ((c : Thread nD τ).loc main_arg4)) :=
  (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg4_0 m ρ c)
theorem at_arg5_1 : W1 m ρ c (Proc.devRef .tc main_arg5) = (m ((c : Thread nD τ).loc main_arg5)) :=
  (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg5_0 m ρ c)
theorem at_arg6_1 : W1 m ρ c (Proc.devRef .tc main_arg6) = (m ((c : Thread nD τ).loc main_arg6)) :=
  (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg6_0 m ρ c)
theorem at_arg7_1 : W1 m ρ c (Proc.devRef .tc main_arg7) = (m ((c : Thread nD τ).loc main_arg7)) :=
  (StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg7_0 m ρ c)
theorem at_arg2_1 : W1 m ρ c (Proc.devRef .tc main_arg2) = (m ((c : Thread nD τ).loc main_arg2)) :=
  (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg2_0 m ρ c)
theorem at_arg3_1 : W1 m ρ c (Proc.devRef .tc main_arg3) = (m ((c : Thread nD τ).loc main_arg3)) :=
  (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg3_0 m ρ c)
theorem at_arg9_1 : W1 m ρ c (Proc.devRef .tc main_arg9) = (m ((c : Thread nD τ).loc main_arg9)) :=
  (StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg9_0 m ρ c)
theorem at_arg11_1 : W1 m ρ c (Proc.devRef .tc main_arg11) = (m ((c : Thread nD τ).loc main_arg11)) :=
  (StableHlo.after_of_forall_not_mem (b := Proc.devRef .tc main_arg11) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg11_0 m ρ c)
theorem at_arg8_1 : W1 m ρ c (Proc.devRef .tc main_arg8) = (m ((c : Thread nD τ).loc main_arg8)) :=
  (StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg8_0 m ρ c)
theorem at_arg10_1 : W1 m ρ c (Proc.devRef .tc main_arg10) = (m ((c : Thread nD τ).loc main_arg10)) :=
  (StableHlo.after_of_forall_not_mem (b := Proc.devRef .tc main_arg10) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg10_0 m ρ c)
theorem at_v41_2 : W2 m ρ c (Proc.devRef .tc main_v41) = (Cert.ReferenceIdeal.ReadP.val_main_v39 (F := Ideal) (m ((c : Thread nD τ).loc main_arg0)) (m ((c : Thread nD τ).loc main_arg4))) := by
  refine (W2_arr m ρ c 2).trans ?_
  rw [Cert.KernelIdeal.MatmulR0.arr_eq]
  rw [show V1 m ρ c (Pipeline.arrRef spec0 0) = _ from at_v1_1 m ρ c,
    show V1 m ρ c (Pipeline.arrRef spec0 1) = _ from at_v32_1 m ρ c]
  exact (Cert.ReferenceIdeal.Stages.stage_main_v39 (m ((c : Thread nD τ).loc main_arg0)) (m ((c : Thread nD τ).loc main_arg4))).symm

end Cert.Bridge

end
-- ==== Proof.Combine1R1.lean ====
import proofs.«135273_j69758858821831_1_alg».proof.Proof.KernelIdealFrameP
import proofs.«135273_j69758858821831_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# Region 1: the rectified sum of two row blocks and a bias row, times the weights

At each of the 20 grid points the region's body reads rows `10000 t … 10000 t + 9999` of the two `200000 × 32`
inputs `a`, `h`, the bias row `b` and the `32 × 32` weights `w`, and writes the same rows of the output:
`out[n, j] = ∑ k, max (a[n, k] + h[n, k] + b[0, k]) 0 · w[k, j]`. First the body's result is read at a block
coordinate; then each block's element is identified with an element of its array; the blocks tile the output, so
the output array after the region is the specification's function of the input arrays.
-/

noncomputable section

namespace Cert.KernelIdeal.Combine1R1

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)
open scoped BigOperators

/-- The contraction's left operand index at output `(r, j)` and contraction coordinate `k` is `(r, k)`. -/
theorem lhs_idx (r : Fin 10000) (j k : Fin 32) :
    dot_S10000x32_S32x32_S10000x32_1_0_0_1_n_n.lhsIdx (ix2 r j)
      ((contrEquiv1 dot_S10000x32_S32x32_S10000x32_1_0_0_1_n_n 32 rfl rfl).symm k) = ix2 r k := by
  have hk := contrEquiv1_symm_val dot_S10000x32_S32x32_S10000x32_1_0_0_1_n_n 32 rfl rfl k
  funext a; apply Fin.ext
  match a with
  | ⟨0, _⟩ =>
    show (dot_S10000x32_S32x32_S10000x32_1_0_0_1_n_n.lhsIdx (ix2 r j) _ 0).val = r.val
    unfold DotDims.lhsIdx
    rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
    rfl
  | ⟨1, _⟩ =>
    exact (dot_S10000x32_S32x32_S10000x32_1_0_0_1_n_n.lhsIdx_val_of_single rfl (ix2 r j) _).trans hk

/-- The right operand index is `(k, j)`. -/
theorem rhs_idx (r : Fin 10000) (j k : Fin 32) :
    dot_S10000x32_S32x32_S10000x32_1_0_0_1_n_n.rhsIdx (ix2 r j)
      ((contrEquiv1 dot_S10000x32_S32x32_S10000x32_1_0_0_1_n_n 32 rfl rfl).symm k) = ix2 k j := by
  have hk := contrEquiv1_symm_val dot_S10000x32_S32x32_S10000x32_1_0_0_1_n_n 32 rfl rfl k
  funext a; apply Fin.ext
  match a with
  | ⟨0, _⟩ =>
    exact (dot_S10000x32_S32x32_S10000x32_1_0_0_1_n_n.rhsIdx_val_of_single rfl (ix2 r j) _).trans hk
  | ⟨1, _⟩ =>
    show (dot_S10000x32_S32x32_S10000x32_1_0_0_1_n_n.rhsIdx (ix2 r j) _ 1).val = j.val
    unfold DotDims.rhsIdx
    rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
    rfl

/-- The body's result at row `r`, column `j`: the rectified sum of the two row blocks and the bias row, times the weights. -/
theorem pay_apply (x0 x1 : Vec Ideal S10000x32 .f32) (x2 : Vec Ideal S1x32 .f32) (x3 : Vec Ideal S32x32 .f32)
    (r : Fin 10000) (j : Fin 32) :
    k1_pay1 (F := Ideal) x0 x1 x2 x3 (ix2 r j)
      = ∑ k : Fin 32, max (x0 (ix2 r k) + x1 (ix2 r k) + x2 (ix2 (0 : Fin 1) k)) 0 * x3 (ix2 k j) := by
  unfold k1_pay1
  simp only [shapeCast_self]
  simp only [matmul]
  rw [Ideal.matmul_constant_zero_apply, ← Equiv.sum_comp (contrEquiv1 dot_S10000x32_S32x32_S10000x32_1_0_0_1_n_n 32 rfl rfl).symm]
  refine Finset.sum_congr rfl fun k _ => ?_
  rw [lhs_idx, rhs_idx]
  rw [truncf_apply, truncf_apply, maximumf_apply, addf_apply, addf_apply, broadcast_apply, broadcastTo_1b_ab_apply]
  rw [show (FloatOps.ofBits (F := Ideal) FTy.f32 0x00000000#32) = (0 : EReal) from Ideal.ofBits_zero_f32]

/-! ## From blocks to the array -/

/-- The zero offsets, as a constant function. -/
theorem hz : (![0, 0] : Fin 2 → Nat) = fun _ => 0 := funext fun a => by fin_cases a <;> rfl

/-- The block index maps over the 20 grid points: the two row-tiled inputs and the output sit at block `(t, 0)`;
    the bias row and the weights at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The grid has 20 points. -/
theorem lt_points (t : Fin cfg1.N) : t.val < 20 := by
  have h := t.isLt
  have hN : cfg1.N = 20 := N_1
  omega

/-- The body's result at a block coordinate, when each block's element is the array's element at the matching
    array index: the specification at that array index. -/
theorem pay_block (A H : Cert.Spec.Arr 200000 32) (B : Cert.Spec.Arr 1 32) (W : Cert.Spec.Arr 32 32)
    (x0 x1 : Vec Ideal S10000x32 .f32) (x2 : Vec Ideal S1x32 .f32) (x3 : Vec Ideal S32x32 .f32)
    (y : S10000x32.Idx) (i : S200000x32.Idx) (r : Fin 10000) (j : Fin 32) (n : Fin 200000)
    (hy : y = ix2 r j) (hi : i = ix2 n j)
    (h0 : ∀ k : Fin 32, x0 (ix2 r k) = A (ix2 n k))
    (h1 : ∀ k : Fin 32, x1 (ix2 r k) = H (ix2 n k))
    (h2 : ∀ k : Fin 32, x2 (ix2 (0 : Fin 1) k) = B (ix2 (0 : Fin 1) k))
    (h3 : ∀ k : Fin 32, x3 (ix2 k j) = W (ix2 k j)) :
    k1_pay1 (F := Ideal) x0 x1 x2 x3 y = Cert.Spec.c1G A H B W i := by
  subst hy hi
  rw [pay_apply]
  show _ = ∑ k : Fin 32, max (A (ix2 n k) + H (ix2 n k) + B (ix2 (0 : Fin 1) k)) 0 * W (ix2 k j)
  refine Finset.sum_congr rfl fun k _ => ?_
  rw [h0, h1, h2, h3]

section Blocks

variable (V : (c : Dev nD) → (b : Ref sig .tc) → Buf (Elt Ideal) ((c : Thread nD τ).loc b))

/-- An element of a row-tiled input block at point `t` is the array's element `10000 · t` rows further down. -/
theorem blk0_apply (c : Dev nD) (t : Fin cfg1.N) (r : Fin 10000) (k : Fin 32) (n : Fin 200000)
    (hn : n.val = t.val * 10000 + r.val) :
    iblk1 (F := Ideal) V c 0 t (ix2 r k) = V c (Pipeline.arrRef spec1 0) (ix2 n k) := by
  obtain ⟨e0, e1, -⟩ := idx_facts t
  show V c (Pipeline.arrRef spec1 0) (((cfg1.win 0).blk t).view.emb (ix2 r k)) = _
  refine congrArg _ (funext fun a => Fin.ext ?_)
  match a with
  | ⟨0, _⟩ => show win1_0.index t (0 : Fin 2) * 10000 + 1 * r.val = n.val; omega
  | ⟨1, _⟩ => show win1_0.index t (1 : Fin 2) * 32 + 1 * k.val = k.val; omega

theorem blk1_apply (c : Dev nD) (t : Fin cfg1.N) (r : Fin 10000) (k : Fin 32) (n : Fin 200000)
    (hn : n.val = t.val * 10000 + r.val) :
    iblk1 (F := Ideal) V c 1 t (ix2 r k) = V c (Pipeline.arrRef spec1 1) (ix2 n k) := by
  obtain ⟨-, -, e0, e1, -⟩ := idx_facts t
  show V c (Pipeline.arrRef spec1 1) (((cfg1.win 1).blk t).view.emb (ix2 r k)) = _
  refine congrArg _ (funext fun a => Fin.ext ?_)
  match a with
  | ⟨0, _⟩ => show win1_1.index t (0 : Fin 2) * 10000 + 1 * r.val = n.val; omega
  | ⟨1, _⟩ => show win1_1.index t (1 : Fin 2) * 32 + 1 * k.val = k.val; omega

/-- The bias block is the bias row at every point. -/
theorem blk2_apply (c : Dev nD) (t : Fin cfg1.N) (k : Fin 32) :
    iblk1 (F := Ideal) V c 2 t (ix2 (0 : Fin 1) k) = V c (Pipeline.arrRef spec1 2) (ix2 (0 : Fin 1) k) := by
  obtain ⟨-, -, -, -, e0, e1, -⟩ := idx_facts t
  show V c (Pipeline.arrRef spec1 2) (((cfg1.win 2).blk t).view.emb (ix2 (0 : Fin 1) k)) = _
  refine congrArg _ (funext fun a => Fin.ext ?_)
  match a with
  | ⟨0, _⟩ => show win1_2.index t (0 : Fin 2) * 1 + 1 * (0 : Fin 1).val = (0 : Fin 1).val; omega
  | ⟨1, _⟩ => show win1_2.index t (1 : Fin 2) * 32 + 1 * k.val = k.val; omega

/-- The weight block is the weight matrix at every point. -/
theorem blk3_apply (c : Dev nD) (t : Fin cfg1.N) (k j : Fin 32) :
    iblk1 (F := Ideal) V c 3 t (ix2 k j) = V c (Pipeline.arrRef spec1 3) (ix2 k j) := by
  obtain ⟨-, -, -, -, -, -, e0, e1, -⟩ := idx_facts t
  show V c (Pipeline.arrRef spec1 3) (((cfg1.win 3).blk t).view.emb (ix2 k j)) = _
  refine congrArg _ (funext fun a => Fin.ext ?_)
  match a with
  | ⟨0, _⟩ => show win1_3.index t (0 : Fin 2) * 32 + 1 * k.val = k.val; omega
  | ⟨1, _⟩ => show win1_3.index t (1 : Fin 2) * 32 + 1 * j.val = j.val; omega

set_option maxHeartbeats 1000000 in
/-- What point `t` writes back is block `t` of the specification's function of the arrays as the region found them. -/
theorem flushed_eq (c : Dev nD) (t : Fin cfg1.N) :
    (dat1 (F := Ideal) V c).flushed 4 t = ((cfg1.win 4).blk t).view.read (Elt Ideal)
      (Cert.Spec.c1G (V c (Pipeline.arrRef spec1 0)) (V c (Pipeline.arrRef spec1 1)) (V c (Pipeline.arrRef spec1 2)) (V c (Pipeline.arrRef spec1 3))) := by
  show (cfg1.win 4).cut (grid1.coords t) ((dat1 (F := Ideal) V c).after 4 t) = _
  rw [after1_4]
  unfold out1_4
  rw [View.canon_unit_zero hz]
  simp only [View.ld_unit_zero (S := S10000x32) hz, View.ld_unit_zero (S := S1x32) hz, View.ld_unit_zero (S := S32x32) hz]
  have ht := lt_points t
  obtain ⟨-, -, -, -, -, -, -, -, e0, e1⟩ := idx_facts t
  funext y
  have hy0 : (y 0).val < 10000 := (y 0).isLt
  have hy1 : (y 1).val < 32 := (y 1).isLt
  have hn : t.val * 10000 + (y 0).val < 200000 := by omega
  refine pay_block _ _ _ _ _ _ _ _ _ _ ⟨(y 0).val, hy0⟩ ⟨(y 1).val, hy1⟩ ⟨t.val * 10000 + (y 0).val, hn⟩ ?_ ?_
    (fun k => blk0_apply V c t _ k _ rfl) (fun k => blk1_apply V c t _ k _ rfl)
    (fun k => blk2_apply V c t k) (fun k => blk3_apply V c t k _)
  · exact funext fun a => match a with | ⟨0, _⟩ => rfl | ⟨1, _⟩ => rfl
  · funext a; apply Fin.ext
    match a with
    | ⟨0, _⟩ => show win1_4.index t (0 : Fin 2) * 10000 + 1 * (y 0).val = t.val * 10000 + (y 0).val; omega
    | ⟨1, _⟩ => show win1_4.index t (1 : Fin 2) * 32 + 1 * (y 1).val = (y 1).val; omega

/-- An index of the output array is in point `t`'s block iff each coordinate is in the block's range on its axis. -/
theorem mem_blk (t : Fin cfg1.N) (i : S200000x32.Idx) :
    i ∈ ((cfg1.win 4).blk t).view.set ↔ ∀ a : Fin 2, win1_4.index t a * S10000x32.size a ≤ (i a).val ∧ (i a).val < win1_4.index t a * S10000x32.size a + S10000x32.size a := by
  show i ∈ ((View.whole main_v56).slice (win1_4.rect t)).set ↔ _
  rw [View.set_slice_whole, Rect.mem_set_unit]
  exact Iff.rfl

/-- Row `n` of the output is written by point `n / 10000`. -/
theorem cover (i : S200000x32.Idx) :
    ∃ t : Fin cfg1.N, (cfg1.win 4).flush t = true ∧ i ∈ ((cfg1.win 4).blk t).view.set := by
  have hi0 : (i 0).val < 200000 := (i 0).isLt
  have hi1 : (i 1).val < 32 := (i 1).isLt
  have hN : cfg1.N = 20 := N_1
  obtain ⟨t, ht⟩ : ∃ t : Fin cfg1.N, t.val = (i 0).val / 10000 := ⟨⟨(i 0).val / 10000, by rw [hN]; omega⟩, rfl⟩
  obtain ⟨-, -, -, -, -, -, -, -, e0, e1⟩ := idx_facts t
  refine ⟨t, flush1_4 t, ?_⟩
  rw [mem_blk]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 32 ≤ (i 1).val ∧ (i 1).val < win1_4.index t (1 : Fin 2) * 32 + 32; omega

end Blocks

/-- After the region, its output array is the specification's function of its input arrays as the region found them. -/
theorem arr_eq (V : (c : Dev nD) → (b : Ref sig .tc) → Buf (Elt Ideal) ((c : Thread nD τ).loc b)) (c : Dev nD) :
    (GenP.dat1 (F := Ideal) V c).arrAt 4 cfg1.N = Cert.Spec.c1G (V c (Pipeline.arrRef spec1 0)) (V c (Pipeline.arrRef spec1 1)) (V c (Pipeline.arrRef spec1 2)) (V c (Pipeline.arrRef spec1 3)) :=
  (dat1 (F := Ideal) V c).arrAt_eq_of_cover 4 _ (fun t _ => flushed_eq V c t) cover

end Cert.KernelIdeal.Combine1R1

end
-- ==== Proof.Bridge1.lean ====
import proofs.«135273_j69758858821831_1_alg».proof.Proof.KernelIdealFrameP
import proofs.«135273_j69758858821831_1_alg».proof.Proof.RefReadP
import proofs.«135273_j69758858821831_1_alg».proof.Proof.Bridge0
import proofs.«135273_j69758858821831_1_alg».proof.Proof.Combine1R1
import proofs.«135273_j69758858821831_1_alg».proof.Proof.RefStages

/-!
# Boundary 2 to boundary 4: host stretch 1 and region 1

Each buffer the idealized kernel holds at a boundary is stated as the reference's stage of the same operation on the same
operands (or, for the few buffers only the kernel has — a bias as a one-row matrix, the reciprocal of a layer's scalar —
as that operation of reference stages). A buffer no operation of a stretch writes, and no window of a region names,
keeps its contents across it. The region's output is the specification's function of its input arrays, which is the
reference's stage.
-/

set_option maxRecDepth 16384

noncomputable section

namespace Cert.Bridge

open Cert.KernelIdeal Cert.KernelIdeal.Gen Cert.KernelIdeal.GenP
open Idealize.ShloMosaic Idealize.ShloMosaic.TcCoe Idealize.SL.Sem

variable (m : (ℓ : Loc nD τ sig) → Buf (Elt Ideal) ℓ) (ρ : Dev nD → PrngReg) (c : Dev nD)

theorem at_arg0_2 : W2 m ρ c (Proc.devRef .tc main_arg0) = (m ((c : Thread nD τ).loc main_arg0)) :=
  (W2_of_ne m ρ c main_arg0 (by decide)).trans (at_arg0_1 m ρ c)
theorem at_arg1_2 : W2 m ρ c (Proc.devRef .tc main_arg1) = (m ((c : Thread nD τ).loc main_arg1)) :=
  (W2_of_ne m ρ c main_arg1 (by decide)).trans (at_arg1_1 m ρ c)
theorem at_arg4_2 : W2 m ρ c (Proc.devRef .tc main_arg4) = (m ((c : Thread nD τ).loc main_arg4)) :=
  (W2_of_ne m ρ c main_arg4 (by decide)).trans (at_arg4_1 m ρ c)
theorem at_arg5_2 : W2 m ρ c (Proc.devRef .tc main_arg5) = (m ((c : Thread nD τ).loc main_arg5)) :=
  (W2_of_ne m ρ c main_arg5 (by decide)).trans (at_arg5_1 m ρ c)
theorem at_arg6_2 : W2 m ρ c (Proc.devRef .tc main_arg6) = (m ((c : Thread nD τ).loc main_arg6)) :=
  (W2_of_ne m ρ c main_arg6 (by decide)).trans (at_arg6_1 m ρ c)
theorem at_arg7_2 : W2 m ρ c (Proc.devRef .tc main_arg7) = (m ((c : Thread nD τ).loc main_arg7)) :=
  (W2_of_ne m ρ c main_arg7 (by decide)).trans (at_arg7_1 m ρ c)
theorem at_v5_2 : W2 m ρ c (Proc.devRef .tc main_v5) = (Cert.ReferenceIdeal.ReadP.val_main_v3 (F := Ideal) (m ((c : Thread nD τ).loc main_arg1))) :=
  (W2_of_ne m ρ c main_v5 (by decide)).trans (at_v5_1 m ρ c)
theorem at_v28_2 : W2 m ρ c (Proc.devRef .tc main_v28) = (Cert.ReferenceIdeal.ReadP.val_main_v36 (F := Ideal) (m ((c : Thread nD τ).loc main_arg1))) :=
  (W2_of_ne m ρ c main_v28 (by decide)).trans (at_v28_1 m ρ c)
theorem at_v3_2 : W2 m ρ c (Proc.devRef .tc main_v3) = (Cert.ReferenceIdeal.ReadP.val_main_v5 (F := Ideal) (m ((c : Thread nD τ).loc main_arg1))) :=
  (W2_of_ne m ρ c main_v3 (by decide)).trans (at_v3_1 m ρ c)
theorem at_v30_2 : W2 m ρ c (Proc.devRef .tc main_v30) = (Cert.ReferenceIdeal.ReadP.val_main_v38 (F := Ideal) (m ((c : Thread nD τ).loc main_arg1))) :=
  (W2_of_ne m ρ c main_v30 (by decide)).trans (at_v30_1 m ρ c)
theorem at_v35_2 : W2 m ρ c (Proc.devRef .tc main_v35) = (shapeCast _ (Cert.ReferenceIdeal.ReadP.val_main_v9 (F := Ideal) (m ((c : Thread nD τ).loc main_arg5))) shapeCasts_S32_S1x32) :=
  (W2_of_ne m ρ c main_v35 (by decide)).trans (at_v35_1 m ρ c)
theorem at_v37_2 : W2 m ρ c (Proc.devRef .tc main_v37) = (Cert.ReferenceIdeal.ReadP.val_main_v11 (F := Ideal) (m ((c : Thread nD τ).loc main_arg6))) :=
  (W2_of_ne m ρ c main_v37 (by decide)).trans (at_v37_1 m ρ c)
theorem at_v40_2 : W2 m ρ c (Proc.devRef .tc main_v40) = (shapeCast _ (Cert.ReferenceIdeal.ReadP.val_main_v13 (F := Ideal) (m ((c : Thread nD τ).loc main_arg7))) shapeCasts_S32_S1x32) :=
  (W2_of_ne m ρ c main_v40 (by decide)).trans (at_v40_1 m ρ c)
theorem at_arg2_2 : W2 m ρ c (Proc.devRef .tc main_arg2) = (m ((c : Thread nD τ).loc main_arg2)) :=
  (W2_of_ne m ρ c main_arg2 (by decide)).trans (at_arg2_1 m ρ c)
theorem at_arg3_2 : W2 m ρ c (Proc.devRef .tc main_arg3) = (m ((c : Thread nD τ).loc main_arg3)) :=
  (W2_of_ne m ρ c main_arg3 (by decide)).trans (at_arg3_1 m ρ c)
theorem at_arg9_2 : W2 m ρ c (Proc.devRef .tc main_arg9) = (m ((c : Thread nD τ).loc main_arg9)) :=
  (W2_of_ne m ρ c main_arg9 (by decide)).trans (at_arg9_1 m ρ c)
theorem at_arg11_2 : W2 m ρ c (Proc.devRef .tc main_arg11) = (m ((c : Thread nD τ).loc main_arg11)) :=
  (W2_of_ne m ρ c main_arg11 (by decide)).trans (at_arg11_1 m ρ c)
theorem at_arg8_2 : W2 m ρ c (Proc.devRef .tc main_arg8) = (m ((c : Thread nD τ).loc main_arg8)) :=
  (W2_of_ne m ρ c main_arg8 (by decide)).trans (at_arg8_1 m ρ c)
theorem at_arg10_2 : W2 m ρ c (Proc.devRef .tc main_arg10) = (m ((c : Thread nD τ).loc main_arg10)) :=
  (W2_of_ne m ρ c main_arg10 (by decide)).trans (at_arg10_1 m ρ c)
theorem at_v53_3 : W3 m ρ c (Proc.devRef .tc main_v53) = (Cert.ReferenceIdeal.ReadP.val_main_v51 (F := Ideal) (m ((c : Thread nD τ).loc main_arg0)) (m ((c : Thread nD τ).loc main_arg1)) (m ((c : Thread nD τ).loc main_arg4))) := by
  show StableHlo.after hostOps1 (W2 m ρ c) (Proc.devRef .tc main_v53) = _
  after_results_simp
  rw [at_v3_2 m ρ c, at_v41_2 m ρ c, at_v5_2 m ρ c, at_v28_2 m ρ c]
  rfl
theorem at_v55_3 : W3 m ρ c (Proc.devRef .tc main_v55) = (Cert.ReferenceIdeal.ReadP.val_main_v53 (F := Ideal) (m ((c : Thread nD τ).loc main_arg0)) (m ((c : Thread nD τ).loc main_arg1)) (m ((c : Thread nD τ).loc main_arg4))) := by
  show StableHlo.after hostOps1 (W2 m ρ c) (Proc.devRef .tc main_v55) = _
  after_results_simp
  rw [at_v41_2 m ρ c, at_v30_2 m ρ c]
  rfl
theorem at_arg0_3 : W3 m ρ c (Proc.devRef .tc main_arg0) = (m ((c : Thread nD τ).loc main_arg0)) :=
  (StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg0_2 m ρ c)
theorem at_arg1_3 : W3 m ρ c (Proc.devRef .tc main_arg1) = (m ((c : Thread nD τ).loc main_arg1)) :=
  (StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg1_2 m ρ c)
theorem at_arg4_3 : W3 m ρ c (Proc.devRef .tc main_arg4) = (m ((c : Thread nD τ).loc main_arg4)) :=
  (StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg4_2 m ρ c)
theorem at_arg5_3 : W3 m ρ c (Proc.devRef .tc main_arg5) = (m ((c : Thread nD τ).loc main_arg5)) :=
  (StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg5_2 m ρ c)
theorem at_arg6_3 : W3 m ρ c (Proc.devRef .tc main_arg6) = (m ((c : Thread nD τ).loc main_arg6)) :=
  (StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg6_2 m ρ c)
theorem at_arg7_3 : W3 m ρ c (Proc.devRef .tc main_arg7) = (m ((c : Thread nD τ).loc main_arg7)) :=
  (StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg7_2 m ρ c)
theorem at_v5_3 : W3 m ρ c (Proc.devRef .tc main_v5) = (Cert.ReferenceIdeal.ReadP.val_main_v3 (F := Ideal) (m ((c : Thread nD τ).loc main_arg1))) :=
  (StableHlo.after_of_forall_not_mem (b := Proc.devRef .tc main_v5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v5_2 m ρ c)
theorem at_v28_3 : W3 m ρ c (Proc.devRef .tc main_v28) = (Cert.ReferenceIdeal.ReadP.val_main_v36 (F := Ideal) (m ((c : Thread nD τ).loc main_arg1))) :=
  (StableHlo.after_of_forall_not_mem (b := Proc.devRef .tc main_v28) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v28_2 m ρ c)
theorem at_v3_3 : W3 m ρ c (Proc.devRef .tc main_v3) = (Cert.ReferenceIdeal.ReadP.val_main_v5 (F := Ideal) (m ((c : Thread nD τ).loc main_arg1))) :=
  (StableHlo.after_of_forall_not_mem (b := Proc.devRef .tc main_v3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v3_2 m ρ c)
theorem at_v30_3 : W3 m ρ c (Proc.devRef .tc main_v30) = (Cert.ReferenceIdeal.ReadP.val_main_v38 (F := Ideal) (m ((c : Thread nD τ).loc main_arg1))) :=
  (StableHlo.after_of_forall_not_mem (b := Proc.devRef .tc main_v30) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v30_2 m ρ c)
theorem at_v35_3 : W3 m ρ c (Proc.devRef .tc main_v35) = (shapeCast _ (Cert.ReferenceIdeal.ReadP.val_main_v9 (F := Ideal) (m ((c : Thread nD τ).loc main_arg5))) shapeCasts_S32_S1x32) :=
  (StableHlo.after_of_forall_not_mem (b := Proc.devRef .tc main_v35) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v35_2 m ρ c)
theorem at_v37_3 : W3 m ρ c (Proc.devRef .tc main_v37) = (Cert.ReferenceIdeal.ReadP.val_main_v11 (F := Ideal) (m ((c : Thread nD τ).loc main_arg6))) :=
  (StableHlo.after_of_forall_not_mem (b := Proc.devRef .tc main_v37) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v37_2 m ρ c)
theorem at_v40_3 : W3 m ρ c (Proc.devRef .tc main_v40) = (shapeCast _ (Cert.ReferenceIdeal.ReadP.val_main_v13 (F := Ideal) (m ((c : Thread nD τ).loc main_arg7))) shapeCasts_S32_S1x32) :=
  (StableHlo.after_of_forall_not_mem (b := Proc.devRef .tc main_v40) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v40_2 m ρ c)
theorem at_arg2_3 : W3 m ρ c (Proc.devRef .tc main_arg2) = (m ((c : Thread nD τ).loc main_arg2)) :=
  (StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg2_2 m ρ c)
theorem at_arg3_3 : W3 m ρ c (Proc.devRef .tc main_arg3) = (m ((c : Thread nD τ).loc main_arg3)) :=
  (StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg3_2 m ρ c)
theorem at_arg9_3 : W3 m ρ c (Proc.devRef .tc main_arg9) = (m ((c : Thread nD τ).loc main_arg9)) :=
  (StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg9_2 m ρ c)
theorem at_arg11_3 : W3 m ρ c (Proc.devRef .tc main_arg11) = (m ((c : Thread nD τ).loc main_arg11)) :=
  (StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg11_2 m ρ c)
theorem at_arg8_3 : W3 m ρ c (Proc.devRef .tc main_arg8) = (m ((c : Thread nD τ).loc main_arg8)) :=
  (StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg8_2 m ρ c)
theorem at_arg10_3 : W3 m ρ c (Proc.devRef .tc main_arg10) = (m ((c : Thread nD τ).loc main_arg10)) :=
  (StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg10_2 m ρ c)
theorem at_v56_4 : W4 m ρ c (Proc.devRef .tc main_v56) = (Cert.ReferenceIdeal.ReadP.val_main_v59 (F := Ideal) (m ((c : Thread nD τ).loc main_arg0)) (m ((c : Thread nD τ).loc main_arg1)) (m ((c : Thread nD τ).loc main_arg4)) (m ((c : Thread nD τ).loc main_arg5)) (m ((c : Thread nD τ).loc main_arg6))) := by
  refine (W4_arr m ρ c 4).trans ?_
  rw [Cert.KernelIdeal.Combine1R1.arr_eq]
  rw [show V3 m ρ c (Pipeline.arrRef spec1 0) = _ from at_v53_3 m ρ c,
    show V3 m ρ c (Pipeline.arrRef spec1 1) = _ from at_v55_3 m ρ c,
    show V3 m ρ c (Pipeline.arrRef spec1 2) = _ from at_v35_3 m ρ c,
    show V3 m ρ c (Pipeline.arrRef spec1 3) = _ from at_v37_3 m ρ c]
  exact (Cert.ReferenceIdeal.Stages.stage_main_v59 (m ((c : Thread nD τ).loc main_arg0)) (m ((c : Thread nD τ).loc main_arg1)) (m ((c : Thread nD τ).loc main_arg4)) (m ((c : Thread nD τ).loc main_arg5)) (m ((c : Thread nD τ).loc main_arg6)) shapeCasts_S32_S1x32).symm

end Cert.Bridge

end
-- ==== Proof.Combine2R2.lean ====
import proofs.«135273_j69758858821831_1_alg».proof.Proof.KernelIdealFrameP
import proofs.«135273_j69758858821831_1_alg».proof.Proof.Spec
import Idealize.ShloMosaic.Lib.Pipeline.Value
import Idealize.ShloMosaic.Lib.ValueIdx
import Idealize.ShloMosaic.PureOps.Ideal.Laws

/-!
# The second combine stage: the output array is `c2G` of the input arrays

The stage runs over 20 grid points. At point `t` it reads rows `t · 10000 … t · 10000 + 9999` of three `200000 × 32`
arrays `a`, `h`, `g`, the whole `1 × 32` bias row `b` and the whole `1 × 1` scale `s`, and writes the same rows of the
output: `out[n, j] = (((a[n, j] + h[n, j]) + b[0, j]) + g[n, j]) · s[0, 0]`. Every operation is pointwise, so the proof is
bookkeeping of indices:

* the body's result at row `r`, column `j` of a block (`pay_apply`);
* where an entry of a block sits in its array: entry `(r, j)` of a row block at point `t` is entry `(t · 10000 + r, j)`
  of the array, and the bias row and the scale are read whole (`emb0` … `emb5`);
* so what point `t` writes back is block `t` of `c2G` of the arrays (`flushed_eq`);
* the 20 blocks cover the output array — row `n` lies in block `n / 10000` (`cover`) — hence the array after the stage is
  `c2G` of the arrays as the stage found them (`arr_eq`).
-/

set_option maxRecDepth 16384

noncomputable section

namespace Cert.KernelIdeal.Combine2R2

open Cert.KernelIdeal Idealize.ShloMosaic Idealize.ShloMosaic.TcCoe Idealize.ShloMosaic.ValueIdx Idealize.SL.Sem
open Idealize.ShloMosaic.Pipeline (Dat)

/-! ## The body at an index -/

/-- Reading the one entry of a `1 × 1` vector. -/
theorem extract_one {α : Type} (x : S1x1.Idx → α) (h : ∀ a, (![0, 0] : Fin 2 → Nat) a < S1x1.size a) :
    extractAt ![0, 0] x h = x (ix2 0 0) := by
  unfold extractAt
  refine congrArg x (funext fun a => Fin.ext ?_)
  match a with
  | ⟨0, _⟩ => rfl
  | ⟨1, _⟩ => rfl

/-- A one-row vector spread over `10000` rows reads, at row `r` and column `j`, its entry in column `j`. -/
theorem row_spread {α : Type} (x : S1x32.Idx → α) (h : S1x32.Broadcasts S10000x32) (r : Fin 10000) (j : Fin 32) :
    broadcastTo S10000x32 x h (ix2 r j) = x (ix2 0 j) := by
  refine broadcastTo_apply x h (ix2 r j) (ix2 0 j) fun a => ?_
  match a with
  | ⟨0, _⟩ => rfl
  | ⟨1, _⟩ => rfl

/-- The body's result at row `r`, column `j`: the two row blocks, the bias row and the third row block, summed from the
    left, times the scale. -/
theorem pay_apply (x0 x1 : Vec Ideal S10000x32 .f32) (x2 : Vec Ideal S1x32 .f32) (x3 : Vec Ideal S10000x32 .f32)
    (x4 : Vec Ideal S1x1 .f32) (r : Fin 10000) (j : Fin 32) :
    Gen.k2_pay1 (F := Ideal) x0 x1 x2 x3 x4 (ix2 r j)
      = (x0 (ix2 r j) + x1 (ix2 r j) + x2 (ix2 0 j) + x3 (ix2 r j)) * x4 (ix2 0 0) := by
  unfold Gen.k2_pay1
  simp only [shapeCast_self]
  rw [mulf_apply, addf_apply, addf_apply, addf_apply, broadcast_apply, row_spread, extract_one]

/-! ## Where a block's entry sits in its array -/

/-- The zero offsets of a whole-buffer access, spelt as the constant function. -/
theorem zero_off : (![0, 0] : Fin 2 → Nat) = fun _ => 0 := funext fun a => by fin_cases a <;> rfl

/-- The block indices over the 20 grid points: the three row-tiled inputs and the output sit at block `(t, 0)`, the
    bias row and the scale at block `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- There are 20 grid points. -/
theorem point_lt (t : Fin cfg2.N) : t.val < 20 := lt_of_lt_of_eq t.isLt Gen.N_2

/-- Row `r` of the block at point `t` is row `t · 10000 + r` of the array. -/
def row (t : Fin cfg2.N) (r : Fin 10000) : Fin 200000 := ⟨t.val * 10000 + r.val, by have := point_lt t; omega⟩

/-- Entry `(r, j)` of the first row block at point `t` is entry `(t · 10000 + r, j)` of its array. -/
theorem emb0 (t : Fin cfg2.N) (r : Fin 10000) (j : Fin 32) :
    ((cfg2.win 0).blk t).view.emb (ix2 r j) = ix2 (row t r) j := by
  obtain ⟨e0, e1, -⟩ := idx_facts t
  funext a; apply Fin.ext
  match a with
  | ⟨0, _⟩ => show win2_0.index t (0 : Fin 2) * 10000 + 1 * r.val = t.val * 10000 + r.val; omega
  | ⟨1, _⟩ => show win2_0.index t (1 : Fin 2) * 32 + 1 * j.val = j.val; omega

/-- The same for the second row block. -/
theorem emb1 (t : Fin cfg2.N) (r : Fin 10000) (j : Fin 32) :
    ((cfg2.win 1).blk t).view.emb (ix2 r j) = ix2 (row t r) j := by
  obtain ⟨-, -, e0, e1, -⟩ := idx_facts t
  funext a; apply Fin.ext
  match a with
  | ⟨0, _⟩ => show win2_1.index t (0 : Fin 2) * 10000 + 1 * r.val = t.val * 10000 + r.val; omega
  | ⟨1, _⟩ => show win2_1.index t (1 : Fin 2) * 32 + 1 * j.val = j.val; omega

/-- The bias row is read whole at every point: entry `(0, j)` of its block is entry `(0, j)` of the array. -/
theorem emb2 (t : Fin cfg2.N) (j : Fin 32) :
    ((cfg2.win 2).blk t).view.emb (ix2 (0 : Fin 1) j) = ix2 (0 : Fin 1) j := by
  obtain ⟨-, -, -, -, e0, e1, -⟩ := idx_facts t
  funext a; apply Fin.ext
  match a with
  | ⟨0, _⟩ => show win2_2.index t (0 : Fin 2) * 1 + 1 * 0 = 0; omega
  | ⟨1, _⟩ => show win2_2.index t (1 : Fin 2) * 32 + 1 * j.val = j.val; omega

/-- Entry `(r, j)` of the third row block at point `t` is entry `(t · 10000 + r, j)` of its array. -/
theorem emb3 (t : Fin cfg2.N) (r : Fin 10000) (j : Fin 32) :
    ((cfg2.win 3).blk t).view.emb (ix2 r j) = ix2 (row t r) j := by
  obtain ⟨-, -, -, -, -, -, e0, e1, -⟩ := idx_facts t
  funext a; apply Fin.ext
  match a with
  | ⟨0, _⟩ => show win2_3.index t (0 : Fin 2) * 10000 + 1 * r.val = t.val * 10000 + r.val; omega
  | ⟨1, _⟩ => show win2_3.index t (1 : Fin 2) * 32 + 1 * j.val = j.val; omega

/-- The scale is read whole at every point. -/
theorem emb4 (t : Fin cfg2.N) :
    ((cfg2.win 4).blk t).view.emb (ix2 (0 : Fin 1) (0 : Fin 1)) = ix2 (0 : Fin 1) (0 : Fin 1) := by
  obtain ⟨-, -, -, -, -, -, -, -, e0, e1, -⟩ := idx_facts t
  funext a; apply Fin.ext
  match a with
  | ⟨0, _⟩ => show win2_4.index t (0 : Fin 2) * 1 + 1 * 0 = 0; omega
  | ⟨1, _⟩ => show win2_4.index t (1 : Fin 2) * 1 + 1 * 0 = 0; omega

/-- Entry `(r, j)` of the output block at point `t` is written to entry `(t · 10000 + r, j)` of the output array. -/
theorem emb5 (t : Fin cfg2.N) (r : Fin 10000) (j : Fin 32) :
    ((cfg2.win 5).blk t).view.emb (ix2 r j) = ix2 (row t r) j := by
  obtain ⟨-, -, -, -, -, -, -, -, -, -, e0, e1⟩ := idx_facts t
  funext a; apply Fin.ext
  match a with
  | ⟨0, _⟩ => show win2_5.index t (0 : Fin 2) * 10000 + 1 * r.val = t.val * 10000 + r.val; omega
  | ⟨1, _⟩ => show win2_5.index t (1 : Fin 2) * 32 + 1 * j.val = j.val; omega

/-- An index of the output array is in point `t`'s block iff each coordinate is in the block's range on its axis. -/
theorem mem_blk (t : Fin cfg2.N) (i : S200000x32.Idx) :
    i ∈ ((cfg2.win 5).blk t).view.set ↔ ∀ a : Fin 2, win2_5.index t a * S10000x32.size a ≤ (i a).val ∧ (i a).val < win2_5.index t a * S10000x32.size a + S10000x32.size a := by
  show i ∈ ((View.whole main_v73).slice (win2_5.rect t)).set ↔ _
  rw [View.set_slice_whole, Rect.mem_set_unit]
  exact Iff.rfl

/-- Every index of the output array is in some point's block: row `n` belongs to point `n / 10000`. -/
theorem cover (i : S200000x32.Idx) :
    ∃ t : Fin cfg2.N, (cfg2.win 5).flush t = true ∧ i ∈ ((cfg2.win 5).blk t).view.set := by
  have hi0 : (i 0).val < 200000 := idx2_lt0 i
  have hi1 : (i 1).val < 32 := idx2_lt1 i
  let t : Fin cfg2.N := ⟨(i 0).val / 10000, lt_of_lt_of_eq (by omega) Gen.N_2.symm⟩
  obtain ⟨-, -, -, -, -, -, -, -, -, -, e0, e1⟩ := idx_facts t
  have ht : t.val = (i 0).val / 10000 := rfl
  refine ⟨t, Gen.flush2_5 t, ?_⟩
  rw [mem_blk]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 32 ≤ (i 1).val ∧ (i 1).val < win2_5.index t (1 : Fin 2) * 32 + 32; omega

/-- At point `t`, entry `(r, j)`: the body's arithmetic on the entries its blocks read is `c2G` of the whole arrays at the
    array index that entry `(r, j)` of the output block is written to. -/
theorem block_eq (A0 A1 : Cert.Spec.Arr 200000 32) (A2 : Cert.Spec.Arr 1 32) (A3 : Cert.Spec.Arr 200000 32)
    (A4 : Cert.Spec.Arr 1 1) (t : Fin cfg2.N) (r : Fin 10000) (j : Fin 32) :
    (A0 (((cfg2.win 0).blk t).view.emb (ix2 r j)) + A1 (((cfg2.win 1).blk t).view.emb (ix2 r j))
        + A2 (((cfg2.win 2).blk t).view.emb (ix2 (0 : Fin 1) j)) + A3 (((cfg2.win 3).blk t).view.emb (ix2 r j)))
      * A4 (((cfg2.win 4).blk t).view.emb (ix2 (0 : Fin 1) (0 : Fin 1)))
    = Cert.Spec.c2G A0 A1 A2 A3 A4 (((cfg2.win 5).blk t).view.emb (ix2 r j)) := by
  rw [emb0, emb1, emb2, emb3, emb4, emb5]
  rfl

/-- The body's arithmetic respects equality of its five arguments. -/
theorem combine_congr {a0 a1 a2 a3 a4 b0 b1 b2 b3 b4 : EReal} (h0 : a0 = b0) (h1 : a1 = b1) (h2 : a2 = b2)
    (h3 : a3 = b3) (h4 : a4 = b4) : (a0 + a1 + a2 + a3) * a4 = (b0 + b1 + b2 + b3) * b4 := by
  rw [h0, h1, h2, h3, h4]

/-! ## What a point writes back, and the array after the stage -/

section Final

variable (V : (c : Dev nD) → (b : Ref sig .tc) → Buf (Elt Ideal) ((c : Thread nD τ).loc b))

/-- An input block read at an entry is the array read at that entry's place in the array (first row block). -/
theorem read0 (c : Dev nD) (t : Fin cfg2.N) (r : Fin 10000) (j : Fin 32) :
    GenP.iblk2 (F := Ideal) V c 0 t (ix2 r j)
      = V c (Pipeline.arrRef spec2 0) (((cfg2.win 0).blk t).view.emb (ix2 r j)) := rfl

/-- The same for the second row block. -/
theorem read1 (c : Dev nD) (t : Fin cfg2.N) (r : Fin 10000) (j : Fin 32) :
    GenP.iblk2 (F := Ideal) V c 1 t (ix2 r j)
      = V c (Pipeline.arrRef spec2 1) (((cfg2.win 1).blk t).view.emb (ix2 r j)) := rfl

/-- The same for the bias row. -/
theorem read2 (c : Dev nD) (t : Fin cfg2.N) (j : Fin 32) :
    GenP.iblk2 (F := Ideal) V c 2 t (ix2 (0 : Fin 1) j)
      = V c (Pipeline.arrRef spec2 2) (((cfg2.win 2).blk t).view.emb (ix2 (0 : Fin 1) j)) := rfl

/-- The same for the third row block. -/
theorem read3 (c : Dev nD) (t : Fin cfg2.N) (r : Fin 10000) (j : Fin 32) :
    GenP.iblk2 (F := Ideal) V c 3 t (ix2 r j)
      = V c (Pipeline.arrRef spec2 3) (((cfg2.win 3).blk t).view.emb (ix2 r j)) := rfl

/-- The same for the scale. -/
theorem read4 (c : Dev nD) (t : Fin cfg2.N) :
    GenP.iblk2 (F := Ideal) V c 4 t (ix2 (0 : Fin 1) (0 : Fin 1))
      = V c (Pipeline.arrRef spec2 4) (((cfg2.win 4).blk t).view.emb (ix2 (0 : Fin 1) (0 : Fin 1))) := rfl

/-- A whole array read through the output block at an entry is the array at that entry's place. -/
theorem read5 (G : Cert.Spec.Arr 200000 32) (t : Fin cfg2.N) (r : Fin 10000) (j : Fin 32) :
    ((cfg2.win 5).blk t).view.read (Elt Ideal) G (ix2 r j) = G (((cfg2.win 5).blk t).view.emb (ix2 r j)) := rfl

/-- What point `t` writes back is block `t` of `c2G` of the five input arrays as the stage finds them. -/
theorem flushed_eq (c : Dev nD) (t : Fin cfg2.N) :
    (GenP.dat2 (F := Ideal) V c).flushed 5 t
      = ((cfg2.win 5).blk t).view.read (Elt Ideal)
          (Cert.Spec.c2G (V c (Pipeline.arrRef spec2 0)) (V c (Pipeline.arrRef spec2 1)) (V c (Pipeline.arrRef spec2 2))
            (V c (Pipeline.arrRef spec2 3)) (V c (Pipeline.arrRef spec2 4))) := by
  show (cfg2.win 5).cut (grid2.coords t) ((GenP.dat2 (F := Ideal) V c).after 5 t) = _
  rw [GenP.after2_5]
  unfold GenP.out2_5
  rw [View.canon_unit_zero zero_off]
  simp only [View.ld_unit_zero (S := S10000x32) zero_off, View.ld_unit_zero (S := S1x32) zero_off,
    View.ld_unit_zero (S := S1x1) zero_off]
  funext y
  obtain ⟨r, j, rfl⟩ : ∃ (r : Fin 10000) (j : Fin 32), y = ix2 r j := ⟨y 0, y 1, eq_ix2 y⟩
  refine ((pay_apply (GenP.iblk2 V c 0 t) (GenP.iblk2 V c 1 t) (GenP.iblk2 V c 2 t) (GenP.iblk2 V c 3 t)
    (GenP.iblk2 V c 4 t) r j).trans ?_).trans (read5 _ t r j).symm
  refine (combine_congr (read0 V c t r j) (read1 V c t r j) (read2 V c t j) (read3 V c t r j) (read4 V c t)).trans ?_
  exact block_eq (V c (Pipeline.arrRef spec2 0)) (V c (Pipeline.arrRef spec2 1)) (V c (Pipeline.arrRef spec2 2))
    (V c (Pipeline.arrRef spec2 3)) (V c (Pipeline.arrRef spec2 4)) t r j

/-- The output array after the stage is `c2G` of the five input arrays as the stage found them. -/
theorem arr_eq (c : Dev nD) :
    (GenP.dat2 (F := Ideal) V c).arrAt 5 cfg2.N
      = Cert.Spec.c2G (V c (Pipeline.arrRef spec2 0)) (V c (Pipeline.arrRef spec2 1)) (V c (Pipeline.arrRef spec2 2))
          (V c (Pipeline.arrRef spec2 3)) (V c (Pipeline.arrRef spec2 4)) :=
  (GenP.dat2 (F := Ideal) V c).arrAt_eq_of_cover 5 _ (fun t _ => flushed_eq V c t) cover

end Final

end Cert.KernelIdeal.Combine2R2

end
-- ==== Proof.Bridge2.lean ====
import proofs.«135273_j69758858821831_1_alg».proof.Proof.KernelIdealFrameP
import proofs.«135273_j69758858821831_1_alg».proof.Proof.RefReadP
import proofs.«135273_j69758858821831_1_alg».proof.Proof.Bridge1
import proofs.«135273_j69758858821831_1_alg».proof.Proof.Combine2R2
import proofs.«135273_j69758858821831_1_alg».proof.Proof.RefStages

/-!
# Boundary 4 to boundary 6: host stretch 2 and region 2

Each buffer the idealized kernel holds at a boundary is stated as the reference's stage of the same operation on the same
operands (or, for the few buffers only the kernel has — a bias as a one-row matrix, the reciprocal of a layer's scalar —
as that operation of reference stages). A buffer no operation of a stretch writes, and no window of a region names,
keeps its contents across it. The region's output is the specification's function of its input arrays, which is the
reference's stage.
-/

set_option maxRecDepth 16384

noncomputable section

namespace Cert.Bridge

open Cert.KernelIdeal Cert.KernelIdeal.Gen Cert.KernelIdeal.GenP
open Idealize.ShloMosaic Idealize.ShloMosaic.TcCoe Idealize.SL.Sem

variable (m : (ℓ : Loc nD τ sig) → Buf (Elt Ideal) ℓ) (ρ : Dev nD → PrngReg) (c : Dev nD)

theorem at_arg0_4 : W4 m ρ c (Proc.devRef .tc main_arg0) = (m ((c : Thread nD τ).loc main_arg0)) :=
  (W4_of_ne m ρ c main_arg0 (by decide)).trans (at_arg0_3 m ρ c)
theorem at_arg1_4 : W4 m ρ c (Proc.devRef .tc main_arg1) = (m ((c : Thread nD τ).loc main_arg1)) :=
  (W4_of_ne m ρ c main_arg1 (by decide)).trans (at_arg1_3 m ρ c)
theorem at_arg4_4 : W4 m ρ c (Proc.devRef .tc main_arg4) = (m ((c : Thread nD τ).loc main_arg4)) :=
  (W4_of_ne m ρ c main_arg4 (by decide)).trans (at_arg4_3 m ρ c)
theorem at_arg5_4 : W4 m ρ c (Proc.devRef .tc main_arg5) = (m ((c : Thread nD τ).loc main_arg5)) :=
  (W4_of_ne m ρ c main_arg5 (by decide)).trans (at_arg5_3 m ρ c)
theorem at_arg6_4 : W4 m ρ c (Proc.devRef .tc main_arg6) = (m ((c : Thread nD τ).loc main_arg6)) :=
  (W4_of_ne m ρ c main_arg6 (by decide)).trans (at_arg6_3 m ρ c)
theorem at_arg7_4 : W4 m ρ c (Proc.devRef .tc main_arg7) = (m ((c : Thread nD τ).loc main_arg7)) :=
  (W4_of_ne m ρ c main_arg7 (by decide)).trans (at_arg7_3 m ρ c)
theorem at_v5_4 : W4 m ρ c (Proc.devRef .tc main_v5) = (Cert.ReferenceIdeal.ReadP.val_main_v3 (F := Ideal) (m ((c : Thread nD τ).loc main_arg1))) :=
  (W4_of_ne m ρ c main_v5 (by decide)).trans (at_v5_3 m ρ c)
theorem at_v28_4 : W4 m ρ c (Proc.devRef .tc main_v28) = (Cert.ReferenceIdeal.ReadP.val_main_v36 (F := Ideal) (m ((c : Thread nD τ).loc main_arg1))) :=
  (W4_of_ne m ρ c main_v28 (by decide)).trans (at_v28_3 m ρ c)
theorem at_v3_4 : W4 m ρ c (Proc.devRef .tc main_v3) = (Cert.ReferenceIdeal.ReadP.val_main_v5 (F := Ideal) (m ((c : Thread nD τ).loc main_arg1))) :=
  (W4_of_ne m ρ c main_v3 (by decide)).trans (at_v3_3 m ρ c)
theorem at_v30_4 : W4 m ρ c (Proc.devRef .tc main_v30) = (Cert.ReferenceIdeal.ReadP.val_main_v38 (F := Ideal) (m ((c : Thread nD τ).loc main_arg1))) :=
  (W4_of_ne m ρ c main_v30 (by decide)).trans (at_v30_3 m ρ c)
theorem at_v40_4 : W4 m ρ c (Proc.devRef .tc main_v40) = (shapeCast _ (Cert.ReferenceIdeal.ReadP.val_main_v13 (F := Ideal) (m ((c : Thread nD τ).loc main_arg7))) shapeCasts_S32_S1x32) :=
  (W4_of_ne m ρ c main_v40 (by decide)).trans (at_v40_3 m ρ c)
theorem at_arg2_4 : W4 m ρ c (Proc.devRef .tc main_arg2) = (m ((c : Thread nD τ).loc main_arg2)) :=
  (W4_of_ne m ρ c main_arg2 (by decide)).trans (at_arg2_3 m ρ c)
theorem at_arg3_4 : W4 m ρ c (Proc.devRef .tc main_arg3) = (m ((c : Thread nD τ).loc main_arg3)) :=
  (W4_of_ne m ρ c main_arg3 (by decide)).trans (at_arg3_3 m ρ c)
theorem at_arg9_4 : W4 m ρ c (Proc.devRef .tc main_arg9) = (m ((c : Thread nD τ).loc main_arg9)) :=
  (W4_of_ne m ρ c main_arg9 (by decide)).trans (at_arg9_3 m ρ c)
theorem at_arg11_4 : W4 m ρ c (Proc.devRef .tc main_arg11) = (m ((c : Thread nD τ).loc main_arg11)) :=
  (W4_of_ne m ρ c main_arg11 (by decide)).trans (at_arg11_3 m ρ c)
theorem at_arg8_4 : W4 m ρ c (Proc.devRef .tc main_arg8) = (m ((c : Thread nD τ).loc main_arg8)) :=
  (W4_of_ne m ρ c main_arg8 (by decide)).trans (at_arg8_3 m ρ c)
theorem at_arg10_4 : W4 m ρ c (Proc.devRef .tc main_arg10) = (m ((c : Thread nD τ).loc main_arg10)) :=
  (W4_of_ne m ρ c main_arg10 (by decide)).trans (at_arg10_3 m ρ c)
theorem at_v68_5 : W5 m ρ c (Proc.devRef .tc main_v68) = (Cert.ReferenceIdeal.ReadP.val_main_v71 (F := Ideal) (m ((c : Thread nD τ).loc main_arg0)) (m ((c : Thread nD τ).loc main_arg1)) (m ((c : Thread nD τ).loc main_arg4)) (m ((c : Thread nD τ).loc main_arg5)) (m ((c : Thread nD τ).loc main_arg6))) := by
  show StableHlo.after hostOps2 (W4 m ρ c) (Proc.devRef .tc main_v68) = _
  after_results_simp
  rw [at_v3_4 m ρ c, at_v56_4 m ρ c, at_v5_4 m ρ c, at_v28_4 m ρ c]
  rfl
theorem at_v70_5 : W5 m ρ c (Proc.devRef .tc main_v70) = (Cert.ReferenceIdeal.ReadP.val_main_v73 (F := Ideal) (m ((c : Thread nD τ).loc main_arg0)) (m ((c : Thread nD τ).loc main_arg1)) (m ((c : Thread nD τ).loc main_arg4)) (m ((c : Thread nD τ).loc main_arg5)) (m ((c : Thread nD τ).loc main_arg6))) := by
  show StableHlo.after hostOps2 (W4 m ρ c) (Proc.devRef .tc main_v70) = _
  after_results_simp
  rw [at_v56_4 m ρ c, at_v30_4 m ρ c]
  rfl
theorem at_v71_5 : W5 m ρ c (Proc.devRef .tc main_v71) = (Cert.ReferenceIdeal.ReadP.val_main_v49 (F := Ideal)) := by
  show StableHlo.after hostOps2 (W4 m ρ c) (Proc.devRef .tc main_v71) = _
  after_results_simp
  rfl
theorem at_v72_5 : W5 m ρ c (Proc.devRef .tc main_v72) = (broadcastInDim S1x1 ![] bcast_S_S1x1 (Cert.ReferenceIdeal.ReadP.val_main_cst (F := Ideal))) := by
  show StableHlo.after hostOps2 (W4 m ρ c) (Proc.devRef .tc main_v72) = _
  after_results_simp
  rfl
theorem at_arg0_5 : W5 m ρ c (Proc.devRef .tc main_arg0) = (m ((c : Thread nD τ).loc main_arg0)) :=
  (StableHlo.after_of_forall_not_mem (b := Proc.devRef .tc main_arg0) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg0_4 m ρ c)
theorem at_arg1_5 : W5 m ρ c (Proc.devRef .tc main_arg1) = (m ((c : Thread nD τ).loc main_arg1)) :=
  (StableHlo.after_of_forall_not_mem (b := Proc.devRef .tc main_arg1) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg1_4 m ρ c)
theorem at_arg4_5 : W5 m ρ c (Proc.devRef .tc main_arg4) = (m ((c : Thread nD τ).loc main_arg4)) :=
  (StableHlo.after_of_forall_not_mem (b := Proc.devRef .tc main_arg4) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg4_4 m ρ c)
theorem at_arg5_5 : W5 m ρ c (Proc.devRef .tc main_arg5) = (m ((c : Thread nD τ).loc main_arg5)) :=
  (StableHlo.after_of_forall_not_mem (b := Proc.devRef .tc main_arg5) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg5_4 m ρ c)
theorem at_arg6_5 : W5 m ρ c (Proc.devRef .tc main_arg6) = (m ((c : Thread nD τ).loc main_arg6)) :=
  (StableHlo.after_of_forall_not_mem (b := Proc.devRef .tc main_arg6) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg6_4 m ρ c)
theorem at_arg7_5 : W5 m ρ c (Proc.devRef .tc main_arg7) = (m ((c : Thread nD τ).loc main_arg7)) :=
  (StableHlo.after_of_forall_not_mem (b := Proc.devRef .tc main_arg7) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg7_4 m ρ c)
theorem at_v40_5 : W5 m ρ c (Proc.devRef .tc main_v40) = (shapeCast _ (Cert.ReferenceIdeal.ReadP.val_main_v13 (F := Ideal) (m ((c : Thread nD τ).loc main_arg7))) shapeCasts_S32_S1x32) :=
  (StableHlo.after_of_forall_not_mem (b := Proc.devRef .tc main_v40) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v40_4 m ρ c)
theorem at_arg2_5 : W5 m ρ c (Proc.devRef .tc main_arg2) = (m ((c : Thread nD τ).loc main_arg2)) :=
  (StableHlo.after_of_forall_not_mem (b := Proc.devRef .tc main_arg2) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg2_4 m ρ c)
theorem at_arg3_5 : W5 m ρ c (Proc.devRef .tc main_arg3) = (m ((c : Thread nD τ).loc main_arg3)) :=
  (StableHlo.after_of_forall_not_mem (b := Proc.devRef .tc main_arg3) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg3_4 m ρ c)
theorem at_arg9_5 : W5 m ρ c (Proc.devRef .tc main_arg9) = (m ((c : Thread nD τ).loc main_arg9)) :=
  (StableHlo.after_of_forall_not_mem (b := Proc.devRef .tc main_arg9) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg9_4 m ρ c)
theorem at_arg11_5 : W5 m ρ c (Proc.devRef .tc main_arg11) = (m ((c : Thread nD τ).loc main_arg11)) :=
  (StableHlo.after_of_forall_not_mem (b := Proc.devRef .tc main_arg11) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg11_4 m ρ c)
theorem at_arg8_5 : W5 m ρ c (Proc.devRef .tc main_arg8) = (m ((c : Thread nD τ).loc main_arg8)) :=
  (StableHlo.after_of_forall_not_mem (b := Proc.devRef .tc main_arg8) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg8_4 m ρ c)
theorem at_arg10_5 : W5 m ρ c (Proc.devRef .tc main_arg10) = (m ((c : Thread nD τ).loc main_arg10)) :=
  (StableHlo.after_of_forall_not_mem (b := Proc.devRef .tc main_arg10) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg10_4 m ρ c)
theorem at_v73_6 : W6 m ρ c (Proc.devRef .tc main_v73) = (Cert.ReferenceIdeal.ReadP.val_main_v77 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) := by
  refine (W6_arr m ρ c 5).trans ?_
  rw [Cert.KernelIdeal.Combine2R2.arr_eq]
  rw [show V5 m ρ c (Pipeline.arrRef spec2 0) = _ from at_v68_5 m ρ c,
    show V5 m ρ c (Pipeline.arrRef spec2 1) = _ from at_v70_5 m ρ c,
    show V5 m ρ c (Pipeline.arrRef spec2 2) = _ from at_v40_5 m ρ c,
    show V5 m ρ c (Pipeline.arrRef spec2 3) = _ from at_v71_5 m ρ c,
    show V5 m ρ c (Pipeline.arrRef spec2 4) = _ from at_v72_5 m ρ c]
  exact (Cert.ReferenceIdeal.Stages.stage_main_v77 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) shapeCasts_S32_S1x32 bcast_S_S1x1).symm

end Cert.Bridge

end
-- ==== Proof.MatmulR3.lean ====
import proofs.«135273_j69758858821831_1_alg».proof.Proof.KernelIdealFrameP
import proofs.«135273_j69758858821831_1_alg».proof.Proof.Spec
import Idealize.ShloMosaic.Lib.Pipeline.Value
import Idealize.ShloMosaic.Lib.ValueIdx
import Idealize.ShloMosaic.PureOps.Ideal.Laws

/-!
# Region 3: rows of features times a weight matrix

The region walks the 200000 rows in 20 blocks of 10000. At block `t` it loads rows `10000·t … 10000·t + 9999` of
the features and the whole `20 × 32` weight matrix, and stores their product. An entry of the stored block is the row
of the loaded block times a column of the weights; the blocks tile the array; so the array the region leaves is the
product of the whole feature array with the weights, row by row.
-/

set_option maxRecDepth 16384

noncomputable section

open scoped BigOperators

namespace Cert.KernelIdeal.MatmulR3

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

/-! ## The product at an entry of a block -/

theorem lhs_row (i : S10000x32.Idx) (q : (dot_S10000x20_S20x32_S10000x32_1_0_0_1_n_n).contr.Idx) :
    ((dot_S10000x20_S20x32_S10000x32_1_0_0_1_n_n).lhsIdx i q 0).val = (i 0).val := by
  unfold DotDims.lhsIdx
  rw [dif_neg (show ¬(0 : Fin S10000x20.rank) ∈ (dot_S10000x20_S20x32_S10000x32_1_0_0_1_n_n).lhsBatch by decide), dif_pos (show (0 : Fin S10000x20.rank) ∈ (dot_S10000x20_S20x32_S10000x32_1_0_0_1_n_n).lhsNonContracting by decide)]
  rfl
theorem lhs_contr (i : S10000x32.Idx) (q : (dot_S10000x20_S20x32_S10000x32_1_0_0_1_n_n).contr.Idx) :
    ((dot_S10000x20_S20x32_S10000x32_1_0_0_1_n_n).lhsIdx i q 1).val = (q ⟨0, by decide⟩).val :=
  (dot_S10000x20_S20x32_S10000x32_1_0_0_1_n_n).lhsIdx_val_of_single rfl i q
theorem rhs_contr (i : S10000x32.Idx) (q : (dot_S10000x20_S20x32_S10000x32_1_0_0_1_n_n).contr.Idx) :
    ((dot_S10000x20_S20x32_S10000x32_1_0_0_1_n_n).rhsIdx i q 0).val = (q ⟨0, by decide⟩).val :=
  (dot_S10000x20_S20x32_S10000x32_1_0_0_1_n_n).rhsIdx_val_of_single rfl i q
theorem rhs_col (i : S10000x32.Idx) (q : (dot_S10000x20_S20x32_S10000x32_1_0_0_1_n_n).contr.Idx) :
    ((dot_S10000x20_S20x32_S10000x32_1_0_0_1_n_n).rhsIdx i q 1).val = (i 1).val := by
  unfold DotDims.rhsIdx
  rw [dif_neg (show ¬(1 : Fin S20x32.rank) ∈ (dot_S10000x20_S20x32_S10000x32_1_0_0_1_n_n).rhsBatch by decide), dif_pos (show (1 : Fin S20x32.rank) ∈ (dot_S10000x20_S20x32_S10000x32_1_0_0_1_n_n).rhsNonContracting by decide)]
  rfl

/-- The body's one store, at row `r` and column `j` of the block: the row of the feature block times the column of
    the weights (narrowing either operand changes nothing over the extended reals, and the accumulator is zero). -/
theorem pay_eq (x0 : Vec Ideal S10000x20 .f32) (x1 : Vec Ideal S20x32 .f32) (r : Fin 10000) (j : Fin 32) :
    k3_pay1 (F := Ideal) x0 x1 (ix2 r j) = ∑ k : Fin 20, x0 (ix2 r k) * x1 (ix2 k j) := by
  unfold k3_pay1
  refine (Ideal.matmul_constant_zero_apply dot_S10000x20_S20x32_S10000x32_1_0_0_1_n_n none _ _ (ix2 r j)).trans ?_
  rw [← Equiv.sum_comp (contrEquiv1 dot_S10000x20_S20x32_S10000x32_1_0_0_1_n_n 20 rfl rfl).symm]
  refine Finset.sum_congr rfl fun k _ => ?_
  have hk := contrEquiv1_symm_val dot_S10000x20_S20x32_S10000x32_1_0_0_1_n_n 20 rfl rfl k
  have el : (dot_S10000x20_S20x32_S10000x32_1_0_0_1_n_n).lhsIdx (ix2 r j) ((contrEquiv1 dot_S10000x20_S20x32_S10000x32_1_0_0_1_n_n 20 rfl rfl).symm k) = ix2 r k := funext fun a => Fin.ext (by
    match a with
    | ⟨0, _⟩ => exact lhs_row _ _
    | ⟨1, _⟩ => exact (lhs_contr _ _).trans hk)
  have er : (dot_S10000x20_S20x32_S10000x32_1_0_0_1_n_n).rhsIdx (ix2 r j) ((contrEquiv1 dot_S10000x20_S20x32_S10000x32_1_0_0_1_n_n 20 rfl rfl).symm k) = ix2 k j := funext fun a => Fin.ext (by
    match a with
    | ⟨0, _⟩ => exact (rhs_contr _ _).trans hk
    | ⟨1, _⟩ => exact rhs_col _ _)
  rw [el, er]
  simp only [truncf_apply, shapeCast_self]

/-! ## From blocks to the array -/

theorem hz : (![0, 0] : Fin 2 → Nat) = fun _ => 0 := funext fun a => by fin_cases a <;> rfl

/-- The index maps over the 20 grid points: the feature and output windows move down one block of rows per point, the
    weight window stays. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b)) (c : Dev nD)

set_option maxHeartbeats 1000000 in
/-- What point `t` writes back is block `t` of the product of the whole arrays. -/
theorem flushed_eq (t : Fin cfg3.N) :
    (dat3 (F := Ideal) V c).flushed 2 t = ((cfg3.win 2).blk t).view.read (Elt Ideal)
      (Cert.Spec.mmG (V c (Pipeline.arrRef spec3 0)) (V c (Pipeline.arrRef spec3 1))) := by
  show (cfg3.win 2).cut (grid3.coords t) ((dat3 V c).after 2 t) = _
  rw [after3_2]
  unfold out3_2
  rw [View.canon_unit_zero hz]
  simp only [View.ld_unit_zero (S := S10000x20) hz, View.ld_unit_zero (S := S20x32) hz]
  obtain ⟨e0, e1, e2, e3, e4, e5⟩ := idx_facts t
  funext y
  obtain ⟨r, j, rfl⟩ : ∃ (r : Fin 10000) (j : Fin 32), y = ix2 r j := ⟨y 0, y 1, eq_ix2 y⟩
  refine (pay_eq (iblk3 V c 0 t) (iblk3 V c 1 t) r j).trans ?_
  show _ = Cert.Spec.mmG (V c (Pipeline.arrRef spec3 0)) (V c (Pipeline.arrRef spec3 1)) (((cfg3.win 2).blk t).view.emb (ix2 r j))
  unfold Cert.Spec.mmG
  refine Finset.sum_congr rfl fun k _ => ?_
  have hx : iblk3 V c 0 t (ix2 r k) = V c (Pipeline.arrRef spec3 0) (ix2 ((((cfg3.win 2).blk t).view.emb (ix2 r j)) 0) k) := by
    show V c (Pipeline.arrRef spec3 0) (((cfg3.win 0).blk t).view.emb (ix2 r k)) = _
    refine congrArg _ (funext fun a => Fin.ext ?_)
    match a with
    | ⟨0, _⟩ => show win3_0.index t (0 : Fin 2) * 10000 + 1 * r.val = win3_2.index t (0 : Fin 2) * 10000 + 1 * r.val; omega
    | ⟨1, _⟩ => show win3_0.index t (1 : Fin 2) * 20 + 1 * k.val = k.val; omega
  have hw : iblk3 V c 1 t (ix2 k j) = V c (Pipeline.arrRef spec3 1) (ix2 k ((((cfg3.win 2).blk t).view.emb (ix2 r j)) 1)) := by
    show V c (Pipeline.arrRef spec3 1) (((cfg3.win 1).blk t).view.emb (ix2 k j)) = _
    refine congrArg _ (funext fun a => Fin.ext ?_)
    match a with
    | ⟨0, _⟩ => show win3_1.index t (0 : Fin 2) * 20 + 1 * k.val = k.val; omega
    | ⟨1, _⟩ => show win3_1.index t (1 : Fin 2) * 32 + 1 * j.val = win3_2.index t (1 : Fin 2) * 32 + 1 * j.val; omega
  rw [hx, hw]

/-- An index of the array is in point `t`'s block iff each coordinate is in the block's range on its axis. -/
theorem mem_blk (t : Fin cfg3.N) (i : S200000x32.Idx) :
    i ∈ ((cfg3.win 2).blk t).view.set ↔ ∀ a : Fin 2, win3_2.index t a * S10000x32.size a ≤ (i a).val ∧ (i a).val < win3_2.index t a * S10000x32.size a + S10000x32.size a := by
  show i ∈ ((View.whole main_v115).slice (win3_2.rect t)).set ↔ _
  rw [View.set_slice_whole, Rect.mem_set_unit]
  exact Iff.rfl

/-- Row `n` lies in the block of point `n / 10000`: the 20 blocks tile the array. -/
theorem cover (i : S200000x32.Idx) :
    ∃ t : Fin cfg3.N, (cfg3.win 2).flush t = true ∧ i ∈ ((cfg3.win 2).blk t).view.set := by
  have h0 : (i 0).val < 200000 := (i 0).isLt
  have h1 : (i 1).val < 32 := (i 1).isLt
  have ht : (i 0).val / 10000 < 20 := by omega
  obtain ⟨e0, e1, e2, e3, e4, e5⟩ := idx_facts ⟨(i 0).val / 10000, ht⟩
  refine ⟨⟨(i 0).val / 10000, ht⟩, flush3_2 _, ?_⟩
  rw [mem_blk]
  intro a
  match a with
  | ⟨0, _⟩ =>
    show win3_2.index ⟨(i 0).val / 10000, ht⟩ (0 : Fin 2) * 10000 ≤ (i 0).val ∧ (i 0).val < win3_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win3_2.index ⟨(i 0).val / 10000, ht⟩ (1 : Fin 2) * 32 ≤ (i 1).val ∧ (i 1).val < win3_2.index ⟨(i 0).val / 10000, ht⟩ (1 : Fin 2) * 32 + 32
    rw [e5]; omega

/-- After the region its output array is the product of the feature array and the weights, as the region found them. -/
theorem arr_eq :
    (dat3 (F := Ideal) V c).arrAt 2 cfg3.N
      = Cert.Spec.mmG (V c (Pipeline.arrRef spec3 0)) (V c (Pipeline.arrRef spec3 1)) :=
  (dat3 (F := Ideal) V c).arrAt_eq_of_cover 2 _ (fun t _ => flushed_eq V c t) (cover)

end Cert.KernelIdeal.MatmulR3

end
-- ==== Proof.Bridge3.lean ====
import proofs.«135273_j69758858821831_1_alg».proof.Proof.KernelIdealFrameP
import proofs.«135273_j69758858821831_1_alg».proof.Proof.RefReadP
import proofs.«135273_j69758858821831_1_alg».proof.Proof.Bridge2
import proofs.«135273_j69758858821831_1_alg».proof.Proof.MatmulR3
import proofs.«135273_j69758858821831_1_alg».proof.Proof.RefStages

/-!
# Boundary 6 to boundary 8: host stretch 3 and region 3

Each buffer the idealized kernel holds at a boundary is stated as the reference's stage of the same operation on the same
operands (or, for the few buffers only the kernel has — a bias as a one-row matrix, the reciprocal of a layer's scalar —
as that operation of reference stages). A buffer no operation of a stretch writes, and no window of a region names,
keeps its contents across it. The region's output is the specification's function of its input arrays, which is the
reference's stage.
-/

set_option maxRecDepth 16384

noncomputable section

namespace Cert.Bridge

open Cert.KernelIdeal Cert.KernelIdeal.Gen Cert.KernelIdeal.GenP
open Idealize.ShloMosaic Idealize.ShloMosaic.TcCoe Idealize.SL.Sem

variable (m : (ℓ : Loc nD τ sig) → Buf (Elt Ideal) ℓ) (ρ : Dev nD → PrngReg) (c : Dev nD)

theorem at_arg0_6 : W6 m ρ c (Proc.devRef .tc main_arg0) = (m ((c : Thread nD τ).loc main_arg0)) :=
  (W6_of_ne m ρ c main_arg0 (by decide)).trans (at_arg0_5 m ρ c)
theorem at_arg1_6 : W6 m ρ c (Proc.devRef .tc main_arg1) = (m ((c : Thread nD τ).loc main_arg1)) :=
  (W6_of_ne m ρ c main_arg1 (by decide)).trans (at_arg1_5 m ρ c)
theorem at_arg4_6 : W6 m ρ c (Proc.devRef .tc main_arg4) = (m ((c : Thread nD τ).loc main_arg4)) :=
  (W6_of_ne m ρ c main_arg4 (by decide)).trans (at_arg4_5 m ρ c)
theorem at_arg5_6 : W6 m ρ c (Proc.devRef .tc main_arg5) = (m ((c : Thread nD τ).loc main_arg5)) :=
  (W6_of_ne m ρ c main_arg5 (by decide)).trans (at_arg5_5 m ρ c)
theorem at_arg6_6 : W6 m ρ c (Proc.devRef .tc main_arg6) = (m ((c : Thread nD τ).loc main_arg6)) :=
  (W6_of_ne m ρ c main_arg6 (by decide)).trans (at_arg6_5 m ρ c)
theorem at_arg7_6 : W6 m ρ c (Proc.devRef .tc main_arg7) = (m ((c : Thread nD τ).loc main_arg7)) :=
  (W6_of_ne m ρ c main_arg7 (by decide)).trans (at_arg7_5 m ρ c)
theorem at_arg2_6 : W6 m ρ c (Proc.devRef .tc main_arg2) = (m ((c : Thread nD τ).loc main_arg2)) :=
  (W6_of_ne m ρ c main_arg2 (by decide)).trans (at_arg2_5 m ρ c)
theorem at_arg3_6 : W6 m ρ c (Proc.devRef .tc main_arg3) = (m ((c : Thread nD τ).loc main_arg3)) :=
  (W6_of_ne m ρ c main_arg3 (by decide)).trans (at_arg3_5 m ρ c)
theorem at_arg9_6 : W6 m ρ c (Proc.devRef .tc main_arg9) = (m ((c : Thread nD τ).loc main_arg9)) :=
  (W6_of_ne m ρ c main_arg9 (by decide)).trans (at_arg9_5 m ρ c)
theorem at_arg11_6 : W6 m ρ c (Proc.devRef .tc main_arg11) = (m ((c : Thread nD τ).loc main_arg11)) :=
  (W6_of_ne m ρ c main_arg11 (by decide)).trans (at_arg11_5 m ρ c)
theorem at_arg8_6 : W6 m ρ c (Proc.devRef .tc main_arg8) = (m ((c : Thread nD τ).loc main_arg8)) :=
  (W6_of_ne m ρ c main_arg8 (by decide)).trans (at_arg8_5 m ρ c)
theorem at_arg10_6 : W6 m ρ c (Proc.devRef .tc main_arg10) = (m ((c : Thread nD τ).loc main_arg10)) :=
  (W6_of_ne m ρ c main_arg10 (by decide)).trans (at_arg10_5 m ρ c)
theorem at_v75_7 : W7 m ρ c (Proc.devRef .tc main_v75) = (Cert.ReferenceIdeal.ReadP.val_main_v79 (F := Ideal) (m ((c : Thread nD τ).loc main_arg0))) := by
  show StableHlo.after hostOps3 (W6 m ρ c) (Proc.devRef .tc main_v75) = _
  after_results_simp
  rw [at_arg0_6 m ρ c]
  rfl
theorem at_v77_7 : W7 m ρ c (Proc.devRef .tc main_v77) = (Cert.ReferenceIdeal.ReadP.val_main_v83 (F := Ideal) (m ((c : Thread nD τ).loc main_arg1))) := by
  show StableHlo.after hostOps3 (W6 m ρ c) (Proc.devRef .tc main_v77) = _
  after_results_simp
  rw [at_arg1_6 m ρ c]
  rfl
theorem at_v79_7 : W7 m ρ c (Proc.devRef .tc main_v79) = (Cert.ReferenceIdeal.ReadP.val_main_v81 (F := Ideal) (m ((c : Thread nD τ).loc main_arg1))) := by
  show StableHlo.after hostOps3 (W6 m ρ c) (Proc.devRef .tc main_v79) = _
  after_results_simp
  rw [at_arg1_6 m ρ c]
  rfl
theorem at_v102_7 : W7 m ρ c (Proc.devRef .tc main_v102) = (Cert.ReferenceIdeal.ReadP.val_main_v114 (F := Ideal) (m ((c : Thread nD τ).loc main_arg1))) := by
  show StableHlo.after hostOps3 (W6 m ρ c) (Proc.devRef .tc main_v102) = _
  after_results_simp
  rw [at_arg1_6 m ρ c]
  rfl
theorem at_v104_7 : W7 m ρ c (Proc.devRef .tc main_v104) = (Cert.ReferenceIdeal.ReadP.val_main_v116 (F := Ideal) (m ((c : Thread nD τ).loc main_arg1))) := by
  show StableHlo.after hostOps3 (W6 m ρ c) (Proc.devRef .tc main_v104) = _
  after_results_simp
  rw [at_arg1_6 m ρ c]
  rfl
theorem at_v106_7 : W7 m ρ c (Proc.devRef .tc main_v106) = (Cert.ReferenceIdeal.ReadP.val_main_v85 (F := Ideal) (m ((c : Thread nD τ).loc main_arg4))) := by
  show StableHlo.after hostOps3 (W6 m ρ c) (Proc.devRef .tc main_v106) = _
  after_results_simp
  rw [at_arg4_6 m ρ c]
  rfl
theorem at_v109_7 : W7 m ρ c (Proc.devRef .tc main_v109) = (shapeCast _ (Cert.ReferenceIdeal.ReadP.val_main_v87 (F := Ideal) (m ((c : Thread nD τ).loc main_arg5))) shapeCasts_S32_S1x32) := by
  show StableHlo.after hostOps3 (W6 m ρ c) (Proc.devRef .tc main_v109) = _
  after_results_simp
  rw [at_arg5_6 m ρ c]
  rfl
theorem at_v111_7 : W7 m ρ c (Proc.devRef .tc main_v111) = (Cert.ReferenceIdeal.ReadP.val_main_v89 (F := Ideal) (m ((c : Thread nD τ).loc main_arg6))) := by
  show StableHlo.after hostOps3 (W6 m ρ c) (Proc.devRef .tc main_v111) = _
  after_results_simp
  rw [at_arg6_6 m ρ c]
  rfl
theorem at_v114_7 : W7 m ρ c (Proc.devRef .tc main_v114) = (shapeCast _ (Cert.ReferenceIdeal.ReadP.val_main_v91 (F := Ideal) (m ((c : Thread nD τ).loc main_arg7))) shapeCasts_S32_S1x32) := by
  show StableHlo.after hostOps3 (W6 m ρ c) (Proc.devRef .tc main_v114) = _
  after_results_simp
  rw [at_arg7_6 m ρ c]
  rfl
theorem at_arg0_7 : W7 m ρ c (Proc.devRef .tc main_arg0) = (m ((c : Thread nD τ).loc main_arg0)) :=
  (StableHlo.after_of_forall_not_mem (b := Proc.devRef .tc main_arg0) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg0_6 m ρ c)
theorem at_arg1_7 : W7 m ρ c (Proc.devRef .tc main_arg1) = (m ((c : Thread nD τ).loc main_arg1)) :=
  (StableHlo.after_of_forall_not_mem (b := Proc.devRef .tc main_arg1) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg1_6 m ρ c)
theorem at_arg4_7 : W7 m ρ c (Proc.devRef .tc main_arg4) = (m ((c : Thread nD τ).loc main_arg4)) :=
  (StableHlo.after_of_forall_not_mem (b := Proc.devRef .tc main_arg4) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg4_6 m ρ c)
theorem at_arg5_7 : W7 m ρ c (Proc.devRef .tc main_arg5) = (m ((c : Thread nD τ).loc main_arg5)) :=
  (StableHlo.after_of_forall_not_mem (b := Proc.devRef .tc main_arg5) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg5_6 m ρ c)
theorem at_arg6_7 : W7 m ρ c (Proc.devRef .tc main_arg6) = (m ((c : Thread nD τ).loc main_arg6)) :=
  (StableHlo.after_of_forall_not_mem (b := Proc.devRef .tc main_arg6) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg6_6 m ρ c)
theorem at_arg7_7 : W7 m ρ c (Proc.devRef .tc main_arg7) = (m ((c : Thread nD τ).loc main_arg7)) :=
  (StableHlo.after_of_forall_not_mem (b := Proc.devRef .tc main_arg7) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg7_6 m ρ c)
theorem at_arg2_7 : W7 m ρ c (Proc.devRef .tc main_arg2) = (m ((c : Thread nD τ).loc main_arg2)) :=
  (StableHlo.after_of_forall_not_mem (b := Proc.devRef .tc main_arg2) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg2_6 m ρ c)
theorem at_v73_7 : W7 m ρ c (Proc.devRef .tc main_v73) = (Cert.ReferenceIdeal.ReadP.val_main_v77 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) :=
  (StableHlo.after_of_forall_not_mem (b := Proc.devRef .tc main_v73) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v73_6 m ρ c)
theorem at_arg3_7 : W7 m ρ c (Proc.devRef .tc main_arg3) = (m ((c : Thread nD τ).loc main_arg3)) :=
  (StableHlo.after_of_forall_not_mem (b := Proc.devRef .tc main_arg3) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg3_6 m ρ c)
theorem at_arg9_7 : W7 m ρ c (Proc.devRef .tc main_arg9) = (m ((c : Thread nD τ).loc main_arg9)) :=
  (StableHlo.after_of_forall_not_mem (b := Proc.devRef .tc main_arg9) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg9_6 m ρ c)
theorem at_arg11_7 : W7 m ρ c (Proc.devRef .tc main_arg11) = (m ((c : Thread nD τ).loc main_arg11)) :=
  (StableHlo.after_of_forall_not_mem (b := Proc.devRef .tc main_arg11) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg11_6 m ρ c)
theorem at_arg8_7 : W7 m ρ c (Proc.devRef .tc main_arg8) = (m ((c : Thread nD τ).loc main_arg8)) :=
  (StableHlo.after_of_forall_not_mem (b := Proc.devRef .tc main_arg8) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg8_6 m ρ c)
theorem at_arg10_7 : W7 m ρ c (Proc.devRef .tc main_arg10) = (m ((c : Thread nD τ).loc main_arg10)) :=
  (StableHlo.after_of_forall_not_mem (b := Proc.devRef .tc main_arg10) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg10_6 m ρ c)
theorem at_v115_8 : W8 m ρ c (Proc.devRef .tc main_v115) = (Cert.ReferenceIdeal.ReadP.val_main_v117 (F := Ideal) (m ((c : Thread nD τ).loc main_arg0)) (m ((c : Thread nD τ).loc main_arg4))) := by
  refine (W8_arr m ρ c 2).trans ?_
  rw [Cert.KernelIdeal.MatmulR3.arr_eq]
  rw [show V7 m ρ c (Pipeline.arrRef spec3 0) = _ from at_v75_7 m ρ c,
    show V7 m ρ c (Pipeline.arrRef spec3 1) = _ from at_v106_7 m ρ c]
  exact (Cert.ReferenceIdeal.Stages.stage_main_v117 (m ((c : Thread nD τ).loc main_arg0)) (m ((c : Thread nD τ).loc main_arg4))).symm

end Cert.Bridge

end
-- ==== Proof.Combine1R4.lean ====
import proofs.«135273_j69758858821831_1_alg».proof.Proof.KernelIdealFrameP
import proofs.«135273_j69758858821831_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# Region 4: the rectified sum of two row blocks and a bias row, times the weights

At each of the 20 grid points the region's body reads rows `10000 t … 10000 t + 9999` of the two `200000 × 32`
inputs `a`, `h`, the bias row `b` and the `32 × 32` weights `w`, and writes the same rows of the output:
`out[n, j] = ∑ k, max (a[n, k] + h[n, k] + b[0, k]) 0 · w[k, j]`. First the body's result is read at a block
coordinate; then each block's element is identified with an element of its array; the blocks tile the output, so
the output array after the region is the specification's function of the input arrays.
-/

noncomputable section

namespace Cert.KernelIdeal.Combine1R4

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)
open scoped BigOperators

/-- The contraction's left operand index at output `(r, j)` and contraction coordinate `k` is `(r, k)`. -/
theorem lhs_idx (r : Fin 10000) (j k : Fin 32) :
    dot_S10000x32_S32x32_S10000x32_1_0_0_1_n_n.lhsIdx (ix2 r j)
      ((contrEquiv1 dot_S10000x32_S32x32_S10000x32_1_0_0_1_n_n 32 rfl rfl).symm k) = ix2 r k := by
  have hk := contrEquiv1_symm_val dot_S10000x32_S32x32_S10000x32_1_0_0_1_n_n 32 rfl rfl k
  funext a; apply Fin.ext
  match a with
  | ⟨0, _⟩ =>
    show (dot_S10000x32_S32x32_S10000x32_1_0_0_1_n_n.lhsIdx (ix2 r j) _ 0).val = r.val
    unfold DotDims.lhsIdx
    rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
    rfl
  | ⟨1, _⟩ =>
    exact (dot_S10000x32_S32x32_S10000x32_1_0_0_1_n_n.lhsIdx_val_of_single rfl (ix2 r j) _).trans hk

/-- The right operand index is `(k, j)`. -/
theorem rhs_idx (r : Fin 10000) (j k : Fin 32) :
    dot_S10000x32_S32x32_S10000x32_1_0_0_1_n_n.rhsIdx (ix2 r j)
      ((contrEquiv1 dot_S10000x32_S32x32_S10000x32_1_0_0_1_n_n 32 rfl rfl).symm k) = ix2 k j := by
  have hk := contrEquiv1_symm_val dot_S10000x32_S32x32_S10000x32_1_0_0_1_n_n 32 rfl rfl k
  funext a; apply Fin.ext
  match a with
  | ⟨0, _⟩ =>
    exact (dot_S10000x32_S32x32_S10000x32_1_0_0_1_n_n.rhsIdx_val_of_single rfl (ix2 r j) _).trans hk
  | ⟨1, _⟩ =>
    show (dot_S10000x32_S32x32_S10000x32_1_0_0_1_n_n.rhsIdx (ix2 r j) _ 1).val = j.val
    unfold DotDims.rhsIdx
    rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
    rfl

/-- The body's result at row `r`, column `j`: the rectified sum of the two row blocks and the bias row, times the weights. -/
theorem pay_apply (x0 x1 : Vec Ideal S10000x32 .f32) (x2 : Vec Ideal S1x32 .f32) (x3 : Vec Ideal S32x32 .f32)
    (r : Fin 10000) (j : Fin 32) :
    k4_pay1 (F := Ideal) x0 x1 x2 x3 (ix2 r j)
      = ∑ k : Fin 32, max (x0 (ix2 r k) + x1 (ix2 r k) + x2 (ix2 (0 : Fin 1) k)) 0 * x3 (ix2 k j) := by
  unfold k4_pay1
  simp only [shapeCast_self]
  simp only [matmul]
  rw [Ideal.matmul_constant_zero_apply, ← Equiv.sum_comp (contrEquiv1 dot_S10000x32_S32x32_S10000x32_1_0_0_1_n_n 32 rfl rfl).symm]
  refine Finset.sum_congr rfl fun k _ => ?_
  rw [lhs_idx, rhs_idx]
  rw [truncf_apply, truncf_apply, maximumf_apply, addf_apply, addf_apply, broadcast_apply, broadcastTo_1b_ab_apply]
  rw [show (FloatOps.ofBits (F := Ideal) FTy.f32 0x00000000#32) = (0 : EReal) from Ideal.ofBits_zero_f32]

/-! ## From blocks to the array -/

/-- The zero offsets, as a constant function. -/
theorem hz : (![0, 0] : Fin 2 → Nat) = fun _ => 0 := funext fun a => by fin_cases a <;> rfl

/-- The block index maps over the 20 grid points: the two row-tiled inputs and the output sit at block `(t, 0)`;
    the bias row and the weights at block `(0, 0)`. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- The grid has 20 points. -/
theorem lt_points (t : Fin cfg4.N) : t.val < 20 := by
  have h := t.isLt
  have hN : cfg4.N = 20 := N_4
  omega

/-- The body's result at a block coordinate, when each block's element is the array's element at the matching
    array index: the specification at that array index. -/
theorem pay_block (A H : Cert.Spec.Arr 200000 32) (B : Cert.Spec.Arr 1 32) (W : Cert.Spec.Arr 32 32)
    (x0 x1 : Vec Ideal S10000x32 .f32) (x2 : Vec Ideal S1x32 .f32) (x3 : Vec Ideal S32x32 .f32)
    (y : S10000x32.Idx) (i : S200000x32.Idx) (r : Fin 10000) (j : Fin 32) (n : Fin 200000)
    (hy : y = ix2 r j) (hi : i = ix2 n j)
    (h0 : ∀ k : Fin 32, x0 (ix2 r k) = A (ix2 n k))
    (h1 : ∀ k : Fin 32, x1 (ix2 r k) = H (ix2 n k))
    (h2 : ∀ k : Fin 32, x2 (ix2 (0 : Fin 1) k) = B (ix2 (0 : Fin 1) k))
    (h3 : ∀ k : Fin 32, x3 (ix2 k j) = W (ix2 k j)) :
    k4_pay1 (F := Ideal) x0 x1 x2 x3 y = Cert.Spec.c1G A H B W i := by
  subst hy hi
  rw [pay_apply]
  show _ = ∑ k : Fin 32, max (A (ix2 n k) + H (ix2 n k) + B (ix2 (0 : Fin 1) k)) 0 * W (ix2 k j)
  refine Finset.sum_congr rfl fun k _ => ?_
  rw [h0, h1, h2, h3]

section Blocks

variable (V : (c : Dev nD) → (b : Ref sig .tc) → Buf (Elt Ideal) ((c : Thread nD τ).loc b))

/-- An element of a row-tiled input block at point `t` is the array's element `10000 · t` rows further down. -/
theorem blk0_apply (c : Dev nD) (t : Fin cfg4.N) (r : Fin 10000) (k : Fin 32) (n : Fin 200000)
    (hn : n.val = t.val * 10000 + r.val) :
    iblk4 (F := Ideal) V c 0 t (ix2 r k) = V c (Pipeline.arrRef spec4 0) (ix2 n k) := by
  obtain ⟨e0, e1, -⟩ := idx_facts t
  show V c (Pipeline.arrRef spec4 0) (((cfg4.win 0).blk t).view.emb (ix2 r k)) = _
  refine congrArg _ (funext fun a => Fin.ext ?_)
  match a with
  | ⟨0, _⟩ => show win4_0.index t (0 : Fin 2) * 10000 + 1 * r.val = n.val; omega
  | ⟨1, _⟩ => show win4_0.index t (1 : Fin 2) * 32 + 1 * k.val = k.val; omega

theorem blk1_apply (c : Dev nD) (t : Fin cfg4.N) (r : Fin 10000) (k : Fin 32) (n : Fin 200000)
    (hn : n.val = t.val * 10000 + r.val) :
    iblk4 (F := Ideal) V c 1 t (ix2 r k) = V c (Pipeline.arrRef spec4 1) (ix2 n k) := by
  obtain ⟨-, -, e0, e1, -⟩ := idx_facts t
  show V c (Pipeline.arrRef spec4 1) (((cfg4.win 1).blk t).view.emb (ix2 r k)) = _
  refine congrArg _ (funext fun a => Fin.ext ?_)
  match a with
  | ⟨0, _⟩ => show win4_1.index t (0 : Fin 2) * 10000 + 1 * r.val = n.val; omega
  | ⟨1, _⟩ => show win4_1.index t (1 : Fin 2) * 32 + 1 * k.val = k.val; omega

/-- The bias block is the bias row at every point. -/
theorem blk2_apply (c : Dev nD) (t : Fin cfg4.N) (k : Fin 32) :
    iblk4 (F := Ideal) V c 2 t (ix2 (0 : Fin 1) k) = V c (Pipeline.arrRef spec4 2) (ix2 (0 : Fin 1) k) := by
  obtain ⟨-, -, -, -, e0, e1, -⟩ := idx_facts t
  show V c (Pipeline.arrRef spec4 2) (((cfg4.win 2).blk t).view.emb (ix2 (0 : Fin 1) k)) = _
  refine congrArg _ (funext fun a => Fin.ext ?_)
  match a with
  | ⟨0, _⟩ => show win4_2.index t (0 : Fin 2) * 1 + 1 * (0 : Fin 1).val = (0 : Fin 1).val; omega
  | ⟨1, _⟩ => show win4_2.index t (1 : Fin 2) * 32 + 1 * k.val = k.val; omega

/-- The weight block is the weight matrix at every point. -/
theorem blk3_apply (c : Dev nD) (t : Fin cfg4.N) (k j : Fin 32) :
    iblk4 (F := Ideal) V c 3 t (ix2 k j) = V c (Pipeline.arrRef spec4 3) (ix2 k j) := by
  obtain ⟨-, -, -, -, -, -, e0, e1, -⟩ := idx_facts t
  show V c (Pipeline.arrRef spec4 3) (((cfg4.win 3).blk t).view.emb (ix2 k j)) = _
  refine congrArg _ (funext fun a => Fin.ext ?_)
  match a with
  | ⟨0, _⟩ => show win4_3.index t (0 : Fin 2) * 32 + 1 * k.val = k.val; omega
  | ⟨1, _⟩ => show win4_3.index t (1 : Fin 2) * 32 + 1 * j.val = j.val; omega

set_option maxHeartbeats 1000000 in
/-- What point `t` writes back is block `t` of the specification's function of the arrays as the region found them. -/
theorem flushed_eq (c : Dev nD) (t : Fin cfg4.N) :
    (dat4 (F := Ideal) V c).flushed 4 t = ((cfg4.win 4).blk t).view.read (Elt Ideal)
      (Cert.Spec.c1G (V c (Pipeline.arrRef spec4 0)) (V c (Pipeline.arrRef spec4 1)) (V c (Pipeline.arrRef spec4 2)) (V c (Pipeline.arrRef spec4 3))) := by
  show (cfg4.win 4).cut (grid4.coords t) ((dat4 (F := Ideal) V c).after 4 t) = _
  rw [after4_4]
  unfold out4_4
  rw [View.canon_unit_zero hz]
  simp only [View.ld_unit_zero (S := S10000x32) hz, View.ld_unit_zero (S := S1x32) hz, View.ld_unit_zero (S := S32x32) hz]
  have ht := lt_points t
  obtain ⟨-, -, -, -, -, -, -, -, e0, e1⟩ := idx_facts t
  funext y
  have hy0 : (y 0).val < 10000 := (y 0).isLt
  have hy1 : (y 1).val < 32 := (y 1).isLt
  have hn : t.val * 10000 + (y 0).val < 200000 := by omega
  refine pay_block _ _ _ _ _ _ _ _ _ _ ⟨(y 0).val, hy0⟩ ⟨(y 1).val, hy1⟩ ⟨t.val * 10000 + (y 0).val, hn⟩ ?_ ?_
    (fun k => blk0_apply V c t _ k _ rfl) (fun k => blk1_apply V c t _ k _ rfl)
    (fun k => blk2_apply V c t k) (fun k => blk3_apply V c t k _)
  · exact funext fun a => match a with | ⟨0, _⟩ => rfl | ⟨1, _⟩ => rfl
  · funext a; apply Fin.ext
    match a with
    | ⟨0, _⟩ => show win4_4.index t (0 : Fin 2) * 10000 + 1 * (y 0).val = t.val * 10000 + (y 0).val; omega
    | ⟨1, _⟩ => show win4_4.index t (1 : Fin 2) * 32 + 1 * (y 1).val = (y 1).val; omega

/-- An index of the output array is in point `t`'s block iff each coordinate is in the block's range on its axis. -/
theorem mem_blk (t : Fin cfg4.N) (i : S200000x32.Idx) :
    i ∈ ((cfg4.win 4).blk t).view.set ↔ ∀ a : Fin 2, win4_4.index t a * S10000x32.size a ≤ (i a).val ∧ (i a).val < win4_4.index t a * S10000x32.size a + S10000x32.size a := by
  show i ∈ ((View.whole main_v130).slice (win4_4.rect t)).set ↔ _
  rw [View.set_slice_whole, Rect.mem_set_unit]
  exact Iff.rfl

/-- Row `n` of the output is written by point `n / 10000`. -/
theorem cover (i : S200000x32.Idx) :
    ∃ t : Fin cfg4.N, (cfg4.win 4).flush t = true ∧ i ∈ ((cfg4.win 4).blk t).view.set := by
  have hi0 : (i 0).val < 200000 := (i 0).isLt
  have hi1 : (i 1).val < 32 := (i 1).isLt
  have hN : cfg4.N = 20 := N_4
  obtain ⟨t, ht⟩ : ∃ t : Fin cfg4.N, t.val = (i 0).val / 10000 := ⟨⟨(i 0).val / 10000, by rw [hN]; omega⟩, rfl⟩
  obtain ⟨-, -, -, -, -, -, -, -, e0, e1⟩ := idx_facts t
  refine ⟨t, flush4_4 t, ?_⟩
  rw [mem_blk]
  intro a
  match a with
  | ⟨0, _⟩ => show win4_4.index t (0 : Fin 2) * 10000 ≤ (i 0).val ∧ (i 0).val < win4_4.index t (0 : Fin 2) * 10000 + 10000; omega
  | ⟨1, _⟩ => show win4_4.index t (1 : Fin 2) * 32 ≤ (i 1).val ∧ (i 1).val < win4_4.index t (1 : Fin 2) * 32 + 32; omega

end Blocks

/-- After the region, its output array is the specification's function of its input arrays as the region found them. -/
theorem arr_eq (V : (c : Dev nD) → (b : Ref sig .tc) → Buf (Elt Ideal) ((c : Thread nD τ).loc b)) (c : Dev nD) :
    (GenP.dat4 (F := Ideal) V c).arrAt 4 cfg4.N = Cert.Spec.c1G (V c (Pipeline.arrRef spec4 0)) (V c (Pipeline.arrRef spec4 1)) (V c (Pipeline.arrRef spec4 2)) (V c (Pipeline.arrRef spec4 3)) :=
  (dat4 (F := Ideal) V c).arrAt_eq_of_cover 4 _ (fun t _ => flushed_eq V c t) cover

end Cert.KernelIdeal.Combine1R4

end
-- ==== Proof.Bridge4.lean ====
import proofs.«135273_j69758858821831_1_alg».proof.Proof.KernelIdealFrameP
import proofs.«135273_j69758858821831_1_alg».proof.Proof.RefReadP
import proofs.«135273_j69758858821831_1_alg».proof.Proof.Bridge3
import proofs.«135273_j69758858821831_1_alg».proof.Proof.Combine1R4
import proofs.«135273_j69758858821831_1_alg».proof.Proof.RefStages

/-!
# Boundary 8 to boundary 10: host stretch 4 and region 4

Each buffer the idealized kernel holds at a boundary is stated as the reference's stage of the same operation on the same
operands (or, for the few buffers only the kernel has — a bias as a one-row matrix, the reciprocal of a layer's scalar —
as that operation of reference stages). A buffer no operation of a stretch writes, and no window of a region names,
keeps its contents across it. The region's output is the specification's function of its input arrays, which is the
reference's stage.
-/

set_option maxRecDepth 16384

noncomputable section

namespace Cert.Bridge

open Cert.KernelIdeal Cert.KernelIdeal.Gen Cert.KernelIdeal.GenP
open Idealize.ShloMosaic Idealize.ShloMosaic.TcCoe Idealize.SL.Sem

variable (m : (ℓ : Loc nD τ sig) → Buf (Elt Ideal) ℓ) (ρ : Dev nD → PrngReg) (c : Dev nD)

theorem at_arg0_8 : W8 m ρ c (Proc.devRef .tc main_arg0) = (m ((c : Thread nD τ).loc main_arg0)) :=
  (W8_of_ne m ρ c main_arg0 (by decide)).trans (at_arg0_7 m ρ c)
theorem at_arg1_8 : W8 m ρ c (Proc.devRef .tc main_arg1) = (m ((c : Thread nD τ).loc main_arg1)) :=
  (W8_of_ne m ρ c main_arg1 (by decide)).trans (at_arg1_7 m ρ c)
theorem at_arg4_8 : W8 m ρ c (Proc.devRef .tc main_arg4) = (m ((c : Thread nD τ).loc main_arg4)) :=
  (W8_of_ne m ρ c main_arg4 (by decide)).trans (at_arg4_7 m ρ c)
theorem at_arg5_8 : W8 m ρ c (Proc.devRef .tc main_arg5) = (m ((c : Thread nD τ).loc main_arg5)) :=
  (W8_of_ne m ρ c main_arg5 (by decide)).trans (at_arg5_7 m ρ c)
theorem at_arg6_8 : W8 m ρ c (Proc.devRef .tc main_arg6) = (m ((c : Thread nD τ).loc main_arg6)) :=
  (W8_of_ne m ρ c main_arg6 (by decide)).trans (at_arg6_7 m ρ c)
theorem at_arg7_8 : W8 m ρ c (Proc.devRef .tc main_arg7) = (m ((c : Thread nD τ).loc main_arg7)) :=
  (W8_of_ne m ρ c main_arg7 (by decide)).trans (at_arg7_7 m ρ c)
theorem at_v79_8 : W8 m ρ c (Proc.devRef .tc main_v79) = (Cert.ReferenceIdeal.ReadP.val_main_v81 (F := Ideal) (m ((c : Thread nD τ).loc main_arg1))) :=
  (W8_of_ne m ρ c main_v79 (by decide)).trans (at_v79_7 m ρ c)
theorem at_v102_8 : W8 m ρ c (Proc.devRef .tc main_v102) = (Cert.ReferenceIdeal.ReadP.val_main_v114 (F := Ideal) (m ((c : Thread nD τ).loc main_arg1))) :=
  (W8_of_ne m ρ c main_v102 (by decide)).trans (at_v102_7 m ρ c)
theorem at_v77_8 : W8 m ρ c (Proc.devRef .tc main_v77) = (Cert.ReferenceIdeal.ReadP.val_main_v83 (F := Ideal) (m ((c : Thread nD τ).loc main_arg1))) :=
  (W8_of_ne m ρ c main_v77 (by decide)).trans (at_v77_7 m ρ c)
theorem at_v104_8 : W8 m ρ c (Proc.devRef .tc main_v104) = (Cert.ReferenceIdeal.ReadP.val_main_v116 (F := Ideal) (m ((c : Thread nD τ).loc main_arg1))) :=
  (W8_of_ne m ρ c main_v104 (by decide)).trans (at_v104_7 m ρ c)
theorem at_v109_8 : W8 m ρ c (Proc.devRef .tc main_v109) = (shapeCast _ (Cert.ReferenceIdeal.ReadP.val_main_v87 (F := Ideal) (m ((c : Thread nD τ).loc main_arg5))) shapeCasts_S32_S1x32) :=
  (W8_of_ne m ρ c main_v109 (by decide)).trans (at_v109_7 m ρ c)
theorem at_v111_8 : W8 m ρ c (Proc.devRef .tc main_v111) = (Cert.ReferenceIdeal.ReadP.val_main_v89 (F := Ideal) (m ((c : Thread nD τ).loc main_arg6))) :=
  (W8_of_ne m ρ c main_v111 (by decide)).trans (at_v111_7 m ρ c)
theorem at_arg2_8 : W8 m ρ c (Proc.devRef .tc main_arg2) = (m ((c : Thread nD τ).loc main_arg2)) :=
  (W8_of_ne m ρ c main_arg2 (by decide)).trans (at_arg2_7 m ρ c)
theorem at_v73_8 : W8 m ρ c (Proc.devRef .tc main_v73) = (Cert.ReferenceIdeal.ReadP.val_main_v77 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) :=
  (W8_of_ne m ρ c main_v73 (by decide)).trans (at_v73_7 m ρ c)
theorem at_arg3_8 : W8 m ρ c (Proc.devRef .tc main_arg3) = (m ((c : Thread nD τ).loc main_arg3)) :=
  (W8_of_ne m ρ c main_arg3 (by decide)).trans (at_arg3_7 m ρ c)
theorem at_v114_8 : W8 m ρ c (Proc.devRef .tc main_v114) = (shapeCast _ (Cert.ReferenceIdeal.ReadP.val_main_v91 (F := Ideal) (m ((c : Thread nD τ).loc main_arg7))) shapeCasts_S32_S1x32) :=
  (W8_of_ne m ρ c main_v114 (by decide)).trans (at_v114_7 m ρ c)
theorem at_arg9_8 : W8 m ρ c (Proc.devRef .tc main_arg9) = (m ((c : Thread nD τ).loc main_arg9)) :=
  (W8_of_ne m ρ c main_arg9 (by decide)).trans (at_arg9_7 m ρ c)
theorem at_arg11_8 : W8 m ρ c (Proc.devRef .tc main_arg11) = (m ((c : Thread nD τ).loc main_arg11)) :=
  (W8_of_ne m ρ c main_arg11 (by decide)).trans (at_arg11_7 m ρ c)
theorem at_arg8_8 : W8 m ρ c (Proc.devRef .tc main_arg8) = (m ((c : Thread nD τ).loc main_arg8)) :=
  (W8_of_ne m ρ c main_arg8 (by decide)).trans (at_arg8_7 m ρ c)
theorem at_arg10_8 : W8 m ρ c (Proc.devRef .tc main_arg10) = (m ((c : Thread nD τ).loc main_arg10)) :=
  (W8_of_ne m ρ c main_arg10 (by decide)).trans (at_arg10_7 m ρ c)
theorem at_v127_9 : W9 m ρ c (Proc.devRef .tc main_v127) = (Cert.ReferenceIdeal.ReadP.val_main_v129 (F := Ideal) (m ((c : Thread nD τ).loc main_arg0)) (m ((c : Thread nD τ).loc main_arg1)) (m ((c : Thread nD τ).loc main_arg4))) := by
  show StableHlo.after hostOps4 (W8 m ρ c) (Proc.devRef .tc main_v127) = _
  after_results_simp
  rw [at_v77_8 m ρ c, at_v115_8 m ρ c, at_v79_8 m ρ c, at_v102_8 m ρ c]
  rfl
theorem at_v129_9 : W9 m ρ c (Proc.devRef .tc main_v129) = (Cert.ReferenceIdeal.ReadP.val_main_v131 (F := Ideal) (m ((c : Thread nD τ).loc main_arg0)) (m ((c : Thread nD τ).loc main_arg1)) (m ((c : Thread nD τ).loc main_arg4))) := by
  show StableHlo.after hostOps4 (W8 m ρ c) (Proc.devRef .tc main_v129) = _
  after_results_simp
  rw [at_v115_8 m ρ c, at_v104_8 m ρ c]
  rfl
theorem at_arg0_9 : W9 m ρ c (Proc.devRef .tc main_arg0) = (m ((c : Thread nD τ).loc main_arg0)) :=
  (StableHlo.after_of_forall_not_mem (b := Proc.devRef .tc main_arg0) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg0_8 m ρ c)
theorem at_arg1_9 : W9 m ρ c (Proc.devRef .tc main_arg1) = (m ((c : Thread nD τ).loc main_arg1)) :=
  (StableHlo.after_of_forall_not_mem (b := Proc.devRef .tc main_arg1) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg1_8 m ρ c)
theorem at_arg4_9 : W9 m ρ c (Proc.devRef .tc main_arg4) = (m ((c : Thread nD τ).loc main_arg4)) :=
  (StableHlo.after_of_forall_not_mem (b := Proc.devRef .tc main_arg4) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg4_8 m ρ c)
theorem at_arg5_9 : W9 m ρ c (Proc.devRef .tc main_arg5) = (m ((c : Thread nD τ).loc main_arg5)) :=
  (StableHlo.after_of_forall_not_mem (b := Proc.devRef .tc main_arg5) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg5_8 m ρ c)
theorem at_arg6_9 : W9 m ρ c (Proc.devRef .tc main_arg6) = (m ((c : Thread nD τ).loc main_arg6)) :=
  (StableHlo.after_of_forall_not_mem (b := Proc.devRef .tc main_arg6) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg6_8 m ρ c)
theorem at_arg7_9 : W9 m ρ c (Proc.devRef .tc main_arg7) = (m ((c : Thread nD τ).loc main_arg7)) :=
  (StableHlo.after_of_forall_not_mem (b := Proc.devRef .tc main_arg7) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg7_8 m ρ c)
theorem at_v79_9 : W9 m ρ c (Proc.devRef .tc main_v79) = (Cert.ReferenceIdeal.ReadP.val_main_v81 (F := Ideal) (m ((c : Thread nD τ).loc main_arg1))) :=
  (StableHlo.after_of_forall_not_mem (b := Proc.devRef .tc main_v79) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v79_8 m ρ c)
theorem at_v102_9 : W9 m ρ c (Proc.devRef .tc main_v102) = (Cert.ReferenceIdeal.ReadP.val_main_v114 (F := Ideal) (m ((c : Thread nD τ).loc main_arg1))) :=
  (StableHlo.after_of_forall_not_mem (b := Proc.devRef .tc main_v102) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v102_8 m ρ c)
theorem at_v77_9 : W9 m ρ c (Proc.devRef .tc main_v77) = (Cert.ReferenceIdeal.ReadP.val_main_v83 (F := Ideal) (m ((c : Thread nD τ).loc main_arg1))) :=
  (StableHlo.after_of_forall_not_mem (b := Proc.devRef .tc main_v77) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v77_8 m ρ c)
theorem at_v104_9 : W9 m ρ c (Proc.devRef .tc main_v104) = (Cert.ReferenceIdeal.ReadP.val_main_v116 (F := Ideal) (m ((c : Thread nD τ).loc main_arg1))) :=
  (StableHlo.after_of_forall_not_mem (b := Proc.devRef .tc main_v104) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v104_8 m ρ c)
theorem at_v109_9 : W9 m ρ c (Proc.devRef .tc main_v109) = (shapeCast _ (Cert.ReferenceIdeal.ReadP.val_main_v87 (F := Ideal) (m ((c : Thread nD τ).loc main_arg5))) shapeCasts_S32_S1x32) :=
  (StableHlo.after_of_forall_not_mem (b := Proc.devRef .tc main_v109) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v109_8 m ρ c)
theorem at_v111_9 : W9 m ρ c (Proc.devRef .tc main_v111) = (Cert.ReferenceIdeal.ReadP.val_main_v89 (F := Ideal) (m ((c : Thread nD τ).loc main_arg6))) :=
  (StableHlo.after_of_forall_not_mem (b := Proc.devRef .tc main_v111) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v111_8 m ρ c)
theorem at_arg2_9 : W9 m ρ c (Proc.devRef .tc main_arg2) = (m ((c : Thread nD τ).loc main_arg2)) :=
  (StableHlo.after_of_forall_not_mem (b := Proc.devRef .tc main_arg2) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg2_8 m ρ c)
theorem at_v73_9 : W9 m ρ c (Proc.devRef .tc main_v73) = (Cert.ReferenceIdeal.ReadP.val_main_v77 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) :=
  (StableHlo.after_of_forall_not_mem (b := Proc.devRef .tc main_v73) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v73_8 m ρ c)
theorem at_arg3_9 : W9 m ρ c (Proc.devRef .tc main_arg3) = (m ((c : Thread nD τ).loc main_arg3)) :=
  (StableHlo.after_of_forall_not_mem (b := Proc.devRef .tc main_arg3) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg3_8 m ρ c)
theorem at_v114_9 : W9 m ρ c (Proc.devRef .tc main_v114) = (shapeCast _ (Cert.ReferenceIdeal.ReadP.val_main_v91 (F := Ideal) (m ((c : Thread nD τ).loc main_arg7))) shapeCasts_S32_S1x32) :=
  (StableHlo.after_of_forall_not_mem (b := Proc.devRef .tc main_v114) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v114_8 m ρ c)
theorem at_arg9_9 : W9 m ρ c (Proc.devRef .tc main_arg9) = (m ((c : Thread nD τ).loc main_arg9)) :=
  (StableHlo.after_of_forall_not_mem (b := Proc.devRef .tc main_arg9) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg9_8 m ρ c)
theorem at_arg11_9 : W9 m ρ c (Proc.devRef .tc main_arg11) = (m ((c : Thread nD τ).loc main_arg11)) :=
  (StableHlo.after_of_forall_not_mem (b := Proc.devRef .tc main_arg11) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg11_8 m ρ c)
theorem at_arg8_9 : W9 m ρ c (Proc.devRef .tc main_arg8) = (m ((c : Thread nD τ).loc main_arg8)) :=
  (StableHlo.after_of_forall_not_mem (b := Proc.devRef .tc main_arg8) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg8_8 m ρ c)
theorem at_arg10_9 : W9 m ρ c (Proc.devRef .tc main_arg10) = (m ((c : Thread nD τ).loc main_arg10)) :=
  (StableHlo.after_of_forall_not_mem (b := Proc.devRef .tc main_arg10) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg10_8 m ρ c)
theorem at_v130_10 : W10 m ρ c (Proc.devRef .tc main_v130) = (Cert.ReferenceIdeal.ReadP.val_main_v137 (F := Ideal) (m ((c : Thread nD τ).loc main_arg0)) (m ((c : Thread nD τ).loc main_arg1)) (m ((c : Thread nD τ).loc main_arg4)) (m ((c : Thread nD τ).loc main_arg5)) (m ((c : Thread nD τ).loc main_arg6))) := by
  refine (W10_arr m ρ c 4).trans ?_
  rw [Cert.KernelIdeal.Combine1R4.arr_eq]
  rw [show V9 m ρ c (Pipeline.arrRef spec4 0) = _ from at_v127_9 m ρ c,
    show V9 m ρ c (Pipeline.arrRef spec4 1) = _ from at_v129_9 m ρ c,
    show V9 m ρ c (Pipeline.arrRef spec4 2) = _ from at_v109_9 m ρ c,
    show V9 m ρ c (Pipeline.arrRef spec4 3) = _ from at_v111_9 m ρ c]
  exact (Cert.ReferenceIdeal.Stages.stage_main_v137 (m ((c : Thread nD τ).loc main_arg0)) (m ((c : Thread nD τ).loc main_arg1)) (m ((c : Thread nD τ).loc main_arg4)) (m ((c : Thread nD τ).loc main_arg5)) (m ((c : Thread nD τ).loc main_arg6)) shapeCasts_S32_S1x32).symm

end Cert.Bridge

end
-- ==== Proof.Combine2R5.lean ====
import proofs.«135273_j69758858821831_1_alg».proof.Proof.KernelIdealFrameP
import proofs.«135273_j69758858821831_1_alg».proof.Proof.Spec
import Idealize.ShloMosaic.Lib.Pipeline.Value
import Idealize.ShloMosaic.Lib.ValueIdx
import Idealize.ShloMosaic.PureOps.Ideal.Laws

/-!
# The second combine stage: the output array is `c2G` of the input arrays

The stage runs over 20 grid points. At point `t` it reads rows `t · 10000 … t · 10000 + 9999` of three `200000 × 32`
arrays `a`, `h`, `g`, the whole `1 × 32` bias row `b` and the whole `1 × 1` scale `s`, and writes the same rows of the
output: `out[n, j] = (((a[n, j] + h[n, j]) + b[0, j]) + g[n, j]) · s[0, 0]`. Every operation is pointwise, so the proof is
bookkeeping of indices:

* the body's result at row `r`, column `j` of a block (`pay_apply`);
* where an entry of a block sits in its array: entry `(r, j)` of a row block at point `t` is entry `(t · 10000 + r, j)`
  of the array, and the bias row and the scale are read whole (`emb0` … `emb5`);
* so what point `t` writes back is block `t` of `c2G` of the arrays (`flushed_eq`);
* the 20 blocks cover the output array — row `n` lies in block `n / 10000` (`cover`) — hence the array after the stage is
  `c2G` of the arrays as the stage found them (`arr_eq`).
-/

set_option maxRecDepth 16384

noncomputable section

namespace Cert.KernelIdeal.Combine2R5

open Cert.KernelIdeal Idealize.ShloMosaic Idealize.ShloMosaic.TcCoe Idealize.ShloMosaic.ValueIdx Idealize.SL.Sem
open Idealize.ShloMosaic.Pipeline (Dat)

/-! ## The body at an index -/

/-- Reading the one entry of a `1 × 1` vector. -/
theorem extract_one {α : Type} (x : S1x1.Idx → α) (h : ∀ a, (![0, 0] : Fin 2 → Nat) a < S1x1.size a) :
    extractAt ![0, 0] x h = x (ix2 0 0) := by
  unfold extractAt
  refine congrArg x (funext fun a => Fin.ext ?_)
  match a with
  | ⟨0, _⟩ => rfl
  | ⟨1, _⟩ => rfl

/-- A one-row vector spread over `10000` rows reads, at row `r` and column `j`, its entry in column `j`. -/
theorem row_spread {α : Type} (x : S1x32.Idx → α) (h : S1x32.Broadcasts S10000x32) (r : Fin 10000) (j : Fin 32) :
    broadcastTo S10000x32 x h (ix2 r j) = x (ix2 0 j) := by
  refine broadcastTo_apply x h (ix2 r j) (ix2 0 j) fun a => ?_
  match a with
  | ⟨0, _⟩ => rfl
  | ⟨1, _⟩ => rfl

/-- The body's result at row `r`, column `j`: the two row blocks, the bias row and the third row block, summed from the
    left, times the scale. -/
theorem pay_apply (x0 x1 : Vec Ideal S10000x32 .f32) (x2 : Vec Ideal S1x32 .f32) (x3 : Vec Ideal S10000x32 .f32)
    (x4 : Vec Ideal S1x1 .f32) (r : Fin 10000) (j : Fin 32) :
    Gen.k5_pay1 (F := Ideal) x0 x1 x2 x3 x4 (ix2 r j)
      = (x0 (ix2 r j) + x1 (ix2 r j) + x2 (ix2 0 j) + x3 (ix2 r j)) * x4 (ix2 0 0) := by
  unfold Gen.k5_pay1
  simp only [shapeCast_self]
  rw [mulf_apply, addf_apply, addf_apply, addf_apply, broadcast_apply, row_spread, extract_one]

/-! ## Where a block's entry sits in its array -/

/-- The zero offsets of a whole-buffer access, spelt as the constant function. -/
theorem zero_off : (![0, 0] : Fin 2 → Nat) = fun _ => 0 := funext fun a => by fin_cases a <;> rfl

/-- The block indices over the 20 grid points: the three row-tiled inputs and the output sit at block `(t, 0)`, the
    bias row and the scale at block `(0, 0)`. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- There are 20 grid points. -/
theorem point_lt (t : Fin cfg5.N) : t.val < 20 := lt_of_lt_of_eq t.isLt Gen.N_5

/-- Row `r` of the block at point `t` is row `t · 10000 + r` of the array. -/
def row (t : Fin cfg5.N) (r : Fin 10000) : Fin 200000 := ⟨t.val * 10000 + r.val, by have := point_lt t; omega⟩

/-- Entry `(r, j)` of the first row block at point `t` is entry `(t · 10000 + r, j)` of its array. -/
theorem emb0 (t : Fin cfg5.N) (r : Fin 10000) (j : Fin 32) :
    ((cfg5.win 0).blk t).view.emb (ix2 r j) = ix2 (row t r) j := by
  obtain ⟨e0, e1, -⟩ := idx_facts t
  funext a; apply Fin.ext
  match a with
  | ⟨0, _⟩ => show win5_0.index t (0 : Fin 2) * 10000 + 1 * r.val = t.val * 10000 + r.val; omega
  | ⟨1, _⟩ => show win5_0.index t (1 : Fin 2) * 32 + 1 * j.val = j.val; omega

/-- The same for the second row block. -/
theorem emb1 (t : Fin cfg5.N) (r : Fin 10000) (j : Fin 32) :
    ((cfg5.win 1).blk t).view.emb (ix2 r j) = ix2 (row t r) j := by
  obtain ⟨-, -, e0, e1, -⟩ := idx_facts t
  funext a; apply Fin.ext
  match a with
  | ⟨0, _⟩ => show win5_1.index t (0 : Fin 2) * 10000 + 1 * r.val = t.val * 10000 + r.val; omega
  | ⟨1, _⟩ => show win5_1.index t (1 : Fin 2) * 32 + 1 * j.val = j.val; omega

/-- The bias row is read whole at every point: entry `(0, j)` of its block is entry `(0, j)` of the array. -/
theorem emb2 (t : Fin cfg5.N) (j : Fin 32) :
    ((cfg5.win 2).blk t).view.emb (ix2 (0 : Fin 1) j) = ix2 (0 : Fin 1) j := by
  obtain ⟨-, -, -, -, e0, e1, -⟩ := idx_facts t
  funext a; apply Fin.ext
  match a with
  | ⟨0, _⟩ => show win5_2.index t (0 : Fin 2) * 1 + 1 * 0 = 0; omega
  | ⟨1, _⟩ => show win5_2.index t (1 : Fin 2) * 32 + 1 * j.val = j.val; omega

/-- Entry `(r, j)` of the third row block at point `t` is entry `(t · 10000 + r, j)` of its array. -/
theorem emb3 (t : Fin cfg5.N) (r : Fin 10000) (j : Fin 32) :
    ((cfg5.win 3).blk t).view.emb (ix2 r j) = ix2 (row t r) j := by
  obtain ⟨-, -, -, -, -, -, e0, e1, -⟩ := idx_facts t
  funext a; apply Fin.ext
  match a with
  | ⟨0, _⟩ => show win5_3.index t (0 : Fin 2) * 10000 + 1 * r.val = t.val * 10000 + r.val; omega
  | ⟨1, _⟩ => show win5_3.index t (1 : Fin 2) * 32 + 1 * j.val = j.val; omega

/-- The scale is read whole at every point. -/
theorem emb4 (t : Fin cfg5.N) :
    ((cfg5.win 4).blk t).view.emb (ix2 (0 : Fin 1) (0 : Fin 1)) = ix2 (0 : Fin 1) (0 : Fin 1) := by
  obtain ⟨-, -, -, -, -, -, -, -, e0, e1, -⟩ := idx_facts t
  funext a; apply Fin.ext
  match a with
  | ⟨0, _⟩ => show win5_4.index t (0 : Fin 2) * 1 + 1 * 0 = 0; omega
  | ⟨1, _⟩ => show win5_4.index t (1 : Fin 2) * 1 + 1 * 0 = 0; omega

/-- Entry `(r, j)` of the output block at point `t` is written to entry `(t · 10000 + r, j)` of the output array. -/
theorem emb5 (t : Fin cfg5.N) (r : Fin 10000) (j : Fin 32) :
    ((cfg5.win 5).blk t).view.emb (ix2 r j) = ix2 (row t r) j := by
  obtain ⟨-, -, -, -, -, -, -, -, -, -, e0, e1⟩ := idx_facts t
  funext a; apply Fin.ext
  match a with
  | ⟨0, _⟩ => show win5_5.index t (0 : Fin 2) * 10000 + 1 * r.val = t.val * 10000 + r.val; omega
  | ⟨1, _⟩ => show win5_5.index t (1 : Fin 2) * 32 + 1 * j.val = j.val; omega

/-- An index of the output array is in point `t`'s block iff each coordinate is in the block's range on its axis. -/
theorem mem_blk (t : Fin cfg5.N) (i : S200000x32.Idx) :
    i ∈ ((cfg5.win 5).blk t).view.set ↔ ∀ a : Fin 2, win5_5.index t a * S10000x32.size a ≤ (i a).val ∧ (i a).val < win5_5.index t a * S10000x32.size a + S10000x32.size a := by
  show i ∈ ((View.whole main_v163).slice (win5_5.rect t)).set ↔ _
  rw [View.set_slice_whole, Rect.mem_set_unit]
  exact Iff.rfl

/-- Every index of the output array is in some point's block: row `n` belongs to point `n / 10000`. -/
theorem cover (i : S200000x32.Idx) :
    ∃ t : Fin cfg5.N, (cfg5.win 5).flush t = true ∧ i ∈ ((cfg5.win 5).blk t).view.set := by
  have hi0 : (i 0).val < 200000 := idx2_lt0 i
  have hi1 : (i 1).val < 32 := idx2_lt1 i
  let t : Fin cfg5.N := ⟨(i 0).val / 10000, lt_of_lt_of_eq (by omega) Gen.N_5.symm⟩
  obtain ⟨-, -, -, -, -, -, -, -, -, -, e0, e1⟩ := idx_facts t
  have ht : t.val = (i 0).val / 10000 := rfl
  refine ⟨t, Gen.flush5_5 t, ?_⟩
  rw [mem_blk]
  intro a
  match a with
  | ⟨0, _⟩ => show win5_5.index t (0 : Fin 2) * 10000 ≤ (i 0).val ∧ (i 0).val < win5_5.index t (0 : Fin 2) * 10000 + 10000; omega
  | ⟨1, _⟩ => show win5_5.index t (1 : Fin 2) * 32 ≤ (i 1).val ∧ (i 1).val < win5_5.index t (1 : Fin 2) * 32 + 32; omega

/-- At point `t`, entry `(r, j)`: the body's arithmetic on the entries its blocks read is `c2G` of the whole arrays at the
    array index that entry `(r, j)` of the output block is written to. -/
theorem block_eq (A0 A1 : Cert.Spec.Arr 200000 32) (A2 : Cert.Spec.Arr 1 32) (A3 : Cert.Spec.Arr 200000 32)
    (A4 : Cert.Spec.Arr 1 1) (t : Fin cfg5.N) (r : Fin 10000) (j : Fin 32) :
    (A0 (((cfg5.win 0).blk t).view.emb (ix2 r j)) + A1 (((cfg5.win 1).blk t).view.emb (ix2 r j))
        + A2 (((cfg5.win 2).blk t).view.emb (ix2 (0 : Fin 1) j)) + A3 (((cfg5.win 3).blk t).view.emb (ix2 r j)))
      * A4 (((cfg5.win 4).blk t).view.emb (ix2 (0 : Fin 1) (0 : Fin 1)))
    = Cert.Spec.c2G A0 A1 A2 A3 A4 (((cfg5.win 5).blk t).view.emb (ix2 r j)) := by
  rw [emb0, emb1, emb2, emb3, emb4, emb5]
  rfl

/-- The body's arithmetic respects equality of its five arguments. -/
theorem combine_congr {a0 a1 a2 a3 a4 b0 b1 b2 b3 b4 : EReal} (h0 : a0 = b0) (h1 : a1 = b1) (h2 : a2 = b2)
    (h3 : a3 = b3) (h4 : a4 = b4) : (a0 + a1 + a2 + a3) * a4 = (b0 + b1 + b2 + b3) * b4 := by
  rw [h0, h1, h2, h3, h4]

/-! ## What a point writes back, and the array after the stage -/

section Final

variable (V : (c : Dev nD) → (b : Ref sig .tc) → Buf (Elt Ideal) ((c : Thread nD τ).loc b))

/-- An input block read at an entry is the array read at that entry's place in the array (first row block). -/
theorem read0 (c : Dev nD) (t : Fin cfg5.N) (r : Fin 10000) (j : Fin 32) :
    GenP.iblk5 (F := Ideal) V c 0 t (ix2 r j)
      = V c (Pipeline.arrRef spec5 0) (((cfg5.win 0).blk t).view.emb (ix2 r j)) := rfl

/-- The same for the second row block. -/
theorem read1 (c : Dev nD) (t : Fin cfg5.N) (r : Fin 10000) (j : Fin 32) :
    GenP.iblk5 (F := Ideal) V c 1 t (ix2 r j)
      = V c (Pipeline.arrRef spec5 1) (((cfg5.win 1).blk t).view.emb (ix2 r j)) := rfl

/-- The same for the bias row. -/
theorem read2 (c : Dev nD) (t : Fin cfg5.N) (j : Fin 32) :
    GenP.iblk5 (F := Ideal) V c 2 t (ix2 (0 : Fin 1) j)
      = V c (Pipeline.arrRef spec5 2) (((cfg5.win 2).blk t).view.emb (ix2 (0 : Fin 1) j)) := rfl

/-- The same for the third row block. -/
theorem read3 (c : Dev nD) (t : Fin cfg5.N) (r : Fin 10000) (j : Fin 32) :
    GenP.iblk5 (F := Ideal) V c 3 t (ix2 r j)
      = V c (Pipeline.arrRef spec5 3) (((cfg5.win 3).blk t).view.emb (ix2 r j)) := rfl

/-- The same for the scale. -/
theorem read4 (c : Dev nD) (t : Fin cfg5.N) :
    GenP.iblk5 (F := Ideal) V c 4 t (ix2 (0 : Fin 1) (0 : Fin 1))
      = V c (Pipeline.arrRef spec5 4) (((cfg5.win 4).blk t).view.emb (ix2 (0 : Fin 1) (0 : Fin 1))) := rfl

/-- A whole array read through the output block at an entry is the array at that entry's place. -/
theorem read5 (G : Cert.Spec.Arr 200000 32) (t : Fin cfg5.N) (r : Fin 10000) (j : Fin 32) :
    ((cfg5.win 5).blk t).view.read (Elt Ideal) G (ix2 r j) = G (((cfg5.win 5).blk t).view.emb (ix2 r j)) := rfl

/-- What point `t` writes back is block `t` of `c2G` of the five input arrays as the stage finds them. -/
theorem flushed_eq (c : Dev nD) (t : Fin cfg5.N) :
    (GenP.dat5 (F := Ideal) V c).flushed 5 t
      = ((cfg5.win 5).blk t).view.read (Elt Ideal)
          (Cert.Spec.c2G (V c (Pipeline.arrRef spec5 0)) (V c (Pipeline.arrRef spec5 1)) (V c (Pipeline.arrRef spec5 2))
            (V c (Pipeline.arrRef spec5 3)) (V c (Pipeline.arrRef spec5 4))) := by
  show (cfg5.win 5).cut (grid5.coords t) ((GenP.dat5 (F := Ideal) V c).after 5 t) = _
  rw [GenP.after5_5]
  unfold GenP.out5_5
  rw [View.canon_unit_zero zero_off]
  simp only [View.ld_unit_zero (S := S10000x32) zero_off, View.ld_unit_zero (S := S1x32) zero_off,
    View.ld_unit_zero (S := S1x1) zero_off]
  funext y
  obtain ⟨r, j, rfl⟩ : ∃ (r : Fin 10000) (j : Fin 32), y = ix2 r j := ⟨y 0, y 1, eq_ix2 y⟩
  refine ((pay_apply (GenP.iblk5 V c 0 t) (GenP.iblk5 V c 1 t) (GenP.iblk5 V c 2 t) (GenP.iblk5 V c 3 t)
    (GenP.iblk5 V c 4 t) r j).trans ?_).trans (read5 _ t r j).symm
  refine (combine_congr (read0 V c t r j) (read1 V c t r j) (read2 V c t j) (read3 V c t r j) (read4 V c t)).trans ?_
  exact block_eq (V c (Pipeline.arrRef spec5 0)) (V c (Pipeline.arrRef spec5 1)) (V c (Pipeline.arrRef spec5 2))
    (V c (Pipeline.arrRef spec5 3)) (V c (Pipeline.arrRef spec5 4)) t r j

/-- The output array after the stage is `c2G` of the five input arrays as the stage found them. -/
theorem arr_eq (c : Dev nD) :
    (GenP.dat5 (F := Ideal) V c).arrAt 5 cfg5.N
      = Cert.Spec.c2G (V c (Pipeline.arrRef spec5 0)) (V c (Pipeline.arrRef spec5 1)) (V c (Pipeline.arrRef spec5 2))
          (V c (Pipeline.arrRef spec5 3)) (V c (Pipeline.arrRef spec5 4)) :=
  (GenP.dat5 (F := Ideal) V c).arrAt_eq_of_cover 5 _ (fun t _ => flushed_eq V c t) cover

end Final

end Cert.KernelIdeal.Combine2R5

end
-- ==== Proof.Bridge5.lean ====
import proofs.«135273_j69758858821831_1_alg».proof.Proof.KernelIdealFrameP
import proofs.«135273_j69758858821831_1_alg».proof.Proof.RefReadP
import proofs.«135273_j69758858821831_1_alg».proof.Proof.Bridge4
import proofs.«135273_j69758858821831_1_alg».proof.Proof.Combine2R5
import proofs.«135273_j69758858821831_1_alg».proof.Proof.RefStages

/-!
# Boundary 10 to boundary 12: host stretch 5 and region 5

Each buffer the idealized kernel holds at a boundary is stated as the reference's stage of the same operation on the same
operands (or, for the few buffers only the kernel has — a bias as a one-row matrix, the reciprocal of a layer's scalar —
as that operation of reference stages). A buffer no operation of a stretch writes, and no window of a region names,
keeps its contents across it. The region's output is the specification's function of its input arrays, which is the
reference's stage.
-/

set_option maxRecDepth 16384

noncomputable section

namespace Cert.Bridge

open Cert.KernelIdeal Cert.KernelIdeal.Gen Cert.KernelIdeal.GenP
open Idealize.ShloMosaic Idealize.ShloMosaic.TcCoe Idealize.SL.Sem

variable (m : (ℓ : Loc nD τ sig) → Buf (Elt Ideal) ℓ) (ρ : Dev nD → PrngReg) (c : Dev nD)

theorem at_arg0_10 : W10 m ρ c (Proc.devRef .tc main_arg0) = (m ((c : Thread nD τ).loc main_arg0)) :=
  (W10_of_ne m ρ c main_arg0 (by decide)).trans (at_arg0_9 m ρ c)
theorem at_arg1_10 : W10 m ρ c (Proc.devRef .tc main_arg1) = (m ((c : Thread nD τ).loc main_arg1)) :=
  (W10_of_ne m ρ c main_arg1 (by decide)).trans (at_arg1_9 m ρ c)
theorem at_arg4_10 : W10 m ρ c (Proc.devRef .tc main_arg4) = (m ((c : Thread nD τ).loc main_arg4)) :=
  (W10_of_ne m ρ c main_arg4 (by decide)).trans (at_arg4_9 m ρ c)
theorem at_arg5_10 : W10 m ρ c (Proc.devRef .tc main_arg5) = (m ((c : Thread nD τ).loc main_arg5)) :=
  (W10_of_ne m ρ c main_arg5 (by decide)).trans (at_arg5_9 m ρ c)
theorem at_arg6_10 : W10 m ρ c (Proc.devRef .tc main_arg6) = (m ((c : Thread nD τ).loc main_arg6)) :=
  (W10_of_ne m ρ c main_arg6 (by decide)).trans (at_arg6_9 m ρ c)
theorem at_arg7_10 : W10 m ρ c (Proc.devRef .tc main_arg7) = (m ((c : Thread nD τ).loc main_arg7)) :=
  (W10_of_ne m ρ c main_arg7 (by decide)).trans (at_arg7_9 m ρ c)
theorem at_v79_10 : W10 m ρ c (Proc.devRef .tc main_v79) = (Cert.ReferenceIdeal.ReadP.val_main_v81 (F := Ideal) (m ((c : Thread nD τ).loc main_arg1))) :=
  (W10_of_ne m ρ c main_v79 (by decide)).trans (at_v79_9 m ρ c)
theorem at_v102_10 : W10 m ρ c (Proc.devRef .tc main_v102) = (Cert.ReferenceIdeal.ReadP.val_main_v114 (F := Ideal) (m ((c : Thread nD τ).loc main_arg1))) :=
  (W10_of_ne m ρ c main_v102 (by decide)).trans (at_v102_9 m ρ c)
theorem at_v77_10 : W10 m ρ c (Proc.devRef .tc main_v77) = (Cert.ReferenceIdeal.ReadP.val_main_v83 (F := Ideal) (m ((c : Thread nD τ).loc main_arg1))) :=
  (W10_of_ne m ρ c main_v77 (by decide)).trans (at_v77_9 m ρ c)
theorem at_v104_10 : W10 m ρ c (Proc.devRef .tc main_v104) = (Cert.ReferenceIdeal.ReadP.val_main_v116 (F := Ideal) (m ((c : Thread nD τ).loc main_arg1))) :=
  (W10_of_ne m ρ c main_v104 (by decide)).trans (at_v104_9 m ρ c)
theorem at_arg2_10 : W10 m ρ c (Proc.devRef .tc main_arg2) = (m ((c : Thread nD τ).loc main_arg2)) :=
  (W10_of_ne m ρ c main_arg2 (by decide)).trans (at_arg2_9 m ρ c)
theorem at_v73_10 : W10 m ρ c (Proc.devRef .tc main_v73) = (Cert.ReferenceIdeal.ReadP.val_main_v77 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) :=
  (W10_of_ne m ρ c main_v73 (by decide)).trans (at_v73_9 m ρ c)
theorem at_arg3_10 : W10 m ρ c (Proc.devRef .tc main_arg3) = (m ((c : Thread nD τ).loc main_arg3)) :=
  (W10_of_ne m ρ c main_arg3 (by decide)).trans (at_arg3_9 m ρ c)
theorem at_v114_10 : W10 m ρ c (Proc.devRef .tc main_v114) = (shapeCast _ (Cert.ReferenceIdeal.ReadP.val_main_v91 (F := Ideal) (m ((c : Thread nD τ).loc main_arg7))) shapeCasts_S32_S1x32) :=
  (W10_of_ne m ρ c main_v114 (by decide)).trans (at_v114_9 m ρ c)
theorem at_arg9_10 : W10 m ρ c (Proc.devRef .tc main_arg9) = (m ((c : Thread nD τ).loc main_arg9)) :=
  (W10_of_ne m ρ c main_arg9 (by decide)).trans (at_arg9_9 m ρ c)
theorem at_arg11_10 : W10 m ρ c (Proc.devRef .tc main_arg11) = (m ((c : Thread nD τ).loc main_arg11)) :=
  (W10_of_ne m ρ c main_arg11 (by decide)).trans (at_arg11_9 m ρ c)
theorem at_arg8_10 : W10 m ρ c (Proc.devRef .tc main_arg8) = (m ((c : Thread nD τ).loc main_arg8)) :=
  (W10_of_ne m ρ c main_arg8 (by decide)).trans (at_arg8_9 m ρ c)
theorem at_arg10_10 : W10 m ρ c (Proc.devRef .tc main_arg10) = (m ((c : Thread nD τ).loc main_arg10)) :=
  (W10_of_ne m ρ c main_arg10 (by decide)).trans (at_arg10_9 m ρ c)
theorem at_v142_11 : W11 m ρ c (Proc.devRef .tc main_v142) = (Cert.ReferenceIdeal.ReadP.val_main_v149 (F := Ideal) (m ((c : Thread nD τ).loc main_arg0)) (m ((c : Thread nD τ).loc main_arg1)) (m ((c : Thread nD τ).loc main_arg4)) (m ((c : Thread nD τ).loc main_arg5)) (m ((c : Thread nD τ).loc main_arg6))) := by
  show StableHlo.after hostOps5 (W10 m ρ c) (Proc.devRef .tc main_v142) = _
  after_results_simp
  rw [at_v77_10 m ρ c, at_v130_10 m ρ c, at_v79_10 m ρ c, at_v102_10 m ρ c]
  rfl
theorem at_v144_11 : W11 m ρ c (Proc.devRef .tc main_v144) = (Cert.ReferenceIdeal.ReadP.val_main_v151 (F := Ideal) (m ((c : Thread nD τ).loc main_arg0)) (m ((c : Thread nD τ).loc main_arg1)) (m ((c : Thread nD τ).loc main_arg4)) (m ((c : Thread nD τ).loc main_arg5)) (m ((c : Thread nD τ).loc main_arg6))) := by
  show StableHlo.after hostOps5 (W10 m ρ c) (Proc.devRef .tc main_v144) = _
  after_results_simp
  rw [at_v130_10 m ρ c, at_v104_10 m ρ c]
  rfl
theorem at_v158_11 : W11 m ρ c (Proc.devRef .tc main_v158) = (Cert.ReferenceIdeal.ReadP.val_main_v169 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) := by
  show StableHlo.after hostOps5 (W10 m ρ c) (Proc.devRef .tc main_v158) = _
  after_results_simp
  rw [at_arg2_10 m ρ c, at_v73_10 m ρ c]
  rfl
theorem at_v162_11 : W11 m ρ c (Proc.devRef .tc main_v162) = (shapeCast _ (Host.divf (F := Ideal) (φ := .f32) (Cert.ReferenceIdeal.ReadP.val_main_cst (F := Ideal)) (Cert.ReferenceIdeal.ReadP.val_main_v172 (F := Ideal) (m ((c : Thread nD τ).loc main_arg3)))) shapeCasts_S_S1x1) := by
  show StableHlo.after hostOps5 (W10 m ρ c) (Proc.devRef .tc main_v162) = _
  after_results_simp
  rw [at_arg3_10 m ρ c]
  rfl
theorem at_arg0_11 : W11 m ρ c (Proc.devRef .tc main_arg0) = (m ((c : Thread nD τ).loc main_arg0)) :=
  (StableHlo.after_of_forall_not_mem (b := Proc.devRef .tc main_arg0) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg0_10 m ρ c)
theorem at_arg1_11 : W11 m ρ c (Proc.devRef .tc main_arg1) = (m ((c : Thread nD τ).loc main_arg1)) :=
  (StableHlo.after_of_forall_not_mem (b := Proc.devRef .tc main_arg1) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg1_10 m ρ c)
theorem at_arg4_11 : W11 m ρ c (Proc.devRef .tc main_arg4) = (m ((c : Thread nD τ).loc main_arg4)) :=
  (StableHlo.after_of_forall_not_mem (b := Proc.devRef .tc main_arg4) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg4_10 m ρ c)
theorem at_arg5_11 : W11 m ρ c (Proc.devRef .tc main_arg5) = (m ((c : Thread nD τ).loc main_arg5)) :=
  (StableHlo.after_of_forall_not_mem (b := Proc.devRef .tc main_arg5) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg5_10 m ρ c)
theorem at_arg6_11 : W11 m ρ c (Proc.devRef .tc main_arg6) = (m ((c : Thread nD τ).loc main_arg6)) :=
  (StableHlo.after_of_forall_not_mem (b := Proc.devRef .tc main_arg6) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg6_10 m ρ c)
theorem at_arg7_11 : W11 m ρ c (Proc.devRef .tc main_arg7) = (m ((c : Thread nD τ).loc main_arg7)) :=
  (StableHlo.after_of_forall_not_mem (b := Proc.devRef .tc main_arg7) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg7_10 m ρ c)
theorem at_arg2_11 : W11 m ρ c (Proc.devRef .tc main_arg2) = (m ((c : Thread nD τ).loc main_arg2)) :=
  (StableHlo.after_of_forall_not_mem (b := Proc.devRef .tc main_arg2) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg2_10 m ρ c)
theorem at_arg3_11 : W11 m ρ c (Proc.devRef .tc main_arg3) = (m ((c : Thread nD τ).loc main_arg3)) :=
  (StableHlo.after_of_forall_not_mem (b := Proc.devRef .tc main_arg3) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg3_10 m ρ c)
theorem at_v114_11 : W11 m ρ c (Proc.devRef .tc main_v114) = (shapeCast _ (Cert.ReferenceIdeal.ReadP.val_main_v91 (F := Ideal) (m ((c : Thread nD τ).loc main_arg7))) shapeCasts_S32_S1x32) :=
  (StableHlo.after_of_forall_not_mem (b := Proc.devRef .tc main_v114) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v114_10 m ρ c)
theorem at_arg9_11 : W11 m ρ c (Proc.devRef .tc main_arg9) = (m ((c : Thread nD τ).loc main_arg9)) :=
  (StableHlo.after_of_forall_not_mem (b := Proc.devRef .tc main_arg9) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg9_10 m ρ c)
theorem at_arg11_11 : W11 m ρ c (Proc.devRef .tc main_arg11) = (m ((c : Thread nD τ).loc main_arg11)) :=
  (StableHlo.after_of_forall_not_mem (b := Proc.devRef .tc main_arg11) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg11_10 m ρ c)
theorem at_arg8_11 : W11 m ρ c (Proc.devRef .tc main_arg8) = (m ((c : Thread nD τ).loc main_arg8)) :=
  (StableHlo.after_of_forall_not_mem (b := Proc.devRef .tc main_arg8) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg8_10 m ρ c)
theorem at_arg10_11 : W11 m ρ c (Proc.devRef .tc main_arg10) = (m ((c : Thread nD τ).loc main_arg10)) :=
  (StableHlo.after_of_forall_not_mem (b := Proc.devRef .tc main_arg10) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg10_10 m ρ c)
theorem at_v163_12 (hd1 : Cert.ReferenceIdeal.ReadP.val_main_v172 (F := Ideal) (m ((c : Thread nD τ).loc main_arg3)) ValueIdx.ix0 ≠ (0 : EReal)) : W12 m ρ c (Proc.devRef .tc main_v163) = (Cert.ReferenceIdeal.ReadP.val_main_v174 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W12_arr m ρ c 5).trans ?_
  rw [Cert.KernelIdeal.Combine2R5.arr_eq]
  rw [show V11 m ρ c (Pipeline.arrRef spec5 0) = _ from at_v142_11 m ρ c,
    show V11 m ρ c (Pipeline.arrRef spec5 1) = _ from at_v144_11 m ρ c,
    show V11 m ρ c (Pipeline.arrRef spec5 2) = _ from at_v114_11 m ρ c,
    show V11 m ρ c (Pipeline.arrRef spec5 3) = _ from at_v158_11 m ρ c,
    show V11 m ρ c (Pipeline.arrRef spec5 4) = _ from at_v162_11 m ρ c]
  exact (Cert.ReferenceIdeal.Stages.stage_main_v174 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) shapeCasts_S32_S1x32 shapeCasts_S_S1x1 hd1).symm

end Cert.Bridge

end
-- ==== Proof.MatmulR6.lean ====
import proofs.«135273_j69758858821831_1_alg».proof.Proof.KernelIdealFrameP
import proofs.«135273_j69758858821831_1_alg».proof.Proof.Spec
import Idealize.ShloMosaic.Lib.Pipeline.Value
import Idealize.ShloMosaic.Lib.ValueIdx
import Idealize.ShloMosaic.PureOps.Ideal.Laws

/-!
# Region 6: rows of features times a weight matrix

The region walks the 200000 rows in 20 blocks of 10000. At block `t` it loads rows `10000·t … 10000·t + 9999` of
the features and the whole `20 × 32` weight matrix, and stores their product. An entry of the stored block is the row
of the loaded block times a column of the weights; the blocks tile the array; so the array the region leaves is the
product of the whole feature array with the weights, row by row.
-/

set_option maxRecDepth 16384

noncomputable section

open scoped BigOperators

namespace Cert.KernelIdeal.MatmulR6

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

/-! ## The product at an entry of a block -/

theorem lhs_row (i : S10000x32.Idx) (q : (dot_S10000x20_S20x32_S10000x32_1_0_0_1_n_n).contr.Idx) :
    ((dot_S10000x20_S20x32_S10000x32_1_0_0_1_n_n).lhsIdx i q 0).val = (i 0).val := by
  unfold DotDims.lhsIdx
  rw [dif_neg (show ¬(0 : Fin S10000x20.rank) ∈ (dot_S10000x20_S20x32_S10000x32_1_0_0_1_n_n).lhsBatch by decide), dif_pos (show (0 : Fin S10000x20.rank) ∈ (dot_S10000x20_S20x32_S10000x32_1_0_0_1_n_n).lhsNonContracting by decide)]
  rfl
theorem lhs_contr (i : S10000x32.Idx) (q : (dot_S10000x20_S20x32_S10000x32_1_0_0_1_n_n).contr.Idx) :
    ((dot_S10000x20_S20x32_S10000x32_1_0_0_1_n_n).lhsIdx i q 1).val = (q ⟨0, by decide⟩).val :=
  (dot_S10000x20_S20x32_S10000x32_1_0_0_1_n_n).lhsIdx_val_of_single rfl i q
theorem rhs_contr (i : S10000x32.Idx) (q : (dot_S10000x20_S20x32_S10000x32_1_0_0_1_n_n).contr.Idx) :
    ((dot_S10000x20_S20x32_S10000x32_1_0_0_1_n_n).rhsIdx i q 0).val = (q ⟨0, by decide⟩).val :=
  (dot_S10000x20_S20x32_S10000x32_1_0_0_1_n_n).rhsIdx_val_of_single rfl i q
theorem rhs_col (i : S10000x32.Idx) (q : (dot_S10000x20_S20x32_S10000x32_1_0_0_1_n_n).contr.Idx) :
    ((dot_S10000x20_S20x32_S10000x32_1_0_0_1_n_n).rhsIdx i q 1).val = (i 1).val := by
  unfold DotDims.rhsIdx
  rw [dif_neg (show ¬(1 : Fin S20x32.rank) ∈ (dot_S10000x20_S20x32_S10000x32_1_0_0_1_n_n).rhsBatch by decide), dif_pos (show (1 : Fin S20x32.rank) ∈ (dot_S10000x20_S20x32_S10000x32_1_0_0_1_n_n).rhsNonContracting by decide)]
  rfl

/-- The body's one store, at row `r` and column `j` of the block: the row of the feature block times the column of
    the weights (narrowing either operand changes nothing over the extended reals, and the accumulator is zero). -/
theorem pay_eq (x0 : Vec Ideal S10000x20 .f32) (x1 : Vec Ideal S20x32 .f32) (r : Fin 10000) (j : Fin 32) :
    k6_pay1 (F := Ideal) x0 x1 (ix2 r j) = ∑ k : Fin 20, x0 (ix2 r k) * x1 (ix2 k j) := by
  unfold k6_pay1
  refine (Ideal.matmul_constant_zero_apply dot_S10000x20_S20x32_S10000x32_1_0_0_1_n_n none _ _ (ix2 r j)).trans ?_
  rw [← Equiv.sum_comp (contrEquiv1 dot_S10000x20_S20x32_S10000x32_1_0_0_1_n_n 20 rfl rfl).symm]
  refine Finset.sum_congr rfl fun k _ => ?_
  have hk := contrEquiv1_symm_val dot_S10000x20_S20x32_S10000x32_1_0_0_1_n_n 20 rfl rfl k
  have el : (dot_S10000x20_S20x32_S10000x32_1_0_0_1_n_n).lhsIdx (ix2 r j) ((contrEquiv1 dot_S10000x20_S20x32_S10000x32_1_0_0_1_n_n 20 rfl rfl).symm k) = ix2 r k := funext fun a => Fin.ext (by
    match a with
    | ⟨0, _⟩ => exact lhs_row _ _
    | ⟨1, _⟩ => exact (lhs_contr _ _).trans hk)
  have er : (dot_S10000x20_S20x32_S10000x32_1_0_0_1_n_n).rhsIdx (ix2 r j) ((contrEquiv1 dot_S10000x20_S20x32_S10000x32_1_0_0_1_n_n 20 rfl rfl).symm k) = ix2 k j := funext fun a => Fin.ext (by
    match a with
    | ⟨0, _⟩ => exact (rhs_contr _ _).trans hk
    | ⟨1, _⟩ => exact rhs_col _ _)
  rw [el, er]
  simp only [truncf_apply, shapeCast_self]

/-! ## From blocks to the array -/

theorem hz : (![0, 0] : Fin 2 → Nat) = fun _ => 0 := funext fun a => by fin_cases a <;> rfl

/-- The index maps over the 20 grid points: the feature and output windows move down one block of rows per point, the
    weight window stays. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

variable (V : (c : Dev nD) → (b : Ref sig .tc) → Buf (Elt Ideal) ((c : Thread nD τ).loc b)) (c : Dev nD)

set_option maxHeartbeats 1000000 in
/-- What point `t` writes back is block `t` of the product of the whole arrays. -/
theorem flushed_eq (t : Fin cfg6.N) :
    (dat6 (F := Ideal) V c).flushed 2 t = ((cfg6.win 2).blk t).view.read (Elt Ideal)
      (Cert.Spec.mmG (V c (Pipeline.arrRef spec6 0)) (V c (Pipeline.arrRef spec6 1))) := by
  show (cfg6.win 2).cut (grid6.coords t) ((dat6 V c).after 2 t) = _
  rw [after6_2]
  unfold out6_2
  rw [View.canon_unit_zero hz]
  simp only [View.ld_unit_zero (S := S10000x20) hz, View.ld_unit_zero (S := S20x32) hz]
  obtain ⟨e0, e1, e2, e3, e4, e5⟩ := idx_facts t
  funext y
  obtain ⟨r, j, rfl⟩ : ∃ (r : Fin 10000) (j : Fin 32), y = ix2 r j := ⟨y 0, y 1, eq_ix2 y⟩
  refine (pay_eq (iblk6 V c 0 t) (iblk6 V c 1 t) r j).trans ?_
  show _ = Cert.Spec.mmG (V c (Pipeline.arrRef spec6 0)) (V c (Pipeline.arrRef spec6 1)) (((cfg6.win 2).blk t).view.emb (ix2 r j))
  unfold Cert.Spec.mmG
  refine Finset.sum_congr rfl fun k _ => ?_
  have hx : iblk6 V c 0 t (ix2 r k) = V c (Pipeline.arrRef spec6 0) (ix2 ((((cfg6.win 2).blk t).view.emb (ix2 r j)) 0) k) := by
    show V c (Pipeline.arrRef spec6 0) (((cfg6.win 0).blk t).view.emb (ix2 r k)) = _
    refine congrArg _ (funext fun a => Fin.ext ?_)
    match a with
    | ⟨0, _⟩ => show win6_0.index t (0 : Fin 2) * 10000 + 1 * r.val = win6_2.index t (0 : Fin 2) * 10000 + 1 * r.val; omega
    | ⟨1, _⟩ => show win6_0.index t (1 : Fin 2) * 20 + 1 * k.val = k.val; omega
  have hw : iblk6 V c 1 t (ix2 k j) = V c (Pipeline.arrRef spec6 1) (ix2 k ((((cfg6.win 2).blk t).view.emb (ix2 r j)) 1)) := by
    show V c (Pipeline.arrRef spec6 1) (((cfg6.win 1).blk t).view.emb (ix2 k j)) = _
    refine congrArg _ (funext fun a => Fin.ext ?_)
    match a with
    | ⟨0, _⟩ => show win6_1.index t (0 : Fin 2) * 20 + 1 * k.val = k.val; omega
    | ⟨1, _⟩ => show win6_1.index t (1 : Fin 2) * 32 + 1 * j.val = win6_2.index t (1 : Fin 2) * 32 + 1 * j.val; omega
  rw [hx, hw]

/-- An index of the array is in point `t`'s block iff each coordinate is in the block's range on its axis. -/
theorem mem_blk (t : Fin cfg6.N) (i : S200000x32.Idx) :
    i ∈ ((cfg6.win 2).blk t).view.set ↔ ∀ a : Fin 2, win6_2.index t a * S10000x32.size a ≤ (i a).val ∧ (i a).val < win6_2.index t a * S10000x32.size a + S10000x32.size a := by
  show i ∈ ((View.whole main_v205).slice (win6_2.rect t)).set ↔ _
  rw [View.set_slice_whole, Rect.mem_set_unit]
  exact Iff.rfl

/-- Row `n` lies in the block of point `n / 10000`: the 20 blocks tile the array. -/
theorem cover (i : S200000x32.Idx) :
    ∃ t : Fin cfg6.N, (cfg6.win 2).flush t = true ∧ i ∈ ((cfg6.win 2).blk t).view.set := by
  have h0 : (i 0).val < 200000 := (i 0).isLt
  have h1 : (i 1).val < 32 := (i 1).isLt
  have ht : (i 0).val / 10000 < 20 := by omega
  obtain ⟨e0, e1, e2, e3, e4, e5⟩ := idx_facts ⟨(i 0).val / 10000, ht⟩
  refine ⟨⟨(i 0).val / 10000, ht⟩, flush6_2 _, ?_⟩
  rw [mem_blk]
  intro a
  match a with
  | ⟨0, _⟩ =>
    show win6_2.index ⟨(i 0).val / 10000, ht⟩ (0 : Fin 2) * 10000 ≤ (i 0).val ∧ (i 0).val < win6_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win6_2.index ⟨(i 0).val / 10000, ht⟩ (1 : Fin 2) * 32 ≤ (i 1).val ∧ (i 1).val < win6_2.index ⟨(i 0).val / 10000, ht⟩ (1 : Fin 2) * 32 + 32
    rw [e5]; omega

/-- After the region its output array is the product of the feature array and the weights, as the region found them. -/
theorem arr_eq :
    (dat6 (F := Ideal) V c).arrAt 2 cfg6.N
      = Cert.Spec.mmG (V c (Pipeline.arrRef spec6 0)) (V c (Pipeline.arrRef spec6 1)) :=
  (dat6 (F := Ideal) V c).arrAt_eq_of_cover 2 _ (fun t _ => flushed_eq V c t) (cover)

end Cert.KernelIdeal.MatmulR6

end
-- ==== Proof.Bridge6.lean ====
import proofs.«135273_j69758858821831_1_alg».proof.Proof.KernelIdealFrameP
import proofs.«135273_j69758858821831_1_alg».proof.Proof.RefReadP
import proofs.«135273_j69758858821831_1_alg».proof.Proof.Bridge5
import proofs.«135273_j69758858821831_1_alg».proof.Proof.MatmulR6
import proofs.«135273_j69758858821831_1_alg».proof.Proof.RefStages

/-!
# Boundary 12 to boundary 14: host stretch 6 and region 6

Each buffer the idealized kernel holds at a boundary is stated as the reference's stage of the same operation on the same
operands (or, for the few buffers only the kernel has — a bias as a one-row matrix, the reciprocal of a layer's scalar —
as that operation of reference stages). A buffer no operation of a stretch writes, and no window of a region names,
keeps its contents across it. The region's output is the specification's function of its input arrays, which is the
reference's stage.
-/

set_option maxRecDepth 16384

noncomputable section

namespace Cert.Bridge

open Cert.KernelIdeal Cert.KernelIdeal.Gen Cert.KernelIdeal.GenP
open Idealize.ShloMosaic Idealize.ShloMosaic.TcCoe Idealize.SL.Sem

variable (m : (ℓ : Loc nD τ sig) → Buf (Elt Ideal) ℓ) (ρ : Dev nD → PrngReg) (c : Dev nD)

theorem at_arg0_12 : W12 m ρ c (Proc.devRef .tc main_arg0) = (m ((c : Thread nD τ).loc main_arg0)) :=
  (W12_of_ne m ρ c main_arg0 (by decide)).trans (at_arg0_11 m ρ c)
theorem at_arg1_12 : W12 m ρ c (Proc.devRef .tc main_arg1) = (m ((c : Thread nD τ).loc main_arg1)) :=
  (W12_of_ne m ρ c main_arg1 (by decide)).trans (at_arg1_11 m ρ c)
theorem at_arg4_12 : W12 m ρ c (Proc.devRef .tc main_arg4) = (m ((c : Thread nD τ).loc main_arg4)) :=
  (W12_of_ne m ρ c main_arg4 (by decide)).trans (at_arg4_11 m ρ c)
theorem at_arg5_12 : W12 m ρ c (Proc.devRef .tc main_arg5) = (m ((c : Thread nD τ).loc main_arg5)) :=
  (W12_of_ne m ρ c main_arg5 (by decide)).trans (at_arg5_11 m ρ c)
theorem at_arg6_12 : W12 m ρ c (Proc.devRef .tc main_arg6) = (m ((c : Thread nD τ).loc main_arg6)) :=
  (W12_of_ne m ρ c main_arg6 (by decide)).trans (at_arg6_11 m ρ c)
theorem at_arg7_12 : W12 m ρ c (Proc.devRef .tc main_arg7) = (m ((c : Thread nD τ).loc main_arg7)) :=
  (W12_of_ne m ρ c main_arg7 (by decide)).trans (at_arg7_11 m ρ c)
theorem at_arg2_12 : W12 m ρ c (Proc.devRef .tc main_arg2) = (m ((c : Thread nD τ).loc main_arg2)) :=
  (W12_of_ne m ρ c main_arg2 (by decide)).trans (at_arg2_11 m ρ c)
theorem at_arg3_12 : W12 m ρ c (Proc.devRef .tc main_arg3) = (m ((c : Thread nD τ).loc main_arg3)) :=
  (W12_of_ne m ρ c main_arg3 (by decide)).trans (at_arg3_11 m ρ c)
theorem at_arg9_12 : W12 m ρ c (Proc.devRef .tc main_arg9) = (m ((c : Thread nD τ).loc main_arg9)) :=
  (W12_of_ne m ρ c main_arg9 (by decide)).trans (at_arg9_11 m ρ c)
theorem at_arg11_12 : W12 m ρ c (Proc.devRef .tc main_arg11) = (m ((c : Thread nD τ).loc main_arg11)) :=
  (W12_of_ne m ρ c main_arg11 (by decide)).trans (at_arg11_11 m ρ c)
theorem at_arg8_12 : W12 m ρ c (Proc.devRef .tc main_arg8) = (m ((c : Thread nD τ).loc main_arg8)) :=
  (W12_of_ne m ρ c main_arg8 (by decide)).trans (at_arg8_11 m ρ c)
theorem at_arg10_12 : W12 m ρ c (Proc.devRef .tc main_arg10) = (m ((c : Thread nD τ).loc main_arg10)) :=
  (W12_of_ne m ρ c main_arg10 (by decide)).trans (at_arg10_11 m ρ c)
theorem at_v165_13 : W13 m ρ c (Proc.devRef .tc main_v165) = (Cert.ReferenceIdeal.ReadP.val_main_v176 (F := Ideal) (m ((c : Thread nD τ).loc main_arg0))) := by
  show StableHlo.after hostOps6 (W12 m ρ c) (Proc.devRef .tc main_v165) = _
  after_results_simp
  rw [at_arg0_12 m ρ c]
  rfl
theorem at_v167_13 : W13 m ρ c (Proc.devRef .tc main_v167) = (Cert.ReferenceIdeal.ReadP.val_main_v180 (F := Ideal) (m ((c : Thread nD τ).loc main_arg1))) := by
  show StableHlo.after hostOps6 (W12 m ρ c) (Proc.devRef .tc main_v167) = _
  after_results_simp
  rw [at_arg1_12 m ρ c]
  rfl
theorem at_v169_13 : W13 m ρ c (Proc.devRef .tc main_v169) = (Cert.ReferenceIdeal.ReadP.val_main_v178 (F := Ideal) (m ((c : Thread nD τ).loc main_arg1))) := by
  show StableHlo.after hostOps6 (W12 m ρ c) (Proc.devRef .tc main_v169) = _
  after_results_simp
  rw [at_arg1_12 m ρ c]
  rfl
theorem at_v192_13 : W13 m ρ c (Proc.devRef .tc main_v192) = (Cert.ReferenceIdeal.ReadP.val_main_v211 (F := Ideal) (m ((c : Thread nD τ).loc main_arg1))) := by
  show StableHlo.after hostOps6 (W12 m ρ c) (Proc.devRef .tc main_v192) = _
  after_results_simp
  rw [at_arg1_12 m ρ c]
  rfl
theorem at_v194_13 : W13 m ρ c (Proc.devRef .tc main_v194) = (Cert.ReferenceIdeal.ReadP.val_main_v213 (F := Ideal) (m ((c : Thread nD τ).loc main_arg1))) := by
  show StableHlo.after hostOps6 (W12 m ρ c) (Proc.devRef .tc main_v194) = _
  after_results_simp
  rw [at_arg1_12 m ρ c]
  rfl
theorem at_v196_13 : W13 m ρ c (Proc.devRef .tc main_v196) = (Cert.ReferenceIdeal.ReadP.val_main_v182 (F := Ideal) (m ((c : Thread nD τ).loc main_arg4))) := by
  show StableHlo.after hostOps6 (W12 m ρ c) (Proc.devRef .tc main_v196) = _
  after_results_simp
  rw [at_arg4_12 m ρ c]
  rfl
theorem at_v199_13 : W13 m ρ c (Proc.devRef .tc main_v199) = (shapeCast _ (Cert.ReferenceIdeal.ReadP.val_main_v184 (F := Ideal) (m ((c : Thread nD τ).loc main_arg5))) shapeCasts_S32_S1x32) := by
  show StableHlo.after hostOps6 (W12 m ρ c) (Proc.devRef .tc main_v199) = _
  after_results_simp
  rw [at_arg5_12 m ρ c]
  rfl
theorem at_v201_13 : W13 m ρ c (Proc.devRef .tc main_v201) = (Cert.ReferenceIdeal.ReadP.val_main_v186 (F := Ideal) (m ((c : Thread nD τ).loc main_arg6))) := by
  show StableHlo.after hostOps6 (W12 m ρ c) (Proc.devRef .tc main_v201) = _
  after_results_simp
  rw [at_arg6_12 m ρ c]
  rfl
theorem at_v204_13 : W13 m ρ c (Proc.devRef .tc main_v204) = (shapeCast _ (Cert.ReferenceIdeal.ReadP.val_main_v188 (F := Ideal) (m ((c : Thread nD τ).loc main_arg7))) shapeCasts_S32_S1x32) := by
  show StableHlo.after hostOps6 (W12 m ρ c) (Proc.devRef .tc main_v204) = _
  after_results_simp
  rw [at_arg7_12 m ρ c]
  rfl
theorem at_arg0_13 : W13 m ρ c (Proc.devRef .tc main_arg0) = (m ((c : Thread nD τ).loc main_arg0)) :=
  (StableHlo.after_of_forall_not_mem (b := Proc.devRef .tc main_arg0) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg0_12 m ρ c)
theorem at_arg1_13 : W13 m ρ c (Proc.devRef .tc main_arg1) = (m ((c : Thread nD τ).loc main_arg1)) :=
  (StableHlo.after_of_forall_not_mem (b := Proc.devRef .tc main_arg1) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg1_12 m ρ c)
theorem at_arg4_13 : W13 m ρ c (Proc.devRef .tc main_arg4) = (m ((c : Thread nD τ).loc main_arg4)) :=
  (StableHlo.after_of_forall_not_mem (b := Proc.devRef .tc main_arg4) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg4_12 m ρ c)
theorem at_arg5_13 : W13 m ρ c (Proc.devRef .tc main_arg5) = (m ((c : Thread nD τ).loc main_arg5)) :=
  (StableHlo.after_of_forall_not_mem (b := Proc.devRef .tc main_arg5) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg5_12 m ρ c)
theorem at_arg6_13 : W13 m ρ c (Proc.devRef .tc main_arg6) = (m ((c : Thread nD τ).loc main_arg6)) :=
  (StableHlo.after_of_forall_not_mem (b := Proc.devRef .tc main_arg6) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg6_12 m ρ c)
theorem at_arg7_13 : W13 m ρ c (Proc.devRef .tc main_arg7) = (m ((c : Thread nD τ).loc main_arg7)) :=
  (StableHlo.after_of_forall_not_mem (b := Proc.devRef .tc main_arg7) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg7_12 m ρ c)
theorem at_arg2_13 : W13 m ρ c (Proc.devRef .tc main_arg2) = (m ((c : Thread nD τ).loc main_arg2)) :=
  (StableHlo.after_of_forall_not_mem (b := Proc.devRef .tc main_arg2) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg2_12 m ρ c)
theorem at_arg3_13 : W13 m ρ c (Proc.devRef .tc main_arg3) = (m ((c : Thread nD τ).loc main_arg3)) :=
  (StableHlo.after_of_forall_not_mem (b := Proc.devRef .tc main_arg3) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg3_12 m ρ c)
theorem at_v163_13 (hd1 : Cert.ReferenceIdeal.ReadP.val_main_v172 (F := Ideal) (m ((c : Thread nD τ).loc main_arg3)) ValueIdx.ix0 ≠ (0 : EReal)) : W13 m ρ c (Proc.devRef .tc main_v163) = (Cert.ReferenceIdeal.ReadP.val_main_v174 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (StableHlo.after_of_forall_not_mem (b := Proc.devRef .tc main_v163) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v163_12 m ρ c hd1)
theorem at_arg9_13 : W13 m ρ c (Proc.devRef .tc main_arg9) = (m ((c : Thread nD τ).loc main_arg9)) :=
  (StableHlo.after_of_forall_not_mem (b := Proc.devRef .tc main_arg9) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg9_12 m ρ c)
theorem at_arg11_13 : W13 m ρ c (Proc.devRef .tc main_arg11) = (m ((c : Thread nD τ).loc main_arg11)) :=
  (StableHlo.after_of_forall_not_mem (b := Proc.devRef .tc main_arg11) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg11_12 m ρ c)
theorem at_arg8_13 : W13 m ρ c (Proc.devRef .tc main_arg8) = (m ((c : Thread nD τ).loc main_arg8)) :=
  (StableHlo.after_of_forall_not_mem (b := Proc.devRef .tc main_arg8) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg8_12 m ρ c)
theorem at_arg10_13 : W13 m ρ c (Proc.devRef .tc main_arg10) = (m ((c : Thread nD τ).loc main_arg10)) :=
  (StableHlo.after_of_forall_not_mem (b := Proc.devRef .tc main_arg10) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg10_12 m ρ c)
theorem at_v205_14 : W14 m ρ c (Proc.devRef .tc main_v205) = (Cert.ReferenceIdeal.ReadP.val_main_v214 (F := Ideal) (m ((c : Thread nD τ).loc main_arg0)) (m ((c : Thread nD τ).loc main_arg4))) := by
  refine (W14_arr m ρ c 2).trans ?_
  rw [Cert.KernelIdeal.MatmulR6.arr_eq]
  rw [show V13 m ρ c (Pipeline.arrRef spec6 0) = _ from at_v165_13 m ρ c,
    show V13 m ρ c (Pipeline.arrRef spec6 1) = _ from at_v196_13 m ρ c]
  exact (Cert.ReferenceIdeal.Stages.stage_main_v214 (m ((c : Thread nD τ).loc main_arg0)) (m ((c : Thread nD τ).loc main_arg4))).symm

end Cert.Bridge

end
-- ==== Proof.Combine1R7.lean ====
import proofs.«135273_j69758858821831_1_alg».proof.Proof.KernelIdealFrameP
import proofs.«135273_j69758858821831_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# Region 7: the rectified sum of two row blocks and a bias row, times the weights

At each of the 20 grid points the region's body reads rows `10000 t … 10000 t + 9999` of the two `200000 × 32`
inputs `a`, `h`, the bias row `b` and the `32 × 32` weights `w`, and writes the same rows of the output:
`out[n, j] = ∑ k, max (a[n, k] + h[n, k] + b[0, k]) 0 · w[k, j]`. First the body's result is read at a block
coordinate; then each block's element is identified with an element of its array; the blocks tile the output, so
the output array after the region is the specification's function of the input arrays.
-/

noncomputable section

namespace Cert.KernelIdeal.Combine1R7

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)
open scoped BigOperators

/-- The contraction's left operand index at output `(r, j)` and contraction coordinate `k` is `(r, k)`. -/
theorem lhs_idx (r : Fin 10000) (j k : Fin 32) :
    dot_S10000x32_S32x32_S10000x32_1_0_0_1_n_n.lhsIdx (ix2 r j)
      ((contrEquiv1 dot_S10000x32_S32x32_S10000x32_1_0_0_1_n_n 32 rfl rfl).symm k) = ix2 r k := by
  have hk := contrEquiv1_symm_val dot_S10000x32_S32x32_S10000x32_1_0_0_1_n_n 32 rfl rfl k
  funext a; apply Fin.ext
  match a with
  | ⟨0, _⟩ =>
    show (dot_S10000x32_S32x32_S10000x32_1_0_0_1_n_n.lhsIdx (ix2 r j) _ 0).val = r.val
    unfold DotDims.lhsIdx
    rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
    rfl
  | ⟨1, _⟩ =>
    exact (dot_S10000x32_S32x32_S10000x32_1_0_0_1_n_n.lhsIdx_val_of_single rfl (ix2 r j) _).trans hk

/-- The right operand index is `(k, j)`. -/
theorem rhs_idx (r : Fin 10000) (j k : Fin 32) :
    dot_S10000x32_S32x32_S10000x32_1_0_0_1_n_n.rhsIdx (ix2 r j)
      ((contrEquiv1 dot_S10000x32_S32x32_S10000x32_1_0_0_1_n_n 32 rfl rfl).symm k) = ix2 k j := by
  have hk := contrEquiv1_symm_val dot_S10000x32_S32x32_S10000x32_1_0_0_1_n_n 32 rfl rfl k
  funext a; apply Fin.ext
  match a with
  | ⟨0, _⟩ =>
    exact (dot_S10000x32_S32x32_S10000x32_1_0_0_1_n_n.rhsIdx_val_of_single rfl (ix2 r j) _).trans hk
  | ⟨1, _⟩ =>
    show (dot_S10000x32_S32x32_S10000x32_1_0_0_1_n_n.rhsIdx (ix2 r j) _ 1).val = j.val
    unfold DotDims.rhsIdx
    rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
    rfl

/-- The body's result at row `r`, column `j`: the rectified sum of the two row blocks and the bias row, times the weights. -/
theorem pay_apply (x0 x1 : Vec Ideal S10000x32 .f32) (x2 : Vec Ideal S1x32 .f32) (x3 : Vec Ideal S32x32 .f32)
    (r : Fin 10000) (j : Fin 32) :
    k7_pay1 (F := Ideal) x0 x1 x2 x3 (ix2 r j)
      = ∑ k : Fin 32, max (x0 (ix2 r k) + x1 (ix2 r k) + x2 (ix2 (0 : Fin 1) k)) 0 * x3 (ix2 k j) := by
  unfold k7_pay1
  simp only [shapeCast_self]
  simp only [matmul]
  rw [Ideal.matmul_constant_zero_apply, ← Equiv.sum_comp (contrEquiv1 dot_S10000x32_S32x32_S10000x32_1_0_0_1_n_n 32 rfl rfl).symm]
  refine Finset.sum_congr rfl fun k _ => ?_
  rw [lhs_idx, rhs_idx]
  rw [truncf_apply, truncf_apply, maximumf_apply, addf_apply, addf_apply, broadcast_apply, broadcastTo_1b_ab_apply]
  rw [show (FloatOps.ofBits (F := Ideal) FTy.f32 0x00000000#32) = (0 : EReal) from Ideal.ofBits_zero_f32]

/-! ## From blocks to the array -/

/-- The zero offsets, as a constant function. -/
theorem hz : (![0, 0] : Fin 2 → Nat) = fun _ => 0 := funext fun a => by fin_cases a <;> rfl

/-- The block index maps over the 20 grid points: the two row-tiled inputs and the output sit at block `(t, 0)`;
    the bias row and the weights at block `(0, 0)`. -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- The grid has 20 points. -/
theorem lt_points (t : Fin cfg7.N) : t.val < 20 := by
  have h := t.isLt
  have hN : cfg7.N = 20 := N_7
  omega

/-- The body's result at a block coordinate, when each block's element is the array's element at the matching
    array index: the specification at that array index. -/
theorem pay_block (A H : Cert.Spec.Arr 200000 32) (B : Cert.Spec.Arr 1 32) (W : Cert.Spec.Arr 32 32)
    (x0 x1 : Vec Ideal S10000x32 .f32) (x2 : Vec Ideal S1x32 .f32) (x3 : Vec Ideal S32x32 .f32)
    (y : S10000x32.Idx) (i : S200000x32.Idx) (r : Fin 10000) (j : Fin 32) (n : Fin 200000)
    (hy : y = ix2 r j) (hi : i = ix2 n j)
    (h0 : ∀ k : Fin 32, x0 (ix2 r k) = A (ix2 n k))
    (h1 : ∀ k : Fin 32, x1 (ix2 r k) = H (ix2 n k))
    (h2 : ∀ k : Fin 32, x2 (ix2 (0 : Fin 1) k) = B (ix2 (0 : Fin 1) k))
    (h3 : ∀ k : Fin 32, x3 (ix2 k j) = W (ix2 k j)) :
    k7_pay1 (F := Ideal) x0 x1 x2 x3 y = Cert.Spec.c1G A H B W i := by
  subst hy hi
  rw [pay_apply]
  show _ = ∑ k : Fin 32, max (A (ix2 n k) + H (ix2 n k) + B (ix2 (0 : Fin 1) k)) 0 * W (ix2 k j)
  refine Finset.sum_congr rfl fun k _ => ?_
  rw [h0, h1, h2, h3]

section Blocks

variable (V : (c : Dev nD) → (b : Ref sig .tc) → Buf (Elt Ideal) ((c : Thread nD τ).loc b))

/-- An element of a row-tiled input block at point `t` is the array's element `10000 · t` rows further down. -/
theorem blk0_apply (c : Dev nD) (t : Fin cfg7.N) (r : Fin 10000) (k : Fin 32) (n : Fin 200000)
    (hn : n.val = t.val * 10000 + r.val) :
    iblk7 (F := Ideal) V c 0 t (ix2 r k) = V c (Pipeline.arrRef spec7 0) (ix2 n k) := by
  obtain ⟨e0, e1, -⟩ := idx_facts t
  show V c (Pipeline.arrRef spec7 0) (((cfg7.win 0).blk t).view.emb (ix2 r k)) = _
  refine congrArg _ (funext fun a => Fin.ext ?_)
  match a with
  | ⟨0, _⟩ => show win7_0.index t (0 : Fin 2) * 10000 + 1 * r.val = n.val; omega
  | ⟨1, _⟩ => show win7_0.index t (1 : Fin 2) * 32 + 1 * k.val = k.val; omega

theorem blk1_apply (c : Dev nD) (t : Fin cfg7.N) (r : Fin 10000) (k : Fin 32) (n : Fin 200000)
    (hn : n.val = t.val * 10000 + r.val) :
    iblk7 (F := Ideal) V c 1 t (ix2 r k) = V c (Pipeline.arrRef spec7 1) (ix2 n k) := by
  obtain ⟨-, -, e0, e1, -⟩ := idx_facts t
  show V c (Pipeline.arrRef spec7 1) (((cfg7.win 1).blk t).view.emb (ix2 r k)) = _
  refine congrArg _ (funext fun a => Fin.ext ?_)
  match a with
  | ⟨0, _⟩ => show win7_1.index t (0 : Fin 2) * 10000 + 1 * r.val = n.val; omega
  | ⟨1, _⟩ => show win7_1.index t (1 : Fin 2) * 32 + 1 * k.val = k.val; omega

/-- The bias block is the bias row at every point. -/
theorem blk2_apply (c : Dev nD) (t : Fin cfg7.N) (k : Fin 32) :
    iblk7 (F := Ideal) V c 2 t (ix2 (0 : Fin 1) k) = V c (Pipeline.arrRef spec7 2) (ix2 (0 : Fin 1) k) := by
  obtain ⟨-, -, -, -, e0, e1, -⟩ := idx_facts t
  show V c (Pipeline.arrRef spec7 2) (((cfg7.win 2).blk t).view.emb (ix2 (0 : Fin 1) k)) = _
  refine congrArg _ (funext fun a => Fin.ext ?_)
  match a with
  | ⟨0, _⟩ => show win7_2.index t (0 : Fin 2) * 1 + 1 * (0 : Fin 1).val = (0 : Fin 1).val; omega
  | ⟨1, _⟩ => show win7_2.index t (1 : Fin 2) * 32 + 1 * k.val = k.val; omega

/-- The weight block is the weight matrix at every point. -/
theorem blk3_apply (c : Dev nD) (t : Fin cfg7.N) (k j : Fin 32) :
    iblk7 (F := Ideal) V c 3 t (ix2 k j) = V c (Pipeline.arrRef spec7 3) (ix2 k j) := by
  obtain ⟨-, -, -, -, -, -, e0, e1, -⟩ := idx_facts t
  show V c (Pipeline.arrRef spec7 3) (((cfg7.win 3).blk t).view.emb (ix2 k j)) = _
  refine congrArg _ (funext fun a => Fin.ext ?_)
  match a with
  | ⟨0, _⟩ => show win7_3.index t (0 : Fin 2) * 32 + 1 * k.val = k.val; omega
  | ⟨1, _⟩ => show win7_3.index t (1 : Fin 2) * 32 + 1 * j.val = j.val; omega

set_option maxHeartbeats 1000000 in
/-- What point `t` writes back is block `t` of the specification's function of the arrays as the region found them. -/
theorem flushed_eq (c : Dev nD) (t : Fin cfg7.N) :
    (dat7 (F := Ideal) V c).flushed 4 t = ((cfg7.win 4).blk t).view.read (Elt Ideal)
      (Cert.Spec.c1G (V c (Pipeline.arrRef spec7 0)) (V c (Pipeline.arrRef spec7 1)) (V c (Pipeline.arrRef spec7 2)) (V c (Pipeline.arrRef spec7 3))) := by
  show (cfg7.win 4).cut (grid7.coords t) ((dat7 (F := Ideal) V c).after 4 t) = _
  rw [after7_4]
  unfold out7_4
  rw [View.canon_unit_zero hz]
  simp only [View.ld_unit_zero (S := S10000x32) hz, View.ld_unit_zero (S := S1x32) hz, View.ld_unit_zero (S := S32x32) hz]
  have ht := lt_points t
  obtain ⟨-, -, -, -, -, -, -, -, e0, e1⟩ := idx_facts t
  funext y
  have hy0 : (y 0).val < 10000 := (y 0).isLt
  have hy1 : (y 1).val < 32 := (y 1).isLt
  have hn : t.val * 10000 + (y 0).val < 200000 := by omega
  refine pay_block _ _ _ _ _ _ _ _ _ _ ⟨(y 0).val, hy0⟩ ⟨(y 1).val, hy1⟩ ⟨t.val * 10000 + (y 0).val, hn⟩ ?_ ?_
    (fun k => blk0_apply V c t _ k _ rfl) (fun k => blk1_apply V c t _ k _ rfl)
    (fun k => blk2_apply V c t k) (fun k => blk3_apply V c t k _)
  · exact funext fun a => match a with | ⟨0, _⟩ => rfl | ⟨1, _⟩ => rfl
  · funext a; apply Fin.ext
    match a with
    | ⟨0, _⟩ => show win7_4.index t (0 : Fin 2) * 10000 + 1 * (y 0).val = t.val * 10000 + (y 0).val; omega
    | ⟨1, _⟩ => show win7_4.index t (1 : Fin 2) * 32 + 1 * (y 1).val = (y 1).val; omega

/-- An index of the output array is in point `t`'s block iff each coordinate is in the block's range on its axis. -/
theorem mem_blk (t : Fin cfg7.N) (i : S200000x32.Idx) :
    i ∈ ((cfg7.win 4).blk t).view.set ↔ ∀ a : Fin 2, win7_4.index t a * S10000x32.size a ≤ (i a).val ∧ (i a).val < win7_4.index t a * S10000x32.size a + S10000x32.size a := by
  show i ∈ ((View.whole main_v220).slice (win7_4.rect t)).set ↔ _
  rw [View.set_slice_whole, Rect.mem_set_unit]
  exact Iff.rfl

/-- Row `n` of the output is written by point `n / 10000`. -/
theorem cover (i : S200000x32.Idx) :
    ∃ t : Fin cfg7.N, (cfg7.win 4).flush t = true ∧ i ∈ ((cfg7.win 4).blk t).view.set := by
  have hi0 : (i 0).val < 200000 := (i 0).isLt
  have hi1 : (i 1).val < 32 := (i 1).isLt
  have hN : cfg7.N = 20 := N_7
  obtain ⟨t, ht⟩ : ∃ t : Fin cfg7.N, t.val = (i 0).val / 10000 := ⟨⟨(i 0).val / 10000, by rw [hN]; omega⟩, rfl⟩
  obtain ⟨-, -, -, -, -, -, -, -, e0, e1⟩ := idx_facts t
  refine ⟨t, flush7_4 t, ?_⟩
  rw [mem_blk]
  intro a
  match a with
  | ⟨0, _⟩ => show win7_4.index t (0 : Fin 2) * 10000 ≤ (i 0).val ∧ (i 0).val < win7_4.index t (0 : Fin 2) * 10000 + 10000; omega
  | ⟨1, _⟩ => show win7_4.index t (1 : Fin 2) * 32 ≤ (i 1).val ∧ (i 1).val < win7_4.index t (1 : Fin 2) * 32 + 32; omega

end Blocks

/-- After the region, its output array is the specification's function of its input arrays as the region found them. -/
theorem arr_eq (V : (c : Dev nD) → (b : Ref sig .tc) → Buf (Elt Ideal) ((c : Thread nD τ).loc b)) (c : Dev nD) :
    (GenP.dat7 (F := Ideal) V c).arrAt 4 cfg7.N = Cert.Spec.c1G (V c (Pipeline.arrRef spec7 0)) (V c (Pipeline.arrRef spec7 1)) (V c (Pipeline.arrRef spec7 2)) (V c (Pipeline.arrRef spec7 3)) :=
  (dat7 (F := Ideal) V c).arrAt_eq_of_cover 4 _ (fun t _ => flushed_eq V c t) cover

end Cert.KernelIdeal.Combine1R7

end
-- ==== Proof.Bridge7.lean ====
import proofs.«135273_j69758858821831_1_alg».proof.Proof.KernelIdealFrameP
import proofs.«135273_j69758858821831_1_alg».proof.Proof.RefReadP
import proofs.«135273_j69758858821831_1_alg».proof.Proof.Bridge6
import proofs.«135273_j69758858821831_1_alg».proof.Proof.Combine1R7
import proofs.«135273_j69758858821831_1_alg».proof.Proof.RefStages

/-!
# Boundary 14 to boundary 16: host stretch 7 and region 7

Each buffer the idealized kernel holds at a boundary is stated as the reference's stage of the same operation on the same
operands (or, for the few buffers only the kernel has — a bias as a one-row matrix, the reciprocal of a layer's scalar —
as that operation of reference stages). A buffer no operation of a stretch writes, and no window of a region names,
keeps its contents across it. The region's output is the specification's function of its input arrays, which is the
reference's stage.
-/

set_option maxRecDepth 16384

noncomputable section

namespace Cert.Bridge

open Cert.KernelIdeal Cert.KernelIdeal.Gen Cert.KernelIdeal.GenP
open Idealize.ShloMosaic Idealize.ShloMosaic.TcCoe Idealize.SL.Sem

variable (m : (ℓ : Loc nD τ sig) → Buf (Elt Ideal) ℓ) (ρ : Dev nD → PrngReg) (c : Dev nD)

theorem at_arg0_14 : W14 m ρ c (Proc.devRef .tc main_arg0) = (m ((c : Thread nD τ).loc main_arg0)) :=
  (W14_of_ne m ρ c main_arg0 (by decide)).trans (at_arg0_13 m ρ c)
theorem at_arg1_14 : W14 m ρ c (Proc.devRef .tc main_arg1) = (m ((c : Thread nD τ).loc main_arg1)) :=
  (W14_of_ne m ρ c main_arg1 (by decide)).trans (at_arg1_13 m ρ c)
theorem at_arg4_14 : W14 m ρ c (Proc.devRef .tc main_arg4) = (m ((c : Thread nD τ).loc main_arg4)) :=
  (W14_of_ne m ρ c main_arg4 (by decide)).trans (at_arg4_13 m ρ c)
theorem at_arg5_14 : W14 m ρ c (Proc.devRef .tc main_arg5) = (m ((c : Thread nD τ).loc main_arg5)) :=
  (W14_of_ne m ρ c main_arg5 (by decide)).trans (at_arg5_13 m ρ c)
theorem at_arg6_14 : W14 m ρ c (Proc.devRef .tc main_arg6) = (m ((c : Thread nD τ).loc main_arg6)) :=
  (W14_of_ne m ρ c main_arg6 (by decide)).trans (at_arg6_13 m ρ c)
theorem at_arg7_14 : W14 m ρ c (Proc.devRef .tc main_arg7) = (m ((c : Thread nD τ).loc main_arg7)) :=
  (W14_of_ne m ρ c main_arg7 (by decide)).trans (at_arg7_13 m ρ c)
theorem at_arg2_14 : W14 m ρ c (Proc.devRef .tc main_arg2) = (m ((c : Thread nD τ).loc main_arg2)) :=
  (W14_of_ne m ρ c main_arg2 (by decide)).trans (at_arg2_13 m ρ c)
theorem at_arg3_14 : W14 m ρ c (Proc.devRef .tc main_arg3) = (m ((c : Thread nD τ).loc main_arg3)) :=
  (W14_of_ne m ρ c main_arg3 (by decide)).trans (at_arg3_13 m ρ c)
theorem at_v169_14 : W14 m ρ c (Proc.devRef .tc main_v169) = (Cert.ReferenceIdeal.ReadP.val_main_v178 (F := Ideal) (m ((c : Thread nD τ).loc main_arg1))) :=
  (W14_of_ne m ρ c main_v169 (by decide)).trans (at_v169_13 m ρ c)
theorem at_v192_14 : W14 m ρ c (Proc.devRef .tc main_v192) = (Cert.ReferenceIdeal.ReadP.val_main_v211 (F := Ideal) (m ((c : Thread nD τ).loc main_arg1))) :=
  (W14_of_ne m ρ c main_v192 (by decide)).trans (at_v192_13 m ρ c)
theorem at_v167_14 : W14 m ρ c (Proc.devRef .tc main_v167) = (Cert.ReferenceIdeal.ReadP.val_main_v180 (F := Ideal) (m ((c : Thread nD τ).loc main_arg1))) :=
  (W14_of_ne m ρ c main_v167 (by decide)).trans (at_v167_13 m ρ c)
theorem at_v194_14 : W14 m ρ c (Proc.devRef .tc main_v194) = (Cert.ReferenceIdeal.ReadP.val_main_v213 (F := Ideal) (m ((c : Thread nD τ).loc main_arg1))) :=
  (W14_of_ne m ρ c main_v194 (by decide)).trans (at_v194_13 m ρ c)
theorem at_v199_14 : W14 m ρ c (Proc.devRef .tc main_v199) = (shapeCast _ (Cert.ReferenceIdeal.ReadP.val_main_v184 (F := Ideal) (m ((c : Thread nD τ).loc main_arg5))) shapeCasts_S32_S1x32) :=
  (W14_of_ne m ρ c main_v199 (by decide)).trans (at_v199_13 m ρ c)
theorem at_v201_14 : W14 m ρ c (Proc.devRef .tc main_v201) = (Cert.ReferenceIdeal.ReadP.val_main_v186 (F := Ideal) (m ((c : Thread nD τ).loc main_arg6))) :=
  (W14_of_ne m ρ c main_v201 (by decide)).trans (at_v201_13 m ρ c)
theorem at_v163_14 (hd1 : Cert.ReferenceIdeal.ReadP.val_main_v172 (F := Ideal) (m ((c : Thread nD τ).loc main_arg3)) ValueIdx.ix0 ≠ (0 : EReal)) : W14 m ρ c (Proc.devRef .tc main_v163) = (Cert.ReferenceIdeal.ReadP.val_main_v174 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (W14_of_ne m ρ c main_v163 (by decide)).trans (at_v163_13 m ρ c hd1)
theorem at_v204_14 : W14 m ρ c (Proc.devRef .tc main_v204) = (shapeCast _ (Cert.ReferenceIdeal.ReadP.val_main_v188 (F := Ideal) (m ((c : Thread nD τ).loc main_arg7))) shapeCasts_S32_S1x32) :=
  (W14_of_ne m ρ c main_v204 (by decide)).trans (at_v204_13 m ρ c)
theorem at_arg9_14 : W14 m ρ c (Proc.devRef .tc main_arg9) = (m ((c : Thread nD τ).loc main_arg9)) :=
  (W14_of_ne m ρ c main_arg9 (by decide)).trans (at_arg9_13 m ρ c)
theorem at_arg11_14 : W14 m ρ c (Proc.devRef .tc main_arg11) = (m ((c : Thread nD τ).loc main_arg11)) :=
  (W14_of_ne m ρ c main_arg11 (by decide)).trans (at_arg11_13 m ρ c)
theorem at_arg8_14 : W14 m ρ c (Proc.devRef .tc main_arg8) = (m ((c : Thread nD τ).loc main_arg8)) :=
  (W14_of_ne m ρ c main_arg8 (by decide)).trans (at_arg8_13 m ρ c)
theorem at_arg10_14 : W14 m ρ c (Proc.devRef .tc main_arg10) = (m ((c : Thread nD τ).loc main_arg10)) :=
  (W14_of_ne m ρ c main_arg10 (by decide)).trans (at_arg10_13 m ρ c)
theorem at_v217_15 : W15 m ρ c (Proc.devRef .tc main_v217) = (Cert.ReferenceIdeal.ReadP.val_main_v226 (F := Ideal) (m ((c : Thread nD τ).loc main_arg0)) (m ((c : Thread nD τ).loc main_arg1)) (m ((c : Thread nD τ).loc main_arg4))) := by
  show StableHlo.after hostOps7 (W14 m ρ c) (Proc.devRef .tc main_v217) = _
  after_results_simp
  rw [at_v167_14 m ρ c, at_v205_14 m ρ c, at_v169_14 m ρ c, at_v192_14 m ρ c]
  rfl
theorem at_v219_15 : W15 m ρ c (Proc.devRef .tc main_v219) = (Cert.ReferenceIdeal.ReadP.val_main_v228 (F := Ideal) (m ((c : Thread nD τ).loc main_arg0)) (m ((c : Thread nD τ).loc main_arg1)) (m ((c : Thread nD τ).loc main_arg4))) := by
  show StableHlo.after hostOps7 (W14 m ρ c) (Proc.devRef .tc main_v219) = _
  after_results_simp
  rw [at_v205_14 m ρ c, at_v194_14 m ρ c]
  rfl
theorem at_arg0_15 : W15 m ρ c (Proc.devRef .tc main_arg0) = (m ((c : Thread nD τ).loc main_arg0)) :=
  (StableHlo.after_of_forall_not_mem (b := Proc.devRef .tc main_arg0) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg0_14 m ρ c)
theorem at_arg1_15 : W15 m ρ c (Proc.devRef .tc main_arg1) = (m ((c : Thread nD τ).loc main_arg1)) :=
  (StableHlo.after_of_forall_not_mem (b := Proc.devRef .tc main_arg1) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg1_14 m ρ c)
theorem at_arg4_15 : W15 m ρ c (Proc.devRef .tc main_arg4) = (m ((c : Thread nD τ).loc main_arg4)) :=
  (StableHlo.after_of_forall_not_mem (b := Proc.devRef .tc main_arg4) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg4_14 m ρ c)
theorem at_arg5_15 : W15 m ρ c (Proc.devRef .tc main_arg5) = (m ((c : Thread nD τ).loc main_arg5)) :=
  (StableHlo.after_of_forall_not_mem (b := Proc.devRef .tc main_arg5) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg5_14 m ρ c)
theorem at_arg6_15 : W15 m ρ c (Proc.devRef .tc main_arg6) = (m ((c : Thread nD τ).loc main_arg6)) :=
  (StableHlo.after_of_forall_not_mem (b := Proc.devRef .tc main_arg6) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg6_14 m ρ c)
theorem at_arg7_15 : W15 m ρ c (Proc.devRef .tc main_arg7) = (m ((c : Thread nD τ).loc main_arg7)) :=
  (StableHlo.after_of_forall_not_mem (b := Proc.devRef .tc main_arg7) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg7_14 m ρ c)
theorem at_arg2_15 : W15 m ρ c (Proc.devRef .tc main_arg2) = (m ((c : Thread nD τ).loc main_arg2)) :=
  (StableHlo.after_of_forall_not_mem (b := Proc.devRef .tc main_arg2) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg2_14 m ρ c)
theorem at_arg3_15 : W15 m ρ c (Proc.devRef .tc main_arg3) = (m ((c : Thread nD τ).loc main_arg3)) :=
  (StableHlo.after_of_forall_not_mem (b := Proc.devRef .tc main_arg3) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg3_14 m ρ c)
theorem at_v169_15 : W15 m ρ c (Proc.devRef .tc main_v169) = (Cert.ReferenceIdeal.ReadP.val_main_v178 (F := Ideal) (m ((c : Thread nD τ).loc main_arg1))) :=
  (StableHlo.after_of_forall_not_mem (b := Proc.devRef .tc main_v169) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v169_14 m ρ c)
theorem at_v192_15 : W15 m ρ c (Proc.devRef .tc main_v192) = (Cert.ReferenceIdeal.ReadP.val_main_v211 (F := Ideal) (m ((c : Thread nD τ).loc main_arg1))) :=
  (StableHlo.after_of_forall_not_mem (b := Proc.devRef .tc main_v192) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v192_14 m ρ c)
theorem at_v167_15 : W15 m ρ c (Proc.devRef .tc main_v167) = (Cert.ReferenceIdeal.ReadP.val_main_v180 (F := Ideal) (m ((c : Thread nD τ).loc main_arg1))) :=
  (StableHlo.after_of_forall_not_mem (b := Proc.devRef .tc main_v167) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v167_14 m ρ c)
theorem at_v194_15 : W15 m ρ c (Proc.devRef .tc main_v194) = (Cert.ReferenceIdeal.ReadP.val_main_v213 (F := Ideal) (m ((c : Thread nD τ).loc main_arg1))) :=
  (StableHlo.after_of_forall_not_mem (b := Proc.devRef .tc main_v194) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v194_14 m ρ c)
theorem at_v199_15 : W15 m ρ c (Proc.devRef .tc main_v199) = (shapeCast _ (Cert.ReferenceIdeal.ReadP.val_main_v184 (F := Ideal) (m ((c : Thread nD τ).loc main_arg5))) shapeCasts_S32_S1x32) :=
  (StableHlo.after_of_forall_not_mem (b := Proc.devRef .tc main_v199) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v199_14 m ρ c)
theorem at_v201_15 : W15 m ρ c (Proc.devRef .tc main_v201) = (Cert.ReferenceIdeal.ReadP.val_main_v186 (F := Ideal) (m ((c : Thread nD τ).loc main_arg6))) :=
  (StableHlo.after_of_forall_not_mem (b := Proc.devRef .tc main_v201) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v201_14 m ρ c)
theorem at_v163_15 (hd1 : Cert.ReferenceIdeal.ReadP.val_main_v172 (F := Ideal) (m ((c : Thread nD τ).loc main_arg3)) ValueIdx.ix0 ≠ (0 : EReal)) : W15 m ρ c (Proc.devRef .tc main_v163) = (Cert.ReferenceIdeal.ReadP.val_main_v174 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (StableHlo.after_of_forall_not_mem (b := Proc.devRef .tc main_v163) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v163_14 m ρ c hd1)
theorem at_v204_15 : W15 m ρ c (Proc.devRef .tc main_v204) = (shapeCast _ (Cert.ReferenceIdeal.ReadP.val_main_v188 (F := Ideal) (m ((c : Thread nD τ).loc main_arg7))) shapeCasts_S32_S1x32) :=
  (StableHlo.after_of_forall_not_mem (b := Proc.devRef .tc main_v204) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v204_14 m ρ c)
theorem at_arg9_15 : W15 m ρ c (Proc.devRef .tc main_arg9) = (m ((c : Thread nD τ).loc main_arg9)) :=
  (StableHlo.after_of_forall_not_mem (b := Proc.devRef .tc main_arg9) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg9_14 m ρ c)
theorem at_arg11_15 : W15 m ρ c (Proc.devRef .tc main_arg11) = (m ((c : Thread nD τ).loc main_arg11)) :=
  (StableHlo.after_of_forall_not_mem (b := Proc.devRef .tc main_arg11) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg11_14 m ρ c)
theorem at_arg8_15 : W15 m ρ c (Proc.devRef .tc main_arg8) = (m ((c : Thread nD τ).loc main_arg8)) :=
  (StableHlo.after_of_forall_not_mem (b := Proc.devRef .tc main_arg8) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg8_14 m ρ c)
theorem at_arg10_15 : W15 m ρ c (Proc.devRef .tc main_arg10) = (m ((c : Thread nD τ).loc main_arg10)) :=
  (StableHlo.after_of_forall_not_mem (b := Proc.devRef .tc main_arg10) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg10_14 m ρ c)
theorem at_v220_16 : W16 m ρ c (Proc.devRef .tc main_v220) = (Cert.ReferenceIdeal.ReadP.val_main_v234 (F := Ideal) (m ((c : Thread nD τ).loc main_arg0)) (m ((c : Thread nD τ).loc main_arg1)) (m ((c : Thread nD τ).loc main_arg4)) (m ((c : Thread nD τ).loc main_arg5)) (m ((c : Thread nD τ).loc main_arg6))) := by
  refine (W16_arr m ρ c 4).trans ?_
  rw [Cert.KernelIdeal.Combine1R7.arr_eq]
  rw [show V15 m ρ c (Pipeline.arrRef spec7 0) = _ from at_v217_15 m ρ c,
    show V15 m ρ c (Pipeline.arrRef spec7 1) = _ from at_v219_15 m ρ c,
    show V15 m ρ c (Pipeline.arrRef spec7 2) = _ from at_v199_15 m ρ c,
    show V15 m ρ c (Pipeline.arrRef spec7 3) = _ from at_v201_15 m ρ c]
  exact (Cert.ReferenceIdeal.Stages.stage_main_v234 (m ((c : Thread nD τ).loc main_arg0)) (m ((c : Thread nD τ).loc main_arg1)) (m ((c : Thread nD τ).loc main_arg4)) (m ((c : Thread nD τ).loc main_arg5)) (m ((c : Thread nD τ).loc main_arg6)) shapeCasts_S32_S1x32).symm

end Cert.Bridge

end
-- ==== Proof.Combine2R8.lean ====
import proofs.«135273_j69758858821831_1_alg».proof.Proof.KernelIdealFrameP
import proofs.«135273_j69758858821831_1_alg».proof.Proof.Spec
import Idealize.ShloMosaic.Lib.Pipeline.Value
import Idealize.ShloMosaic.Lib.ValueIdx
import Idealize.ShloMosaic.PureOps.Ideal.Laws

/-!
# The second combine stage: the output array is `c2G` of the input arrays

The stage runs over 20 grid points. At point `t` it reads rows `t · 10000 … t · 10000 + 9999` of three `200000 × 32`
arrays `a`, `h`, `g`, the whole `1 × 32` bias row `b` and the whole `1 × 1` scale `s`, and writes the same rows of the
output: `out[n, j] = (((a[n, j] + h[n, j]) + b[0, j]) + g[n, j]) · s[0, 0]`. Every operation is pointwise, so the proof is
bookkeeping of indices:

* the body's result at row `r`, column `j` of a block (`pay_apply`);
* where an entry of a block sits in its array: entry `(r, j)` of a row block at point `t` is entry `(t · 10000 + r, j)`
  of the array, and the bias row and the scale are read whole (`emb0` … `emb5`);
* so what point `t` writes back is block `t` of `c2G` of the arrays (`flushed_eq`);
* the 20 blocks cover the output array — row `n` lies in block `n / 10000` (`cover`) — hence the array after the stage is
  `c2G` of the arrays as the stage found them (`arr_eq`).
-/

set_option maxRecDepth 16384

noncomputable section

namespace Cert.KernelIdeal.Combine2R8

open Cert.KernelIdeal Idealize.ShloMosaic Idealize.ShloMosaic.TcCoe Idealize.ShloMosaic.ValueIdx Idealize.SL.Sem
open Idealize.ShloMosaic.Pipeline (Dat)

/-! ## The body at an index -/

/-- Reading the one entry of a `1 × 1` vector. -/
theorem extract_one {α : Type} (x : S1x1.Idx → α) (h : ∀ a, (![0, 0] : Fin 2 → Nat) a < S1x1.size a) :
    extractAt ![0, 0] x h = x (ix2 0 0) := by
  unfold extractAt
  refine congrArg x (funext fun a => Fin.ext ?_)
  match a with
  | ⟨0, _⟩ => rfl
  | ⟨1, _⟩ => rfl

/-- A one-row vector spread over `10000` rows reads, at row `r` and column `j`, its entry in column `j`. -/
theorem row_spread {α : Type} (x : S1x32.Idx → α) (h : S1x32.Broadcasts S10000x32) (r : Fin 10000) (j : Fin 32) :
    broadcastTo S10000x32 x h (ix2 r j) = x (ix2 0 j) := by
  refine broadcastTo_apply x h (ix2 r j) (ix2 0 j) fun a => ?_
  match a with
  | ⟨0, _⟩ => rfl
  | ⟨1, _⟩ => rfl

/-- The body's result at row `r`, column `j`: the two row blocks, the bias row and the third row block, summed from the
    left, times the scale. -/
theorem pay_apply (x0 x1 : Vec Ideal S10000x32 .f32) (x2 : Vec Ideal S1x32 .f32) (x3 : Vec Ideal S10000x32 .f32)
    (x4 : Vec Ideal S1x1 .f32) (r : Fin 10000) (j : Fin 32) :
    Gen.k8_pay1 (F := Ideal) x0 x1 x2 x3 x4 (ix2 r j)
      = (x0 (ix2 r j) + x1 (ix2 r j) + x2 (ix2 0 j) + x3 (ix2 r j)) * x4 (ix2 0 0) := by
  unfold Gen.k8_pay1
  simp only [shapeCast_self]
  rw [mulf_apply, addf_apply, addf_apply, addf_apply, broadcast_apply, row_spread, extract_one]

/-! ## Where a block's entry sits in its array -/

/-- The zero offsets of a whole-buffer access, spelt as the constant function. -/
theorem zero_off : (![0, 0] : Fin 2 → Nat) = fun _ => 0 := funext fun a => by fin_cases a <;> rfl

/-- The block indices over the 20 grid points: the three row-tiled inputs and the output sit at block `(t, 0)`, the
    bias row and the scale at block `(0, 0)`. -/
theorem idx_facts : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- There are 20 grid points. -/
theorem point_lt (t : Fin cfg8.N) : t.val < 20 := lt_of_lt_of_eq t.isLt Gen.N_8

/-- Row `r` of the block at point `t` is row `t · 10000 + r` of the array. -/
def row (t : Fin cfg8.N) (r : Fin 10000) : Fin 200000 := ⟨t.val * 10000 + r.val, by have := point_lt t; omega⟩

/-- Entry `(r, j)` of the first row block at point `t` is entry `(t · 10000 + r, j)` of its array. -/
theorem emb0 (t : Fin cfg8.N) (r : Fin 10000) (j : Fin 32) :
    ((cfg8.win 0).blk t).view.emb (ix2 r j) = ix2 (row t r) j := by
  obtain ⟨e0, e1, -⟩ := idx_facts t
  funext a; apply Fin.ext
  match a with
  | ⟨0, _⟩ => show win8_0.index t (0 : Fin 2) * 10000 + 1 * r.val = t.val * 10000 + r.val; omega
  | ⟨1, _⟩ => show win8_0.index t (1 : Fin 2) * 32 + 1 * j.val = j.val; omega

/-- The same for the second row block. -/
theorem emb1 (t : Fin cfg8.N) (r : Fin 10000) (j : Fin 32) :
    ((cfg8.win 1).blk t).view.emb (ix2 r j) = ix2 (row t r) j := by
  obtain ⟨-, -, e0, e1, -⟩ := idx_facts t
  funext a; apply Fin.ext
  match a with
  | ⟨0, _⟩ => show win8_1.index t (0 : Fin 2) * 10000 + 1 * r.val = t.val * 10000 + r.val; omega
  | ⟨1, _⟩ => show win8_1.index t (1 : Fin 2) * 32 + 1 * j.val = j.val; omega

/-- The bias row is read whole at every point: entry `(0, j)` of its block is entry `(0, j)` of the array. -/
theorem emb2 (t : Fin cfg8.N) (j : Fin 32) :
    ((cfg8.win 2).blk t).view.emb (ix2 (0 : Fin 1) j) = ix2 (0 : Fin 1) j := by
  obtain ⟨-, -, -, -, e0, e1, -⟩ := idx_facts t
  funext a; apply Fin.ext
  match a with
  | ⟨0, _⟩ => show win8_2.index t (0 : Fin 2) * 1 + 1 * 0 = 0; omega
  | ⟨1, _⟩ => show win8_2.index t (1 : Fin 2) * 32 + 1 * j.val = j.val; omega

/-- Entry `(r, j)` of the third row block at point `t` is entry `(t · 10000 + r, j)` of its array. -/
theorem emb3 (t : Fin cfg8.N) (r : Fin 10000) (j : Fin 32) :
    ((cfg8.win 3).blk t).view.emb (ix2 r j) = ix2 (row t r) j := by
  obtain ⟨-, -, -, -, -, -, e0, e1, -⟩ := idx_facts t
  funext a; apply Fin.ext
  match a with
  | ⟨0, _⟩ => show win8_3.index t (0 : Fin 2) * 10000 + 1 * r.val = t.val * 10000 + r.val; omega
  | ⟨1, _⟩ => show win8_3.index t (1 : Fin 2) * 32 + 1 * j.val = j.val; omega

/-- The scale is read whole at every point. -/
theorem emb4 (t : Fin cfg8.N) :
    ((cfg8.win 4).blk t).view.emb (ix2 (0 : Fin 1) (0 : Fin 1)) = ix2 (0 : Fin 1) (0 : Fin 1) := by
  obtain ⟨-, -, -, -, -, -, -, -, e0, e1, -⟩ := idx_facts t
  funext a; apply Fin.ext
  match a with
  | ⟨0, _⟩ => show win8_4.index t (0 : Fin 2) * 1 + 1 * 0 = 0; omega
  | ⟨1, _⟩ => show win8_4.index t (1 : Fin 2) * 1 + 1 * 0 = 0; omega

/-- Entry `(r, j)` of the output block at point `t` is written to entry `(t · 10000 + r, j)` of the output array. -/
theorem emb5 (t : Fin cfg8.N) (r : Fin 10000) (j : Fin 32) :
    ((cfg8.win 5).blk t).view.emb (ix2 r j) = ix2 (row t r) j := by
  obtain ⟨-, -, -, -, -, -, -, -, -, -, e0, e1⟩ := idx_facts t
  funext a; apply Fin.ext
  match a with
  | ⟨0, _⟩ => show win8_5.index t (0 : Fin 2) * 10000 + 1 * r.val = t.val * 10000 + r.val; omega
  | ⟨1, _⟩ => show win8_5.index t (1 : Fin 2) * 32 + 1 * j.val = j.val; omega

/-- An index of the output array is in point `t`'s block iff each coordinate is in the block's range on its axis. -/
theorem mem_blk (t : Fin cfg8.N) (i : S200000x32.Idx) :
    i ∈ ((cfg8.win 5).blk t).view.set ↔ ∀ a : Fin 2, win8_5.index t a * S10000x32.size a ≤ (i a).val ∧ (i a).val < win8_5.index t a * S10000x32.size a + S10000x32.size a := by
  show i ∈ ((View.whole main_v253).slice (win8_5.rect t)).set ↔ _
  rw [View.set_slice_whole, Rect.mem_set_unit]
  exact Iff.rfl

/-- Every index of the output array is in some point's block: row `n` belongs to point `n / 10000`. -/
theorem cover (i : S200000x32.Idx) :
    ∃ t : Fin cfg8.N, (cfg8.win 5).flush t = true ∧ i ∈ ((cfg8.win 5).blk t).view.set := by
  have hi0 : (i 0).val < 200000 := idx2_lt0 i
  have hi1 : (i 1).val < 32 := idx2_lt1 i
  let t : Fin cfg8.N := ⟨(i 0).val / 10000, lt_of_lt_of_eq (by omega) Gen.N_8.symm⟩
  obtain ⟨-, -, -, -, -, -, -, -, -, -, e0, e1⟩ := idx_facts t
  have ht : t.val = (i 0).val / 10000 := rfl
  refine ⟨t, Gen.flush8_5 t, ?_⟩
  rw [mem_blk]
  intro a
  match a with
  | ⟨0, _⟩ => show win8_5.index t (0 : Fin 2) * 10000 ≤ (i 0).val ∧ (i 0).val < win8_5.index t (0 : Fin 2) * 10000 + 10000; omega
  | ⟨1, _⟩ => show win8_5.index t (1 : Fin 2) * 32 ≤ (i 1).val ∧ (i 1).val < win8_5.index t (1 : Fin 2) * 32 + 32; omega

/-- At point `t`, entry `(r, j)`: the body's arithmetic on the entries its blocks read is `c2G` of the whole arrays at the
    array index that entry `(r, j)` of the output block is written to. -/
theorem block_eq (A0 A1 : Cert.Spec.Arr 200000 32) (A2 : Cert.Spec.Arr 1 32) (A3 : Cert.Spec.Arr 200000 32)
    (A4 : Cert.Spec.Arr 1 1) (t : Fin cfg8.N) (r : Fin 10000) (j : Fin 32) :
    (A0 (((cfg8.win 0).blk t).view.emb (ix2 r j)) + A1 (((cfg8.win 1).blk t).view.emb (ix2 r j))
        + A2 (((cfg8.win 2).blk t).view.emb (ix2 (0 : Fin 1) j)) + A3 (((cfg8.win 3).blk t).view.emb (ix2 r j)))
      * A4 (((cfg8.win 4).blk t).view.emb (ix2 (0 : Fin 1) (0 : Fin 1)))
    = Cert.Spec.c2G A0 A1 A2 A3 A4 (((cfg8.win 5).blk t).view.emb (ix2 r j)) := by
  rw [emb0, emb1, emb2, emb3, emb4, emb5]
  rfl

/-- The body's arithmetic respects equality of its five arguments. -/
theorem combine_congr {a0 a1 a2 a3 a4 b0 b1 b2 b3 b4 : EReal} (h0 : a0 = b0) (h1 : a1 = b1) (h2 : a2 = b2)
    (h3 : a3 = b3) (h4 : a4 = b4) : (a0 + a1 + a2 + a3) * a4 = (b0 + b1 + b2 + b3) * b4 := by
  rw [h0, h1, h2, h3, h4]

/-! ## What a point writes back, and the array after the stage -/

section Final

variable (V : (c : Dev nD) → (b : Ref sig .tc) → Buf (Elt Ideal) ((c : Thread nD τ).loc b))

/-- An input block read at an entry is the array read at that entry's place in the array (first row block). -/
theorem read0 (c : Dev nD) (t : Fin cfg8.N) (r : Fin 10000) (j : Fin 32) :
    GenP.iblk8 (F := Ideal) V c 0 t (ix2 r j)
      = V c (Pipeline.arrRef spec8 0) (((cfg8.win 0).blk t).view.emb (ix2 r j)) := rfl

/-- The same for the second row block. -/
theorem read1 (c : Dev nD) (t : Fin cfg8.N) (r : Fin 10000) (j : Fin 32) :
    GenP.iblk8 (F := Ideal) V c 1 t (ix2 r j)
      = V c (Pipeline.arrRef spec8 1) (((cfg8.win 1).blk t).view.emb (ix2 r j)) := rfl

/-- The same for the bias row. -/
theorem read2 (c : Dev nD) (t : Fin cfg8.N) (j : Fin 32) :
    GenP.iblk8 (F := Ideal) V c 2 t (ix2 (0 : Fin 1) j)
      = V c (Pipeline.arrRef spec8 2) (((cfg8.win 2).blk t).view.emb (ix2 (0 : Fin 1) j)) := rfl

/-- The same for the third row block. -/
theorem read3 (c : Dev nD) (t : Fin cfg8.N) (r : Fin 10000) (j : Fin 32) :
    GenP.iblk8 (F := Ideal) V c 3 t (ix2 r j)
      = V c (Pipeline.arrRef spec8 3) (((cfg8.win 3).blk t).view.emb (ix2 r j)) := rfl

/-- The same for the scale. -/
theorem read4 (c : Dev nD) (t : Fin cfg8.N) :
    GenP.iblk8 (F := Ideal) V c 4 t (ix2 (0 : Fin 1) (0 : Fin 1))
      = V c (Pipeline.arrRef spec8 4) (((cfg8.win 4).blk t).view.emb (ix2 (0 : Fin 1) (0 : Fin 1))) := rfl

/-- A whole array read through the output block at an entry is the array at that entry's place. -/
theorem read5 (G : Cert.Spec.Arr 200000 32) (t : Fin cfg8.N) (r : Fin 10000) (j : Fin 32) :
    ((cfg8.win 5).blk t).view.read (Elt Ideal) G (ix2 r j) = G (((cfg8.win 5).blk t).view.emb (ix2 r j)) := rfl

/-- What point `t` writes back is block `t` of `c2G` of the five input arrays as the stage finds them. -/
theorem flushed_eq (c : Dev nD) (t : Fin cfg8.N) :
    (GenP.dat8 (F := Ideal) V c).flushed 5 t
      = ((cfg8.win 5).blk t).view.read (Elt Ideal)
          (Cert.Spec.c2G (V c (Pipeline.arrRef spec8 0)) (V c (Pipeline.arrRef spec8 1)) (V c (Pipeline.arrRef spec8 2))
            (V c (Pipeline.arrRef spec8 3)) (V c (Pipeline.arrRef spec8 4))) := by
  show (cfg8.win 5).cut (grid8.coords t) ((GenP.dat8 (F := Ideal) V c).after 5 t) = _
  rw [GenP.after8_5]
  unfold GenP.out8_5
  rw [View.canon_unit_zero zero_off]
  simp only [View.ld_unit_zero (S := S10000x32) zero_off, View.ld_unit_zero (S := S1x32) zero_off,
    View.ld_unit_zero (S := S1x1) zero_off]
  funext y
  obtain ⟨r, j, rfl⟩ : ∃ (r : Fin 10000) (j : Fin 32), y = ix2 r j := ⟨y 0, y 1, eq_ix2 y⟩
  refine ((pay_apply (GenP.iblk8 V c 0 t) (GenP.iblk8 V c 1 t) (GenP.iblk8 V c 2 t) (GenP.iblk8 V c 3 t)
    (GenP.iblk8 V c 4 t) r j).trans ?_).trans (read5 _ t r j).symm
  refine (combine_congr (read0 V c t r j) (read1 V c t r j) (read2 V c t j) (read3 V c t r j) (read4 V c t)).trans ?_
  exact block_eq (V c (Pipeline.arrRef spec8 0)) (V c (Pipeline.arrRef spec8 1)) (V c (Pipeline.arrRef spec8 2))
    (V c (Pipeline.arrRef spec8 3)) (V c (Pipeline.arrRef spec8 4)) t r j

/-- The output array after the stage is `c2G` of the five input arrays as the stage found them. -/
theorem arr_eq (c : Dev nD) :
    (GenP.dat8 (F := Ideal) V c).arrAt 5 cfg8.N
      = Cert.Spec.c2G (V c (Pipeline.arrRef spec8 0)) (V c (Pipeline.arrRef spec8 1)) (V c (Pipeline.arrRef spec8 2))
          (V c (Pipeline.arrRef spec8 3)) (V c (Pipeline.arrRef spec8 4)) :=
  (GenP.dat8 (F := Ideal) V c).arrAt_eq_of_cover 5 _ (fun t _ => flushed_eq V c t) cover

end Final

end Cert.KernelIdeal.Combine2R8

end
-- ==== Proof.Bridge8.lean ====
import proofs.«135273_j69758858821831_1_alg».proof.Proof.KernelIdealFrameP
import proofs.«135273_j69758858821831_1_alg».proof.Proof.RefReadP
import proofs.«135273_j69758858821831_1_alg».proof.Proof.Bridge7
import proofs.«135273_j69758858821831_1_alg».proof.Proof.Combine2R8
import proofs.«135273_j69758858821831_1_alg».proof.Proof.RefStages

/-!
# Boundary 16 to boundary 18: host stretch 8 and region 8

Each buffer the idealized kernel holds at a boundary is stated as the reference's stage of the same operation on the same
operands (or, for the few buffers only the kernel has — a bias as a one-row matrix, the reciprocal of a layer's scalar —
as that operation of reference stages). A buffer no operation of a stretch writes, and no window of a region names,
keeps its contents across it. The region's output is the specification's function of its input arrays, which is the
reference's stage.
-/

set_option maxRecDepth 16384

noncomputable section

namespace Cert.Bridge

open Cert.KernelIdeal Cert.KernelIdeal.Gen Cert.KernelIdeal.GenP
open Idealize.ShloMosaic Idealize.ShloMosaic.TcCoe Idealize.SL.Sem

variable (m : (ℓ : Loc nD τ sig) → Buf (Elt Ideal) ℓ) (ρ : Dev nD → PrngReg) (c : Dev nD)

theorem at_arg0_16 : W16 m ρ c (Proc.devRef .tc main_arg0) = (m ((c : Thread nD τ).loc main_arg0)) :=
  (W16_of_ne m ρ c main_arg0 (by decide)).trans (at_arg0_15 m ρ c)
theorem at_arg1_16 : W16 m ρ c (Proc.devRef .tc main_arg1) = (m ((c : Thread nD τ).loc main_arg1)) :=
  (W16_of_ne m ρ c main_arg1 (by decide)).trans (at_arg1_15 m ρ c)
theorem at_arg4_16 : W16 m ρ c (Proc.devRef .tc main_arg4) = (m ((c : Thread nD τ).loc main_arg4)) :=
  (W16_of_ne m ρ c main_arg4 (by decide)).trans (at_arg4_15 m ρ c)
theorem at_arg5_16 : W16 m ρ c (Proc.devRef .tc main_arg5) = (m ((c : Thread nD τ).loc main_arg5)) :=
  (W16_of_ne m ρ c main_arg5 (by decide)).trans (at_arg5_15 m ρ c)
theorem at_arg6_16 : W16 m ρ c (Proc.devRef .tc main_arg6) = (m ((c : Thread nD τ).loc main_arg6)) :=
  (W16_of_ne m ρ c main_arg6 (by decide)).trans (at_arg6_15 m ρ c)
theorem at_arg7_16 : W16 m ρ c (Proc.devRef .tc main_arg7) = (m ((c : Thread nD τ).loc main_arg7)) :=
  (W16_of_ne m ρ c main_arg7 (by decide)).trans (at_arg7_15 m ρ c)
theorem at_arg2_16 : W16 m ρ c (Proc.devRef .tc main_arg2) = (m ((c : Thread nD τ).loc main_arg2)) :=
  (W16_of_ne m ρ c main_arg2 (by decide)).trans (at_arg2_15 m ρ c)
theorem at_arg3_16 : W16 m ρ c (Proc.devRef .tc main_arg3) = (m ((c : Thread nD τ).loc main_arg3)) :=
  (W16_of_ne m ρ c main_arg3 (by decide)).trans (at_arg3_15 m ρ c)
theorem at_v169_16 : W16 m ρ c (Proc.devRef .tc main_v169) = (Cert.ReferenceIdeal.ReadP.val_main_v178 (F := Ideal) (m ((c : Thread nD τ).loc main_arg1))) :=
  (W16_of_ne m ρ c main_v169 (by decide)).trans (at_v169_15 m ρ c)
theorem at_v192_16 : W16 m ρ c (Proc.devRef .tc main_v192) = (Cert.ReferenceIdeal.ReadP.val_main_v211 (F := Ideal) (m ((c : Thread nD τ).loc main_arg1))) :=
  (W16_of_ne m ρ c main_v192 (by decide)).trans (at_v192_15 m ρ c)
theorem at_v167_16 : W16 m ρ c (Proc.devRef .tc main_v167) = (Cert.ReferenceIdeal.ReadP.val_main_v180 (F := Ideal) (m ((c : Thread nD τ).loc main_arg1))) :=
  (W16_of_ne m ρ c main_v167 (by decide)).trans (at_v167_15 m ρ c)
theorem at_v194_16 : W16 m ρ c (Proc.devRef .tc main_v194) = (Cert.ReferenceIdeal.ReadP.val_main_v213 (F := Ideal) (m ((c : Thread nD τ).loc main_arg1))) :=
  (W16_of_ne m ρ c main_v194 (by decide)).trans (at_v194_15 m ρ c)
theorem at_v163_16 (hd1 : Cert.ReferenceIdeal.ReadP.val_main_v172 (F := Ideal) (m ((c : Thread nD τ).loc main_arg3)) ValueIdx.ix0 ≠ (0 : EReal)) : W16 m ρ c (Proc.devRef .tc main_v163) = (Cert.ReferenceIdeal.ReadP.val_main_v174 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (W16_of_ne m ρ c main_v163 (by decide)).trans (at_v163_15 m ρ c hd1)
theorem at_v204_16 : W16 m ρ c (Proc.devRef .tc main_v204) = (shapeCast _ (Cert.ReferenceIdeal.ReadP.val_main_v188 (F := Ideal) (m ((c : Thread nD τ).loc main_arg7))) shapeCasts_S32_S1x32) :=
  (W16_of_ne m ρ c main_v204 (by decide)).trans (at_v204_15 m ρ c)
theorem at_arg9_16 : W16 m ρ c (Proc.devRef .tc main_arg9) = (m ((c : Thread nD τ).loc main_arg9)) :=
  (W16_of_ne m ρ c main_arg9 (by decide)).trans (at_arg9_15 m ρ c)
theorem at_arg11_16 : W16 m ρ c (Proc.devRef .tc main_arg11) = (m ((c : Thread nD τ).loc main_arg11)) :=
  (W16_of_ne m ρ c main_arg11 (by decide)).trans (at_arg11_15 m ρ c)
theorem at_arg8_16 : W16 m ρ c (Proc.devRef .tc main_arg8) = (m ((c : Thread nD τ).loc main_arg8)) :=
  (W16_of_ne m ρ c main_arg8 (by decide)).trans (at_arg8_15 m ρ c)
theorem at_arg10_16 : W16 m ρ c (Proc.devRef .tc main_arg10) = (m ((c : Thread nD τ).loc main_arg10)) :=
  (W16_of_ne m ρ c main_arg10 (by decide)).trans (at_arg10_15 m ρ c)
theorem at_v232_17 : W17 m ρ c (Proc.devRef .tc main_v232) = (Cert.ReferenceIdeal.ReadP.val_main_v246 (F := Ideal) (m ((c : Thread nD τ).loc main_arg0)) (m ((c : Thread nD τ).loc main_arg1)) (m ((c : Thread nD τ).loc main_arg4)) (m ((c : Thread nD τ).loc main_arg5)) (m ((c : Thread nD τ).loc main_arg6))) := by
  show StableHlo.after hostOps8 (W16 m ρ c) (Proc.devRef .tc main_v232) = _
  after_results_simp
  rw [at_v167_16 m ρ c, at_v220_16 m ρ c, at_v169_16 m ρ c, at_v192_16 m ρ c]
  rfl
theorem at_v234_17 : W17 m ρ c (Proc.devRef .tc main_v234) = (Cert.ReferenceIdeal.ReadP.val_main_v248 (F := Ideal) (m ((c : Thread nD τ).loc main_arg0)) (m ((c : Thread nD τ).loc main_arg1)) (m ((c : Thread nD τ).loc main_arg4)) (m ((c : Thread nD τ).loc main_arg5)) (m ((c : Thread nD τ).loc main_arg6))) := by
  show StableHlo.after hostOps8 (W16 m ρ c) (Proc.devRef .tc main_v234) = _
  after_results_simp
  rw [at_v220_16 m ρ c, at_v194_16 m ρ c]
  rfl
theorem at_v248_17 (hd1 : Cert.ReferenceIdeal.ReadP.val_main_v172 (F := Ideal) (m ((c : Thread nD τ).loc main_arg3)) ValueIdx.ix0 ≠ (0 : EReal)) : W17 m ρ c (Proc.devRef .tc main_v248) = (Cert.ReferenceIdeal.ReadP.val_main_v266 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  show StableHlo.after hostOps8 (W16 m ρ c) (Proc.devRef .tc main_v248) = _
  after_results_simp
  rw [at_arg2_16 m ρ c, at_v163_16 m ρ c hd1]
  rfl
theorem at_v252_17 : W17 m ρ c (Proc.devRef .tc main_v252) = (shapeCast _ (Host.divf (F := Ideal) (φ := .f32) (Cert.ReferenceIdeal.ReadP.val_main_cst (F := Ideal)) (Cert.ReferenceIdeal.ReadP.val_main_v269 (F := Ideal) (m ((c : Thread nD τ).loc main_arg3)))) shapeCasts_S_S1x1) := by
  show StableHlo.after hostOps8 (W16 m ρ c) (Proc.devRef .tc main_v252) = _
  after_results_simp
  rw [at_arg3_16 m ρ c]
  rfl
theorem at_arg0_17 : W17 m ρ c (Proc.devRef .tc main_arg0) = (m ((c : Thread nD τ).loc main_arg0)) :=
  (StableHlo.after_of_forall_not_mem (b := Proc.devRef .tc main_arg0) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg0_16 m ρ c)
theorem at_arg1_17 : W17 m ρ c (Proc.devRef .tc main_arg1) = (m ((c : Thread nD τ).loc main_arg1)) :=
  (StableHlo.after_of_forall_not_mem (b := Proc.devRef .tc main_arg1) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg1_16 m ρ c)
theorem at_arg4_17 : W17 m ρ c (Proc.devRef .tc main_arg4) = (m ((c : Thread nD τ).loc main_arg4)) :=
  (StableHlo.after_of_forall_not_mem (b := Proc.devRef .tc main_arg4) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg4_16 m ρ c)
theorem at_arg5_17 : W17 m ρ c (Proc.devRef .tc main_arg5) = (m ((c : Thread nD τ).loc main_arg5)) :=
  (StableHlo.after_of_forall_not_mem (b := Proc.devRef .tc main_arg5) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg5_16 m ρ c)
theorem at_arg6_17 : W17 m ρ c (Proc.devRef .tc main_arg6) = (m ((c : Thread nD τ).loc main_arg6)) :=
  (StableHlo.after_of_forall_not_mem (b := Proc.devRef .tc main_arg6) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg6_16 m ρ c)
theorem at_arg7_17 : W17 m ρ c (Proc.devRef .tc main_arg7) = (m ((c : Thread nD τ).loc main_arg7)) :=
  (StableHlo.after_of_forall_not_mem (b := Proc.devRef .tc main_arg7) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg7_16 m ρ c)
theorem at_arg2_17 : W17 m ρ c (Proc.devRef .tc main_arg2) = (m ((c : Thread nD τ).loc main_arg2)) :=
  (StableHlo.after_of_forall_not_mem (b := Proc.devRef .tc main_arg2) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg2_16 m ρ c)
theorem at_arg3_17 : W17 m ρ c (Proc.devRef .tc main_arg3) = (m ((c : Thread nD τ).loc main_arg3)) :=
  (StableHlo.after_of_forall_not_mem (b := Proc.devRef .tc main_arg3) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg3_16 m ρ c)
theorem at_v204_17 : W17 m ρ c (Proc.devRef .tc main_v204) = (shapeCast _ (Cert.ReferenceIdeal.ReadP.val_main_v188 (F := Ideal) (m ((c : Thread nD τ).loc main_arg7))) shapeCasts_S32_S1x32) :=
  (StableHlo.after_of_forall_not_mem (b := Proc.devRef .tc main_v204) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v204_16 m ρ c)
theorem at_arg9_17 : W17 m ρ c (Proc.devRef .tc main_arg9) = (m ((c : Thread nD τ).loc main_arg9)) :=
  (StableHlo.after_of_forall_not_mem (b := Proc.devRef .tc main_arg9) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg9_16 m ρ c)
theorem at_arg11_17 : W17 m ρ c (Proc.devRef .tc main_arg11) = (m ((c : Thread nD τ).loc main_arg11)) :=
  (StableHlo.after_of_forall_not_mem (b := Proc.devRef .tc main_arg11) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg11_16 m ρ c)
theorem at_arg8_17 : W17 m ρ c (Proc.devRef .tc main_arg8) = (m ((c : Thread nD τ).loc main_arg8)) :=
  (StableHlo.after_of_forall_not_mem (b := Proc.devRef .tc main_arg8) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg8_16 m ρ c)
theorem at_arg10_17 : W17 m ρ c (Proc.devRef .tc main_arg10) = (m ((c : Thread nD τ).loc main_arg10)) :=
  (StableHlo.after_of_forall_not_mem (b := Proc.devRef .tc main_arg10) _ _ (List.forall_iff_forall_mem.mp (by
      simp only [hostOps8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg10_16 m ρ c)
theorem at_v253_18 (hd1 : Cert.ReferenceIdeal.ReadP.val_main_v172 (F := Ideal) (m ((c : Thread nD τ).loc main_arg3)) ValueIdx.ix0 ≠ (0 : EReal)) (hd2 : Cert.ReferenceIdeal.ReadP.val_main_v269 (F := Ideal) (m ((c : Thread nD τ).loc main_arg3)) ValueIdx.ix0 ≠ (0 : EReal)) : W18 m ρ c (Proc.devRef .tc main_v253) = (Cert.ReferenceIdeal.ReadP.val_main_v271 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W18_arr m ρ c 5).trans ?_
  rw [Cert.KernelIdeal.Combine2R8.arr_eq]
  rw [show V17 m ρ c (Pipeline.arrRef spec8 0) = _ from at_v232_17 m ρ c,
    show V17 m ρ c (Pipeline.arrRef spec8 1) = _ from at_v234_17 m ρ c,
    show V17 m ρ c (Pipeline.arrRef spec8 2) = _ from at_v204_17 m ρ c,
    show V17 m ρ c (Pipeline.arrRef spec8 3) = _ from at_v248_17 m ρ c hd1,
    show V17 m ρ c (Pipeline.arrRef spec8 4) = _ from at_v252_17 m ρ c]
  exact (Cert.ReferenceIdeal.Stages.stage_main_v271 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) shapeCasts_S32_S1x32 shapeCasts_S_S1x1 hd2).symm

end Cert.Bridge

end
-- ==== Proof.MatmulR9.lean ====
import proofs.«135273_j69758858821831_1_alg».proof.Proof.KernelIdealFrameP
import proofs.«135273_j69758858821831_1_alg».proof.Proof.Spec
import Idealize.ShloMosaic.Lib.Pipeline.Value
import Idealize.ShloMosaic.Lib.ValueIdx
import Idealize.ShloMosaic.PureOps.Ideal.Laws

/-!
# Region 9: rows of features times a weight matrix

The region walks the 200000 rows in 20 blocks of 10000. At block `t` it loads rows `10000·t … 10000·t + 9999` of
the features and the whole `20 × 32` weight matrix, and stores their product. An entry of the stored block is the row
of the loaded block times a column of the weights; the blocks tile the array; so the array the region leaves is the
product of the whole feature array with the weights, row by row.
-/

set_option maxRecDepth 16384

noncomputable section

open scoped BigOperators

namespace Cert.KernelIdeal.MatmulR9

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

/-! ## The product at an entry of a block -/

theorem lhs_row (i : S10000x32.Idx) (q : (dot_S10000x20_S20x32_S10000x32_1_0_0_1_n_n).contr.Idx) :
    ((dot_S10000x20_S20x32_S10000x32_1_0_0_1_n_n).lhsIdx i q 0).val = (i 0).val := by
  unfold DotDims.lhsIdx
  rw [dif_neg (show ¬(0 : Fin S10000x20.rank) ∈ (dot_S10000x20_S20x32_S10000x32_1_0_0_1_n_n).lhsBatch by decide), dif_pos (show (0 : Fin S10000x20.rank) ∈ (dot_S10000x20_S20x32_S10000x32_1_0_0_1_n_n).lhsNonContracting by decide)]
  rfl
theorem lhs_contr (i : S10000x32.Idx) (q : (dot_S10000x20_S20x32_S10000x32_1_0_0_1_n_n).contr.Idx) :
    ((dot_S10000x20_S20x32_S10000x32_1_0_0_1_n_n).lhsIdx i q 1).val = (q ⟨0, by decide⟩).val :=
  (dot_S10000x20_S20x32_S10000x32_1_0_0_1_n_n).lhsIdx_val_of_single rfl i q
theorem rhs_contr (i : S10000x32.Idx) (q : (dot_S10000x20_S20x32_S10000x32_1_0_0_1_n_n).contr.Idx) :
    ((dot_S10000x20_S20x32_S10000x32_1_0_0_1_n_n).rhsIdx i q 0).val = (q ⟨0, by decide⟩).val :=
  (dot_S10000x20_S20x32_S10000x32_1_0_0_1_n_n).rhsIdx_val_of_single rfl i q
theorem rhs_col (i : S10000x32.Idx) (q : (dot_S10000x20_S20x32_S10000x32_1_0_0_1_n_n).contr.Idx) :
    ((dot_S10000x20_S20x32_S10000x32_1_0_0_1_n_n).rhsIdx i q 1).val = (i 1).val := by
  unfold DotDims.rhsIdx
  rw [dif_neg (show ¬(1 : Fin S20x32.rank) ∈ (dot_S10000x20_S20x32_S10000x32_1_0_0_1_n_n).rhsBatch by decide), dif_pos (show (1 : Fin S20x32.rank) ∈ (dot_S10000x20_S20x32_S10000x32_1_0_0_1_n_n).rhsNonContracting by decide)]
  rfl

/-- The body's one store, at row `r` and column `j` of the block: the row of the feature block times the column of
    the weights (narrowing either operand changes nothing over the extended reals, and the accumulator is zero). -/
theorem pay_eq (x0 : Vec Ideal S10000x20 .f32) (x1 : Vec Ideal S20x32 .f32) (r : Fin 10000) (j : Fin 32) :
    k9_pay1 (F := Ideal) x0 x1 (ix2 r j) = ∑ k : Fin 20, x0 (ix2 r k) * x1 (ix2 k j) := by
  unfold k9_pay1
  refine (Ideal.matmul_constant_zero_apply dot_S10000x20_S20x32_S10000x32_1_0_0_1_n_n none _ _ (ix2 r j)).trans ?_
  rw [← Equiv.sum_comp (contrEquiv1 dot_S10000x20_S20x32_S10000x32_1_0_0_1_n_n 20 rfl rfl).symm]
  refine Finset.sum_congr rfl fun k _ => ?_
  have hk := contrEquiv1_symm_val dot_S10000x20_S20x32_S10000x32_1_0_0_1_n_n 20 rfl rfl k
  have el : (dot_S10000x20_S20x32_S10000x32_1_0_0_1_n_n).lhsIdx (ix2 r j) ((contrEquiv1 dot_S10000x20_S20x32_S10000x32_1_0_0_1_n_n 20 rfl rfl).symm k) = ix2 r k := funext fun a => Fin.ext (by
    match a with
    | ⟨0, _⟩ => exact lhs_row _ _
    | ⟨1, _⟩ => exact (lhs_contr _ _).trans hk)
  have er : (dot_S10000x20_S20x32_S10000x32_1_0_0_1_n_n).rhsIdx (ix2 r j) ((contrEquiv1 dot_S10000x20_S20x32_S10000x32_1_0_0_1_n_n 20 rfl rfl).symm k) = ix2 k j := funext fun a => Fin.ext (by
    match a with
    | ⟨0, _⟩ => exact (rhs_contr _ _).trans hk
    | ⟨1, _⟩ => exact rhs_col _ _)
  rw [el, er]
  simp only [truncf_apply, shapeCast_self]

/-! ## From blocks to the array -/

theorem hz : (![0, 0] : Fin 2 → Nat) = fun _ => 0 := funext fun a => by fin_cases a <;> rfl

/-- The index maps over the 20 grid points: the feature and output windows move down one block of rows per point, the
    weight window stays. -/
theorem idx_facts : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

variable (V : (c : Dev nD) → (b : Ref sig .tc) → Buf (Elt Ideal) ((c : Thread nD τ).loc b)) (c : Dev nD)

set_option maxHeartbeats 1000000 in
/-- What point `t` writes back is block `t` of the product of the whole arrays. -/
theorem flushed_eq (t : Fin cfg9.N) :
    (dat9 (F := Ideal) V c).flushed 2 t = ((cfg9.win 2).blk t).view.read (Elt Ideal)
      (Cert.Spec.mmG (V c (Pipeline.arrRef spec9 0)) (V c (Pipeline.arrRef spec9 1))) := by
  show (cfg9.win 2).cut (grid9.coords t) ((dat9 V c).after 2 t) = _
  rw [after9_2]
  unfold out9_2
  rw [View.canon_unit_zero hz]
  simp only [View.ld_unit_zero (S := S10000x20) hz, View.ld_unit_zero (S := S20x32) hz]
  obtain ⟨e0, e1, e2, e3, e4, e5⟩ := idx_facts t
  funext y
  obtain ⟨r, j, rfl⟩ : ∃ (r : Fin 10000) (j : Fin 32), y = ix2 r j := ⟨y 0, y 1, eq_ix2 y⟩
  refine (pay_eq (iblk9 V c 0 t) (iblk9 V c 1 t) r j).trans ?_
  show _ = Cert.Spec.mmG (V c (Pipeline.arrRef spec9 0)) (V c (Pipeline.arrRef spec9 1)) (((cfg9.win 2).blk t).view.emb (ix2 r j))
  unfold Cert.Spec.mmG
  refine Finset.sum_congr rfl fun k _ => ?_
  have hx : iblk9 V c 0 t (ix2 r k) = V c (Pipeline.arrRef spec9 0) (ix2 ((((cfg9.win 2).blk t).view.emb (ix2 r j)) 0) k) := by
    show V c (Pipeline.arrRef spec9 0) (((cfg9.win 0).blk t).view.emb (ix2 r k)) = _
    refine congrArg _ (funext fun a => Fin.ext ?_)
    match a with
    | ⟨0, _⟩ => show win9_0.index t (0 : Fin 2) * 10000 + 1 * r.val = win9_2.index t (0 : Fin 2) * 10000 + 1 * r.val; omega
    | ⟨1, _⟩ => show win9_0.index t (1 : Fin 2) * 20 + 1 * k.val = k.val; omega
  have hw : iblk9 V c 1 t (ix2 k j) = V c (Pipeline.arrRef spec9 1) (ix2 k ((((cfg9.win 2).blk t).view.emb (ix2 r j)) 1)) := by
    show V c (Pipeline.arrRef spec9 1) (((cfg9.win 1).blk t).view.emb (ix2 k j)) = _
    refine congrArg _ (funext fun a => Fin.ext ?_)
    match a with
    | ⟨0, _⟩ => show win9_1.index t (0 : Fin 2) * 20 + 1 * k.val = k.val; omega
    | ⟨1, _⟩ => show win9_1.index t (1 : Fin 2) * 32 + 1 * j.val = win9_2.index t (1 : Fin 2) * 32 + 1 * j.val; omega
  rw [hx, hw]

/-- An index of the array is in point `t`'s block iff each coordinate is in the block's range on its axis. -/
theorem mem_blk (t : Fin cfg9.N) (i : S200000x32.Idx) :
    i ∈ ((cfg9.win 2).blk t).view.set ↔ ∀ a : Fin 2, win9_2.index t a * S10000x32.size a ≤ (i a).val ∧ (i a).val < win9_2.index t a * S10000x32.size a + S10000x32.size a := by
  show i ∈ ((View.whole main_v295).slice (win9_2.rect t)).set ↔ _
  rw [View.set_slice_whole, Rect.mem_set_unit]
  exact Iff.rfl

/-- Row `n` lies in the block of point `n / 10000`: the 20 blocks tile the array. -/
theorem cover (i : S200000x32.Idx) :
    ∃ t : Fin cfg9.N, (cfg9.win 2).flush t = true ∧ i ∈ ((cfg9.win 2).blk t).view.set := by
  have h0 : (i 0).val < 200000 := (i 0).isLt
  have h1 : (i 1).val < 32 := (i 1).isLt
  have ht : (i 0).val / 10000 < 20 := by omega
  obtain ⟨e0, e1, e2, e3, e4, e5⟩ := idx_facts ⟨(i 0).val / 10000, ht⟩
  refine ⟨⟨(i 0).val / 10000, ht⟩, flush9_2 _, ?_⟩
  rw [mem_blk]
  intro a
  match a with
  | ⟨0, _⟩ =>
    show win9_2.index ⟨(i 0).val / 10000, ht⟩ (0 : Fin 2) * 10000 ≤ (i 0).val ∧ (i 0).val < win9_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win9_2.index ⟨(i 0).val / 10000, ht⟩ (1 : Fin 2) * 32 ≤ (i 1).val ∧ (i 1).val < win9_2.index ⟨(i 0).val / 10000, ht⟩ (1 : Fin 2) * 32 + 32
    rw [e5]; omega

/-- After the region its output array is the product of the feature array and the weights, as the region found them. -/
theorem arr_eq :
    (dat9 (F := Ideal) V c).arrAt 2 cfg9.N
      = Cert.Spec.mmG (V c (Pipeline.arrRef spec9 0)) (V c (Pipeline.arrRef spec9 1)) :=
  (dat9 (F := Ideal) V c).arrAt_eq_of_cover 2 _ (fun t _ => flushed_eq V c t) (cover)

end Cert.KernelIdeal.MatmulR9

end
-- ==== Proof.Bridge9.lean ====
import proofs.«135273_j69758858821831_1_alg».proof.Proof.KernelIdealFrameP
import proofs.«135273_j69758858821831_1_alg».proof.Proof.RefReadP
import proofs.«135273_j69758858821831_1_alg».proof.Proof.Bridge8
import proofs.«135273_j69758858821831_1_alg».proof.Proof.MatmulR9
import proofs.«135273_j69758858821831_1_alg».proof.Proof.RefStages

/-!
# Boundary 18 to boundary 20: host stretch 9 and region 9

Each buffer the idealized kernel holds at a boundary is stated as the reference's stage of the same operation on the same
operands (or, for the few buffers only the kernel has — a bias as a one-row matrix, the reciprocal of a layer's scalar —
as that operation of reference stages). A buffer no operation of a stretch writes, and no window of a region names,
keeps its contents across it. The region's output is the specification's function of its input arrays, which is the
reference's stage.
-/

set_option maxRecDepth 16384

noncomputable section

namespace Cert.Bridge

open Cert.KernelIdeal Cert.KernelIdeal.Gen Cert.KernelIdeal.GenP
open Idealize.ShloMosaic Idealize.ShloMosaic.TcCoe Idealize.SL.Sem

variable (m : (ℓ : Loc nD τ sig) → Buf (Elt Ideal) ℓ) (ρ : Dev nD → PrngReg) (c : Dev nD)

theorem at_arg0_18 : W18 m ρ c (Proc.devRef .tc main_arg0) = (m ((c : Thread nD τ).loc main_arg0)) :=
  (W18_of_ne m ρ c main_arg0 (by decide)).trans (at_arg0_17 m ρ c)
theorem at_arg1_18 : W18 m ρ c (Proc.devRef .tc main_arg1) = (m ((c : Thread nD τ).loc main_arg1)) :=
  (W18_of_ne m ρ c main_arg1 (by decide)).trans (at_arg1_17 m ρ c)
theorem at_arg4_18 : W18 m ρ c (Proc.devRef .tc main_arg4) = (m ((c : Thread nD τ).loc main_arg4)) :=
  (W18_of_ne m ρ c main_arg4 (by decide)).trans (at_arg4_17 m ρ c)
theorem at_arg5_18 : W18 m ρ c (Proc.devRef .tc main_arg5) = (m ((c : Thread nD τ).loc main_arg5)) :=
  (W18_of_ne m ρ c main_arg5 (by decide)).trans (at_arg5_17 m ρ c)
theorem at_arg6_18 : W18 m ρ c (Proc.devRef .tc main_arg6) = (m ((c : Thread nD τ).loc main_arg6)) :=
  (W18_of_ne m ρ c main_arg6 (by decide)).trans (at_arg6_17 m ρ c)
theorem at_arg7_18 : W18 m ρ c (Proc.devRef .tc main_arg7) = (m ((c : Thread nD τ).loc main_arg7)) :=
  (W18_of_ne m ρ c main_arg7 (by decide)).trans (at_arg7_17 m ρ c)
theorem at_arg2_18 : W18 m ρ c (Proc.devRef .tc main_arg2) = (m ((c : Thread nD τ).loc main_arg2)) :=
  (W18_of_ne m ρ c main_arg2 (by decide)).trans (at_arg2_17 m ρ c)
theorem at_arg3_18 : W18 m ρ c (Proc.devRef .tc main_arg3) = (m ((c : Thread nD τ).loc main_arg3)) :=
  (W18_of_ne m ρ c main_arg3 (by decide)).trans (at_arg3_17 m ρ c)
theorem at_arg9_18 : W18 m ρ c (Proc.devRef .tc main_arg9) = (m ((c : Thread nD τ).loc main_arg9)) :=
  (W18_of_ne m ρ c main_arg9 (by decide)).trans (at_arg9_17 m ρ c)
theorem at_arg11_18 : W18 m ρ c (Proc.devRef .tc main_arg11) = (m ((c : Thread nD τ).loc main_arg11)) :=
  (W18_of_ne m ρ c main_arg11 (by decide)).trans (at_arg11_17 m ρ c)
theorem at_arg8_18 : W18 m ρ c (Proc.devRef .tc main_arg8) = (m ((c : Thread nD τ).loc main_arg8)) :=
  (W18_of_ne m ρ c main_arg8 (by decide)).trans (at_arg8_17 m ρ c)
theorem at_arg10_18 : W18 m ρ c (Proc.devRef .tc main_arg10) = (m ((c : Thread nD τ).loc main_arg10)) :=
  (W18_of_ne m ρ c main_arg10 (by decide)).trans (at_arg10_17 m ρ c)
theorem at_v255_19 : W19 m ρ c (Proc.devRef .tc main_v255) = (Cert.ReferenceIdeal.ReadP.val_main_v273 (F := Ideal) (m ((c : Thread nD τ).loc main_arg0))) := by
  show StableHlo.after hostOps9 (W18 m ρ c) (Proc.devRef .tc main_v255) = _
  after_results_simp
  rw [at_arg0_18 m ρ c]
  rfl
theorem at_v257_19 : W19 m ρ c (Proc.devRef .tc main_v257) = (Cert.ReferenceIdeal.ReadP.val_main_v277 (F := Ideal) (m ((c : Thread nD τ).loc main_arg1))) := by
  show StableHlo.after hostOps9 (W18 m ρ c) (Proc.devRef .tc main_v257) = _
  after_results_simp
  rw [at_arg1_18 m ρ c]
  rfl
theorem at_v259_19 : W19 m ρ c (Proc.devRef .tc main_v259) = (Cert.ReferenceIdeal.ReadP.val_main_v275 (F := Ideal) (m ((c : Thread nD τ).loc main_arg1))) := by
  show StableHlo.after hostOps9 (W18 m ρ c) (Proc.devRef .tc main_v259) = _
  after_results_simp
  rw [at_arg1_18 m ρ c]
  rfl
theorem at_v282_19 : W19 m ρ c (Proc.devRef .tc main_v282) = (Cert.ReferenceIdeal.ReadP.val_main_v308 (F := Ideal) (m ((c : Thread nD τ).loc main_arg1))) := by
  show StableHlo.after hostOps9 (W18 m ρ c) (Proc.devRef .tc main_v282) = _
  after_results_simp
  rw [at_arg1_18 m ρ c]
  rfl
theorem at_v284_19 : W19 m ρ c (Proc.devRef .tc main_v284) = (Cert.ReferenceIdeal.ReadP.val_main_v310 (F := Ideal) (m ((c : Thread nD τ).loc main_arg1))) := by
  show StableHlo.after hostOps9 (W18 m ρ c) (Proc.devRef .tc main_v284) = _
  after_results_simp
  rw [at_arg1_18 m ρ c]
  rfl
theorem at_v286_19 : W19 m ρ c (Proc.devRef .tc main_v286) = (Cert.ReferenceIdeal.ReadP.val_main_v279 (F := Ideal) (m ((c : Thread nD τ).loc main_arg4))) := by
  show StableHlo.after hostOps9 (W18 m ρ c) (Proc.devRef .tc main_v286) = _
  after_results_simp
  rw [at_arg4_18 m ρ c]
  rfl
theorem at_v289_19 : W19 m ρ c (Proc.devRef .tc main_v289) = (shapeCast _ (Cert.ReferenceIdeal.ReadP.val_main_v281 (F := Ideal) (m ((c : Thread nD τ).loc main_arg5))) shapeCasts_S32_S1x32) := by
  show StableHlo.after hostOps9 (W18 m ρ c) (Proc.devRef .tc main_v289) = _
  after_results_simp
  rw [at_arg5_18 m ρ c]
  rfl
theorem at_v291_19 : W19 m ρ c (Proc.devRef .tc main_v291) = (Cert.ReferenceIdeal.ReadP.val_main_v283 (F := Ideal) (m ((c : Thread nD τ).loc main_arg6))) := by
  show StableHlo.after hostOps9 (W18 m ρ c) (Proc.devRef .tc main_v291) = _
  after_results_simp
  rw [at_arg6_18 m ρ c]
  rfl
theorem at_v294_19 : W19 m ρ c (Proc.devRef .tc main_v294) = (shapeCast _ (Cert.ReferenceIdeal.ReadP.val_main_v285 (F := Ideal) (m ((c : Thread nD τ).loc main_arg7))) shapeCasts_S32_S1x32) := by
  show StableHlo.after hostOps9 (W18 m ρ c) (Proc.devRef .tc main_v294) = _
  after_results_simp
  rw [at_arg7_18 m ρ c]
  rfl
theorem at_arg2_19 : W19 m ρ c (Proc.devRef .tc main_arg2) = (m ((c : Thread nD τ).loc main_arg2)) :=
  (StableHlo.after_of_forall_not_mem (b := Proc.devRef .tc main_arg2) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg2_18 m ρ c)
theorem at_arg3_19 : W19 m ρ c (Proc.devRef .tc main_arg3) = (m ((c : Thread nD τ).loc main_arg3)) :=
  (StableHlo.after_of_forall_not_mem (b := Proc.devRef .tc main_arg3) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg3_18 m ρ c)
theorem at_v253_19 (hd1 : Cert.ReferenceIdeal.ReadP.val_main_v172 (F := Ideal) (m ((c : Thread nD τ).loc main_arg3)) ValueIdx.ix0 ≠ (0 : EReal)) (hd2 : Cert.ReferenceIdeal.ReadP.val_main_v269 (F := Ideal) (m ((c : Thread nD τ).loc main_arg3)) ValueIdx.ix0 ≠ (0 : EReal)) : W19 m ρ c (Proc.devRef .tc main_v253) = (Cert.ReferenceIdeal.ReadP.val_main_v271 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (StableHlo.after_of_forall_not_mem (b := Proc.devRef .tc main_v253) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v253_18 m ρ c hd1 hd2)
theorem at_arg9_19 : W19 m ρ c (Proc.devRef .tc main_arg9) = (m ((c : Thread nD τ).loc main_arg9)) :=
  (StableHlo.after_of_forall_not_mem (b := Proc.devRef .tc main_arg9) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg9_18 m ρ c)
theorem at_arg11_19 : W19 m ρ c (Proc.devRef .tc main_arg11) = (m ((c : Thread nD τ).loc main_arg11)) :=
  (StableHlo.after_of_forall_not_mem (b := Proc.devRef .tc main_arg11) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg11_18 m ρ c)
theorem at_arg8_19 : W19 m ρ c (Proc.devRef .tc main_arg8) = (m ((c : Thread nD τ).loc main_arg8)) :=
  (StableHlo.after_of_forall_not_mem (b := Proc.devRef .tc main_arg8) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg8_18 m ρ c)
theorem at_arg10_19 : W19 m ρ c (Proc.devRef .tc main_arg10) = (m ((c : Thread nD τ).loc main_arg10)) :=
  (StableHlo.after_of_forall_not_mem (b := Proc.devRef .tc main_arg10) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg10_18 m ρ c)
theorem at_v295_20 : W20 m ρ c (Proc.devRef .tc main_v295) = (Cert.ReferenceIdeal.ReadP.val_main_v311 (F := Ideal) (m ((c : Thread nD τ).loc main_arg0)) (m ((c : Thread nD τ).loc main_arg4))) := by
  refine (W20_arr m ρ c 2).trans ?_
  rw [Cert.KernelIdeal.MatmulR9.arr_eq]
  rw [show V19 m ρ c (Pipeline.arrRef spec9 0) = _ from at_v255_19 m ρ c,
    show V19 m ρ c (Pipeline.arrRef spec9 1) = _ from at_v286_19 m ρ c]
  exact (Cert.ReferenceIdeal.Stages.stage_main_v311 (m ((c : Thread nD τ).loc main_arg0)) (m ((c : Thread nD τ).loc main_arg4))).symm

end Cert.Bridge

end
-- ==== Proof.Combine1R10.lean ====
import proofs.«135273_j69758858821831_1_alg».proof.Proof.KernelIdealFrameP
import proofs.«135273_j69758858821831_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# Region 10: the rectified sum of two row blocks and a bias row, times the weights

At each of the 20 grid points the region's body reads rows `10000 t … 10000 t + 9999` of the two `200000 × 32`
inputs `a`, `h`, the bias row `b` and the `32 × 32` weights `w`, and writes the same rows of the output:
`out[n, j] = ∑ k, max (a[n, k] + h[n, k] + b[0, k]) 0 · w[k, j]`. First the body's result is read at a block
coordinate; then each block's element is identified with an element of its array; the blocks tile the output, so
the output array after the region is the specification's function of the input arrays.
-/

noncomputable section

namespace Cert.KernelIdeal.Combine1R10

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)
open scoped BigOperators

/-- The contraction's left operand index at output `(r, j)` and contraction coordinate `k` is `(r, k)`. -/
theorem lhs_idx (r : Fin 10000) (j k : Fin 32) :
    dot_S10000x32_S32x32_S10000x32_1_0_0_1_n_n.lhsIdx (ix2 r j)
      ((contrEquiv1 dot_S10000x32_S32x32_S10000x32_1_0_0_1_n_n 32 rfl rfl).symm k) = ix2 r k := by
  have hk := contrEquiv1_symm_val dot_S10000x32_S32x32_S10000x32_1_0_0_1_n_n 32 rfl rfl k
  funext a; apply Fin.ext
  match a with
  | ⟨0, _⟩ =>
    show (dot_S10000x32_S32x32_S10000x32_1_0_0_1_n_n.lhsIdx (ix2 r j) _ 0).val = r.val
    unfold DotDims.lhsIdx
    rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
    rfl
  | ⟨1, _⟩ =>
    exact (dot_S10000x32_S32x32_S10000x32_1_0_0_1_n_n.lhsIdx_val_of_single rfl (ix2 r j) _).trans hk

/-- The right operand index is `(k, j)`. -/
theorem rhs_idx (r : Fin 10000) (j k : Fin 32) :
    dot_S10000x32_S32x32_S10000x32_1_0_0_1_n_n.rhsIdx (ix2 r j)
      ((contrEquiv1 dot_S10000x32_S32x32_S10000x32_1_0_0_1_n_n 32 rfl rfl).symm k) = ix2 k j := by
  have hk := contrEquiv1_symm_val dot_S10000x32_S32x32_S10000x32_1_0_0_1_n_n 32 rfl rfl k
  funext a; apply Fin.ext
  match a with
  | ⟨0, _⟩ =>
    exact (dot_S10000x32_S32x32_S10000x32_1_0_0_1_n_n.rhsIdx_val_of_single rfl (ix2 r j) _).trans hk
  | ⟨1, _⟩ =>
    show (dot_S10000x32_S32x32_S10000x32_1_0_0_1_n_n.rhsIdx (ix2 r j) _ 1).val = j.val
    unfold DotDims.rhsIdx
    rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
    rfl

/-- The body's result at row `r`, column `j`: the rectified sum of the two row blocks and the bias row, times the weights. -/
theorem pay_apply (x0 x1 : Vec Ideal S10000x32 .f32) (x2 : Vec Ideal S1x32 .f32) (x3 : Vec Ideal S32x32 .f32)
    (r : Fin 10000) (j : Fin 32) :
    k10_pay1 (F := Ideal) x0 x1 x2 x3 (ix2 r j)
      = ∑ k : Fin 32, max (x0 (ix2 r k) + x1 (ix2 r k) + x2 (ix2 (0 : Fin 1) k)) 0 * x3 (ix2 k j) := by
  unfold k10_pay1
  simp only [shapeCast_self]
  simp only [matmul]
  rw [Ideal.matmul_constant_zero_apply, ← Equiv.sum_comp (contrEquiv1 dot_S10000x32_S32x32_S10000x32_1_0_0_1_n_n 32 rfl rfl).symm]
  refine Finset.sum_congr rfl fun k _ => ?_
  rw [lhs_idx, rhs_idx]
  rw [truncf_apply, truncf_apply, maximumf_apply, addf_apply, addf_apply, broadcast_apply, broadcastTo_1b_ab_apply]
  rw [show (FloatOps.ofBits (F := Ideal) FTy.f32 0x00000000#32) = (0 : EReal) from Ideal.ofBits_zero_f32]

/-! ## From blocks to the array -/

/-- The zero offsets, as a constant function. -/
theorem hz : (![0, 0] : Fin 2 → Nat) = fun _ => 0 := funext fun a => by fin_cases a <;> rfl

/-- The block index maps over the 20 grid points: the two row-tiled inputs and the output sit at block `(t, 0)`;
    the bias row and the weights at block `(0, 0)`. -/
theorem idx_facts : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = t.val ∧ win10_4.index t (1 : Fin 2) = 0 :=
  (by decide +kernel : ∀ t : Fin grid10.N, _)

/-- The grid has 20 points. -/
theorem lt_points (t : Fin cfg10.N) : t.val < 20 := by
  have h := t.isLt
  have hN : cfg10.N = 20 := N_10
  omega

/-- The body's result at a block coordinate, when each block's element is the array's element at the matching
    array index: the specification at that array index. -/
theorem pay_block (A H : Cert.Spec.Arr 200000 32) (B : Cert.Spec.Arr 1 32) (W : Cert.Spec.Arr 32 32)
    (x0 x1 : Vec Ideal S10000x32 .f32) (x2 : Vec Ideal S1x32 .f32) (x3 : Vec Ideal S32x32 .f32)
    (y : S10000x32.Idx) (i : S200000x32.Idx) (r : Fin 10000) (j : Fin 32) (n : Fin 200000)
    (hy : y = ix2 r j) (hi : i = ix2 n j)
    (h0 : ∀ k : Fin 32, x0 (ix2 r k) = A (ix2 n k))
    (h1 : ∀ k : Fin 32, x1 (ix2 r k) = H (ix2 n k))
    (h2 : ∀ k : Fin 32, x2 (ix2 (0 : Fin 1) k) = B (ix2 (0 : Fin 1) k))
    (h3 : ∀ k : Fin 32, x3 (ix2 k j) = W (ix2 k j)) :
    k10_pay1 (F := Ideal) x0 x1 x2 x3 y = Cert.Spec.c1G A H B W i := by
  subst hy hi
  rw [pay_apply]
  show _ = ∑ k : Fin 32, max (A (ix2 n k) + H (ix2 n k) + B (ix2 (0 : Fin 1) k)) 0 * W (ix2 k j)
  refine Finset.sum_congr rfl fun k _ => ?_
  rw [h0, h1, h2, h3]

section Blocks

variable (V : (c : Dev nD) → (b : Ref sig .tc) → Buf (Elt Ideal) ((c : Thread nD τ).loc b))

/-- An element of a row-tiled input block at point `t` is the array's element `10000 · t` rows further down. -/
theorem blk0_apply (c : Dev nD) (t : Fin cfg10.N) (r : Fin 10000) (k : Fin 32) (n : Fin 200000)
    (hn : n.val = t.val * 10000 + r.val) :
    iblk10 (F := Ideal) V c 0 t (ix2 r k) = V c (Pipeline.arrRef spec10 0) (ix2 n k) := by
  obtain ⟨e0, e1, -⟩ := idx_facts t
  show V c (Pipeline.arrRef spec10 0) (((cfg10.win 0).blk t).view.emb (ix2 r k)) = _
  refine congrArg _ (funext fun a => Fin.ext ?_)
  match a with
  | ⟨0, _⟩ => show win10_0.index t (0 : Fin 2) * 10000 + 1 * r.val = n.val; omega
  | ⟨1, _⟩ => show win10_0.index t (1 : Fin 2) * 32 + 1 * k.val = k.val; omega

theorem blk1_apply (c : Dev nD) (t : Fin cfg10.N) (r : Fin 10000) (k : Fin 32) (n : Fin 200000)
    (hn : n.val = t.val * 10000 + r.val) :
    iblk10 (F := Ideal) V c 1 t (ix2 r k) = V c (Pipeline.arrRef spec10 1) (ix2 n k) := by
  obtain ⟨-, -, e0, e1, -⟩ := idx_facts t
  show V c (Pipeline.arrRef spec10 1) (((cfg10.win 1).blk t).view.emb (ix2 r k)) = _
  refine congrArg _ (funext fun a => Fin.ext ?_)
  match a with
  | ⟨0, _⟩ => show win10_1.index t (0 : Fin 2) * 10000 + 1 * r.val = n.val; omega
  | ⟨1, _⟩ => show win10_1.index t (1 : Fin 2) * 32 + 1 * k.val = k.val; omega

/-- The bias block is the bias row at every point. -/
theorem blk2_apply (c : Dev nD) (t : Fin cfg10.N) (k : Fin 32) :
    iblk10 (F := Ideal) V c 2 t (ix2 (0 : Fin 1) k) = V c (Pipeline.arrRef spec10 2) (ix2 (0 : Fin 1) k) := by
  obtain ⟨-, -, -, -, e0, e1, -⟩ := idx_facts t
  show V c (Pipeline.arrRef spec10 2) (((cfg10.win 2).blk t).view.emb (ix2 (0 : Fin 1) k)) = _
  refine congrArg _ (funext fun a => Fin.ext ?_)
  match a with
  | ⟨0, _⟩ => show win10_2.index t (0 : Fin 2) * 1 + 1 * (0 : Fin 1).val = (0 : Fin 1).val; omega
  | ⟨1, _⟩ => show win10_2.index t (1 : Fin 2) * 32 + 1 * k.val = k.val; omega

/-- The weight block is the weight matrix at every point. -/
theorem blk3_apply (c : Dev nD) (t : Fin cfg10.N) (k j : Fin 32) :
    iblk10 (F := Ideal) V c 3 t (ix2 k j) = V c (Pipeline.arrRef spec10 3) (ix2 k j) := by
  obtain ⟨-, -, -, -, -, -, e0, e1, -⟩ := idx_facts t
  show V c (Pipeline.arrRef spec10 3) (((cfg10.win 3).blk t).view.emb (ix2 k j)) = _
  refine congrArg _ (funext fun a => Fin.ext ?_)
  match a with
  | ⟨0, _⟩ => show win10_3.index t (0 : Fin 2) * 32 + 1 * k.val = k.val; omega
  | ⟨1, _⟩ => show win10_3.index t (1 : Fin 2) * 32 + 1 * j.val = j.val; omega

set_option maxHeartbeats 1000000 in
/-- What point `t` writes back is block `t` of the specification's function of the arrays as the region found them. -/
theorem flushed_eq (c : Dev nD) (t : Fin cfg10.N) :
    (dat10 (F := Ideal) V c).flushed 4 t = ((cfg10.win 4).blk t).view.read (Elt Ideal)
      (Cert.Spec.c1G (V c (Pipeline.arrRef spec10 0)) (V c (Pipeline.arrRef spec10 1)) (V c (Pipeline.arrRef spec10 2)) (V c (Pipeline.arrRef spec10 3))) := by
  show (cfg10.win 4).cut (grid10.coords t) ((dat10 (F := Ideal) V c).after 4 t) = _
  rw [after10_4]
  unfold out10_4
  rw [View.canon_unit_zero hz]
  simp only [View.ld_unit_zero (S := S10000x32) hz, View.ld_unit_zero (S := S1x32) hz, View.ld_unit_zero (S := S32x32) hz]
  have ht := lt_points t
  obtain ⟨-, -, -, -, -, -, -, -, e0, e1⟩ := idx_facts t
  funext y
  have hy0 : (y 0).val < 10000 := (y 0).isLt
  have hy1 : (y 1).val < 32 := (y 1).isLt
  have hn : t.val * 10000 + (y 0).val < 200000 := by omega
  refine pay_block _ _ _ _ _ _ _ _ _ _ ⟨(y 0).val, hy0⟩ ⟨(y 1).val, hy1⟩ ⟨t.val * 10000 + (y 0).val, hn⟩ ?_ ?_
    (fun k => blk0_apply V c t _ k _ rfl) (fun k => blk1_apply V c t _ k _ rfl)
    (fun k => blk2_apply V c t k) (fun k => blk3_apply V c t k _)
  · exact funext fun a => match a with | ⟨0, _⟩ => rfl | ⟨1, _⟩ => rfl
  · funext a; apply Fin.ext
    match a with
    | ⟨0, _⟩ => show win10_4.index t (0 : Fin 2) * 10000 + 1 * (y 0).val = t.val * 10000 + (y 0).val; omega
    | ⟨1, _⟩ => show win10_4.index t (1 : Fin 2) * 32 + 1 * (y 1).val = (y 1).val; omega

/-- An index of the output array is in point `t`'s block iff each coordinate is in the block's range on its axis. -/
theorem mem_blk (t : Fin cfg10.N) (i : S200000x32.Idx) :
    i ∈ ((cfg10.win 4).blk t).view.set ↔ ∀ a : Fin 2, win10_4.index t a * S10000x32.size a ≤ (i a).val ∧ (i a).val < win10_4.index t a * S10000x32.size a + S10000x32.size a := by
  show i ∈ ((View.whole main_v310).slice (win10_4.rect t)).set ↔ _
  rw [View.set_slice_whole, Rect.mem_set_unit]
  exact Iff.rfl

/-- Row `n` of the output is written by point `n / 10000`. -/
theorem cover (i : S200000x32.Idx) :
    ∃ t : Fin cfg10.N, (cfg10.win 4).flush t = true ∧ i ∈ ((cfg10.win 4).blk t).view.set := by
  have hi0 : (i 0).val < 200000 := (i 0).isLt
  have hi1 : (i 1).val < 32 := (i 1).isLt
  have hN : cfg10.N = 20 := N_10
  obtain ⟨t, ht⟩ : ∃ t : Fin cfg10.N, t.val = (i 0).val / 10000 := ⟨⟨(i 0).val / 10000, by rw [hN]; omega⟩, rfl⟩
  obtain ⟨-, -, -, -, -, -, -, -, e0, e1⟩ := idx_facts t
  refine ⟨t, flush10_4 t, ?_⟩
  rw [mem_blk]
  intro a
  match a with
  | ⟨0, _⟩ => show win10_4.index t (0 : Fin 2) * 10000 ≤ (i 0).val ∧ (i 0).val < win10_4.index t (0 : Fin 2) * 10000 + 10000; omega
  | ⟨1, _⟩ => show win10_4.index t (1 : Fin 2) * 32 ≤ (i 1).val ∧ (i 1).val < win10_4.index t (1 : Fin 2) * 32 + 32; omega

end Blocks

/-- After the region, its output array is the specification's function of its input arrays as the region found them. -/
theorem arr_eq (V : (c : Dev nD) → (b : Ref sig .tc) → Buf (Elt Ideal) ((c : Thread nD τ).loc b)) (c : Dev nD) :
    (GenP.dat10 (F := Ideal) V c).arrAt 4 cfg10.N = Cert.Spec.c1G (V c (Pipeline.arrRef spec10 0)) (V c (Pipeline.arrRef spec10 1)) (V c (Pipeline.arrRef spec10 2)) (V c (Pipeline.arrRef spec10 3)) :=
  (dat10 (F := Ideal) V c).arrAt_eq_of_cover 4 _ (fun t _ => flushed_eq V c t) cover

end Cert.KernelIdeal.Combine1R10

end
-- ==== Proof.Bridge10.lean ====
import proofs.«135273_j69758858821831_1_alg».proof.Proof.KernelIdealFrameP
import proofs.«135273_j69758858821831_1_alg».proof.Proof.RefReadP
import proofs.«135273_j69758858821831_1_alg».proof.Proof.Bridge9
import proofs.«135273_j69758858821831_1_alg».proof.Proof.Combine1R10
import proofs.«135273_j69758858821831_1_alg».proof.Proof.RefStages

/-!
# Boundary 20 to boundary 22: host stretch 10 and region 10

Each buffer the idealized kernel holds at a boundary is stated as the reference's stage of the same operation on the same
operands (or, for the few buffers only the kernel has — a bias as a one-row matrix, the reciprocal of a layer's scalar —
as that operation of reference stages). A buffer no operation of a stretch writes, and no window of a region names,
keeps its contents across it. The region's output is the specification's function of its input arrays, which is the
reference's stage.
-/

set_option maxRecDepth 16384

noncomputable section

namespace Cert.Bridge

open Cert.KernelIdeal Cert.KernelIdeal.Gen Cert.KernelIdeal.GenP
open Idealize.ShloMosaic Idealize.ShloMosaic.TcCoe Idealize.SL.Sem

variable (m : (ℓ : Loc nD τ sig) → Buf (Elt Ideal) ℓ) (ρ : Dev nD → PrngReg) (c : Dev nD)

theorem at_arg2_20 : W20 m ρ c (Proc.devRef .tc main_arg2) = (m ((c : Thread nD τ).loc main_arg2)) :=
  (W20_of_ne m ρ c main_arg2 (by decide)).trans (at_arg2_19 m ρ c)
theorem at_arg3_20 : W20 m ρ c (Proc.devRef .tc main_arg3) = (m ((c : Thread nD τ).loc main_arg3)) :=
  (W20_of_ne m ρ c main_arg3 (by decide)).trans (at_arg3_19 m ρ c)
theorem at_v259_20 : W20 m ρ c (Proc.devRef .tc main_v259) = (Cert.ReferenceIdeal.ReadP.val_main_v275 (F := Ideal) (m ((c : Thread nD τ).loc main_arg1))) :=
  (W20_of_ne m ρ c main_v259 (by decide)).trans (at_v259_19 m ρ c)
theorem at_v282_20 : W20 m ρ c (Proc.devRef .tc main_v282) = (Cert.ReferenceIdeal.ReadP.val_main_v308 (F := Ideal) (m ((c : Thread nD τ).loc main_arg1))) :=
  (W20_of_ne m ρ c main_v282 (by decide)).trans (at_v282_19 m ρ c)
theorem at_v257_20 : W20 m ρ c (Proc.devRef .tc main_v257) = (Cert.ReferenceIdeal.ReadP.val_main_v277 (F := Ideal) (m ((c : Thread nD τ).loc main_arg1))) :=
  (W20_of_ne m ρ c main_v257 (by decide)).trans (at_v257_19 m ρ c)
theorem at_v284_20 : W20 m ρ c (Proc.devRef .tc main_v284) = (Cert.ReferenceIdeal.ReadP.val_main_v310 (F := Ideal) (m ((c : Thread nD τ).loc main_arg1))) :=
  (W20_of_ne m ρ c main_v284 (by decide)).trans (at_v284_19 m ρ c)
theorem at_v289_20 : W20 m ρ c (Proc.devRef .tc main_v289) = (shapeCast _ (Cert.ReferenceIdeal.ReadP.val_main_v281 (F := Ideal) (m ((c : Thread nD τ).loc main_arg5))) shapeCasts_S32_S1x32) :=
  (W20_of_ne m ρ c main_v289 (by decide)).trans (at_v289_19 m ρ c)
theorem at_v291_20 : W20 m ρ c (Proc.devRef .tc main_v291) = (Cert.ReferenceIdeal.ReadP.val_main_v283 (F := Ideal) (m ((c : Thread nD τ).loc main_arg6))) :=
  (W20_of_ne m ρ c main_v291 (by decide)).trans (at_v291_19 m ρ c)
theorem at_v253_20 (hd1 : Cert.ReferenceIdeal.ReadP.val_main_v172 (F := Ideal) (m ((c : Thread nD τ).loc main_arg3)) ValueIdx.ix0 ≠ (0 : EReal)) (hd2 : Cert.ReferenceIdeal.ReadP.val_main_v269 (F := Ideal) (m ((c : Thread nD τ).loc main_arg3)) ValueIdx.ix0 ≠ (0 : EReal)) : W20 m ρ c (Proc.devRef .tc main_v253) = (Cert.ReferenceIdeal.ReadP.val_main_v271 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (W20_of_ne m ρ c main_v253 (by decide)).trans (at_v253_19 m ρ c hd1 hd2)
theorem at_v294_20 : W20 m ρ c (Proc.devRef .tc main_v294) = (shapeCast _ (Cert.ReferenceIdeal.ReadP.val_main_v285 (F := Ideal) (m ((c : Thread nD τ).loc main_arg7))) shapeCasts_S32_S1x32) :=
  (W20_of_ne m ρ c main_v294 (by decide)).trans (at_v294_19 m ρ c)
theorem at_arg9_20 : W20 m ρ c (Proc.devRef .tc main_arg9) = (m ((c : Thread nD τ).loc main_arg9)) :=
  (W20_of_ne m ρ c main_arg9 (by decide)).trans (at_arg9_19 m ρ c)
theorem at_arg11_20 : W20 m ρ c (Proc.devRef .tc main_arg11) = (m ((c : Thread nD τ).loc main_arg11)) :=
  (W20_of_ne m ρ c main_arg11 (by decide)).trans (at_arg11_19 m ρ c)
theorem at_arg8_20 : W20 m ρ c (Proc.devRef .tc main_arg8) = (m ((c : Thread nD τ).loc main_arg8)) :=
  (W20_of_ne m ρ c main_arg8 (by decide)).trans (at_arg8_19 m ρ c)
theorem at_arg10_20 : W20 m ρ c (Proc.devRef .tc main_arg10) = (m ((c : Thread nD τ).loc main_arg10)) :=
  (W20_of_ne m ρ c main_arg10 (by decide)).trans (at_arg10_19 m ρ c)
theorem at_v307_21 : W21 m ρ c (Proc.devRef .tc main_v307) = (Cert.ReferenceIdeal.ReadP.val_main_v323 (F := Ideal) (m ((c : Thread nD τ).loc main_arg0)) (m ((c : Thread nD τ).loc main_arg1)) (m ((c : Thread nD τ).loc main_arg4))) := by
  show StableHlo.after hostOps10 (W20 m ρ c) (Proc.devRef .tc main_v307) = _
  after_results_simp
  rw [at_v257_20 m ρ c, at_v295_20 m ρ c, at_v259_20 m ρ c, at_v282_20 m ρ c]
  rfl
theorem at_v309_21 : W21 m ρ c (Proc.devRef .tc main_v309) = (Cert.ReferenceIdeal.ReadP.val_main_v325 (F := Ideal) (m ((c : Thread nD τ).loc main_arg0)) (m ((c : Thread nD τ).loc main_arg1)) (m ((c : Thread nD τ).loc main_arg4))) := by
  show StableHlo.after hostOps10 (W20 m ρ c) (Proc.devRef .tc main_v309) = _
  after_results_simp
  rw [at_v295_20 m ρ c, at_v284_20 m ρ c]
  rfl
theorem at_arg2_21 : W21 m ρ c (Proc.devRef .tc main_arg2) = (m ((c : Thread nD τ).loc main_arg2)) :=
  (StableHlo.after_of_forall_not_mem (b := Proc.devRef .tc main_arg2) _ _ (List.forall_iff_forall_mem.mp (by
      simp only [hostOps10, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg2_20 m ρ c)
theorem at_arg3_21 : W21 m ρ c (Proc.devRef .tc main_arg3) = (m ((c : Thread nD τ).loc main_arg3)) :=
  (StableHlo.after_of_forall_not_mem (b := Proc.devRef .tc main_arg3) _ _ (List.forall_iff_forall_mem.mp (by
      simp only [hostOps10, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg3_20 m ρ c)
theorem at_v259_21 : W21 m ρ c (Proc.devRef .tc main_v259) = (Cert.ReferenceIdeal.ReadP.val_main_v275 (F := Ideal) (m ((c : Thread nD τ).loc main_arg1))) :=
  (StableHlo.after_of_forall_not_mem (b := Proc.devRef .tc main_v259) _ _ (List.forall_iff_forall_mem.mp (by
      simp only [hostOps10, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v259_20 m ρ c)
theorem at_v282_21 : W21 m ρ c (Proc.devRef .tc main_v282) = (Cert.ReferenceIdeal.ReadP.val_main_v308 (F := Ideal) (m ((c : Thread nD τ).loc main_arg1))) :=
  (StableHlo.after_of_forall_not_mem (b := Proc.devRef .tc main_v282) _ _ (List.forall_iff_forall_mem.mp (by
      simp only [hostOps10, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v282_20 m ρ c)
theorem at_v257_21 : W21 m ρ c (Proc.devRef .tc main_v257) = (Cert.ReferenceIdeal.ReadP.val_main_v277 (F := Ideal) (m ((c : Thread nD τ).loc main_arg1))) :=
  (StableHlo.after_of_forall_not_mem (b := Proc.devRef .tc main_v257) _ _ (List.forall_iff_forall_mem.mp (by
      simp only [hostOps10, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v257_20 m ρ c)
theorem at_v284_21 : W21 m ρ c (Proc.devRef .tc main_v284) = (Cert.ReferenceIdeal.ReadP.val_main_v310 (F := Ideal) (m ((c : Thread nD τ).loc main_arg1))) :=
  (StableHlo.after_of_forall_not_mem (b := Proc.devRef .tc main_v284) _ _ (List.forall_iff_forall_mem.mp (by
      simp only [hostOps10, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v284_20 m ρ c)
theorem at_v289_21 : W21 m ρ c (Proc.devRef .tc main_v289) = (shapeCast _ (Cert.ReferenceIdeal.ReadP.val_main_v281 (F := Ideal) (m ((c : Thread nD τ).loc main_arg5))) shapeCasts_S32_S1x32) :=
  (StableHlo.after_of_forall_not_mem (b := Proc.devRef .tc main_v289) _ _ (List.forall_iff_forall_mem.mp (by
      simp only [hostOps10, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v289_20 m ρ c)
theorem at_v291_21 : W21 m ρ c (Proc.devRef .tc main_v291) = (Cert.ReferenceIdeal.ReadP.val_main_v283 (F := Ideal) (m ((c : Thread nD τ).loc main_arg6))) :=
  (StableHlo.after_of_forall_not_mem (b := Proc.devRef .tc main_v291) _ _ (List.forall_iff_forall_mem.mp (by
      simp only [hostOps10, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v291_20 m ρ c)
theorem at_v253_21 (hd1 : Cert.ReferenceIdeal.ReadP.val_main_v172 (F := Ideal) (m ((c : Thread nD τ).loc main_arg3)) ValueIdx.ix0 ≠ (0 : EReal)) (hd2 : Cert.ReferenceIdeal.ReadP.val_main_v269 (F := Ideal) (m ((c : Thread nD τ).loc main_arg3)) ValueIdx.ix0 ≠ (0 : EReal)) : W21 m ρ c (Proc.devRef .tc main_v253) = (Cert.ReferenceIdeal.ReadP.val_main_v271 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (StableHlo.after_of_forall_not_mem (b := Proc.devRef .tc main_v253) _ _ (List.forall_iff_forall_mem.mp (by
      simp only [hostOps10, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v253_20 m ρ c hd1 hd2)
theorem at_v294_21 : W21 m ρ c (Proc.devRef .tc main_v294) = (shapeCast _ (Cert.ReferenceIdeal.ReadP.val_main_v285 (F := Ideal) (m ((c : Thread nD τ).loc main_arg7))) shapeCasts_S32_S1x32) :=
  (StableHlo.after_of_forall_not_mem (b := Proc.devRef .tc main_v294) _ _ (List.forall_iff_forall_mem.mp (by
      simp only [hostOps10, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v294_20 m ρ c)
theorem at_arg9_21 : W21 m ρ c (Proc.devRef .tc main_arg9) = (m ((c : Thread nD τ).loc main_arg9)) :=
  (StableHlo.after_of_forall_not_mem (b := Proc.devRef .tc main_arg9) _ _ (List.forall_iff_forall_mem.mp (by
      simp only [hostOps10, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg9_20 m ρ c)
theorem at_arg11_21 : W21 m ρ c (Proc.devRef .tc main_arg11) = (m ((c : Thread nD τ).loc main_arg11)) :=
  (StableHlo.after_of_forall_not_mem (b := Proc.devRef .tc main_arg11) _ _ (List.forall_iff_forall_mem.mp (by
      simp only [hostOps10, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg11_20 m ρ c)
theorem at_arg8_21 : W21 m ρ c (Proc.devRef .tc main_arg8) = (m ((c : Thread nD τ).loc main_arg8)) :=
  (StableHlo.after_of_forall_not_mem (b := Proc.devRef .tc main_arg8) _ _ (List.forall_iff_forall_mem.mp (by
      simp only [hostOps10, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg8_20 m ρ c)
theorem at_arg10_21 : W21 m ρ c (Proc.devRef .tc main_arg10) = (m ((c : Thread nD τ).loc main_arg10)) :=
  (StableHlo.after_of_forall_not_mem (b := Proc.devRef .tc main_arg10) _ _ (List.forall_iff_forall_mem.mp (by
      simp only [hostOps10, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg10_20 m ρ c)
theorem at_v310_22 : W22 m ρ c (Proc.devRef .tc main_v310) = (Cert.ReferenceIdeal.ReadP.val_main_v331 (F := Ideal) (m ((c : Thread nD τ).loc main_arg0)) (m ((c : Thread nD τ).loc main_arg1)) (m ((c : Thread nD τ).loc main_arg4)) (m ((c : Thread nD τ).loc main_arg5)) (m ((c : Thread nD τ).loc main_arg6))) := by
  refine (W22_arr m ρ c 4).trans ?_
  rw [Cert.KernelIdeal.Combine1R10.arr_eq]
  rw [show V21 m ρ c (Pipeline.arrRef spec10 0) = _ from at_v307_21 m ρ c,
    show V21 m ρ c (Pipeline.arrRef spec10 1) = _ from at_v309_21 m ρ c,
    show V21 m ρ c (Pipeline.arrRef spec10 2) = _ from at_v289_21 m ρ c,
    show V21 m ρ c (Pipeline.arrRef spec10 3) = _ from at_v291_21 m ρ c]
  exact (Cert.ReferenceIdeal.Stages.stage_main_v331 (m ((c : Thread nD τ).loc main_arg0)) (m ((c : Thread nD τ).loc main_arg1)) (m ((c : Thread nD τ).loc main_arg4)) (m ((c : Thread nD τ).loc main_arg5)) (m ((c : Thread nD τ).loc main_arg6)) shapeCasts_S32_S1x32).symm

end Cert.Bridge

end
-- ==== Proof.Combine2R11.lean ====
import proofs.«135273_j69758858821831_1_alg».proof.Proof.KernelIdealFrameP
import proofs.«135273_j69758858821831_1_alg».proof.Proof.Spec
import Idealize.ShloMosaic.Lib.Pipeline.Value
import Idealize.ShloMosaic.Lib.ValueIdx
import Idealize.ShloMosaic.PureOps.Ideal.Laws

/-!
# The second combine stage: the output array is `c2G` of the input arrays

The stage runs over 20 grid points. At point `t` it reads rows `t · 10000 … t · 10000 + 9999` of three `200000 × 32`
arrays `a`, `h`, `g`, the whole `1 × 32` bias row `b` and the whole `1 × 1` scale `s`, and writes the same rows of the
output: `out[n, j] = (((a[n, j] + h[n, j]) + b[0, j]) + g[n, j]) · s[0, 0]`. Every operation is pointwise, so the proof is
bookkeeping of indices:

* the body's result at row `r`, column `j` of a block (`pay_apply`);
* where an entry of a block sits in its array: entry `(r, j)` of a row block at point `t` is entry `(t · 10000 + r, j)`
  of the array, and the bias row and the scale are read whole (`emb0` … `emb5`);
* so what point `t` writes back is block `t` of `c2G` of the arrays (`flushed_eq`);
* the 20 blocks cover the output array — row `n` lies in block `n / 10000` (`cover`) — hence the array after the stage is
  `c2G` of the arrays as the stage found them (`arr_eq`).
-/

set_option maxRecDepth 16384

noncomputable section

namespace Cert.KernelIdeal.Combine2R11

open Cert.KernelIdeal Idealize.ShloMosaic Idealize.ShloMosaic.TcCoe Idealize.ShloMosaic.ValueIdx Idealize.SL.Sem
open Idealize.ShloMosaic.Pipeline (Dat)

/-! ## The body at an index -/

/-- Reading the one entry of a `1 × 1` vector. -/
theorem extract_one {α : Type} (x : S1x1.Idx → α) (h : ∀ a, (![0, 0] : Fin 2 → Nat) a < S1x1.size a) :
    extractAt ![0, 0] x h = x (ix2 0 0) := by
  unfold extractAt
  refine congrArg x (funext fun a => Fin.ext ?_)
  match a with
  | ⟨0, _⟩ => rfl
  | ⟨1, _⟩ => rfl

/-- A one-row vector spread over `10000` rows reads, at row `r` and column `j`, its entry in column `j`. -/
theorem row_spread {α : Type} (x : S1x32.Idx → α) (h : S1x32.Broadcasts S10000x32) (r : Fin 10000) (j : Fin 32) :
    broadcastTo S10000x32 x h (ix2 r j) = x (ix2 0 j) := by
  refine broadcastTo_apply x h (ix2 r j) (ix2 0 j) fun a => ?_
  match a with
  | ⟨0, _⟩ => rfl
  | ⟨1, _⟩ => rfl

/-- The body's result at row `r`, column `j`: the two row blocks, the bias row and the third row block, summed from the
    left, times the scale. -/
theorem pay_apply (x0 x1 : Vec Ideal S10000x32 .f32) (x2 : Vec Ideal S1x32 .f32) (x3 : Vec Ideal S10000x32 .f32)
    (x4 : Vec Ideal S1x1 .f32) (r : Fin 10000) (j : Fin 32) :
    Gen.k11_pay1 (F := Ideal) x0 x1 x2 x3 x4 (ix2 r j)
      = (x0 (ix2 r j) + x1 (ix2 r j) + x2 (ix2 0 j) + x3 (ix2 r j)) * x4 (ix2 0 0) := by
  unfold Gen.k11_pay1
  simp only [shapeCast_self]
  rw [mulf_apply, addf_apply, addf_apply, addf_apply, broadcast_apply, row_spread, extract_one]

/-! ## Where a block's entry sits in its array -/

/-- The zero offsets of a whole-buffer access, spelt as the constant function. -/
theorem zero_off : (![0, 0] : Fin 2 → Nat) = fun _ => 0 := funext fun a => by fin_cases a <;> rfl

/-- The block indices over the 20 grid points: the three row-tiled inputs and the output sit at block `(t, 0)`, the
    bias row and the scale at block `(0, 0)`. -/
theorem idx_facts : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

/-- There are 20 grid points. -/
theorem point_lt (t : Fin cfg11.N) : t.val < 20 := lt_of_lt_of_eq t.isLt Gen.N_11

/-- Row `r` of the block at point `t` is row `t · 10000 + r` of the array. -/
def row (t : Fin cfg11.N) (r : Fin 10000) : Fin 200000 := ⟨t.val * 10000 + r.val, by have := point_lt t; omega⟩

/-- Entry `(r, j)` of the first row block at point `t` is entry `(t · 10000 + r, j)` of its array. -/
theorem emb0 (t : Fin cfg11.N) (r : Fin 10000) (j : Fin 32) :
    ((cfg11.win 0).blk t).view.emb (ix2 r j) = ix2 (row t r) j := by
  obtain ⟨e0, e1, -⟩ := idx_facts t
  funext a; apply Fin.ext
  match a with
  | ⟨0, _⟩ => show win11_0.index t (0 : Fin 2) * 10000 + 1 * r.val = t.val * 10000 + r.val; omega
  | ⟨1, _⟩ => show win11_0.index t (1 : Fin 2) * 32 + 1 * j.val = j.val; omega

/-- The same for the second row block. -/
theorem emb1 (t : Fin cfg11.N) (r : Fin 10000) (j : Fin 32) :
    ((cfg11.win 1).blk t).view.emb (ix2 r j) = ix2 (row t r) j := by
  obtain ⟨-, -, e0, e1, -⟩ := idx_facts t
  funext a; apply Fin.ext
  match a with
  | ⟨0, _⟩ => show win11_1.index t (0 : Fin 2) * 10000 + 1 * r.val = t.val * 10000 + r.val; omega
  | ⟨1, _⟩ => show win11_1.index t (1 : Fin 2) * 32 + 1 * j.val = j.val; omega

/-- The bias row is read whole at every point: entry `(0, j)` of its block is entry `(0, j)` of the array. -/
theorem emb2 (t : Fin cfg11.N) (j : Fin 32) :
    ((cfg11.win 2).blk t).view.emb (ix2 (0 : Fin 1) j) = ix2 (0 : Fin 1) j := by
  obtain ⟨-, -, -, -, e0, e1, -⟩ := idx_facts t
  funext a; apply Fin.ext
  match a with
  | ⟨0, _⟩ => show win11_2.index t (0 : Fin 2) * 1 + 1 * 0 = 0; omega
  | ⟨1, _⟩ => show win11_2.index t (1 : Fin 2) * 32 + 1 * j.val = j.val; omega

/-- Entry `(r, j)` of the third row block at point `t` is entry `(t · 10000 + r, j)` of its array. -/
theorem emb3 (t : Fin cfg11.N) (r : Fin 10000) (j : Fin 32) :
    ((cfg11.win 3).blk t).view.emb (ix2 r j) = ix2 (row t r) j := by
  obtain ⟨-, -, -, -, -, -, e0, e1, -⟩ := idx_facts t
  funext a; apply Fin.ext
  match a with
  | ⟨0, _⟩ => show win11_3.index t (0 : Fin 2) * 10000 + 1 * r.val = t.val * 10000 + r.val; omega
  | ⟨1, _⟩ => show win11_3.index t (1 : Fin 2) * 32 + 1 * j.val = j.val; omega

/-- The scale is read whole at every point. -/
theorem emb4 (t : Fin cfg11.N) :
    ((cfg11.win 4).blk t).view.emb (ix2 (0 : Fin 1) (0 : Fin 1)) = ix2 (0 : Fin 1) (0 : Fin 1) := by
  obtain ⟨-, -, -, -, -, -, -, -, e0, e1, -⟩ := idx_facts t
  funext a; apply Fin.ext
  match a with
  | ⟨0, _⟩ => show win11_4.index t (0 : Fin 2) * 1 + 1 * 0 = 0; omega
  | ⟨1, _⟩ => show win11_4.index t (1 : Fin 2) * 1 + 1 * 0 = 0; omega

/-- Entry `(r, j)` of the output block at point `t` is written to entry `(t · 10000 + r, j)` of the output array. -/
theorem emb5 (t : Fin cfg11.N) (r : Fin 10000) (j : Fin 32) :
    ((cfg11.win 5).blk t).view.emb (ix2 r j) = ix2 (row t r) j := by
  obtain ⟨-, -, -, -, -, -, -, -, -, -, e0, e1⟩ := idx_facts t
  funext a; apply Fin.ext
  match a with
  | ⟨0, _⟩ => show win11_5.index t (0 : Fin 2) * 10000 + 1 * r.val = t.val * 10000 + r.val; omega
  | ⟨1, _⟩ => show win11_5.index t (1 : Fin 2) * 32 + 1 * j.val = j.val; omega

/-- An index of the output array is in point `t`'s block iff each coordinate is in the block's range on its axis. -/
theorem mem_blk (t : Fin cfg11.N) (i : S200000x32.Idx) :
    i ∈ ((cfg11.win 5).blk t).view.set ↔ ∀ a : Fin 2, win11_5.index t a * S10000x32.size a ≤ (i a).val ∧ (i a).val < win11_5.index t a * S10000x32.size a + S10000x32.size a := by
  show i ∈ ((View.whole main_v343).slice (win11_5.rect t)).set ↔ _
  rw [View.set_slice_whole, Rect.mem_set_unit]
  exact Iff.rfl

/-- Every index of the output array is in some point's block: row `n` belongs to point `n / 10000`. -/
theorem cover (i : S200000x32.Idx) :
    ∃ t : Fin cfg11.N, (cfg11.win 5).flush t = true ∧ i ∈ ((cfg11.win 5).blk t).view.set := by
  have hi0 : (i 0).val < 200000 := idx2_lt0 i
  have hi1 : (i 1).val < 32 := idx2_lt1 i
  let t : Fin cfg11.N := ⟨(i 0).val / 10000, lt_of_lt_of_eq (by omega) Gen.N_11.symm⟩
  obtain ⟨-, -, -, -, -, -, -, -, -, -, e0, e1⟩ := idx_facts t
  have ht : t.val = (i 0).val / 10000 := rfl
  refine ⟨t, Gen.flush11_5 t, ?_⟩
  rw [mem_blk]
  intro a
  match a with
  | ⟨0, _⟩ => show win11_5.index t (0 : Fin 2) * 10000 ≤ (i 0).val ∧ (i 0).val < win11_5.index t (0 : Fin 2) * 10000 + 10000; omega
  | ⟨1, _⟩ => show win11_5.index t (1 : Fin 2) * 32 ≤ (i 1).val ∧ (i 1).val < win11_5.index t (1 : Fin 2) * 32 + 32; omega

/-- At point `t`, entry `(r, j)`: the body's arithmetic on the entries its blocks read is `c2G` of the whole arrays at the
    array index that entry `(r, j)` of the output block is written to. -/
theorem block_eq (A0 A1 : Cert.Spec.Arr 200000 32) (A2 : Cert.Spec.Arr 1 32) (A3 : Cert.Spec.Arr 200000 32)
    (A4 : Cert.Spec.Arr 1 1) (t : Fin cfg11.N) (r : Fin 10000) (j : Fin 32) :
    (A0 (((cfg11.win 0).blk t).view.emb (ix2 r j)) + A1 (((cfg11.win 1).blk t).view.emb (ix2 r j))
        + A2 (((cfg11.win 2).blk t).view.emb (ix2 (0 : Fin 1) j)) + A3 (((cfg11.win 3).blk t).view.emb (ix2 r j)))
      * A4 (((cfg11.win 4).blk t).view.emb (ix2 (0 : Fin 1) (0 : Fin 1)))
    = Cert.Spec.c2G A0 A1 A2 A3 A4 (((cfg11.win 5).blk t).view.emb (ix2 r j)) := by
  rw [emb0, emb1, emb2, emb3, emb4, emb5]
  rfl

/-- The body's arithmetic respects equality of its five arguments. -/
theorem combine_congr {a0 a1 a2 a3 a4 b0 b1 b2 b3 b4 : EReal} (h0 : a0 = b0) (h1 : a1 = b1) (h2 : a2 = b2)
    (h3 : a3 = b3) (h4 : a4 = b4) : (a0 + a1 + a2 + a3) * a4 = (b0 + b1 + b2 + b3) * b4 := by
  rw [h0, h1, h2, h3, h4]

/-! ## What a point writes back, and the array after the stage -/

section Final

variable (V : (c : Dev nD) → (b : Ref sig .tc) → Buf (Elt Ideal) ((c : Thread nD τ).loc b))

/-- An input block read at an entry is the array read at that entry's place in the array (first row block). -/
theorem read0 (c : Dev nD) (t : Fin cfg11.N) (r : Fin 10000) (j : Fin 32) :
    GenP.iblk11 (F := Ideal) V c 0 t (ix2 r j)
      = V c (Pipeline.arrRef spec11 0) (((cfg11.win 0).blk t).view.emb (ix2 r j)) := rfl

/-- The same for the second row block. -/
theorem read1 (c : Dev nD) (t : Fin cfg11.N) (r : Fin 10000) (j : Fin 32) :
    GenP.iblk11 (F := Ideal) V c 1 t (ix2 r j)
      = V c (Pipeline.arrRef spec11 1) (((cfg11.win 1).blk t).view.emb (ix2 r j)) := rfl

/-- The same for the bias row. -/
theorem read2 (c : Dev nD) (t : Fin cfg11.N) (j : Fin 32) :
    GenP.iblk11 (F := Ideal) V c 2 t (ix2 (0 : Fin 1) j)
      = V c (Pipeline.arrRef spec11 2) (((cfg11.win 2).blk t).view.emb (ix2 (0 : Fin 1) j)) := rfl

/-- The same for the third row block. -/
theorem read3 (c : Dev nD) (t : Fin cfg11.N) (r : Fin 10000) (j : Fin 32) :
    GenP.iblk11 (F := Ideal) V c 3 t (ix2 r j)
      = V c (Pipeline.arrRef spec11 3) (((cfg11.win 3).blk t).view.emb (ix2 r j)) := rfl

/-- The same for the scale. -/
theorem read4 (c : Dev nD) (t : Fin cfg11.N) :
    GenP.iblk11 (F := Ideal) V c 4 t (ix2 (0 : Fin 1) (0 : Fin 1))
      = V c (Pipeline.arrRef spec11 4) (((cfg11.win 4).blk t).view.emb (ix2 (0 : Fin 1) (0 : Fin 1))) := rfl

/-- A whole array read through the output block at an entry is the array at that entry's place. -/
theorem read5 (G : Cert.Spec.Arr 200000 32) (t : Fin cfg11.N) (r : Fin 10000) (j : Fin 32) :
    ((cfg11.win 5).blk t).view.read (Elt Ideal) G (ix2 r j) = G (((cfg11.win 5).blk t).view.emb (ix2 r j)) := rfl

/-- What point `t` writes back is block `t` of `c2G` of the five input arrays as the stage finds them. -/
theorem flushed_eq (c : Dev nD) (t : Fin cfg11.N) :
    (GenP.dat11 (F := Ideal) V c).flushed 5 t
      = ((cfg11.win 5).blk t).view.read (Elt Ideal)
          (Cert.Spec.c2G (V c (Pipeline.arrRef spec11 0)) (V c (Pipeline.arrRef spec11 1)) (V c (Pipeline.arrRef spec11 2))
            (V c (Pipeline.arrRef spec11 3)) (V c (Pipeline.arrRef spec11 4))) := by
  show (cfg11.win 5).cut (grid11.coords t) ((GenP.dat11 (F := Ideal) V c).after 5 t) = _
  rw [GenP.after11_5]
  unfold GenP.out11_5
  rw [View.canon_unit_zero zero_off]
  simp only [View.ld_unit_zero (S := S10000x32) zero_off, View.ld_unit_zero (S := S1x32) zero_off,
    View.ld_unit_zero (S := S1x1) zero_off]
  funext y
  obtain ⟨r, j, rfl⟩ : ∃ (r : Fin 10000) (j : Fin 32), y = ix2 r j := ⟨y 0, y 1, eq_ix2 y⟩
  refine ((pay_apply (GenP.iblk11 V c 0 t) (GenP.iblk11 V c 1 t) (GenP.iblk11 V c 2 t) (GenP.iblk11 V c 3 t)
    (GenP.iblk11 V c 4 t) r j).trans ?_).trans (read5 _ t r j).symm
  refine (combine_congr (read0 V c t r j) (read1 V c t r j) (read2 V c t j) (read3 V c t r j) (read4 V c t)).trans ?_
  exact block_eq (V c (Pipeline.arrRef spec11 0)) (V c (Pipeline.arrRef spec11 1)) (V c (Pipeline.arrRef spec11 2))
    (V c (Pipeline.arrRef spec11 3)) (V c (Pipeline.arrRef spec11 4)) t r j

/-- The output array after the stage is `c2G` of the five input arrays as the stage found them. -/
theorem arr_eq (c : Dev nD) :
    (GenP.dat11 (F := Ideal) V c).arrAt 5 cfg11.N
      = Cert.Spec.c2G (V c (Pipeline.arrRef spec11 0)) (V c (Pipeline.arrRef spec11 1)) (V c (Pipeline.arrRef spec11 2))
          (V c (Pipeline.arrRef spec11 3)) (V c (Pipeline.arrRef spec11 4)) :=
  (GenP.dat11 (F := Ideal) V c).arrAt_eq_of_cover 5 _ (fun t _ => flushed_eq V c t) cover

end Final

end Cert.KernelIdeal.Combine2R11

end
-- ==== Proof.Bridge11.lean ====
import proofs.«135273_j69758858821831_1_alg».proof.Proof.KernelIdealFrameP
import proofs.«135273_j69758858821831_1_alg».proof.Proof.RefReadP
import proofs.«135273_j69758858821831_1_alg».proof.Proof.Bridge10
import proofs.«135273_j69758858821831_1_alg».proof.Proof.Combine2R11
import proofs.«135273_j69758858821831_1_alg».proof.Proof.RefStages

/-!
# Boundary 22 to boundary 24: host stretch 11 and region 11

Each buffer the idealized kernel holds at a boundary is stated as the reference's stage of the same operation on the same
operands (or, for the few buffers only the kernel has — a bias as a one-row matrix, the reciprocal of a layer's scalar —
as that operation of reference stages). A buffer no operation of a stretch writes, and no window of a region names,
keeps its contents across it. The region's output is the specification's function of its input arrays, which is the
reference's stage.
-/

set_option maxRecDepth 16384

noncomputable section

namespace Cert.Bridge

open Cert.KernelIdeal Cert.KernelIdeal.Gen Cert.KernelIdeal.GenP
open Idealize.ShloMosaic Idealize.ShloMosaic.TcCoe Idealize.SL.Sem

variable (m : (ℓ : Loc nD τ sig) → Buf (Elt Ideal) ℓ) (ρ : Dev nD → PrngReg) (c : Dev nD)

theorem at_arg2_22 : W22 m ρ c (Proc.devRef .tc main_arg2) = (m ((c : Thread nD τ).loc main_arg2)) :=
  (W22_of_ne m ρ c main_arg2 (by decide)).trans (at_arg2_21 m ρ c)
theorem at_arg3_22 : W22 m ρ c (Proc.devRef .tc main_arg3) = (m ((c : Thread nD τ).loc main_arg3)) :=
  (W22_of_ne m ρ c main_arg3 (by decide)).trans (at_arg3_21 m ρ c)
theorem at_v259_22 : W22 m ρ c (Proc.devRef .tc main_v259) = (Cert.ReferenceIdeal.ReadP.val_main_v275 (F := Ideal) (m ((c : Thread nD τ).loc main_arg1))) :=
  (W22_of_ne m ρ c main_v259 (by decide)).trans (at_v259_21 m ρ c)
theorem at_v282_22 : W22 m ρ c (Proc.devRef .tc main_v282) = (Cert.ReferenceIdeal.ReadP.val_main_v308 (F := Ideal) (m ((c : Thread nD τ).loc main_arg1))) :=
  (W22_of_ne m ρ c main_v282 (by decide)).trans (at_v282_21 m ρ c)
theorem at_v257_22 : W22 m ρ c (Proc.devRef .tc main_v257) = (Cert.ReferenceIdeal.ReadP.val_main_v277 (F := Ideal) (m ((c : Thread nD τ).loc main_arg1))) :=
  (W22_of_ne m ρ c main_v257 (by decide)).trans (at_v257_21 m ρ c)
theorem at_v284_22 : W22 m ρ c (Proc.devRef .tc main_v284) = (Cert.ReferenceIdeal.ReadP.val_main_v310 (F := Ideal) (m ((c : Thread nD τ).loc main_arg1))) :=
  (W22_of_ne m ρ c main_v284 (by decide)).trans (at_v284_21 m ρ c)
theorem at_v253_22 (hd1 : Cert.ReferenceIdeal.ReadP.val_main_v172 (F := Ideal) (m ((c : Thread nD τ).loc main_arg3)) ValueIdx.ix0 ≠ (0 : EReal)) (hd2 : Cert.ReferenceIdeal.ReadP.val_main_v269 (F := Ideal) (m ((c : Thread nD τ).loc main_arg3)) ValueIdx.ix0 ≠ (0 : EReal)) : W22 m ρ c (Proc.devRef .tc main_v253) = (Cert.ReferenceIdeal.ReadP.val_main_v271 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (W22_of_ne m ρ c main_v253 (by decide)).trans (at_v253_21 m ρ c hd1 hd2)
theorem at_v294_22 : W22 m ρ c (Proc.devRef .tc main_v294) = (shapeCast _ (Cert.ReferenceIdeal.ReadP.val_main_v285 (F := Ideal) (m ((c : Thread nD τ).loc main_arg7))) shapeCasts_S32_S1x32) :=
  (W22_of_ne m ρ c main_v294 (by decide)).trans (at_v294_21 m ρ c)
theorem at_arg9_22 : W22 m ρ c (Proc.devRef .tc main_arg9) = (m ((c : Thread nD τ).loc main_arg9)) :=
  (W22_of_ne m ρ c main_arg9 (by decide)).trans (at_arg9_21 m ρ c)
theorem at_arg11_22 : W22 m ρ c (Proc.devRef .tc main_arg11) = (m ((c : Thread nD τ).loc main_arg11)) :=
  (W22_of_ne m ρ c main_arg11 (by decide)).trans (at_arg11_21 m ρ c)
theorem at_arg8_22 : W22 m ρ c (Proc.devRef .tc main_arg8) = (m ((c : Thread nD τ).loc main_arg8)) :=
  (W22_of_ne m ρ c main_arg8 (by decide)).trans (at_arg8_21 m ρ c)
theorem at_arg10_22 : W22 m ρ c (Proc.devRef .tc main_arg10) = (m ((c : Thread nD τ).loc main_arg10)) :=
  (W22_of_ne m ρ c main_arg10 (by decide)).trans (at_arg10_21 m ρ c)
theorem at_v322_23 : W23 m ρ c (Proc.devRef .tc main_v322) = (Cert.ReferenceIdeal.ReadP.val_main_v343 (F := Ideal) (m ((c : Thread nD τ).loc main_arg0)) (m ((c : Thread nD τ).loc main_arg1)) (m ((c : Thread nD τ).loc main_arg4)) (m ((c : Thread nD τ).loc main_arg5)) (m ((c : Thread nD τ).loc main_arg6))) := by
  show StableHlo.after hostOps11 (W22 m ρ c) (Proc.devRef .tc main_v322) = _
  after_results_simp
  rw [at_v257_22 m ρ c, at_v310_22 m ρ c, at_v259_22 m ρ c, at_v282_22 m ρ c]
  rfl
theorem at_v324_23 : W23 m ρ c (Proc.devRef .tc main_v324) = (Cert.ReferenceIdeal.ReadP.val_main_v345 (F := Ideal) (m ((c : Thread nD τ).loc main_arg0)) (m ((c : Thread nD τ).loc main_arg1)) (m ((c : Thread nD τ).loc main_arg4)) (m ((c : Thread nD τ).loc main_arg5)) (m ((c : Thread nD τ).loc main_arg6))) := by
  show StableHlo.after hostOps11 (W22 m ρ c) (Proc.devRef .tc main_v324) = _
  after_results_simp
  rw [at_v310_22 m ρ c, at_v284_22 m ρ c]
  rfl
theorem at_v338_23 (hd1 : Cert.ReferenceIdeal.ReadP.val_main_v172 (F := Ideal) (m ((c : Thread nD τ).loc main_arg3)) ValueIdx.ix0 ≠ (0 : EReal)) (hd2 : Cert.ReferenceIdeal.ReadP.val_main_v269 (F := Ideal) (m ((c : Thread nD τ).loc main_arg3)) ValueIdx.ix0 ≠ (0 : EReal)) : W23 m ρ c (Proc.devRef .tc main_v338) = (Cert.ReferenceIdeal.ReadP.val_main_v363 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  show StableHlo.after hostOps11 (W22 m ρ c) (Proc.devRef .tc main_v338) = _
  after_results_simp
  rw [at_arg2_22 m ρ c, at_v253_22 m ρ c hd1 hd2]
  rfl
theorem at_v342_23 : W23 m ρ c (Proc.devRef .tc main_v342) = (shapeCast _ (Host.divf (F := Ideal) (φ := .f32) (Cert.ReferenceIdeal.ReadP.val_main_cst (F := Ideal)) (Cert.ReferenceIdeal.ReadP.val_main_v366 (F := Ideal) (m ((c : Thread nD τ).loc main_arg3)))) shapeCasts_S_S1x1) := by
  show StableHlo.after hostOps11 (W22 m ρ c) (Proc.devRef .tc main_v342) = _
  after_results_simp
  rw [at_arg3_22 m ρ c]
  rfl
theorem at_v294_23 : W23 m ρ c (Proc.devRef .tc main_v294) = (shapeCast _ (Cert.ReferenceIdeal.ReadP.val_main_v285 (F := Ideal) (m ((c : Thread nD τ).loc main_arg7))) shapeCasts_S32_S1x32) :=
  (StableHlo.after_of_forall_not_mem (b := Proc.devRef .tc main_v294) _ _ (List.forall_iff_forall_mem.mp (by
      simp only [hostOps11, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v294_22 m ρ c)
theorem at_arg9_23 : W23 m ρ c (Proc.devRef .tc main_arg9) = (m ((c : Thread nD τ).loc main_arg9)) :=
  (StableHlo.after_of_forall_not_mem (b := Proc.devRef .tc main_arg9) _ _ (List.forall_iff_forall_mem.mp (by
      simp only [hostOps11, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg9_22 m ρ c)
theorem at_arg11_23 : W23 m ρ c (Proc.devRef .tc main_arg11) = (m ((c : Thread nD τ).loc main_arg11)) :=
  (StableHlo.after_of_forall_not_mem (b := Proc.devRef .tc main_arg11) _ _ (List.forall_iff_forall_mem.mp (by
      simp only [hostOps11, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg11_22 m ρ c)
theorem at_arg8_23 : W23 m ρ c (Proc.devRef .tc main_arg8) = (m ((c : Thread nD τ).loc main_arg8)) :=
  (StableHlo.after_of_forall_not_mem (b := Proc.devRef .tc main_arg8) _ _ (List.forall_iff_forall_mem.mp (by
      simp only [hostOps11, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg8_22 m ρ c)
theorem at_arg10_23 : W23 m ρ c (Proc.devRef .tc main_arg10) = (m ((c : Thread nD τ).loc main_arg10)) :=
  (StableHlo.after_of_forall_not_mem (b := Proc.devRef .tc main_arg10) _ _ (List.forall_iff_forall_mem.mp (by
      simp only [hostOps11, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg10_22 m ρ c)
theorem at_v343_24 (hd1 : Cert.ReferenceIdeal.ReadP.val_main_v172 (F := Ideal) (m ((c : Thread nD τ).loc main_arg3)) ValueIdx.ix0 ≠ (0 : EReal)) (hd2 : Cert.ReferenceIdeal.ReadP.val_main_v269 (F := Ideal) (m ((c : Thread nD τ).loc main_arg3)) ValueIdx.ix0 ≠ (0 : EReal)) (hd3 : Cert.ReferenceIdeal.ReadP.val_main_v366 (F := Ideal) (m ((c : Thread nD τ).loc main_arg3)) ValueIdx.ix0 ≠ (0 : EReal)) : W24 m ρ c (Proc.devRef .tc main_v343) = (Cert.ReferenceIdeal.ReadP.val_main_v368 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W24_arr m ρ c 5).trans ?_
  rw [Cert.KernelIdeal.Combine2R11.arr_eq]
  rw [show V23 m ρ c (Pipeline.arrRef spec11 0) = _ from at_v322_23 m ρ c,
    show V23 m ρ c (Pipeline.arrRef spec11 1) = _ from at_v324_23 m ρ c,
    show V23 m ρ c (Pipeline.arrRef spec11 2) = _ from at_v294_23 m ρ c,
    show V23 m ρ c (Pipeline.arrRef spec11 3) = _ from at_v338_23 m ρ c hd1 hd2,
    show V23 m ρ c (Pipeline.arrRef spec11 4) = _ from at_v342_23 m ρ c]
  exact (Cert.ReferenceIdeal.Stages.stage_main_v368 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) shapeCasts_S32_S1x32 shapeCasts_S_S1x1 hd3).symm

end Cert.Bridge

end
-- ==== Proof.FinalR12.lean ====
import proofs.«135273_j69758858821831_1_alg».proof.Proof.KernelIdealFrameP
import proofs.«135273_j69758858821831_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.FinalR12

open Cert.KernelIdeal Cert.KernelIdeal.Gen Cert.KernelIdeal.GenP
open Idealize.ShloMosaic Idealize.ShloMosaic.TcCoe Idealize.SL.Sem
open Idealize.ShloMosaic.ValueIdx
open Idealize.ShloMosaic.Pipeline (Dat)

/-!
# The closing perceptron, from blocks to the whole array

The last region maps each block of 10000 rows through two rectified affine maps, `32 → 64 → 32`. Read at one
element, the block's result is the specification's formula over the block's inputs; each input block is the
restriction of its array to the rows the grid point owns (the weights and biases are whole at every point); the
twenty row blocks tile the 200000 rows. So the array the region leaves is the specification's function of the
arrays it found.
-/

/-- The zero offsets of a whole-block access, as a constant function. -/
theorem zero_offsets : (![0, 0] : Fin 2 → Nat) = fun _ => 0 := funext fun a => by fin_cases a <;> rfl

/-! ## One element of the block's result -/

/-- The first product's left operand is read at the output's row … -/
theorem hidden_product_lhs_row (i : S10000x64.Idx) (q : dot_S10000x32_S32x64_S10000x64_1_0_0_1_n_n.contr.Idx) : (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
/-- … and at the contraction position on its second axis; -/
theorem hidden_product_lhs_contr (i : S10000x64.Idx) (q : dot_S10000x32_S32x64_S10000x64_1_0_0_1_n_n.contr.Idx) : (dot_S10000x32_S32x64_S10000x64_1_0_0_1_n_n.lhsIdx i q 1).val = (q ⟨0, by decide⟩).val :=
  dot_S10000x32_S32x64_S10000x64_1_0_0_1_n_n.lhsIdx_val_of_single rfl i q
/-- the right operand at the contraction position on its first axis … -/
theorem hidden_product_rhs_contr (i : S10000x64.Idx) (q : dot_S10000x32_S32x64_S10000x64_1_0_0_1_n_n.contr.Idx) : (dot_S10000x32_S32x64_S10000x64_1_0_0_1_n_n.rhsIdx i q 0).val = (q ⟨0, by decide⟩).val :=
  dot_S10000x32_S32x64_S10000x64_1_0_0_1_n_n.rhsIdx_val_of_single rfl i q
/-- … and at the output's column. -/
theorem hidden_product_rhs_col (i : S10000x64.Idx) (q : dot_S10000x32_S32x64_S10000x64_1_0_0_1_n_n.contr.Idx) : (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-- The first product into a zero accumulator, at row `r` and hidden unit `j`: the sum over the 32 input features. -/
theorem hidden_product_apply (a : FVec Ideal S10000x32 .bf16) (b : FVec Ideal S32x64 .bf16) (r : Fin 10000) (j : Fin 64) :
    FloatOps.matmul dot_S10000x32_S32x64_S10000x64_1_0_0_1_n_n none a b (constant (F := Ideal) S10000x64 .f32 0x00000000#32) (ix2 r j)
      = ∑ k : Fin 32, a (ix2 r k) * b (ix2 k j) := by
  rw [Ideal.matmul_constant_zero_apply, ← Equiv.sum_comp (ValueIdx.contrEquiv1 dot_S10000x32_S32x64_S10000x64_1_0_0_1_n_n 32 rfl rfl).symm]
  refine Finset.sum_congr rfl fun k _ => ?_
  have hk := ValueIdx.contrEquiv1_symm_val dot_S10000x32_S32x64_S10000x64_1_0_0_1_n_n 32 rfl rfl k
  have el : dot_S10000x32_S32x64_S10000x64_1_0_0_1_n_n.lhsIdx (ix2 r j) ((ValueIdx.contrEquiv1 dot_S10000x32_S32x64_S10000x64_1_0_0_1_n_n 32 rfl rfl).symm k) = ix2 r k := funext fun d => Fin.ext (by
    match d with
    | ⟨0, _⟩ => exact hidden_product_lhs_row _ _
    | ⟨1, _⟩ => exact (hidden_product_lhs_contr _ _).trans hk)
  have er : dot_S10000x32_S32x64_S10000x64_1_0_0_1_n_n.rhsIdx (ix2 r j) ((ValueIdx.contrEquiv1 dot_S10000x32_S32x64_S10000x64_1_0_0_1_n_n 32 rfl rfl).symm k) = ix2 k j := funext fun d => Fin.ext (by
    match d with
    | ⟨0, _⟩ => exact (hidden_product_rhs_contr _ _).trans hk
    | ⟨1, _⟩ => exact hidden_product_rhs_col _ _)
  rw [el, er]

/-- The second product's left operand is read at the output's row … -/
theorem output_product_lhs_row (i : S10000x32.Idx) (q : dot_S10000x64_S64x32_S10000x32_1_0_0_1_n_n.contr.Idx) : (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
/-- … and at the contraction position on its second axis; -/
theorem output_product_lhs_contr (i : S10000x32.Idx) (q : dot_S10000x64_S64x32_S10000x32_1_0_0_1_n_n.contr.Idx) : (dot_S10000x64_S64x32_S10000x32_1_0_0_1_n_n.lhsIdx i q 1).val = (q ⟨0, by decide⟩).val :=
  dot_S10000x64_S64x32_S10000x32_1_0_0_1_n_n.lhsIdx_val_of_single rfl i q
/-- the right operand at the contraction position on its first axis … -/
theorem output_product_rhs_contr (i : S10000x32.Idx) (q : dot_S10000x64_S64x32_S10000x32_1_0_0_1_n_n.contr.Idx) : (dot_S10000x64_S64x32_S10000x32_1_0_0_1_n_n.rhsIdx i q 0).val = (q ⟨0, by decide⟩).val :=
  dot_S10000x64_S64x32_S10000x32_1_0_0_1_n_n.rhsIdx_val_of_single rfl i q
/-- … and at the output's column. -/
theorem output_product_rhs_col (i : S10000x32.Idx) (q : dot_S10000x64_S64x32_S10000x32_1_0_0_1_n_n.contr.Idx) : (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- The second product into a zero accumulator, at row `r` and output column `j`: the sum over the 64 hidden units. -/
theorem output_product_apply (a : FVec Ideal S10000x64 .bf16) (b : FVec Ideal S64x32 .bf16) (r : Fin 10000) (j : Fin 32) :
    FloatOps.matmul dot_S10000x64_S64x32_S10000x32_1_0_0_1_n_n none a b (constant (F := Ideal) S10000x32 .f32 0x00000000#32) (ix2 r j)
      = ∑ k : Fin 64, a (ix2 r k) * b (ix2 k j) := by
  rw [Ideal.matmul_constant_zero_apply, ← Equiv.sum_comp (ValueIdx.contrEquiv1 dot_S10000x64_S64x32_S10000x32_1_0_0_1_n_n 64 rfl rfl).symm]
  refine Finset.sum_congr rfl fun k _ => ?_
  have hk := ValueIdx.contrEquiv1_symm_val dot_S10000x64_S64x32_S10000x32_1_0_0_1_n_n 64 rfl rfl k
  have el : dot_S10000x64_S64x32_S10000x32_1_0_0_1_n_n.lhsIdx (ix2 r j) ((ValueIdx.contrEquiv1 dot_S10000x64_S64x32_S10000x32_1_0_0_1_n_n 64 rfl rfl).symm k) = ix2 r k := funext fun d => Fin.ext (by
    match d with
    | ⟨0, _⟩ => exact output_product_lhs_row _ _
    | ⟨1, _⟩ => exact (output_product_lhs_contr _ _).trans hk)
  have er : dot_S10000x64_S64x32_S10000x32_1_0_0_1_n_n.rhsIdx (ix2 r j) ((ValueIdx.contrEquiv1 dot_S10000x64_S64x32_S10000x32_1_0_0_1_n_n 64 rfl rfl).symm k) = ix2 k j := funext fun d => Fin.ext (by
    match d with
    | ⟨0, _⟩ => exact (output_product_rhs_contr _ _).trans hk
    | ⟨1, _⟩ => exact output_product_rhs_col _ _)
  rw [el, er]

/-- The hidden layer's bias row, repeated down the rows, reads its one row. -/
theorem hidden_bias_apply {α : Type} (b : S1x64.Idx → α) (r : Fin 10000) (j : Fin 64) :
    broadcastTo S10000x64 b broadcasts_S1x64_S10000x64 (ix2 r j) = b (ix2 0 j) :=
  broadcastTo_apply b broadcasts_S1x64_S10000x64 (ix2 r j) (ix2 0 j) (fun a => match a with
    | ⟨0, _⟩ => by show (0 : Nat) = if (1 : Nat) = 1 then 0 else r.val; rw [if_pos rfl]
    | ⟨1, _⟩ => by show j.val = if (64 : Nat) = 1 then 0 else j.val; rw [if_neg (by decide)])

/-- The output layer's bias row, repeated down the rows, reads its one row. -/
theorem output_bias_apply {α : Type} (b : S1x32.Idx → α) (r : Fin 10000) (j : Fin 32) :
    broadcastTo S10000x32 b broadcasts_S1x32_S10000x32 (ix2 r j) = b (ix2 0 j) :=
  broadcastTo_apply b broadcasts_S1x32_S10000x32 (ix2 r j) (ix2 0 j) (fun a => match a with
    | ⟨0, _⟩ => by show (0 : Nat) = if (1 : Nat) = 1 then 0 else r.val; rw [if_pos rfl]
    | ⟨1, _⟩ => by show j.val = if (32 : Nat) = 1 then 0 else j.val; rw [if_neg (by decide)])

/-- One element of the block's result: two rectified affine maps of row `r`, read at output column `j`. The
    casts to the same shape and the format changes are the identity on extended reals. -/
theorem perceptron_apply (x0 : Vec Ideal S10000x32 .f32) (x1 : Vec Ideal S32x64 .f32) (x2 : Vec Ideal S1x64 .f32)
    (x3 : Vec Ideal S64x32 .f32) (x4 : Vec Ideal S1x32 .f32) (r : Fin 10000) (j : Fin 32) :
    Gen.k12_pay1 (F := Ideal) x0 x1 x2 x3 x4 (ix2 r j)
      = max ((∑ k : Fin 64, max ((∑ l : Fin 32, x0 (ix2 r l) * x1 (ix2 l k)) + x2 (ix2 0 k)) 0 * x3 (ix2 k j))
          + x4 (ix2 0 j)) 0 := by
  unfold Gen.k12_pay1
  simp only [shapeCast_self, matmul, maximumf_apply, addf_apply, broadcast_apply, truncf_apply,
    output_product_apply, hidden_product_apply, hidden_bias_apply, output_bias_apply]
  rw [show (Scalar.ofBits (F := Ideal) .f32 0x00000000#32) = (0 : EReal) from Ideal.ofBits_zero_f32]

/-! ## One block of the result -/

/-- A block's result is the specification's function of the arrays, wherever the block's inputs are the arrays'
    entries: the row block `x0` holds rows `n * 10000 + r` of `a0`, the weights and biases are the arrays
    themselves, and the element `y` of the block sits at `i` in the array. -/
theorem perceptron_block (x0 : Vec Ideal S10000x32 .f32) (x1 : Vec Ideal S32x64 .f32) (x2 : Vec Ideal S1x64 .f32)
    (x3 : Vec Ideal S64x32 .f32) (x4 : Vec Ideal S1x32 .f32)
    (a0 : Cert.Spec.Arr 200000 32) (a1 : Cert.Spec.Arr 32 64) (a2 : Cert.Spec.Arr 1 64) (a3 : Cert.Spec.Arr 64 32)
    (a4 : Cert.Spec.Arr 1 32) (n : Nat)
    (h0 : ∀ (r : Fin 10000) (l : Fin 32) (p : Fin 200000), p.val = n * 10000 + r.val → x0 (ix2 r l) = a0 (ix2 p l))
    (h1 : ∀ (l : Fin 32) (k : Fin 64), x1 (ix2 l k) = a1 (ix2 l k))
    (h2 : ∀ k : Fin 64, x2 (ix2 0 k) = a2 (ix2 0 k))
    (h3 : ∀ (k : Fin 64) (j : Fin 32), x3 (ix2 k j) = a3 (ix2 k j))
    (h4 : ∀ j : Fin 32, x4 (ix2 0 j) = a4 (ix2 0 j))
    (y : S10000x32.Idx) (i : S200000x32.Idx)
    (hi0 : (i 0).val = n * 10000 + (y 0).val) (hi1 : (i 1).val = (y 1).val) :
    Gen.k12_pay1 (F := Ideal) x0 x1 x2 x3 x4 y = Cert.Spec.finG a0 a1 a2 a3 a4 i := by
  obtain ⟨r, j, rfl⟩ : ∃ (r : Fin 10000) (j : Fin 32), y = ix2 r j := ⟨y 0, y 1, eq_ix2 y⟩
  obtain ⟨p, q, rfl⟩ : ∃ (p : Fin 200000) (q : Fin 32), i = ix2 p q := ⟨i 0, i 1, eq_ix2 i⟩
  have hp : p.val = n * 10000 + r.val := hi0
  have hq : q = j := Fin.ext hi1
  subst hq
  rw [perceptron_apply]
  show _ = max ((∑ k : Fin 64, max ((∑ l : Fin 32, a0 (ix2 p l) * a1 (ix2 l k)) + a2 (ix2 0 k)) 0 * a3 (ix2 k q))
      + a4 (ix2 0 q)) 0
  simp only [fun l => h0 r l p hp, h1, h2, h3, h4]

/-! ## The grid's index maps -/

/-- The index maps over the twenty grid points: the row-tiled windows (input rows, output rows) sit at block
    `(t, 0)`, the weights and biases at block `(0, 0)`. -/
theorem block_indices : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = t.val ∧ win12_5.index t (1 : Fin 2) = 0 :=
  (by decide +kernel : ∀ t : Fin grid12.N, _)

/-! ## The input blocks are the arrays' entries -/

/-- Point `t`'s block of input rows holds rows `t * 10000 + r` of the input array. -/
theorem input_rows_apply (V : (c : Dev nD) → (b : Ref sig .tc) → Buf (Elt Ideal) ((c : Thread nD τ).loc b)) (c : Dev nD) (t : Fin cfg12.N) (r : Fin 10000) (l : Fin 32) (p : Fin 200000) (hp : p.val = t.val * 10000 + r.val) :
    GenP.iblk12 (F := Ideal) V c 0 t (ix2 r l) = V c (Pipeline.arrRef spec12 0) (ix2 p l) := by
  obtain ⟨e00, e01, -⟩ := block_indices t
  show V c (Pipeline.arrRef spec12 0) (((cfg12.win 0).blk t).view.emb (ix2 r l)) = V c (Pipeline.arrRef spec12 0) (ix2 p l)
  refine congrArg (V c (Pipeline.arrRef spec12 0)) (funext fun a => Fin.ext ?_)
  match a with
  | ⟨0, _⟩ => show win12_0.index t (0 : Fin 2) * 10000 + 1 * r.val = p.val; rw [e00]; omega
  | ⟨1, _⟩ => show win12_0.index t (1 : Fin 2) * 32 + 1 * l.val = l.val; rw [e01]; omega

/-- At every point the first weight matrix is staged whole. -/
theorem hidden_weights_apply (V : (c : Dev nD) → (b : Ref sig .tc) → Buf (Elt Ideal) ((c : Thread nD τ).loc b)) (c : Dev nD) (t : Fin cfg12.N) (l : Fin 32) (k : Fin 64) :
    GenP.iblk12 (F := Ideal) V c 1 t (ix2 l k) = V c (Pipeline.arrRef spec12 1) (ix2 l k) := by
  obtain ⟨-, -, e10, e11, -⟩ := block_indices t
  show V c (Pipeline.arrRef spec12 1) (((cfg12.win 1).blk t).view.emb (ix2 l k)) = V c (Pipeline.arrRef spec12 1) (ix2 l k)
  refine congrArg (V c (Pipeline.arrRef spec12 1)) (funext fun a => Fin.ext ?_)
  match a with
  | ⟨0, _⟩ => show win12_1.index t (0 : Fin 2) * 32 + 1 * l.val = l.val; rw [e10]; omega
  | ⟨1, _⟩ => show win12_1.index t (1 : Fin 2) * 64 + 1 * k.val = k.val; rw [e11]; omega

/-- At every point the first bias row is staged whole. -/
theorem hidden_bias_block_apply (V : (c : Dev nD) → (b : Ref sig .tc) → Buf (Elt Ideal) ((c : Thread nD τ).loc b)) (c : Dev nD) (t : Fin cfg12.N) (k : Fin 64) :
    GenP.iblk12 (F := Ideal) V c 2 t (ix2 0 k) = V c (Pipeline.arrRef spec12 2) (ix2 0 k) := by
  obtain ⟨-, -, -, -, e20, e21, -⟩ := block_indices t
  show V c (Pipeline.arrRef spec12 2) (((cfg12.win 2).blk t).view.emb (ix2 0 k)) = V c (Pipeline.arrRef spec12 2) (ix2 0 k)
  refine congrArg (V c (Pipeline.arrRef spec12 2)) (funext fun a => Fin.ext ?_)
  match a with
  | ⟨0, _⟩ => show win12_2.index t (0 : Fin 2) * 1 + 1 * 0 = 0; rw [e20]
  | ⟨1, _⟩ => show win12_2.index t (1 : Fin 2) * 64 + 1 * k.val = k.val; rw [e21]; omega

/-- At every point the second weight matrix is staged whole. -/
theorem output_weights_apply (V : (c : Dev nD) → (b : Ref sig .tc) → Buf (Elt Ideal) ((c : Thread nD τ).loc b)) (c : Dev nD) (t : Fin cfg12.N) (k : Fin 64) (j : Fin 32) :
    GenP.iblk12 (F := Ideal) V c 3 t (ix2 k j) = V c (Pipeline.arrRef spec12 3) (ix2 k j) := by
  obtain ⟨-, -, -, -, -, -, e30, e31, -⟩ := block_indices t
  show V c (Pipeline.arrRef spec12 3) (((cfg12.win 3).blk t).view.emb (ix2 k j)) = V c (Pipeline.arrRef spec12 3) (ix2 k j)
  refine congrArg (V c (Pipeline.arrRef spec12 3)) (funext fun a => Fin.ext ?_)
  match a with
  | ⟨0, _⟩ => show win12_3.index t (0 : Fin 2) * 64 + 1 * k.val = k.val; rw [e30]; omega
  | ⟨1, _⟩ => show win12_3.index t (1 : Fin 2) * 32 + 1 * j.val = j.val; rw [e31]; omega

/-- At every point the second bias row is staged whole. -/
theorem output_bias_block_apply (V : (c : Dev nD) → (b : Ref sig .tc) → Buf (Elt Ideal) ((c : Thread nD τ).loc b)) (c : Dev nD) (t : Fin cfg12.N) (j : Fin 32) :
    GenP.iblk12 (F := Ideal) V c 4 t (ix2 0 j) = V c (Pipeline.arrRef spec12 4) (ix2 0 j) := by
  obtain ⟨-, -, -, -, -, -, -, -, e40, e41, -⟩ := block_indices t
  show V c (Pipeline.arrRef spec12 4) (((cfg12.win 4).blk t).view.emb (ix2 0 j)) = V c (Pipeline.arrRef spec12 4) (ix2 0 j)
  refine congrArg (V c (Pipeline.arrRef spec12 4)) (funext fun a => Fin.ext ?_)
  match a with
  | ⟨0, _⟩ => show win12_4.index t (0 : Fin 2) * 1 + 1 * 0 = 0; rw [e40]
  | ⟨1, _⟩ => show win12_4.index t (1 : Fin 2) * 32 + 1 * j.val = j.val; rw [e41]; omega

/-- An element `y` of point `t`'s output block sits in the array at row `t * 10000 + y 0`, column `y 1`. -/
theorem output_block_position (t : Fin cfg12.N) (y : S10000x32.Idx) :
    ((((cfg12.win 5).blk t).view.emb y : S200000x32.Idx) 0).val = t.val * 10000 + (y 0).val
    ∧ ((((cfg12.win 5).blk t).view.emb y : S200000x32.Idx) 1).val = (y 1).val := by
  obtain ⟨-, -, -, -, -, -, -, -, -, -, e50, e51⟩ := block_indices t
  constructor
  · show win12_5.index t (0 : Fin 2) * 10000 + 1 * (y 0).val = t.val * 10000 + (y 0).val
    rw [e50]; omega
  · show win12_5.index t (1 : Fin 2) * 32 + 1 * (y 1).val = (y 1).val
    rw [e51]; omega

/-! ## What a grid point writes back -/

/-- Point `t` writes back block `t` of the specification's function of the arrays as the region found them. -/
theorem written_block (V : (c : Dev nD) → (b : Ref sig .tc) → Buf (Elt Ideal) ((c : Thread nD τ).loc b)) (c : Dev nD) (t : Fin cfg12.N) :
    (GenP.dat12 (F := Ideal) V c).flushed 5 t = ((cfg12.win 5).blk t).view.read (Elt Ideal)
      (Cert.Spec.finG (V c (Pipeline.arrRef spec12 0)) (V c (Pipeline.arrRef spec12 1))
        (V c (Pipeline.arrRef spec12 2)) (V c (Pipeline.arrRef spec12 3)) (V c (Pipeline.arrRef spec12 4))) := by
  show (cfg12.win 5).cut (grid12.coords t) ((GenP.dat12 (F := Ideal) V c).after 5 t) = _
  rw [GenP.after12_5]
  unfold GenP.out12_5
  rw [View.canon_unit_zero zero_offsets]
  simp only [View.ld_unit_zero (S := S10000x32) zero_offsets, View.ld_unit_zero (S := S32x64) zero_offsets,
    View.ld_unit_zero (S := S1x64) zero_offsets, View.ld_unit_zero (S := S64x32) zero_offsets,
    View.ld_unit_zero (S := S1x32) zero_offsets]
  funext y
  show Gen.k12_pay1 (F := Ideal) (GenP.iblk12 V c 0 t) (GenP.iblk12 V c 1 t) (GenP.iblk12 V c 2 t) (GenP.iblk12 V c 3 t)
      (GenP.iblk12 V c 4 t) y
    = Cert.Spec.finG (V c (Pipeline.arrRef spec12 0)) (V c (Pipeline.arrRef spec12 1))
        (V c (Pipeline.arrRef spec12 2)) (V c (Pipeline.arrRef spec12 3)) (V c (Pipeline.arrRef spec12 4))
        (((cfg12.win 5).blk t).view.emb y)
  exact perceptron_block _ _ _ _ _ _ _ _ _ _ t.val (input_rows_apply V c t) (hidden_weights_apply V c t)
    (hidden_bias_block_apply V c t) (output_weights_apply V c t) (output_bias_block_apply V c t) y _
    (output_block_position t y).1 (output_block_position t y).2

/-! ## The row blocks tile the array -/

/-- An index of the array is in point `t`'s block iff each coordinate is in the block's range on its axis. -/
theorem mem_row_block (t : Fin cfg12.N) (i : S200000x32.Idx) :
    i ∈ ((cfg12.win 5).blk t).view.set ↔ ∀ a : Fin 2, win12_5.index t a * S10000x32.size a ≤ (i a).val
      ∧ (i a).val < win12_5.index t a * S10000x32.size a + S10000x32.size a := by
  show i ∈ ((View.whole main_v346).slice (win12_5.rect t)).set ↔ _
  rw [View.set_slice_whole, Rect.mem_set_unit]
  exact Iff.rfl

/-- Row `n` of the array is written by grid point `n / 10000`. -/
theorem rows_covered (i : S200000x32.Idx) :
    ∃ t : Fin cfg12.N, (cfg12.win 5).flush t = true ∧ i ∈ ((cfg12.win 5).blk t).view.set := by
  have hi0 : (i 0).val < 200000 := (i 0).isLt
  have hi1 : (i 1).val < 32 := (i 1).isLt
  have ht : (i 0).val / 10000 < grid12.N := Nat.lt_of_lt_of_eq (by omega : (i 0).val / 10000 < 20) Gen.N_12.symm
  obtain ⟨-, -, -, -, -, -, -, -, -, -, e50, e51⟩ := block_indices ⟨(i 0).val / 10000, ht⟩
  refine ⟨⟨(i 0).val / 10000, ht⟩, Gen.flush12_5 _, ?_⟩
  rw [mem_row_block]
  intro a
  match a with
  | ⟨0, _⟩ =>
    show win12_5.index ⟨(i 0).val / 10000, ht⟩ (0 : Fin 2) * 10000 ≤ (i 0).val
      ∧ (i 0).val < win12_5.index ⟨(i 0).val / 10000, ht⟩ (0 : Fin 2) * 10000 + 10000
    rw [e50]; show (i 0).val / 10000 * 10000 ≤ (i 0).val ∧ (i 0).val < (i 0).val / 10000 * 10000 + 10000; omega
  | ⟨1, _⟩ =>
    show win12_5.index ⟨(i 0).val / 10000, ht⟩ (1 : Fin 2) * 32 ≤ (i 1).val
      ∧ (i 1).val < win12_5.index ⟨(i 0).val / 10000, ht⟩ (1 : Fin 2) * 32 + 32
    rw [e51]; omega

/-! ## The array the region leaves -/

/-- After the region, its output array is the specification's closing perceptron of the region's input arrays as
    the region found them. -/
theorem arr_eq (V : (c : Dev nD) → (b : Ref sig .tc) → Buf (Elt Ideal) ((c : Thread nD τ).loc b)) (c : Dev nD) :
    (GenP.dat12 (F := Ideal) V c).arrAt 5 cfg12.N = Cert.Spec.finG (V c (Pipeline.arrRef spec12 0)) (V c (Pipeline.arrRef spec12 1)) (V c (Pipeline.arrRef spec12 2)) (V c (Pipeline.arrRef spec12 3)) (V c (Pipeline.arrRef spec12 4)) :=
  (GenP.dat12 (F := Ideal) V c).arrAt_eq_of_cover 5 _ (fun t _ => written_block V c t) rows_covered

end Cert.KernelIdeal.FinalR12

end
-- ==== Proof.Bridge12.lean ====
import proofs.«135273_j69758858821831_1_alg».proof.Proof.KernelIdealFrameP
import proofs.«135273_j69758858821831_1_alg».proof.Proof.RefReadP
import proofs.«135273_j69758858821831_1_alg».proof.Proof.Bridge11
import proofs.«135273_j69758858821831_1_alg».proof.Proof.FinalR12
import proofs.«135273_j69758858821831_1_alg».proof.Proof.RefStages

/-!
# The last stretch and the closing perceptron

The reshaped biases of the perceptron, and the region's result: the reference's last stage.
-/

set_option maxRecDepth 16384

noncomputable section

namespace Cert.Bridge

open Cert.KernelIdeal Cert.KernelIdeal.Gen Cert.KernelIdeal.GenP
open Idealize.ShloMosaic Idealize.ShloMosaic.TcCoe Idealize.SL.Sem

variable (m : (ℓ : Loc nD τ sig) → Buf (Elt Ideal) ℓ) (ρ : Dev nD → PrngReg) (c : Dev nD)

theorem at_arg9_24 : W24 m ρ c (Proc.devRef .tc main_arg9) = (m ((c : Thread nD τ).loc main_arg9)) :=
  (W24_of_ne m ρ c main_arg9 (by decide)).trans (at_arg9_23 m ρ c)
theorem at_arg11_24 : W24 m ρ c (Proc.devRef .tc main_arg11) = (m ((c : Thread nD τ).loc main_arg11)) :=
  (W24_of_ne m ρ c main_arg11 (by decide)).trans (at_arg11_23 m ρ c)
theorem at_arg8_24 : W24 m ρ c (Proc.devRef .tc main_arg8) = (m ((c : Thread nD τ).loc main_arg8)) :=
  (W24_of_ne m ρ c main_arg8 (by decide)).trans (at_arg8_23 m ρ c)
theorem at_arg10_24 : W24 m ρ c (Proc.devRef .tc main_arg10) = (m ((c : Thread nD τ).loc main_arg10)) :=
  (W24_of_ne m ρ c main_arg10 (by decide)).trans (at_arg10_23 m ρ c)
theorem at_v344_25 : W25 m ρ c (Proc.devRef .tc main_v344) = (shapeCast _ (m ((c : Thread nD τ).loc main_arg9)) shapeCasts_S64_S1x64) := by
  show StableHlo.after hostOps12 (W24 m ρ c) (Proc.devRef .tc main_v344) = _
  after_results_simp
  rw [at_arg9_24 m ρ c]
  rfl
theorem at_v345_25 : W25 m ρ c (Proc.devRef .tc main_v345) = (shapeCast _ (m ((c : Thread nD τ).loc main_arg11)) shapeCasts_S32_S1x32) := by
  show StableHlo.after hostOps12 (W24 m ρ c) (Proc.devRef .tc main_v345) = _
  after_results_simp
  rw [at_arg11_24 m ρ c]
  rfl
theorem at_v343_25 (hd1 : Cert.ReferenceIdeal.ReadP.val_main_v172 (F := Ideal) (m ((c : Thread nD τ).loc main_arg3)) ValueIdx.ix0 ≠ (0 : EReal)) (hd2 : Cert.ReferenceIdeal.ReadP.val_main_v269 (F := Ideal) (m ((c : Thread nD τ).loc main_arg3)) ValueIdx.ix0 ≠ (0 : EReal)) (hd3 : Cert.ReferenceIdeal.ReadP.val_main_v366 (F := Ideal) (m ((c : Thread nD τ).loc main_arg3)) ValueIdx.ix0 ≠ (0 : EReal)) : W25 m ρ c (Proc.devRef .tc main_v343) = (Cert.ReferenceIdeal.ReadP.val_main_v368 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (StableHlo.after_of_forall_not_mem (b := Proc.devRef .tc main_v343) _ _ (List.forall_iff_forall_mem.mp (by
      simp only [hostOps12, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_v343_24 m ρ c hd1 hd2 hd3)
theorem at_arg8_25 : W25 m ρ c (Proc.devRef .tc main_arg8) = (m ((c : Thread nD τ).loc main_arg8)) :=
  (StableHlo.after_of_forall_not_mem (b := Proc.devRef .tc main_arg8) _ _ (List.forall_iff_forall_mem.mp (by
      simp only [hostOps12, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg8_24 m ρ c)
theorem at_arg10_25 : W25 m ρ c (Proc.devRef .tc main_arg10) = (m ((c : Thread nD τ).loc main_arg10)) :=
  (StableHlo.after_of_forall_not_mem (b := Proc.devRef .tc main_arg10) _ _ (List.forall_iff_forall_mem.mp (by
      simp only [hostOps12, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (at_arg10_24 m ρ c)
theorem at_v346_26 (hd1 : Cert.ReferenceIdeal.ReadP.val_main_v172 (F := Ideal) (m ((c : Thread nD τ).loc main_arg3)) ValueIdx.ix0 ≠ (0 : EReal)) (hd2 : Cert.ReferenceIdeal.ReadP.val_main_v269 (F := Ideal) (m ((c : Thread nD τ).loc main_arg3)) ValueIdx.ix0 ≠ (0 : EReal)) (hd3 : Cert.ReferenceIdeal.ReadP.val_main_v366 (F := Ideal) (m ((c : Thread nD τ).loc main_arg3)) ValueIdx.ix0 ≠ (0 : EReal)) : W26 m ρ c (Proc.devRef .tc main_v346) = (Cert.ReferenceIdeal.ReadP.val_main_v378 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  refine (W26_arr m ρ c 5).trans ?_
  rw [Cert.KernelIdeal.FinalR12.arr_eq]
  rw [show V25 m ρ c (Pipeline.arrRef spec12 0) = _ from at_v343_25 m ρ c hd1 hd2 hd3,
    show V25 m ρ c (Pipeline.arrRef spec12 1) = _ from at_arg8_25 m ρ c,
    show V25 m ρ c (Pipeline.arrRef spec12 2) = _ from at_v344_25 m ρ c,
    show V25 m ρ c (Pipeline.arrRef spec12 3) = _ from at_arg10_25 m ρ c,
    show V25 m ρ c (Pipeline.arrRef spec12 4) = _ from at_v345_25 m ρ c]
  exact (Cert.ReferenceIdeal.Stages.stage_main_v378 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) shapeCasts_S64_S1x64 shapeCasts_S32_S1x32).symm

end Cert.Bridge

end
-- ==== Proof.DegNonzero.lean ====
import proofs.«135273_j69758858821831_1_alg».proof.Defs
import proofs.«135273_j69758858821831_1_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

/-!
# The degree scalars after the first are nonzero

The precondition's last conjunct says that every entry of `deg_scalars[1:]` — entries `1, 2, 3` of the four-entry argument —
differs from zero: it is printed as "compare each entry of the slice with a vector of zeros, and take the conjunction of
the three bits". Read back: the conjunction is `1`, so each bit is `1`, so each entry differs from `0` as an extended real.
-/

noncomputable section

namespace Cert.Proof.DegNonzero

open Idealize.ShloMosaic Idealize.ShloMosaic.ValueIdx Cert.Pre_finite_inputs

/-- The scalar shape has one index. -/
instance : Subsingleton S_.Idx := ⟨fun a b => funext fun d => d.elim0⟩

section Parts

variable [Facts]
open Facts

/-- If the predicate's last stage is `1` at the scalar index, the conjunction over the three comparison bits is `1`, so
    the two compared vectors differ at every entry. -/
theorem ne_of_part3 (v48 : IVec S_ 1) (v49 v50 : FVec Ideal S3 .f32)
    (h : fn_part3 (F := Ideal) v48 v49 v50 ix0 = 1#1) (i : S3.Idx) : v49 i ≠ v50 i := by
  have hand : IntOp.andi (v48 ix0)
      (Host.reduce IntOp.andi (cmpf .une v49 v50) (constantI S_ 1 1#1) reducesTo_S3_S_d0 h_S_ ix0) = 1#1 := h
  have h2 : Host.reduce IntOp.andi (cmpf .une v49 v50) (constantI S_ 1 1#1) reducesTo_S3_S_d0 h_S_ ix0 = 1#1 :=
    (IntOp.andi_eq_one.1 hand).2
  have h3 : Ideal.cmp .une (v49 i) (v50 i) = 1#1 := Host.reduce_andi_all _ _ _ _ ix0 h2 i
  intro heq
  rw [heq] at h3
  have h0 : Ideal.cmp .une (v50 i) (v50 i) = 0#1 := by simp [Ideal.cmp]
  rw [h0] at h3
  exact absurd h3 (by decide)

/-- Entry `k` of the slice `[1:4]` of a four-entry vector is its entry `k + 1`. -/
theorem slice_read (a : FVec Ideal S4 .f32) (k : Fin 3) :
    extractStridedSlice S3 ![1] a slices_S4_S3_1 (ix1 k) = a (ix1 (⟨k.val + 1, by omega⟩ : Fin 4)) :=
  extractStridedSlice_apply ![1] a slices_S4_S3_1 (ix1 k) (ix1 (⟨k.val + 1, by omega⟩ : Fin 4)) fun d => by
    match d with
    | ⟨0, _⟩ => show k.val + 1 = 1 + k.val; omega

/-- The zero constant spread over three entries reads `0` everywhere. -/
theorem zero_read (i : S3.Idx) :
    broadcastInDim S3 ![] bcast_S_S3 (constant (F := Ideal) S_ .f32 0x00000000#32) i = 0 :=
  (broadcastInDim_apply _ bcast_S_S3 _ i ix0 (fun a => a.elim0)).trans
    ((constant_apply (s := S_) (φ := .f32) 0x00000000#32 ix0).trans Ideal.ofBits_zero_f32)

end Parts

/-- Under the precondition, entries `1, 2, 3` of the degree scalars are nonzero on every device. -/
theorem deg_ne {hP : Cert.Pre_finite_inputs.Facts}
    (m : (ℓ : Loc Cert.KernelIdeal.nD Cert.KernelIdeal.τ Cert.KernelIdeal.sig) → Buf (Elt Ideal) ℓ)
    (hpre : Cert.Pre_KernelIdeal (hPre_finite_inputs := hP) m) (c : Dev Cert.KernelIdeal.nD) (k : Fin 3) :
    m ((c.tc : Thread Cert.KernelIdeal.nD Cert.KernelIdeal.τ).loc Cert.KernelIdeal.main_arg3)
      (ValueIdx.ix1 (⟨k.val + 1, by omega⟩ : Fin 4)) ≠ (0 : EReal) := by
  have h : fn_part3 (F := Ideal) _
      (extractStridedSlice S3 ![1]
        (m ((c.tc : Thread Cert.KernelIdeal.nD Cert.KernelIdeal.τ).loc Cert.KernelIdeal.main_arg3)) Facts.slices_S4_S3_1)
      (broadcastInDim S3 ![] Facts.bcast_S_S3 (constant (F := Ideal) S_ .f32 0x00000000#32)) ix0 = 1#1 :=
    congrFun (hpre c) ix0
  exact fun h0 => ne_of_part3 _ _ _ h (ix1 k) ((slice_read _ k).trans (h0.trans (zero_read (ix1 k)).symm))

end Cert.Proof.DegNonzero

end
-- ==== Proof.lean ====
/-
  The idealized kernel and the reference are one function of their twelve arguments over the extended reals.

  Both programs are the same four-layer graph network. Per layer: the degree of every node (a scatter-sum of ones over
  the edges, plus one), its inverse square root, the two normalization coefficients, and twice a dense map followed by
  a gather of the rows along the edges, a scaling and a scatter-sum; from the second layer on, a message summed over a
  second edge list and a scaling by the layer's scalar; and a closing two-layer perceptron. The reference does all of
  it with host operations. The kernel keeps the gathers and scatter-sums on the host, operation for operation the
  reference's, and does the dense maps in thirteen tiled regions: a product of rows with a weight matrix (four times),
  the rectified sum of aggregate, self term and bias times the next weight matrix (four times), the sum of aggregate,
  self term, bias and message times a scalar (four times), and the perceptron.

  So the proof is a walk along the kernel's run. At every boundary between a host stretch and a region, each live buffer
  of the kernel holds what the reference's operation of the same kind on the same operands holds (the modules
  `Bridge0` … `Bridge12`); a region's output array is the specification's function (`Spec`) of its input arrays, by its
  blocks tiling the array (`MatmulR*`, `Combine1R*`, `Combine2R*`, `FinalR12`); and the reference's stage is the same
  function of the same operands (`RefStages`). Two places are not syntactic. In the first layer the kernel adds a zero
  message and multiplies by one, which change nothing. From the second layer on the reference DIVIDES the sum by the
  layer's scalar `d` where the kernel MULTIPLIES by `1 / d`: for `d ≠ 0` both are the product with `d⁻¹`; at `d = 0`
  they differ (`0 / 0` against `0 · (1 / 0)`), which is why the precondition asks the three scalars to be nonzero
  (`DegNonzero`). No other fact about the inputs is used: finiteness is never opened.

  The kernel's two frames are the generated ones. The reference's frame is its run with the result dropped; that run is
  read chunk by chunk over the reference's own list of operations (`RefChunks`, `RefRun0` … `RefRun7`, `RefRun`), every
  buffer that crosses a boundary named by its stage — never as one term of the arguments, which would open every shared
  intermediate into a tree. The ideal pass's ledger is empty.
-/
import proofs.«135273_j69758858821831_1_alg».proof.Defs
import proofs.«135273_j69758858821831_1_alg».proof.Proof.Gen.Kernel
import proofs.«135273_j69758858821831_1_alg».proof.Proof.Gen.KernelIdeal
import proofs.«135273_j69758858821831_1_alg».proof.Proof.Gen.ReferenceIdeal
import proofs.«135273_j69758858821831_1_alg».proof.Proof.Gen.Pre_finite_inputs
import proofs.«135273_j69758858821831_1_alg».proof.Proof.RefReadP
import proofs.«135273_j69758858821831_1_alg».proof.Proof.RefRun
import proofs.«135273_j69758858821831_1_alg».proof.Proof.KernelFrameP
import proofs.«135273_j69758858821831_1_alg».proof.Proof.KernelIdealFrameP
import proofs.«135273_j69758858821831_1_alg».proof.Proof.KernelRun
import proofs.«135273_j69758858821831_1_alg».proof.Proof.RefStages
import proofs.«135273_j69758858821831_1_alg».proof.Proof.Bridge12
import proofs.«135273_j69758858821831_1_alg».proof.Proof.DegNonzero
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.GenP.frame m ρ

theorem frame_ki : Cert.frame_KernelIdeal (hKernelIdeal := Cert.KernelIdeal.Gen.facts) (hPre_finite_inputs := Cert.Pre_finite_inputs.Gen.facts) :=
  fun m ρ _ => Cert.KernelIdeal.GenP.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefRun.run m ρ)

/-- Both runs end with the result at the reference's last stage of the kernel's arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hd : ∀ (c : Dev Cert.KernelIdeal.nD) (k : Fin 3),
      m ((c.tc : Thread Cert.KernelIdeal.nD Cert.KernelIdeal.τ).loc Cert.KernelIdeal.main_arg3) (ValueIdx.ix1 (⟨k.val + 1, by omega⟩ : Fin 4)) ≠ (0 : EReal) :=
    fun c k => Cert.Proof.DegNonzero.deg_ne m hpre c k
  refine ⟨fun c => Cert.ReferenceIdeal.ReadP.val_main_v378 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ⟨(h c).1.trans ?_, (h c).2⟩) (Cert.KernelIdeal.KRun.run_value m ρ)
    refine Cert.Bridge.at_v346_26 m ρ c ?_ ?_ ?_
    · rw [Cert.ReferenceIdeal.Stages.dsc_main_v172]; exact hd c 0
    · rw [Cert.ReferenceIdeal.Stages.dsc_main_v269]; exact hd c 1
    · rw [Cert.ReferenceIdeal.Stages.dsc_main_v366]; exact hd c 2
  · refine (θ_run Cert.ReferenceIdeal.defs _ _).mono (fun _ h c => ⟨?_, (h c).2⟩) (Cert.RefRun.run m' ρ')
    obtain ⟨e0, e1, e2, e3, e4, e5, e6, e7, e8, e9, e10, e11⟩ := hagree c
    rw [(h c).1, e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
